-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x512 : Shape := ⟨2, ![4096, 512]⟩
abbrev S512x256 : Shape := ⟨2, ![512, 256]⟩
abbrev S256x64 : Shape := ⟨2, ![256, 64]⟩
abbrev S256 : Shape := ⟨1, ![256]⟩
abbrev S256x256 : Shape := ⟨2, ![256, 256]⟩
abbrev S256x16 : Shape := ⟨2, ![256, 16]⟩
abbrev S16 : Shape := ⟨1, ![16]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg7 : FVec F S256x256 .f32) (main_arg8 : FVec F S256 .f32) (main_arg9 : FVec F S256x16 .f32) (main_arg10 : FVec F S16 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x16 .f32 := Host.absf main_arg9
  let main_cst_16 : FVec F S_ .f32 := constant S_ .f32 0x7F800000#32
  let main_v45 : FVec F S256x16 .f32 := broadcastInDim S256x16 ![] bcast_S_S256x16 main_cst_16
  let main_v46 : IVec S256x16 1 := cmpf .olt main_v44 main_v45
  let main_c_17 : IVec S_ 1 := constantI S_ 1 1#1
  let main_v47 : IVec S_ 1 := (fun x v => Host.reduce IntOp.andi x v reducesTo_S256x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg4 : FVec F S256x64 .f32) (main_arg5 : FVec F S512x256 .f32) (main_arg6 : FVec F S256 .f32) (main_arg7 : FVec F S256x256 .f32) (main_arg8 : FVec F S256 .f32) (main_arg9 : FVec F S256x16 .f32) (main_arg10 : FVec F S16 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x4096 .f32) (main_arg1 : FVec F S4096x4096 .f32) (main_arg2 : FVec F S4096x512 .f32) (main_arg3 : FVec F S512x256 .f32) (main_arg4 : FVec F S256x64 .f32) (main_arg5 : FVec F S512x256 .f32) (main_arg6 : FVec F S256 .f32) (main_arg7 : FVec F S256x256 .f32) (main_arg8 : FVec F S256 .f32) (main_arg9 : FVec F S256x16 .f32) (main_arg10 : FVec F S16 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_arg10 main_v13 main_v16
-- ==== Kernel.lean ====
abbrev S4096x4096 : Shape := ⟨2, ![4096, 4096]⟩
abbrev S4096x512 : Shape := ⟨2, ![4096, 512]⟩
abbrev S512x256 : Shape := ⟨2, ![512, 256]⟩
abbrev S256x64 : Shape := ⟨2, ![256, 64]⟩
abbrev S256 : Shape := ⟨1, ![256]⟩
abbrev S256x256 : Shape := ⟨2, ![256, 256]⟩
abbrev S256x16 : Shape := ⟨2, ![256, 16]⟩
abbrev S16 : Shape := ⟨1, ![16]⟩
abbrev S_ : Shape := ⟨0, ![]⟩
abbrev S1x256 : Shape := ⟨2, ![1, 256]⟩
abbrev S4096x256 : Shape := ⟨2, ![4096, 256]⟩
abbrev S1024x512 : Shape := ⟨2, ![1024, 512]⟩
abbrev S1024x256 : Shape := ⟨2, ![1024, 256]⟩
abbrev S1024x1024 : Shape := ⟨2, ![1024, 1024]⟩
abbrev S1x64 : Shape := ⟨2, ![1, 64]⟩
abbrev S4096x64 : Shape := ⟨2, ![4096, 64]⟩
abbrev S1024x64 : Shape := ⟨2, ![1024, 64]⟩
abbrev S4096 : Shape := ⟨1, ![4096]⟩
abbrev S4096x1 : Shape := ⟨2, ![4096, 1]⟩
abbrev S4096x2 : Shape := ⟨2, ![4096, 2]⟩
abbrev S4096x128 : Shape := ⟨2, ![4096, 128]⟩
abbrev S1x4096 : Shape := ⟨2, ![1, 4096]⟩
abbrev S1024x128 : Shape := ⟨2, ![1024, 128]⟩
abbrev S1x1024 : Shape := ⟨2, ![1, 1024]⟩
abbrev S1024x1 : Shape := ⟨2, ![1024, 1]⟩
abbrev S1x16 : Shape := ⟨2, ![1, 16]⟩
abbrev S4096x16 : Shape := ⟨2, ![4096, 16]⟩
abbrev S1024x16 : Shape := ⟨2, ![1024, 16]⟩

abbrev nBuf : Space → Nat
  | .hbm => 92
  | .vmem => 89
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x512, .f32⟩
  | .hbm, ⟨3, _⟩ => ⟨S512x256, .f32⟩
  | .hbm, ⟨4, _⟩ => ⟨S256x64, .f32⟩
  | .hbm, ⟨5, _⟩ => ⟨S512x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x16, .f32⟩
  | .hbm, ⟨10, _⟩ => ⟨S16, .f32⟩
  | .hbm, ⟨11, _⟩ => ⟨S_, .f32⟩
  | .hbm, ⟨12, _⟩ => ⟨S1x256, .f32⟩
  | .hbm, ⟨13, _⟩ => ⟨S4096x256, .bf16⟩
  | .hbm, ⟨14, _⟩ => ⟨S_, .f32⟩
  | .hbm, ⟨15, _⟩ => ⟨S1x256, .f32⟩
  | .hbm, ⟨16, _⟩ => ⟨S4096x256, .bf16⟩
  | .hbm, ⟨17, _⟩ => ⟨S_, .f32⟩
  | .hbm, ⟨18, _⟩ => ⟨S1x64, .f32⟩
  | .hbm, ⟨19, _⟩ => ⟨S4096x64, .bf16⟩
  | .hbm, ⟨20, _⟩ => ⟨S_, .f32⟩
  | .hbm, ⟨21, _⟩ => ⟨S1x64, .f32⟩
  | .hbm, ⟨22, _⟩ => ⟨S4096x64, .bf16⟩
  | .hbm, ⟨23, _⟩ => ⟨S4096x4096, .f32⟩
  | .hbm, ⟨24, _⟩ => ⟨S_, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .i32⟩
  | .hbm, ⟨37, _⟩ => ⟨S_, .i32⟩
  | .hbm, ⟨38, _⟩ => ⟨S4096x4096, .i32⟩
  | .hbm, ⟨39, _⟩ => ⟨S4096x4096, .i32⟩
  | .hbm, ⟨40, _⟩ => ⟨S4096x4096, .i32⟩
  | .hbm, ⟨41, _⟩ => ⟨S4096x4096, .i1⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S4096x1, .i32⟩
  | .hbm, ⟨63, _⟩ => ⟨S4096x1, .i32⟩
  | .hbm, ⟨64, _⟩ => ⟨S4096x2, .i32⟩
  | .hbm, ⟨65, _⟩ => ⟨S_, .f32⟩
  | .hbm, ⟨66, _⟩ => ⟨S4096, .f32⟩
  | .hbm, ⟨67, _⟩ => ⟨S4096x4096, .f32⟩
  | .hbm, ⟨68, _⟩ => ⟨S_, .f32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S4096x1, .f32⟩
  | .hbm, ⟨74, _⟩ => ⟨S4096x128, .f32⟩
  | .hbm, ⟨75, _⟩ => ⟨S1x4096, .f32⟩
  | .hbm, ⟨76, _⟩ => ⟨S4096x4096, .bf16⟩
  | .hbm, ⟨77, _⟩ => ⟨S_, .f32⟩
  | .hbm, ⟨78, _⟩ => ⟨S1x256, .f32⟩
  | .hbm, ⟨79, _⟩ => ⟨S4096x256, .bf16⟩
  | .hbm, ⟨80, _⟩ => ⟨S1x256, .f32⟩
  | .hbm, ⟨81, _⟩ => ⟨S4096x256, .bf16⟩
  | .hbm, ⟨82, _⟩ => ⟨S_, .f32⟩
  | .hbm, ⟨83, _⟩ => ⟨S1x256, .f32⟩
  | .hbm, ⟨84, _⟩ => ⟨S4096x256, .bf16⟩
  | .hbm, ⟨85, _⟩ => ⟨S1x256, .f32⟩
  | .hbm, ⟨86, _⟩ => ⟨S4096x256, .bf16⟩
  | .hbm, ⟨87, _⟩ => ⟨S_, .f32⟩
  | .hbm, ⟨88, _⟩ => ⟨S1x16, .f32⟩
  | .hbm, ⟨89, _⟩ => ⟨S4096x16, .bf16⟩
  | .hbm, ⟨90, _⟩ => ⟨S1x16, .f32⟩
  | .hbm, ⟨91, _⟩ => ⟨S4096x16, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1x256, .f32⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | .local _ .vmem, ⟨7, _⟩ => ⟨S1024x1024, .f32⟩
  | .local _ .vmem, ⟨8, _⟩ => ⟨S1024x1024, .f32⟩
  | .local _ .vmem, ⟨9, _⟩ => ⟨S1024x256, .bf16⟩
  | .local _ .vmem, ⟨10, _⟩ => ⟨S1024x256, .bf16⟩
  | .local _ .vmem, ⟨11, _⟩ => ⟨S1x256, .f32⟩
  | .local _ .vmem, ⟨12, _⟩ => ⟨S1024x256, .bf16⟩
  | .local _ .vmem, ⟨13, _⟩ => ⟨S1024x256, .bf16⟩
  | .local _ .vmem, ⟨14, _⟩ => ⟨S1024x256, .f32⟩
  | .local _ .vmem, ⟨15, _⟩ => ⟨S1024x256, .bf16⟩
  | .local _ .vmem, ⟨16, _⟩ => ⟨S1024x256, .bf16⟩
  | .local _ .vmem, ⟨17, _⟩ => ⟨S256x64, .f32⟩
  | .local _ .vmem, ⟨18, _⟩ => ⟨S1x64, .f32⟩
  | .local _ .vmem, ⟨19, _⟩ => ⟨S1024x64, .bf16⟩
  | .local _ .vmem, ⟨20, _⟩ => ⟨S1024x64, .bf16⟩
  | .local _ .vmem, ⟨21, _⟩ => ⟨S1024x64, .f32⟩
  | .local _ .vmem, ⟨22, _⟩ => ⟨S1024x1024, .f32⟩
  | .local _ .vmem, ⟨23, _⟩ => ⟨S1024x1024, .f32⟩
  | .local _ .vmem, ⟨24, _⟩ => ⟨S1024x64, .bf16⟩
  | .local _ .vmem, ⟨25, _⟩ => ⟨S1024x64, .bf16⟩
  | .local _ .vmem, ⟨26, _⟩ => ⟨S1x64, .f32⟩
  | .local _ .vmem, ⟨27, _⟩ => ⟨S1024x64, .bf16⟩
  | .local _ .vmem, ⟨28, _⟩ => ⟨S1024x64, .bf16⟩
  | .local _ .vmem, ⟨29, _⟩ => ⟨S1024x64, .f32⟩
  | .local _ .vmem, ⟨30, _⟩ => ⟨S1024x64, .bf16⟩
  | .local _ .vmem, ⟨31, _⟩ => ⟨S1024x64, .bf16⟩
  | .local _ .vmem, ⟨32, _⟩ => ⟨S1024x64, .bf16⟩
  | .local _ .vmem, ⟨33, _⟩ => ⟨S1024x64, .bf16⟩
  | .local _ .vmem, ⟨34, _⟩ => ⟨S1024x1024, .f32⟩
  | .local _ .vmem, ⟨35, _⟩ => ⟨S1024x1024, .f32⟩
  | .local _ .vmem, ⟨36, _⟩ => ⟨S1024x1024, .f32⟩
  | .local _ .vmem, ⟨37, _⟩ => ⟨S1024x1024, .f32⟩
  | .local _ .vmem, ⟨38, _⟩ => ⟨S1024x128, .f32⟩
  | .local _ .vmem, ⟨39, _⟩ => ⟨S1024x128, .f32⟩
  | .local _ .vmem, ⟨40, _⟩ => ⟨S1x1024, .f32⟩
  | .local _ .vmem, ⟨41, _⟩ => ⟨S1x1024, .f32⟩
  | .local _ .vmem, ⟨42, _⟩ => ⟨S1024x1024, .bf16⟩
  | .local _ .vmem, ⟨43, _⟩ => ⟨S1024x1024, .bf16⟩
  | .local _ .vmem, ⟨44, _⟩ => ⟨S1024x512, .f32⟩
  | .local _ .vmem, ⟨45, _⟩ => ⟨S1024x512, .f32⟩
  | .local _ .vmem, ⟨46, _⟩ => ⟨S512x256, .f32⟩
  | .local _ .vmem, ⟨47, _⟩ => ⟨S1x256, .f32⟩
  | .local _ .vmem, ⟨48, _⟩ => ⟨S1024x256, .bf16⟩
  | .local _ .vmem, ⟨49, _⟩ => ⟨S1024x256, .bf16⟩
  | .local _ .vmem, ⟨50, _⟩ => ⟨S1024x256, .f32⟩
  | .local _ .vmem, ⟨51, _⟩ => ⟨S1024x1024, .bf16⟩
  | .local _ .vmem, ⟨52, _⟩ => ⟨S1024x1024, .bf16⟩
  | .local _ .vmem, ⟨53, _⟩ => ⟨S1024x256, .bf16⟩
  | .local _ .vmem, ⟨54, _⟩ => ⟨S1024x256, .bf16⟩
  | .local _ .vmem, ⟨55, _⟩ => ⟨S1x256, .f32⟩
  | .local _ .vmem, ⟨56, _⟩ => ⟨S1024x256, .bf16⟩
  | .local _ .vmem, ⟨57, _⟩ => ⟨S1024x256, .bf16⟩
  | .local _ .vmem, ⟨58, _⟩ => ⟨S1024x256, .f32⟩
  | .local _ .vmem, ⟨59, _⟩ => ⟨S1024x256, .bf16⟩
  | .local _ .vmem, ⟨60, _⟩ => ⟨S1024x256, .bf16⟩
  | .local _ .vmem, ⟨61, _⟩ => ⟨S256x256, .f32⟩
  | .local _ .vmem, ⟨62, _⟩ => ⟨S1x256, .f32⟩
  | .local _ .vmem, ⟨63, _⟩ => ⟨S1024x256, .bf16⟩
  | .local _ .vmem, ⟨64, _⟩ => ⟨S1024x256, .bf16⟩
  | .local _ .vmem, ⟨65, _⟩ => ⟨S1024x256, .f32⟩
  | .local _ .vmem, ⟨66, _⟩ => ⟨S1024x1024, .bf16⟩
  | .local _ .vmem, ⟨67, _⟩ => ⟨S1024x1024, .bf16⟩
  | .local _ .vmem, ⟨68, _⟩ => ⟨S1024x256, .bf16⟩
  | .local _ .vmem, ⟨69, _⟩ => ⟨S1024x256, .bf16⟩
  | .local _ .vmem, ⟨70, _⟩ => ⟨S1x256, .f32⟩
  | .local _ .vmem, ⟨71, _⟩ => ⟨S1024x256, .bf16⟩
  | .local _ .vmem, ⟨72, _⟩ => ⟨S1024x256, .bf16⟩
  | .local _ .vmem, ⟨73, _⟩ => ⟨S1024x256, .f32⟩
  | .local _ .vmem, ⟨74, _⟩ => ⟨S1024x256, .bf16⟩
  | .local _ .vmem, ⟨75, _⟩ => ⟨S1024x256, .bf16⟩
  | .local _ .vmem, ⟨76, _⟩ => ⟨S256x16, .f32⟩
  | .local _ .vmem, ⟨77, _⟩ => ⟨S1x16, .f32⟩
  | .local _ .vmem, ⟨78, _⟩ => ⟨S1024x16, .bf16⟩
  | .local _ .vmem, ⟨79, _⟩ => ⟨S1024x16, .bf16⟩
  | .local _ .vmem, ⟨80, _⟩ => ⟨S1024x16, .f32⟩
  | .local _ .vmem, ⟨81, _⟩ => ⟨S1024x1024, .bf16⟩
  | .local _ .vmem, ⟨82, _⟩ => ⟨S1024x1024, .bf16⟩
  | .local _ .vmem, ⟨83, _⟩ => ⟨S1024x16, .bf16⟩
  | .local _ .vmem, ⟨84, _⟩ => ⟨S1024x16, .bf16⟩
  | .local _ .vmem, ⟨85, _⟩ => ⟨S1x16, .f32⟩
  | .local _ .vmem, ⟨86, _⟩ => ⟨S1024x16, .f32⟩
  | .local _ .vmem, ⟨87, _⟩ => ⟨S1024x16, .f32⟩
  | .local _ .vmem, ⟨88, _⟩ => ⟨S1024x16, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_cst_5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_cst : Ref sig .tc := ⟨.hbm, 42, rfl⟩
abbrev main_call1_v5 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c : Ref sig .tc := ⟨.hbm, 48, rfl⟩
abbrev main_v22 : Ref sig .tc := ⟨.hbm, 49, rfl⟩
abbrev main_v23 : Ref sig .tc := ⟨.hbm, 50, rfl⟩
abbrev main_c_6 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_7 : Ref sig .tc := ⟨.hbm, 55, rfl⟩
abbrev main_v27 : Ref sig .tc := ⟨.hbm, 56, rfl⟩
abbrev main_v28 : Ref sig .tc := ⟨.hbm, 57, rfl⟩
abbrev main_c_8 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_9 : Ref sig .tc := ⟨.hbm, 65, rfl⟩
abbrev main_v35 : Ref sig .tc := ⟨.hbm, 66, rfl⟩
abbrev main_v36 : Ref sig .tc := ⟨.hbm, 67, rfl⟩
abbrev main_cst_10 : Ref sig .tc := ⟨.hbm, 68, rfl⟩
abbrev main_v37 : Ref sig .tc := ⟨.hbm, 69, rfl⟩
abbrev main_cst_11 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_12 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_13 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_14 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg3_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg3_1 : Ref sig .tc := ⟨.vmem, 49, rfl⟩
abbrev cc6_scratch0 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg3_1 : Ref sig .tc := ⟨.vmem, 57, rfl⟩
abbrev cc7_scratch0 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg2_0 : Ref sig .tc := ⟨.vmem, 62, rfl⟩
abbrev cc8_stg3_0 : Ref sig .tc := ⟨.vmem, 63, rfl⟩
abbrev cc8_stg3_1 : Ref sig .tc := ⟨.vmem, 64, rfl⟩
abbrev cc8_scratch0 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg1_1 : Ref sig .tc := ⟨.vmem, 69, rfl⟩
abbrev cc9_stg2_0 : Ref sig .tc := ⟨.vmem, 70, rfl⟩
abbrev cc9_stg3_0 : Ref sig .tc := ⟨.vmem, 71, rfl⟩
abbrev cc9_stg3_1 : Ref sig .tc := ⟨.vmem, 72, rfl⟩
abbrev cc9_scratch0 : Ref sig .tc := ⟨.vmem, 73, rfl⟩
abbrev cc10_stg0_0 : Ref sig .tc := ⟨.vmem, 74, rfl⟩
abbrev cc10_stg0_1 : Ref sig .tc := ⟨.vmem, 75, rfl⟩
abbrev cc10_stg1_0 : Ref sig .tc := ⟨.vmem, 76, rfl⟩
abbrev cc10_stg2_0 : Ref sig .tc := ⟨.vmem, 77, rfl⟩
abbrev cc10_stg3_0 : Ref sig .tc := ⟨.vmem, 78, rfl⟩
abbrev cc10_stg3_1 : Ref sig .tc := ⟨.vmem, 79, rfl⟩
abbrev cc10_scratch0 : Ref sig .tc := ⟨.vmem, 80, rfl⟩
abbrev cc11_stg0_0 : Ref sig .tc := ⟨.vmem, 81, rfl⟩
abbrev cc11_stg0_1 : Ref sig .tc := ⟨.vmem, 82, rfl⟩
abbrev cc11_stg1_0 : Ref sig .tc := ⟨.vmem, 83, rfl⟩
abbrev cc11_stg1_1 : Ref sig .tc := ⟨.vmem, 84, rfl⟩
abbrev cc11_stg2_0 : Ref sig .tc := ⟨.vmem, 85, rfl⟩
abbrev cc11_stg3_0 : Ref sig .tc := ⟨.vmem, 86, rfl⟩
abbrev cc11_stg3_1 : Ref sig .tc := ⟨.vmem, 87, rfl⟩
abbrev cc11_scratch0 : Ref sig .tc := ⟨.vmem, 88, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem3_0 : DmaSem sig := 51
abbrev cc7_sem3_1 : DmaSem sig := 52
abbrev cc8_sem0_0 : DmaSem sig := 53
abbrev cc8_sem0_1 : DmaSem sig := 54
abbrev cc8_sem1_0 : DmaSem sig := 55
abbrev cc8_sem2_0 : DmaSem sig := 56
abbrev cc8_sem3_0 : DmaSem sig := 57
abbrev cc8_sem3_1 : DmaSem sig := 58
abbrev cc9_sem0_0 : DmaSem sig := 59
abbrev cc9_sem0_1 : DmaSem sig := 60
abbrev cc9_sem1_0 : DmaSem sig := 61
abbrev cc9_sem1_1 : DmaSem sig := 62
abbrev cc9_sem2_0 : DmaSem sig := 63
abbrev cc9_sem3_0 : DmaSem sig := 64
abbrev cc9_sem3_1 : DmaSem sig := 65
abbrev cc10_sem0_0 : DmaSem sig := 66
abbrev cc10_sem0_1 : DmaSem sig := 67
abbrev cc10_sem1_0 : DmaSem sig := 68
abbrev cc10_sem2_0 : DmaSem sig := 69
abbrev cc10_sem3_0 : DmaSem sig := 70
abbrev cc10_sem3_1 : DmaSem sig := 71
abbrev cc11_sem0_0 : DmaSem sig := 72
abbrev cc11_sem0_1 : DmaSem sig := 73
abbrev cc11_sem1_0 : DmaSem sig := 74
abbrev cc11_sem1_1 : DmaSem sig := 75
abbrev cc11_sem2_0 : DmaSem sig := 76
abbrev cc11_sem3_0 : DmaSem sig := 77
abbrev cc11_sem3_1 : DmaSem sig := 78

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 1], ![false, false]⟩

def k2_cond2 (i : grid2.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![4, 4], ![false, false]⟩

def k3_cond2 (i : grid3.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![4, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S1024x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨2, ![4, 1], ![false, false]⟩

def k6_cond2 (i : grid6.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 1 → Memref sig .tc .vmem S512x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 2 → Memref sig .tc .vmem S1024x256 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨2, ![4, 4], ![false, false]⟩

def k7_cond2 (i : grid7.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1024x256 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S1024x256 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨2, ![4, 1], ![false, false]⟩

def k8_cond2 (i : grid8.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S1024x256 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 1 → Memref sig .tc .vmem S256x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 2 → Memref sig .tc .vmem S1024x256 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev grid9 : Pipeline.Grid := ⟨2, ![4, 4], ![false, false]⟩

def k9_cond2 (i : grid9.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S1024x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1024x256 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, false]

abbrev stage9_3 : Fin 2 → Memref sig .tc .vmem S1024x256 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev grid10 : Pipeline.Grid := ⟨2, ![4, 1], ![false, false]⟩

def k10_cond2 (i : grid10.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S1024x256 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 1 → Memref sig .tc .vmem S256x16 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true]

abbrev stage10_2 : Fin 1 → Memref sig .tc .vmem S1x16 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false, false]

abbrev stage10_3 : Fin 2 → Memref sig .tc .vmem S1024x16 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

abbrev grid11 : Pipeline.Grid := ⟨2, ![4, 4], ![false, false]⟩

def k11_cond2 (i : grid11.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S1024x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 2 → Memref sig .tc .vmem S1024x16 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 1 → Memref sig .tc .vmem S1x16 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false, false]

abbrev stage11_3 : Fin 2 → Memref sig .tc .vmem S1024x16 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, false]

class Facts₀ : Prop where
  bcast_S_S1x256 : S_.BroadcastsInDim S1x256 (![] : Fin 0 → Fin S1x256.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  packedbf16_S1024x256_S1024x256_0_0 : (Rect.unit (s := S1024x256) ![0, 0] S1024x256.size inb_S1024x256_S1024x256_0_0).PackedRows (EltTy.packing .bf16)
  inb_S1024x1024_S1024x1024_0_0 : ∀ a, (![0, 0] : Fin 2 → Nat) a + S1024x1024.size a ≤ S1024x1024.size a
  h_S1024x1024 : 0 < S1024x1024.numel
  bcast_S_S1x64 : S_.BroadcastsInDim S1x64 (![] : Fin 0 → Fin S1x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  packedbf16_S1024x64_S1024x64_0_0 : (Rect.unit (s := S1024x64) ![0, 0] S1024x64.size inb_S1024x64_S1024x64_0_0).PackedRows (EltTy.packing .bf16)
  reducesTo_S4096x4096_S_d0_1 : S4096x4096.ReducesTo [0, 1] S_
  h_S_ : 0 < S_.numel
  bcast_S_S4096x4096 : S_.BroadcastsInDim S4096x4096 (![] : Fin 0 → Fin S4096x4096.rank)
  transposes_S4096x4096_S4096x4096_1_0 : S4096x4096.Transposes [1, 0] S4096x4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  reducesTo_S4096x4096_S4096_d1 : S4096x4096.ReducesTo [1] S4096
  bcast_S4096x1_S4096x128_0_1 : S4096x1.BroadcastsInDim S4096x128 (![0, 1] : Fin 2 → Fin S4096x128.rank)
  shapeCasts_S4096_S1x4096 : S4096.ShapeCasts S1x4096
  shapeCasts_S1024x1024_S1024x1024 : S1024x1024.ShapeCasts S1024x1024
  inb_S1024x128_S1024x1_0_0 : ∀ a, (![0, 0] : Fin 2 → Nat) a + S1024x1.size a ≤ S1024x128.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S256_S1x256 : S256.ShapeCasts S1x256
  inb_S256x256_S256x256_0_0 : ∀ a, (![0, 0] : Fin 2 → Nat) a + S256x256.size a ≤ S256x256.size a
  h_S256x256 : 0 < S256x256.numel
  bcast_S_S1x16 : S_.BroadcastsInDim S1x16 (![] : Fin 0 → Fin S1x16.rank)
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  packedbf16_S1024x16_S1024x16_0_0 : (Rect.unit (s := S1024x16) ![0, 0] S1024x16.size inb_S1024x16_S1024x16_0_0).PackedRows (EltTy.packing .bf16)
  shapeCasts_S16_S1x16 : S16.ShapeCasts S1x16
  dot_S1024x512_S512x256_S1024x256_1_0_0_1_n_n_wf : DotDims.WF S1024x512 S512x256 S1024x256 [1] [0] [0] [1] [] []
  dot_S1024x1024_S1024x256_S1024x256_1_0_0_1_n_n_wf : DotDims.WF S1024x1024 S1024x256 S1024x256 [1] [0] [0] [1] [] []
  dot_S1024x256_S256x64_S1024x64_1_0_0_1_n_n_wf : DotDims.WF S1024x256 S256x64 S1024x64 [1] [0] [0] [1] [] []
  dot_S1024x1024_S1024x64_S1024x64_1_0_0_1_n_n_wf : DotDims.WF S1024x1024 S1024x64 S1024x64 [1] [0] [0] [1] [] []
  dot_S1024x64_S1024x64_S1024x1024_1_1_0_0_n_n_wf : DotDims.WF S1024x64 S1024x64 S1024x1024 [1] [1] [0] [0] [] []
  scatter_S4096x4096_S4096x2_S4096_n_01_01_1_wf : ScatterDims.WF S4096x4096 S4096x2 S4096 [] [0, 1] [0, 1] 1
  dot_S1024x256_S256x256_S1024x256_1_0_0_1_n_n_wf : DotDims.WF S1024x256 S256x256 S1024x256 [1] [0] [0] [1] [] []
  dot_S1024x256_S256x16_S1024x16_1_0_0_1_n_n_wf : DotDims.WF S1024x256 S256x16 S1024x16 [1] [0] [0] [1] [] []
  dot_S1024x1024_S1024x16_S1024x16_1_0_0_1_n_n_wf : DotDims.WF S1024x1024 S1024x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x256.size a
  hwx0_3 : ∀ i : grid0.Coords, EltTy.bits .bf16 = 32 ∨ (Rect.block (s := S4096x256) S1024x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x256.size a
  hwx1_1 : ∀ i : grid1.Coords, EltTy.bits .bf16 = 32 ∨ (Rect.block (s := S4096x256) S1024x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S4096x256.size a
  hwx1_3 : ∀ i : grid1.Coords, EltTy.bits .bf16 = 32 ∨ (Rect.block (s := S4096x256) S1024x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S4096x256.size a
  hwx2_0 : ∀ i : grid2.Coords, EltTy.bits .bf16 = 32 ∨ (Rect.block (s := S4096x256) S1024x256.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S4096x64.size a
  hwx2_3 : ∀ i : grid2.Coords, EltTy.bits .bf16 = 32 ∨ (Rect.block (s := S4096x64) S1024x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x4096.size a
  hwx3_0 : ∀ i : grid3.Coords, EltTy.bits .f32 = 32 ∨ (Rect.block (s := S4096x4096) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S4096x64.size a
  hwx3_1 : ∀ i : grid3.Coords, EltTy.bits .bf16 = 32 ∨ (Rect.block (s := S4096x64) S1024x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x64.size a ≤ S4096x64.size a
  hwx3_3 : ∀ i : grid3.Coords, EltTy.bits .bf16 = 32 ∨ (Rect.block (s := S4096x64) S1024x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x64.size a ≤ S4096x64.size a
  hwx4_0 : ∀ i : grid4.Coords, EltTy.bits .bf16 = 32 ∨ (Rect.block (s := S4096x64) S1024x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x64.size a ≤ S4096x64.size a
  hwx4_1 : ∀ i : grid4.Coords, EltTy.bits .bf16 = 32 ∨ (Rect.block (s := S4096x64) S1024x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S4096x4096.size a
  hwx4_2 : ∀ i : grid4.Coords, EltTy.bits .f32 = 32 ∨ (Rect.block (s := S4096x4096) S1024x1024.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S4096x4096.size a
  hwx5_0 : ∀ i : grid5.Coords, EltTy.bits .f32 = 32 ∨ (Rect.block (s := S4096x4096) S1024x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x128.size a ≤ S4096x128.size a
  hwx5_1 : ∀ i : grid5.Coords, EltTy.bits .f32 = 32 ∨ (Rect.block (s := S4096x128) S1024x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x4096.size a
  hwx5_2 : ∀ i : grid5.Coords, EltTy.bits .f32 = 32 ∨ (Rect.block (s := S1x4096) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x1024.size a ≤ S4096x4096.size a
  hwx5_3 : ∀ i : grid5.Coords, EltTy.bits .bf16 = 32 ∨ (Rect.block (s := S4096x4096) S1024x1024.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x512.size a ≤ S4096x512.size a
  hwx6_0 : ∀ i : grid6.Coords, EltTy.bits .f32 = 32 ∨ (Rect.block (s := S4096x512) S1024x512.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S512x256.size a ≤ S512x256.size a
  hwx6_1 : ∀ i : grid6.Coords, EltTy.bits .f32 = 32 ∨ (Rect.block (s := S512x256) S512x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x256.size a ≤ S4096x256.size a
  hwx6_3 : ∀ i : grid6.Coords, EltTy.bits .bf16 = 32 ∨ (Rect.block (s := S4096x256) S1024x256.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x1024.size a ≤ S4096x4096.size a
  hwx7_0 : ∀ i : grid7.Coords, EltTy.bits .bf16 = 32 ∨ (Rect.block (s := S4096x4096) S1024x1024.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x256.size a ≤ S4096x256.size a
  hwx7_1 : ∀ i : grid7.Coords, EltTy.bits .bf16 = 32 ∨ (Rect.block (s := S4096x256) S1024x256.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x256.size a ≤ S4096x256.size a
  hwx7_3 : ∀ i : grid7.Coords, EltTy.bits .bf16 = 32 ∨ (Rect.block (s := S4096x256) S1024x256.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x256.size a ≤ S4096x256.size a
  hwx8_0 : ∀ i : grid8.Coords, EltTy.bits .bf16 = 32 ∨ (Rect.block (s := S4096x256) S1024x256.size (cc8_transform_0 i) (hinb8_0 i)).WholeWords (EltTy.packing .bf16)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S256x256.size a ≤ S256x256.size a
  hwx8_1 : ∀ i : grid8.Coords, EltTy.bits .f32 = 32 ∨ (Rect.block (s := S256x256) S256x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1024x256.size a ≤ S4096x256.size a
  hwx8_3 : ∀ i : grid8.Coords, EltTy.bits .bf16 = 32 ∨ (Rect.block (s := S4096x256) S1024x256.size (cc8_transform_3 i) (hinb8_3 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x1024.size a ≤ S4096x4096.size a
  hwx9_0 : ∀ i : grid9.Coords, EltTy.bits .bf16 = 32 ∨ (Rect.block (s := S4096x4096) S1024x1024.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1024x256.size a ≤ S4096x256.size a
  hwx9_1 : ∀ i : grid9.Coords, EltTy.bits .bf16 = 32 ∨ (Rect.block (s := S4096x256) S1024x256.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1024x256.size a ≤ S4096x256.size a
  hwx9_3 : ∀ i : grid9.Coords, EltTy.bits .bf16 = 32 ∨ (Rect.block (s := S4096x256) S1024x256.size (cc9_transform_3 i) (hinb9_3 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x256.size a ≤ S4096x256.size a
  hwx10_0 : ∀ i : grid10.Coords, EltTy.bits .bf16 = 32 ∨ (Rect.block (s := S4096x256) S1024x256.size (cc10_transform_0 i) (hinb10_0 i)).WholeWords (EltTy.packing .bf16)
  hstage10_1 : ∀ j, (stage10_1 j).IsWhole
  nbuf10_1 : grid10.bufCount reads10_1 false = 1
  hreads10_1 : ∀ i i' : grid10.Coords, (∀ a, reads10_1 a = true → i a = i' a) → cc10_transform_1 i = cc10_transform_1 i'
  hinb10_1 : ∀ (i : grid10.Coords) a, (cc10_transform_1 i a + 1) * S256x16.size a ≤ S256x16.size a
  hwx10_1 : ∀ i : grid10.Coords, EltTy.bits .f32 = 32 ∨ (Rect.block (s := S256x16) S256x16.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x16.size a ≤ S1x16.size a
  hwx10_2 : ∀ i : grid10.Coords, EltTy.bits .f32 = 32 ∨ (Rect.block (s := S1x16) S1x16.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1024x16.size a ≤ S4096x16.size a
  hwx10_3 : ∀ i : grid10.Coords, EltTy.bits .bf16 = 32 ∨ (Rect.block (s := S4096x16) S1024x16.size (cc10_transform_3 i) (hinb10_3 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x1024.size a ≤ S4096x4096.size a
  hwx11_0 : ∀ i : grid11.Coords, EltTy.bits .bf16 = 32 ∨ (Rect.block (s := S4096x4096) S1024x1024.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1024x16.size a ≤ S4096x16.size a
  hwx11_1 : ∀ i : grid11.Coords, EltTy.bits .bf16 = 32 ∨ (Rect.block (s := S4096x16) S1024x16.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x16.size a ≤ S1x16.size a
  hwx11_2 : ∀ i : grid11.Coords, EltTy.bits .f32 = 32 ∨ (Rect.block (s := S1x16) S1x16.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1024x16.size a ≤ S4096x16.size a
  hwx11_3 : ∀ i : grid11.Coords, EltTy.bits .f32 = 32 ∨ (Rect.block (s := S4096x16) S1024x16.size (cc11_transform_3 i) (hinb11_3 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def scatter_S4096x4096_S4096x2_S4096_n_01_01_1 : ScatterDims S4096x4096 S4096x2 S4096 where
  updateWindowDims := []
  insertedWindowDims := [0, 1]
  scatterDimsToOperandDims := [0, 1]
  indexVectorDim := 1
  wf := scatter_S4096x4096_S4096x2_S4096_n_01_01_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x16_S1024x16_1_0_0_1_n_n : DotDims S1024x256 S256x16 S1024x16 where
  lhsContracting := [1]
  rhsContracting := [0]
  lhsNonContracting := [0]
  rhsNonContracting := [1]
  lhsBatch := []
  rhsBatch := []
  wf := dot_S1024x256_S256x16_S1024x16_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf

abbrev win0_0 : Pipeline.Window sig grid0 :=
  Pipeline.Window.ofSpec (Memref.whole main_arg2) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v3) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x64.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1024x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_arg0) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S1024x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v7) S1024x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S1024x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v8) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v36) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v41) S1024x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v42) S1x1024.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v43) S1024x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_arg2) S1024x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg5) S512x256.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v44) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v45) S1024x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v43) S1024x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v45) S1024x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v46) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v47) S1024x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v47) S1024x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg7) S256x256.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v48) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v49) S1024x256.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

abbrev win9_0 : Pipeline.Window sig grid9 :=
  Pipeline.Window.ofSpec (Memref.whole main_v43) S1024x1024.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v49) S1024x256.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v50) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v51) S1024x256.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun _ => false | 3 => fun i => !(k9_cond2 i == 1#1) | ⟨_ + 4, h⟩ => absurd h (Nat.not_lt.2 (Nat.le_add_left _ _))

abbrev win10_0 : Pipeline.Window sig grid10 :=
  Pipeline.Window.ofSpec (Memref.whole main_v51) S1024x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg9) S256x16.size cc10_transform_1 reads10_1 false false 1 stage10_1 sem10_1
    hrank10 hreads10_1 hinb10_1 nbuf10_1 (Memref.isWhole_whole _) hwx10_1 hstage10_1

abbrev win10_2 : Pipeline.Window sig grid10 :=
  Pipeline.Window.ofSpec (Memref.whole main_v52) S1x16.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v53) S1024x16.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun _ => false | 3 => fun i => !(k10_cond2 i == 1#1) | ⟨_ + 4, h⟩ => absurd h (Nat.not_lt.2 (Nat.le_add_left _ _))

abbrev win11_0 : Pipeline.Window sig grid11 :=
  Pipeline.Window.ofSpec (Memref.whole main_v43) S1024x1024.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v53) S1024x16.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v54) S1x16.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v55) S1024x16.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev idle11 : Fin 4 → grid11.Coords → Bool := fun | 0 => fun _ => false | 1 => fun _ => false | 2 => fun _ => false | 3 => fun i => !(k11_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x512 : Shape := ⟨2, ![4096, 512]⟩
abbrev S512x256 : Shape := ⟨2, ![512, 256]⟩
abbrev S256x64 : Shape := ⟨2, ![256, 64]⟩
abbrev S256 : Shape := ⟨1, ![256]⟩
abbrev S256x256 : Shape := ⟨2, ![256, 256]⟩
abbrev S256x16 : Shape := ⟨2, ![256, 16]⟩
abbrev S16 : Shape := ⟨1, ![16]⟩
abbrev S4096x256 : Shape := ⟨2, ![4096, 256]⟩
abbrev S4096x64 : Shape := ⟨2, ![4096, 64]⟩
abbrev S_ : Shape := ⟨0, ![]⟩
abbrev S64x4096 : Shape := ⟨2, ![64, 4096]⟩
abbrev S4096 : Shape := ⟨1, ![4096]⟩
abbrev S4096x1 : Shape := ⟨2, ![4096, 1]⟩
abbrev S4096x2 : Shape := ⟨2, ![4096, 2]⟩
abbrev S1x4096 : Shape := ⟨2, ![1, 4096]⟩
abbrev S1x256 : Shape := ⟨2, ![1, 256]⟩
abbrev S4096x16 : Shape := ⟨2, ![4096, 16]⟩
abbrev S1x16 : Shape := ⟨2, ![1, 16]⟩

abbrev nBuf : Space → Nat
  | .hbm => 98
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x512, .f32⟩
  | .hbm, ⟨3, _⟩ => ⟨S512x256, .f32⟩
  | .hbm, ⟨4, _⟩ => ⟨S256x64, .f32⟩
  | .hbm, ⟨5, _⟩ => ⟨S512x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x16, .f32⟩
  | .hbm, ⟨10, _⟩ => ⟨S16, .f32⟩
  | .hbm, ⟨11, _⟩ => ⟨S4096x256, .f32⟩
  | .hbm, ⟨12, _⟩ => ⟨S4096x256, .f32⟩
  | .hbm, ⟨13, _⟩ => ⟨S4096x64, .f32⟩
  | .hbm, ⟨14, _⟩ => ⟨S4096x64, .f32⟩
  | .hbm, ⟨15, _⟩ => ⟨S_, .f32⟩
  | .hbm, ⟨16, _⟩ => ⟨S4096x64, .f32⟩
  | .hbm, ⟨17, _⟩ => ⟨S4096x64, .f32⟩
  | .hbm, ⟨18, _⟩ => ⟨S64x4096, .f32⟩
  | .hbm, ⟨19, _⟩ => ⟨S4096x4096, .f32⟩
  | .hbm, ⟨20, _⟩ => ⟨S_, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .i32⟩
  | .hbm, ⟨35, _⟩ => ⟨S_, .i32⟩
  | .hbm, ⟨36, _⟩ => ⟨S4096x4096, .i32⟩
  | .hbm, ⟨37, _⟩ => ⟨S4096x4096, .i32⟩
  | .hbm, ⟨38, _⟩ => ⟨S4096x4096, .i32⟩
  | .hbm, ⟨39, _⟩ => ⟨S4096x4096, .i1⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096, .i32⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S4096x1, .i32⟩
  | .hbm, ⟨61, _⟩ => ⟨S4096x1, .i32⟩
  | .hbm, ⟨62, _⟩ => ⟨S4096x2, .i32⟩
  | .hbm, ⟨63, _⟩ => ⟨S_, .f32⟩
  | .hbm, ⟨64, _⟩ => ⟨S4096, .f32⟩
  | .hbm, ⟨65, _⟩ => ⟨S4096x4096, .f32⟩
  | .hbm, ⟨66, _⟩ => ⟨S_, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S4096x1, .f32⟩
  | .hbm, ⟨72, _⟩ => ⟨S4096x4096, .f32⟩
  | .hbm, ⟨73, _⟩ => ⟨S4096x4096, .f32⟩
  | .hbm, ⟨74, _⟩ => ⟨S1x4096, .f32⟩
  | .hbm, ⟨75, _⟩ => ⟨S4096x4096, .f32⟩
  | .hbm, ⟨76, _⟩ => ⟨S4096x4096, .f32⟩
  | .hbm, ⟨77, _⟩ => ⟨S4096x256, .f32⟩
  | .hbm, ⟨78, _⟩ => ⟨S4096x256, .f32⟩
  | .hbm, ⟨79, _⟩ => ⟨S1x256, .f32⟩
  | .hbm, ⟨80, _⟩ => ⟨S4096x256, .f32⟩
  | .hbm, ⟨81, _⟩ => ⟨S4096x256, .f32⟩
  | .hbm, ⟨82, _⟩ => ⟨S_, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S4096x256, .f32⟩
  | .hbm, ⟨87, _⟩ => ⟨S1x256, .f32⟩
  | .hbm, ⟨88, _⟩ => ⟨S4096x256, .f32⟩
  | .hbm, ⟨89, _⟩ => ⟨S4096x256, .f32⟩
  | .hbm, ⟨90, _⟩ => ⟨S_, .f32⟩
  | .hbm, ⟨91, _⟩ => ⟨S4096x256, .f32⟩
  | .hbm, ⟨92, _⟩ => ⟨S4096x256, .f32⟩
  | .hbm, ⟨93, _⟩ => ⟨S4096x16, .f32⟩
  | .hbm, ⟨94, _⟩ => ⟨S4096x16, .f32⟩
  | .hbm, ⟨95, _⟩ => ⟨S1x16, .f32⟩
  | .hbm, ⟨96, _⟩ => ⟨S4096x16, .f32⟩
  | .hbm, ⟨97, _⟩ => ⟨S4096x16, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call2_v0 : Ref sig .tc := ⟨.hbm, 34, rfl⟩
abbrev main_call2_c : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_cst : Ref sig .tc := ⟨.hbm, 40, rfl⟩
abbrev main_call2_v5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c : Ref sig .tc := ⟨.hbm, 46, rfl⟩
abbrev main_v22 : Ref sig .tc := ⟨.hbm, 47, rfl⟩
abbrev main_v23 : Ref sig .tc := ⟨.hbm, 48, rfl⟩
abbrev main_c_2 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_3 : Ref sig .tc := ⟨.hbm, 53, rfl⟩
abbrev main_v27 : Ref sig .tc := ⟨.hbm, 54, rfl⟩
abbrev main_v28 : Ref sig .tc := ⟨.hbm, 55, rfl⟩
abbrev main_c_4 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_cst_6 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_call3_cst : Ref sig .tc := ⟨.hbm, 82, rfl⟩
abbrev main_call3_v0 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_call4_cst : Ref sig .tc := ⟨.hbm, 90, rfl⟩
abbrev main_call4_v0 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩

abbrev nD : Nat := 1
abbrev τ : Topo := Topo.v7x

variable {F : FTy → Type} [FloatOps F]

class Facts₀ : Prop where
  bcast_S_S4096x64 : S_.BroadcastsInDim S4096x64 (![] : Fin 0 → Fin S4096x64.rank)
  transposes_S4096x64_S64x4096_1_0 : S4096x64.Transposes [1, 0] S64x4096
  reducesTo_S4096x4096_S_d0_1 : S4096x4096.ReducesTo [0, 1] S_
  h_S_ : 0 < S_.numel
  bcast_S_S4096x4096 : S_.BroadcastsInDim S4096x4096 (![] : Fin 0 → Fin S4096x4096.rank)
  transposes_S4096x4096_S4096x4096_1_0 : S4096x4096.Transposes [1, 0] S4096x4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  reducesTo_S4096x4096_S4096_d1 : S4096x4096.ReducesTo [1] S4096
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  dot_S4096x512_S512x256_S4096x256_1_0_0_1_n_n_wf : DotDims.WF S4096x512 S512x256 S4096x256 [1] [0] [0] [1] [] []
  dot_S4096x4096_S4096x256_S4096x256_1_0_0_1_n_n_wf : DotDims.WF S4096x4096 S4096x256 S4096x256 [1] [0] [0] [1] [] []
  dot_S4096x256_S256x64_S4096x64_1_0_0_1_n_n_wf : DotDims.WF S4096x256 S256x64 S4096x64 [1] [0] [0] [1] [] []
  dot_S4096x4096_S4096x64_S4096x64_1_0_0_1_n_n_wf : DotDims.WF S4096x4096 S4096x64 S4096x64 [1] [0] [0] [1] [] []
  dot_S4096x64_S64x4096_S4096x4096_1_0_0_1_n_n_wf : DotDims.WF S4096x64 S64x4096 S4096x4096 [1] [0] [0] [1] [] []
  scatter_S4096x4096_S4096x2_S4096_n_01_01_1_wf : ScatterDims.WF S4096x4096 S4096x2 S4096 [] [0, 1] [0, 1] 1
  dot_S4096x256_S256x256_S4096x256_1_0_0_1_n_n_wf : DotDims.WF S4096x256 S256x256 S4096x256 [1] [0] [0] [1] [] []
  dot_S4096x256_S256x16_S4096x16_1_0_0_1_n_n_wf : DotDims.WF S4096x256 S256x16 S4096x16 [1] [0] [0] [1] [] []
  dot_S4096x4096_S4096x16_S4096x16_1_0_0_1_n_n_wf : DotDims.WF S4096x4096 S4096x16 S4096x16 [1] [0] [0] [1] [] []

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def scatter_S4096x4096_S4096x2_S4096_n_01_01_1 : ScatterDims S4096x4096 S4096x2 S4096 where
  updateWindowDims := []
  insertedWindowDims := [0, 1]
  scatterDimsToOperandDims := [0, 1]
  indexVectorDim := 1
  wf := scatter_S4096x4096_S4096x2_S4096_n_01_01_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x16_S4096x16_1_0_0_1_n_n : DotDims S4096x256 S256x16 S4096x16 where
  lhsContracting := [1]
  rhsContracting := [0]
  lhsNonContracting := [0]
  rhsNonContracting := [1]
  lhsBatch := []
  rhsBatch := []
  wf := dot_S4096x256_S256x16_S4096x16_1_0_0_1_n_n_wf
def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf

class Facts : Prop extends Facts₀ where

variable [Facts]
-- ==== Proof.LibRoundThrough.lean ====
/-
  Rounding "straight through" on the extended reals.

  A program may compute a rounded value as `x + (round x - x)` (the rounding error added back to the argument) instead
  of `round x`. Over the reals the two are the same number. Over the extended reals `[-∞, +∞]`, with the conventions
  `+∞ + -∞ = -∞` and `-∞ + y = -∞`, they still agree at every real and at `-∞` (which absorbs), and differ exactly at
  `+∞`: `+∞ + (+∞ - +∞) = -∞`. This file proves the agreement away from `+∞` for any integer-valued rounding lifted
  to the extended reals with both infinities fixed, and the facts that keep a max-normalised, affinely mixed
  quantity `a · (l / M) + b · y` away from `+∞`: `0 ≤ l ≤ M`, `a`, `b` and `y` real.
-/
import Idealize.ShloMosaic.PureOps.Ideal

noncomputable section

namespace Cert.Proof.RoundThrough

open Idealize.ShloMosaic

/-- Adding the rounding error back to `x` gives the rounded value, for every extended real other than `+∞`:
    at a real both sides are the integer `f r`; at `-∞` both are `-∞`, which absorbs every summand. -/
theorem add_round_sub_self (f : ℝ → ℤ) {x : EReal} (hx : x ≠ ⊤) :
    x + (Ideal.liftRound f x - x) = Ideal.liftRound f x := by
  induction x using EReal.rec with
  | bot => rw [Ideal.liftRound_bot, EReal.bot_add]
  | top => exact absurd rfl hx
  | coe r =>
    rw [Ideal.liftRound_coe, ← EReal.coe_sub, ← EReal.coe_add]
    exact congrArg _ (by ring)

/-- A quotient `l / M` with `0 ≤ l ≤ M` is never `+∞`: for `M = 0` the numerator is `0` and `0 / 0` reads `-∞`;
    for a real `M ≠ 0` the numerator is real too; for `M = +∞` the inverse is `0`. -/
theorem div_ne_top {l M : EReal} (h0 : 0 ≤ l) (hle : l ≤ M) : Ideal.div l M ≠ ⊤ := by
  unfold Ideal.div
  split_ifs with hM hl
  · exact absurd (hM ▸ hle) (not_le.mpr hl)
  · exact bot_ne_top
  · induction M using EReal.rec with
    | bot => exact absurd (le_trans h0 hle) (by simp)
    | top => simp
    | coe r =>
      induction l using EReal.rec with
      | bot => exact absurd h0 (by simp)
      | top => exact absurd hle (by simp)
      | coe s => rw [← EReal.coe_inv, ← EReal.coe_mul]; exact EReal.coe_ne_top _

/-- A real multiple of an extended real other than `+∞`, by a nonnegative factor, is not `+∞`. -/
theorem coe_mul_ne_top {a : ℝ} (ha : 0 ≤ a) {d : EReal} (hd : d ≠ ⊤) : (a : EReal) * d ≠ ⊤ := by
  induction d using EReal.rec with
  | bot =>
    rcases ha.eq_or_lt with h | h
    · rw [← h]; simp
    · rw [EReal.coe_mul_bot_of_pos h]; exact bot_ne_top
  | top => exact absurd rfl hd
  | coe s => rw [← EReal.coe_mul]; exact EReal.coe_ne_top _

/-- The mixed quantity `a · (l / M) + b · y` — a max-normalised entry blended with a real entry — is never `+∞`. -/
theorem mix_ne_top {a b y : ℝ} (ha : 0 ≤ a) {l M : EReal} (h0 : 0 ≤ l) (hle : l ≤ M) :
    (a : EReal) * Ideal.div l M + (b : EReal) * (y : EReal) ≠ ⊤ := by
  rw [← EReal.coe_mul]
  exact EReal.add_ne_top (coe_mul_ne_top ha (div_ne_top h0 hle)) (EReal.coe_ne_top _)

/-- The two ways of rounding the mixed quantity agree. -/
theorem round_mix (f : ℝ → ℤ) {a b y : ℝ} (ha : 0 ≤ a) {l M : EReal} (h0 : 0 ≤ l) (hle : l ≤ M) :
    ((a : EReal) * Ideal.div l M + (b : EReal) * (y : EReal))
        + (Ideal.liftRound f ((a : EReal) * Ideal.div l M + (b : EReal) * (y : EReal))
            - ((a : EReal) * Ideal.div l M + (b : EReal) * (y : EReal)))
      = Ideal.liftRound f ((a : EReal) * Ideal.div l M + (b : EReal) * (y : EReal)) :=
  add_round_sub_self f (mix_ne_top ha h0 hle)

end Cert.Proof.RoundThrough

end
-- ==== Proof.K.Region0.lean ====
/-
  Region 0: t1 = X·Wb, row tiles of 1024 over a 4 × 1 grid: tile p of the result is (rows 1024p … 1024p+1023 of X)·Wb, rounded to bf16.
  The contraction is one block long, so at every grid point the body zeroes its accumulator (the scratch), adds the
  product of the point's two tiles into it, and reads it out, plus the bias row, into the output tile: both of the
  body's conditions (first block, last block) hold at every point. The scratch is therefore dead between points and
  the region's invariant keeps it at unnamed contents. This file: each window's tile at a point, the body's run
  (whose witness is the list of pieces the stores leave in the output tile and in the scratch), what the output tile
  holds after the body as a function of the three input tiles, the region's proof data at any entry contents `V`,
  and the body obligation.
-/
import proofs.«107088_j31018253811971_1_alg».proof.Proof.Gen.Kernel.Launch
import proofs.«107088_j31018253811971_1_alg».proof.Proof.Gen.Kernel.Skeleton
import proofs.«107088_j31018253811971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its tile at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its tile at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its tile at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "This is the first block of the contraction": the body's first `if`, from the grid coordinates. -/
abbrev cond0_0 (i : grid0.Coords) : Prop := (Scalar.cmpi .ne (Scalar.extui (Scalar.cmpi .eq (BitVec.ofNat 32 (i 1).val) 0#32)) 0#32) = 1#1
/-- It holds at every point: the contraction axis of the grid has one position. -/
theorem hcond0_0 : ∀ t : Fin cfg0.N, cond0_0 (grid0.coords t) :=
  (by decide +kernel : ∀ t : Fin grid0.N, cond0_0 (grid0.coords t))
/-- "This is the last block of the contraction": the body's second `if`. -/
abbrev cond0_1 (i : grid0.Coords) : Prop := k0_cond2 i = 1#1
/-- It holds at every point too. -/
theorem hcond0_1 : ∀ t : Fin cfg0.N, cond0_1 (grid0.coords t) :=
  (by decide +kernel : ∀ t : Fin grid0.N, cond0_1 (grid0.coords t))
/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The staging memrefs and the scratch, as the pipeline passes them -/

abbrev VO0_3 : View sig .tc .vmem S1024x256 .bf16 := (Memref.whole cc0_stg3_0 : Memref sig .tc .vmem S1024x256 .bf16).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S1024x256 .f32 := Memref.whole cc0_scratch0

/-- The region's invariant with the accumulator split out as a memref owned at some contents. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; rfl

/-! ## The body's run -/

set_option maxHeartbeats 4000000 in
/-- The pieces the body's stores leave in the output tile (`.1`) and in the accumulator (`.2.1`), last first, WITH the
    proof that on whole memrefs — the three inputs' at contents `x0 x1 x2`, the output's and the accumulator's at
    anything — the body runs to the continuation holding the inputs' as they were and those pieces written. -/
noncomputable def kernelRun0 (c : Dev nD) (i : grid0.Coords)
    (arg2 : Memref sig .tc .vmem S1024x512 .f32) (harg2 : arg2.IsWhole) (arg3 : Memref sig .tc .vmem S512x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond0_0 i) (hc1 : cond0_1 i)
    (x0 : Vec F S1024x512 .f32) (x1 : Vec F S512x256 .f32) (x2 : Vec F S1x256 .f32) :
    Σ' (L3 : List (View.Piece (Elt F) S1024x256 .bf16)), { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc0__gemm_kernel i arg2 harg2 arg3 harg3 arg4 harg4 arg5 harg5 arg6 harg6) Kc } := by
  refine ⟨?_, ?_, fun E Kc => ?run⟩
  case run =>
    simp only [cc0__gemm_kernel_eq_skeleton]; unfold cc0__gemm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-- The output tile's pieces tile it. -/
theorem cover0_3 (c : Dev nD) (i : grid0.Coords)
    (arg2 : Memref sig .tc .vmem S1024x512 .f32) (harg2 : arg2.IsWhole) (arg3 : Memref sig .tc .vmem S512x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond0_0 i) (hc1 : cond0_1 i)
    (x0 : Vec F S1024x512 .f32) (x1 : Vec F S512x256 .f32) (x2 : Vec F S1x256 .f32) (y : S1024x256.Idx) :
    ∃ pc ∈ (kernelRun0 c i arg2 harg2 arg3 harg3 arg4 harg4 arg5 harg5 arg6 harg6 hc0 hc1 x0 x1 x2).1, y ∈ pc.1.set :=
  View.cover_of_tiledL (kernelRun0 c i arg2 harg2 arg3 harg3 arg4 harg4 arg5 harg5 arg6 harg6 hc0 hc1 x0 x1 x2).1 S1024x256.size (by sl_kernel_rfl) y

/-- What the body leaves in the output tile: its pieces read back. -/
def out0_3 (c : Dev nD) (i : grid0.Coords)
    (arg2 : Memref sig .tc .vmem S1024x512 .f32) (harg2 : arg2.IsWhole) (arg3 : Memref sig .tc .vmem S512x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond0_0 i) (hc1 : cond0_1 i)
    (x0 : Vec F S1024x512 .f32) (x1 : Vec F S512x256 .f32) (x2 : Vec F S1x256 .f32) : Vec F S1024x256 .bf16 :=
  VO0_3.read (Elt F) (VO0_3.writes (Elt F) VO0_3.junk (kernelRun0 c i arg2 harg2 arg3 harg3 arg4 harg4 arg5 harg5 arg6 harg6 hc0 hc1 x0 x1 x2).1)

/-- The output tile after the body at point `t`. -/
def outAt0 (c : Dev nD) (t : Fin cfg0.N) : Vec F S1024x256 .bf16 :=
  out0_3 c (grid0.coords t) (ms0_0 t) (hs0_0 t) (ms0_1 t) (hs0_1 t) (ms0_2 t) (hs0_2 t) (ms0_3 t) (hs0_3 t) scM0 (Memref.isWhole_whole _)
    (hcond0_0 t) (hcond0_1 t) (iblk0 V c 0 t) (iblk0 V c 1 t) (iblk0 V c 2 t)

/-! ## The region's proof data -/

/-- The proof data on core `c`: the arrays as the region finds them; after the body at point `t` each input's buffer
    at its tile and the output's at `outAt0`; the invariant the scoped rest (the accumulator among it, at anything) and
    the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: the inputs' memrefs hold their tiles, the invariant lends the accumulator at whatever it
    holds, the run applies, and the accumulator goes back into the invariant at whatever the body left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (ms0_0 t) fullShare ((dat0 V c).after 0 t) from by
      unfold Dat.leavesExact; rw [liveAt0_0 t], after0_0,
    show (dat0 V c).leavesExact 1 t = owns (c : Thread nD τ) (ms0_1 t) fullShare ((dat0 V c).after 1 t) from by
      unfold Dat.leavesExact; rw [liveAt0_1 t], after0_1,
    show (dat0 V c).leavesExact 2 t = owns (c : Thread nD τ) (ms0_2 t) fullShare ((dat0 V c).after 2 t) from by
      unfold Dat.leavesExact; rw [liveAt0_2 t], after0_2,
    show (dat0 V c).leavesExact 3 t = owns (c : Thread nD τ) (ms0_3 t) fullShare ((dat0 V c).after 3 t) from by
      unfold Dat.leavesExact; rw [liveAt0_3 t], after0_3]
  rw [show (dat0 V c).Φ t.castSucc = Pipeline.ΦA spec0 c from rfl, PhiA0_eq]
  unfold outAt0 out0_3
  iintro ⟨⟨⟨HS, Hbut⟩, Hg⟩, Ho, ⟨%d0, H0⟩, ⟨%d1, H1⟩, ⟨%d2, H2⟩, ⟨%d3, H3⟩⟩
  iapply ((kernelRun0 c (grid0.coords t) _ _ _ _ _ _ _ _ _ _ (hcond0_0 t) (hcond0_1 t) (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hbut Hg]
  · isplitl [HS Hbut]
    · isplitl [HS]
      · unfold owns; iexists _; iexists _; isplitr
        swap; · iexact HS
        ipureintro; rfl
      iexact Hbut
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.SegBase.lean ====
/-
  What every kernel region's segment record of this program shares: no condition variants, no levels (no core owes
  another anything), the state that rides beside the buffers from segment to segment (the generator register at some
  state, nothing owed), and a valuation read at the TensorCore's references.
-/
import proofs.«107088_j31018253811971_1_alg».proof.Proof.Gen.Kernel.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A valuation read at the TensorCore's references. -/
abbrev atTc (W : Dev nD → Valuation τ sig (Elt F)) : (c : Dev nD) → (b : Ref sig .tc) → Buf (Elt F) ((c : Thread nD τ).loc b) :=
  fun c b => W c b

end Cert.Kernel.Hand

end
-- ==== Proof.K.Seg0.lean ====
/-
  Region 0 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.K.Region0
import proofs.«107088_j31018253811971_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg0 (hK : ∀ c, pdats 0 c = dat0 (atTc Win) c)
    (hF : ∀ c (w : Fin cfg0.W), (dat0 (atTc Win) c).arrAt w cfg0.N = atTc Wout c (Pipeline.arrRef spec0 w))
    (hrest : ∀ c, ∀ b, b ∉ Finset.univ.image (Pipeline.arrRef spec0) → atTc Wout c b = atTc Win c b) :
    Pipeline.RegionSeg (pcfgs (F := F)) adm pdats () defs₀ 𝒱₀ L lv 0 where
  win := launch0.win.to₀
  block_pos := launch0.block_pos
  stage_whole := launch0.stage_whole
  K := PEmpty
  osem k := k.elim
  ho := Pipeline.OwnSemFacts.none _
  hbody c := by rw [hK c]; exact (body_obligation0 (atTc Win) c).loose
  hwaits := Pipeline.hwaits_of_owed_zero _ _ _ _ L lv 0 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec0 c (atTc Win c)
  hentry c := by
    rw [Pipeline.ownSems0_none]
    have hsplit := Pipeline.arrays_of_unscopedBufs (p := 0) (pcfgs (F := F)) adm pdats launch0.win launch0.arr_whole c
      (by rw [hK c]; exact (dat0 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 0 c).Φ 0 = Pipeline.ΦA spec0 c from by rw [hK c]; rfl]; unfold Pipeline.ΦA
    iintro ⟨Hp, -, Hr⟩
    isplitl [Hr]; · iexact Hr
    iexact Hp
  hout c := by
    rw [Pipeline.ownSems0_none, show (pdats 0 c).Φ (Fin.last _) = Pipeline.ΦA spec0 c from by rw [hK c]; rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c pdats (by rw [hK c]; exact (dat0 (atTc Win) c).share_full fun _ => rfl)
      (atTc Win c) (atTc Wout c) ((pdats 0 c).arrAt · cfg0.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.Kernel.Hand

end
-- ==== Proof.K.Region1.lean ====
/-
  Region 1: hidden = A·t1 over a 4 × 4 grid (row tile p, contraction block q): tile p of the result is (rows of A in tile p)·t1, rounded to bf16.
  The contraction over 4096 is accumulated in four blocks of 1024 along the second grid axis, in a scratch the kernel
  keeps between grid points. At the first block of a row tile the body zeroes the scratch and adds the block's
  product; at the two middle blocks it adds the block's product to what the point before left; at the last block it
  does the same and then reads the scratch out, plus the bias row, into the output tile, which is written back only
  there. This file: each window's tile at a point, the body's run in each of the three cases (the witness of a run is
  the list of pieces its stores leave), what the scratch and the output tile hold after each point (a recursion over
  the points), the region's invariant (the scratch at what the point before left), its proof data at any entry
  contents `V`, and the body obligation.
-/
import proofs.«107088_j31018253811971_1_alg».proof.Proof.Gen.Kernel.Launch
import proofs.«107088_j31018253811971_1_alg».proof.Proof.Gen.Kernel.Skeleton
import proofs.«107088_j31018253811971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its tile at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its tile at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its tile at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first block of the contraction": the body's first `if`, from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last block of the contraction": the body's second `if`. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)
/-- The inputs are never idle; the output tile is idle, and not written back, except at a last block. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging memrefs and the scratch, as the pipeline passes them -/

abbrev VO1_3 : View sig .tc .vmem S1024x256 .bf16 := (Memref.whole cc1_stg3_0 : Memref sig .tc .vmem S1024x256 .bf16).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .bf16 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows, and its view. -/
abbrev scM1 : Memref sig .tc .vmem S1024x256 .f32 := Memref.whole cc1_scratch0
abbrev VS1 : View sig .tc .vmem S1024x256 .f32 := scM1.view

/-- The invariant before the first point, with the accumulator split out as a memref owned at some contents. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; rfl

/-! ## The body's run, case by case -/

set_option maxHeartbeats 4000000 in
/-- FIRST BLOCK: the pieces the stores leave in the accumulator, with the proof that on whole memrefs — the two matrix
    tiles at `x0 x1`, the accumulator at anything — the body runs to the continuation with those pieces written. The
    bias and the output tile are not touched. -/
noncomputable def kernelRun1_A (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole)
    (hc0 : cond1_0 i) (hc1 : ¬cond1_1 i) (x0 : Vec F S1024x1024 .f32) (x1 : Vec F S1024x256 .bf16) :
    { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc1__gemm_kernel i arg2 harg2 arg3 harg3 arg4 harg4 arg5 harg5 arg6 harg6) Kc } := by
  refine ⟨?_, fun E Kc => ?run⟩
  case run =>
    simp only [cc1__gemm_kernel_eq_skeleton]; unfold cc1__gemm_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- MIDDLE BLOCK: the same with the accumulator entered at `xs`, what the point before left. -/
noncomputable def kernelRun1_B (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole)
    (hc0 : ¬cond1_0 i) (hc1 : ¬cond1_1 i) (x0 : Vec F S1024x1024 .f32) (x1 : Vec F S1024x256 .bf16) (xs : Vec F S1024x256 .f32) :
    { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc1__gemm_kernel i arg2 harg2 arg3 harg3 arg4 harg4 arg5 harg5 arg6 harg6) Kc } := by
  refine ⟨?_, fun E Kc => ?run⟩
  case run =>
    simp only [cc1__gemm_kernel_eq_skeleton]; unfold cc1__gemm_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- LAST BLOCK: the pieces left in the output tile (`.1`) and in the accumulator (`.2.1`); the bias row at `x2`, the
    output tile entered at anything, the accumulator at `xs`. -/
noncomputable def kernelRun1_C (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole)
    (hc0 : ¬cond1_0 i) (hc1 : cond1_1 i) (x0 : Vec F S1024x1024 .f32) (x1 : Vec F S1024x256 .bf16) (x2 : Vec F S1x256 .f32) (xs : Vec F S1024x256 .f32) :
    Σ' (L3 : List (View.Piece (Elt F) S1024x256 .bf16)), { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc1__gemm_kernel i arg2 harg2 arg3 harg3 arg4 harg4 arg5 harg5 arg6 harg6) Kc } := by
  refine ⟨?_, ?_, fun E Kc => ?run⟩
  case run =>
    simp only [cc1__gemm_kernel_eq_skeleton]; unfold cc1__gemm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves -/

theorem scover1_A (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond1_0 i) (hc1 : ¬cond1_1 i) (x0 : Vec F S1024x1024 .f32) (x1 : Vec F S1024x256 .bf16) (y : S1024x256.Idx) :
    ∃ pc ∈ (kernelRun1_A c i arg2 harg2 arg3 harg3 arg4 harg4 arg5 harg5 arg6 harg6 hc0 hc1 x0 x1).1, y ∈ pc.1.set :=
  View.cover_of_tiledL (kernelRun1_A c i arg2 harg2 arg3 harg3 arg4 harg4 arg5 harg5 arg6 harg6 hc0 hc1 x0 x1).1 S1024x256.size (by sl_kernel_rfl) y
/-- The accumulator after a first block. -/
def sout1_A (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond1_0 i) (hc1 : ¬cond1_1 i) (x0 : Vec F S1024x1024 .f32) (x1 : Vec F S1024x256 .bf16) : Vec F S1024x256 .f32 :=
  VS1.read (Elt F) (VS1.writes (Elt F) VS1.junk (kernelRun1_A c i arg2 harg2 arg3 harg3 arg4 harg4 arg5 harg5 arg6 harg6 hc0 hc1 x0 x1).1)

theorem scover1_B (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond1_0 i) (hc1 : ¬cond1_1 i) (x0 : Vec F S1024x1024 .f32) (x1 : Vec F S1024x256 .bf16) (xs : Vec F S1024x256 .f32) (y : S1024x256.Idx) :
    ∃ pc ∈ (kernelRun1_B c i arg2 harg2 arg3 harg3 arg4 harg4 arg5 harg5 arg6 harg6 hc0 hc1 x0 x1 xs).1, y ∈ pc.1.set :=
  View.cover_of_tiledL (kernelRun1_B c i arg2 harg2 arg3 harg3 arg4 harg4 arg5 harg5 arg6 harg6 hc0 hc1 x0 x1 xs).1 S1024x256.size (by sl_kernel_rfl) y
/-- The accumulator after a middle block. -/
def sout1_B (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond1_0 i) (hc1 : ¬cond1_1 i) (x0 : Vec F S1024x1024 .f32) (x1 : Vec F S1024x256 .bf16) (xs : Vec F S1024x256 .f32) : Vec F S1024x256 .f32 :=
  VS1.read (Elt F) (VS1.writes (Elt F) VS1.junk (kernelRun1_B c i arg2 harg2 arg3 harg3 arg4 harg4 arg5 harg5 arg6 harg6 hc0 hc1 x0 x1 xs).1)

theorem scover1_C (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond1_0 i) (hc1 : cond1_1 i) (x0 : Vec F S1024x1024 .f32) (x1 : Vec F S1024x256 .bf16) (x2 : Vec F S1x256 .f32) (xs : Vec F S1024x256 .f32) (y : S1024x256.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S1024x256.size (by sl_kernel_rfl) y
/-- The accumulator after a last block. -/
def sout1_C (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond1_0 i) (hc1 : cond1_1 i) (x0 : Vec F S1024x1024 .f32) (x1 : Vec F S1024x256 .bf16) (x2 : Vec F S1x256 .f32) (xs : Vec F S1024x256 .f32) : Vec F S1024x256 .f32 :=
  VS1.read (Elt F) (VS1.writes (Elt F) VS1.junk (kernelRun1_C c i arg2 harg2 arg3 harg3 arg4 harg4 arg5 harg5 arg6 harg6 hc0 hc1 x0 x1 x2 xs).2.1)
theorem cover1_C (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond1_0 i) (hc1 : cond1_1 i) (x0 : Vec F S1024x1024 .f32) (x1 : Vec F S1024x256 .bf16) (x2 : Vec F S1x256 .f32) (xs : Vec F S1024x256 .f32) (y : S1024x256.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S1024x256.size (by sl_kernel_rfl) y
/-- The output tile after a last block. -/
def out1_C (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond1_0 i) (hc1 : cond1_1 i) (x0 : Vec F S1024x1024 .f32) (x1 : Vec F S1024x256 .bf16) (x2 : Vec F S1x256 .f32) (xs : Vec F S1024x256 .f32) : Vec F S1024x256 .bf16 :=
  VO1_3.read (Elt F) (VO1_3.writes (Elt F) VO1_3.junk (kernelRun1_C c i arg2 harg2 arg3 harg3 arg4 harg4 arg5 harg5 arg6 harg6 hc0 hc1 x0 x1 x2 xs).1)

/-! ## What the accumulator and the output tile hold after each point -/

/-- THE ACCUMULATION: the accumulator after the body at position `n` — after a first block what that block leaves,
    otherwise what this block leaves over what position `n - 1` left. -/
def accAt1 (c : Dev nD) : (n : ℕ) → n < cfg1.N → Vec F S1024x256 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _)
      ((hcond1_0 ⟨0, hn⟩).mpr (Nat.zero_mod _)) (fun h => by have h3 := (hcond1_1 ⟨0, hn⟩).mp h; (try dsimp only at h3); omega) (iblk1 V c 0 ⟨0, hn⟩) (iblk1 V c 1 ⟨0, hn⟩)
  | n + 1, hn =>
    if h0 : (n + 1) % 4 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _)
        ((hcond1_0 ⟨n + 1, hn⟩).mpr h0) (fun h => by have h3 := (hcond1_1 ⟨n + 1, hn⟩).mp h; (try dsimp only at h3); omega) (iblk1 V c 0 ⟨n + 1, hn⟩) (iblk1 V c 1 ⟨n + 1, hn⟩)
    else if h1 : (n + 1) % 4 = 3 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _)
        (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (accAt1 c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _)
        (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (accAt1 c n (Nat.lt_of_succ_lt hn))

theorem accAt1_A (c : Dev nD) (t : Fin cfg1.N) (h0 : t.val % 4 = 0) (h1 : ¬t.val % 4 = 3) :
    accAt1 V c t.val t.isLt = sout1_A c (grid1.coords t) (ms1_0 t) (hs1_0 t) (ms1_1 t) (hs1_1 t) (ms1_2 t) (hs1_2 t) (ms1_3 t) (hs1_3 t) scM1 (Memref.isWhole_whole _)
      ((hcond1_0 t).mpr h0) (fun h => h1 ((hcond1_1 t).mp h)) (iblk1 V c 0 t) (iblk1 V c 1 t) := by
  obtain ⟨n, hn⟩ := t
  cases n with
  | zero => exact rfl
  | succ n => exact (dif_pos h0).trans rfl

theorem accAt1_B (c : Dev nD) (t : Fin cfg1.N) (h0 : ¬t.val % 4 = 0) (h1 : ¬t.val % 4 = 3) :
    accAt1 V c t.val t.isLt = sout1_B c (grid1.coords t) (ms1_0 t) (hs1_0 t) (ms1_1 t) (hs1_1 t) (ms1_2 t) (hs1_2 t) (ms1_3 t) (hs1_3 t) scM1 (Memref.isWhole_whole _)
      (fun h => h0 ((hcond1_0 t).mp h)) (fun h => h1 ((hcond1_1 t).mp h)) (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt1_C (c : Dev nD) (t : Fin cfg1.N) (h0 : ¬t.val % 4 = 0) (h1 : t.val % 4 = 3) :
    accAt1 V c t.val t.isLt = sout1_C c (grid1.coords t) (ms1_0 t) (hs1_0 t) (ms1_1 t) (hs1_1 t) (ms1_2 t) (hs1_2 t) (ms1_3 t) (hs1_3 t) scM1 (Memref.isWhole_whole _)
      (fun h => h0 ((hcond1_0 t).mp h)) ((hcond1_1 t).mpr h1) (iblk1 V c 0 t) (iblk1 V c 1 t) (iblk1 V c 2 t)
      (accAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output tile after the body at point `t`: at a last block what that case stores over what the point before left in
    the accumulator; elsewhere the body stores nothing into it and the tile is not written back: a placeholder. -/
def outAt1 (c : Dev nD) (t : Fin cfg1.N) : Vec F S1024x256 .bf16 :=
  if h1 : t.val % 4 = 3 then
    out1_C c (grid1.coords t) (ms1_0 t) (hs1_0 t) (ms1_1 t) (hs1_1 t) (ms1_2 t) (hs1_2 t) (ms1_3 t) (hs1_3 t) scM1 (Memref.isWhole_whole _)
      (fun h => by have h3 := (hcond1_0 t).mp h; omega) ((hcond1_1 t).mpr h1) (iblk1 V c 0 t) (iblk1 V c 1 t) (iblk1 V c 2 t)
      (accAt1 V c (t.val - 1) (Nat.lt_of_le_of_lt (Nat.sub_le _ _) t.isLt))
  else VO1_3.read (Elt F) VO1_3.junk

/-! ## The region's invariant and proof data -/

/-- The invariant before position `n`: before the first point the scoped rest with the accumulator at anything;
    afterwards the accumulator at what the point before left, the rest of the scoped buffers, and the generator register. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accAt1 V c n hn)
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare (accAt1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data on core `c`: the arrays as the region finds them; after the body at point `t` each input's buffer
    at its tile and the output's at `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their tiles; the position modulo 4 says which case the point is
    in; the invariant lends the accumulator at what the point before left (at anything before the first point) and
    takes it back at this point's contents; at a last block the output tile is left at that case's contents, elsewhere
    it is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2]
  have hN : t.val < 16 := lt_of_lt_of_eq t.isLt (show cfg1.N = 16 from N_1)
  by_cases h0 : t.val % 4 = 0
  · -- a first block
    have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [accAt1_A V c t h0 h1]
    unfold sout1_A
    by_cases hz : t.val = 0
    · rw [PhiS1_castSucc V c t, PhiS1_zero V c _ _ hz, PhiA1_eq]
      iintro ⟨⟨⟨HS, Hbut⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover1_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, Hbut⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS]; · iexists _; iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover1_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · -- a last block
      rw [show (dat1 V c).leavesExact 3 t = owns (c : Thread nD τ) (ms1_3 t) fullShare ((dat1 V c).after 3 t) from by
        unfold Dat.leavesExact; rw [liveAt1_3 t ((hcond1_1 t).mpr h1)], after1_3]
      rw [accAt1_C V c t h0 h1]
      unfold sout1_C outAt1
      rw [dif_pos h1]
      unfold out1_C
      rw [PhiS1_castSucc V c t, PhiS1_pos V c _ _ hz]
      iintro ⟨⟨⟨HS, Hbut⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hbut Hg]
      · isplitl [HS Hbut]
        · isplitl [HS]
          · unfold owns; iexists _; isplitr
            swap; · iexact HS
            ipureintro; exact View.read_writes_of_cover _ _ _ _ _ (scover1_C c _ _ _ _ _ _ _ _ _ _ _ _ _ _ _ _ _)
          iexact Hbut
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · -- a middle block
      rw [Dat.leavesExact_idle (dat1 V c) 3 t (idleAt1_3 t (fun h => h1 ((hcond1_1 t).mp h))) (noFlush1_3 t (fun h => h1 ((hcond1_1 t).mp h)))]
      rw [accAt1_B V c t h0 h1]
      unfold sout1_B
      rw [PhiS1_castSucc V c t, PhiS1_pos V c _ _ hz]
      iintro ⟨⟨⟨HS, Hbut⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover1_B c _ _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: what the accumulator holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨HS, Hbut⟩, Hg⟩
  isplitl [HS Hbut]
  · isplitl [HS]; · iexists _; iexact HS
    iexact Hbut
  iexact Hg

end Cert.Kernel.Hand

end
-- ==== Proof.K.Seg1.lean ====
/-
  Region 1 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.K.Region1
import proofs.«107088_j31018253811971_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg1 (hK : ∀ c, pdats 1 c = dat1 (atTc Win) c)
    (hF : ∀ c (w : Fin cfg1.W), (dat1 (atTc Win) c).arrAt w cfg1.N = atTc Wout c (Pipeline.arrRef spec1 w))
    (hrest : ∀ c, ∀ b, b ∉ Finset.univ.image (Pipeline.arrRef spec1) → atTc Wout c b = atTc Win c b) :
    Pipeline.RegionSeg (pcfgs (F := F)) adm pdats () defs₀ 𝒱₀ L lv 1 where
  win := launch1.win.to₀
  block_pos := launch1.block_pos
  stage_whole := launch1.stage_whole
  K := PEmpty
  osem k := k.elim
  ho := Pipeline.OwnSemFacts.none _
  hbody c := by rw [hK c]; exact (body_obligation1 (atTc Win) c).loose
  hwaits := Pipeline.hwaits_of_owed_zero _ _ _ _ L lv 1 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec1 c (atTc Win c)
  hentry c := by
    rw [Pipeline.ownSems0_none]
    have hsplit := Pipeline.arrays_of_unscopedBufs (p := 1) (pcfgs (F := F)) adm pdats launch1.win launch1.arr_whole c
      (by rw [hK c]; exact (dat1 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hK c]
    have h := hin1 (atTc Win) c
    unfold Pipeline.ΦA at h
    iintro ⟨Hp, -, Hr⟩
    iapply h
    isplitl [Hr]; · iexact Hr
    iexact Hp
  hout c := by
    rw [Pipeline.ownSems0_none, hK c]
    have h := hout1 (atTc Win) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c pdats (by rw [hK c]; exact (dat1 (atTc Win) c).share_full fun _ => rfl)
      (atTc Win c) (atTc Wout c) ((pdats 1 c).arrAt · cfg1.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.Kernel.Hand

end
-- ==== Proof.K.Region2.lean ====
/-
  Region 2: t2 = hidden·Wm, row tiles of 1024 over a 4 × 1 grid: tile p of the result is (rows of hidden in tile p)·Wm, rounded to bf16.
  The contraction is one block long, so at every grid point the body zeroes its accumulator (the scratch), adds the
  product of the point's two tiles into it, and reads it out, plus the bias row, into the output tile: both of the
  body's conditions (first block, last block) hold at every point. The scratch is therefore dead between points and
  the region's invariant keeps it at unnamed contents. This file: each window's tile at a point, the body's run
  (whose witness is the list of pieces the stores leave in the output tile and in the scratch), what the output tile
  holds after the body as a function of the three input tiles, the region's proof data at any entry contents `V`,
  and the body obligation.
-/
import proofs.«107088_j31018253811971_1_alg».proof.Proof.Gen.Kernel.Launch
import proofs.«107088_j31018253811971_1_alg».proof.Proof.Gen.Kernel.Skeleton
import proofs.«107088_j31018253811971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its tile at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its tile at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its tile at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- "This is the first block of the contraction": the body's first `if`, from the grid coordinates. -/
abbrev cond2_0 (i : grid2.Coords) : Prop := (Scalar.cmpi .ne (Scalar.extui (Scalar.cmpi .eq (BitVec.ofNat 32 (i 1).val) 0#32)) 0#32) = 1#1
/-- It holds at every point: the contraction axis of the grid has one position. -/
theorem hcond2_0 : ∀ t : Fin cfg2.N, cond2_0 (grid2.coords t) :=
  (by decide +kernel : ∀ t : Fin grid2.N, cond2_0 (grid2.coords t))
/-- "This is the last block of the contraction": the body's second `if`. -/
abbrev cond2_1 (i : grid2.Coords) : Prop := k2_cond2 i = 1#1
/-- It holds at every point too. -/
theorem hcond2_1 : ∀ t : Fin cfg2.N, cond2_1 (grid2.coords t) :=
  (by decide +kernel : ∀ t : Fin grid2.N, cond2_1 (grid2.coords t))
/-- No window is idle at any point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-! ## The staging memrefs and the scratch, as the pipeline passes them -/

abbrev VO2_3 : View sig .tc .vmem S1024x64 .bf16 := (Memref.whole cc2_stg3_0 : Memref sig .tc .vmem S1024x64 .bf16).view
abbrev ms2_0 (t : Fin cfg2.N) : Memref sig .tc .vmem S1024x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x64 .bf16 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2 : Memref sig .tc .vmem S1024x64 .f32 := Memref.whole cc2_scratch0

/-- The region's invariant with the accumulator split out as a memref owned at some contents. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; rfl

/-! ## The body's run -/

set_option maxHeartbeats 4000000 in
/-- The pieces the body's stores leave in the output tile (`.1`) and in the accumulator (`.2.1`), last first, WITH the
    proof that on whole memrefs — the three inputs' at contents `x0 x1 x2`, the output's and the accumulator's at
    anything — the body runs to the continuation holding the inputs' as they were and those pieces written. -/
noncomputable def kernelRun2 (c : Dev nD) (i : grid2.Coords)
    (arg2 : Memref sig .tc .vmem S1024x256 .bf16) (harg2 : arg2.IsWhole) (arg3 : Memref sig .tc .vmem S256x64 .f32) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : cond2_0 i) (hc1 : cond2_1 i)
    (x0 : Vec F S1024x256 .bf16) (x1 : Vec F S256x64 .f32) (x2 : Vec F S1x64 .f32) :
    Σ' (L3 : List (View.Piece (Elt F) S1024x64 .bf16)), { LS : List (View.Piece (Elt F) S1024x64 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc2__gemm_kernel i arg2 harg2 arg3 harg3 arg4 harg4 arg5 harg5 arg6 harg6) Kc } := by
  refine ⟨?_, ?_, fun E Kc => ?run⟩
  case run =>
    simp only [cc2__gemm_kernel_eq_skeleton]; unfold cc2__gemm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-- The output tile's pieces tile it. -/
theorem cover2_3 (c : Dev nD) (i : grid2.Coords)
    (arg2 : Memref sig .tc .vmem S1024x256 .bf16) (harg2 : arg2.IsWhole) (arg3 : Memref sig .tc .vmem S256x64 .f32) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : cond2_0 i) (hc1 : cond2_1 i)
    (x0 : Vec F S1024x256 .bf16) (x1 : Vec F S256x64 .f32) (x2 : Vec F S1x64 .f32) (y : S1024x64.Idx) :
    ∃ pc ∈ (kernelRun2 c i arg2 harg2 arg3 harg3 arg4 harg4 arg5 harg5 arg6 harg6 hc0 hc1 x0 x1 x2).1, y ∈ pc.1.set :=
  View.cover_of_tiledL (kernelRun2 c i arg2 harg2 arg3 harg3 arg4 harg4 arg5 harg5 arg6 harg6 hc0 hc1 x0 x1 x2).1 S1024x64.size (by sl_kernel_rfl) y

/-- What the body leaves in the output tile: its pieces read back. -/
def out2_3 (c : Dev nD) (i : grid2.Coords)
    (arg2 : Memref sig .tc .vmem S1024x256 .bf16) (harg2 : arg2.IsWhole) (arg3 : Memref sig .tc .vmem S256x64 .f32) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : cond2_0 i) (hc1 : cond2_1 i)
    (x0 : Vec F S1024x256 .bf16) (x1 : Vec F S256x64 .f32) (x2 : Vec F S1x64 .f32) : Vec F S1024x64 .bf16 :=
  VO2_3.read (Elt F) (VO2_3.writes (Elt F) VO2_3.junk (kernelRun2 c i arg2 harg2 arg3 harg3 arg4 harg4 arg5 harg5 arg6 harg6 hc0 hc1 x0 x1 x2).1)

/-- The output tile after the body at point `t`. -/
def outAt2 (c : Dev nD) (t : Fin cfg2.N) : Vec F S1024x64 .bf16 :=
  out2_3 c (grid2.coords t) (ms2_0 t) (hs2_0 t) (ms2_1 t) (hs2_1 t) (ms2_2 t) (hs2_2 t) (ms2_3 t) (hs2_3 t) scM2 (Memref.isWhole_whole _)
    (hcond2_0 t) (hcond2_1 t) (iblk2 V c 0 t) (iblk2 V c 1 t) (iblk2 V c 2 t)

/-! ## The region's proof data -/

/-- The proof data on core `c`: the arrays as the region finds them; after the body at point `t` each input's buffer
    at its tile and the output's at `outAt2`; the invariant the scoped rest (the accumulator among it, at anything) and
    the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4000000 in
/-- The body at any point: the inputs' memrefs hold their tiles, the invariant lends the accumulator at whatever it
    holds, the run applies, and the accumulator goes back into the invariant at whatever the body left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl]
  rw [show (dat2 V c).leavesExact 0 t = owns (c : Thread nD τ) (ms2_0 t) fullShare ((dat2 V c).after 0 t) from by
      unfold Dat.leavesExact; rw [liveAt2_0 t], after2_0,
    show (dat2 V c).leavesExact 1 t = owns (c : Thread nD τ) (ms2_1 t) fullShare ((dat2 V c).after 1 t) from by
      unfold Dat.leavesExact; rw [liveAt2_1 t], after2_1,
    show (dat2 V c).leavesExact 2 t = owns (c : Thread nD τ) (ms2_2 t) fullShare ((dat2 V c).after 2 t) from by
      unfold Dat.leavesExact; rw [liveAt2_2 t], after2_2,
    show (dat2 V c).leavesExact 3 t = owns (c : Thread nD τ) (ms2_3 t) fullShare ((dat2 V c).after 3 t) from by
      unfold Dat.leavesExact; rw [liveAt2_3 t], after2_3]
  rw [show (dat2 V c).Φ t.castSucc = Pipeline.ΦA spec2 c from rfl, PhiA2_eq]
  unfold outAt2 out2_3
  iintro ⟨⟨⟨HS, Hbut⟩, Hg⟩, Ho, ⟨%d0, H0⟩, ⟨%d1, H1⟩, ⟨%d2, H2⟩, ⟨%d3, H3⟩⟩
  iapply ((kernelRun2 c (grid2.coords t) _ _ _ _ _ _ _ _ _ _ (hcond2_0 t) (hcond2_1 t) (iblk2 V c 0 t) (iblk2 V c 1 t) (iblk2 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hbut Hg]
  · isplitl [HS Hbut]
    · isplitl [HS]
      · unfold owns; iexists _; iexists _; isplitr
        swap; · iexact HS
        ipureintro; rfl
      iexact Hbut
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_3 c _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Seg2.lean ====
/-
  Region 2 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.K.Region2
import proofs.«107088_j31018253811971_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg2 (hK : ∀ c, pdats 2 c = dat2 (atTc Win) c)
    (hF : ∀ c (w : Fin cfg2.W), (dat2 (atTc Win) c).arrAt w cfg2.N = atTc Wout c (Pipeline.arrRef spec2 w))
    (hrest : ∀ c, ∀ b, b ∉ Finset.univ.image (Pipeline.arrRef spec2) → atTc Wout c b = atTc Win c b) :
    Pipeline.RegionSeg (pcfgs (F := F)) adm pdats () defs₀ 𝒱₀ L lv 2 where
  win := launch2.win.to₀
  block_pos := launch2.block_pos
  stage_whole := launch2.stage_whole
  K := PEmpty
  osem k := k.elim
  ho := Pipeline.OwnSemFacts.none _
  hbody c := by rw [hK c]; exact (body_obligation2 (atTc Win) c).loose
  hwaits := Pipeline.hwaits_of_owed_zero _ _ _ _ L lv 2 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec2 c (atTc Win c)
  hentry c := by
    rw [Pipeline.ownSems0_none]
    have hsplit := Pipeline.arrays_of_unscopedBufs (p := 2) (pcfgs (F := F)) adm pdats launch2.win launch2.arr_whole c
      (by rw [hK c]; exact (dat2 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 2 c).Φ 0 = Pipeline.ΦA spec2 c from by rw [hK c]; rfl]; unfold Pipeline.ΦA
    iintro ⟨Hp, -, Hr⟩
    isplitl [Hr]; · iexact Hr
    iexact Hp
  hout c := by
    rw [Pipeline.ownSems0_none, show (pdats 2 c).Φ (Fin.last _) = Pipeline.ΦA spec2 c from by rw [hK c]; rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c pdats (by rw [hK c]; exact (dat2 (atTc Win) c).share_full fun _ => rfl)
      (atTc Win c) (atTc Wout c) ((pdats 2 c).arrAt · cfg2.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.Kernel.Hand

end
-- ==== Proof.K.Region3.lean ====
/-
  Region 3: mean = max(A·t2, 0) over a 4 × 4 grid (row tile p, contraction block q): tile p of the result is the positive part of (rows of A in tile p)·t2, rounded to bf16.
  The contraction over 4096 is accumulated in four blocks of 1024 along the second grid axis, in a scratch the kernel
  keeps between grid points. At the first block of a row tile the body zeroes the scratch and adds the block's
  product; at the two middle blocks it adds the block's product to what the point before left; at the last block it
  does the same and then reads the scratch out, plus the bias row, into the output tile, which is written back only
  there. This file: each window's tile at a point, the body's run in each of the three cases (the witness of a run is
  the list of pieces its stores leave), what the scratch and the output tile hold after each point (a recursion over
  the points), the region's invariant (the scratch at what the point before left), its proof data at any entry
  contents `V`, and the body obligation.
-/
import proofs.«107088_j31018253811971_1_alg».proof.Proof.Gen.Kernel.Launch
import proofs.«107088_j31018253811971_1_alg».proof.Proof.Gen.Kernel.Skeleton
import proofs.«107088_j31018253811971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its tile at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its tile at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its tile at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions -/

/-- "This is the first block of the contraction": the body's first `if`, from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)
/-- "This is the last block of the contraction": the body's second `if`. -/
abbrev cond3_1 (i : grid3.Coords) : Prop := k3_cond2 i = 1#1
/-- It holds at the points ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)
/-- The inputs are never idle; the output tile is idle, and not written back, except at a last block. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## The staging memrefs and the scratch, as the pipeline passes them -/

abbrev VO3_3 : View sig .tc .vmem S1024x64 .bf16 := (Memref.whole cc3_stg3_0 : Memref sig .tc .vmem S1024x64 .bf16).view
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x64 .bf16 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows, and its view. -/
abbrev scM3 : Memref sig .tc .vmem S1024x64 .f32 := Memref.whole cc3_scratch0
abbrev VS3 : View sig .tc .vmem S1024x64 .f32 := scM3.view

/-- The invariant before the first point, with the accumulator split out as a memref owned at some contents. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; rfl

/-! ## The body's run, case by case -/

set_option maxHeartbeats 4000000 in
/-- FIRST BLOCK: the pieces the stores leave in the accumulator, with the proof that on whole memrefs — the two matrix
    tiles at `x0 x1`, the accumulator at anything — the body runs to the continuation with those pieces written. The
    bias and the output tile are not touched. -/
noncomputable def kernelRun3_A (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole)
    (hc0 : cond3_0 i) (hc1 : ¬cond3_1 i) (x0 : Vec F S1024x1024 .f32) (x1 : Vec F S1024x64 .bf16) :
    { LS : List (View.Piece (Elt F) S1024x64 .f32) //
      ∀ (E : Set ℕ) (Kc : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc3__gemm_kernel i arg2 harg2 arg3 harg3 arg4 harg4 arg5 harg5 arg6 harg6) Kc } := by
  refine ⟨?_, fun E Kc => ?run⟩
  case run =>
    simp only [cc3__gemm_kernel_eq_skeleton]; unfold cc3__gemm_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- MIDDLE BLOCK: the same with the accumulator entered at `xs`, what the point before left. -/
noncomputable def kernelRun3_B (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole)
    (hc0 : ¬cond3_0 i) (hc1 : ¬cond3_1 i) (x0 : Vec F S1024x1024 .f32) (x1 : Vec F S1024x64 .bf16) (xs : Vec F S1024x64 .f32) :
    { LS : List (View.Piece (Elt F) S1024x64 .f32) //
      ∀ (E : Set ℕ) (Kc : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc3__gemm_kernel i arg2 harg2 arg3 harg3 arg4 harg4 arg5 harg5 arg6 harg6) Kc } := by
  refine ⟨?_, fun E Kc => ?run⟩
  case run =>
    simp only [cc3__gemm_kernel_eq_skeleton]; unfold cc3__gemm_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- LAST BLOCK: the pieces left in the output tile (`.1`) and in the accumulator (`.2.1`); the bias row at `x2`, the
    output tile entered at anything, the accumulator at `xs`. -/
noncomputable def kernelRun3_C (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole)
    (hc0 : ¬cond3_0 i) (hc1 : cond3_1 i) (x0 : Vec F S1024x1024 .f32) (x1 : Vec F S1024x64 .bf16) (x2 : Vec F S1x64 .f32) (xs : Vec F S1024x64 .f32) :
    Σ' (L3 : List (View.Piece (Elt F) S1024x64 .bf16)), { LS : List (View.Piece (Elt F) S1024x64 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc3__gemm_kernel i arg2 harg2 arg3 harg3 arg4 harg4 arg5 harg5 arg6 harg6) Kc } := by
  refine ⟨?_, ?_, fun E Kc => ?run⟩
  case run =>
    simp only [cc3__gemm_kernel_eq_skeleton]; unfold cc3__gemm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves -/

theorem scover3_A (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : cond3_0 i) (hc1 : ¬cond3_1 i) (x0 : Vec F S1024x1024 .f32) (x1 : Vec F S1024x64 .bf16) (y : S1024x64.Idx) :
    ∃ pc ∈ (kernelRun3_A c i arg2 harg2 arg3 harg3 arg4 harg4 arg5 harg5 arg6 harg6 hc0 hc1 x0 x1).1, y ∈ pc.1.set :=
  View.cover_of_tiledL (kernelRun3_A c i arg2 harg2 arg3 harg3 arg4 harg4 arg5 harg5 arg6 harg6 hc0 hc1 x0 x1).1 S1024x64.size (by sl_kernel_rfl) y
/-- The accumulator after a first block. -/
def sout3_A (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : cond3_0 i) (hc1 : ¬cond3_1 i) (x0 : Vec F S1024x1024 .f32) (x1 : Vec F S1024x64 .bf16) : Vec F S1024x64 .f32 :=
  VS3.read (Elt F) (VS3.writes (Elt F) VS3.junk (kernelRun3_A c i arg2 harg2 arg3 harg3 arg4 harg4 arg5 harg5 arg6 harg6 hc0 hc1 x0 x1).1)

theorem scover3_B (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : ¬cond3_0 i) (hc1 : ¬cond3_1 i) (x0 : Vec F S1024x1024 .f32) (x1 : Vec F S1024x64 .bf16) (xs : Vec F S1024x64 .f32) (y : S1024x64.Idx) :
    ∃ pc ∈ (kernelRun3_B c i arg2 harg2 arg3 harg3 arg4 harg4 arg5 harg5 arg6 harg6 hc0 hc1 x0 x1 xs).1, y ∈ pc.1.set :=
  View.cover_of_tiledL (kernelRun3_B c i arg2 harg2 arg3 harg3 arg4 harg4 arg5 harg5 arg6 harg6 hc0 hc1 x0 x1 xs).1 S1024x64.size (by sl_kernel_rfl) y
/-- The accumulator after a middle block. -/
def sout3_B (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : ¬cond3_0 i) (hc1 : ¬cond3_1 i) (x0 : Vec F S1024x1024 .f32) (x1 : Vec F S1024x64 .bf16) (xs : Vec F S1024x64 .f32) : Vec F S1024x64 .f32 :=
  VS3.read (Elt F) (VS3.writes (Elt F) VS3.junk (kernelRun3_B c i arg2 harg2 arg3 harg3 arg4 harg4 arg5 harg5 arg6 harg6 hc0 hc1 x0 x1 xs).1)

theorem scover3_C (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : ¬cond3_0 i) (hc1 : cond3_1 i) (x0 : Vec F S1024x1024 .f32) (x1 : Vec F S1024x64 .bf16) (x2 : Vec F S1x64 .f32) (xs : Vec F S1024x64 .f32) (y : S1024x64.Idx) :
    ∃ pc ∈ (kernelRun3_C c i arg2 harg2 arg3 harg3 arg4 harg4 arg5 harg5 arg6 harg6 hc0 hc1 x0 x1 x2 xs).2.1, y ∈ pc.1.set :=
  View.cover_of_tiledL (kernelRun3_C c i arg2 harg2 arg3 harg3 arg4 harg4 arg5 harg5 arg6 harg6 hc0 hc1 x0 x1 x2 xs).2.1 S1024x64.size (by sl_kernel_rfl) y
/-- The accumulator after a last block. -/
def sout3_C (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : ¬cond3_0 i) (hc1 : cond3_1 i) (x0 : Vec F S1024x1024 .f32) (x1 : Vec F S1024x64 .bf16) (x2 : Vec F S1x64 .f32) (xs : Vec F S1024x64 .f32) : Vec F S1024x64 .f32 :=
  VS3.read (Elt F) (VS3.writes (Elt F) VS3.junk (kernelRun3_C c i arg2 harg2 arg3 harg3 arg4 harg4 arg5 harg5 arg6 harg6 hc0 hc1 x0 x1 x2 xs).2.1)
theorem cover3_C (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : ¬cond3_0 i) (hc1 : cond3_1 i) (x0 : Vec F S1024x1024 .f32) (x1 : Vec F S1024x64 .bf16) (x2 : Vec F S1x64 .f32) (xs : Vec F S1024x64 .f32) (y : S1024x64.Idx) :
    ∃ pc ∈ (kernelRun3_C c i arg2 harg2 arg3 harg3 arg4 harg4 arg5 harg5 arg6 harg6 hc0 hc1 x0 x1 x2 xs).1, y ∈ pc.1.set :=
  View.cover_of_tiledL (kernelRun3_C c i arg2 harg2 arg3 harg3 arg4 harg4 arg5 harg5 arg6 harg6 hc0 hc1 x0 x1 x2 xs).1 S1024x64.size (by sl_kernel_rfl) y
/-- The output tile after a last block. -/
def out3_C (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : ¬cond3_0 i) (hc1 : cond3_1 i) (x0 : Vec F S1024x1024 .f32) (x1 : Vec F S1024x64 .bf16) (x2 : Vec F S1x64 .f32) (xs : Vec F S1024x64 .f32) : Vec F S1024x64 .bf16 :=
  VO3_3.read (Elt F) (VO3_3.writes (Elt F) VO3_3.junk (kernelRun3_C c i arg2 harg2 arg3 harg3 arg4 harg4 arg5 harg5 arg6 harg6 hc0 hc1 x0 x1 x2 xs).1)

/-! ## What the accumulator and the output tile hold after each point -/

/-- THE ACCUMULATION: the accumulator after the body at position `n` — after a first block what that block leaves,
    otherwise what this block leaves over what position `n - 1` left. -/
def accAt3 (c : Dev nD) : (n : ℕ) → n < cfg3.N → Vec F S1024x64 .f32
  | 0, hn => sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _)
      ((hcond3_0 ⟨0, hn⟩).mpr (Nat.zero_mod _)) (fun h => by have h3 := (hcond3_1 ⟨0, hn⟩).mp h; (try dsimp only at h3); omega) (iblk3 V c 0 ⟨0, hn⟩) (iblk3 V c 1 ⟨0, hn⟩)
  | n + 1, hn =>
    if h0 : (n + 1) % 4 = 0 then
      sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
        ((hcond3_0 ⟨n + 1, hn⟩).mpr h0) (fun h => by have h3 := (hcond3_1 ⟨n + 1, hn⟩).mp h; (try dsimp only at h3); omega) (iblk3 V c 0 ⟨n + 1, hn⟩) (iblk3 V c 1 ⟨n + 1, hn⟩)
    else if h1 : (n + 1) % 4 = 3 then
      sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
        (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (accAt3 c n (Nat.lt_of_succ_lt hn))
    else
      sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
        (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (accAt3 c n (Nat.lt_of_succ_lt hn))

theorem accAt3_A (c : Dev nD) (t : Fin cfg3.N) (h0 : t.val % 4 = 0) (h1 : ¬t.val % 4 = 3) :
    accAt3 V c t.val t.isLt = sout3_A c (grid3.coords t) (ms3_0 t) (hs3_0 t) (ms3_1 t) (hs3_1 t) (ms3_2 t) (hs3_2 t) (ms3_3 t) (hs3_3 t) scM3 (Memref.isWhole_whole _)
      ((hcond3_0 t).mpr h0) (fun h => h1 ((hcond3_1 t).mp h)) (iblk3 V c 0 t) (iblk3 V c 1 t) := by
  obtain ⟨n, hn⟩ := t
  cases n with
  | zero => exact rfl
  | succ n => exact (dif_pos h0).trans rfl

theorem accAt3_B (c : Dev nD) (t : Fin cfg3.N) (h0 : ¬t.val % 4 = 0) (h1 : ¬t.val % 4 = 3) :
    accAt3 V c t.val t.isLt = sout3_B c (grid3.coords t) (ms3_0 t) (hs3_0 t) (ms3_1 t) (hs3_1 t) (ms3_2 t) (hs3_2 t) (ms3_3 t) (hs3_3 t) scM3 (Memref.isWhole_whole _)
      (fun h => h0 ((hcond3_0 t).mp h)) (fun h => h1 ((hcond3_1 t).mp h)) (iblk3 V c 0 t) (iblk3 V c 1 t)
      (accAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt3_C (c : Dev nD) (t : Fin cfg3.N) (h0 : ¬t.val % 4 = 0) (h1 : t.val % 4 = 3) :
    accAt3 V c t.val t.isLt = sout3_C c (grid3.coords t) (ms3_0 t) (hs3_0 t) (ms3_1 t) (hs3_1 t) (ms3_2 t) (hs3_2 t) (ms3_3 t) (hs3_3 t) scM3 (Memref.isWhole_whole _)
      (fun h => h0 ((hcond3_0 t).mp h)) ((hcond3_1 t).mpr h1) (iblk3 V c 0 t) (iblk3 V c 1 t) (iblk3 V c 2 t)
      (accAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output tile after the body at point `t`: at a last block what that case stores over what the point before left in
    the accumulator; elsewhere the body stores nothing into it and the tile is not written back: a placeholder. -/
def outAt3 (c : Dev nD) (t : Fin cfg3.N) : Vec F S1024x64 .bf16 :=
  if h1 : t.val % 4 = 3 then
    out3_C c (grid3.coords t) (ms3_0 t) (hs3_0 t) (ms3_1 t) (hs3_1 t) (ms3_2 t) (hs3_2 t) (ms3_3 t) (hs3_3 t) scM3 (Memref.isWhole_whole _)
      (fun h => by have h3 := (hcond3_0 t).mp h; omega) ((hcond3_1 t).mpr h1) (iblk3 V c 0 t) (iblk3 V c 1 t) (iblk3 V c 2 t)
      (accAt3 V c (t.val - 1) (Nat.lt_of_le_of_lt (Nat.sub_le _ _) t.isLt))
  else VO3_3.read (Elt F) VO3_3.junk

/-! ## The region's invariant and proof data -/

/-- The invariant before position `n`: before the first point the scoped rest with the accumulator at anything;
    afterwards the accumulator at what the point before left, the rest of the scoped buffers, and the generator register. -/
def PhiS3 (c : Dev nD) : (n : ℕ) → n ≤ cfg3.N → sProp 𝕄
  | 0, _ => Pipeline.ΦA spec3 c
  | n + 1, hn => iprop(iprop(owns (c : Thread nD τ) scM3 fullShare (accAt3 V c n hn)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare (accAt3 V c n hn)
      ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare (accAt3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The proof data on core `c`: the arrays as the region finds them; after the body at point `t` each input's buffer
    at its tile and the output's at `outAt3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outAt3 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 8000000 in
/-- The body at any point: the inputs' memrefs hold their tiles; the position modulo 4 says which case the point is
    in; the invariant lends the accumulator at what the point before left (at anything before the first point) and
    takes it back at this point's contents; at a last block the output tile is left at that case's contents, elsewhere
    it is handed back untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
      unfold Dat.leavesExact; rw [liveAt3_0 t], after3_0,
    show (dat3 V c).leavesExact 1 t = owns (c : Thread nD τ) (ms3_1 t) fullShare ((dat3 V c).after 1 t) from by
      unfold Dat.leavesExact; rw [liveAt3_1 t], after3_1,
    show (dat3 V c).leavesExact 2 t = owns (c : Thread nD τ) (ms3_2 t) fullShare ((dat3 V c).after 2 t) from by
      unfold Dat.leavesExact; rw [liveAt3_2 t], after3_2]
  have hN : t.val < 16 := lt_of_lt_of_eq t.isLt (show cfg3.N = 16 from N_3)
  by_cases h0 : t.val % 4 = 0
  · -- a first block
    have h1 : ¬t.val % 4 = 3 := by omega
    rw [Dat.leavesExact_idle (dat3 V c) 3 t (idleAt3_3 t (fun h => h1 ((hcond3_1 t).mp h))) (noFlush3_3 t (fun h => h1 ((hcond3_1 t).mp h)))]
    rw [accAt3_A V c t h0 h1]
    unfold sout3_A
    by_cases hz : t.val = 0
    · rw [PhiS3_castSucc V c t, PhiS3_zero V c _ _ hz, PhiA3_eq]
      iintro ⟨⟨⟨HS, Hbut⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t)).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover3_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, Hbut⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t)).2 Set.univ _)
      isplitl [H0]; · iexact H0
      isplitl [H1]; · iexact H1
      isplitl [HS]; · iexists _; iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover3_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · -- a last block
      rw [show (dat3 V c).leavesExact 3 t = owns (c : Thread nD τ) (ms3_3 t) fullShare ((dat3 V c).after 3 t) from by
        unfold Dat.leavesExact; rw [liveAt3_3 t ((hcond3_1 t).mpr h1)], after3_3]
      rw [accAt3_C V c t h0 h1]
      unfold sout3_C outAt3
      rw [dif_pos h1]
      unfold out3_C
      rw [PhiS3_castSucc V c t, PhiS3_pos V c _ _ hz]
      iintro ⟨⟨⟨HS, Hbut⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hbut Hg]
      · isplitl [HS Hbut]
        · isplitl [HS]
          · unfold owns; iexists _; isplitr
            swap; · iexact HS
            ipureintro; exact View.read_writes_of_cover _ _ _ _ _ (scover3_C c _ _ _ _ _ _ _ _ _ _ _ _ _ _ _ _ _)
          iexact Hbut
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C c _ _ _ _ _ _ _ _ _ _ _ _ _ _ _ _ _)
    · -- a middle block
      rw [Dat.leavesExact_idle (dat3 V c) 3 t (idleAt3_3 t (fun h => h1 ((hcond3_1 t).mp h))) (noFlush3_3 t (fun h => h1 ((hcond3_1 t).mp h)))]
      rw [accAt3_B V c t h0 h1]
      unfold sout3_B
      rw [PhiS3_castSucc V c t, PhiS3_pos V c _ _ hz]
      iintro ⟨⟨⟨HS, Hbut⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) _).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover3_B c _ _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the scoped rest back: what the accumulator holds is forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 16 := N_3; omega), PhiA3_eq]
  iintro ⟨⟨HS, Hbut⟩, Hg⟩
  isplitl [HS Hbut]
  · isplitl [HS]; · iexists _; iexact HS
    iexact Hbut
  iexact Hg

end Cert.Kernel.Hand

end
-- ==== Proof.K.Seg3.lean ====
/-
  Region 3 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.K.Region3
import proofs.«107088_j31018253811971_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg3 (hK : ∀ c, pdats 3 c = dat3 (atTc Win) c)
    (hF : ∀ c (w : Fin cfg3.W), (dat3 (atTc Win) c).arrAt w cfg3.N = atTc Wout c (Pipeline.arrRef spec3 w))
    (hrest : ∀ c, ∀ b, b ∉ Finset.univ.image (Pipeline.arrRef spec3) → atTc Wout c b = atTc Win c b) :
    Pipeline.RegionSeg (pcfgs (F := F)) adm pdats () defs₀ 𝒱₀ L lv 3 where
  win := launch3.win.to₀
  block_pos := launch3.block_pos
  stage_whole := launch3.stage_whole
  K := PEmpty
  osem k := k.elim
  ho := Pipeline.OwnSemFacts.none _
  hbody c := by rw [hK c]; exact (body_obligation3 (atTc Win) c).loose
  hwaits := Pipeline.hwaits_of_owed_zero _ _ _ _ L lv 3 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec3 c (atTc Win c)
  hentry c := by
    rw [Pipeline.ownSems0_none]
    have hsplit := Pipeline.arrays_of_unscopedBufs (p := 3) (pcfgs (F := F)) adm pdats launch3.win launch3.arr_whole c
      (by rw [hK c]; exact (dat3 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hK c]
    have h := hin3 (atTc Win) c
    unfold Pipeline.ΦA at h
    iintro ⟨Hp, -, Hr⟩
    iapply h
    isplitl [Hr]; · iexact Hr
    iexact Hp
  hout c := by
    rw [Pipeline.ownSems0_none, hK c]
    have h := hout3 (atTc Win) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c pdats (by rw [hK c]; exact (dat3 (atTc Win) c).share_full fun _ => rfl)
      (atTc Win c) (atTc Wout c) ((pdats 3 c).arrAt · cfg3.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.Kernel.Hand

end
-- ==== Proof.K.Region4.lean ====
/-
  Region 4: the edge logits `mean · meanᵀ` over a 4 × 4 grid of 1024 × 1024 tiles. At point (p, q) the body reads
  row tile p and row tile q of the SAME 4096 × 64 array `mean` (the two input windows stage one array) and stores the
  1024 × 1024 product of the first with the transpose of the second as tile (p, q) of the result. No scratch, no
  condition: one store covers the output tile. Because two windows read one array, the proof data holds it at two
  complementary half shares, one per window.
  This file: each window's tile at a point, what the body leaves in the output tile as a function of the two input
  tiles, the body's triple, the region's proof data at any entry contents `V`, and the body obligation.
-/
import proofs.«107088_j31018253811971_1_alg».proof.Proof.Gen.Kernel.Launch
import proofs.«107088_j31018253811971_1_alg».proof.Proof.Gen.Kernel.Skeleton
import proofs.«107088_j31018253811971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its tile at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its tile at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- A whole 1024 × 64 row tile of `mean`. -/
abbrev r4_0 : Rect S1024x64 := Rect.unit (s := S1024x64) ![0, 0] S1024x64.size inb_S1024x64_S1024x64_0_0
/-- The whole 1024 × 1024 result tile. -/
abbrev r4_2 : Rect S1024x1024 := Rect.unit (s := S1024x1024) ![0, 0] S1024x1024.size inb_S1024x1024_S1024x1024_0_0

/-- The output tile after the body, from the two input tiles: its one store. -/
def out4_2 (x0 : Vec F S1024x64 .bf16) (x1 : Vec F S1024x64 .bf16) : Vec F S1024x1024 .f32 :=
  View.canon [⟨r4_2, k4_pay1 (View.ld x0 r4_0) (View.ld x1 r4_0)⟩]

/-- The one store is the whole tile. -/
theorem cover4_2 (p0 : Vec F S1024x1024 .f32) (y : S1024x1024.Idx) :
    ∃ pc ∈ ([⟨r4_2, p0⟩] : List (View.Piece (Elt F) S1024x1024 .f32)), y ∈ pc.1.set :=
  View.cover_of_tiled [⟨r4_2, p0⟩] S1024x1024.size (by sl_kernel_rfl) y

/-! ## The body's triple -/

set_option maxHeartbeats 1000000 in
theorem sound_kernel4 (c : Dev nD) (E : Set ℕ) (i : grid4.Coords)
    (arg2 : Memref sig .tc .vmem S1024x64 .bf16) (harg2 : arg2.IsWhole) (arg3 : Memref sig .tc .vmem S1024x64 .bf16) (harg3 : arg3.IsWhole)
    (arg4 : Memref sig .tc .vmem S1024x1024 .f32) (harg4 : arg4.IsWhole)
    (x0 : Vec F S1024x64 .bf16) (x1 : Vec F S1024x64 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out4_2 x0 x1)) -∗ K ⟨⟩))
      ⊢ wp frame (wpE (defs₀ (F := F)) Variants.none c none) E (cc4__xxt_kernel i arg2 harg2 arg3 harg3 arg4 harg4) K := by
  simp only [cc4__xxt_kernel_eq_skeleton]; unfold cc4__xxt_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The region's proof data -/

/-- The proof data on core `c`: the arrays as the region finds them; after the body at point `t` each input's buffer
    at its tile and the output's at `out4_2` of the input tiles; the invariant the scoped rest and the generator
    register; nothing owed; the array the two input windows share held at complementary halves. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Seg4.lean ====
/-
  Region 4 as a segment of the program. Its two input windows stage one array (`mean`, the buffer `main_v7`), so the
  core's whole buffer is split into its two half shares on entry, one per window, and joined again on exit; the result
  array (`main_v8`) is held whole. Otherwise as the other regions: entered with every unscoped buffer at contents
  `Win`, left at `Wout` (`Win` except the result array, `hF`, `hrest`); the generator register goes into the
  invariant and comes back; nothing is owed; no semaphore of the kernel's own.
-/
import proofs.«107088_j31018253811971_1_alg».proof.Proof.K.Region4
import proofs.«107088_j31018253811971_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind region 4's windows are `main_v7` (twice) and `main_v8`. -/
theorem arrRefs4 : Finset.univ.image (Pipeline.arrRef spec4) = ([main_v7, main_v8] : List (Ref sig .tc)).toFinset := by decide

/-- The two buffers whole at the full share ARE the three windows' arrays at their shares: the shared buffer's two
    halves compose to the whole. -/
theorem arrays4_iff (c : Dev nD) (V : (b : Ref sig .tc) → Buf (Elt F) ((c : Thread nD τ).loc b))
    (V' : (c : Dev nD) → (b : Ref sig .tc) → Buf (Elt F) ((c : Thread nD τ).loc b))
    (Fw : (w : Fin cfg4.W) → Buf (Elt F) ((cfg4.win w).arr.view.loc (c : Thread nD τ)))
    (h0 : Fw 0 = V (Pipeline.arrRef spec4 0)) (h1 : Fw 1 = V (Pipeline.arrRef spec4 1)) (h2 : Fw 2 = V (Pipeline.arrRef spec4 2)) :
    (Pipeline.arrBufs (Ix := Unit) (Name := ℕ) (U := UR sig nD τ) (Lvl := ℕ) spec4 c V : sProp 𝕄) ⊣⊢ (dat4 V' c).arrays Fw := by
  unfold Pipeline.arrBufs Pipeline.Dat.arrays
  rw [bigSep_W4, bigSep_eq_bigSepL_of_eq [main_v7, main_v8] arrRefs4 (by decide)]
  rw [(arr_whole4 0).set_eq_univ, (arr_whole4 2).set_eq_univ,
    show (dat4 V' c).share 0 = fullShare.left from rfl, show (dat4 V' c).share 1 = fullShare.right from rfl,
    show (dat4 V' c).share 2 = fullShare from rfl, h0, h1, h2]
  show iprop(((c : Thread nD τ).loc main_v7 ↦{fullShare} V main_v7) ∗ ((c : Thread nD τ).loc main_v8 ↦{fullShare} V main_v8))
    ⊣⊢ iprop(((c : Thread nD τ).loc main_v7 ↦{fullShare.left} V main_v7) ∗ ((c : Thread nD τ).loc main_v7 ↦{fullShare.right} V main_v7) ∗ ((c : Thread nD τ).loc main_v8 ↦{fullShare} V main_v8))
  refine ⟨?_, ?_⟩
  · iintro ⟨H7, H8⟩
    ihave H := (pointsTo_share (PosShare.mem_left_op_right fullShare)).1 $$ H7
    icases H with ⟨Hl, Hr⟩
    isplitl [Hl]; · iexact Hl
    isplitl [Hr]; · iexact Hr
    iexact H8
  · iintro ⟨Hl, Hr, H8⟩
    isplitl [Hl Hr]
    · iapply (pointsTo_share (PosShare.mem_left_op_right fullShare)).2
      isplitl [Hl]; · iexact Hl
      iexact Hr
    iexact H8

variable (pdats : (p : Fin 12) → (c : Dev nD) → Dat τ (Elt F) Unit ℕ (UR sig nD τ) ℕ (cfgs p) c)
variable (Win Wout : Dev nD → Valuation τ sig (Elt F))

set_option maxHeartbeats 2000000 in
set_option backward.isDefEq.respectTransparency.types false in
def reg4 (hK : ∀ c, pdats 4 c = dat4 (atTc Win) c)
    (hF : ∀ c (w : Fin cfg4.W), (dat4 (atTc Win) c).arrAt w cfg4.N = atTc Wout c (Pipeline.arrRef spec4 w))
    (hrest : ∀ c, ∀ b, b ∉ Finset.univ.image (Pipeline.arrRef spec4) → atTc Wout c b = atTc Win c b) :
    Pipeline.RegionSeg (pcfgs (F := F)) adm pdats () defs₀ 𝒱₀ L lv 4 where
  win := winFacts₀4
  block_pos := block_pos4
  stage_whole := stage_whole4
  K := PEmpty
  osem k := k.elim
  ho := Pipeline.OwnSemFacts.none _
  hbody c := by rw [hK c]; exact (body_obligation4 (atTc Win) c).loose
  hwaits := Pipeline.hwaits_of_owed_zero _ _ _ _ L lv 4 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec4 c (atTc Win c)
  hentry c := by
    rw [Pipeline.ownSems0_none, hK c]
    have hsplit : (unscopedBufs c (atTc Win c) : sProp 𝕄)
        ⊢ iprop((dat4 (atTc Win) c).arrays (fun w => (dat4 (atTc Win) c).arrAt w 0) ∗ Pipeline.unscopedRest (Ix := Unit) (Name := ℕ) (U := UR sig nD τ) (Lvl := ℕ) spec4 c (atTc Win c)) := by
      rw [Pipeline.unscopedBufs_split₀ (Pipeline.pin (pcfgs (F := F)) adm) 4 winFacts₀4.arr_unscoped c (atTc Win c)]
      exact sep_mono (arrays4_iff c (atTc Win c) (atTc Win) (fun w => (dat4 (atTc Win) c).arrAt w 0) rfl rfl rfl).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 4 c).Φ 0 = Pipeline.ΦA spec4 c from by rw [hK c]; rfl]; unfold Pipeline.ΦA
    iintro ⟨Hp, -, Hr⟩
    isplitl [Hr]; · iexact Hr
    iexact Hp
  hout c := by
    rw [Pipeline.ownSems0_none, show (pdats 4 c).Φ (Fin.last _) = Pipeline.ΦA spec4 c from by rw [hK c]; rfl]; unfold Pipeline.ΦA
    iintro ⟨Hr, Hp⟩
    isplitl [Hp]; · iexact Hp
    isplitr; · iempintro
    iexact Hr
  hexit c := by
    rw [hK c]
    have hjoin : iprop((dat4 (atTc Win) c).arrays (fun w => (dat4 (atTc Win) c).arrAt w cfg4.N) ∗ Pipeline.unscopedRest (Ix := Unit) (Name := ℕ) (U := UR sig nD τ) (Lvl := ℕ) spec4 c (atTc Win c))
        ⊢ (unscopedBufs c (atTc Wout c) : sProp 𝕄) := by
      rw [Pipeline.unscopedBufs_split₀ (Pipeline.pin (pcfgs (F := F)) adm) 4 winFacts₀4.arr_unscoped c (atTc Wout c)]
      refine sep_mono (arrays4_iff c (atTc Wout c) (atTc Win) (fun w => (dat4 (atTc Win) c).arrAt w cfg4.N) (hF c 0) (hF c 1) (hF c 2)).2 (Entails.of_eq ?_)
      unfold Pipeline.unscopedRest
      exact bigSep_congr fun b hb => by rw [hrest c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Region5.lean ====
/-
  Region 5: the degree normalisation `out[i, j] = a[i, j] · d[i] · d[j]` over a 4 × 4 grid of 1024 × 1024 tiles.
  At point (p, q) the body reads the tile (p, q) of the adjacency, column 0 of the row-tile p of the degree vector
  laid out as 4096 × 128, and the column-tile q of the degree vector laid out as 1 × 4096, and stores the product,
  rounded to bf16, as tile (p, q) of the result. No scratch, no condition: one store covers the output tile.
  This file: each window's block at a point, what the body leaves in the output tile as a function of the three input
  tiles, the body's triple, the region's proof data at any entry contents `V`, and the body obligation.
-/
import proofs.«107088_j31018253811971_1_alg».proof.Proof.Gen.Kernel.Launch
import proofs.«107088_j31018253811971_1_alg».proof.Proof.Gen.Kernel.Skeleton
import proofs.«107088_j31018253811971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s tile at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its tile at every point, fetched there or not (when it is not
    fetched the tile index has not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 1024 × 1024 tile (the adjacency tile read, the result tile written). -/
abbrev r5_0 : Rect S1024x1024 := Rect.unit (s := S1024x1024) ![0, 0] S1024x1024.size inb_S1024x1024_S1024x1024_0_0
/-- Column 0 of the 1024 × 128 row-degree tile. -/
abbrev r5_1 : Rect S1024x128 := Rect.unit (s := S1024x128) ![0, 0] S1024x1.size inb_S1024x128_S1024x1_0_0
/-- The whole 1 × 1024 column-degree tile. -/
abbrev r5_2 : Rect S1x1024 := Rect.unit (s := S1x1024) ![0, 0] S1x1024.size inb_S1x1024_S1x1024_0_0

/-! ## What the body leaves in the output tile -/

/-- The output tile after the body, from the three input tiles: its one store. -/
def out5_3 (x0 : Vec F S1024x1024 .f32) (x1 : Vec F S1024x128 .f32) (x2 : Vec F S1x1024 .f32) : Vec F S1024x1024 .bf16 :=
  View.canon [⟨r5_0, k5_pay1 (View.ld x0 r5_0) (View.ld x1 r5_1) (View.ld x2 r5_2)⟩]

/-- The one store is the whole tile. -/
theorem cover5_3 (p0 : Vec F S1024x1024 .bf16) (y : S1024x1024.Idx) :
    ∃ pc ∈ ([⟨r5_0, p0⟩] : List (View.Piece (Elt F) S1024x1024 .bf16)), y ∈ pc.1.set :=
  View.cover_of_tiled [⟨r5_0, p0⟩] S1024x1024.size (by sl_kernel_rfl) y

/-! ## The body's triple -/

set_option maxHeartbeats 1000000 in
/-- The body on whole staging memrefs, the inputs' at contents `x0 x1 x2` and the output's at anything, runs to the
    continuation with the inputs' as they were and the output's at `out5_3` of them. -/
theorem sound_kernel5 (c : Dev nD) (E : Set ℕ) (i : grid5.Coords)
    (arg2 : Memref sig .tc .vmem S1024x1024 .f32) (harg2 : arg2.IsWhole) (arg3 : Memref sig .tc .vmem S1024x128 .f32) (harg3 : arg3.IsWhole)
    (arg4 : Memref sig .tc .vmem S1x1024 .f32) (harg4 : arg4.IsWhole) (arg5 : Memref sig .tc .vmem S1024x1024 .bf16) (harg5 : arg5.IsWhole)
    (x0 : Vec F S1024x1024 .f32) (x1 : Vec F S1024x128 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out5_3 x0 x1 x2)) -∗ K ⟨⟩))
      ⊢ wp frame (wpE (defs₀ (F := F)) Variants.none c none) E (cc5__scale_kernel i arg2 harg2 arg3 harg3 arg4 harg4 arg5 harg5) K := by
  simp only [cc5__scale_kernel_eq_skeleton]; unfold cc5__scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The region's proof data -/

/-- The proof data on core `c`: the arrays as the region finds them; after the body at point `t` each input's buffer
    at its tile and the output's at `out5_3` of the input tiles; the invariant the scoped rest and the generator
    register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their tiles, so the triple applies; the invariant and the core's
    dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Seg5.lean ====
/-
  Region 5 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.K.Region5
import proofs.«107088_j31018253811971_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg5 (hK : ∀ c, pdats 5 c = dat5 (atTc Win) c)
    (hF : ∀ c (w : Fin cfg5.W), (dat5 (atTc Win) c).arrAt w cfg5.N = atTc Wout c (Pipeline.arrRef spec5 w))
    (hrest : ∀ c, ∀ b, b ∉ Finset.univ.image (Pipeline.arrRef spec5) → atTc Wout c b = atTc Win c b) :
    Pipeline.RegionSeg (pcfgs (F := F)) adm pdats () defs₀ 𝒱₀ L lv 5 where
  win := launch5.win.to₀
  block_pos := launch5.block_pos
  stage_whole := launch5.stage_whole
  K := PEmpty
  osem k := k.elim
  ho := Pipeline.OwnSemFacts.none _
  hbody c := by rw [hK c]; exact (body_obligation5 (atTc Win) c).loose
  hwaits := Pipeline.hwaits_of_owed_zero _ _ _ _ L lv 5 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec5 c (atTc Win c)
  hentry c := by
    rw [Pipeline.ownSems0_none]
    have hsplit := Pipeline.arrays_of_unscopedBufs (p := 5) (pcfgs (F := F)) adm pdats launch5.win launch5.arr_whole c
      (by rw [hK c]; exact (dat5 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 5 c).Φ 0 = Pipeline.ΦA spec5 c from by rw [hK c]; rfl]; unfold Pipeline.ΦA
    iintro ⟨Hp, -, Hr⟩
    isplitl [Hr]; · iexact Hr
    iexact Hp
  hout c := by
    rw [Pipeline.ownSems0_none, show (pdats 5 c).Φ (Fin.last _) = Pipeline.ΦA spec5 c from by rw [hK c]; rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c pdats (by rw [hK c]; exact (dat5 (atTc Win) c).share_full fun _ => rfl)
      (atTc Win c) (atTc Wout c) ((pdats 5 c).arrAt · cfg5.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.Kernel.Hand

end
-- ==== Proof.K.Region6.lean ====
/-
  Region 6: t3 = X·W0, row tiles of 1024 over a 4 × 1 grid: tile p of the result is (rows of X in tile p)·W0, rounded to bf16.
  The contraction is one block long, so at every grid point the body zeroes its accumulator (the scratch), adds the
  product of the point's two tiles into it, and reads it out, plus the bias row, into the output tile: both of the
  body's conditions (first block, last block) hold at every point. The scratch is therefore dead between points and
  the region's invariant keeps it at unnamed contents. This file: each window's tile at a point, the body's run
  (whose witness is the list of pieces the stores leave in the output tile and in the scratch), what the output tile
  holds after the body as a function of the three input tiles, the region's proof data at any entry contents `V`,
  and the body obligation.
-/
import proofs.«107088_j31018253811971_1_alg».proof.Proof.Gen.Kernel.Launch
import proofs.«107088_j31018253811971_1_alg».proof.Proof.Gen.Kernel.Skeleton
import proofs.«107088_j31018253811971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its tile at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its tile at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its tile at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's two conditions -/

/-- "This is the first block of the contraction": the body's first `if`, from the grid coordinates. -/
abbrev cond6_0 (i : grid6.Coords) : Prop := (Scalar.cmpi .ne (Scalar.extui (Scalar.cmpi .eq (BitVec.ofNat 32 (i 1).val) 0#32)) 0#32) = 1#1
/-- It holds at every point: the contraction axis of the grid has one position. -/
theorem hcond6_0 : ∀ t : Fin cfg6.N, cond6_0 (grid6.coords t) :=
  (by decide +kernel : ∀ t : Fin grid6.N, cond6_0 (grid6.coords t))
/-- "This is the last block of the contraction": the body's second `if`. -/
abbrev cond6_1 (i : grid6.Coords) : Prop := k6_cond2 i = 1#1
/-- It holds at every point too. -/
theorem hcond6_1 : ∀ t : Fin cfg6.N, cond6_1 (grid6.coords t) :=
  (by decide +kernel : ∀ t : Fin grid6.N, cond6_1 (grid6.coords t))
/-- No window is idle at any point. -/
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel

/-! ## The staging memrefs and the scratch, as the pipeline passes them -/

abbrev VO6_3 : View sig .tc .vmem S1024x256 .bf16 := (Memref.whole cc6_stg3_0 : Memref sig .tc .vmem S1024x256 .bf16).view
abbrev ms6_0 (t : Fin cfg6.N) : Memref sig .tc .vmem S1024x512 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S512x256 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x256 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1024x256 .bf16 := win6_3.stage (cfg6.slots t 3)
abbrev hs6_3 (t : Fin cfg6.N) : (ms6_3 t).IsWhole := hstage6_3 ((cfg6.slots t 3).cast nbuf6_3)
/-- The accumulator: a whole scoped buffer of the kernel's own, passed beside the windows. -/
abbrev scM6 : Memref sig .tc .vmem S1024x256 .f32 := Memref.whole cc6_scratch0

/-- The region's invariant with the accumulator split out as a memref owned at some contents. -/
theorem PhiA6_eq (c : Dev nD) :
    (Pipeline.ΦA spec6 c : sProp 𝕄)
      = iprop(iprop(iprop((∃ d, owns (c : Thread nD τ) scM6 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; rfl

/-! ## The body's run -/

set_option maxHeartbeats 4000000 in
/-- The pieces the body's stores leave in the output tile (`.1`) and in the accumulator (`.2.1`), last first, WITH the
    proof that on whole memrefs — the three inputs' at contents `x0 x1 x2`, the output's and the accumulator's at
    anything — the body runs to the continuation holding the inputs' as they were and those pieces written. -/
noncomputable def kernelRun6 (c : Dev nD) (i : grid6.Coords)
    (arg2 : Memref sig .tc .vmem S1024x512 .f32) (harg2 : arg2.IsWhole) (arg3 : Memref sig .tc .vmem S512x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond6_0 i) (hc1 : cond6_1 i)
    (x0 : Vec F S1024x512 .f32) (x1 : Vec F S512x256 .f32) (x2 : Vec F S1x256 .f32) :
    Σ' (L3 : List (View.Piece (Elt F) S1024x256 .bf16)), { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc6__gemm_kernel i arg2 harg2 arg3 harg3 arg4 harg4 arg5 harg5 arg6 harg6) Kc } := by
  refine ⟨?_, ?_, fun E Kc => ?run⟩
  case run =>
    simp only [cc6__gemm_kernel_eq_skeleton]; unfold cc6__gemm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-- The output tile's pieces tile it. -/
theorem cover6_3 (c : Dev nD) (i : grid6.Coords)
    (arg2 : Memref sig .tc .vmem S1024x512 .f32) (harg2 : arg2.IsWhole) (arg3 : Memref sig .tc .vmem S512x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond6_0 i) (hc1 : cond6_1 i)
    (x0 : Vec F S1024x512 .f32) (x1 : Vec F S512x256 .f32) (x2 : Vec F S1x256 .f32) (y : S1024x256.Idx) :
    ∃ pc ∈ (kernelRun6 c i arg2 harg2 arg3 harg3 arg4 harg4 arg5 harg5 arg6 harg6 hc0 hc1 x0 x1 x2).1, y ∈ pc.1.set :=
  View.cover_of_tiledL (kernelRun6 c i arg2 harg2 arg3 harg3 arg4 harg4 arg5 harg5 arg6 harg6 hc0 hc1 x0 x1 x2).1 S1024x256.size (by sl_kernel_rfl) y

/-- What the body leaves in the output tile: its pieces read back. -/
def out6_3 (c : Dev nD) (i : grid6.Coords)
    (arg2 : Memref sig .tc .vmem S1024x512 .f32) (harg2 : arg2.IsWhole) (arg3 : Memref sig .tc .vmem S512x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond6_0 i) (hc1 : cond6_1 i)
    (x0 : Vec F S1024x512 .f32) (x1 : Vec F S512x256 .f32) (x2 : Vec F S1x256 .f32) : Vec F S1024x256 .bf16 :=
  VO6_3.read (Elt F) (VO6_3.writes (Elt F) VO6_3.junk (kernelRun6 c i arg2 harg2 arg3 harg3 arg4 harg4 arg5 harg5 arg6 harg6 hc0 hc1 x0 x1 x2).1)

/-- The output tile after the body at point `t`. -/
def outAt6 (c : Dev nD) (t : Fin cfg6.N) : Vec F S1024x256 .bf16 :=
  out6_3 c (grid6.coords t) (ms6_0 t) (hs6_0 t) (ms6_1 t) (hs6_1 t) (ms6_2 t) (hs6_2 t) (ms6_3 t) (hs6_3 t) scM6 (Memref.isWhole_whole _)
    (hcond6_0 t) (hcond6_1 t) (iblk6 V c 0 t) (iblk6 V c 1 t) (iblk6 V c 2 t)

/-! ## The region's proof data -/

/-- The proof data on core `c`: the arrays as the region finds them; after the body at point `t` each input's buffer
    at its tile and the output's at `outAt6`; the invariant the scoped rest (the accumulator among it, at anything) and
    the generator register; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => outAt6 V c t
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = outAt6 V c t := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4000000 in
/-- The body at any point: the inputs' memrefs hold their tiles, the invariant lends the accumulator at whatever it
    holds, the run applies, and the accumulator goes back into the invariant at whatever the body left. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl]
  rw [show (dat6 V c).leavesExact 0 t = owns (c : Thread nD τ) (ms6_0 t) fullShare ((dat6 V c).after 0 t) from by
      unfold Dat.leavesExact; rw [liveAt6_0 t], after6_0,
    show (dat6 V c).leavesExact 1 t = owns (c : Thread nD τ) (ms6_1 t) fullShare ((dat6 V c).after 1 t) from by
      unfold Dat.leavesExact; rw [liveAt6_1 t], after6_1,
    show (dat6 V c).leavesExact 2 t = owns (c : Thread nD τ) (ms6_2 t) fullShare ((dat6 V c).after 2 t) from by
      unfold Dat.leavesExact; rw [liveAt6_2 t], after6_2,
    show (dat6 V c).leavesExact 3 t = owns (c : Thread nD τ) (ms6_3 t) fullShare ((dat6 V c).after 3 t) from by
      unfold Dat.leavesExact; rw [liveAt6_3 t], after6_3]
  rw [show (dat6 V c).Φ t.castSucc = Pipeline.ΦA spec6 c from rfl, PhiA6_eq]
  unfold outAt6 out6_3
  iintro ⟨⟨⟨HS, Hbut⟩, Hg⟩, Ho, ⟨%d0, H0⟩, ⟨%d1, H1⟩, ⟨%d2, H2⟩, ⟨%d3, H3⟩⟩
  iapply ((kernelRun6 c (grid6.coords t) _ _ _ _ _ _ _ _ _ _ (hcond6_0 t) (hcond6_1 t) (iblk6 V c 0 t) (iblk6 V c 1 t) (iblk6 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hbut Hg]
  · isplitl [HS Hbut]
    · isplitl [HS]
      · unfold owns; iexists _; iexists _; isplitr
        swap; · iexact HS
        ipureintro; rfl
      iexact Hbut
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover6_3 c _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Seg6.lean ====
/-
  Region 6 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.K.Region6
import proofs.«107088_j31018253811971_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg6 (hK : ∀ c, pdats 6 c = dat6 (atTc Win) c)
    (hF : ∀ c (w : Fin cfg6.W), (dat6 (atTc Win) c).arrAt w cfg6.N = atTc Wout c (Pipeline.arrRef spec6 w))
    (hrest : ∀ c, ∀ b, b ∉ Finset.univ.image (Pipeline.arrRef spec6) → atTc Wout c b = atTc Win c b) :
    Pipeline.RegionSeg (pcfgs (F := F)) adm pdats () defs₀ 𝒱₀ L lv 6 where
  win := launch6.win.to₀
  block_pos := launch6.block_pos
  stage_whole := launch6.stage_whole
  K := PEmpty
  osem k := k.elim
  ho := Pipeline.OwnSemFacts.none _
  hbody c := by rw [hK c]; exact (body_obligation6 (atTc Win) c).loose
  hwaits := Pipeline.hwaits_of_owed_zero _ _ _ _ L lv 6 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec6 c (atTc Win c)
  hentry c := by
    rw [Pipeline.ownSems0_none]
    have hsplit := Pipeline.arrays_of_unscopedBufs (p := 6) (pcfgs (F := F)) adm pdats launch6.win launch6.arr_whole c
      (by rw [hK c]; exact (dat6 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 6 c).Φ 0 = Pipeline.ΦA spec6 c from by rw [hK c]; rfl]; unfold Pipeline.ΦA
    iintro ⟨Hp, -, Hr⟩
    isplitl [Hr]; · iexact Hr
    iexact Hp
  hout c := by
    rw [Pipeline.ownSems0_none, show (pdats 6 c).Φ (Fin.last _) = Pipeline.ΦA spec6 c from by rw [hK c]; rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c pdats (by rw [hK c]; exact (dat6 (atTc Win) c).share_full fun _ => rfl)
      (atTc Win c) (atTc Wout c) ((pdats 6 c).arrAt · cfg6.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.Kernel.Hand

end
-- ==== Proof.K.Region7.lean ====
/-
  Region 7: h0 = max(Â·t3 + b0, 0) over a 4 × 4 grid (row tile p, contraction block q), Â the normalised adjacency; rounded to bf16.
  The contraction over 4096 is accumulated in four blocks of 1024 along the second grid axis, in a scratch the kernel
  keeps between grid points. At the first block of a row tile the body zeroes the scratch and adds the block's
  product; at the two middle blocks it adds the block's product to what the point before left; at the last block it
  does the same and then reads the scratch out, plus the bias row, into the output tile, which is written back only
  there. This file: each window's tile at a point, the body's run in each of the three cases (the witness of a run is
  the list of pieces its stores leave), what the scratch and the output tile hold after each point (a recursion over
  the points), the region's invariant (the scratch at what the point before left), its proof data at any entry
  contents `V`, and the body obligation.
-/
import proofs.«107088_j31018253811971_1_alg».proof.Proof.Gen.Kernel.Launch
import proofs.«107088_j31018253811971_1_alg».proof.Proof.Gen.Kernel.Skeleton
import proofs.«107088_j31018253811971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its tile at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its tile at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its tile at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditions -/

/-- "This is the first block of the contraction": the body's first `if`, from the grid coordinates. -/
abbrev cond7_0 (i : grid7.Coords) : Prop := (Scalar.cmpi .ne (Scalar.extui (Scalar.cmpi .eq (BitVec.ofNat 32 (i 1).val) 0#32)) 0#32) = 1#1
/-- It holds at the points ≡ 0 (mod 4). -/
theorem hcond7_0 : ∀ t : Fin cfg7.N, cond7_0 (grid7.coords t) ↔ t.val % 4 = 0 :=
  (by decide +kernel : ∀ t : Fin grid7.N, cond7_0 (grid7.coords t) ↔ t.val % 4 = 0)
/-- "This is the last block of the contraction": the body's second `if`. -/
abbrev cond7_1 (i : grid7.Coords) : Prop := k7_cond2 i = 1#1
/-- It holds at the points ≡ 3 (mod 4). -/
theorem hcond7_1 : ∀ t : Fin cfg7.N, cond7_1 (grid7.coords t) ↔ t.val % 4 = 3 :=
  (by decide +kernel : ∀ t : Fin grid7.N, cond7_1 (grid7.coords t) ↔ t.val % 4 = 3)
/-- The inputs are never idle; the output tile is idle, and not written back, except at a last block. -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem idleAt7_3 : ∀ t : Fin cfg7.N, ¬cond7_1 (grid7.coords t) → cfg7.idle 3 (grid7.coords t) = true := by decide +kernel
theorem noFlush7_3 : ∀ t : Fin cfg7.N, ¬cond7_1 (grid7.coords t) → (cfg7.win 3).flush t = false := by decide +kernel
theorem liveAt7_3 : ∀ t : Fin cfg7.N, cond7_1 (grid7.coords t) → cfg7.idle 3 (grid7.coords t) = false := by decide +kernel

/-! ## The staging memrefs and the scratch, as the pipeline passes them -/

abbrev VO7_3 : View sig .tc .vmem S1024x256 .bf16 := (Memref.whole cc7_stg3_0 : Memref sig .tc .vmem S1024x256 .bf16).view
abbrev ms7_0 (t : Fin cfg7.N) : Memref sig .tc .vmem S1024x1024 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x256 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x256 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1024x256 .bf16 := win7_3.stage (cfg7.slots t 3)
abbrev hs7_3 (t : Fin cfg7.N) : (ms7_3 t).IsWhole := hstage7_3 ((cfg7.slots t 3).cast nbuf7_3)
/-- The accumulator: a whole scoped buffer of the kernel's own, passed beside the windows, and its view. -/
abbrev scM7 : Memref sig .tc .vmem S1024x256 .f32 := Memref.whole cc7_scratch0
abbrev VS7 : View sig .tc .vmem S1024x256 .f32 := scM7.view

/-- The invariant before the first point, with the accumulator split out as a memref owned at some contents. -/
theorem PhiA7_eq (c : Dev nD) :
    (Pipeline.ΦA spec7 c : sProp 𝕄)
      = iprop(iprop(iprop((∃ d, owns (c : Thread nD τ) scM7 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7, owns_whole]; rfl

/-! ## The body's run, case by case -/

set_option maxHeartbeats 4000000 in
/-- FIRST BLOCK: the pieces the stores leave in the accumulator, with the proof that on whole memrefs — the two matrix
    tiles at `x0 x1`, the accumulator at anything — the body runs to the continuation with those pieces written. The
    bias and the output tile are not touched. -/
noncomputable def kernelRun7_A (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole)
    (hc0 : cond7_0 i) (hc1 : ¬cond7_1 i) (x0 : Vec F S1024x1024 .bf16) (x1 : Vec F S1024x256 .bf16) :
    { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc7__gemm_kernel i arg2 harg2 arg3 harg3 arg4 harg4 arg5 harg5 arg6 harg6) Kc } := by
  refine ⟨?_, fun E Kc => ?run⟩
  case run =>
    simp only [cc7__gemm_kernel_eq_skeleton]; unfold cc7__gemm_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- MIDDLE BLOCK: the same with the accumulator entered at `xs`, what the point before left. -/
noncomputable def kernelRun7_B (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole)
    (hc0 : ¬cond7_0 i) (hc1 : ¬cond7_1 i) (x0 : Vec F S1024x1024 .bf16) (x1 : Vec F S1024x256 .bf16) (xs : Vec F S1024x256 .f32) :
    { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc7__gemm_kernel i arg2 harg2 arg3 harg3 arg4 harg4 arg5 harg5 arg6 harg6) Kc } := by
  refine ⟨?_, fun E Kc => ?run⟩
  case run =>
    simp only [cc7__gemm_kernel_eq_skeleton]; unfold cc7__gemm_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- LAST BLOCK: the pieces left in the output tile (`.1`) and in the accumulator (`.2.1`); the bias row at `x2`, the
    output tile entered at anything, the accumulator at `xs`. -/
noncomputable def kernelRun7_C (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole)
    (hc0 : ¬cond7_0 i) (hc1 : cond7_1 i) (x0 : Vec F S1024x1024 .bf16) (x1 : Vec F S1024x256 .bf16) (x2 : Vec F S1x256 .f32) (xs : Vec F S1024x256 .f32) :
    Σ' (L3 : List (View.Piece (Elt F) S1024x256 .bf16)), { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc7__gemm_kernel i arg2 harg2 arg3 harg3 arg4 harg4 arg5 harg5 arg6 harg6) Kc } := by
  refine ⟨?_, ?_, fun E Kc => ?run⟩
  case run =>
    simp only [cc7__gemm_kernel_eq_skeleton]; unfold cc7__gemm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves -/

theorem scover7_A (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond7_0 i) (hc1 : ¬cond7_1 i) (x0 : Vec F S1024x1024 .bf16) (x1 : Vec F S1024x256 .bf16) (y : S1024x256.Idx) :
    ∃ pc ∈ (kernelRun7_A c i arg2 harg2 arg3 harg3 arg4 harg4 arg5 harg5 arg6 harg6 hc0 hc1 x0 x1).1, y ∈ pc.1.set :=
  View.cover_of_tiledL (kernelRun7_A c i arg2 harg2 arg3 harg3 arg4 harg4 arg5 harg5 arg6 harg6 hc0 hc1 x0 x1).1 S1024x256.size (by sl_kernel_rfl) y
/-- The accumulator after a first block. -/
def sout7_A (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond7_0 i) (hc1 : ¬cond7_1 i) (x0 : Vec F S1024x1024 .bf16) (x1 : Vec F S1024x256 .bf16) : Vec F S1024x256 .f32 :=
  VS7.read (Elt F) (VS7.writes (Elt F) VS7.junk (kernelRun7_A c i arg2 harg2 arg3 harg3 arg4 harg4 arg5 harg5 arg6 harg6 hc0 hc1 x0 x1).1)

theorem scover7_B (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond7_0 i) (hc1 : ¬cond7_1 i) (x0 : Vec F S1024x1024 .bf16) (x1 : Vec F S1024x256 .bf16) (xs : Vec F S1024x256 .f32) (y : S1024x256.Idx) :
    ∃ pc ∈ (kernelRun7_B c i arg2 harg2 arg3 harg3 arg4 harg4 arg5 harg5 arg6 harg6 hc0 hc1 x0 x1 xs).1, y ∈ pc.1.set :=
  View.cover_of_tiledL (kernelRun7_B c i arg2 harg2 arg3 harg3 arg4 harg4 arg5 harg5 arg6 harg6 hc0 hc1 x0 x1 xs).1 S1024x256.size (by sl_kernel_rfl) y
/-- The accumulator after a middle block. -/
def sout7_B (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond7_0 i) (hc1 : ¬cond7_1 i) (x0 : Vec F S1024x1024 .bf16) (x1 : Vec F S1024x256 .bf16) (xs : Vec F S1024x256 .f32) : Vec F S1024x256 .f32 :=
  VS7.read (Elt F) (VS7.writes (Elt F) VS7.junk (kernelRun7_B c i arg2 harg2 arg3 harg3 arg4 harg4 arg5 harg5 arg6 harg6 hc0 hc1 x0 x1 xs).1)

theorem scover7_C (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond7_0 i) (hc1 : cond7_1 i) (x0 : Vec F S1024x1024 .bf16) (x1 : Vec F S1024x256 .bf16) (x2 : Vec F S1x256 .f32) (xs : Vec F S1024x256 .f32) (y : S1024x256.Idx) :
    ∃ pc ∈ (kernelRun7_C c i arg2 harg2 arg3 harg3 arg4 harg4 arg5 harg5 arg6 harg6 hc0 hc1 x0 x1 x2 xs).2.1, y ∈ pc.1.set :=
  View.cover_of_tiledL (kernelRun7_C c i arg2 harg2 arg3 harg3 arg4 harg4 arg5 harg5 arg6 harg6 hc0 hc1 x0 x1 x2 xs).2.1 S1024x256.size (by sl_kernel_rfl) y
/-- The accumulator after a last block. -/
def sout7_C (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond7_0 i) (hc1 : cond7_1 i) (x0 : Vec F S1024x1024 .bf16) (x1 : Vec F S1024x256 .bf16) (x2 : Vec F S1x256 .f32) (xs : Vec F S1024x256 .f32) : Vec F S1024x256 .f32 :=
  VS7.read (Elt F) (VS7.writes (Elt F) VS7.junk (kernelRun7_C c i arg2 harg2 arg3 harg3 arg4 harg4 arg5 harg5 arg6 harg6 hc0 hc1 x0 x1 x2 xs).2.1)
theorem cover7_C (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond7_0 i) (hc1 : cond7_1 i) (x0 : Vec F S1024x1024 .bf16) (x1 : Vec F S1024x256 .bf16) (x2 : Vec F S1x256 .f32) (xs : Vec F S1024x256 .f32) (y : S1024x256.Idx) :
    ∃ pc ∈ (kernelRun7_C c i arg2 harg2 arg3 harg3 arg4 harg4 arg5 harg5 arg6 harg6 hc0 hc1 x0 x1 x2 xs).1, y ∈ pc.1.set :=
  View.cover_of_tiledL (kernelRun7_C c i arg2 harg2 arg3 harg3 arg4 harg4 arg5 harg5 arg6 harg6 hc0 hc1 x0 x1 x2 xs).1 S1024x256.size (by sl_kernel_rfl) y
/-- The output tile after a last block. -/
def out7_C (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond7_0 i) (hc1 : cond7_1 i) (x0 : Vec F S1024x1024 .bf16) (x1 : Vec F S1024x256 .bf16) (x2 : Vec F S1x256 .f32) (xs : Vec F S1024x256 .f32) : Vec F S1024x256 .bf16 :=
  VO7_3.read (Elt F) (VO7_3.writes (Elt F) VO7_3.junk (kernelRun7_C c i arg2 harg2 arg3 harg3 arg4 harg4 arg5 harg5 arg6 harg6 hc0 hc1 x0 x1 x2 xs).1)

/-! ## What the accumulator and the output tile hold after each point -/

/-- THE ACCUMULATION: the accumulator after the body at position `n` — after a first block what that block leaves,
    otherwise what this block leaves over what position `n - 1` left. -/
def accAt7 (c : Dev nD) : (n : ℕ) → n < cfg7.N → Vec F S1024x256 .f32
  | 0, hn => sout7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7 (Memref.isWhole_whole _)
      ((hcond7_0 ⟨0, hn⟩).mpr (Nat.zero_mod _)) (fun h => by have h3 := (hcond7_1 ⟨0, hn⟩).mp h; (try dsimp only at h3); omega) (iblk7 V c 0 ⟨0, hn⟩) (iblk7 V c 1 ⟨0, hn⟩)
  | n + 1, hn =>
    if h0 : (n + 1) % 4 = 0 then
      sout7_A c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7 (Memref.isWhole_whole _)
        ((hcond7_0 ⟨n + 1, hn⟩).mpr h0) (fun h => by have h3 := (hcond7_1 ⟨n + 1, hn⟩).mp h; (try dsimp only at h3); omega) (iblk7 V c 0 ⟨n + 1, hn⟩) (iblk7 V c 1 ⟨n + 1, hn⟩)
    else if h1 : (n + 1) % 4 = 3 then
      sout7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7 (Memref.isWhole_whole _)
        (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (accAt7 c n (Nat.lt_of_succ_lt hn))
    else
      sout7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7 (Memref.isWhole_whole _)
        (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (accAt7 c n (Nat.lt_of_succ_lt hn))

theorem accAt7_A (c : Dev nD) (t : Fin cfg7.N) (h0 : t.val % 4 = 0) (h1 : ¬t.val % 4 = 3) :
    accAt7 V c t.val t.isLt = sout7_A c (grid7.coords t) (ms7_0 t) (hs7_0 t) (ms7_1 t) (hs7_1 t) (ms7_2 t) (hs7_2 t) (ms7_3 t) (hs7_3 t) scM7 (Memref.isWhole_whole _)
      ((hcond7_0 t).mpr h0) (fun h => h1 ((hcond7_1 t).mp h)) (iblk7 V c 0 t) (iblk7 V c 1 t) := by
  obtain ⟨n, hn⟩ := t
  cases n with
  | zero => exact rfl
  | succ n => exact (dif_pos h0).trans rfl

theorem accAt7_B (c : Dev nD) (t : Fin cfg7.N) (h0 : ¬t.val % 4 = 0) (h1 : ¬t.val % 4 = 3) :
    accAt7 V c t.val t.isLt = sout7_B c (grid7.coords t) (ms7_0 t) (hs7_0 t) (ms7_1 t) (hs7_1 t) (ms7_2 t) (hs7_2 t) (ms7_3 t) (hs7_3 t) scM7 (Memref.isWhole_whole _)
      (fun h => h0 ((hcond7_0 t).mp h)) (fun h => h1 ((hcond7_1 t).mp h)) (iblk7 V c 0 t) (iblk7 V c 1 t)
      (accAt7 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt7_C (c : Dev nD) (t : Fin cfg7.N) (h0 : ¬t.val % 4 = 0) (h1 : t.val % 4 = 3) :
    accAt7 V c t.val t.isLt = sout7_C c (grid7.coords t) (ms7_0 t) (hs7_0 t) (ms7_1 t) (hs7_1 t) (ms7_2 t) (hs7_2 t) (ms7_3 t) (hs7_3 t) scM7 (Memref.isWhole_whole _)
      (fun h => h0 ((hcond7_0 t).mp h)) ((hcond7_1 t).mpr h1) (iblk7 V c 0 t) (iblk7 V c 1 t) (iblk7 V c 2 t)
      (accAt7 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output tile after the body at point `t`: at a last block what that case stores over what the point before left in
    the accumulator; elsewhere the body stores nothing into it and the tile is not written back: a placeholder. -/
def outAt7 (c : Dev nD) (t : Fin cfg7.N) : Vec F S1024x256 .bf16 :=
  if h1 : t.val % 4 = 3 then
    out7_C c (grid7.coords t) (ms7_0 t) (hs7_0 t) (ms7_1 t) (hs7_1 t) (ms7_2 t) (hs7_2 t) (ms7_3 t) (hs7_3 t) scM7 (Memref.isWhole_whole _)
      (fun h => by have h3 := (hcond7_0 t).mp h; omega) ((hcond7_1 t).mpr h1) (iblk7 V c 0 t) (iblk7 V c 1 t) (iblk7 V c 2 t)
      (accAt7 V c (t.val - 1) (Nat.lt_of_le_of_lt (Nat.sub_le _ _) t.isLt))
  else VO7_3.read (Elt F) VO7_3.junk

/-! ## The region's invariant and proof data -/

/-- The invariant before position `n`: before the first point the scoped rest with the accumulator at anything;
    afterwards the accumulator at what the point before left, the rest of the scoped buffers, and the generator register. -/
def PhiS7 (c : Dev nD) : (n : ℕ) → n ≤ cfg7.N → sProp 𝕄
  | 0, _ => Pipeline.ΦA spec7 c
  | n + 1, hn => iprop(iprop(owns (c : Thread nD τ) scM7 fullShare (accAt7 V c n hn)
      ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl
theorem PhiS7_succ (c : Dev nD) (n : ℕ) (hn : n < cfg7.N) :
    PhiS7 V c (n + 1) hn = iprop(iprop(owns (c : Thread nD τ) scM7 fullShare (accAt7 V c n hn)
      ∗ Pipeline.scopedRestBut (Ix := Unit) (Name := ℕ) (U := UR sig nD τ) (Lvl := ℕ) (Val := Elt F) spec7 c [cc7_scratch0]) ∗ (∃ r, prngReg c r)) := rfl
theorem PhiS7_pos (c : Dev nD) (n : ℕ) (h : n ≤ cfg7.N) (hz : n ≠ 0) :
    PhiS7 V c n h = iprop(iprop(owns (c : Thread nD τ) scM7 fullShare (accAt7 V c (n - 1) (by omega))
      ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-- The proof data on core `c`: the arrays as the region finds them; after the body at point `t` each input's buffer
    at its tile and the output's at `outAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => outAt7 V c t
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem PhiS7_castSucc (c : Dev nD) (t : Fin cfg7.N) :
    (dat7 V c).Φ t.castSucc = PhiS7 V c t.val (Nat.le_of_lt t.isLt) := by
  dsimp only [dat7]; simp only [Fin.coe_castSucc]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = outAt7 V c t := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 8000000 in
/-- The body at any point: the inputs' memrefs hold their tiles; the position modulo 4 says which case the point is
    in; the invariant lends the accumulator at what the point before left (at anything before the first point) and
    takes it back at this point's contents; at a last block the output tile is left at that case's contents, elsewhere
    it is handed back untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
      unfold Dat.leavesExact; rw [liveAt7_0 t], after7_0,
    show (dat7 V c).leavesExact 1 t = owns (c : Thread nD τ) (ms7_1 t) fullShare ((dat7 V c).after 1 t) from by
      unfold Dat.leavesExact; rw [liveAt7_1 t], after7_1,
    show (dat7 V c).leavesExact 2 t = owns (c : Thread nD τ) (ms7_2 t) fullShare ((dat7 V c).after 2 t) from by
      unfold Dat.leavesExact; rw [liveAt7_2 t], after7_2]
  have hN : t.val < 16 := lt_of_lt_of_eq t.isLt (show cfg7.N = 16 from N_7)
  by_cases h0 : t.val % 4 = 0
  · -- a first block
    have h1 : ¬t.val % 4 = 3 := by omega
    rw [Dat.leavesExact_idle (dat7 V c) 3 t (idleAt7_3 t (fun h => h1 ((hcond7_1 t).mp h))) (noFlush7_3 t (fun h => h1 ((hcond7_1 t).mp h)))]
    rw [accAt7_A V c t h0 h1]
    unfold sout7_A
    by_cases hz : t.val = 0
    · rw [PhiS7_castSucc V c t, PhiS7_zero V c _ _ hz, PhiA7_eq]
      iintro ⟨⟨⟨HS, Hbut⟩, Hg⟩, Ho, ⟨%d0, H0⟩, ⟨%d1, H1⟩, ⟨%d2, H2⟩, ⟨%d3, H3⟩⟩
      iapply ((kernelRun7_A c (grid7.coords t) _ _ _ _ _ _ _ _ _ _ ((hcond7_0 t).mpr h0) (fun h => h1 ((hcond7_1 t).mp h)) (iblk7 V c 0 t) (iblk7 V c 1 t)).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover7_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
    · rw [PhiS7_castSucc V c t, PhiS7_pos V c _ _ hz]
      iintro ⟨⟨⟨HS, Hbut⟩, Hg⟩, Ho, ⟨%d0, H0⟩, ⟨%d1, H1⟩, ⟨%d2, H2⟩, ⟨%d3, H3⟩⟩
      iapply ((kernelRun7_A c (grid7.coords t) _ _ _ _ _ _ _ _ _ _ ((hcond7_0 t).mpr h0) (fun h => h1 ((hcond7_1 t).mp h)) (iblk7 V c 0 t) (iblk7 V c 1 t)).2 Set.univ _)
      isplitl [H0]; · iexact H0
      isplitl [H1]; · iexact H1
      isplitl [HS]; · iexists _; iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover7_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · -- a last block
      rw [show (dat7 V c).leavesExact 3 t = owns (c : Thread nD τ) (ms7_3 t) fullShare ((dat7 V c).after 3 t) from by
        unfold Dat.leavesExact; rw [liveAt7_3 t ((hcond7_1 t).mpr h1)], after7_3]
      rw [accAt7_C V c t h0 h1]
      unfold sout7_C outAt7
      rw [dif_pos h1]
      unfold out7_C
      rw [PhiS7_castSucc V c t, PhiS7_pos V c _ _ hz]
      iintro ⟨⟨⟨HS, Hbut⟩, Hg⟩, Ho, ⟨%d0, H0⟩, ⟨%d1, H1⟩, ⟨%d2, H2⟩, ⟨%d3, H3⟩⟩
      iapply ((kernelRun7_C c (grid7.coords t) _ _ _ _ _ _ _ _ _ _ (fun h => h0 ((hcond7_0 t).mp h)) ((hcond7_1 t).mpr h1) (iblk7 V c 0 t) (iblk7 V c 1 t) (iblk7 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hbut Hg]
      · isplitl [HS Hbut]
        · isplitl [HS]
          · unfold owns; iexists _; isplitr
            swap; · iexact HS
            ipureintro; exact View.read_writes_of_cover _ _ _ _ _ (scover7_C c _ _ _ _ _ _ _ _ _ _ _ _ _ _ _ _ _)
          iexact Hbut
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover7_C c _ _ _ _ _ _ _ _ _ _ _ _ _ _ _ _ _)
    · -- a middle block
      rw [Dat.leavesExact_idle (dat7 V c) 3 t (idleAt7_3 t (fun h => h1 ((hcond7_1 t).mp h))) (noFlush7_3 t (fun h => h1 ((hcond7_1 t).mp h)))]
      rw [accAt7_B V c t h0 h1]
      unfold sout7_B
      rw [PhiS7_castSucc V c t, PhiS7_pos V c _ _ hz]
      iintro ⟨⟨⟨HS, Hbut⟩, Hg⟩, Ho, ⟨%d0, H0⟩, ⟨%d1, H1⟩, ⟨%d2, H2⟩, ⟨%d3, H3⟩⟩
      iapply ((kernelRun7_B c (grid7.coords t) _ _ _ _ _ _ _ _ _ _ (fun h => h0 ((hcond7_0 t).mp h)) (fun h => h1 ((hcond7_1 t).mp h)) (iblk7 V c 0 t) (iblk7 V c 1 t) _).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover7_B c _ _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After the last point the invariant gives the scoped rest back: what the accumulator holds is forgotten. -/
theorem hout7 (c : Dev nD) : (dat7 V c).Φ (Fin.last cfg7.N) ⊢ Pipeline.ΦA spec7 c := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 16 := N_7; omega), PhiA7_eq]
  iintro ⟨⟨HS, Hbut⟩, Hg⟩
  isplitl [HS Hbut]
  · isplitl [HS]; · iexists _; iexact HS
    iexact Hbut
  iexact Hg

end Cert.Kernel.Hand

end
-- ==== Proof.K.Seg7.lean ====
/-
  Region 7 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.K.Region7
import proofs.«107088_j31018253811971_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg7 (hK : ∀ c, pdats 7 c = dat7 (atTc Win) c)
    (hF : ∀ c (w : Fin cfg7.W), (dat7 (atTc Win) c).arrAt w cfg7.N = atTc Wout c (Pipeline.arrRef spec7 w))
    (hrest : ∀ c, ∀ b, b ∉ Finset.univ.image (Pipeline.arrRef spec7) → atTc Wout c b = atTc Win c b) :
    Pipeline.RegionSeg (pcfgs (F := F)) adm pdats () defs₀ 𝒱₀ L lv 7 where
  win := launch7.win.to₀
  block_pos := launch7.block_pos
  stage_whole := launch7.stage_whole
  K := PEmpty
  osem k := k.elim
  ho := Pipeline.OwnSemFacts.none _
  hbody c := by rw [hK c]; exact (body_obligation7 (atTc Win) c).loose
  hwaits := Pipeline.hwaits_of_owed_zero _ _ _ _ L lv 7 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec7 c (atTc Win c)
  hentry c := by
    rw [Pipeline.ownSems0_none]
    have hsplit := Pipeline.arrays_of_unscopedBufs (p := 7) (pcfgs (F := F)) adm pdats launch7.win launch7.arr_whole c
      (by rw [hK c]; exact (dat7 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hK c]
    have h := hin7 (atTc Win) c
    unfold Pipeline.ΦA at h
    iintro ⟨Hp, -, Hr⟩
    iapply h
    isplitl [Hr]; · iexact Hr
    iexact Hp
  hout c := by
    rw [Pipeline.ownSems0_none, hK c]
    have h := hout7 (atTc Win) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c pdats (by rw [hK c]; exact (dat7 (atTc Win) c).share_full fun _ => rfl)
      (atTc Win c) (atTc Wout c) ((pdats 7 c).arrAt · cfg7.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.Kernel.Hand

end
-- ==== Proof.K.Region8.lean ====
/-
  Region 8: t4 = h0·W1, row tiles of 1024 over a 4 × 1 grid: tile p of the result is (rows of h0 in tile p)·W1, rounded to bf16.
  The contraction is one block long, so at every grid point the body zeroes its accumulator (the scratch), adds the
  product of the point's two tiles into it, and reads it out, plus the bias row, into the output tile: both of the
  body's conditions (first block, last block) hold at every point. The scratch is therefore dead between points and
  the region's invariant keeps it at unnamed contents. This file: each window's tile at a point, the body's run
  (whose witness is the list of pieces the stores leave in the output tile and in the scratch), what the output tile
  holds after the body as a function of the three input tiles, the region's proof data at any entry contents `V`,
  and the body obligation.
-/
import proofs.«107088_j31018253811971_1_alg».proof.Proof.Gen.Kernel.Launch
import proofs.«107088_j31018253811971_1_alg».proof.Proof.Gen.Kernel.Skeleton
import proofs.«107088_j31018253811971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its tile at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its tile at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its tile at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's two conditions -/

/-- "This is the first block of the contraction": the body's first `if`, from the grid coordinates. -/
abbrev cond8_0 (i : grid8.Coords) : Prop := (Scalar.cmpi .ne (Scalar.extui (Scalar.cmpi .eq (BitVec.ofNat 32 (i 1).val) 0#32)) 0#32) = 1#1
/-- It holds at every point: the contraction axis of the grid has one position. -/
theorem hcond8_0 : ∀ t : Fin cfg8.N, cond8_0 (grid8.coords t) :=
  (by decide +kernel : ∀ t : Fin grid8.N, cond8_0 (grid8.coords t))
/-- "This is the last block of the contraction": the body's second `if`. -/
abbrev cond8_1 (i : grid8.Coords) : Prop := k8_cond2 i = 1#1
/-- It holds at every point too. -/
theorem hcond8_1 : ∀ t : Fin cfg8.N, cond8_1 (grid8.coords t) :=
  (by decide +kernel : ∀ t : Fin grid8.N, cond8_1 (grid8.coords t))
/-- No window is idle at any point. -/
theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
theorem liveAt8_3 : ∀ t : Fin cfg8.N, cfg8.idle 3 (grid8.coords t) = false := by decide +kernel

/-! ## The staging memrefs and the scratch, as the pipeline passes them -/

abbrev VO8_3 : View sig .tc .vmem S1024x256 .bf16 := (Memref.whole cc8_stg3_0 : Memref sig .tc .vmem S1024x256 .bf16).view
abbrev ms8_0 (t : Fin cfg8.N) : Memref sig .tc .vmem S1024x256 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S256x256 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x256 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1024x256 .bf16 := win8_3.stage (cfg8.slots t 3)
abbrev hs8_3 (t : Fin cfg8.N) : (ms8_3 t).IsWhole := hstage8_3 ((cfg8.slots t 3).cast nbuf8_3)
/-- The accumulator: a whole scoped buffer of the kernel's own, passed beside the windows. -/
abbrev scM8 : Memref sig .tc .vmem S1024x256 .f32 := Memref.whole cc8_scratch0

/-- The region's invariant with the accumulator split out as a memref owned at some contents. -/
theorem PhiA8_eq (c : Dev nD) :
    (Pipeline.ΦA spec8 c : sProp 𝕄)
      = iprop(iprop(iprop((∃ d, owns (c : Thread nD τ) scM8 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; rfl

/-! ## The body's run -/

set_option maxHeartbeats 4000000 in
/-- The pieces the body's stores leave in the output tile (`.1`) and in the accumulator (`.2.1`), last first, WITH the
    proof that on whole memrefs — the three inputs' at contents `x0 x1 x2`, the output's and the accumulator's at
    anything — the body runs to the continuation holding the inputs' as they were and those pieces written. -/
noncomputable def kernelRun8 (c : Dev nD) (i : grid8.Coords)
    (arg2 : Memref sig .tc .vmem S1024x256 .bf16) (harg2 : arg2.IsWhole) (arg3 : Memref sig .tc .vmem S256x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond8_0 i) (hc1 : cond8_1 i)
    (x0 : Vec F S1024x256 .bf16) (x1 : Vec F S256x256 .f32) (x2 : Vec F S1x256 .f32) :
    Σ' (L3 : List (View.Piece (Elt F) S1024x256 .bf16)), { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc8__gemm_kernel i arg2 harg2 arg3 harg3 arg4 harg4 arg5 harg5 arg6 harg6) Kc } := by
  refine ⟨?_, ?_, fun E Kc => ?run⟩
  case run =>
    simp only [cc8__gemm_kernel_eq_skeleton]; unfold cc8__gemm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-- The output tile's pieces tile it. -/
theorem cover8_3 (c : Dev nD) (i : grid8.Coords)
    (arg2 : Memref sig .tc .vmem S1024x256 .bf16) (harg2 : arg2.IsWhole) (arg3 : Memref sig .tc .vmem S256x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond8_0 i) (hc1 : cond8_1 i)
    (x0 : Vec F S1024x256 .bf16) (x1 : Vec F S256x256 .f32) (x2 : Vec F S1x256 .f32) (y : S1024x256.Idx) :
    ∃ pc ∈ (kernelRun8 c i arg2 harg2 arg3 harg3 arg4 harg4 arg5 harg5 arg6 harg6 hc0 hc1 x0 x1 x2).1, y ∈ pc.1.set :=
  View.cover_of_tiledL (kernelRun8 c i arg2 harg2 arg3 harg3 arg4 harg4 arg5 harg5 arg6 harg6 hc0 hc1 x0 x1 x2).1 S1024x256.size (by sl_kernel_rfl) y

/-- What the body leaves in the output tile: its pieces read back. -/
def out8_3 (c : Dev nD) (i : grid8.Coords)
    (arg2 : Memref sig .tc .vmem S1024x256 .bf16) (harg2 : arg2.IsWhole) (arg3 : Memref sig .tc .vmem S256x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond8_0 i) (hc1 : cond8_1 i)
    (x0 : Vec F S1024x256 .bf16) (x1 : Vec F S256x256 .f32) (x2 : Vec F S1x256 .f32) : Vec F S1024x256 .bf16 :=
  VO8_3.read (Elt F) (VO8_3.writes (Elt F) VO8_3.junk (kernelRun8 c i arg2 harg2 arg3 harg3 arg4 harg4 arg5 harg5 arg6 harg6 hc0 hc1 x0 x1 x2).1)

/-- The output tile after the body at point `t`. -/
def outAt8 (c : Dev nD) (t : Fin cfg8.N) : Vec F S1024x256 .bf16 :=
  out8_3 c (grid8.coords t) (ms8_0 t) (hs8_0 t) (ms8_1 t) (hs8_1 t) (ms8_2 t) (hs8_2 t) (ms8_3 t) (hs8_3 t) scM8 (Memref.isWhole_whole _)
    (hcond8_0 t) (hcond8_1 t) (iblk8 V c 0 t) (iblk8 V c 1 t) (iblk8 V c 2 t)

/-! ## The region's proof data -/

/-- The proof data on core `c`: the arrays as the region finds them; after the body at point `t` each input's buffer
    at its tile and the output's at `outAt8`; the invariant the scoped rest (the accumulator among it, at anything) and
    the generator register; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => outAt8 V c t
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = outAt8 V c t := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

set_option maxHeartbeats 4000000 in
/-- The body at any point: the inputs' memrefs hold their tiles, the invariant lends the accumulator at whatever it
    holds, the run applies, and the accumulator goes back into the invariant at whatever the body left. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl]
  rw [show (dat8 V c).leavesExact 0 t = owns (c : Thread nD τ) (ms8_0 t) fullShare ((dat8 V c).after 0 t) from by
      unfold Dat.leavesExact; rw [liveAt8_0 t], after8_0,
    show (dat8 V c).leavesExact 1 t = owns (c : Thread nD τ) (ms8_1 t) fullShare ((dat8 V c).after 1 t) from by
      unfold Dat.leavesExact; rw [liveAt8_1 t], after8_1,
    show (dat8 V c).leavesExact 2 t = owns (c : Thread nD τ) (ms8_2 t) fullShare ((dat8 V c).after 2 t) from by
      unfold Dat.leavesExact; rw [liveAt8_2 t], after8_2,
    show (dat8 V c).leavesExact 3 t = owns (c : Thread nD τ) (ms8_3 t) fullShare ((dat8 V c).after 3 t) from by
      unfold Dat.leavesExact; rw [liveAt8_3 t], after8_3]
  rw [show (dat8 V c).Φ t.castSucc = Pipeline.ΦA spec8 c from rfl, PhiA8_eq]
  unfold outAt8 out8_3
  iintro ⟨⟨⟨HS, Hbut⟩, Hg⟩, Ho, ⟨%d0, H0⟩, ⟨%d1, H1⟩, ⟨%d2, H2⟩, ⟨%d3, H3⟩⟩
  iapply ((kernelRun8 c (grid8.coords t) _ _ _ _ _ _ _ _ _ _ (hcond8_0 t) (hcond8_1 t) (iblk8 V c 0 t) (iblk8 V c 1 t) (iblk8 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hbut Hg]
  · isplitl [HS Hbut]
    · isplitl [HS]
      · unfold owns; iexists _; iexists _; isplitr
        swap; · iexact HS
        ipureintro; rfl
      iexact Hbut
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover8_3 c _ _ _ _ _ _ _ _ _ _ _ _ _ _ _ _)

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Seg8.lean ====
/-
  Region 8 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.K.Region8
import proofs.«107088_j31018253811971_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg8 (hK : ∀ c, pdats 8 c = dat8 (atTc Win) c)
    (hF : ∀ c (w : Fin cfg8.W), (dat8 (atTc Win) c).arrAt w cfg8.N = atTc Wout c (Pipeline.arrRef spec8 w))
    (hrest : ∀ c, ∀ b, b ∉ Finset.univ.image (Pipeline.arrRef spec8) → atTc Wout c b = atTc Win c b) :
    Pipeline.RegionSeg (pcfgs (F := F)) adm pdats () defs₀ 𝒱₀ L lv 8 where
  win := launch8.win.to₀
  block_pos := launch8.block_pos
  stage_whole := launch8.stage_whole
  K := PEmpty
  osem k := k.elim
  ho := Pipeline.OwnSemFacts.none _
  hbody c := by rw [hK c]; exact (body_obligation8 (atTc Win) c).loose
  hwaits := Pipeline.hwaits_of_owed_zero _ _ _ _ L lv 8 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec8 c (atTc Win c)
  hentry c := by
    rw [Pipeline.ownSems0_none]
    have hsplit := Pipeline.arrays_of_unscopedBufs (p := 8) (pcfgs (F := F)) adm pdats launch8.win launch8.arr_whole c
      (by rw [hK c]; exact (dat8 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 8 c).Φ 0 = Pipeline.ΦA spec8 c from by rw [hK c]; rfl]; unfold Pipeline.ΦA
    iintro ⟨Hp, -, Hr⟩
    isplitl [Hr]; · iexact Hr
    iexact Hp
  hout c := by
    rw [Pipeline.ownSems0_none, show (pdats 8 c).Φ (Fin.last _) = Pipeline.ΦA spec8 c from by rw [hK c]; rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c pdats (by rw [hK c]; exact (dat8 (atTc Win) c).share_full fun _ => rfl)
      (atTc Win c) (atTc Wout c) ((pdats 8 c).arrAt · cfg8.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.Kernel.Hand

end
-- ==== Proof.K.Region9.lean ====
/-
  Region 9: h1 = max(Â·t4 + b1, 0) over a 4 × 4 grid (row tile p, contraction block q), Â the normalised adjacency; rounded to bf16.
  The contraction over 4096 is accumulated in four blocks of 1024 along the second grid axis, in a scratch the kernel
  keeps between grid points. At the first block of a row tile the body zeroes the scratch and adds the block's
  product; at the two middle blocks it adds the block's product to what the point before left; at the last block it
  does the same and then reads the scratch out, plus the bias row, into the output tile, which is written back only
  there. This file: each window's tile at a point, the body's run in each of the three cases (the witness of a run is
  the list of pieces its stores leave), what the scratch and the output tile hold after each point (a recursion over
  the points), the region's invariant (the scratch at what the point before left), its proof data at any entry
  contents `V`, and the body obligation.
-/
import proofs.«107088_j31018253811971_1_alg».proof.Proof.Gen.Kernel.Launch
import proofs.«107088_j31018253811971_1_alg».proof.Proof.Gen.Kernel.Skeleton
import proofs.«107088_j31018253811971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its tile at every point, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1's current staging buffer holds its tile at every point, fetched there or not. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2's current staging buffer holds its tile at every point, fetched there or not. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's two conditions -/

/-- "This is the first block of the contraction": the body's first `if`, from the grid coordinates. -/
abbrev cond9_0 (i : grid9.Coords) : Prop := (Scalar.cmpi .ne (Scalar.extui (Scalar.cmpi .eq (BitVec.ofNat 32 (i 1).val) 0#32)) 0#32) = 1#1
/-- It holds at the points ≡ 0 (mod 4). -/
theorem hcond9_0 : ∀ t : Fin cfg9.N, cond9_0 (grid9.coords t) ↔ t.val % 4 = 0 :=
  (by decide +kernel : ∀ t : Fin grid9.N, cond9_0 (grid9.coords t) ↔ t.val % 4 = 0)
/-- "This is the last block of the contraction": the body's second `if`. -/
abbrev cond9_1 (i : grid9.Coords) : Prop := k9_cond2 i = 1#1
/-- It holds at the points ≡ 3 (mod 4). -/
theorem hcond9_1 : ∀ t : Fin cfg9.N, cond9_1 (grid9.coords t) ↔ t.val % 4 = 3 :=
  (by decide +kernel : ∀ t : Fin grid9.N, cond9_1 (grid9.coords t) ↔ t.val % 4 = 3)
/-- The inputs are never idle; the output tile is idle, and not written back, except at a last block. -/
theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
theorem idleAt9_3 : ∀ t : Fin cfg9.N, ¬cond9_1 (grid9.coords t) → cfg9.idle 3 (grid9.coords t) = true := by decide +kernel
theorem noFlush9_3 : ∀ t : Fin cfg9.N, ¬cond9_1 (grid9.coords t) → (cfg9.win 3).flush t = false := by decide +kernel
theorem liveAt9_3 : ∀ t : Fin cfg9.N, cond9_1 (grid9.coords t) → cfg9.idle 3 (grid9.coords t) = false := by decide +kernel

/-! ## The staging memrefs and the scratch, as the pipeline passes them -/

abbrev VO9_3 : View sig .tc .vmem S1024x256 .bf16 := (Memref.whole cc9_stg3_0 : Memref sig .tc .vmem S1024x256 .bf16).view
abbrev ms9_0 (t : Fin cfg9.N) : Memref sig .tc .vmem S1024x1024 .bf16 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1024x256 .bf16 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1x256 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1024x256 .bf16 := win9_3.stage (cfg9.slots t 3)
abbrev hs9_3 (t : Fin cfg9.N) : (ms9_3 t).IsWhole := hstage9_3 ((cfg9.slots t 3).cast nbuf9_3)
/-- The accumulator: a whole scoped buffer of the kernel's own, passed beside the windows, and its view. -/
abbrev scM9 : Memref sig .tc .vmem S1024x256 .f32 := Memref.whole cc9_scratch0
abbrev VS9 : View sig .tc .vmem S1024x256 .f32 := scM9.view

/-- The invariant before the first point, with the accumulator split out as a memref owned at some contents. -/
theorem PhiA9_eq (c : Dev nD) :
    (Pipeline.ΦA spec9 c : sProp 𝕄)
      = iprop(iprop(iprop((∃ d, owns (c : Thread nD τ) scM9 fullShare d))
          ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9, owns_whole]; rfl

/-! ## The body's run, case by case -/

set_option maxHeartbeats 4000000 in
/-- FIRST BLOCK: the pieces the stores leave in the accumulator, with the proof that on whole memrefs — the two matrix
    tiles at `x0 x1`, the accumulator at anything — the body runs to the continuation with those pieces written. The
    bias and the output tile are not touched. -/
noncomputable def kernelRun9_A (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole)
    (hc0 : cond9_0 i) (hc1 : ¬cond9_1 i) (x0 : Vec F S1024x1024 .bf16) (x1 : Vec F S1024x256 .bf16) :
    { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc9__gemm_kernel i arg2 harg2 arg3 harg3 arg4 harg4 arg5 harg5 arg6 harg6) Kc } := by
  refine ⟨?_, fun E Kc => ?run⟩
  case run =>
    simp only [cc9__gemm_kernel_eq_skeleton]; unfold cc9__gemm_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- MIDDLE BLOCK: the same with the accumulator entered at `xs`, what the point before left. -/
noncomputable def kernelRun9_B (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole)
    (hc0 : ¬cond9_0 i) (hc1 : ¬cond9_1 i) (x0 : Vec F S1024x1024 .bf16) (x1 : Vec F S1024x256 .bf16) (xs : Vec F S1024x256 .f32) :
    { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc9__gemm_kernel i arg2 harg2 arg3 harg3 arg4 harg4 arg5 harg5 arg6 harg6) Kc } := by
  refine ⟨?_, fun E Kc => ?run⟩
  case run =>
    simp only [cc9__gemm_kernel_eq_skeleton]; unfold cc9__gemm_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- LAST BLOCK: the pieces left in the output tile (`.1`) and in the accumulator (`.2.1`); the bias row at `x2`, the
    output tile entered at anything, the accumulator at `xs`. -/
noncomputable def kernelRun9_C (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole)
    (hc0 : ¬cond9_0 i) (hc1 : cond9_1 i) (x0 : Vec F S1024x1024 .bf16) (x1 : Vec F S1024x256 .bf16) (x2 : Vec F S1x256 .f32) (xs : Vec F S1024x256 .f32) :
    Σ' (L3 : List (View.Piece (Elt F) S1024x256 .bf16)), { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc9__gemm_kernel i arg2 harg2 arg3 harg3 arg4 harg4 arg5 harg5 arg6 harg6) Kc } := by
  refine ⟨?_, ?_, fun E Kc => ?run⟩
  case run =>
    simp only [cc9__gemm_kernel_eq_skeleton]; unfold cc9__gemm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves -/

theorem scover9_A (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond9_0 i) (hc1 : ¬cond9_1 i) (x0 : Vec F S1024x1024 .bf16) (x1 : Vec F S1024x256 .bf16) (y : S1024x256.Idx) :
    ∃ pc ∈ (kernelRun9_A c i arg2 harg2 arg3 harg3 arg4 harg4 arg5 harg5 arg6 harg6 hc0 hc1 x0 x1).1, y ∈ pc.1.set :=
  View.cover_of_tiledL (kernelRun9_A c i arg2 harg2 arg3 harg3 arg4 harg4 arg5 harg5 arg6 harg6 hc0 hc1 x0 x1).1 S1024x256.size (by sl_kernel_rfl) y
/-- The accumulator after a first block. -/
def sout9_A (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond9_0 i) (hc1 : ¬cond9_1 i) (x0 : Vec F S1024x1024 .bf16) (x1 : Vec F S1024x256 .bf16) : Vec F S1024x256 .f32 :=
  VS9.read (Elt F) (VS9.writes (Elt F) VS9.junk (kernelRun9_A c i arg2 harg2 arg3 harg3 arg4 harg4 arg5 harg5 arg6 harg6 hc0 hc1 x0 x1).1)

theorem scover9_B (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond9_0 i) (hc1 : ¬cond9_1 i) (x0 : Vec F S1024x1024 .bf16) (x1 : Vec F S1024x256 .bf16) (xs : Vec F S1024x256 .f32) (y : S1024x256.Idx) :
    ∃ pc ∈ (kernelRun9_B c i arg2 harg2 arg3 harg3 arg4 harg4 arg5 harg5 arg6 harg6 hc0 hc1 x0 x1 xs).1, y ∈ pc.1.set :=
  View.cover_of_tiledL (kernelRun9_B c i arg2 harg2 arg3 harg3 arg4 harg4 arg5 harg5 arg6 harg6 hc0 hc1 x0 x1 xs).1 S1024x256.size (by sl_kernel_rfl) y
/-- The accumulator after a middle block. -/
def sout9_B (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond9_0 i) (hc1 : ¬cond9_1 i) (x0 : Vec F S1024x1024 .bf16) (x1 : Vec F S1024x256 .bf16) (xs : Vec F S1024x256 .f32) : Vec F S1024x256 .f32 :=
  VS9.read (Elt F) (VS9.writes (Elt F) VS9.junk (kernelRun9_B c i arg2 harg2 arg3 harg3 arg4 harg4 arg5 harg5 arg6 harg6 hc0 hc1 x0 x1 xs).1)

theorem scover9_C (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond9_0 i) (hc1 : cond9_1 i) (x0 : Vec F S1024x1024 .bf16) (x1 : Vec F S1024x256 .bf16) (x2 : Vec F S1x256 .f32) (xs : Vec F S1024x256 .f32) (y : S1024x256.Idx) :
    ∃ pc ∈ (kernelRun9_C c i arg2 harg2 arg3 harg3 arg4 harg4 arg5 harg5 arg6 harg6 hc0 hc1 x0 x1 x2 xs).2.1, y ∈ pc.1.set :=
  View.cover_of_tiledL (kernelRun9_C c i arg2 harg2 arg3 harg3 arg4 harg4 arg5 harg5 arg6 harg6 hc0 hc1 x0 x1 x2 xs).2.1 S1024x256.size (by sl_kernel_rfl) y
/-- The accumulator after a last block. -/
def sout9_C (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond9_0 i) (hc1 : cond9_1 i) (x0 : Vec F S1024x1024 .bf16) (x1 : Vec F S1024x256 .bf16) (x2 : Vec F S1x256 .f32) (xs : Vec F S1024x256 .f32) : Vec F S1024x256 .f32 :=
  VS9.read (Elt F) (VS9.writes (Elt F) VS9.junk (kernelRun9_C c i arg2 harg2 arg3 harg3 arg4 harg4 arg5 harg5 arg6 harg6 hc0 hc1 x0 x1 x2 xs).2.1)
theorem cover9_C (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond9_0 i) (hc1 : cond9_1 i) (x0 : Vec F S1024x1024 .bf16) (x1 : Vec F S1024x256 .bf16) (x2 : Vec F S1x256 .f32) (xs : Vec F S1024x256 .f32) (y : S1024x256.Idx) :
    ∃ pc ∈ (kernelRun9_C c i arg2 harg2 arg3 harg3 arg4 harg4 arg5 harg5 arg6 harg6 hc0 hc1 x0 x1 x2 xs).1, y ∈ pc.1.set :=
  View.cover_of_tiledL (kernelRun9_C c i arg2 harg2 arg3 harg3 arg4 harg4 arg5 harg5 arg6 harg6 hc0 hc1 x0 x1 x2 xs).1 S1024x256.size (by sl_kernel_rfl) y
/-- The output tile after a last block. -/
def out9_C (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond9_0 i) (hc1 : cond9_1 i) (x0 : Vec F S1024x1024 .bf16) (x1 : Vec F S1024x256 .bf16) (x2 : Vec F S1x256 .f32) (xs : Vec F S1024x256 .f32) : Vec F S1024x256 .bf16 :=
  VO9_3.read (Elt F) (VO9_3.writes (Elt F) VO9_3.junk (kernelRun9_C c i arg2 harg2 arg3 harg3 arg4 harg4 arg5 harg5 arg6 harg6 hc0 hc1 x0 x1 x2 xs).1)

/-! ## What the accumulator and the output tile hold after each point -/

/-- THE ACCUMULATION: the accumulator after the body at position `n` — after a first block what that block leaves,
    otherwise what this block leaves over what position `n - 1` left. -/
def accAt9 (c : Dev nD) : (n : ℕ) → n < cfg9.N → Vec F S1024x256 .f32
  | 0, hn => sout9_A c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9 (Memref.isWhole_whole _)
      ((hcond9_0 ⟨0, hn⟩).mpr (Nat.zero_mod _)) (fun h => by have h3 := (hcond9_1 ⟨0, hn⟩).mp h; (try dsimp only at h3); omega) (iblk9 V c 0 ⟨0, hn⟩) (iblk9 V c 1 ⟨0, hn⟩)
  | n + 1, hn =>
    if h0 : (n + 1) % 4 = 0 then
      sout9_A c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9 (Memref.isWhole_whole _)
        ((hcond9_0 ⟨n + 1, hn⟩).mpr h0) (fun h => by have h3 := (hcond9_1 ⟨n + 1, hn⟩).mp h; (try dsimp only at h3); omega) (iblk9 V c 0 ⟨n + 1, hn⟩) (iblk9 V c 1 ⟨n + 1, hn⟩)
    else if h1 : (n + 1) % 4 = 3 then
      sout9_C c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9 (Memref.isWhole_whole _)
        (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (accAt9 c n (Nat.lt_of_succ_lt hn))
    else
      sout9_B c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9 (Memref.isWhole_whole _)
        (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (accAt9 c n (Nat.lt_of_succ_lt hn))

theorem accAt9_A (c : Dev nD) (t : Fin cfg9.N) (h0 : t.val % 4 = 0) (h1 : ¬t.val % 4 = 3) :
    accAt9 V c t.val t.isLt = sout9_A c (grid9.coords t) (ms9_0 t) (hs9_0 t) (ms9_1 t) (hs9_1 t) (ms9_2 t) (hs9_2 t) (ms9_3 t) (hs9_3 t) scM9 (Memref.isWhole_whole _)
      ((hcond9_0 t).mpr h0) (fun h => h1 ((hcond9_1 t).mp h)) (iblk9 V c 0 t) (iblk9 V c 1 t) := by
  obtain ⟨n, hn⟩ := t
  cases n with
  | zero => exact rfl
  | succ n => exact (dif_pos h0).trans rfl

theorem accAt9_B (c : Dev nD) (t : Fin cfg9.N) (h0 : ¬t.val % 4 = 0) (h1 : ¬t.val % 4 = 3) :
    accAt9 V c t.val t.isLt = sout9_B c (grid9.coords t) (ms9_0 t) (hs9_0 t) (ms9_1 t) (hs9_1 t) (ms9_2 t) (hs9_2 t) (ms9_3 t) (hs9_3 t) scM9 (Memref.isWhole_whole _)
      (fun h => h0 ((hcond9_0 t).mp h)) (fun h => h1 ((hcond9_1 t).mp h)) (iblk9 V c 0 t) (iblk9 V c 1 t)
      (accAt9 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt9_C (c : Dev nD) (t : Fin cfg9.N) (h0 : ¬t.val % 4 = 0) (h1 : t.val % 4 = 3) :
    accAt9 V c t.val t.isLt = sout9_C c (grid9.coords t) (ms9_0 t) (hs9_0 t) (ms9_1 t) (hs9_1 t) (ms9_2 t) (hs9_2 t) (ms9_3 t) (hs9_3 t) scM9 (Memref.isWhole_whole _)
      (fun h => h0 ((hcond9_0 t).mp h)) ((hcond9_1 t).mpr h1) (iblk9 V c 0 t) (iblk9 V c 1 t) (iblk9 V c 2 t)
      (accAt9 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output tile after the body at point `t`: at a last block what that case stores over what the point before left in
    the accumulator; elsewhere the body stores nothing into it and the tile is not written back: a placeholder. -/
def outAt9 (c : Dev nD) (t : Fin cfg9.N) : Vec F S1024x256 .bf16 :=
  if h1 : t.val % 4 = 3 then
    out9_C c (grid9.coords t) (ms9_0 t) (hs9_0 t) (ms9_1 t) (hs9_1 t) (ms9_2 t) (hs9_2 t) (ms9_3 t) (hs9_3 t) scM9 (Memref.isWhole_whole _)
      (fun h => by have h3 := (hcond9_0 t).mp h; omega) ((hcond9_1 t).mpr h1) (iblk9 V c 0 t) (iblk9 V c 1 t) (iblk9 V c 2 t)
      (accAt9 V c (t.val - 1) (Nat.lt_of_le_of_lt (Nat.sub_le _ _) t.isLt))
  else VO9_3.read (Elt F) VO9_3.junk

/-! ## The region's invariant and proof data -/

/-- The invariant before position `n`: before the first point the scoped rest with the accumulator at anything;
    afterwards the accumulator at what the point before left, the rest of the scoped buffers, and the generator register. -/
def PhiS9 (c : Dev nD) : (n : ℕ) → n ≤ cfg9.N → sProp 𝕄
  | 0, _ => Pipeline.ΦA spec9 c
  | n + 1, hn => iprop(iprop(owns (c : Thread nD τ) scM9 fullShare (accAt9 V c n hn)
      ∗ Pipeline.scopedRestBut (Ix := Unit) (Name := ℕ) (U := UR sig nD τ) (Lvl := ℕ) (Val := Elt F) spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl
theorem PhiS9_succ (c : Dev nD) (n : ℕ) (hn : n < cfg9.N) :
    PhiS9 V c (n + 1) hn = iprop(iprop(owns (c : Thread nD τ) scM9 fullShare (accAt9 V c n hn)
      ∗ Pipeline.scopedRestBut (Ix := Unit) (Name := ℕ) (U := UR sig nD τ) (Lvl := ℕ) (Val := Elt F) spec9 c [cc9_scratch0]) ∗ (∃ r, prngReg c r)) := rfl
theorem PhiS9_pos (c : Dev nD) (n : ℕ) (h : n ≤ cfg9.N) (hz : n ≠ 0) :
    PhiS9 V c n h = iprop(iprop(owns (c : Thread nD τ) scM9 fullShare (accAt9 V c (n - 1) (by omega))
      ∗ Pipeline.scopedRestBut (Ix := Unit) (Name := ℕ) (U := UR sig nD τ) (Lvl := ℕ) (Val := Elt F) spec9 c [cc9_scratch0]) ∗ (∃ r, prngReg c r)) := by
  cases n with
  | zero => exact absurd rfl hz
  | succ n => rfl

/-- The proof data on core `c`: the arrays as the region finds them; after the body at point `t` each input's buffer
    at its tile and the output's at `outAt9`; the invariant `PhiS9`; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => outAt9 V c t
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]
theorem PhiS9_castSucc (c : Dev nD) (t : Fin cfg9.N) :
    (dat9 V c).Φ t.castSucc = PhiS9 V c t.val (Nat.le_of_lt t.isLt) := by
  dsimp only [dat9]; simp only [Fin.coe_castSucc]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = outAt9 V c t := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 8000000 in
/-- The body at any point: the inputs' memrefs hold their tiles; the position modulo 4 says which case the point is
    in; the invariant lends the accumulator at what the point before left (at anything before the first point) and
    takes it back at this point's contents; at a last block the output tile is left at that case's contents, elsewhere
    it is handed back untouched. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  rw [show (dat9 V c).leavesExact 0 t = owns (c : Thread nD τ) (ms9_0 t) fullShare ((dat9 V c).after 0 t) from by
      unfold Dat.leavesExact; rw [liveAt9_0 t], after9_0,
    show (dat9 V c).leavesExact 1 t = owns (c : Thread nD τ) (ms9_1 t) fullShare ((dat9 V c).after 1 t) from by
      unfold Dat.leavesExact; rw [liveAt9_1 t], after9_1,
    show (dat9 V c).leavesExact 2 t = owns (c : Thread nD τ) (ms9_2 t) fullShare ((dat9 V c).after 2 t) from by
      unfold Dat.leavesExact; rw [liveAt9_2 t], after9_2]
  have hN : t.val < 16 := lt_of_lt_of_eq t.isLt (show cfg9.N = 16 from N_9)
  by_cases h0 : t.val % 4 = 0
  · -- a first block
    have h1 : ¬t.val % 4 = 3 := by omega
    rw [Dat.leavesExact_idle (dat9 V c) 3 t (idleAt9_3 t (fun h => h1 ((hcond9_1 t).mp h))) (noFlush9_3 t (fun h => h1 ((hcond9_1 t).mp h)))]
    rw [accAt9_A V c t h0 h1]
    unfold sout9_A
    by_cases hz : t.val = 0
    · rw [PhiS9_castSucc V c t, PhiS9_zero V c _ _ hz, PhiA9_eq]
      iintro ⟨⟨⟨HS, Hbut⟩, Hg⟩, Ho, ⟨%d0, H0⟩, ⟨%d1, H1⟩, ⟨%d2, H2⟩, ⟨%d3, H3⟩⟩
      iapply ((kernelRun9_A c (grid9.coords t) _ _ _ _ _ _ _ _ _ _ ((hcond9_0 t).mpr h0) (fun h => h1 ((hcond9_1 t).mp h)) (iblk9 V c 0 t) (iblk9 V c 1 t)).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover9_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
    · rw [PhiS9_castSucc V c t, PhiS9_pos V c _ _ hz]
      iintro ⟨⟨⟨HS, Hbut⟩, Hg⟩, Ho, ⟨%d0, H0⟩, ⟨%d1, H1⟩, ⟨%d2, H2⟩, ⟨%d3, H3⟩⟩
      iapply ((kernelRun9_A c (grid9.coords t) _ _ _ _ _ _ _ _ _ _ ((hcond9_0 t).mpr h0) (fun h => h1 ((hcond9_1 t).mp h)) (iblk9 V c 0 t) (iblk9 V c 1 t)).2 Set.univ _)
      isplitl [H0]; · iexact H0
      isplitl [H1]; · iexact H1
      isplitl [HS]; · iexists _; iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover9_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · -- a last block
      rw [show (dat9 V c).leavesExact 3 t = owns (c : Thread nD τ) (ms9_3 t) fullShare ((dat9 V c).after 3 t) from by
        unfold Dat.leavesExact; rw [liveAt9_3 t ((hcond9_1 t).mpr h1)], after9_3]
      rw [accAt9_C V c t h0 h1]
      unfold sout9_C outAt9
      rw [dif_pos h1]
      unfold out9_C
      rw [PhiS9_castSucc V c t, PhiS9_pos V c _ _ hz]
      iintro ⟨⟨⟨HS, Hbut⟩, Hg⟩, Ho, ⟨%d0, H0⟩, ⟨%d1, H1⟩, ⟨%d2, H2⟩, ⟨%d3, H3⟩⟩
      iapply ((kernelRun9_C c (grid9.coords t) _ _ _ _ _ _ _ _ _ _ (fun h => h0 ((hcond9_0 t).mp h)) ((hcond9_1 t).mpr h1) (iblk9 V c 0 t) (iblk9 V c 1 t) (iblk9 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hbut Hg]
      · isplitl [HS Hbut]
        · isplitl [HS]
          · unfold owns; iexists _; isplitr
            swap; · iexact HS
            ipureintro; exact View.read_writes_of_cover _ _ _ _ _ (scover9_C c _ _ _ _ _ _ _ _ _ _ _ _ _ _ _ _ _)
          iexact Hbut
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover9_C c _ _ _ _ _ _ _ _ _ _ _ _ _ _ _ _ _)
    · -- a middle block
      rw [Dat.leavesExact_idle (dat9 V c) 3 t (idleAt9_3 t (fun h => h1 ((hcond9_1 t).mp h))) (noFlush9_3 t (fun h => h1 ((hcond9_1 t).mp h)))]
      rw [accAt9_B V c t h0 h1]
      unfold sout9_B
      rw [PhiS9_castSucc V c t, PhiS9_pos V c _ _ hz]
      iintro ⟨⟨⟨HS, Hbut⟩, Hg⟩, Ho, ⟨%d0, H0⟩, ⟨%d1, H1⟩, ⟨%d2, H2⟩, ⟨%d3, H3⟩⟩
      iapply ((kernelRun9_B c (grid9.coords t) _ _ _ _ _ _ _ _ _ _ (fun h => h0 ((hcond9_0 t).mp h)) (fun h => h1 ((hcond9_1 t).mp h)) (iblk9 V c 0 t) (iblk9 V c 1 t) _).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover9_B c _ _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After the last point the invariant gives the scoped rest back: what the accumulator holds is forgotten. -/
theorem hout9 (c : Dev nD) : (dat9 V c).Φ (Fin.last cfg9.N) ⊢ Pipeline.ΦA spec9 c := by
  rw [show (dat9 V c).Φ (Fin.last cfg9.N) = PhiS9 V c (Fin.last cfg9.N).val (Nat.le_of_lt_succ (Fin.last cfg9.N).isLt) from rfl,
    PhiS9_pos V c _ _ (by rw [Fin.val_last]; have : cfg9.N = 16 := N_9; omega), PhiA9_eq]
  iintro ⟨⟨HS, Hbut⟩, Hg⟩
  isplitl [HS Hbut]
  · isplitl [HS]; · iexists _; iexact HS
    iexact Hbut
  iexact Hg

end Cert.Kernel.Hand

end
-- ==== Proof.K.Seg9.lean ====
/-
  Region 9 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.K.Region9
import proofs.«107088_j31018253811971_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg9 (hK : ∀ c, pdats 9 c = dat9 (atTc Win) c)
    (hF : ∀ c (w : Fin cfg9.W), (dat9 (atTc Win) c).arrAt w cfg9.N = atTc Wout c (Pipeline.arrRef spec9 w))
    (hrest : ∀ c, ∀ b, b ∉ Finset.univ.image (Pipeline.arrRef spec9) → atTc Wout c b = atTc Win c b) :
    Pipeline.RegionSeg (pcfgs (F := F)) adm pdats () defs₀ 𝒱₀ L lv 9 where
  win := launch9.win.to₀
  block_pos := launch9.block_pos
  stage_whole := launch9.stage_whole
  K := PEmpty
  osem k := k.elim
  ho := Pipeline.OwnSemFacts.none _
  hbody c := by rw [hK c]; exact (body_obligation9 (atTc Win) c).loose
  hwaits := Pipeline.hwaits_of_owed_zero _ _ _ _ L lv 9 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec9 c (atTc Win c)
  hentry c := by
    rw [Pipeline.ownSems0_none]
    have hsplit := Pipeline.arrays_of_unscopedBufs (p := 9) (pcfgs (F := F)) adm pdats launch9.win launch9.arr_whole c
      (by rw [hK c]; exact (dat9 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hK c]
    have h := hin9 (atTc Win) c
    unfold Pipeline.ΦA at h
    iintro ⟨Hp, -, Hr⟩
    iapply h
    isplitl [Hr]; · iexact Hr
    iexact Hp
  hout c := by
    rw [Pipeline.ownSems0_none, hK c]
    have h := hout9 (atTc Win) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c pdats (by rw [hK c]; exact (dat9 (atTc Win) c).share_full fun _ => rfl)
      (atTc Win c) (atTc Wout c) ((pdats 9 c).arrAt · cfg9.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.Kernel.Hand

end
-- ==== Proof.K.Region10.lean ====
/-
  Region 10: t5 = h1·W2, row tiles of 1024 over a 4 × 1 grid: tile p of the result is (rows of h1 in tile p)·W2, rounded to bf16.
  The contraction is one block long, so at every grid point the body zeroes its accumulator (the scratch), adds the
  product of the point's two tiles into it, and reads it out, plus the bias row, into the output tile: both of the
  body's conditions (first block, last block) hold at every point. The scratch is therefore dead between points and
  the region's invariant keeps it at unnamed contents. This file: each window's tile at a point, the body's run
  (whose witness is the list of pieces the stores leave in the output tile and in the scratch), what the output tile
  holds after the body as a function of the three input tiles, the region's proof data at any entry contents `V`,
  and the body obligation.
-/
import proofs.«107088_j31018253811971_1_alg».proof.Proof.Gen.Kernel.Launch
import proofs.«107088_j31018253811971_1_alg».proof.Proof.Gen.Kernel.Skeleton
import proofs.«107088_j31018253811971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its tile at every point, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- Input window 1's current staging buffer holds its tile at every point, fetched there or not. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- Input window 2's current staging buffer holds its tile at every point, fetched there or not. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The body's two conditions -/

/-- "This is the first block of the contraction": the body's first `if`, from the grid coordinates. -/
abbrev cond10_0 (i : grid10.Coords) : Prop := (Scalar.cmpi .ne (Scalar.extui (Scalar.cmpi .eq (BitVec.ofNat 32 (i 1).val) 0#32)) 0#32) = 1#1
/-- It holds at every point: the contraction axis of the grid has one position. -/
theorem hcond10_0 : ∀ t : Fin cfg10.N, cond10_0 (grid10.coords t) :=
  (by decide +kernel : ∀ t : Fin grid10.N, cond10_0 (grid10.coords t))
/-- "This is the last block of the contraction": the body's second `if`. -/
abbrev cond10_1 (i : grid10.Coords) : Prop := k10_cond2 i = 1#1
/-- It holds at every point too. -/
theorem hcond10_1 : ∀ t : Fin cfg10.N, cond10_1 (grid10.coords t) :=
  (by decide +kernel : ∀ t : Fin grid10.N, cond10_1 (grid10.coords t))
/-- No window is idle at any point. -/
theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem liveAt10_3 : ∀ t : Fin cfg10.N, cfg10.idle 3 (grid10.coords t) = false := by decide +kernel

/-! ## The staging memrefs and the scratch, as the pipeline passes them -/

abbrev VO10_3 : View sig .tc .vmem S1024x16 .bf16 := (Memref.whole cc10_stg3_0 : Memref sig .tc .vmem S1024x16 .bf16).view
abbrev ms10_0 (t : Fin cfg10.N) : Memref sig .tc .vmem S1024x256 .bf16 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S256x16 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x16 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1024x16 .bf16 := win10_3.stage (cfg10.slots t 3)
abbrev hs10_3 (t : Fin cfg10.N) : (ms10_3 t).IsWhole := hstage10_3 ((cfg10.slots t 3).cast nbuf10_3)
/-- The accumulator: a whole scoped buffer of the kernel's own, passed beside the windows. -/
abbrev scM10 : Memref sig .tc .vmem S1024x16 .f32 := Memref.whole cc10_scratch0

/-- The region's invariant with the accumulator split out as a memref owned at some contents. -/
theorem PhiA10_eq (c : Dev nD) :
    (Pipeline.ΦA spec10 c : sProp 𝕄)
      = iprop(iprop(iprop((∃ d, owns (c : Thread nD τ) scM10 fullShare d))
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10, owns_whole]; rfl

/-! ## The body's run -/

set_option maxHeartbeats 4000000 in
/-- The pieces the body's stores leave in the output tile (`.1`) and in the accumulator (`.2.1`), last first, WITH the
    proof that on whole memrefs — the three inputs' at contents `x0 x1 x2`, the output's and the accumulator's at
    anything — the body runs to the continuation holding the inputs' as they were and those pieces written. -/
noncomputable def kernelRun10 (c : Dev nD) (i : grid10.Coords)
    (arg2 : Memref sig .tc .vmem S1024x256 .bf16) (harg2 : arg2.IsWhole) (arg3 : Memref sig .tc .vmem S256x16 .f32) (harg3 : arg3.IsWhole)
    (arg4 : Memref sig .tc .vmem S1x16 .f32) (harg4 : arg4.IsWhole) (arg5 : Memref sig .tc .vmem S1024x16 .bf16) (harg5 : arg5.IsWhole)
    (arg6 : Memref sig .tc .vmem S1024x16 .f32) (harg6 : arg6.IsWhole) (hc0 : cond10_0 i) (hc1 : cond10_1 i)
    (x0 : Vec F S1024x256 .bf16) (x1 : Vec F S256x16 .f32) (x2 : Vec F S1x16 .f32) :
    Σ' (L3 : List (View.Piece (Elt F) S1024x16 .bf16)), { LS : List (View.Piece (Elt F) S1024x16 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc10__gemm_kernel i arg2 harg2 arg3 harg3 arg4 harg4 arg5 harg5 arg6 harg6) Kc } := by
  refine ⟨?_, ?_, fun E Kc => ?run⟩
  case run =>
    simp only [cc10__gemm_kernel_eq_skeleton]; unfold cc10__gemm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-- The output tile's pieces tile it. -/
theorem cover10_3 (c : Dev nD) (i : grid10.Coords)
    (arg2 : Memref sig .tc .vmem S1024x256 .bf16) (harg2 : arg2.IsWhole) (arg3 : Memref sig .tc .vmem S256x16 .f32) (harg3 : arg3.IsWhole)
    (arg4 : Memref sig .tc .vmem S1x16 .f32) (harg4 : arg4.IsWhole) (arg5 : Memref sig .tc .vmem S1024x16 .bf16) (harg5 : arg5.IsWhole)
    (arg6 : Memref sig .tc .vmem S1024x16 .f32) (harg6 : arg6.IsWhole) (hc0 : cond10_0 i) (hc1 : cond10_1 i)
    (x0 : Vec F S1024x256 .bf16) (x1 : Vec F S256x16 .f32) (x2 : Vec F S1x16 .f32) (y : S1024x16.Idx) :
    ∃ pc ∈ (kernelRun10 c i arg2 harg2 arg3 harg3 arg4 harg4 arg5 harg5 arg6 harg6 hc0 hc1 x0 x1 x2).1, y ∈ pc.1.set :=
  View.cover_of_tiledL (kernelRun10 c i arg2 harg2 arg3 harg3 arg4 harg4 arg5 harg5 arg6 harg6 hc0 hc1 x0 x1 x2).1 S1024x16.size (by sl_kernel_rfl) y

/-- What the body leaves in the output tile: its pieces read back. -/
def out10_3 (c : Dev nD) (i : grid10.Coords)
    (arg2 : Memref sig .tc .vmem S1024x256 .bf16) (harg2 : arg2.IsWhole) (arg3 : Memref sig .tc .vmem S256x16 .f32) (harg3 : arg3.IsWhole)
    (arg4 : Memref sig .tc .vmem S1x16 .f32) (harg4 : arg4.IsWhole) (arg5 : Memref sig .tc .vmem S1024x16 .bf16) (harg5 : arg5.IsWhole)
    (arg6 : Memref sig .tc .vmem S1024x16 .f32) (harg6 : arg6.IsWhole) (hc0 : cond10_0 i) (hc1 : cond10_1 i)
    (x0 : Vec F S1024x256 .bf16) (x1 : Vec F S256x16 .f32) (x2 : Vec F S1x16 .f32) : Vec F S1024x16 .bf16 :=
  VO10_3.read (Elt F) (VO10_3.writes (Elt F) VO10_3.junk (kernelRun10 c i arg2 harg2 arg3 harg3 arg4 harg4 arg5 harg5 arg6 harg6 hc0 hc1 x0 x1 x2).1)

/-- The output tile after the body at point `t`. -/
def outAt10 (c : Dev nD) (t : Fin cfg10.N) : Vec F S1024x16 .bf16 :=
  out10_3 c (grid10.coords t) (ms10_0 t) (hs10_0 t) (ms10_1 t) (hs10_1 t) (ms10_2 t) (hs10_2 t) (ms10_3 t) (hs10_3 t) scM10 (Memref.isWhole_whole _)
    (hcond10_0 t) (hcond10_1 t) (iblk10 V c 0 t) (iblk10 V c 1 t) (iblk10 V c 2 t)

/-! ## The region's proof data -/

/-- The proof data on core `c`: the arrays as the region finds them; after the body at point `t` each input's buffer
    at its tile and the output's at `outAt10`; the invariant the scoped rest (the accumulator among it, at anything) and
    the generator register; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => outAt10 V c t
  Φ _ := Pipeline.ΦA spec10 c
  q _ := fullShare
  owed _ := 0

theorem A_eq10 (c : Dev nD) (w : Fin cfg10.W) : (dat10 V c).A w = V c (Pipeline.arrRef spec10 w) := by
  dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = outAt10 V c t := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation, at a generic point -/

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

set_option maxHeartbeats 4000000 in
/-- The body at any point: the inputs' memrefs hold their tiles, the invariant lends the accumulator at whatever it
    holds, the run applies, and the accumulator goes back into the invariant at whatever the body left. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl]
  rw [show (dat10 V c).leavesExact 0 t = owns (c : Thread nD τ) (ms10_0 t) fullShare ((dat10 V c).after 0 t) from by
      unfold Dat.leavesExact; rw [liveAt10_0 t], after10_0,
    show (dat10 V c).leavesExact 1 t = owns (c : Thread nD τ) (ms10_1 t) fullShare ((dat10 V c).after 1 t) from by
      unfold Dat.leavesExact; rw [liveAt10_1 t], after10_1,
    show (dat10 V c).leavesExact 2 t = owns (c : Thread nD τ) (ms10_2 t) fullShare ((dat10 V c).after 2 t) from by
      unfold Dat.leavesExact; rw [liveAt10_2 t], after10_2,
    show (dat10 V c).leavesExact 3 t = owns (c : Thread nD τ) (ms10_3 t) fullShare ((dat10 V c).after 3 t) from by
      unfold Dat.leavesExact; rw [liveAt10_3 t], after10_3]
  rw [show (dat10 V c).Φ t.castSucc = Pipeline.ΦA spec10 c from rfl, PhiA10_eq]
  unfold outAt10 out10_3
  iintro ⟨⟨⟨HS, Hbut⟩, Hg⟩, Ho, ⟨%d0, H0⟩, ⟨%d1, H1⟩, ⟨%d2, H2⟩, ⟨%d3, H3⟩⟩
  iapply ((kernelRun10 c (grid10.coords t) _ _ _ _ _ _ _ _ _ _ (hcond10_0 t) (hcond10_1 t) (iblk10 V c 0 t) (iblk10 V c 1 t) (iblk10 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hbut Hg]
  · isplitl [HS Hbut]
    · isplitl [HS]
      · unfold owns; iexists _; iexists _; isplitr
        swap; · iexact HS
        ipureintro; rfl
      iexact Hbut
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover10_3 c _ _ _ _ _ _ _ _ _ _ _ _ _ _ _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.Seg10.lean ====
/-
  Region 10 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.K.Region10
import proofs.«107088_j31018253811971_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg10 (hK : ∀ c, pdats 10 c = dat10 (atTc Win) c)
    (hF : ∀ c (w : Fin cfg10.W), (dat10 (atTc Win) c).arrAt w cfg10.N = atTc Wout c (Pipeline.arrRef spec10 w))
    (hrest : ∀ c, ∀ b, b ∉ Finset.univ.image (Pipeline.arrRef spec10) → atTc Wout c b = atTc Win c b) :
    Pipeline.RegionSeg (pcfgs (F := F)) adm pdats () defs₀ 𝒱₀ L lv 10 where
  win := launch10.win.to₀
  block_pos := launch10.block_pos
  stage_whole := launch10.stage_whole
  K := PEmpty
  osem k := k.elim
  ho := Pipeline.OwnSemFacts.none _
  hbody c := by rw [hK c]; exact (body_obligation10 (atTc Win) c).loose
  hwaits := Pipeline.hwaits_of_owed_zero _ _ _ _ L lv 10 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec10 c (atTc Win c)
  hentry c := by
    rw [Pipeline.ownSems0_none]
    have hsplit := Pipeline.arrays_of_unscopedBufs (p := 10) (pcfgs (F := F)) adm pdats launch10.win launch10.arr_whole c
      (by rw [hK c]; exact (dat10 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 10 c).Φ 0 = Pipeline.ΦA spec10 c from by rw [hK c]; rfl]; unfold Pipeline.ΦA
    iintro ⟨Hp, -, Hr⟩
    isplitl [Hr]; · iexact Hr
    iexact Hp
  hout c := by
    rw [Pipeline.ownSems0_none, show (pdats 10 c).Φ (Fin.last _) = Pipeline.ΦA spec10 c from by rw [hK c]; rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c pdats (by rw [hK c]; exact (dat10 (atTc Win) c).share_full fun _ => rfl)
      (atTc Win c) (atTc Wout c) ((pdats 10 c).arrAt · cfg10.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.Kernel.Hand

end
-- ==== Proof.K.Region11.lean ====
/-
  Region 11: the class scores Â·t5 + b2 over a 4 × 4 grid (row tile p, contraction block q), Â the normalised adjacency; kept in f32.
  The contraction over 4096 is accumulated in four blocks of 1024 along the second grid axis, in a scratch the kernel
  keeps between grid points. At the first block of a row tile the body zeroes the scratch and adds the block's
  product; at the two middle blocks it adds the block's product to what the point before left; at the last block it
  does the same and then reads the scratch out, plus the bias row, into the output tile, which is written back only
  there. This file: each window's tile at a point, the body's run in each of the three cases (the witness of a run is
  the list of pieces its stores leave), what the scratch and the output tile hold after each point (a recursion over
  the points), the region's invariant (the scratch at what the point before left), its proof data at any entry
  contents `V`, and the body obligation.
-/
import proofs.«107088_j31018253811971_1_alg».proof.Proof.Gen.Kernel.Launch
import proofs.«107088_j31018253811971_1_alg».proof.Proof.Gen.Kernel.Skeleton
import proofs.«107088_j31018253811971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its tile at every point, fetched there or not. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current staging buffer holds its tile at every point, fetched there or not. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current staging buffer holds its tile at every point, fetched there or not. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The body's two conditions -/

/-- "This is the first block of the contraction": the body's first `if`, from the grid coordinates. -/
abbrev cond11_0 (i : grid11.Coords) : Prop := (Scalar.cmpi .ne (Scalar.extui (Scalar.cmpi .eq (BitVec.ofNat 32 (i 1).val) 0#32)) 0#32) = 1#1
/-- It holds at the points ≡ 0 (mod 4). -/
theorem hcond11_0 : ∀ t : Fin cfg11.N, cond11_0 (grid11.coords t) ↔ t.val % 4 = 0 :=
  (by decide +kernel : ∀ t : Fin grid11.N, cond11_0 (grid11.coords t) ↔ t.val % 4 = 0)
/-- "This is the last block of the contraction": the body's second `if`. -/
abbrev cond11_1 (i : grid11.Coords) : Prop := k11_cond2 i = 1#1
/-- It holds at the points ≡ 3 (mod 4). -/
theorem hcond11_1 : ∀ t : Fin cfg11.N, cond11_1 (grid11.coords t) ↔ t.val % 4 = 3 :=
  (by decide +kernel : ∀ t : Fin grid11.N, cond11_1 (grid11.coords t) ↔ t.val % 4 = 3)
/-- The inputs are never idle; the output tile is idle, and not written back, except at a last block. -/
theorem liveAt11_0 : ∀ t : Fin cfg11.N, cfg11.idle 0 (grid11.coords t) = false := by decide +kernel
theorem liveAt11_1 : ∀ t : Fin cfg11.N, cfg11.idle 1 (grid11.coords t) = false := by decide +kernel
theorem liveAt11_2 : ∀ t : Fin cfg11.N, cfg11.idle 2 (grid11.coords t) = false := by decide +kernel
theorem idleAt11_3 : ∀ t : Fin cfg11.N, ¬cond11_1 (grid11.coords t) → cfg11.idle 3 (grid11.coords t) = true := by decide +kernel
theorem noFlush11_3 : ∀ t : Fin cfg11.N, ¬cond11_1 (grid11.coords t) → (cfg11.win 3).flush t = false := by decide +kernel
theorem liveAt11_3 : ∀ t : Fin cfg11.N, cond11_1 (grid11.coords t) → cfg11.idle 3 (grid11.coords t) = false := by decide +kernel

/-! ## The staging memrefs and the scratch, as the pipeline passes them -/

abbrev VO11_3 : View sig .tc .vmem S1024x16 .f32 := (Memref.whole cc11_stg3_0 : Memref sig .tc .vmem S1024x16 .f32).view
abbrev ms11_0 (t : Fin cfg11.N) : Memref sig .tc .vmem S1024x1024 .bf16 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S1024x16 .bf16 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S1x16 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S1024x16 .f32 := win11_3.stage (cfg11.slots t 3)
abbrev hs11_3 (t : Fin cfg11.N) : (ms11_3 t).IsWhole := hstage11_3 ((cfg11.slots t 3).cast nbuf11_3)
/-- The accumulator: a whole scoped buffer of the kernel's own, passed beside the windows, and its view. -/
abbrev scM11 : Memref sig .tc .vmem S1024x16 .f32 := Memref.whole cc11_scratch0
abbrev VS11 : View sig .tc .vmem S1024x16 .f32 := scM11.view

/-- The invariant before the first point, with the accumulator split out as a memref owned at some contents. -/
theorem PhiA11_eq (c : Dev nD) :
    (Pipeline.ΦA spec11 c : sProp 𝕄)
      = iprop(iprop(iprop((∃ d, owns (c : Thread nD τ) scM11 fullShare d))
          ∗ Pipeline.scopedRestBut (Ix := Unit) (Name := ℕ) (U := UR sig nD τ) (Lvl := ℕ) (Val := Elt F) spec11 c [cc11_scratch0]) ∗ (∃ r, prngReg c r)) := by
  unfold Pipeline.ΦA; rw [scopedRest11_split]; simp only [scM11, owns_whole]; rfl

/-! ## The body's run, case by case -/

set_option maxHeartbeats 4000000 in
/-- FIRST BLOCK: the pieces the stores leave in the accumulator, with the proof that on whole memrefs — the two matrix
    tiles at `x0 x1`, the accumulator at anything — the body runs to the continuation with those pieces written. The
    bias and the output tile are not touched. -/
noncomputable def kernelRun11_A (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole)
    (hc0 : cond11_0 i) (hc1 : ¬cond11_1 i) (x0 : Vec F S1024x1024 .bf16) (x1 : Vec F S1024x16 .bf16) :
    { LS : List (View.Piece (Elt F) S1024x16 .f32) //
      ∀ (E : Set ℕ) (Kc : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc11__gemm_kernel i arg2 harg2 arg3 harg3 arg4 harg4 arg5 harg5 arg6 harg6) Kc } := by
  refine ⟨?_, fun E Kc => ?run⟩
  case run =>
    simp only [cc11__gemm_kernel_eq_skeleton]; unfold cc11__gemm_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- MIDDLE BLOCK: the same with the accumulator entered at `xs`, what the point before left. -/
noncomputable def kernelRun11_B (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole)
    (hc0 : ¬cond11_0 i) (hc1 : ¬cond11_1 i) (x0 : Vec F S1024x1024 .bf16) (x1 : Vec F S1024x16 .bf16) (xs : Vec F S1024x16 .f32) :
    { LS : List (View.Piece (Elt F) S1024x16 .f32) //
      ∀ (E : Set ℕ) (Kc : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc11__gemm_kernel i arg2 harg2 arg3 harg3 arg4 harg4 arg5 harg5 arg6 harg6) Kc } := by
  refine ⟨?_, fun E Kc => ?run⟩
  case run =>
    simp only [cc11__gemm_kernel_eq_skeleton]; unfold cc11__gemm_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- LAST BLOCK: the pieces left in the output tile (`.1`) and in the accumulator (`.2.1`); the bias row at `x2`, the
    output tile entered at anything, the accumulator at `xs`. -/
noncomputable def kernelRun11_C (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole)
    (hc0 : ¬cond11_0 i) (hc1 : cond11_1 i) (x0 : Vec F S1024x1024 .bf16) (x1 : Vec F S1024x16 .bf16) (x2 : Vec F S1x16 .f32) (xs : Vec F S1024x16 .f32) :
    Σ' (L3 : List (View.Piece (Elt F) S1024x16 .f32)), { LS : List (View.Piece (Elt F) S1024x16 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc11__gemm_kernel i arg2 harg2 arg3 harg3 arg4 harg4 arg5 harg5 arg6 harg6) Kc } := by
  refine ⟨?_, ?_, fun E Kc => ?run⟩
  case run =>
    simp only [cc11__gemm_kernel_eq_skeleton]; unfold cc11__gemm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves -/

theorem scover11_A (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : cond11_0 i) (hc1 : ¬cond11_1 i) (x0 : Vec F S1024x1024 .bf16) (x1 : Vec F S1024x16 .bf16) (y : S1024x16.Idx) :
    ∃ pc ∈ (kernelRun11_A c i arg2 harg2 arg3 harg3 arg4 harg4 arg5 harg5 arg6 harg6 hc0 hc1 x0 x1).1, y ∈ pc.1.set :=
  View.cover_of_tiledL (kernelRun11_A c i arg2 harg2 arg3 harg3 arg4 harg4 arg5 harg5 arg6 harg6 hc0 hc1 x0 x1).1 S1024x16.size (by sl_kernel_rfl) y
/-- The accumulator after a first block. -/
def sout11_A (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : cond11_0 i) (hc1 : ¬cond11_1 i) (x0 : Vec F S1024x1024 .bf16) (x1 : Vec F S1024x16 .bf16) : Vec F S1024x16 .f32 :=
  VS11.read (Elt F) (VS11.writes (Elt F) VS11.junk (kernelRun11_A c i arg2 harg2 arg3 harg3 arg4 harg4 arg5 harg5 arg6 harg6 hc0 hc1 x0 x1).1)

theorem scover11_B (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : ¬cond11_0 i) (hc1 : ¬cond11_1 i) (x0 : Vec F S1024x1024 .bf16) (x1 : Vec F S1024x16 .bf16) (xs : Vec F S1024x16 .f32) (y : S1024x16.Idx) :
    ∃ pc ∈ (kernelRun11_B c i arg2 harg2 arg3 harg3 arg4 harg4 arg5 harg5 arg6 harg6 hc0 hc1 x0 x1 xs).1, y ∈ pc.1.set :=
  View.cover_of_tiledL (kernelRun11_B c i arg2 harg2 arg3 harg3 arg4 harg4 arg5 harg5 arg6 harg6 hc0 hc1 x0 x1 xs).1 S1024x16.size (by sl_kernel_rfl) y
/-- The accumulator after a middle block. -/
def sout11_B (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : ¬cond11_0 i) (hc1 : ¬cond11_1 i) (x0 : Vec F S1024x1024 .bf16) (x1 : Vec F S1024x16 .bf16) (xs : Vec F S1024x16 .f32) : Vec F S1024x16 .f32 :=
  VS11.read (Elt F) (VS11.writes (Elt F) VS11.junk (kernelRun11_B c i arg2 harg2 arg3 harg3 arg4 harg4 arg5 harg5 arg6 harg6 hc0 hc1 x0 x1 xs).1)

theorem scover11_C (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : ¬cond11_0 i) (hc1 : cond11_1 i) (x0 : Vec F S1024x1024 .bf16) (x1 : Vec F S1024x16 .bf16) (x2 : Vec F S1x16 .f32) (xs : Vec F S1024x16 .f32) (y : S1024x16.Idx) :
    ∃ pc ∈ (kernelRun11_C c i arg2 harg2 arg3 harg3 arg4 harg4 arg5 harg5 arg6 harg6 hc0 hc1 x0 x1 x2 xs).2.1, y ∈ pc.1.set :=
  View.cover_of_tiledL (kernelRun11_C c i arg2 harg2 arg3 harg3 arg4 harg4 arg5 harg5 arg6 harg6 hc0 hc1 x0 x1 x2 xs).2.1 S1024x16.size (by sl_kernel_rfl) y
/-- The accumulator after a last block. -/
def sout11_C (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : ¬cond11_0 i) (hc1 : cond11_1 i) (x0 : Vec F S1024x1024 .bf16) (x1 : Vec F S1024x16 .bf16) (x2 : Vec F S1x16 .f32) (xs : Vec F S1024x16 .f32) : Vec F S1024x16 .f32 :=
  VS11.read (Elt F) (VS11.writes (Elt F) VS11.junk (kernelRun11_C c i arg2 harg2 arg3 harg3 arg4 harg4 arg5 harg5 arg6 harg6 hc0 hc1 x0 x1 x2 xs).2.1)
theorem cover11_C (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : ¬cond11_0 i) (hc1 : cond11_1 i) (x0 : Vec F S1024x1024 .bf16) (x1 : Vec F S1024x16 .bf16) (x2 : Vec F S1x16 .f32) (xs : Vec F S1024x16 .f32) (y : S1024x16.Idx) :
    ∃ pc ∈ (kernelRun11_C c i arg2 harg2 arg3 harg3 arg4 harg4 arg5 harg5 arg6 harg6 hc0 hc1 x0 x1 x2 xs).1, y ∈ pc.1.set :=
  View.cover_of_tiledL (kernelRun11_C c i arg2 harg2 arg3 harg3 arg4 harg4 arg5 harg5 arg6 harg6 hc0 hc1 x0 x1 x2 xs).1 S1024x16.size (by sl_kernel_rfl) y
/-- The output tile after a last block. -/
def out11_C (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : ¬cond11_0 i) (hc1 : cond11_1 i) (x0 : Vec F S1024x1024 .bf16) (x1 : Vec F S1024x16 .bf16) (x2 : Vec F S1x16 .f32) (xs : Vec F S1024x16 .f32) : Vec F S1024x16 .f32 :=
  VO11_3.read (Elt F) (VO11_3.writes (Elt F) VO11_3.junk (kernelRun11_C c i arg2 harg2 arg3 harg3 arg4 harg4 arg5 harg5 arg6 harg6 hc0 hc1 x0 x1 x2 xs).1)

/-! ## What the accumulator and the output tile hold after each point -/

/-- THE ACCUMULATION: the accumulator after the body at position `n` — after a first block what that block leaves,
    otherwise what this block leaves over what position `n - 1` left. -/
def accAt11 (c : Dev nD) : (n : ℕ) → n < cfg11.N → Vec F S1024x16 .f32
  | 0, hn => sout11_A c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) scM11 (Memref.isWhole_whole _)
      ((hcond11_0 ⟨0, hn⟩).mpr (Nat.zero_mod _)) (fun h => by have h3 := (hcond11_1 ⟨0, hn⟩).mp h; (try dsimp only at h3); omega) (iblk11 V c 0 ⟨0, hn⟩) (iblk11 V c 1 ⟨0, hn⟩)
  | n + 1, hn =>
    if h0 : (n + 1) % 4 = 0 then
      sout11_A c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11 (Memref.isWhole_whole _)
        ((hcond11_0 ⟨n + 1, hn⟩).mpr h0) (fun h => by have h3 := (hcond11_1 ⟨n + 1, hn⟩).mp h; (try dsimp only at h3); omega) (iblk11 V c 0 ⟨n + 1, hn⟩) (iblk11 V c 1 ⟨n + 1, hn⟩)
    else if h1 : (n + 1) % 4 = 3 then
      sout11_C c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11 (Memref.isWhole_whole _)
        (fun h => h0 ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (accAt11 c n (Nat.lt_of_succ_lt hn))
    else
      sout11_B c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11 (Memref.isWhole_whole _)
        (fun h => h0 ((hcond11_0 ⟨n + 1, hn⟩).mp h)) (fun h => h1 ((hcond11_1 ⟨n + 1, hn⟩).mp h)) (iblk11 V c 0 ⟨n + 1, hn⟩) (iblk11 V c 1 ⟨n + 1, hn⟩) (accAt11 c n (Nat.lt_of_succ_lt hn))

theorem accAt11_A (c : Dev nD) (t : Fin cfg11.N) (h0 : t.val % 4 = 0) (h1 : ¬t.val % 4 = 3) :
    accAt11 V c t.val t.isLt = sout11_A c (grid11.coords t) (ms11_0 t) (hs11_0 t) (ms11_1 t) (hs11_1 t) (ms11_2 t) (hs11_2 t) (ms11_3 t) (hs11_3 t) scM11 (Memref.isWhole_whole _)
      ((hcond11_0 t).mpr h0) (fun h => h1 ((hcond11_1 t).mp h)) (iblk11 V c 0 t) (iblk11 V c 1 t) := by
  obtain ⟨n, hn⟩ := t
  cases n with
  | zero => exact rfl
  | succ n => exact (dif_pos h0).trans rfl

theorem accAt11_B (c : Dev nD) (t : Fin cfg11.N) (h0 : ¬t.val % 4 = 0) (h1 : ¬t.val % 4 = 3) :
    accAt11 V c t.val t.isLt = sout11_B c (grid11.coords t) (ms11_0 t) (hs11_0 t) (ms11_1 t) (hs11_1 t) (ms11_2 t) (hs11_2 t) (ms11_3 t) (hs11_3 t) scM11 (Memref.isWhole_whole _)
      (fun h => h0 ((hcond11_0 t).mp h)) (fun h => h1 ((hcond11_1 t).mp h)) (iblk11 V c 0 t) (iblk11 V c 1 t)
      (accAt11 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt11_C (c : Dev nD) (t : Fin cfg11.N) (h0 : ¬t.val % 4 = 0) (h1 : t.val % 4 = 3) :
    accAt11 V c t.val t.isLt = sout11_C c (grid11.coords t) (ms11_0 t) (hs11_0 t) (ms11_1 t) (hs11_1 t) (ms11_2 t) (hs11_2 t) (ms11_3 t) (hs11_3 t) scM11 (Memref.isWhole_whole _)
      (fun h => h0 ((hcond11_0 t).mp h)) ((hcond11_1 t).mpr h1) (iblk11 V c 0 t) (iblk11 V c 1 t) (iblk11 V c 2 t)
      (accAt11 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output tile after the body at point `t`: at a last block what that case stores over what the point before left in
    the accumulator; elsewhere the body stores nothing into it and the tile is not written back: a placeholder. -/
def outAt11 (c : Dev nD) (t : Fin cfg11.N) : Vec F S1024x16 .f32 :=
  if h1 : t.val % 4 = 3 then
    out11_C c (grid11.coords t) (ms11_0 t) (hs11_0 t) (ms11_1 t) (hs11_1 t) (ms11_2 t) (hs11_2 t) (ms11_3 t) (hs11_3 t) scM11 (Memref.isWhole_whole _)
      (fun h => by have h3 := (hcond11_0 t).mp h; omega) ((hcond11_1 t).mpr h1) (iblk11 V c 0 t) (iblk11 V c 1 t) (iblk11 V c 2 t)
      (accAt11 V c (t.val - 1) (Nat.lt_of_le_of_lt (Nat.sub_le _ _) t.isLt))
  else VO11_3.read (Elt F) VO11_3.junk

/-! ## The region's invariant and proof data -/

/-- The invariant before position `n`: before the first point the scoped rest with the accumulator at anything;
    afterwards the accumulator at what the point before left, the rest of the scoped buffers, and the generator register. -/
def PhiS11 (c : Dev nD) : (n : ℕ) → n ≤ cfg11.N → sProp 𝕄
  | 0, _ => Pipeline.ΦA spec11 c
  | n + 1, hn => iprop(iprop(owns (c : Thread nD τ) scM11 fullShare (accAt11 V c n hn)
      ∗ Pipeline.scopedRestBut (Ix := Unit) (Name := ℕ) (U := UR sig nD τ) (Lvl := ℕ) (Val := Elt F) spec11 c [cc11_scratch0]) ∗ (∃ r, prngReg c r))

theorem PhiS11_zero (c : Dev nD) (n : ℕ) (h : n ≤ cfg11.N) (hz : n = 0) : PhiS11 V c n h = Pipeline.ΦA spec11 c := by
  subst hz; rfl
theorem PhiS11_succ (c : Dev nD) (n : ℕ) (hn : n < cfg11.N) :
    PhiS11 V c (n + 1) hn = iprop(iprop(owns (c : Thread nD τ) scM11 fullShare (accAt11 V c n hn)
      ∗ Pipeline.scopedRestBut (Ix := Unit) (Name := ℕ) (U := UR sig nD τ) (Lvl := ℕ) (Val := Elt F) spec11 c [cc11_scratch0]) ∗ (∃ r, prngReg c r)) := rfl
theorem PhiS11_pos (c : Dev nD) (n : ℕ) (h : n ≤ cfg11.N) (hz : n ≠ 0) :
    PhiS11 V c n h = iprop(iprop(owns (c : Thread nD τ) scM11 fullShare (accAt11 V c (n - 1) (by omega))
      ∗ Pipeline.scopedRestBut (Ix := Unit) (Name := ℕ) (U := UR sig nD τ) (Lvl := ℕ) (Val := Elt F) spec11 c [cc11_scratch0]) ∗ (∃ r, prngReg c r)) := by
  cases n with
  | zero => exact absurd rfl hz
  | succ n => rfl

/-- The proof data on core `c`: the arrays as the region finds them; after the body at point `t` each input's buffer
    at its tile and the output's at `outAt11`; the invariant `PhiS11`; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => outAt11 V c t
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]
theorem PhiS11_castSucc (c : Dev nD) (t : Fin cfg11.N) :
    (dat11 V c).Φ t.castSucc = PhiS11 V c t.val (Nat.le_of_lt t.isLt) := by
  dsimp only [dat11]; simp only [Fin.coe_castSucc]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = outAt11 V c t := by dsimp only [dat11]
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t)

set_option maxHeartbeats 8000000 in
/-- The body at any point: the inputs' memrefs hold their tiles; the position modulo 4 says which case the point is
    in; the invariant lends the accumulator at what the point before left (at anything before the first point) and
    takes it back at this point's contents; at a last block the output tile is left at that case's contents, elsewhere
    it is handed back untouched. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).owesAt () t.succ = (dat11 V c).owesAt () t.castSucc from rfl]
  rw [show (dat11 V c).Φ t.succ = PhiS11 V c (t.val + 1) t.isLt from rfl, PhiS11_succ]
  rw [show (dat11 V c).leavesExact 0 t = owns (c : Thread nD τ) (ms11_0 t) fullShare ((dat11 V c).after 0 t) from by
      unfold Dat.leavesExact; rw [liveAt11_0 t], after11_0,
    show (dat11 V c).leavesExact 1 t = owns (c : Thread nD τ) (ms11_1 t) fullShare ((dat11 V c).after 1 t) from by
      unfold Dat.leavesExact; rw [liveAt11_1 t], after11_1,
    show (dat11 V c).leavesExact 2 t = owns (c : Thread nD τ) (ms11_2 t) fullShare ((dat11 V c).after 2 t) from by
      unfold Dat.leavesExact; rw [liveAt11_2 t], after11_2]
  have hN : t.val < 16 := lt_of_lt_of_eq t.isLt (show cfg11.N = 16 from N_11)
  by_cases h0 : t.val % 4 = 0
  · -- a first block
    have h1 : ¬t.val % 4 = 3 := by omega
    rw [Dat.leavesExact_idle (dat11 V c) 3 t (idleAt11_3 t (fun h => h1 ((hcond11_1 t).mp h))) (noFlush11_3 t (fun h => h1 ((hcond11_1 t).mp h)))]
    rw [accAt11_A V c t h0 h1]
    unfold sout11_A
    by_cases hz : t.val = 0
    · rw [PhiS11_castSucc V c t, PhiS11_zero V c _ _ hz, PhiA11_eq]
      iintro ⟨⟨⟨HS, Hbut⟩, Hg⟩, Ho, ⟨%d0, H0⟩, ⟨%d1, H1⟩, ⟨%d2, H2⟩, ⟨%d3, H3⟩⟩
      iapply ((kernelRun11_A c (grid11.coords t) _ _ _ _ _ _ _ _ _ _ ((hcond11_0 t).mpr h0) (fun h => h1 ((hcond11_1 t).mp h)) (iblk11 V c 0 t) (iblk11 V c 1 t)).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover11_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
    · rw [PhiS11_castSucc V c t, PhiS11_pos V c _ _ hz]
      iintro ⟨⟨⟨HS, Hbut⟩, Hg⟩, Ho, ⟨%d0, H0⟩, ⟨%d1, H1⟩, ⟨%d2, H2⟩, ⟨%d3, H3⟩⟩
      iapply ((kernelRun11_A c (grid11.coords t) _ _ _ _ _ _ _ _ _ _ ((hcond11_0 t).mpr h0) (fun h => h1 ((hcond11_1 t).mp h)) (iblk11 V c 0 t) (iblk11 V c 1 t)).2 Set.univ _)
      isplitl [H0]; · iexact H0
      isplitl [H1]; · iexact H1
      isplitl [HS]; · iexists _; iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover11_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · -- a last block
      rw [show (dat11 V c).leavesExact 3 t = owns (c : Thread nD τ) (ms11_3 t) fullShare ((dat11 V c).after 3 t) from by
        unfold Dat.leavesExact; rw [liveAt11_3 t ((hcond11_1 t).mpr h1)], after11_3]
      rw [accAt11_C V c t h0 h1]
      unfold sout11_C outAt11
      rw [dif_pos h1]
      unfold out11_C
      rw [PhiS11_castSucc V c t, PhiS11_pos V c _ _ hz]
      iintro ⟨⟨⟨HS, Hbut⟩, Hg⟩, Ho, ⟨%d0, H0⟩, ⟨%d1, H1⟩, ⟨%d2, H2⟩, ⟨%d3, H3⟩⟩
      iapply ((kernelRun11_C c (grid11.coords t) _ _ _ _ _ _ _ _ _ _ (fun h => h0 ((hcond11_0 t).mp h)) ((hcond11_1 t).mpr h1) (iblk11 V c 0 t) (iblk11 V c 1 t) (iblk11 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hbut Hg]
      · isplitl [HS Hbut]
        · isplitl [HS]
          · unfold owns; iexists _; isplitr
            swap; · iexact HS
            ipureintro; exact View.read_writes_of_cover _ _ _ _ _ (scover11_C c _ _ _ _ _ _ _ _ _ _ _ _ _ _ _ _ _)
          iexact Hbut
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover11_C c _ _ _ _ _ _ _ _ _ _ _ _ _ _ _ _ _)
    · -- a middle block
      rw [Dat.leavesExact_idle (dat11 V c) 3 t (idleAt11_3 t (fun h => h1 ((hcond11_1 t).mp h))) (noFlush11_3 t (fun h => h1 ((hcond11_1 t).mp h)))]
      rw [accAt11_B V c t h0 h1]
      unfold sout11_B
      rw [PhiS11_castSucc V c t, PhiS11_pos V c _ _ hz]
      iintro ⟨⟨⟨HS, Hbut⟩, Hg⟩, Ho, ⟨%d0, H0⟩, ⟨%d1, H1⟩, ⟨%d2, H2⟩, ⟨%d3, H3⟩⟩
      iapply ((kernelRun11_B c (grid11.coords t) _ _ _ _ _ _ _ _ _ _ (fun h => h0 ((hcond11_0 t).mp h)) (fun h => h1 ((hcond11_1 t).mp h)) (iblk11 V c 0 t) (iblk11 V c 1 t) _).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover11_B c _ _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- What the launch hands the region is the invariant before the first point. -/
theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

/-- After the last point the invariant gives the scoped rest back: what the accumulator holds is forgotten. -/
theorem hout11 (c : Dev nD) : (dat11 V c).Φ (Fin.last cfg11.N) ⊢ Pipeline.ΦA spec11 c := by
  rw [show (dat11 V c).Φ (Fin.last cfg11.N) = PhiS11 V c (Fin.last cfg11.N).val (Nat.le_of_lt_succ (Fin.last cfg11.N).isLt) from rfl,
    PhiS11_pos V c _ _ (by rw [Fin.val_last]; have : cfg11.N = 16 := N_11; omega), PhiA11_eq]
  iintro ⟨⟨HS, Hbut⟩, Hg⟩
  isplitl [HS Hbut]
  · isplitl [HS]; · iexists _; iexact HS
    iexact Hbut
  iexact Hg

end Cert.Kernel.Hand

end
-- ==== Proof.K.Seg11.lean ====
/-
  Region 11 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.K.Region11
import proofs.«107088_j31018253811971_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg11 (hK : ∀ c, pdats 11 c = dat11 (atTc Win) c)
    (hF : ∀ c (w : Fin cfg11.W), (dat11 (atTc Win) c).arrAt w cfg11.N = atTc Wout c (Pipeline.arrRef spec11 w))
    (hrest : ∀ c, ∀ b, b ∉ Finset.univ.image (Pipeline.arrRef spec11) → atTc Wout c b = atTc Win c b) :
    Pipeline.RegionSeg (pcfgs (F := F)) adm pdats () defs₀ 𝒱₀ L lv 11 where
  win := launch11.win.to₀
  block_pos := launch11.block_pos
  stage_whole := launch11.stage_whole
  K := PEmpty
  osem k := k.elim
  ho := Pipeline.OwnSemFacts.none _
  hbody c := by rw [hK c]; exact (body_obligation11 (atTc Win) c).loose
  hwaits := Pipeline.hwaits_of_owed_zero _ _ _ _ L lv 11 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec11 c (atTc Win c)
  hentry c := by
    rw [Pipeline.ownSems0_none]
    have hsplit := Pipeline.arrays_of_unscopedBufs (p := 11) (pcfgs (F := F)) adm pdats launch11.win launch11.arr_whole c
      (by rw [hK c]; exact (dat11 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hK c]
    have h := hin11 (atTc Win) c
    unfold Pipeline.ΦA at h
    iintro ⟨Hp, -, Hr⟩
    iapply h
    isplitl [Hr]; · iexact Hr
    iexact Hp
  hout c := by
    rw [Pipeline.ownSems0_none, hK c]
    have h := hout11 (atTc Win) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c pdats (by rw [hK c]; exact (dat11 (atTc Win) c).share_full fun _ => rfl)
      (atTc Win c) (atTc Wout c) ((pdats 11 c).arrAt · cfg11.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.Kernel.Hand

end
-- ==== Proof.K.Frame.lean ====
/-
  The frame of the whole program from its twelve regions' records: the contents of the core's unscoped buffers between
  the program's 26 items as one chain from the launch memory (a host stretch applies its operations; a region
  replaces its result array by what its write-backs leave), the proof data of every region at its entry contents,
  every region's segment record between consecutive links of the chain, and the program's conditional frame
  instantiated at them.
-/
import proofs.«107088_j31018253811971_1_alg».proof.Proof.K.Seg0
import proofs.«107088_j31018253811971_1_alg».proof.Proof.K.Seg1
import proofs.«107088_j31018253811971_1_alg».proof.Proof.K.Seg2
import proofs.«107088_j31018253811971_1_alg».proof.Proof.K.Seg3
import proofs.«107088_j31018253811971_1_alg».proof.Proof.K.Seg4
import proofs.«107088_j31018253811971_1_alg».proof.Proof.K.Seg5
import proofs.«107088_j31018253811971_1_alg».proof.Proof.K.Seg6
import proofs.«107088_j31018253811971_1_alg».proof.Proof.K.Seg7
import proofs.«107088_j31018253811971_1_alg».proof.Proof.K.Seg8
import proofs.«107088_j31018253811971_1_alg».proof.Proof.K.Seg9
import proofs.«107088_j31018253811971_1_alg».proof.Proof.K.Seg10
import proofs.«107088_j31018253811971_1_alg».proof.Proof.K.Seg11

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s unscoped buffers at launch. -/
def W0 (c : Dev nD) : Valuation τ sig (Elt F) := V0 m c
/-- After the host stretch `hostOps0`. -/
def W1 (c : Dev nD) : Valuation τ sig (Elt F) := StableHlo.after hostOps0 (W0 m c)
/-- After region 0: its result array at what the write-backs of its tiles leave, everything else as entered. -/
def W2 (c : Dev nD) : Valuation τ sig (Elt F) :=
  Function.update (W1 m c) main_v1 ((dat0 (atTc (W1 m)) c).arrAt 3 cfg0.N)
theorem W2_out (c : Dev nD) : W2 m c main_v1 = (dat0 (atTc (W1 m)) c).arrAt 3 cfg0.N := by
  unfold W2; exact Function.update_self ..
theorem W2_of_ne (c : Dev nD) (b : Ref sig .tc) (hb : b ≠ main_v1) : W2 m c b = W1 m c b := by
  unfold W2; exact Function.update_of_ne (StableHlo.devRef_ne_of_ne hb) ..
/-- After the host stretch `hostOps1`. -/
def W3 (c : Dev nD) : Valuation τ sig (Elt F) := StableHlo.after hostOps1 (W2 m c)
/-- After region 1: its result array at what the write-backs of its tiles leave, everything else as entered. -/
def W4 (c : Dev nD) : Valuation τ sig (Elt F) :=
  Function.update (W3 m c) main_v3 ((dat1 (atTc (W3 m)) c).arrAt 3 cfg1.N)
theorem W4_out (c : Dev nD) : W4 m c main_v3 = (dat1 (atTc (W3 m)) c).arrAt 3 cfg1.N := by
  unfold W4; exact Function.update_self ..
theorem W4_of_ne (c : Dev nD) (b : Ref sig .tc) (hb : b ≠ main_v3) : W4 m c b = W3 m c b := by
  unfold W4; exact Function.update_of_ne (StableHlo.devRef_ne_of_ne hb) ..
/-- After the host stretch `hostOps2`. -/
def W5 (c : Dev nD) : Valuation τ sig (Elt F) := StableHlo.after hostOps2 (W4 m c)
/-- After region 2: its result array at what the write-backs of its tiles leave, everything else as entered. -/
def W6 (c : Dev nD) : Valuation τ sig (Elt F) :=
  Function.update (W5 m c) main_v5 ((dat2 (atTc (W5 m)) c).arrAt 3 cfg2.N)
theorem W6_out (c : Dev nD) : W6 m c main_v5 = (dat2 (atTc (W5 m)) c).arrAt 3 cfg2.N := by
  unfold W6; exact Function.update_self ..
theorem W6_of_ne (c : Dev nD) (b : Ref sig .tc) (hb : b ≠ main_v5) : W6 m c b = W5 m c b := by
  unfold W6; exact Function.update_of_ne (StableHlo.devRef_ne_of_ne hb) ..
/-- After the host stretch `hostOps3`. -/
def W7 (c : Dev nD) : Valuation τ sig (Elt F) := StableHlo.after hostOps3 (W6 m c)
/-- After region 3: its result array at what the write-backs of its tiles leave, everything else as entered. -/
def W8 (c : Dev nD) : Valuation τ sig (Elt F) :=
  Function.update (W7 m c) main_v7 ((dat3 (atTc (W7 m)) c).arrAt 3 cfg3.N)
theorem W8_out (c : Dev nD) : W8 m c main_v7 = (dat3 (atTc (W7 m)) c).arrAt 3 cfg3.N := by
  unfold W8; exact Function.update_self ..
theorem W8_of_ne (c : Dev nD) (b : Ref sig .tc) (hb : b ≠ main_v7) : W8 m c b = W7 m c b := by
  unfold W8; exact Function.update_of_ne (StableHlo.devRef_ne_of_ne hb) ..
/-- After region 4: its result array at what the write-backs of its tiles leave, everything else as entered. -/
def W9 (c : Dev nD) : Valuation τ sig (Elt F) :=
  Function.update (W8 m c) main_v8 ((dat4 (atTc (W8 m)) c).arrAt 2 cfg4.N)
theorem W9_out (c : Dev nD) : W9 m c main_v8 = (dat4 (atTc (W8 m)) c).arrAt 2 cfg4.N := by
  unfold W9; exact Function.update_self ..
theorem W9_of_ne (c : Dev nD) (b : Ref sig .tc) (hb : b ≠ main_v8) : W9 m c b = W8 m c b := by
  unfold W9; exact Function.update_of_ne (StableHlo.devRef_ne_of_ne hb) ..
/-- After the host stretch `hostOps5`. -/
def W10 (c : Dev nD) : Valuation τ sig (Elt F) := StableHlo.after hostOps5 (W9 m c)
/-- After the host stretch `hostOps5_1`. -/
def W11 (c : Dev nD) : Valuation τ sig (Elt F) := StableHlo.after hostOps5_1 (W10 m c)
/-- After the host stretch `hostOps5_2`. -/
def W12 (c : Dev nD) : Valuation τ sig (Elt F) := StableHlo.after hostOps5_2 (W11 m c)
/-- After the host stretch `hostOps5_3`. -/
def W13 (c : Dev nD) : Valuation τ sig (Elt F) := StableHlo.after hostOps5_3 (W12 m c)
/-- After region 5: its result array at what the write-backs of its tiles leave, everything else as entered. -/
def W14 (c : Dev nD) : Valuation τ sig (Elt F) :=
  Function.update (W13 m c) main_v43 ((dat5 (atTc (W13 m)) c).arrAt 3 cfg5.N)
theorem W14_out (c : Dev nD) : W14 m c main_v43 = (dat5 (atTc (W13 m)) c).arrAt 3 cfg5.N := by
  unfold W14; exact Function.update_self ..
theorem W14_of_ne (c : Dev nD) (b : Ref sig .tc) (hb : b ≠ main_v43) : W14 m c b = W13 m c b := by
  unfold W14; exact Function.update_of_ne (StableHlo.devRef_ne_of_ne hb) ..
/-- After the host stretch `hostOps6`. -/
def W15 (c : Dev nD) : Valuation τ sig (Elt F) := StableHlo.after hostOps6 (W14 m c)
/-- After region 6: its result array at what the write-backs of its tiles leave, everything else as entered. -/
def W16 (c : Dev nD) : Valuation τ sig (Elt F) :=
  Function.update (W15 m c) main_v45 ((dat6 (atTc (W15 m)) c).arrAt 3 cfg6.N)
theorem W16_out (c : Dev nD) : W16 m c main_v45 = (dat6 (atTc (W15 m)) c).arrAt 3 cfg6.N := by
  unfold W16; exact Function.update_self ..
theorem W16_of_ne (c : Dev nD) (b : Ref sig .tc) (hb : b ≠ main_v45) : W16 m c b = W15 m c b := by
  unfold W16; exact Function.update_of_ne (StableHlo.devRef_ne_of_ne hb) ..
/-- After the host stretch `hostOps7`. -/
def W17 (c : Dev nD) : Valuation τ sig (Elt F) := StableHlo.after hostOps7 (W16 m c)
/-- After region 7: its result array at what the write-backs of its tiles leave, everything else as entered. -/
def W18 (c : Dev nD) : Valuation τ sig (Elt F) :=
  Function.update (W17 m c) main_v47 ((dat7 (atTc (W17 m)) c).arrAt 3 cfg7.N)
theorem W18_out (c : Dev nD) : W18 m c main_v47 = (dat7 (atTc (W17 m)) c).arrAt 3 cfg7.N := by
  unfold W18; exact Function.update_self ..
theorem W18_of_ne (c : Dev nD) (b : Ref sig .tc) (hb : b ≠ main_v47) : W18 m c b = W17 m c b := by
  unfold W18; exact Function.update_of_ne (StableHlo.devRef_ne_of_ne hb) ..
/-- After the host stretch `hostOps8`. -/
def W19 (c : Dev nD) : Valuation τ sig (Elt F) := StableHlo.after hostOps8 (W18 m c)
/-- After region 8: its result array at what the write-backs of its tiles leave, everything else as entered. -/
def W20 (c : Dev nD) : Valuation τ sig (Elt F) :=
  Function.update (W19 m c) main_v49 ((dat8 (atTc (W19 m)) c).arrAt 3 cfg8.N)
theorem W20_out (c : Dev nD) : W20 m c main_v49 = (dat8 (atTc (W19 m)) c).arrAt 3 cfg8.N := by
  unfold W20; exact Function.update_self ..
theorem W20_of_ne (c : Dev nD) (b : Ref sig .tc) (hb : b ≠ main_v49) : W20 m c b = W19 m c b := by
  unfold W20; exact Function.update_of_ne (StableHlo.devRef_ne_of_ne hb) ..
/-- After the host stretch `hostOps9`. -/
def W21 (c : Dev nD) : Valuation τ sig (Elt F) := StableHlo.after hostOps9 (W20 m c)
/-- After region 9: its result array at what the write-backs of its tiles leave, everything else as entered. -/
def W22 (c : Dev nD) : Valuation τ sig (Elt F) :=
  Function.update (W21 m c) main_v51 ((dat9 (atTc (W21 m)) c).arrAt 3 cfg9.N)
theorem W22_out (c : Dev nD) : W22 m c main_v51 = (dat9 (atTc (W21 m)) c).arrAt 3 cfg9.N := by
  unfold W22; exact Function.update_self ..
theorem W22_of_ne (c : Dev nD) (b : Ref sig .tc) (hb : b ≠ main_v51) : W22 m c b = W21 m c b := by
  unfold W22; exact Function.update_of_ne (StableHlo.devRef_ne_of_ne hb) ..
/-- After the host stretch `hostOps10`. -/
def W23 (c : Dev nD) : Valuation τ sig (Elt F) := StableHlo.after hostOps10 (W22 m c)
/-- After region 10: its result array at what the write-backs of its tiles leave, everything else as entered. -/
def W24 (c : Dev nD) : Valuation τ sig (Elt F) :=
  Function.update (W23 m c) main_v53 ((dat10 (atTc (W23 m)) c).arrAt 3 cfg10.N)
theorem W24_out (c : Dev nD) : W24 m c main_v53 = (dat10 (atTc (W23 m)) c).arrAt 3 cfg10.N := by
  unfold W24; exact Function.update_self ..
theorem W24_of_ne (c : Dev nD) (b : Ref sig .tc) (hb : b ≠ main_v53) : W24 m c b = W23 m c b := by
  unfold W24; exact Function.update_of_ne (StableHlo.devRef_ne_of_ne hb) ..
/-- After the host stretch `hostOps11`. -/
def W25 (c : Dev nD) : Valuation τ sig (Elt F) := StableHlo.after hostOps11 (W24 m c)
/-- After region 11: its result array at what the write-backs of its tiles leave, everything else as entered. -/
def W26 (c : Dev nD) : Valuation τ sig (Elt F) :=
  Function.update (W25 m c) main_v55 ((dat11 (atTc (W25 m)) c).arrAt 3 cfg11.N)
theorem W26_out (c : Dev nD) : W26 m c main_v55 = (dat11 (atTc (W25 m)) c).arrAt 3 cfg11.N := by
  unfold W26; exact Function.update_self ..
theorem W26_of_ne (c : Dev nD) (b : Ref sig .tc) (hb : b ≠ main_v55) : W26 m c b = W25 m c b := by
  unfold W26; exact Function.update_of_ne (StableHlo.devRef_ne_of_ne hb) ..

/-- What each region leaves, as the family the conditional frame is stated over: the contents of `r` after item `J - 1`. -/
def outs : Outs (F := F) := fun J r c => match J with
  | 2 => W2 m c r
  | 4 => W4 m c r
  | 6 => W6 m c r
  | 8 => W8 m c r
  | 9 => W9 m c r
  | 14 => W14 m c r
  | 16 => W16 m c r
  | 18 => W18 m c r
  | 20 => W20 m c r
  | 22 => W22 m c r
  | 24 => W24 m c r
  | 26 => W26 m c r
  | _ => W0 m c r

/-! ## The chain is the one the conditional frame is stated over -/

theorem V0_eq (c : Dev nD) : V0 m c = W0 m c := rfl
theorem V1_eq (c : Dev nD) : V1 m c = W1 m c := by
  show StableHlo.after hostOps0 (V0 m c) = StableHlo.after hostOps0 (W0 m c)
  rw [V0_eq]
theorem V2_eq (c : Dev nD) : V2 m (outs m) c = W2 m c := by
  have e : outs m 2 main_v1 c = (dat0 (atTc (W1 m)) c).arrAt 3 cfg0.N := W2_out m c
  show Function.update (V1 m c) main_v1 (outs m 2 main_v1 c)
    = Function.update (W1 m c) main_v1 ((dat0 (atTc (W1 m)) c).arrAt 3 cfg0.N)
  rw [V1_eq, e]
theorem V3_eq (c : Dev nD) : V3 m (outs m) c = W3 m c := by
  show StableHlo.after hostOps1 (V2 m (outs m) c) = StableHlo.after hostOps1 (W2 m c)
  rw [V2_eq]
theorem V4_eq (c : Dev nD) : V4 m (outs m) c = W4 m c := by
  have e : outs m 4 main_v3 c = (dat1 (atTc (W3 m)) c).arrAt 3 cfg1.N := W4_out m c
  show Function.update (V3 m (outs m) c) main_v3 (outs m 4 main_v3 c)
    = Function.update (W3 m c) main_v3 ((dat1 (atTc (W3 m)) c).arrAt 3 cfg1.N)
  rw [V3_eq, e]
theorem V5_eq (c : Dev nD) : V5 m (outs m) c = W5 m c := by
  show StableHlo.after hostOps2 (V4 m (outs m) c) = StableHlo.after hostOps2 (W4 m c)
  rw [V4_eq]
theorem V6_eq (c : Dev nD) : V6 m (outs m) c = W6 m c := by
  have e : outs m 6 main_v5 c = (dat2 (atTc (W5 m)) c).arrAt 3 cfg2.N := W6_out m c
  show Function.update (V5 m (outs m) c) main_v5 (outs m 6 main_v5 c)
    = Function.update (W5 m c) main_v5 ((dat2 (atTc (W5 m)) c).arrAt 3 cfg2.N)
  rw [V5_eq, e]
theorem V7_eq (c : Dev nD) : V7 m (outs m) c = W7 m c := by
  show StableHlo.after hostOps3 (V6 m (outs m) c) = StableHlo.after hostOps3 (W6 m c)
  rw [V6_eq]
theorem V8_eq (c : Dev nD) : V8 m (outs m) c = W8 m c := by
  have e : outs m 8 main_v7 c = (dat3 (atTc (W7 m)) c).arrAt 3 cfg3.N := W8_out m c
  show Function.update (V7 m (outs m) c) main_v7 (outs m 8 main_v7 c)
    = Function.update (W7 m c) main_v7 ((dat3 (atTc (W7 m)) c).arrAt 3 cfg3.N)
  rw [V7_eq, e]
theorem V9_eq (c : Dev nD) : V9 m (outs m) c = W9 m c := by
  have e : outs m 9 main_v8 c = (dat4 (atTc (W8 m)) c).arrAt 2 cfg4.N := W9_out m c
  show Function.update (V8 m (outs m) c) main_v8 (outs m 9 main_v8 c)
    = Function.update (W8 m c) main_v8 ((dat4 (atTc (W8 m)) c).arrAt 2 cfg4.N)
  rw [V8_eq, e]
theorem V10_eq (c : Dev nD) : V10 m (outs m) c = W10 m c := by
  show StableHlo.after hostOps5 (V9 m (outs m) c) = StableHlo.after hostOps5 (W9 m c)
  rw [V9_eq]
theorem V11_eq (c : Dev nD) : V11 m (outs m) c = W11 m c := by
  show StableHlo.after hostOps5_1 (V10 m (outs m) c) = StableHlo.after hostOps5_1 (W10 m c)
  rw [V10_eq]
theorem V12_eq (c : Dev nD) : V12 m (outs m) c = W12 m c := by
  show StableHlo.after hostOps5_2 (V11 m (outs m) c) = StableHlo.after hostOps5_2 (W11 m c)
  rw [V11_eq]
theorem V13_eq (c : Dev nD) : V13 m (outs m) c = W13 m c := by
  show StableHlo.after hostOps5_3 (V12 m (outs m) c) = StableHlo.after hostOps5_3 (W12 m c)
  rw [V12_eq]
theorem V14_eq (c : Dev nD) : V14 m (outs m) c = W14 m c := by
  have e : outs m 14 main_v43 c = (dat5 (atTc (W13 m)) c).arrAt 3 cfg5.N := W14_out m c
  show Function.update (V13 m (outs m) c) main_v43 (outs m 14 main_v43 c)
    = Function.update (W13 m c) main_v43 ((dat5 (atTc (W13 m)) c).arrAt 3 cfg5.N)
  rw [V13_eq, e]
theorem V15_eq (c : Dev nD) : V15 m (outs m) c = W15 m c := by
  show StableHlo.after hostOps6 (V14 m (outs m) c) = StableHlo.after hostOps6 (W14 m c)
  rw [V14_eq]
theorem V16_eq (c : Dev nD) : V16 m (outs m) c = W16 m c := by
  have e : outs m 16 main_v45 c = (dat6 (atTc (W15 m)) c).arrAt 3 cfg6.N := W16_out m c
  show Function.update (V15 m (outs m) c) main_v45 (outs m 16 main_v45 c)
    = Function.update (W15 m c) main_v45 ((dat6 (atTc (W15 m)) c).arrAt 3 cfg6.N)
  rw [V15_eq, e]
theorem V17_eq (c : Dev nD) : V17 m (outs m) c = W17 m c := by
  show StableHlo.after hostOps7 (V16 m (outs m) c) = StableHlo.after hostOps7 (W16 m c)
  rw [V16_eq]
theorem V18_eq (c : Dev nD) : V18 m (outs m) c = W18 m c := by
  have e : outs m 18 main_v47 c = (dat7 (atTc (W17 m)) c).arrAt 3 cfg7.N := W18_out m c
  show Function.update (V17 m (outs m) c) main_v47 (outs m 18 main_v47 c)
    = Function.update (W17 m c) main_v47 ((dat7 (atTc (W17 m)) c).arrAt 3 cfg7.N)
  rw [V17_eq, e]
theorem V19_eq (c : Dev nD) : V19 m (outs m) c = W19 m c := by
  show StableHlo.after hostOps8 (V18 m (outs m) c) = StableHlo.after hostOps8 (W18 m c)
  rw [V18_eq]
theorem V20_eq (c : Dev nD) : V20 m (outs m) c = W20 m c := by
  have e : outs m 20 main_v49 c = (dat8 (atTc (W19 m)) c).arrAt 3 cfg8.N := W20_out m c
  show Function.update (V19 m (outs m) c) main_v49 (outs m 20 main_v49 c)
    = Function.update (W19 m c) main_v49 ((dat8 (atTc (W19 m)) c).arrAt 3 cfg8.N)
  rw [V19_eq, e]
theorem V21_eq (c : Dev nD) : V21 m (outs m) c = W21 m c := by
  show StableHlo.after hostOps9 (V20 m (outs m) c) = StableHlo.after hostOps9 (W20 m c)
  rw [V20_eq]
theorem V22_eq (c : Dev nD) : V22 m (outs m) c = W22 m c := by
  have e : outs m 22 main_v51 c = (dat9 (atTc (W21 m)) c).arrAt 3 cfg9.N := W22_out m c
  show Function.update (V21 m (outs m) c) main_v51 (outs m 22 main_v51 c)
    = Function.update (W21 m c) main_v51 ((dat9 (atTc (W21 m)) c).arrAt 3 cfg9.N)
  rw [V21_eq, e]
theorem V23_eq (c : Dev nD) : V23 m (outs m) c = W23 m c := by
  show StableHlo.after hostOps10 (V22 m (outs m) c) = StableHlo.after hostOps10 (W22 m c)
  rw [V22_eq]
theorem V24_eq (c : Dev nD) : V24 m (outs m) c = W24 m c := by
  have e : outs m 24 main_v53 c = (dat10 (atTc (W23 m)) c).arrAt 3 cfg10.N := W24_out m c
  show Function.update (V23 m (outs m) c) main_v53 (outs m 24 main_v53 c)
    = Function.update (W23 m c) main_v53 ((dat10 (atTc (W23 m)) c).arrAt 3 cfg10.N)
  rw [V23_eq, e]
theorem V25_eq (c : Dev nD) : V25 m (outs m) c = W25 m c := by
  show StableHlo.after hostOps11 (V24 m (outs m) c) = StableHlo.after hostOps11 (W24 m c)
  rw [V24_eq]
theorem V26_eq (c : Dev nD) : V26 m (outs m) c = W26 m c := by
  have e : outs m 26 main_v55 c = (dat11 (atTc (W25 m)) c).arrAt 3 cfg11.N := W26_out m c
  show Function.update (V25 m (outs m) c) main_v55 (outs m 26 main_v55 c)
    = Function.update (W25 m c) main_v55 ((dat11 (atTc (W25 m)) c).arrAt 3 cfg11.N)
  rw [V25_eq, e]

/-! ## What each region leaves unchanged -/

/-- At region 0's exit each of its arrays holds what the pipeline leaves (an input array is never written back) and
    every other buffer what it held at entry. -/
theorem hF0 (c : Dev nD) (w : Fin cfg0.W) : (dat0 (atTc (W1 m)) c).arrAt w cfg0.N = atTc (W2 m) c (Pipeline.arrRef spec0 w) := by
  have hin : ∀ w : Fin cfg0.W, w ≠ 3 → (cfg0.win w).isOut = false := by decide +kernel
  have hne : ∀ w : Fin cfg0.W, w ≠ 3 → Pipeline.arrRef spec0 w ≠ main_v1 := by decide +kernel
  by_cases hw : w = 3
  · subst hw
    exact (W2_out m c).symm
  · rw [(dat0 (atTc (W1 m)) c).arrAt_in w (hin w hw) _, A_eq0]
    exact (W2_of_ne m c _ (hne w hw)).symm
theorem hrest0 (c : Dev nD) : ∀ b, b ∉ Finset.univ.image (Pipeline.arrRef spec0) → atTc (W2 m) c b = atTc (W1 m) c b :=
  fun b hb => W2_of_ne m c b (fun e => hb (Finset.mem_image.mpr ⟨3, Finset.mem_univ _, by subst e; decide +kernel⟩))
/-- At region 1's exit each of its arrays holds what the pipeline leaves (an input array is never written back) and
    every other buffer what it held at entry. -/
theorem hF1 (c : Dev nD) (w : Fin cfg1.W) : (dat1 (atTc (W3 m)) c).arrAt w cfg1.N = atTc (W4 m) c (Pipeline.arrRef spec1 w) := by
  have hin : ∀ w : Fin cfg1.W, w ≠ 3 → (cfg1.win w).isOut = false := by decide +kernel
  have hne : ∀ w : Fin cfg1.W, w ≠ 3 → Pipeline.arrRef spec1 w ≠ main_v3 := by decide +kernel
  by_cases hw : w = 3
  · subst hw
    exact (W4_out m c).symm
  · rw [(dat1 (atTc (W3 m)) c).arrAt_in w (hin w hw) _, A_eq1]
    exact (W4_of_ne m c _ (hne w hw)).symm
theorem hrest1 (c : Dev nD) : ∀ b, b ∉ Finset.univ.image (Pipeline.arrRef spec1) → atTc (W4 m) c b = atTc (W3 m) c b :=
  fun b hb => W4_of_ne m c b (fun e => hb (Finset.mem_image.mpr ⟨3, Finset.mem_univ _, by subst e; decide +kernel⟩))
/-- At region 2's exit each of its arrays holds what the pipeline leaves (an input array is never written back) and
    every other buffer what it held at entry. -/
theorem hF2 (c : Dev nD) (w : Fin cfg2.W) : (dat2 (atTc (W5 m)) c).arrAt w cfg2.N = atTc (W6 m) c (Pipeline.arrRef spec2 w) := by
  have hin : ∀ w : Fin cfg2.W, w ≠ 3 → (cfg2.win w).isOut = false := by decide +kernel
  have hne : ∀ w : Fin cfg2.W, w ≠ 3 → Pipeline.arrRef spec2 w ≠ main_v5 := by decide +kernel
  by_cases hw : w = 3
  · subst hw
    exact (W6_out m c).symm
  · rw [(dat2 (atTc (W5 m)) c).arrAt_in w (hin w hw) _, A_eq2]
    exact (W6_of_ne m c _ (hne w hw)).symm
theorem hrest2 (c : Dev nD) : ∀ b, b ∉ Finset.univ.image (Pipeline.arrRef spec2) → atTc (W6 m) c b = atTc (W5 m) c b :=
  fun b hb => W6_of_ne m c b (fun e => hb (Finset.mem_image.mpr ⟨3, Finset.mem_univ _, by subst e; decide +kernel⟩))
/-- At region 3's exit each of its arrays holds what the pipeline leaves (an input array is never written back) and
    every other buffer what it held at entry. -/
theorem hF3 (c : Dev nD) (w : Fin cfg3.W) : (dat3 (atTc (W7 m)) c).arrAt w cfg3.N = atTc (W8 m) c (Pipeline.arrRef spec3 w) := by
  have hin : ∀ w : Fin cfg3.W, w ≠ 3 → (cfg3.win w).isOut = false := by decide +kernel
  have hne : ∀ w : Fin cfg3.W, w ≠ 3 → Pipeline.arrRef spec3 w ≠ main_v7 := by decide +kernel
  by_cases hw : w = 3
  · subst hw
    exact (W8_out m c).symm
  · rw [(dat3 (atTc (W7 m)) c).arrAt_in w (hin w hw) _, A_eq3]
    exact (W8_of_ne m c _ (hne w hw)).symm
theorem hrest3 (c : Dev nD) : ∀ b, b ∉ Finset.univ.image (Pipeline.arrRef spec3) → atTc (W8 m) c b = atTc (W7 m) c b :=
  fun b hb => W8_of_ne m c b (fun e => hb (Finset.mem_image.mpr ⟨3, Finset.mem_univ _, by subst e; decide +kernel⟩))
/-- At region 4's exit each of its arrays holds what the pipeline leaves (an input array is never written back) and
    every other buffer what it held at entry. -/
theorem hF4 (c : Dev nD) (w : Fin cfg4.W) : (dat4 (atTc (W8 m)) c).arrAt w cfg4.N = atTc (W9 m) c (Pipeline.arrRef spec4 w) := by
  have hin : ∀ w : Fin cfg4.W, w ≠ 2 → (cfg4.win w).isOut = false := by decide +kernel
  have hne : ∀ w : Fin cfg4.W, w ≠ 2 → Pipeline.arrRef spec4 w ≠ main_v8 := by decide +kernel
  by_cases hw : w = 2
  · subst hw
    exact (W9_out m c).symm
  · rw [(dat4 (atTc (W8 m)) c).arrAt_in w (hin w hw) _, A_eq4]
    exact (W9_of_ne m c _ (hne w hw)).symm
theorem hrest4 (c : Dev nD) : ∀ b, b ∉ Finset.univ.image (Pipeline.arrRef spec4) → atTc (W9 m) c b = atTc (W8 m) c b :=
  fun b hb => W9_of_ne m c b (fun e => hb (Finset.mem_image.mpr ⟨2, Finset.mem_univ _, by subst e; decide +kernel⟩))
/-- At region 5's exit each of its arrays holds what the pipeline leaves (an input array is never written back) and
    every other buffer what it held at entry. -/
theorem hF5 (c : Dev nD) (w : Fin cfg5.W) : (dat5 (atTc (W13 m)) c).arrAt w cfg5.N = atTc (W14 m) c (Pipeline.arrRef spec5 w) := by
  have hin : ∀ w : Fin cfg5.W, w ≠ 3 → (cfg5.win w).isOut = false := by decide +kernel
  have hne : ∀ w : Fin cfg5.W, w ≠ 3 → Pipeline.arrRef spec5 w ≠ main_v43 := by decide +kernel
  by_cases hw : w = 3
  · subst hw
    exact (W14_out m c).symm
  · rw [(dat5 (atTc (W13 m)) c).arrAt_in w (hin w hw) _, A_eq5]
    exact (W14_of_ne m c _ (hne w hw)).symm
theorem hrest5 (c : Dev nD) : ∀ b, b ∉ Finset.univ.image (Pipeline.arrRef spec5) → atTc (W14 m) c b = atTc (W13 m) c b :=
  fun b hb => W14_of_ne m c b (fun e => hb (Finset.mem_image.mpr ⟨3, Finset.mem_univ _, by subst e; decide +kernel⟩))
/-- At region 6's exit each of its arrays holds what the pipeline leaves (an input array is never written back) and
    every other buffer what it held at entry. -/
theorem hF6 (c : Dev nD) (w : Fin cfg6.W) : (dat6 (atTc (W15 m)) c).arrAt w cfg6.N = atTc (W16 m) c (Pipeline.arrRef spec6 w) := by
  have hin : ∀ w : Fin cfg6.W, w ≠ 3 → (cfg6.win w).isOut = false := by decide +kernel
  have hne : ∀ w : Fin cfg6.W, w ≠ 3 → Pipeline.arrRef spec6 w ≠ main_v45 := by decide +kernel
  by_cases hw : w = 3
  · subst hw
    exact (W16_out m c).symm
  · rw [(dat6 (atTc (W15 m)) c).arrAt_in w (hin w hw) _, A_eq6]
    exact (W16_of_ne m c _ (hne w hw)).symm
theorem hrest6 (c : Dev nD) : ∀ b, b ∉ Finset.univ.image (Pipeline.arrRef spec6) → atTc (W16 m) c b = atTc (W15 m) c b :=
  fun b hb => W16_of_ne m c b (fun e => hb (Finset.mem_image.mpr ⟨3, Finset.mem_univ _, by subst e; decide +kernel⟩))
/-- At region 7's exit each of its arrays holds what the pipeline leaves (an input array is never written back) and
    every other buffer what it held at entry. -/
theorem hF7 (c : Dev nD) (w : Fin cfg7.W) : (dat7 (atTc (W17 m)) c).arrAt w cfg7.N = atTc (W18 m) c (Pipeline.arrRef spec7 w) := by
  have hin : ∀ w : Fin cfg7.W, w ≠ 3 → (cfg7.win w).isOut = false := by decide +kernel
  have hne : ∀ w : Fin cfg7.W, w ≠ 3 → Pipeline.arrRef spec7 w ≠ main_v47 := by decide +kernel
  by_cases hw : w = 3
  · subst hw
    exact (W18_out m c).symm
  · rw [(dat7 (atTc (W17 m)) c).arrAt_in w (hin w hw) _, A_eq7]
    exact (W18_of_ne m c _ (hne w hw)).symm
theorem hrest7 (c : Dev nD) : ∀ b, b ∉ Finset.univ.image (Pipeline.arrRef spec7) → atTc (W18 m) c b = atTc (W17 m) c b :=
  fun b hb => W18_of_ne m c b (fun e => hb (Finset.mem_image.mpr ⟨3, Finset.mem_univ _, by subst e; decide +kernel⟩))
/-- At region 8's exit each of its arrays holds what the pipeline leaves (an input array is never written back) and
    every other buffer what it held at entry. -/
theorem hF8 (c : Dev nD) (w : Fin cfg8.W) : (dat8 (atTc (W19 m)) c).arrAt w cfg8.N = atTc (W20 m) c (Pipeline.arrRef spec8 w) := by
  have hin : ∀ w : Fin cfg8.W, w ≠ 3 → (cfg8.win w).isOut = false := by decide +kernel
  have hne : ∀ w : Fin cfg8.W, w ≠ 3 → Pipeline.arrRef spec8 w ≠ main_v49 := by decide +kernel
  by_cases hw : w = 3
  · subst hw
    exact (W20_out m c).symm
  · rw [(dat8 (atTc (W19 m)) c).arrAt_in w (hin w hw) _, A_eq8]
    exact (W20_of_ne m c _ (hne w hw)).symm
theorem hrest8 (c : Dev nD) : ∀ b, b ∉ Finset.univ.image (Pipeline.arrRef spec8) → atTc (W20 m) c b = atTc (W19 m) c b :=
  fun b hb => W20_of_ne m c b (fun e => hb (Finset.mem_image.mpr ⟨3, Finset.mem_univ _, by subst e; decide +kernel⟩))
/-- At region 9's exit each of its arrays holds what the pipeline leaves (an input array is never written back) and
    every other buffer what it held at entry. -/
theorem hF9 (c : Dev nD) (w : Fin cfg9.W) : (dat9 (atTc (W21 m)) c).arrAt w cfg9.N = atTc (W22 m) c (Pipeline.arrRef spec9 w) := by
  have hin : ∀ w : Fin cfg9.W, w ≠ 3 → (cfg9.win w).isOut = false := by decide +kernel
  have hne : ∀ w : Fin cfg9.W, w ≠ 3 → Pipeline.arrRef spec9 w ≠ main_v51 := by decide +kernel
  by_cases hw : w = 3
  · subst hw
    exact (W22_out m c).symm
  · rw [(dat9 (atTc (W21 m)) c).arrAt_in w (hin w hw) _, A_eq9]
    exact (W22_of_ne m c _ (hne w hw)).symm
theorem hrest9 (c : Dev nD) : ∀ b, b ∉ Finset.univ.image (Pipeline.arrRef spec9) → atTc (W22 m) c b = atTc (W21 m) c b :=
  fun b hb => W22_of_ne m c b (fun e => hb (Finset.mem_image.mpr ⟨3, Finset.mem_univ _, by subst e; decide +kernel⟩))
/-- At region 10's exit each of its arrays holds what the pipeline leaves (an input array is never written back) and
    every other buffer what it held at entry. -/
theorem hF10 (c : Dev nD) (w : Fin cfg10.W) : (dat10 (atTc (W23 m)) c).arrAt w cfg10.N = atTc (W24 m) c (Pipeline.arrRef spec10 w) := by
  have hin : ∀ w : Fin cfg10.W, w ≠ 3 → (cfg10.win w).isOut = false := by decide +kernel
  have hne : ∀ w : Fin cfg10.W, w ≠ 3 → Pipeline.arrRef spec10 w ≠ main_v53 := by decide +kernel
  by_cases hw : w = 3
  · subst hw
    exact (W24_out m c).symm
  · rw [(dat10 (atTc (W23 m)) c).arrAt_in w (hin w hw) _, A_eq10]
    exact (W24_of_ne m c _ (hne w hw)).symm
theorem hrest10 (c : Dev nD) : ∀ b, b ∉ Finset.univ.image (Pipeline.arrRef spec10) → atTc (W24 m) c b = atTc (W23 m) c b :=
  fun b hb => W24_of_ne m c b (fun e => hb (Finset.mem_image.mpr ⟨3, Finset.mem_univ _, by subst e; decide +kernel⟩))
/-- At region 11's exit each of its arrays holds what the pipeline leaves (an input array is never written back) and
    every other buffer what it held at entry. -/
theorem hF11 (c : Dev nD) (w : Fin cfg11.W) : (dat11 (atTc (W25 m)) c).arrAt w cfg11.N = atTc (W26 m) c (Pipeline.arrRef spec11 w) := by
  have hin : ∀ w : Fin cfg11.W, w ≠ 3 → (cfg11.win w).isOut = false := by decide +kernel
  have hne : ∀ w : Fin cfg11.W, w ≠ 3 → Pipeline.arrRef spec11 w ≠ main_v55 := by decide +kernel
  by_cases hw : w = 3
  · subst hw
    exact (W26_out m c).symm
  · rw [(dat11 (atTc (W25 m)) c).arrAt_in w (hin w hw) _, A_eq11]
    exact (W26_of_ne m c _ (hne w hw)).symm
theorem hrest11 (c : Dev nD) : ∀ b, b ∉ Finset.univ.image (Pipeline.arrRef spec11) → atTc (W26 m) c b = atTc (W25 m) c b :=
  fun b hb => W26_of_ne m c b (fun e => hb (Finset.mem_image.mpr ⟨3, Finset.mem_univ _, by subst e; decide +kernel⟩))

/-! ## The proof data family -/

/-- Every region's proof data, each at its entry contents. -/
def pdats : (p : Fin 12) → (c : Dev nD) → Dat τ (Elt F) Unit ℕ (UR sig nD τ) ℕ (cfgs p) c
  | ⟨0, _⟩ => fun c => dat0 (atTc (W1 m)) c
  | ⟨1, _⟩ => fun c => dat1 (atTc (W3 m)) c
  | ⟨2, _⟩ => fun c => dat2 (atTc (W5 m)) c
  | ⟨3, _⟩ => fun c => dat3 (atTc (W7 m)) c
  | ⟨4, _⟩ => fun c => dat4 (atTc (W8 m)) c
  | ⟨5, _⟩ => fun c => dat5 (atTc (W13 m)) c
  | ⟨6, _⟩ => fun c => dat6 (atTc (W15 m)) c
  | ⟨7, _⟩ => fun c => dat7 (atTc (W17 m)) c
  | ⟨8, _⟩ => fun c => dat8 (atTc (W19 m)) c
  | ⟨9, _⟩ => fun c => dat9 (atTc (W21 m)) c
  | ⟨10, _⟩ => fun c => dat10 (atTc (W23 m)) c
  | ⟨11, _⟩ => fun c => dat11 (atTc (W25 m)) c

/-! ## The frame -/

set_option backward.isDefEq.respectTransparency.types false in
/-- Every weakly fair execution of the program from memory `m` with zero counters terminates, nothing faulting, and
    every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine frame_cond m (emb₁) () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := ?hu) (E := fun _ c => R c) (hE0 := ?hE0) (hE12 := ?hE12)
    (R0 := reg0 (pdats m) (W1 m) (W2 m) (fun _ => rfl) (hF0 m) (hrest0 m)) (hpre0 := fun c => by rw [V1_eq]; exact .rfl) (hpost0 := fun c => by rw [V2_eq]; exact .rfl)
    (R1 := reg1 (pdats m) (W3 m) (W4 m) (fun _ => rfl) (hF1 m) (hrest1 m)) (hpre1 := fun c => by rw [V3_eq]; exact .rfl) (hpost1 := fun c => by rw [V4_eq]; exact .rfl)
    (R2 := reg2 (pdats m) (W5 m) (W6 m) (fun _ => rfl) (hF2 m) (hrest2 m)) (hpre2 := fun c => by rw [V5_eq]; exact .rfl) (hpost2 := fun c => by rw [V6_eq]; exact .rfl)
    (R3 := reg3 (pdats m) (W7 m) (W8 m) (fun _ => rfl) (hF3 m) (hrest3 m)) (hpre3 := fun c => by rw [V7_eq]; exact .rfl) (hpost3 := fun c => by rw [V8_eq]; exact .rfl)
    (R4 := reg4 (pdats m) (W8 m) (W9 m) (fun _ => rfl) (hF4 m) (hrest4 m)) (hpre4 := fun c => by rw [V8_eq]; exact .rfl) (hpost4 := fun c => by rw [V9_eq]; exact .rfl)
    (R5 := reg5 (pdats m) (W13 m) (W14 m) (fun _ => rfl) (hF5 m) (hrest5 m)) (hpre5 := fun c => by rw [V13_eq]; exact .rfl) (hpost5 := fun c => by rw [V14_eq]; exact .rfl)
    (R6 := reg6 (pdats m) (W15 m) (W16 m) (fun _ => rfl) (hF6 m) (hrest6 m)) (hpre6 := fun c => by rw [V15_eq]; exact .rfl) (hpost6 := fun c => by rw [V16_eq]; exact .rfl)
    (R7 := reg7 (pdats m) (W17 m) (W18 m) (fun _ => rfl) (hF7 m) (hrest7 m)) (hpre7 := fun c => by rw [V17_eq]; exact .rfl) (hpost7 := fun c => by rw [V18_eq]; exact .rfl)
    (R8 := reg8 (pdats m) (W19 m) (W20 m) (fun _ => rfl) (hF8 m) (hrest8 m)) (hpre8 := fun c => by rw [V19_eq]; exact .rfl) (hpost8 := fun c => by rw [V20_eq]; exact .rfl)
    (R9 := reg9 (pdats m) (W21 m) (W22 m) (fun _ => rfl) (hF9 m) (hrest9 m)) (hpre9 := fun c => by rw [V21_eq]; exact .rfl) (hpost9 := fun c => by rw [V22_eq]; exact .rfl)
    (R10 := reg10 (pdats m) (W23 m) (W24 m) (fun _ => rfl) (hF10 m) (hrest10 m)) (hpre10 := fun c => by rw [V23_eq]; exact .rfl) (hpost10 := fun c => by rw [V24_eq]; exact .rfl)
    (R11 := reg11 (pdats m) (W25 m) (W26 m) (fun _ => rfl) (hF11 m) (hrest11 m)) (hpre11 := fun c => by rw [V25_eq]; exact .rfl) (hpost11 := fun c => by rw [V26_eq]; exact .rfl)
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach L lv fun c => ?_
    iintro ⟨⟨-, HO, -, Hp, -⟩, -⟩
    imodintro
    isplitl [Hp]; · iexists _; iexact Hp
    iexists ∅; iexact HO
  case hE12 =>
    intro c
    iintro ⟨-, HO⟩
    iexact HO

end Cert.Kernel.Hand

end
-- ==== Proof.KI.Region0.lean ====
/-
  Region 0: t1 = X·Wb, row tiles of 1024 over a 4 × 1 grid: tile p of the result is (rows 1024p … 1024p+1023 of X)·Wb, rounded to bf16.
  The contraction is one block long, so at every grid point the body zeroes its accumulator (the scratch), adds the
  product of the point's two tiles into it, and reads it out, plus the bias row, into the output tile: both of the
  body's conditions (first block, last block) hold at every point. The scratch is therefore dead between points and
  the region's invariant keeps it at unnamed contents. This file: each window's tile at a point, the body's run
  (whose witness is the list of pieces the stores leave in the output tile and in the scratch), what the output tile
  holds after the body as a function of the three input tiles, the region's proof data at any entry contents `V`,
  and the body obligation.
-/
import proofs.«107088_j31018253811971_1_alg».proof.Proof.Gen.KernelIdeal.Launch
import proofs.«107088_j31018253811971_1_alg».proof.Proof.Gen.KernelIdeal.Skeleton
import proofs.«107088_j31018253811971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its tile at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its tile at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its tile at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "This is the first block of the contraction": the body's first `if`, from the grid coordinates. -/
abbrev cond0_0 (i : grid0.Coords) : Prop := (Scalar.cmpi .ne (Scalar.extui (Scalar.cmpi .eq (BitVec.ofNat 32 (i 1).val) 0#32)) 0#32) = 1#1
/-- It holds at every point: the contraction axis of the grid has one position. -/
theorem hcond0_0 : ∀ t : Fin cfg0.N, cond0_0 (grid0.coords t) :=
  (by decide +kernel : ∀ t : Fin grid0.N, cond0_0 (grid0.coords t))
/-- "This is the last block of the contraction": the body's second `if`. -/
abbrev cond0_1 (i : grid0.Coords) : Prop := k0_cond2 i = 1#1
/-- It holds at every point too. -/
theorem hcond0_1 : ∀ t : Fin cfg0.N, cond0_1 (grid0.coords t) :=
  (by decide +kernel : ∀ t : Fin grid0.N, cond0_1 (grid0.coords t))
/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The staging memrefs and the scratch, as the pipeline passes them -/

abbrev VO0_3 : View sig .tc .vmem S1024x256 .bf16 := (Memref.whole cc0_stg3_0 : Memref sig .tc .vmem S1024x256 .bf16).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S1024x256 .f32 := Memref.whole cc0_scratch0

/-- The region's invariant with the accumulator split out as a memref owned at some contents. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; rfl

/-! ## The body's run -/

set_option maxHeartbeats 4000000 in
/-- The pieces the body's stores leave in the output tile (`.1`) and in the accumulator (`.2.1`), last first, WITH the
    proof that on whole memrefs — the three inputs' at contents `x0 x1 x2`, the output's and the accumulator's at
    anything — the body runs to the continuation holding the inputs' as they were and those pieces written. -/
noncomputable def kernelRun0 (c : Dev nD) (i : grid0.Coords)
    (arg2 : Memref sig .tc .vmem S1024x512 .f32) (harg2 : arg2.IsWhole) (arg3 : Memref sig .tc .vmem S512x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond0_0 i) (hc1 : cond0_1 i)
    (x0 : Vec F S1024x512 .f32) (x1 : Vec F S512x256 .f32) (x2 : Vec F S1x256 .f32) :
    Σ' (L3 : List (View.Piece (Elt F) S1024x256 .bf16)), { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc0__gemm_kernel i arg2 harg2 arg3 harg3 arg4 harg4 arg5 harg5 arg6 harg6) Kc } := by
  refine ⟨?_, ?_, fun E Kc => ?run⟩
  case run =>
    simp only [cc0__gemm_kernel_eq_skeleton]; unfold cc0__gemm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-- The output tile's pieces tile it. -/
theorem cover0_3 (c : Dev nD) (i : grid0.Coords)
    (arg2 : Memref sig .tc .vmem S1024x512 .f32) (harg2 : arg2.IsWhole) (arg3 : Memref sig .tc .vmem S512x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond0_0 i) (hc1 : cond0_1 i)
    (x0 : Vec F S1024x512 .f32) (x1 : Vec F S512x256 .f32) (x2 : Vec F S1x256 .f32) (y : S1024x256.Idx) :
    ∃ pc ∈ (kernelRun0 c i arg2 harg2 arg3 harg3 arg4 harg4 arg5 harg5 arg6 harg6 hc0 hc1 x0 x1 x2).1, y ∈ pc.1.set :=
  View.cover_of_tiledL (kernelRun0 c i arg2 harg2 arg3 harg3 arg4 harg4 arg5 harg5 arg6 harg6 hc0 hc1 x0 x1 x2).1 S1024x256.size (by sl_kernel_rfl) y

/-- What the body leaves in the output tile: its pieces read back. -/
def out0_3 (c : Dev nD) (i : grid0.Coords)
    (arg2 : Memref sig .tc .vmem S1024x512 .f32) (harg2 : arg2.IsWhole) (arg3 : Memref sig .tc .vmem S512x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond0_0 i) (hc1 : cond0_1 i)
    (x0 : Vec F S1024x512 .f32) (x1 : Vec F S512x256 .f32) (x2 : Vec F S1x256 .f32) : Vec F S1024x256 .bf16 :=
  VO0_3.read (Elt F) (VO0_3.writes (Elt F) VO0_3.junk (kernelRun0 c i arg2 harg2 arg3 harg3 arg4 harg4 arg5 harg5 arg6 harg6 hc0 hc1 x0 x1 x2).1)

/-- The output tile after the body at point `t`. -/
def outAt0 (c : Dev nD) (t : Fin cfg0.N) : Vec F S1024x256 .bf16 :=
  out0_3 c (grid0.coords t) (ms0_0 t) (hs0_0 t) (ms0_1 t) (hs0_1 t) (ms0_2 t) (hs0_2 t) (ms0_3 t) (hs0_3 t) scM0 (Memref.isWhole_whole _)
    (hcond0_0 t) (hcond0_1 t) (iblk0 V c 0 t) (iblk0 V c 1 t) (iblk0 V c 2 t)

/-! ## The region's proof data -/

/-- The proof data on core `c`: the arrays as the region finds them; after the body at point `t` each input's buffer
    at its tile and the output's at `outAt0`; the invariant the scoped rest (the accumulator among it, at anything) and
    the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: the inputs' memrefs hold their tiles, the invariant lends the accumulator at whatever it
    holds, the run applies, and the accumulator goes back into the invariant at whatever the body left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (ms0_0 t) fullShare ((dat0 V c).after 0 t) from by
      unfold Dat.leavesExact; rw [liveAt0_0 t], after0_0,
    show (dat0 V c).leavesExact 1 t = owns (c : Thread nD τ) (ms0_1 t) fullShare ((dat0 V c).after 1 t) from by
      unfold Dat.leavesExact; rw [liveAt0_1 t], after0_1,
    show (dat0 V c).leavesExact 2 t = owns (c : Thread nD τ) (ms0_2 t) fullShare ((dat0 V c).after 2 t) from by
      unfold Dat.leavesExact; rw [liveAt0_2 t], after0_2,
    show (dat0 V c).leavesExact 3 t = owns (c : Thread nD τ) (ms0_3 t) fullShare ((dat0 V c).after 3 t) from by
      unfold Dat.leavesExact; rw [liveAt0_3 t], after0_3]
  rw [show (dat0 V c).Φ t.castSucc = Pipeline.ΦA spec0 c from rfl, PhiA0_eq]
  unfold outAt0 out0_3
  iintro ⟨⟨⟨HS, Hbut⟩, Hg⟩, Ho, ⟨%d0, H0⟩, ⟨%d1, H1⟩, ⟨%d2, H2⟩, ⟨%d3, H3⟩⟩
  iapply ((kernelRun0 c (grid0.coords t) _ _ _ _ _ _ _ _ _ _ (hcond0_0 t) (hcond0_1 t) (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hbut Hg]
  · isplitl [HS Hbut]
    · isplitl [HS]
      · unfold owns; iexists _; iexists _; isplitr
        swap; · iexact HS
        ipureintro; rfl
      iexact Hbut
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.SegBase.lean ====
/-
  What every kernel region's segment record of this program shares: no condition variants, no levels (no core owes
  another anything), the state that rides beside the buffers from segment to segment (the generator register at some
  state, nothing owed), and a valuation read at the TensorCore's references.
-/
import proofs.«107088_j31018253811971_1_alg».proof.Proof.Gen.KernelIdeal.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A valuation read at the TensorCore's references. -/
abbrev atTc (W : Dev nD → Valuation τ sig (Elt F)) : (c : Dev nD) → (b : Ref sig .tc) → Buf (Elt F) ((c : Thread nD τ).loc b) :=
  fun c b => W c b

end Cert.KernelIdeal.Hand

end
-- ==== Proof.KI.Seg0.lean ====
/-
  Region 0 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.KI.Region0
import proofs.«107088_j31018253811971_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg0 (hK : ∀ c, pdats 0 c = dat0 (atTc Win) c)
    (hF : ∀ c (w : Fin cfg0.W), (dat0 (atTc Win) c).arrAt w cfg0.N = atTc Wout c (Pipeline.arrRef spec0 w))
    (hrest : ∀ c, ∀ b, b ∉ Finset.univ.image (Pipeline.arrRef spec0) → atTc Wout c b = atTc Win c b) :
    Pipeline.RegionSeg (pcfgs (F := F)) adm pdats () defs₀ 𝒱₀ L lv 0 where
  win := launch0.win.to₀
  block_pos := launch0.block_pos
  stage_whole := launch0.stage_whole
  K := PEmpty
  osem k := k.elim
  ho := Pipeline.OwnSemFacts.none _
  hbody c := by rw [hK c]; exact (body_obligation0 (atTc Win) c).loose
  hwaits := Pipeline.hwaits_of_owed_zero _ _ _ _ L lv 0 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec0 c (atTc Win c)
  hentry c := by
    rw [Pipeline.ownSems0_none]
    have hsplit := Pipeline.arrays_of_unscopedBufs (p := 0) (pcfgs (F := F)) adm pdats launch0.win launch0.arr_whole c
      (by rw [hK c]; exact (dat0 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 0 c).Φ 0 = Pipeline.ΦA spec0 c from by rw [hK c]; rfl]; unfold Pipeline.ΦA
    iintro ⟨Hp, -, Hr⟩
    isplitl [Hr]; · iexact Hr
    iexact Hp
  hout c := by
    rw [Pipeline.ownSems0_none, show (pdats 0 c).Φ (Fin.last _) = Pipeline.ΦA spec0 c from by rw [hK c]; rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c pdats (by rw [hK c]; exact (dat0 (atTc Win) c).share_full fun _ => rfl)
      (atTc Win c) (atTc Wout c) ((pdats 0 c).arrAt · cfg0.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.KernelIdeal.Hand

end
-- ==== Proof.KI.Region1.lean ====
/-
  Region 1: hidden = A·t1 over a 4 × 4 grid (row tile p, contraction block q): tile p of the result is (rows of A in tile p)·t1, rounded to bf16.
  The contraction over 4096 is accumulated in four blocks of 1024 along the second grid axis, in a scratch the kernel
  keeps between grid points. At the first block of a row tile the body zeroes the scratch and adds the block's
  product; at the two middle blocks it adds the block's product to what the point before left; at the last block it
  does the same and then reads the scratch out, plus the bias row, into the output tile, which is written back only
  there. This file: each window's tile at a point, the body's run in each of the three cases (the witness of a run is
  the list of pieces its stores leave), what the scratch and the output tile hold after each point (a recursion over
  the points), the region's invariant (the scratch at what the point before left), its proof data at any entry
  contents `V`, and the body obligation.
-/
import proofs.«107088_j31018253811971_1_alg».proof.Proof.Gen.KernelIdeal.Launch
import proofs.«107088_j31018253811971_1_alg».proof.Proof.Gen.KernelIdeal.Skeleton
import proofs.«107088_j31018253811971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its tile at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its tile at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its tile at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first block of the contraction": the body's first `if`, from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last block of the contraction": the body's second `if`. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)
/-- The inputs are never idle; the output tile is idle, and not written back, except at a last block. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging memrefs and the scratch, as the pipeline passes them -/

abbrev VO1_3 : View sig .tc .vmem S1024x256 .bf16 := (Memref.whole cc1_stg3_0 : Memref sig .tc .vmem S1024x256 .bf16).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .bf16 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows, and its view. -/
abbrev scM1 : Memref sig .tc .vmem S1024x256 .f32 := Memref.whole cc1_scratch0
abbrev VS1 : View sig .tc .vmem S1024x256 .f32 := scM1.view

/-- The invariant before the first point, with the accumulator split out as a memref owned at some contents. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; rfl

/-! ## The body's run, case by case -/

set_option maxHeartbeats 4000000 in
/-- FIRST BLOCK: the pieces the stores leave in the accumulator, with the proof that on whole memrefs — the two matrix
    tiles at `x0 x1`, the accumulator at anything — the body runs to the continuation with those pieces written. The
    bias and the output tile are not touched. -/
noncomputable def kernelRun1_A (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole)
    (hc0 : cond1_0 i) (hc1 : ¬cond1_1 i) (x0 : Vec F S1024x1024 .f32) (x1 : Vec F S1024x256 .bf16) :
    { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc1__gemm_kernel i arg2 harg2 arg3 harg3 arg4 harg4 arg5 harg5 arg6 harg6) Kc } := by
  refine ⟨?_, fun E Kc => ?run⟩
  case run =>
    simp only [cc1__gemm_kernel_eq_skeleton]; unfold cc1__gemm_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- MIDDLE BLOCK: the same with the accumulator entered at `xs`, what the point before left. -/
noncomputable def kernelRun1_B (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole)
    (hc0 : ¬cond1_0 i) (hc1 : ¬cond1_1 i) (x0 : Vec F S1024x1024 .f32) (x1 : Vec F S1024x256 .bf16) (xs : Vec F S1024x256 .f32) :
    { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc1__gemm_kernel i arg2 harg2 arg3 harg3 arg4 harg4 arg5 harg5 arg6 harg6) Kc } := by
  refine ⟨?_, fun E Kc => ?run⟩
  case run =>
    simp only [cc1__gemm_kernel_eq_skeleton]; unfold cc1__gemm_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- LAST BLOCK: the pieces left in the output tile (`.1`) and in the accumulator (`.2.1`); the bias row at `x2`, the
    output tile entered at anything, the accumulator at `xs`. -/
noncomputable def kernelRun1_C (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole)
    (hc0 : ¬cond1_0 i) (hc1 : cond1_1 i) (x0 : Vec F S1024x1024 .f32) (x1 : Vec F S1024x256 .bf16) (x2 : Vec F S1x256 .f32) (xs : Vec F S1024x256 .f32) :
    Σ' (L3 : List (View.Piece (Elt F) S1024x256 .bf16)), { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc1__gemm_kernel i arg2 harg2 arg3 harg3 arg4 harg4 arg5 harg5 arg6 harg6) Kc } := by
  refine ⟨?_, ?_, fun E Kc => ?run⟩
  case run =>
    simp only [cc1__gemm_kernel_eq_skeleton]; unfold cc1__gemm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves -/

theorem scover1_A (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond1_0 i) (hc1 : ¬cond1_1 i) (x0 : Vec F S1024x1024 .f32) (x1 : Vec F S1024x256 .bf16) (y : S1024x256.Idx) :
    ∃ pc ∈ (kernelRun1_A c i arg2 harg2 arg3 harg3 arg4 harg4 arg5 harg5 arg6 harg6 hc0 hc1 x0 x1).1, y ∈ pc.1.set :=
  View.cover_of_tiledL (kernelRun1_A c i arg2 harg2 arg3 harg3 arg4 harg4 arg5 harg5 arg6 harg6 hc0 hc1 x0 x1).1 S1024x256.size (by sl_kernel_rfl) y
/-- The accumulator after a first block. -/
def sout1_A (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond1_0 i) (hc1 : ¬cond1_1 i) (x0 : Vec F S1024x1024 .f32) (x1 : Vec F S1024x256 .bf16) : Vec F S1024x256 .f32 :=
  VS1.read (Elt F) (VS1.writes (Elt F) VS1.junk (kernelRun1_A c i arg2 harg2 arg3 harg3 arg4 harg4 arg5 harg5 arg6 harg6 hc0 hc1 x0 x1).1)

theorem scover1_B (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond1_0 i) (hc1 : ¬cond1_1 i) (x0 : Vec F S1024x1024 .f32) (x1 : Vec F S1024x256 .bf16) (xs : Vec F S1024x256 .f32) (y : S1024x256.Idx) :
    ∃ pc ∈ (kernelRun1_B c i arg2 harg2 arg3 harg3 arg4 harg4 arg5 harg5 arg6 harg6 hc0 hc1 x0 x1 xs).1, y ∈ pc.1.set :=
  View.cover_of_tiledL (kernelRun1_B c i arg2 harg2 arg3 harg3 arg4 harg4 arg5 harg5 arg6 harg6 hc0 hc1 x0 x1 xs).1 S1024x256.size (by sl_kernel_rfl) y
/-- The accumulator after a middle block. -/
def sout1_B (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond1_0 i) (hc1 : ¬cond1_1 i) (x0 : Vec F S1024x1024 .f32) (x1 : Vec F S1024x256 .bf16) (xs : Vec F S1024x256 .f32) : Vec F S1024x256 .f32 :=
  VS1.read (Elt F) (VS1.writes (Elt F) VS1.junk (kernelRun1_B c i arg2 harg2 arg3 harg3 arg4 harg4 arg5 harg5 arg6 harg6 hc0 hc1 x0 x1 xs).1)

theorem scover1_C (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond1_0 i) (hc1 : cond1_1 i) (x0 : Vec F S1024x1024 .f32) (x1 : Vec F S1024x256 .bf16) (x2 : Vec F S1x256 .f32) (xs : Vec F S1024x256 .f32) (y : S1024x256.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S1024x256.size (by sl_kernel_rfl) y
/-- The accumulator after a last block. -/
def sout1_C (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond1_0 i) (hc1 : cond1_1 i) (x0 : Vec F S1024x1024 .f32) (x1 : Vec F S1024x256 .bf16) (x2 : Vec F S1x256 .f32) (xs : Vec F S1024x256 .f32) : Vec F S1024x256 .f32 :=
  VS1.read (Elt F) (VS1.writes (Elt F) VS1.junk (kernelRun1_C c i arg2 harg2 arg3 harg3 arg4 harg4 arg5 harg5 arg6 harg6 hc0 hc1 x0 x1 x2 xs).2.1)
theorem cover1_C (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond1_0 i) (hc1 : cond1_1 i) (x0 : Vec F S1024x1024 .f32) (x1 : Vec F S1024x256 .bf16) (x2 : Vec F S1x256 .f32) (xs : Vec F S1024x256 .f32) (y : S1024x256.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S1024x256.size (by sl_kernel_rfl) y
/-- The output tile after a last block. -/
def out1_C (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond1_0 i) (hc1 : cond1_1 i) (x0 : Vec F S1024x1024 .f32) (x1 : Vec F S1024x256 .bf16) (x2 : Vec F S1x256 .f32) (xs : Vec F S1024x256 .f32) : Vec F S1024x256 .bf16 :=
  VO1_3.read (Elt F) (VO1_3.writes (Elt F) VO1_3.junk (kernelRun1_C c i arg2 harg2 arg3 harg3 arg4 harg4 arg5 harg5 arg6 harg6 hc0 hc1 x0 x1 x2 xs).1)

/-! ## What the accumulator and the output tile hold after each point -/

/-- THE ACCUMULATION: the accumulator after the body at position `n` — after a first block what that block leaves,
    otherwise what this block leaves over what position `n - 1` left. -/
def accAt1 (c : Dev nD) : (n : ℕ) → n < cfg1.N → Vec F S1024x256 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _)
      ((hcond1_0 ⟨0, hn⟩).mpr (Nat.zero_mod _)) (fun h => by have h3 := (hcond1_1 ⟨0, hn⟩).mp h; (try dsimp only at h3); omega) (iblk1 V c 0 ⟨0, hn⟩) (iblk1 V c 1 ⟨0, hn⟩)
  | n + 1, hn =>
    if h0 : (n + 1) % 4 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _)
        ((hcond1_0 ⟨n + 1, hn⟩).mpr h0) (fun h => by have h3 := (hcond1_1 ⟨n + 1, hn⟩).mp h; (try dsimp only at h3); omega) (iblk1 V c 0 ⟨n + 1, hn⟩) (iblk1 V c 1 ⟨n + 1, hn⟩)
    else if h1 : (n + 1) % 4 = 3 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _)
        (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (accAt1 c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _)
        (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (accAt1 c n (Nat.lt_of_succ_lt hn))

theorem accAt1_A (c : Dev nD) (t : Fin cfg1.N) (h0 : t.val % 4 = 0) (h1 : ¬t.val % 4 = 3) :
    accAt1 V c t.val t.isLt = sout1_A c (grid1.coords t) (ms1_0 t) (hs1_0 t) (ms1_1 t) (hs1_1 t) (ms1_2 t) (hs1_2 t) (ms1_3 t) (hs1_3 t) scM1 (Memref.isWhole_whole _)
      ((hcond1_0 t).mpr h0) (fun h => h1 ((hcond1_1 t).mp h)) (iblk1 V c 0 t) (iblk1 V c 1 t) := by
  obtain ⟨n, hn⟩ := t
  cases n with
  | zero => exact rfl
  | succ n => exact (dif_pos h0).trans rfl

theorem accAt1_B (c : Dev nD) (t : Fin cfg1.N) (h0 : ¬t.val % 4 = 0) (h1 : ¬t.val % 4 = 3) :
    accAt1 V c t.val t.isLt = sout1_B c (grid1.coords t) (ms1_0 t) (hs1_0 t) (ms1_1 t) (hs1_1 t) (ms1_2 t) (hs1_2 t) (ms1_3 t) (hs1_3 t) scM1 (Memref.isWhole_whole _)
      (fun h => h0 ((hcond1_0 t).mp h)) (fun h => h1 ((hcond1_1 t).mp h)) (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt1_C (c : Dev nD) (t : Fin cfg1.N) (h0 : ¬t.val % 4 = 0) (h1 : t.val % 4 = 3) :
    accAt1 V c t.val t.isLt = sout1_C c (grid1.coords t) (ms1_0 t) (hs1_0 t) (ms1_1 t) (hs1_1 t) (ms1_2 t) (hs1_2 t) (ms1_3 t) (hs1_3 t) scM1 (Memref.isWhole_whole _)
      (fun h => h0 ((hcond1_0 t).mp h)) ((hcond1_1 t).mpr h1) (iblk1 V c 0 t) (iblk1 V c 1 t) (iblk1 V c 2 t)
      (accAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output tile after the body at point `t`: at a last block what that case stores over what the point before left in
    the accumulator; elsewhere the body stores nothing into it and the tile is not written back: a placeholder. -/
def outAt1 (c : Dev nD) (t : Fin cfg1.N) : Vec F S1024x256 .bf16 :=
  if h1 : t.val % 4 = 3 then
    out1_C c (grid1.coords t) (ms1_0 t) (hs1_0 t) (ms1_1 t) (hs1_1 t) (ms1_2 t) (hs1_2 t) (ms1_3 t) (hs1_3 t) scM1 (Memref.isWhole_whole _)
      (fun h => by have h3 := (hcond1_0 t).mp h; omega) ((hcond1_1 t).mpr h1) (iblk1 V c 0 t) (iblk1 V c 1 t) (iblk1 V c 2 t)
      (accAt1 V c (t.val - 1) (Nat.lt_of_le_of_lt (Nat.sub_le _ _) t.isLt))
  else VO1_3.read (Elt F) VO1_3.junk

/-! ## The region's invariant and proof data -/

/-- The invariant before position `n`: before the first point the scoped rest with the accumulator at anything;
    afterwards the accumulator at what the point before left, the rest of the scoped buffers, and the generator register. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accAt1 V c n hn)
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare (accAt1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data on core `c`: the arrays as the region finds them; after the body at point `t` each input's buffer
    at its tile and the output's at `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their tiles; the position modulo 4 says which case the point is
    in; the invariant lends the accumulator at what the point before left (at anything before the first point) and
    takes it back at this point's contents; at a last block the output tile is left at that case's contents, elsewhere
    it is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2]
  have hN : t.val < 16 := lt_of_lt_of_eq t.isLt (show cfg1.N = 16 from N_1)
  by_cases h0 : t.val % 4 = 0
  · -- a first block
    have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [accAt1_A V c t h0 h1]
    unfold sout1_A
    by_cases hz : t.val = 0
    · rw [PhiS1_castSucc V c t, PhiS1_zero V c _ _ hz, PhiA1_eq]
      iintro ⟨⟨⟨HS, Hbut⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover1_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, Hbut⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t)).2 Set.univ _)
      isplitl [H0]; · iexact H0
      isplitl [H1]; · iexact H1
      isplitl [HS]; · iexists _; iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover1_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · -- a last block
      rw [show (dat1 V c).leavesExact 3 t = owns (c : Thread nD τ) (ms1_3 t) fullShare ((dat1 V c).after 3 t) from by
        unfold Dat.leavesExact; rw [liveAt1_3 t ((hcond1_1 t).mpr h1)], after1_3]
      rw [accAt1_C V c t h0 h1]
      unfold sout1_C outAt1
      rw [dif_pos h1]
      unfold out1_C
      rw [PhiS1_castSucc V c t, PhiS1_pos V c _ _ hz]
      iintro ⟨⟨⟨HS, Hbut⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hbut Hg]
      · isplitl [HS Hbut]
        · isplitl [HS]
          · unfold owns; iexists _; isplitr
            swap; · iexact HS
            ipureintro; exact View.read_writes_of_cover _ _ _ _ _ (scover1_C c _ _ _ _ _ _ _ _ _ _ _ _ _ _ _ _ _)
          iexact Hbut
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · -- a middle block
      rw [Dat.leavesExact_idle (dat1 V c) 3 t (idleAt1_3 t (fun h => h1 ((hcond1_1 t).mp h))) (noFlush1_3 t (fun h => h1 ((hcond1_1 t).mp h)))]
      rw [accAt1_B V c t h0 h1]
      unfold sout1_B
      rw [PhiS1_castSucc V c t, PhiS1_pos V c _ _ hz]
      iintro ⟨⟨⟨HS, Hbut⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover1_B c _ _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: what the accumulator holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨HS, Hbut⟩, Hg⟩
  isplitl [HS Hbut]
  · isplitl [HS]; · iexists _; iexact HS
    iexact Hbut
  iexact Hg

end Cert.KernelIdeal.Hand

end
-- ==== Proof.KI.Seg1.lean ====
/-
  Region 1 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.KI.Region1
import proofs.«107088_j31018253811971_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg1 (hK : ∀ c, pdats 1 c = dat1 (atTc Win) c)
    (hF : ∀ c (w : Fin cfg1.W), (dat1 (atTc Win) c).arrAt w cfg1.N = atTc Wout c (Pipeline.arrRef spec1 w))
    (hrest : ∀ c, ∀ b, b ∉ Finset.univ.image (Pipeline.arrRef spec1) → atTc Wout c b = atTc Win c b) :
    Pipeline.RegionSeg (pcfgs (F := F)) adm pdats () defs₀ 𝒱₀ L lv 1 where
  win := launch1.win.to₀
  block_pos := launch1.block_pos
  stage_whole := launch1.stage_whole
  K := PEmpty
  osem k := k.elim
  ho := Pipeline.OwnSemFacts.none _
  hbody c := by rw [hK c]; exact (body_obligation1 (atTc Win) c).loose
  hwaits := Pipeline.hwaits_of_owed_zero _ _ _ _ L lv 1 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec1 c (atTc Win c)
  hentry c := by
    rw [Pipeline.ownSems0_none]
    have hsplit := Pipeline.arrays_of_unscopedBufs (p := 1) (pcfgs (F := F)) adm pdats launch1.win launch1.arr_whole c
      (by rw [hK c]; exact (dat1 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hK c]
    have h := hin1 (atTc Win) c
    unfold Pipeline.ΦA at h
    iintro ⟨Hp, -, Hr⟩
    iapply h
    isplitl [Hr]; · iexact Hr
    iexact Hp
  hout c := by
    rw [Pipeline.ownSems0_none, hK c]
    have h := hout1 (atTc Win) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c pdats (by rw [hK c]; exact (dat1 (atTc Win) c).share_full fun _ => rfl)
      (atTc Win c) (atTc Wout c) ((pdats 1 c).arrAt · cfg1.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.KernelIdeal.Hand

end
-- ==== Proof.KI.Region2.lean ====
/-
  Region 2: t2 = hidden·Wm, row tiles of 1024 over a 4 × 1 grid: tile p of the result is (rows of hidden in tile p)·Wm, rounded to bf16.
  The contraction is one block long, so at every grid point the body zeroes its accumulator (the scratch), adds the
  product of the point's two tiles into it, and reads it out, plus the bias row, into the output tile: both of the
  body's conditions (first block, last block) hold at every point. The scratch is therefore dead between points and
  the region's invariant keeps it at unnamed contents. This file: each window's tile at a point, the body's run
  (whose witness is the list of pieces the stores leave in the output tile and in the scratch), what the output tile
  holds after the body as a function of the three input tiles, the region's proof data at any entry contents `V`,
  and the body obligation.
-/
import proofs.«107088_j31018253811971_1_alg».proof.Proof.Gen.KernelIdeal.Launch
import proofs.«107088_j31018253811971_1_alg».proof.Proof.Gen.KernelIdeal.Skeleton
import proofs.«107088_j31018253811971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its tile at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its tile at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its tile at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- "This is the first block of the contraction": the body's first `if`, from the grid coordinates. -/
abbrev cond2_0 (i : grid2.Coords) : Prop := (Scalar.cmpi .ne (Scalar.extui (Scalar.cmpi .eq (BitVec.ofNat 32 (i 1).val) 0#32)) 0#32) = 1#1
/-- It holds at every point: the contraction axis of the grid has one position. -/
theorem hcond2_0 : ∀ t : Fin cfg2.N, cond2_0 (grid2.coords t) :=
  (by decide +kernel : ∀ t : Fin grid2.N, cond2_0 (grid2.coords t))
/-- "This is the last block of the contraction": the body's second `if`. -/
abbrev cond2_1 (i : grid2.Coords) : Prop := k2_cond2 i = 1#1
/-- It holds at every point too. -/
theorem hcond2_1 : ∀ t : Fin cfg2.N, cond2_1 (grid2.coords t) :=
  (by decide +kernel : ∀ t : Fin grid2.N, cond2_1 (grid2.coords t))
/-- No window is idle at any point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-! ## The staging memrefs and the scratch, as the pipeline passes them -/

abbrev VO2_3 : View sig .tc .vmem S1024x64 .bf16 := (Memref.whole cc2_stg3_0 : Memref sig .tc .vmem S1024x64 .bf16).view
abbrev ms2_0 (t : Fin cfg2.N) : Memref sig .tc .vmem S1024x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x64 .bf16 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2 : Memref sig .tc .vmem S1024x64 .f32 := Memref.whole cc2_scratch0

/-- The region's invariant with the accumulator split out as a memref owned at some contents. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; rfl

/-! ## The body's run -/

set_option maxHeartbeats 4000000 in
/-- The pieces the body's stores leave in the output tile (`.1`) and in the accumulator (`.2.1`), last first, WITH the
    proof that on whole memrefs — the three inputs' at contents `x0 x1 x2`, the output's and the accumulator's at
    anything — the body runs to the continuation holding the inputs' as they were and those pieces written. -/
noncomputable def kernelRun2 (c : Dev nD) (i : grid2.Coords)
    (arg2 : Memref sig .tc .vmem S1024x256 .bf16) (harg2 : arg2.IsWhole) (arg3 : Memref sig .tc .vmem S256x64 .f32) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : cond2_0 i) (hc1 : cond2_1 i)
    (x0 : Vec F S1024x256 .bf16) (x1 : Vec F S256x64 .f32) (x2 : Vec F S1x64 .f32) :
    Σ' (L3 : List (View.Piece (Elt F) S1024x64 .bf16)), { LS : List (View.Piece (Elt F) S1024x64 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc2__gemm_kernel i arg2 harg2 arg3 harg3 arg4 harg4 arg5 harg5 arg6 harg6) Kc } := by
  refine ⟨?_, ?_, fun E Kc => ?run⟩
  case run =>
    simp only [cc2__gemm_kernel_eq_skeleton]; unfold cc2__gemm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-- The output tile's pieces tile it. -/
theorem cover2_3 (c : Dev nD) (i : grid2.Coords)
    (arg2 : Memref sig .tc .vmem S1024x256 .bf16) (harg2 : arg2.IsWhole) (arg3 : Memref sig .tc .vmem S256x64 .f32) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : cond2_0 i) (hc1 : cond2_1 i)
    (x0 : Vec F S1024x256 .bf16) (x1 : Vec F S256x64 .f32) (x2 : Vec F S1x64 .f32) (y : S1024x64.Idx) :
    ∃ pc ∈ (kernelRun2 c i arg2 harg2 arg3 harg3 arg4 harg4 arg5 harg5 arg6 harg6 hc0 hc1 x0 x1 x2).1, y ∈ pc.1.set :=
  View.cover_of_tiledL (kernelRun2 c i arg2 harg2 arg3 harg3 arg4 harg4 arg5 harg5 arg6 harg6 hc0 hc1 x0 x1 x2).1 S1024x64.size (by sl_kernel_rfl) y

/-- What the body leaves in the output tile: its pieces read back. -/
def out2_3 (c : Dev nD) (i : grid2.Coords)
    (arg2 : Memref sig .tc .vmem S1024x256 .bf16) (harg2 : arg2.IsWhole) (arg3 : Memref sig .tc .vmem S256x64 .f32) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : cond2_0 i) (hc1 : cond2_1 i)
    (x0 : Vec F S1024x256 .bf16) (x1 : Vec F S256x64 .f32) (x2 : Vec F S1x64 .f32) : Vec F S1024x64 .bf16 :=
  VO2_3.read (Elt F) (VO2_3.writes (Elt F) VO2_3.junk (kernelRun2 c i arg2 harg2 arg3 harg3 arg4 harg4 arg5 harg5 arg6 harg6 hc0 hc1 x0 x1 x2).1)

/-- The output tile after the body at point `t`. -/
def outAt2 (c : Dev nD) (t : Fin cfg2.N) : Vec F S1024x64 .bf16 :=
  out2_3 c (grid2.coords t) (ms2_0 t) (hs2_0 t) (ms2_1 t) (hs2_1 t) (ms2_2 t) (hs2_2 t) (ms2_3 t) (hs2_3 t) scM2 (Memref.isWhole_whole _)
    (hcond2_0 t) (hcond2_1 t) (iblk2 V c 0 t) (iblk2 V c 1 t) (iblk2 V c 2 t)

/-! ## The region's proof data -/

/-- The proof data on core `c`: the arrays as the region finds them; after the body at point `t` each input's buffer
    at its tile and the output's at `outAt2`; the invariant the scoped rest (the accumulator among it, at anything) and
    the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4000000 in
/-- The body at any point: the inputs' memrefs hold their tiles, the invariant lends the accumulator at whatever it
    holds, the run applies, and the accumulator goes back into the invariant at whatever the body left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl]
  rw [show (dat2 V c).leavesExact 0 t = owns (c : Thread nD τ) (ms2_0 t) fullShare ((dat2 V c).after 0 t) from by
      unfold Dat.leavesExact; rw [liveAt2_0 t], after2_0,
    show (dat2 V c).leavesExact 1 t = owns (c : Thread nD τ) (ms2_1 t) fullShare ((dat2 V c).after 1 t) from by
      unfold Dat.leavesExact; rw [liveAt2_1 t], after2_1,
    show (dat2 V c).leavesExact 2 t = owns (c : Thread nD τ) (ms2_2 t) fullShare ((dat2 V c).after 2 t) from by
      unfold Dat.leavesExact; rw [liveAt2_2 t], after2_2,
    show (dat2 V c).leavesExact 3 t = owns (c : Thread nD τ) (ms2_3 t) fullShare ((dat2 V c).after 3 t) from by
      unfold Dat.leavesExact; rw [liveAt2_3 t], after2_3]
  rw [show (dat2 V c).Φ t.castSucc = Pipeline.ΦA spec2 c from rfl, PhiA2_eq]
  unfold outAt2 out2_3
  iintro ⟨⟨⟨HS, Hbut⟩, Hg⟩, Ho, ⟨%d0, H0⟩, ⟨%d1, H1⟩, ⟨%d2, H2⟩, ⟨%d3, H3⟩⟩
  iapply ((kernelRun2 c (grid2.coords t) _ _ _ _ _ _ _ _ _ _ (hcond2_0 t) (hcond2_1 t) (iblk2 V c 0 t) (iblk2 V c 1 t) (iblk2 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hbut Hg]
  · isplitl [HS Hbut]
    · isplitl [HS]
      · unfold owns; iexists _; iexists _; isplitr
        swap; · iexact HS
        ipureintro; rfl
      iexact Hbut
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_3 c _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Seg2.lean ====
/-
  Region 2 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.KI.Region2
import proofs.«107088_j31018253811971_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg2 (hK : ∀ c, pdats 2 c = dat2 (atTc Win) c)
    (hF : ∀ c (w : Fin cfg2.W), (dat2 (atTc Win) c).arrAt w cfg2.N = atTc Wout c (Pipeline.arrRef spec2 w))
    (hrest : ∀ c, ∀ b, b ∉ Finset.univ.image (Pipeline.arrRef spec2) → atTc Wout c b = atTc Win c b) :
    Pipeline.RegionSeg (pcfgs (F := F)) adm pdats () defs₀ 𝒱₀ L lv 2 where
  win := launch2.win.to₀
  block_pos := launch2.block_pos
  stage_whole := launch2.stage_whole
  K := PEmpty
  osem k := k.elim
  ho := Pipeline.OwnSemFacts.none _
  hbody c := by rw [hK c]; exact (body_obligation2 (atTc Win) c).loose
  hwaits := Pipeline.hwaits_of_owed_zero _ _ _ _ L lv 2 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec2 c (atTc Win c)
  hentry c := by
    rw [Pipeline.ownSems0_none]
    have hsplit := Pipeline.arrays_of_unscopedBufs (p := 2) (pcfgs (F := F)) adm pdats launch2.win launch2.arr_whole c
      (by rw [hK c]; exact (dat2 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 2 c).Φ 0 = Pipeline.ΦA spec2 c from by rw [hK c]; rfl]; unfold Pipeline.ΦA
    iintro ⟨Hp, -, Hr⟩
    isplitl [Hr]; · iexact Hr
    iexact Hp
  hout c := by
    rw [Pipeline.ownSems0_none, show (pdats 2 c).Φ (Fin.last _) = Pipeline.ΦA spec2 c from by rw [hK c]; rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c pdats (by rw [hK c]; exact (dat2 (atTc Win) c).share_full fun _ => rfl)
      (atTc Win c) (atTc Wout c) ((pdats 2 c).arrAt · cfg2.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.KernelIdeal.Hand

end
-- ==== Proof.KI.Region3.lean ====
/-
  Region 3: mean = max(A·t2, 0) over a 4 × 4 grid (row tile p, contraction block q): tile p of the result is the positive part of (rows of A in tile p)·t2, rounded to bf16.
  The contraction over 4096 is accumulated in four blocks of 1024 along the second grid axis, in a scratch the kernel
  keeps between grid points. At the first block of a row tile the body zeroes the scratch and adds the block's
  product; at the two middle blocks it adds the block's product to what the point before left; at the last block it
  does the same and then reads the scratch out, plus the bias row, into the output tile, which is written back only
  there. This file: each window's tile at a point, the body's run in each of the three cases (the witness of a run is
  the list of pieces its stores leave), what the scratch and the output tile hold after each point (a recursion over
  the points), the region's invariant (the scratch at what the point before left), its proof data at any entry
  contents `V`, and the body obligation.
-/
import proofs.«107088_j31018253811971_1_alg».proof.Proof.Gen.KernelIdeal.Launch
import proofs.«107088_j31018253811971_1_alg».proof.Proof.Gen.KernelIdeal.Skeleton
import proofs.«107088_j31018253811971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its tile at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its tile at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its tile at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions -/

/-- "This is the first block of the contraction": the body's first `if`, from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)
/-- "This is the last block of the contraction": the body's second `if`. -/
abbrev cond3_1 (i : grid3.Coords) : Prop := k3_cond2 i = 1#1
/-- It holds at the points ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)
/-- The inputs are never idle; the output tile is idle, and not written back, except at a last block. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## The staging memrefs and the scratch, as the pipeline passes them -/

abbrev VO3_3 : View sig .tc .vmem S1024x64 .bf16 := (Memref.whole cc3_stg3_0 : Memref sig .tc .vmem S1024x64 .bf16).view
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x64 .bf16 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows, and its view. -/
abbrev scM3 : Memref sig .tc .vmem S1024x64 .f32 := Memref.whole cc3_scratch0
abbrev VS3 : View sig .tc .vmem S1024x64 .f32 := scM3.view

/-- The invariant before the first point, with the accumulator split out as a memref owned at some contents. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; rfl

/-! ## The body's run, case by case -/

set_option maxHeartbeats 4000000 in
/-- FIRST BLOCK: the pieces the stores leave in the accumulator, with the proof that on whole memrefs — the two matrix
    tiles at `x0 x1`, the accumulator at anything — the body runs to the continuation with those pieces written. The
    bias and the output tile are not touched. -/
noncomputable def kernelRun3_A (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole)
    (hc0 : cond3_0 i) (hc1 : ¬cond3_1 i) (x0 : Vec F S1024x1024 .f32) (x1 : Vec F S1024x64 .bf16) :
    { LS : List (View.Piece (Elt F) S1024x64 .f32) //
      ∀ (E : Set ℕ) (Kc : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc3__gemm_kernel i arg2 harg2 arg3 harg3 arg4 harg4 arg5 harg5 arg6 harg6) Kc } := by
  refine ⟨?_, fun E Kc => ?run⟩
  case run =>
    simp only [cc3__gemm_kernel_eq_skeleton]; unfold cc3__gemm_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- MIDDLE BLOCK: the same with the accumulator entered at `xs`, what the point before left. -/
noncomputable def kernelRun3_B (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole)
    (hc0 : ¬cond3_0 i) (hc1 : ¬cond3_1 i) (x0 : Vec F S1024x1024 .f32) (x1 : Vec F S1024x64 .bf16) (xs : Vec F S1024x64 .f32) :
    { LS : List (View.Piece (Elt F) S1024x64 .f32) //
      ∀ (E : Set ℕ) (Kc : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc3__gemm_kernel i arg2 harg2 arg3 harg3 arg4 harg4 arg5 harg5 arg6 harg6) Kc } := by
  refine ⟨?_, fun E Kc => ?run⟩
  case run =>
    simp only [cc3__gemm_kernel_eq_skeleton]; unfold cc3__gemm_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- LAST BLOCK: the pieces left in the output tile (`.1`) and in the accumulator (`.2.1`); the bias row at `x2`, the
    output tile entered at anything, the accumulator at `xs`. -/
noncomputable def kernelRun3_C (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole)
    (hc0 : ¬cond3_0 i) (hc1 : cond3_1 i) (x0 : Vec F S1024x1024 .f32) (x1 : Vec F S1024x64 .bf16) (x2 : Vec F S1x64 .f32) (xs : Vec F S1024x64 .f32) :
    Σ' (L3 : List (View.Piece (Elt F) S1024x64 .bf16)), { LS : List (View.Piece (Elt F) S1024x64 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc3__gemm_kernel i arg2 harg2 arg3 harg3 arg4 harg4 arg5 harg5 arg6 harg6) Kc } := by
  refine ⟨?_, ?_, fun E Kc => ?run⟩
  case run =>
    simp only [cc3__gemm_kernel_eq_skeleton]; unfold cc3__gemm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves -/

theorem scover3_A (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : cond3_0 i) (hc1 : ¬cond3_1 i) (x0 : Vec F S1024x1024 .f32) (x1 : Vec F S1024x64 .bf16) (y : S1024x64.Idx) :
    ∃ pc ∈ (kernelRun3_A c i arg2 harg2 arg3 harg3 arg4 harg4 arg5 harg5 arg6 harg6 hc0 hc1 x0 x1).1, y ∈ pc.1.set :=
  View.cover_of_tiledL (kernelRun3_A c i arg2 harg2 arg3 harg3 arg4 harg4 arg5 harg5 arg6 harg6 hc0 hc1 x0 x1).1 S1024x64.size (by sl_kernel_rfl) y
/-- The accumulator after a first block. -/
def sout3_A (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : cond3_0 i) (hc1 : ¬cond3_1 i) (x0 : Vec F S1024x1024 .f32) (x1 : Vec F S1024x64 .bf16) : Vec F S1024x64 .f32 :=
  VS3.read (Elt F) (VS3.writes (Elt F) VS3.junk (kernelRun3_A c i arg2 harg2 arg3 harg3 arg4 harg4 arg5 harg5 arg6 harg6 hc0 hc1 x0 x1).1)

theorem scover3_B (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : ¬cond3_0 i) (hc1 : ¬cond3_1 i) (x0 : Vec F S1024x1024 .f32) (x1 : Vec F S1024x64 .bf16) (xs : Vec F S1024x64 .f32) (y : S1024x64.Idx) :
    ∃ pc ∈ (kernelRun3_B c i arg2 harg2 arg3 harg3 arg4 harg4 arg5 harg5 arg6 harg6 hc0 hc1 x0 x1 xs).1, y ∈ pc.1.set :=
  View.cover_of_tiledL (kernelRun3_B c i arg2 harg2 arg3 harg3 arg4 harg4 arg5 harg5 arg6 harg6 hc0 hc1 x0 x1 xs).1 S1024x64.size (by sl_kernel_rfl) y
/-- The accumulator after a middle block. -/
def sout3_B (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : ¬cond3_0 i) (hc1 : ¬cond3_1 i) (x0 : Vec F S1024x1024 .f32) (x1 : Vec F S1024x64 .bf16) (xs : Vec F S1024x64 .f32) : Vec F S1024x64 .f32 :=
  VS3.read (Elt F) (VS3.writes (Elt F) VS3.junk (kernelRun3_B c i arg2 harg2 arg3 harg3 arg4 harg4 arg5 harg5 arg6 harg6 hc0 hc1 x0 x1 xs).1)

theorem scover3_C (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : ¬cond3_0 i) (hc1 : cond3_1 i) (x0 : Vec F S1024x1024 .f32) (x1 : Vec F S1024x64 .bf16) (x2 : Vec F S1x64 .f32) (xs : Vec F S1024x64 .f32) (y : S1024x64.Idx) :
    ∃ pc ∈ (kernelRun3_C c i arg2 harg2 arg3 harg3 arg4 harg4 arg5 harg5 arg6 harg6 hc0 hc1 x0 x1 x2 xs).2.1, y ∈ pc.1.set :=
  View.cover_of_tiledL (kernelRun3_C c i arg2 harg2 arg3 harg3 arg4 harg4 arg5 harg5 arg6 harg6 hc0 hc1 x0 x1 x2 xs).2.1 S1024x64.size (by sl_kernel_rfl) y
/-- The accumulator after a last block. -/
def sout3_C (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : ¬cond3_0 i) (hc1 : cond3_1 i) (x0 : Vec F S1024x1024 .f32) (x1 : Vec F S1024x64 .bf16) (x2 : Vec F S1x64 .f32) (xs : Vec F S1024x64 .f32) : Vec F S1024x64 .f32 :=
  VS3.read (Elt F) (VS3.writes (Elt F) VS3.junk (kernelRun3_C c i arg2 harg2 arg3 harg3 arg4 harg4 arg5 harg5 arg6 harg6 hc0 hc1 x0 x1 x2 xs).2.1)
theorem cover3_C (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : ¬cond3_0 i) (hc1 : cond3_1 i) (x0 : Vec F S1024x1024 .f32) (x1 : Vec F S1024x64 .bf16) (x2 : Vec F S1x64 .f32) (xs : Vec F S1024x64 .f32) (y : S1024x64.Idx) :
    ∃ pc ∈ (kernelRun3_C c i arg2 harg2 arg3 harg3 arg4 harg4 arg5 harg5 arg6 harg6 hc0 hc1 x0 x1 x2 xs).1, y ∈ pc.1.set :=
  View.cover_of_tiledL (kernelRun3_C c i arg2 harg2 arg3 harg3 arg4 harg4 arg5 harg5 arg6 harg6 hc0 hc1 x0 x1 x2 xs).1 S1024x64.size (by sl_kernel_rfl) y
/-- The output tile after a last block. -/
def out3_C (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : ¬cond3_0 i) (hc1 : cond3_1 i) (x0 : Vec F S1024x1024 .f32) (x1 : Vec F S1024x64 .bf16) (x2 : Vec F S1x64 .f32) (xs : Vec F S1024x64 .f32) : Vec F S1024x64 .bf16 :=
  VO3_3.read (Elt F) (VO3_3.writes (Elt F) VO3_3.junk (kernelRun3_C c i arg2 harg2 arg3 harg3 arg4 harg4 arg5 harg5 arg6 harg6 hc0 hc1 x0 x1 x2 xs).1)

/-! ## What the accumulator and the output tile hold after each point -/

/-- THE ACCUMULATION: the accumulator after the body at position `n` — after a first block what that block leaves,
    otherwise what this block leaves over what position `n - 1` left. -/
def accAt3 (c : Dev nD) : (n : ℕ) → n < cfg3.N → Vec F S1024x64 .f32
  | 0, hn => sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _)
      ((hcond3_0 ⟨0, hn⟩).mpr (Nat.zero_mod _)) (fun h => by have h3 := (hcond3_1 ⟨0, hn⟩).mp h; (try dsimp only at h3); omega) (iblk3 V c 0 ⟨0, hn⟩) (iblk3 V c 1 ⟨0, hn⟩)
  | n + 1, hn =>
    if h0 : (n + 1) % 4 = 0 then
      sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
        ((hcond3_0 ⟨n + 1, hn⟩).mpr h0) (fun h => by have h3 := (hcond3_1 ⟨n + 1, hn⟩).mp h; (try dsimp only at h3); omega) (iblk3 V c 0 ⟨n + 1, hn⟩) (iblk3 V c 1 ⟨n + 1, hn⟩)
    else if h1 : (n + 1) % 4 = 3 then
      sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
        (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (accAt3 c n (Nat.lt_of_succ_lt hn))
    else
      sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
        (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (accAt3 c n (Nat.lt_of_succ_lt hn))

theorem accAt3_A (c : Dev nD) (t : Fin cfg3.N) (h0 : t.val % 4 = 0) (h1 : ¬t.val % 4 = 3) :
    accAt3 V c t.val t.isLt = sout3_A c (grid3.coords t) (ms3_0 t) (hs3_0 t) (ms3_1 t) (hs3_1 t) (ms3_2 t) (hs3_2 t) (ms3_3 t) (hs3_3 t) scM3 (Memref.isWhole_whole _)
      ((hcond3_0 t).mpr h0) (fun h => h1 ((hcond3_1 t).mp h)) (iblk3 V c 0 t) (iblk3 V c 1 t) := by
  obtain ⟨n, hn⟩ := t
  cases n with
  | zero => exact rfl
  | succ n => exact (dif_pos h0).trans rfl

theorem accAt3_B (c : Dev nD) (t : Fin cfg3.N) (h0 : ¬t.val % 4 = 0) (h1 : ¬t.val % 4 = 3) :
    accAt3 V c t.val t.isLt = sout3_B c (grid3.coords t) (ms3_0 t) (hs3_0 t) (ms3_1 t) (hs3_1 t) (ms3_2 t) (hs3_2 t) (ms3_3 t) (hs3_3 t) scM3 (Memref.isWhole_whole _)
      (fun h => h0 ((hcond3_0 t).mp h)) (fun h => h1 ((hcond3_1 t).mp h)) (iblk3 V c 0 t) (iblk3 V c 1 t)
      (accAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt3_C (c : Dev nD) (t : Fin cfg3.N) (h0 : ¬t.val % 4 = 0) (h1 : t.val % 4 = 3) :
    accAt3 V c t.val t.isLt = sout3_C c (grid3.coords t) (ms3_0 t) (hs3_0 t) (ms3_1 t) (hs3_1 t) (ms3_2 t) (hs3_2 t) (ms3_3 t) (hs3_3 t) scM3 (Memref.isWhole_whole _)
      (fun h => h0 ((hcond3_0 t).mp h)) ((hcond3_1 t).mpr h1) (iblk3 V c 0 t) (iblk3 V c 1 t) (iblk3 V c 2 t)
      (accAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output tile after the body at point `t`: at a last block what that case stores over what the point before left in
    the accumulator; elsewhere the body stores nothing into it and the tile is not written back: a placeholder. -/
def outAt3 (c : Dev nD) (t : Fin cfg3.N) : Vec F S1024x64 .bf16 :=
  if h1 : t.val % 4 = 3 then
    out3_C c (grid3.coords t) (ms3_0 t) (hs3_0 t) (ms3_1 t) (hs3_1 t) (ms3_2 t) (hs3_2 t) (ms3_3 t) (hs3_3 t) scM3 (Memref.isWhole_whole _)
      (fun h => by have h3 := (hcond3_0 t).mp h; omega) ((hcond3_1 t).mpr h1) (iblk3 V c 0 t) (iblk3 V c 1 t) (iblk3 V c 2 t)
      (accAt3 V c (t.val - 1) (Nat.lt_of_le_of_lt (Nat.sub_le _ _) t.isLt))
  else VO3_3.read (Elt F) VO3_3.junk

/-! ## The region's invariant and proof data -/

/-- The invariant before position `n`: before the first point the scoped rest with the accumulator at anything;
    afterwards the accumulator at what the point before left, the rest of the scoped buffers, and the generator register. -/
def PhiS3 (c : Dev nD) : (n : ℕ) → n ≤ cfg3.N → sProp 𝕄
  | 0, _ => Pipeline.ΦA spec3 c
  | n + 1, hn => iprop(iprop(owns (c : Thread nD τ) scM3 fullShare (accAt3 V c n hn)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare (accAt3 V c n hn)
      ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare (accAt3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The proof data on core `c`: the arrays as the region finds them; after the body at point `t` each input's buffer
    at its tile and the output's at `outAt3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outAt3 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 8000000 in
/-- The body at any point: the inputs' memrefs hold their tiles; the position modulo 4 says which case the point is
    in; the invariant lends the accumulator at what the point before left (at anything before the first point) and
    takes it back at this point's contents; at a last block the output tile is left at that case's contents, elsewhere
    it is handed back untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
      unfold Dat.leavesExact; rw [liveAt3_0 t], after3_0,
    show (dat3 V c).leavesExact 1 t = owns (c : Thread nD τ) (ms3_1 t) fullShare ((dat3 V c).after 1 t) from by
      unfold Dat.leavesExact; rw [liveAt3_1 t], after3_1,
    show (dat3 V c).leavesExact 2 t = owns (c : Thread nD τ) (ms3_2 t) fullShare ((dat3 V c).after 2 t) from by
      unfold Dat.leavesExact; rw [liveAt3_2 t], after3_2]
  have hN : t.val < 16 := lt_of_lt_of_eq t.isLt (show cfg3.N = 16 from N_3)
  by_cases h0 : t.val % 4 = 0
  · -- a first block
    have h1 : ¬t.val % 4 = 3 := by omega
    rw [Dat.leavesExact_idle (dat3 V c) 3 t (idleAt3_3 t (fun h => h1 ((hcond3_1 t).mp h))) (noFlush3_3 t (fun h => h1 ((hcond3_1 t).mp h)))]
    rw [accAt3_A V c t h0 h1]
    unfold sout3_A
    by_cases hz : t.val = 0
    · rw [PhiS3_castSucc V c t, PhiS3_zero V c _ _ hz, PhiA3_eq]
      iintro ⟨⟨⟨HS, Hbut⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t)).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover3_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, Hbut⟩, Hg⟩, Ho, ⟨%d0, H0⟩, ⟨%d1, H1⟩, ⟨%d2, H2⟩, ⟨%d3, H3⟩⟩
      iapply ((kernelRun3_A c (grid3.coords t) _ _ _ _ _ _ _ _ _ _ ((hcond3_0 t).mpr h0) (fun h => h1 ((hcond3_1 t).mp h)) (iblk3 V c 0 t) (iblk3 V c 1 t)).2 Set.univ _)
      isplitl [H0]; · iexact H0
      isplitl [H1]; · iexact H1
      isplitl [HS]; · iexists _; iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover3_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · -- a last block
      rw [show (dat3 V c).leavesExact 3 t = owns (c : Thread nD τ) (ms3_3 t) fullShare ((dat3 V c).after 3 t) from by
        unfold Dat.leavesExact; rw [liveAt3_3 t ((hcond3_1 t).mpr h1)], after3_3]
      rw [accAt3_C V c t h0 h1]
      unfold sout3_C outAt3
      rw [dif_pos h1]
      unfold out3_C
      rw [PhiS3_castSucc V c t, PhiS3_pos V c _ _ hz]
      iintro ⟨⟨⟨HS, Hbut⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hbut Hg]
      · isplitl [HS Hbut]
        · isplitl [HS]
          · unfold owns; iexists _; isplitr
            swap; · iexact HS
            ipureintro; exact View.read_writes_of_cover _ _ _ _ _ (scover3_C c _ _ _ _ _ _ _ _ _ _ _ _ _ _ _ _ _)
          iexact Hbut
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C c _ _ _ _ _ _ _ _ _ _ _ _ _ _ _ _ _)
    · -- a middle block
      rw [Dat.leavesExact_idle (dat3 V c) 3 t (idleAt3_3 t (fun h => h1 ((hcond3_1 t).mp h))) (noFlush3_3 t (fun h => h1 ((hcond3_1 t).mp h)))]
      rw [accAt3_B V c t h0 h1]
      unfold sout3_B
      rw [PhiS3_castSucc V c t, PhiS3_pos V c _ _ hz]
      iintro ⟨⟨⟨HS, Hbut⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) _).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover3_B c _ _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the scoped rest back: what the accumulator holds is forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 16 := N_3; omega), PhiA3_eq]
  iintro ⟨⟨HS, Hbut⟩, Hg⟩
  isplitl [HS Hbut]
  · isplitl [HS]; · iexists _; iexact HS
    iexact Hbut
  iexact Hg

end Cert.KernelIdeal.Hand

end
-- ==== Proof.KI.Seg3.lean ====
/-
  Region 3 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.KI.Region3
import proofs.«107088_j31018253811971_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg3 (hK : ∀ c, pdats 3 c = dat3 (atTc Win) c)
    (hF : ∀ c (w : Fin cfg3.W), (dat3 (atTc Win) c).arrAt w cfg3.N = atTc Wout c (Pipeline.arrRef spec3 w))
    (hrest : ∀ c, ∀ b, b ∉ Finset.univ.image (Pipeline.arrRef spec3) → atTc Wout c b = atTc Win c b) :
    Pipeline.RegionSeg (pcfgs (F := F)) adm pdats () defs₀ 𝒱₀ L lv 3 where
  win := launch3.win.to₀
  block_pos := launch3.block_pos
  stage_whole := launch3.stage_whole
  K := PEmpty
  osem k := k.elim
  ho := Pipeline.OwnSemFacts.none _
  hbody c := by rw [hK c]; exact (body_obligation3 (atTc Win) c).loose
  hwaits := Pipeline.hwaits_of_owed_zero _ _ _ _ L lv 3 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec3 c (atTc Win c)
  hentry c := by
    rw [Pipeline.ownSems0_none]
    have hsplit := Pipeline.arrays_of_unscopedBufs (p := 3) (pcfgs (F := F)) adm pdats launch3.win launch3.arr_whole c
      (by rw [hK c]; exact (dat3 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hK c]
    have h := hin3 (atTc Win) c
    unfold Pipeline.ΦA at h
    iintro ⟨Hp, -, Hr⟩
    iapply h
    isplitl [Hr]; · iexact Hr
    iexact Hp
  hout c := by
    rw [Pipeline.ownSems0_none, hK c]
    have h := hout3 (atTc Win) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c pdats (by rw [hK c]; exact (dat3 (atTc Win) c).share_full fun _ => rfl)
      (atTc Win c) (atTc Wout c) ((pdats 3 c).arrAt · cfg3.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.KernelIdeal.Hand

end
-- ==== Proof.KI.Region4.lean ====
/-
  Region 4: the edge logits `mean · meanᵀ` over a 4 × 4 grid of 1024 × 1024 tiles. At point (p, q) the body reads
  row tile p and row tile q of the SAME 4096 × 64 array `mean` (the two input windows stage one array) and stores the
  1024 × 1024 product of the first with the transpose of the second as tile (p, q) of the result. No scratch, no
  condition: one store covers the output tile. Because two windows read one array, the proof data holds it at two
  complementary half shares, one per window.
  This file: each window's tile at a point, what the body leaves in the output tile as a function of the two input
  tiles, the body's triple, the region's proof data at any entry contents `V`, and the body obligation.
-/
import proofs.«107088_j31018253811971_1_alg».proof.Proof.Gen.KernelIdeal.Launch
import proofs.«107088_j31018253811971_1_alg».proof.Proof.Gen.KernelIdeal.Skeleton
import proofs.«107088_j31018253811971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its tile at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its tile at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- A whole 1024 × 64 row tile of `mean`. -/
abbrev r4_0 : Rect S1024x64 := Rect.unit (s := S1024x64) ![0, 0] S1024x64.size inb_S1024x64_S1024x64_0_0
/-- The whole 1024 × 1024 result tile. -/
abbrev r4_2 : Rect S1024x1024 := Rect.unit (s := S1024x1024) ![0, 0] S1024x1024.size inb_S1024x1024_S1024x1024_0_0

/-- The output tile after the body, from the two input tiles: its one store. -/
def out4_2 (x0 : Vec F S1024x64 .bf16) (x1 : Vec F S1024x64 .bf16) : Vec F S1024x1024 .f32 :=
  View.canon [⟨r4_2, k4_pay1 (View.ld x0 r4_0) (View.ld x1 r4_0)⟩]

/-- The one store is the whole tile. -/
theorem cover4_2 (p0 : Vec F S1024x1024 .f32) (y : S1024x1024.Idx) :
    ∃ pc ∈ ([⟨r4_2, p0⟩] : List (View.Piece (Elt F) S1024x1024 .f32)), y ∈ pc.1.set :=
  View.cover_of_tiled [⟨r4_2, p0⟩] S1024x1024.size (by sl_kernel_rfl) y

/-! ## The body's triple -/

set_option maxHeartbeats 1000000 in
theorem sound_kernel4 (c : Dev nD) (E : Set ℕ) (i : grid4.Coords)
    (arg2 : Memref sig .tc .vmem S1024x64 .bf16) (harg2 : arg2.IsWhole) (arg3 : Memref sig .tc .vmem S1024x64 .bf16) (harg3 : arg3.IsWhole)
    (arg4 : Memref sig .tc .vmem S1024x1024 .f32) (harg4 : arg4.IsWhole)
    (x0 : Vec F S1024x64 .bf16) (x1 : Vec F S1024x64 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out4_2 x0 x1)) -∗ K ⟨⟩))
      ⊢ wp frame (wpE (defs₀ (F := F)) Variants.none c none) E (cc4__xxt_kernel i arg2 harg2 arg3 harg3 arg4 harg4) K := by
  simp only [cc4__xxt_kernel_eq_skeleton]; unfold cc4__xxt_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The region's proof data -/

/-- The proof data on core `c`: the arrays as the region finds them; after the body at point `t` each input's buffer
    at its tile and the output's at `out4_2` of the input tiles; the invariant the scoped rest and the generator
    register; nothing owed; the array the two input windows share held at complementary halves. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Seg4.lean ====
/-
  Region 4 as a segment of the program. Its two input windows stage one array (`mean`, the buffer `main_v7`), so the
  core's whole buffer is split into its two half shares on entry, one per window, and joined again on exit; the result
  array (`main_v8`) is held whole. Otherwise as the other regions: entered with every unscoped buffer at contents
  `Win`, left at `Wout` (`Win` except the result array, `hF`, `hrest`); the generator register goes into the
  invariant and comes back; nothing is owed; no semaphore of the kernel's own.
-/
import proofs.«107088_j31018253811971_1_alg».proof.Proof.KI.Region4
import proofs.«107088_j31018253811971_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind region 4's windows are `main_v7` (twice) and `main_v8`. -/
theorem arrRefs4 : Finset.univ.image (Pipeline.arrRef spec4) = ([main_v7, main_v8] : List (Ref sig .tc)).toFinset := by decide

/-- The two buffers whole at the full share ARE the three windows' arrays at their shares: the shared buffer's two
    halves compose to the whole. -/
theorem arrays4_iff (c : Dev nD) (V : (b : Ref sig .tc) → Buf (Elt F) ((c : Thread nD τ).loc b))
    (V' : (c : Dev nD) → (b : Ref sig .tc) → Buf (Elt F) ((c : Thread nD τ).loc b))
    (Fw : (w : Fin cfg4.W) → Buf (Elt F) ((cfg4.win w).arr.view.loc (c : Thread nD τ)))
    (h0 : Fw 0 = V (Pipeline.arrRef spec4 0)) (h1 : Fw 1 = V (Pipeline.arrRef spec4 1)) (h2 : Fw 2 = V (Pipeline.arrRef spec4 2)) :
    (Pipeline.arrBufs (Ix := Unit) (Name := ℕ) (U := UR sig nD τ) (Lvl := ℕ) spec4 c V : sProp 𝕄) ⊣⊢ (dat4 V' c).arrays Fw := by
  unfold Pipeline.arrBufs Pipeline.Dat.arrays
  rw [bigSep_W4, bigSep_eq_bigSepL_of_eq [main_v7, main_v8] arrRefs4 (by decide)]
  rw [(arr_whole4 0).set_eq_univ, (arr_whole4 2).set_eq_univ,
    show (dat4 V' c).share 0 = fullShare.left from rfl, show (dat4 V' c).share 1 = fullShare.right from rfl,
    show (dat4 V' c).share 2 = fullShare from rfl, h0, h1, h2]
  show iprop(((c : Thread nD τ).loc main_v7 ↦{fullShare} V main_v7) ∗ ((c : Thread nD τ).loc main_v8 ↦{fullShare} V main_v8))
    ⊣⊢ iprop(((c : Thread nD τ).loc main_v7 ↦{fullShare.left} V main_v7) ∗ ((c : Thread nD τ).loc main_v7 ↦{fullShare.right} V main_v7) ∗ ((c : Thread nD τ).loc main_v8 ↦{fullShare} V main_v8))
  refine ⟨?_, ?_⟩
  · iintro ⟨H7, H8⟩
    ihave H := (pointsTo_share (PosShare.mem_left_op_right fullShare)).1 $$ H7
    icases H with ⟨Hl, Hr⟩
    isplitl [Hl]; · iexact Hl
    isplitl [Hr]; · iexact Hr
    iexact H8
  · iintro ⟨Hl, Hr, H8⟩
    isplitl [Hl Hr]
    · iapply (pointsTo_share (PosShare.mem_left_op_right fullShare)).2
      isplitl [Hl]; · iexact Hl
      iexact Hr
    iexact H8

variable (pdats : (p : Fin 12) → (c : Dev nD) → Dat τ (Elt F) Unit ℕ (UR sig nD τ) ℕ (cfgs p) c)
variable (Win Wout : Dev nD → Valuation τ sig (Elt F))

set_option maxHeartbeats 2000000 in
set_option backward.isDefEq.respectTransparency.types false in
def reg4 (hK : ∀ c, pdats 4 c = dat4 (atTc Win) c)
    (hF : ∀ c (w : Fin cfg4.W), (dat4 (atTc Win) c).arrAt w cfg4.N = atTc Wout c (Pipeline.arrRef spec4 w))
    (hrest : ∀ c, ∀ b, b ∉ Finset.univ.image (Pipeline.arrRef spec4) → atTc Wout c b = atTc Win c b) :
    Pipeline.RegionSeg (pcfgs (F := F)) adm pdats () defs₀ 𝒱₀ L lv 4 where
  win := winFacts₀4
  block_pos := block_pos4
  stage_whole := stage_whole4
  K := PEmpty
  osem k := k.elim
  ho := Pipeline.OwnSemFacts.none _
  hbody c := by rw [hK c]; exact (body_obligation4 (atTc Win) c).loose
  hwaits := Pipeline.hwaits_of_owed_zero _ _ _ _ L lv 4 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec4 c (atTc Win c)
  hentry c := by
    rw [Pipeline.ownSems0_none, hK c]
    have hsplit : (unscopedBufs c (atTc Win c) : sProp 𝕄)
        ⊢ iprop((dat4 (atTc Win) c).arrays (fun w => (dat4 (atTc Win) c).arrAt w 0) ∗ Pipeline.unscopedRest (Ix := Unit) (Name := ℕ) (U := UR sig nD τ) (Lvl := ℕ) spec4 c (atTc Win c)) := by
      rw [Pipeline.unscopedBufs_split₀ (Pipeline.pin (pcfgs (F := F)) adm) 4 winFacts₀4.arr_unscoped c (atTc Win c)]
      exact sep_mono (arrays4_iff c (atTc Win c) (atTc Win) (fun w => (dat4 (atTc Win) c).arrAt w 0) rfl rfl rfl).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 4 c).Φ 0 = Pipeline.ΦA spec4 c from by rw [hK c]; rfl]; unfold Pipeline.ΦA
    iintro ⟨Hp, -, Hr⟩
    isplitl [Hr]; · iexact Hr
    iexact Hp
  hout c := by
    rw [Pipeline.ownSems0_none, show (pdats 4 c).Φ (Fin.last _) = Pipeline.ΦA spec4 c from by rw [hK c]; rfl]; unfold Pipeline.ΦA
    iintro ⟨Hr, Hp⟩
    isplitl [Hp]; · iexact Hp
    isplitr; · iempintro
    iexact Hr
  hexit c := by
    rw [hK c]
    have hjoin : iprop((dat4 (atTc Win) c).arrays (fun w => (dat4 (atTc Win) c).arrAt w cfg4.N) ∗ Pipeline.unscopedRest (Ix := Unit) (Name := ℕ) (U := UR sig nD τ) (Lvl := ℕ) spec4 c (atTc Win c))
        ⊢ (unscopedBufs c (atTc Wout c) : sProp 𝕄) := by
      rw [Pipeline.unscopedBufs_split₀ (Pipeline.pin (pcfgs (F := F)) adm) 4 winFacts₀4.arr_unscoped c (atTc Wout c)]
      refine sep_mono (arrays4_iff c (atTc Wout c) (atTc Win) (fun w => (dat4 (atTc Win) c).arrAt w cfg4.N) (hF c 0) (hF c 1) (hF c 2)).2 (Entails.of_eq ?_)
      unfold Pipeline.unscopedRest
      exact bigSep_congr fun b hb => by rw [hrest c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Region5.lean ====
/-
  Region 5: the degree normalisation `out[i, j] = a[i, j] · d[i] · d[j]` over a 4 × 4 grid of 1024 × 1024 tiles.
  At point (p, q) the body reads the tile (p, q) of the adjacency, column 0 of the row-tile p of the degree vector
  laid out as 4096 × 128, and the column-tile q of the degree vector laid out as 1 × 4096, and stores the product,
  rounded to bf16, as tile (p, q) of the result. No scratch, no condition: one store covers the output tile.
  This file: each window's block at a point, what the body leaves in the output tile as a function of the three input
  tiles, the body's triple, the region's proof data at any entry contents `V`, and the body obligation.
-/
import proofs.«107088_j31018253811971_1_alg».proof.Proof.Gen.KernelIdeal.Launch
import proofs.«107088_j31018253811971_1_alg».proof.Proof.Gen.KernelIdeal.Skeleton
import proofs.«107088_j31018253811971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s tile at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its tile at every point, fetched there or not (when it is not
    fetched the tile index has not moved). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 1024 × 1024 tile (the adjacency tile read, the result tile written). -/
abbrev r5_0 : Rect S1024x1024 := Rect.unit (s := S1024x1024) ![0, 0] S1024x1024.size inb_S1024x1024_S1024x1024_0_0
/-- Column 0 of the 1024 × 128 row-degree tile. -/
abbrev r5_1 : Rect S1024x128 := Rect.unit (s := S1024x128) ![0, 0] S1024x1.size inb_S1024x128_S1024x1_0_0
/-- The whole 1 × 1024 column-degree tile. -/
abbrev r5_2 : Rect S1x1024 := Rect.unit (s := S1x1024) ![0, 0] S1x1024.size inb_S1x1024_S1x1024_0_0

/-! ## What the body leaves in the output tile -/

/-- The output tile after the body, from the three input tiles: its one store. -/
def out5_3 (x0 : Vec F S1024x1024 .f32) (x1 : Vec F S1024x128 .f32) (x2 : Vec F S1x1024 .f32) : Vec F S1024x1024 .bf16 :=
  View.canon [⟨r5_0, k5_pay1 (View.ld x0 r5_0) (View.ld x1 r5_1) (View.ld x2 r5_2)⟩]

/-- The one store is the whole tile. -/
theorem cover5_3 (p0 : Vec F S1024x1024 .bf16) (y : S1024x1024.Idx) :
    ∃ pc ∈ ([⟨r5_0, p0⟩] : List (View.Piece (Elt F) S1024x1024 .bf16)), y ∈ pc.1.set :=
  View.cover_of_tiled [⟨r5_0, p0⟩] S1024x1024.size (by sl_kernel_rfl) y

/-! ## The body's triple -/

set_option maxHeartbeats 1000000 in
/-- The body on whole staging memrefs, the inputs' at contents `x0 x1 x2` and the output's at anything, runs to the
    continuation with the inputs' as they were and the output's at `out5_3` of them. -/
theorem sound_kernel5 (c : Dev nD) (E : Set ℕ) (i : grid5.Coords)
    (arg2 : Memref sig .tc .vmem S1024x1024 .f32) (harg2 : arg2.IsWhole) (arg3 : Memref sig .tc .vmem S1024x128 .f32) (harg3 : arg3.IsWhole)
    (arg4 : Memref sig .tc .vmem S1x1024 .f32) (harg4 : arg4.IsWhole) (arg5 : Memref sig .tc .vmem S1024x1024 .bf16) (harg5 : arg5.IsWhole)
    (x0 : Vec F S1024x1024 .f32) (x1 : Vec F S1024x128 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out5_3 x0 x1 x2)) -∗ K ⟨⟩))
      ⊢ wp frame (wpE (defs₀ (F := F)) Variants.none c none) E (cc5__scale_kernel i arg2 harg2 arg3 harg3 arg4 harg4 arg5 harg5) K := by
  simp only [cc5__scale_kernel_eq_skeleton]; unfold cc5__scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The region's proof data -/

/-- The proof data on core `c`: the arrays as the region finds them; after the body at point `t` each input's buffer
    at its tile and the output's at `out5_3` of the input tiles; the invariant the scoped rest and the generator
    register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their tiles, so the triple applies; the invariant and the core's
    dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Seg5.lean ====
/-
  Region 5 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.KI.Region5
import proofs.«107088_j31018253811971_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg5 (hK : ∀ c, pdats 5 c = dat5 (atTc Win) c)
    (hF : ∀ c (w : Fin cfg5.W), (dat5 (atTc Win) c).arrAt w cfg5.N = atTc Wout c (Pipeline.arrRef spec5 w))
    (hrest : ∀ c, ∀ b, b ∉ Finset.univ.image (Pipeline.arrRef spec5) → atTc Wout c b = atTc Win c b) :
    Pipeline.RegionSeg (pcfgs (F := F)) adm pdats () defs₀ 𝒱₀ L lv 5 where
  win := launch5.win.to₀
  block_pos := launch5.block_pos
  stage_whole := launch5.stage_whole
  K := PEmpty
  osem k := k.elim
  ho := Pipeline.OwnSemFacts.none _
  hbody c := by rw [hK c]; exact (body_obligation5 (atTc Win) c).loose
  hwaits := Pipeline.hwaits_of_owed_zero _ _ _ _ L lv 5 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec5 c (atTc Win c)
  hentry c := by
    rw [Pipeline.ownSems0_none]
    have hsplit := Pipeline.arrays_of_unscopedBufs (p := 5) (pcfgs (F := F)) adm pdats launch5.win launch5.arr_whole c
      (by rw [hK c]; exact (dat5 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 5 c).Φ 0 = Pipeline.ΦA spec5 c from by rw [hK c]; rfl]; unfold Pipeline.ΦA
    iintro ⟨Hp, -, Hr⟩
    isplitl [Hr]; · iexact Hr
    iexact Hp
  hout c := by
    rw [Pipeline.ownSems0_none, show (pdats 5 c).Φ (Fin.last _) = Pipeline.ΦA spec5 c from by rw [hK c]; rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c pdats (by rw [hK c]; exact (dat5 (atTc Win) c).share_full fun _ => rfl)
      (atTc Win c) (atTc Wout c) ((pdats 5 c).arrAt · cfg5.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.KernelIdeal.Hand

end
-- ==== Proof.KI.Region6.lean ====
/-
  Region 6: t3 = X·W0, row tiles of 1024 over a 4 × 1 grid: tile p of the result is (rows of X in tile p)·W0, rounded to bf16.
  The contraction is one block long, so at every grid point the body zeroes its accumulator (the scratch), adds the
  product of the point's two tiles into it, and reads it out, plus the bias row, into the output tile: both of the
  body's conditions (first block, last block) hold at every point. The scratch is therefore dead between points and
  the region's invariant keeps it at unnamed contents. This file: each window's tile at a point, the body's run
  (whose witness is the list of pieces the stores leave in the output tile and in the scratch), what the output tile
  holds after the body as a function of the three input tiles, the region's proof data at any entry contents `V`,
  and the body obligation.
-/
import proofs.«107088_j31018253811971_1_alg».proof.Proof.Gen.KernelIdeal.Launch
import proofs.«107088_j31018253811971_1_alg».proof.Proof.Gen.KernelIdeal.Skeleton
import proofs.«107088_j31018253811971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its tile at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its tile at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its tile at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's two conditions -/

/-- "This is the first block of the contraction": the body's first `if`, from the grid coordinates. -/
abbrev cond6_0 (i : grid6.Coords) : Prop := (Scalar.cmpi .ne (Scalar.extui (Scalar.cmpi .eq (BitVec.ofNat 32 (i 1).val) 0#32)) 0#32) = 1#1
/-- It holds at every point: the contraction axis of the grid has one position. -/
theorem hcond6_0 : ∀ t : Fin cfg6.N, cond6_0 (grid6.coords t) :=
  (by decide +kernel : ∀ t : Fin grid6.N, cond6_0 (grid6.coords t))
/-- "This is the last block of the contraction": the body's second `if`. -/
abbrev cond6_1 (i : grid6.Coords) : Prop := k6_cond2 i = 1#1
/-- It holds at every point too. -/
theorem hcond6_1 : ∀ t : Fin cfg6.N, cond6_1 (grid6.coords t) :=
  (by decide +kernel : ∀ t : Fin grid6.N, cond6_1 (grid6.coords t))
/-- No window is idle at any point. -/
theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel

/-! ## The staging memrefs and the scratch, as the pipeline passes them -/

abbrev VO6_3 : View sig .tc .vmem S1024x256 .bf16 := (Memref.whole cc6_stg3_0 : Memref sig .tc .vmem S1024x256 .bf16).view
abbrev ms6_0 (t : Fin cfg6.N) : Memref sig .tc .vmem S1024x512 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S512x256 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x256 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1024x256 .bf16 := win6_3.stage (cfg6.slots t 3)
abbrev hs6_3 (t : Fin cfg6.N) : (ms6_3 t).IsWhole := hstage6_3 ((cfg6.slots t 3).cast nbuf6_3)
/-- The accumulator: a whole scoped buffer of the kernel's own, passed beside the windows. -/
abbrev scM6 : Memref sig .tc .vmem S1024x256 .f32 := Memref.whole cc6_scratch0

/-- The region's invariant with the accumulator split out as a memref owned at some contents. -/
theorem PhiA6_eq (c : Dev nD) :
    (Pipeline.ΦA spec6 c : sProp 𝕄)
      = iprop(iprop(iprop((∃ d, owns (c : Thread nD τ) scM6 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; rfl

/-! ## The body's run -/

set_option maxHeartbeats 4000000 in
/-- The pieces the body's stores leave in the output tile (`.1`) and in the accumulator (`.2.1`), last first, WITH the
    proof that on whole memrefs — the three inputs' at contents `x0 x1 x2`, the output's and the accumulator's at
    anything — the body runs to the continuation holding the inputs' as they were and those pieces written. -/
noncomputable def kernelRun6 (c : Dev nD) (i : grid6.Coords)
    (arg2 : Memref sig .tc .vmem S1024x512 .f32) (harg2 : arg2.IsWhole) (arg3 : Memref sig .tc .vmem S512x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond6_0 i) (hc1 : cond6_1 i)
    (x0 : Vec F S1024x512 .f32) (x1 : Vec F S512x256 .f32) (x2 : Vec F S1x256 .f32) :
    Σ' (L3 : List (View.Piece (Elt F) S1024x256 .bf16)), { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc6__gemm_kernel i arg2 harg2 arg3 harg3 arg4 harg4 arg5 harg5 arg6 harg6) Kc } := by
  refine ⟨?_, ?_, fun E Kc => ?run⟩
  case run =>
    simp only [cc6__gemm_kernel_eq_skeleton]; unfold cc6__gemm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-- The output tile's pieces tile it. -/
theorem cover6_3 (c : Dev nD) (i : grid6.Coords)
    (arg2 : Memref sig .tc .vmem S1024x512 .f32) (harg2 : arg2.IsWhole) (arg3 : Memref sig .tc .vmem S512x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond6_0 i) (hc1 : cond6_1 i)
    (x0 : Vec F S1024x512 .f32) (x1 : Vec F S512x256 .f32) (x2 : Vec F S1x256 .f32) (y : S1024x256.Idx) :
    ∃ pc ∈ (kernelRun6 c i arg2 harg2 arg3 harg3 arg4 harg4 arg5 harg5 arg6 harg6 hc0 hc1 x0 x1 x2).1, y ∈ pc.1.set :=
  View.cover_of_tiledL (kernelRun6 c i arg2 harg2 arg3 harg3 arg4 harg4 arg5 harg5 arg6 harg6 hc0 hc1 x0 x1 x2).1 S1024x256.size (by sl_kernel_rfl) y

/-- What the body leaves in the output tile: its pieces read back. -/
def out6_3 (c : Dev nD) (i : grid6.Coords)
    (arg2 : Memref sig .tc .vmem S1024x512 .f32) (harg2 : arg2.IsWhole) (arg3 : Memref sig .tc .vmem S512x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond6_0 i) (hc1 : cond6_1 i)
    (x0 : Vec F S1024x512 .f32) (x1 : Vec F S512x256 .f32) (x2 : Vec F S1x256 .f32) : Vec F S1024x256 .bf16 :=
  VO6_3.read (Elt F) (VO6_3.writes (Elt F) VO6_3.junk (kernelRun6 c i arg2 harg2 arg3 harg3 arg4 harg4 arg5 harg5 arg6 harg6 hc0 hc1 x0 x1 x2).1)

/-- The output tile after the body at point `t`. -/
def outAt6 (c : Dev nD) (t : Fin cfg6.N) : Vec F S1024x256 .bf16 :=
  out6_3 c (grid6.coords t) (ms6_0 t) (hs6_0 t) (ms6_1 t) (hs6_1 t) (ms6_2 t) (hs6_2 t) (ms6_3 t) (hs6_3 t) scM6 (Memref.isWhole_whole _)
    (hcond6_0 t) (hcond6_1 t) (iblk6 V c 0 t) (iblk6 V c 1 t) (iblk6 V c 2 t)

/-! ## The region's proof data -/

/-- The proof data on core `c`: the arrays as the region finds them; after the body at point `t` each input's buffer
    at its tile and the output's at `outAt6`; the invariant the scoped rest (the accumulator among it, at anything) and
    the generator register; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => outAt6 V c t
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = outAt6 V c t := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4000000 in
/-- The body at any point: the inputs' memrefs hold their tiles, the invariant lends the accumulator at whatever it
    holds, the run applies, and the accumulator goes back into the invariant at whatever the body left. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl]
  rw [show (dat6 V c).leavesExact 0 t = owns (c : Thread nD τ) (ms6_0 t) fullShare ((dat6 V c).after 0 t) from by
      unfold Dat.leavesExact; rw [liveAt6_0 t], after6_0,
    show (dat6 V c).leavesExact 1 t = owns (c : Thread nD τ) (ms6_1 t) fullShare ((dat6 V c).after 1 t) from by
      unfold Dat.leavesExact; rw [liveAt6_1 t], after6_1,
    show (dat6 V c).leavesExact 2 t = owns (c : Thread nD τ) (ms6_2 t) fullShare ((dat6 V c).after 2 t) from by
      unfold Dat.leavesExact; rw [liveAt6_2 t], after6_2,
    show (dat6 V c).leavesExact 3 t = owns (c : Thread nD τ) (ms6_3 t) fullShare ((dat6 V c).after 3 t) from by
      unfold Dat.leavesExact; rw [liveAt6_3 t], after6_3]
  rw [show (dat6 V c).Φ t.castSucc = Pipeline.ΦA spec6 c from rfl, PhiA6_eq]
  unfold outAt6 out6_3
  iintro ⟨⟨⟨HS, Hbut⟩, Hg⟩, Ho, ⟨%d0, H0⟩, ⟨%d1, H1⟩, ⟨%d2, H2⟩, ⟨%d3, H3⟩⟩
  iapply ((kernelRun6 c (grid6.coords t) _ _ _ _ _ _ _ _ _ _ (hcond6_0 t) (hcond6_1 t) (iblk6 V c 0 t) (iblk6 V c 1 t) (iblk6 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hbut Hg]
  · isplitl [HS Hbut]
    · isplitl [HS]
      · unfold owns; iexists _; iexists _; isplitr
        swap; · iexact HS
        ipureintro; rfl
      iexact Hbut
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover6_3 c _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Seg6.lean ====
/-
  Region 6 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.KI.Region6
import proofs.«107088_j31018253811971_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg6 (hK : ∀ c, pdats 6 c = dat6 (atTc Win) c)
    (hF : ∀ c (w : Fin cfg6.W), (dat6 (atTc Win) c).arrAt w cfg6.N = atTc Wout c (Pipeline.arrRef spec6 w))
    (hrest : ∀ c, ∀ b, b ∉ Finset.univ.image (Pipeline.arrRef spec6) → atTc Wout c b = atTc Win c b) :
    Pipeline.RegionSeg (pcfgs (F := F)) adm pdats () defs₀ 𝒱₀ L lv 6 where
  win := launch6.win.to₀
  block_pos := launch6.block_pos
  stage_whole := launch6.stage_whole
  K := PEmpty
  osem k := k.elim
  ho := Pipeline.OwnSemFacts.none _
  hbody c := by rw [hK c]; exact (body_obligation6 (atTc Win) c).loose
  hwaits := Pipeline.hwaits_of_owed_zero _ _ _ _ L lv 6 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec6 c (atTc Win c)
  hentry c := by
    rw [Pipeline.ownSems0_none]
    have hsplit := Pipeline.arrays_of_unscopedBufs (p := 6) (pcfgs (F := F)) adm pdats launch6.win launch6.arr_whole c
      (by rw [hK c]; exact (dat6 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 6 c).Φ 0 = Pipeline.ΦA spec6 c from by rw [hK c]; rfl]; unfold Pipeline.ΦA
    iintro ⟨Hp, -, Hr⟩
    isplitl [Hr]; · iexact Hr
    iexact Hp
  hout c := by
    rw [Pipeline.ownSems0_none, show (pdats 6 c).Φ (Fin.last _) = Pipeline.ΦA spec6 c from by rw [hK c]; rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c pdats (by rw [hK c]; exact (dat6 (atTc Win) c).share_full fun _ => rfl)
      (atTc Win c) (atTc Wout c) ((pdats 6 c).arrAt · cfg6.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.KernelIdeal.Hand

end
-- ==== Proof.KI.Region7.lean ====
/-
  Region 7: h0 = max(Â·t3 + b0, 0) over a 4 × 4 grid (row tile p, contraction block q), Â the normalised adjacency; rounded to bf16.
  The contraction over 4096 is accumulated in four blocks of 1024 along the second grid axis, in a scratch the kernel
  keeps between grid points. At the first block of a row tile the body zeroes the scratch and adds the block's
  product; at the two middle blocks it adds the block's product to what the point before left; at the last block it
  does the same and then reads the scratch out, plus the bias row, into the output tile, which is written back only
  there. This file: each window's tile at a point, the body's run in each of the three cases (the witness of a run is
  the list of pieces its stores leave), what the scratch and the output tile hold after each point (a recursion over
  the points), the region's invariant (the scratch at what the point before left), its proof data at any entry
  contents `V`, and the body obligation.
-/
import proofs.«107088_j31018253811971_1_alg».proof.Proof.Gen.KernelIdeal.Launch
import proofs.«107088_j31018253811971_1_alg».proof.Proof.Gen.KernelIdeal.Skeleton
import proofs.«107088_j31018253811971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its tile at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its tile at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its tile at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditions -/

/-- "This is the first block of the contraction": the body's first `if`, from the grid coordinates. -/
abbrev cond7_0 (i : grid7.Coords) : Prop := (Scalar.cmpi .ne (Scalar.extui (Scalar.cmpi .eq (BitVec.ofNat 32 (i 1).val) 0#32)) 0#32) = 1#1
/-- It holds at the points ≡ 0 (mod 4). -/
theorem hcond7_0 : ∀ t : Fin cfg7.N, cond7_0 (grid7.coords t) ↔ t.val % 4 = 0 :=
  (by decide +kernel : ∀ t : Fin grid7.N, cond7_0 (grid7.coords t) ↔ t.val % 4 = 0)
/-- "This is the last block of the contraction": the body's second `if`. -/
abbrev cond7_1 (i : grid7.Coords) : Prop := k7_cond2 i = 1#1
/-- It holds at the points ≡ 3 (mod 4). -/
theorem hcond7_1 : ∀ t : Fin cfg7.N, cond7_1 (grid7.coords t) ↔ t.val % 4 = 3 :=
  (by decide +kernel : ∀ t : Fin grid7.N, cond7_1 (grid7.coords t) ↔ t.val % 4 = 3)
/-- The inputs are never idle; the output tile is idle, and not written back, except at a last block. -/
theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem idleAt7_3 : ∀ t : Fin cfg7.N, ¬cond7_1 (grid7.coords t) → cfg7.idle 3 (grid7.coords t) = true := by decide +kernel
theorem noFlush7_3 : ∀ t : Fin cfg7.N, ¬cond7_1 (grid7.coords t) → (cfg7.win 3).flush t = false := by decide +kernel
theorem liveAt7_3 : ∀ t : Fin cfg7.N, cond7_1 (grid7.coords t) → cfg7.idle 3 (grid7.coords t) = false := by decide +kernel

/-! ## The staging memrefs and the scratch, as the pipeline passes them -/

abbrev VO7_3 : View sig .tc .vmem S1024x256 .bf16 := (Memref.whole cc7_stg3_0 : Memref sig .tc .vmem S1024x256 .bf16).view
abbrev ms7_0 (t : Fin cfg7.N) : Memref sig .tc .vmem S1024x1024 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x256 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x256 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1024x256 .bf16 := win7_3.stage (cfg7.slots t 3)
abbrev hs7_3 (t : Fin cfg7.N) : (ms7_3 t).IsWhole := hstage7_3 ((cfg7.slots t 3).cast nbuf7_3)
/-- The accumulator: a whole scoped buffer of the kernel's own, passed beside the windows, and its view. -/
abbrev scM7 : Memref sig .tc .vmem S1024x256 .f32 := Memref.whole cc7_scratch0
abbrev VS7 : View sig .tc .vmem S1024x256 .f32 := scM7.view

/-- The invariant before the first point, with the accumulator split out as a memref owned at some contents. -/
theorem PhiA7_eq (c : Dev nD) :
    (Pipeline.ΦA spec7 c : sProp 𝕄)
      = iprop(iprop(iprop((∃ d, owns (c : Thread nD τ) scM7 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7, owns_whole]; rfl

/-! ## The body's run, case by case -/

set_option maxHeartbeats 4000000 in
/-- FIRST BLOCK: the pieces the stores leave in the accumulator, with the proof that on whole memrefs — the two matrix
    tiles at `x0 x1`, the accumulator at anything — the body runs to the continuation with those pieces written. The
    bias and the output tile are not touched. -/
noncomputable def kernelRun7_A (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole)
    (hc0 : cond7_0 i) (hc1 : ¬cond7_1 i) (x0 : Vec F S1024x1024 .bf16) (x1 : Vec F S1024x256 .bf16) :
    { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc7__gemm_kernel i arg2 harg2 arg3 harg3 arg4 harg4 arg5 harg5 arg6 harg6) Kc } := by
  refine ⟨?_, fun E Kc => ?run⟩
  case run =>
    simp only [cc7__gemm_kernel_eq_skeleton]; unfold cc7__gemm_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- MIDDLE BLOCK: the same with the accumulator entered at `xs`, what the point before left. -/
noncomputable def kernelRun7_B (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole)
    (hc0 : ¬cond7_0 i) (hc1 : ¬cond7_1 i) (x0 : Vec F S1024x1024 .bf16) (x1 : Vec F S1024x256 .bf16) (xs : Vec F S1024x256 .f32) :
    { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc7__gemm_kernel i arg2 harg2 arg3 harg3 arg4 harg4 arg5 harg5 arg6 harg6) Kc } := by
  refine ⟨?_, fun E Kc => ?run⟩
  case run =>
    simp only [cc7__gemm_kernel_eq_skeleton]; unfold cc7__gemm_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- LAST BLOCK: the pieces left in the output tile (`.1`) and in the accumulator (`.2.1`); the bias row at `x2`, the
    output tile entered at anything, the accumulator at `xs`. -/
noncomputable def kernelRun7_C (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole)
    (hc0 : ¬cond7_0 i) (hc1 : cond7_1 i) (x0 : Vec F S1024x1024 .bf16) (x1 : Vec F S1024x256 .bf16) (x2 : Vec F S1x256 .f32) (xs : Vec F S1024x256 .f32) :
    Σ' (L3 : List (View.Piece (Elt F) S1024x256 .bf16)), { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc7__gemm_kernel i arg2 harg2 arg3 harg3 arg4 harg4 arg5 harg5 arg6 harg6) Kc } := by
  refine ⟨?_, ?_, fun E Kc => ?run⟩
  case run =>
    simp only [cc7__gemm_kernel_eq_skeleton]; unfold cc7__gemm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves -/

theorem scover7_A (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond7_0 i) (hc1 : ¬cond7_1 i) (x0 : Vec F S1024x1024 .bf16) (x1 : Vec F S1024x256 .bf16) (y : S1024x256.Idx) :
    ∃ pc ∈ (kernelRun7_A c i arg2 harg2 arg3 harg3 arg4 harg4 arg5 harg5 arg6 harg6 hc0 hc1 x0 x1).1, y ∈ pc.1.set :=
  View.cover_of_tiledL (kernelRun7_A c i arg2 harg2 arg3 harg3 arg4 harg4 arg5 harg5 arg6 harg6 hc0 hc1 x0 x1).1 S1024x256.size (by sl_kernel_rfl) y
/-- The accumulator after a first block. -/
def sout7_A (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond7_0 i) (hc1 : ¬cond7_1 i) (x0 : Vec F S1024x1024 .bf16) (x1 : Vec F S1024x256 .bf16) : Vec F S1024x256 .f32 :=
  VS7.read (Elt F) (VS7.writes (Elt F) VS7.junk (kernelRun7_A c i arg2 harg2 arg3 harg3 arg4 harg4 arg5 harg5 arg6 harg6 hc0 hc1 x0 x1).1)

theorem scover7_B (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond7_0 i) (hc1 : ¬cond7_1 i) (x0 : Vec F S1024x1024 .bf16) (x1 : Vec F S1024x256 .bf16) (xs : Vec F S1024x256 .f32) (y : S1024x256.Idx) :
    ∃ pc ∈ (kernelRun7_B c i arg2 harg2 arg3 harg3 arg4 harg4 arg5 harg5 arg6 harg6 hc0 hc1 x0 x1 xs).1, y ∈ pc.1.set :=
  View.cover_of_tiledL (kernelRun7_B c i arg2 harg2 arg3 harg3 arg4 harg4 arg5 harg5 arg6 harg6 hc0 hc1 x0 x1 xs).1 S1024x256.size (by sl_kernel_rfl) y
/-- The accumulator after a middle block. -/
def sout7_B (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond7_0 i) (hc1 : ¬cond7_1 i) (x0 : Vec F S1024x1024 .bf16) (x1 : Vec F S1024x256 .bf16) (xs : Vec F S1024x256 .f32) : Vec F S1024x256 .f32 :=
  VS7.read (Elt F) (VS7.writes (Elt F) VS7.junk (kernelRun7_B c i arg2 harg2 arg3 harg3 arg4 harg4 arg5 harg5 arg6 harg6 hc0 hc1 x0 x1 xs).1)

theorem scover7_C (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond7_0 i) (hc1 : cond7_1 i) (x0 : Vec F S1024x1024 .bf16) (x1 : Vec F S1024x256 .bf16) (x2 : Vec F S1x256 .f32) (xs : Vec F S1024x256 .f32) (y : S1024x256.Idx) :
    ∃ pc ∈ (kernelRun7_C c i arg2 harg2 arg3 harg3 arg4 harg4 arg5 harg5 arg6 harg6 hc0 hc1 x0 x1 x2 xs).2.1, y ∈ pc.1.set :=
  View.cover_of_tiledL (kernelRun7_C c i arg2 harg2 arg3 harg3 arg4 harg4 arg5 harg5 arg6 harg6 hc0 hc1 x0 x1 x2 xs).2.1 S1024x256.size (by sl_kernel_rfl) y
/-- The accumulator after a last block. -/
def sout7_C (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond7_0 i) (hc1 : cond7_1 i) (x0 : Vec F S1024x1024 .bf16) (x1 : Vec F S1024x256 .bf16) (x2 : Vec F S1x256 .f32) (xs : Vec F S1024x256 .f32) : Vec F S1024x256 .f32 :=
  VS7.read (Elt F) (VS7.writes (Elt F) VS7.junk (kernelRun7_C c i arg2 harg2 arg3 harg3 arg4 harg4 arg5 harg5 arg6 harg6 hc0 hc1 x0 x1 x2 xs).2.1)
theorem cover7_C (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond7_0 i) (hc1 : cond7_1 i) (x0 : Vec F S1024x1024 .bf16) (x1 : Vec F S1024x256 .bf16) (x2 : Vec F S1x256 .f32) (xs : Vec F S1024x256 .f32) (y : S1024x256.Idx) :
    ∃ pc ∈ (kernelRun7_C c i arg2 harg2 arg3 harg3 arg4 harg4 arg5 harg5 arg6 harg6 hc0 hc1 x0 x1 x2 xs).1, y ∈ pc.1.set :=
  View.cover_of_tiledL (kernelRun7_C c i arg2 harg2 arg3 harg3 arg4 harg4 arg5 harg5 arg6 harg6 hc0 hc1 x0 x1 x2 xs).1 S1024x256.size (by sl_kernel_rfl) y
/-- The output tile after a last block. -/
def out7_C (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond7_0 i) (hc1 : cond7_1 i) (x0 : Vec F S1024x1024 .bf16) (x1 : Vec F S1024x256 .bf16) (x2 : Vec F S1x256 .f32) (xs : Vec F S1024x256 .f32) : Vec F S1024x256 .bf16 :=
  VO7_3.read (Elt F) (VO7_3.writes (Elt F) VO7_3.junk (kernelRun7_C c i arg2 harg2 arg3 harg3 arg4 harg4 arg5 harg5 arg6 harg6 hc0 hc1 x0 x1 x2 xs).1)

/-! ## What the accumulator and the output tile hold after each point -/

/-- THE ACCUMULATION: the accumulator after the body at position `n` — after a first block what that block leaves,
    otherwise what this block leaves over what position `n - 1` left. -/
def accAt7 (c : Dev nD) : (n : ℕ) → n < cfg7.N → Vec F S1024x256 .f32
  | 0, hn => sout7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7 (Memref.isWhole_whole _)
      ((hcond7_0 ⟨0, hn⟩).mpr (Nat.zero_mod _)) (fun h => by have h3 := (hcond7_1 ⟨0, hn⟩).mp h; (try dsimp only at h3); omega) (iblk7 V c 0 ⟨0, hn⟩) (iblk7 V c 1 ⟨0, hn⟩)
  | n + 1, hn =>
    if h0 : (n + 1) % 4 = 0 then
      sout7_A c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7 (Memref.isWhole_whole _)
        ((hcond7_0 ⟨n + 1, hn⟩).mpr h0) (fun h => by have h3 := (hcond7_1 ⟨n + 1, hn⟩).mp h; (try dsimp only at h3); omega) (iblk7 V c 0 ⟨n + 1, hn⟩) (iblk7 V c 1 ⟨n + 1, hn⟩)
    else if h1 : (n + 1) % 4 = 3 then
      sout7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7 (Memref.isWhole_whole _)
        (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (accAt7 c n (Nat.lt_of_succ_lt hn))
    else
      sout7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7 (Memref.isWhole_whole _)
        (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (accAt7 c n (Nat.lt_of_succ_lt hn))

theorem accAt7_A (c : Dev nD) (t : Fin cfg7.N) (h0 : t.val % 4 = 0) (h1 : ¬t.val % 4 = 3) :
    accAt7 V c t.val t.isLt = sout7_A c (grid7.coords t) (ms7_0 t) (hs7_0 t) (ms7_1 t) (hs7_1 t) (ms7_2 t) (hs7_2 t) (ms7_3 t) (hs7_3 t) scM7 (Memref.isWhole_whole _)
      ((hcond7_0 t).mpr h0) (fun h => h1 ((hcond7_1 t).mp h)) (iblk7 V c 0 t) (iblk7 V c 1 t) := by
  obtain ⟨n, hn⟩ := t
  cases n with
  | zero => exact rfl
  | succ n => exact (dif_pos h0).trans rfl

theorem accAt7_B (c : Dev nD) (t : Fin cfg7.N) (h0 : ¬t.val % 4 = 0) (h1 : ¬t.val % 4 = 3) :
    accAt7 V c t.val t.isLt = sout7_B c (grid7.coords t) (ms7_0 t) (hs7_0 t) (ms7_1 t) (hs7_1 t) (ms7_2 t) (hs7_2 t) (ms7_3 t) (hs7_3 t) scM7 (Memref.isWhole_whole _)
      (fun h => h0 ((hcond7_0 t).mp h)) (fun h => h1 ((hcond7_1 t).mp h)) (iblk7 V c 0 t) (iblk7 V c 1 t)
      (accAt7 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt7_C (c : Dev nD) (t : Fin cfg7.N) (h0 : ¬t.val % 4 = 0) (h1 : t.val % 4 = 3) :
    accAt7 V c t.val t.isLt = sout7_C c (grid7.coords t) (ms7_0 t) (hs7_0 t) (ms7_1 t) (hs7_1 t) (ms7_2 t) (hs7_2 t) (ms7_3 t) (hs7_3 t) scM7 (Memref.isWhole_whole _)
      (fun h => h0 ((hcond7_0 t).mp h)) ((hcond7_1 t).mpr h1) (iblk7 V c 0 t) (iblk7 V c 1 t) (iblk7 V c 2 t)
      (accAt7 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output tile after the body at point `t`: at a last block what that case stores over what the point before left in
    the accumulator; elsewhere the body stores nothing into it and the tile is not written back: a placeholder. -/
def outAt7 (c : Dev nD) (t : Fin cfg7.N) : Vec F S1024x256 .bf16 :=
  if h1 : t.val % 4 = 3 then
    out7_C c (grid7.coords t) (ms7_0 t) (hs7_0 t) (ms7_1 t) (hs7_1 t) (ms7_2 t) (hs7_2 t) (ms7_3 t) (hs7_3 t) scM7 (Memref.isWhole_whole _)
      (fun h => by have h3 := (hcond7_0 t).mp h; omega) ((hcond7_1 t).mpr h1) (iblk7 V c 0 t) (iblk7 V c 1 t) (iblk7 V c 2 t)
      (accAt7 V c (t.val - 1) (Nat.lt_of_le_of_lt (Nat.sub_le _ _) t.isLt))
  else VO7_3.read (Elt F) VO7_3.junk

/-! ## The region's invariant and proof data -/

/-- The invariant before position `n`: before the first point the scoped rest with the accumulator at anything;
    afterwards the accumulator at what the point before left, the rest of the scoped buffers, and the generator register. -/
def PhiS7 (c : Dev nD) : (n : ℕ) → n ≤ cfg7.N → sProp 𝕄
  | 0, _ => Pipeline.ΦA spec7 c
  | n + 1, hn => iprop(iprop(owns (c : Thread nD τ) scM7 fullShare (accAt7 V c n hn)
      ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl
theorem PhiS7_succ (c : Dev nD) (n : ℕ) (hn : n < cfg7.N) :
    PhiS7 V c (n + 1) hn = iprop(iprop(owns (c : Thread nD τ) scM7 fullShare (accAt7 V c n hn)
      ∗ Pipeline.scopedRestBut (Ix := Unit) (Name := ℕ) (U := UR sig nD τ) (Lvl := ℕ) (Val := Elt F) spec7 c [cc7_scratch0]) ∗ (∃ r, prngReg c r)) := rfl
theorem PhiS7_pos (c : Dev nD) (n : ℕ) (h : n ≤ cfg7.N) (hz : n ≠ 0) :
    PhiS7 V c n h = iprop(iprop(owns (c : Thread nD τ) scM7 fullShare (accAt7 V c (n - 1) (by omega))
      ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-- The proof data on core `c`: the arrays as the region finds them; after the body at point `t` each input's buffer
    at its tile and the output's at `outAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => outAt7 V c t
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem PhiS7_castSucc (c : Dev nD) (t : Fin cfg7.N) :
    (dat7 V c).Φ t.castSucc = PhiS7 V c t.val (Nat.le_of_lt t.isLt) := by
  dsimp only [dat7]; simp only [Fin.coe_castSucc]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = outAt7 V c t := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 8000000 in
/-- The body at any point: the inputs' memrefs hold their tiles; the position modulo 4 says which case the point is
    in; the invariant lends the accumulator at what the point before left (at anything before the first point) and
    takes it back at this point's contents; at a last block the output tile is left at that case's contents, elsewhere
    it is handed back untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
      unfold Dat.leavesExact; rw [liveAt7_0 t], after7_0,
    show (dat7 V c).leavesExact 1 t = owns (c : Thread nD τ) (ms7_1 t) fullShare ((dat7 V c).after 1 t) from by
      unfold Dat.leavesExact; rw [liveAt7_1 t], after7_1,
    show (dat7 V c).leavesExact 2 t = owns (c : Thread nD τ) (ms7_2 t) fullShare ((dat7 V c).after 2 t) from by
      unfold Dat.leavesExact; rw [liveAt7_2 t], after7_2]
  have hN : t.val < 16 := lt_of_lt_of_eq t.isLt (show cfg7.N = 16 from N_7)
  by_cases h0 : t.val % 4 = 0
  · -- a first block
    have h1 : ¬t.val % 4 = 3 := by omega
    rw [Dat.leavesExact_idle (dat7 V c) 3 t (idleAt7_3 t (fun h => h1 ((hcond7_1 t).mp h))) (noFlush7_3 t (fun h => h1 ((hcond7_1 t).mp h)))]
    rw [accAt7_A V c t h0 h1]
    unfold sout7_A
    by_cases hz : t.val = 0
    · rw [PhiS7_castSucc V c t, PhiS7_zero V c _ _ hz, PhiA7_eq]
      iintro ⟨⟨⟨HS, Hbut⟩, Hg⟩, Ho, ⟨%d0, H0⟩, ⟨%d1, H1⟩, ⟨%d2, H2⟩, ⟨%d3, H3⟩⟩
      iapply ((kernelRun7_A c (grid7.coords t) _ _ _ _ _ _ _ _ _ _ ((hcond7_0 t).mpr h0) (fun h => h1 ((hcond7_1 t).mp h)) (iblk7 V c 0 t) (iblk7 V c 1 t)).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover7_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
    · rw [PhiS7_castSucc V c t, PhiS7_pos V c _ _ hz]
      iintro ⟨⟨⟨HS, Hbut⟩, Hg⟩, Ho, ⟨%d0, H0⟩, ⟨%d1, H1⟩, ⟨%d2, H2⟩, ⟨%d3, H3⟩⟩
      iapply ((kernelRun7_A c (grid7.coords t) _ _ _ _ _ _ _ _ _ _ ((hcond7_0 t).mpr h0) (fun h => h1 ((hcond7_1 t).mp h)) (iblk7 V c 0 t) (iblk7 V c 1 t)).2 Set.univ _)
      isplitl [H0]; · iexact H0
      isplitl [H1]; · iexact H1
      isplitl [HS]; · iexists _; iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover7_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · -- a last block
      rw [show (dat7 V c).leavesExact 3 t = owns (c : Thread nD τ) (ms7_3 t) fullShare ((dat7 V c).after 3 t) from by
        unfold Dat.leavesExact; rw [liveAt7_3 t ((hcond7_1 t).mpr h1)], after7_3]
      rw [accAt7_C V c t h0 h1]
      unfold sout7_C outAt7
      rw [dif_pos h1]
      unfold out7_C
      rw [PhiS7_castSucc V c t, PhiS7_pos V c _ _ hz]
      iintro ⟨⟨⟨HS, Hbut⟩, Hg⟩, Ho, ⟨%d0, H0⟩, ⟨%d1, H1⟩, ⟨%d2, H2⟩, ⟨%d3, H3⟩⟩
      iapply ((kernelRun7_C c (grid7.coords t) _ _ _ _ _ _ _ _ _ _ (fun h => h0 ((hcond7_0 t).mp h)) ((hcond7_1 t).mpr h1) (iblk7 V c 0 t) (iblk7 V c 1 t) (iblk7 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hbut Hg]
      · isplitl [HS Hbut]
        · isplitl [HS]
          · unfold owns; iexists _; isplitr
            swap; · iexact HS
            ipureintro; exact View.read_writes_of_cover _ _ _ _ _ (scover7_C c _ _ _ _ _ _ _ _ _ _ _ _ _ _ _ _ _)
          iexact Hbut
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover7_C c _ _ _ _ _ _ _ _ _ _ _ _ _ _ _ _ _)
    · -- a middle block
      rw [Dat.leavesExact_idle (dat7 V c) 3 t (idleAt7_3 t (fun h => h1 ((hcond7_1 t).mp h))) (noFlush7_3 t (fun h => h1 ((hcond7_1 t).mp h)))]
      rw [accAt7_B V c t h0 h1]
      unfold sout7_B
      rw [PhiS7_castSucc V c t, PhiS7_pos V c _ _ hz]
      iintro ⟨⟨⟨HS, Hbut⟩, Hg⟩, Ho, ⟨%d0, H0⟩, ⟨%d1, H1⟩, ⟨%d2, H2⟩, ⟨%d3, H3⟩⟩
      iapply ((kernelRun7_B c (grid7.coords t) _ _ _ _ _ _ _ _ _ _ (fun h => h0 ((hcond7_0 t).mp h)) (fun h => h1 ((hcond7_1 t).mp h)) (iblk7 V c 0 t) (iblk7 V c 1 t) _).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover7_B c _ _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After the last point the invariant gives the scoped rest back: what the accumulator holds is forgotten. -/
theorem hout7 (c : Dev nD) : (dat7 V c).Φ (Fin.last cfg7.N) ⊢ Pipeline.ΦA spec7 c := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 16 := N_7; omega), PhiA7_eq]
  iintro ⟨⟨HS, Hbut⟩, Hg⟩
  isplitl [HS Hbut]
  · isplitl [HS]; · iexists _; iexact HS
    iexact Hbut
  iexact Hg

end Cert.KernelIdeal.Hand

end
-- ==== Proof.KI.Seg7.lean ====
/-
  Region 7 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.KI.Region7
import proofs.«107088_j31018253811971_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg7 (hK : ∀ c, pdats 7 c = dat7 (atTc Win) c)
    (hF : ∀ c (w : Fin cfg7.W), (dat7 (atTc Win) c).arrAt w cfg7.N = atTc Wout c (Pipeline.arrRef spec7 w))
    (hrest : ∀ c, ∀ b, b ∉ Finset.univ.image (Pipeline.arrRef spec7) → atTc Wout c b = atTc Win c b) :
    Pipeline.RegionSeg (pcfgs (F := F)) adm pdats () defs₀ 𝒱₀ L lv 7 where
  win := launch7.win.to₀
  block_pos := launch7.block_pos
  stage_whole := launch7.stage_whole
  K := PEmpty
  osem k := k.elim
  ho := Pipeline.OwnSemFacts.none _
  hbody c := by rw [hK c]; exact (body_obligation7 (atTc Win) c).loose
  hwaits := Pipeline.hwaits_of_owed_zero _ _ _ _ L lv 7 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec7 c (atTc Win c)
  hentry c := by
    rw [Pipeline.ownSems0_none]
    have hsplit := Pipeline.arrays_of_unscopedBufs (p := 7) (pcfgs (F := F)) adm pdats launch7.win launch7.arr_whole c
      (by rw [hK c]; exact (dat7 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hK c]
    have h := hin7 (atTc Win) c
    unfold Pipeline.ΦA at h
    iintro ⟨Hp, -, Hr⟩
    iapply h
    isplitl [Hr]; · iexact Hr
    iexact Hp
  hout c := by
    rw [Pipeline.ownSems0_none, hK c]
    have h := hout7 (atTc Win) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c pdats (by rw [hK c]; exact (dat7 (atTc Win) c).share_full fun _ => rfl)
      (atTc Win c) (atTc Wout c) ((pdats 7 c).arrAt · cfg7.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.KernelIdeal.Hand

end
-- ==== Proof.KI.Region8.lean ====
/-
  Region 8: t4 = h0·W1, row tiles of 1024 over a 4 × 1 grid: tile p of the result is (rows of h0 in tile p)·W1, rounded to bf16.
  The contraction is one block long, so at every grid point the body zeroes its accumulator (the scratch), adds the
  product of the point's two tiles into it, and reads it out, plus the bias row, into the output tile: both of the
  body's conditions (first block, last block) hold at every point. The scratch is therefore dead between points and
  the region's invariant keeps it at unnamed contents. This file: each window's tile at a point, the body's run
  (whose witness is the list of pieces the stores leave in the output tile and in the scratch), what the output tile
  holds after the body as a function of the three input tiles, the region's proof data at any entry contents `V`,
  and the body obligation.
-/
import proofs.«107088_j31018253811971_1_alg».proof.Proof.Gen.KernelIdeal.Launch
import proofs.«107088_j31018253811971_1_alg».proof.Proof.Gen.KernelIdeal.Skeleton
import proofs.«107088_j31018253811971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its tile at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its tile at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its tile at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's two conditions -/

/-- "This is the first block of the contraction": the body's first `if`, from the grid coordinates. -/
abbrev cond8_0 (i : grid8.Coords) : Prop := (Scalar.cmpi .ne (Scalar.extui (Scalar.cmpi .eq (BitVec.ofNat 32 (i 1).val) 0#32)) 0#32) = 1#1
/-- It holds at every point: the contraction axis of the grid has one position. -/
theorem hcond8_0 : ∀ t : Fin cfg8.N, cond8_0 (grid8.coords t) :=
  (by decide +kernel : ∀ t : Fin grid8.N, cond8_0 (grid8.coords t))
/-- "This is the last block of the contraction": the body's second `if`. -/
abbrev cond8_1 (i : grid8.Coords) : Prop := k8_cond2 i = 1#1
/-- It holds at every point too. -/
theorem hcond8_1 : ∀ t : Fin cfg8.N, cond8_1 (grid8.coords t) :=
  (by decide +kernel : ∀ t : Fin grid8.N, cond8_1 (grid8.coords t))
/-- No window is idle at any point. -/
theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
theorem liveAt8_3 : ∀ t : Fin cfg8.N, cfg8.idle 3 (grid8.coords t) = false := by decide +kernel

/-! ## The staging memrefs and the scratch, as the pipeline passes them -/

abbrev VO8_3 : View sig .tc .vmem S1024x256 .bf16 := (Memref.whole cc8_stg3_0 : Memref sig .tc .vmem S1024x256 .bf16).view
abbrev ms8_0 (t : Fin cfg8.N) : Memref sig .tc .vmem S1024x256 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S256x256 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x256 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1024x256 .bf16 := win8_3.stage (cfg8.slots t 3)
abbrev hs8_3 (t : Fin cfg8.N) : (ms8_3 t).IsWhole := hstage8_3 ((cfg8.slots t 3).cast nbuf8_3)
/-- The accumulator: a whole scoped buffer of the kernel's own, passed beside the windows. -/
abbrev scM8 : Memref sig .tc .vmem S1024x256 .f32 := Memref.whole cc8_scratch0

/-- The region's invariant with the accumulator split out as a memref owned at some contents. -/
theorem PhiA8_eq (c : Dev nD) :
    (Pipeline.ΦA spec8 c : sProp 𝕄)
      = iprop(iprop(iprop((∃ d, owns (c : Thread nD τ) scM8 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; rfl

/-! ## The body's run -/

set_option maxHeartbeats 4000000 in
/-- The pieces the body's stores leave in the output tile (`.1`) and in the accumulator (`.2.1`), last first, WITH the
    proof that on whole memrefs — the three inputs' at contents `x0 x1 x2`, the output's and the accumulator's at
    anything — the body runs to the continuation holding the inputs' as they were and those pieces written. -/
noncomputable def kernelRun8 (c : Dev nD) (i : grid8.Coords)
    (arg2 : Memref sig .tc .vmem S1024x256 .bf16) (harg2 : arg2.IsWhole) (arg3 : Memref sig .tc .vmem S256x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond8_0 i) (hc1 : cond8_1 i)
    (x0 : Vec F S1024x256 .bf16) (x1 : Vec F S256x256 .f32) (x2 : Vec F S1x256 .f32) :
    Σ' (L3 : List (View.Piece (Elt F) S1024x256 .bf16)), { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc8__gemm_kernel i arg2 harg2 arg3 harg3 arg4 harg4 arg5 harg5 arg6 harg6) Kc } := by
  refine ⟨?_, ?_, fun E Kc => ?run⟩
  case run =>
    simp only [cc8__gemm_kernel_eq_skeleton]; unfold cc8__gemm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-- The output tile's pieces tile it. -/
theorem cover8_3 (c : Dev nD) (i : grid8.Coords)
    (arg2 : Memref sig .tc .vmem S1024x256 .bf16) (harg2 : arg2.IsWhole) (arg3 : Memref sig .tc .vmem S256x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond8_0 i) (hc1 : cond8_1 i)
    (x0 : Vec F S1024x256 .bf16) (x1 : Vec F S256x256 .f32) (x2 : Vec F S1x256 .f32) (y : S1024x256.Idx) :
    ∃ pc ∈ (kernelRun8 c i arg2 harg2 arg3 harg3 arg4 harg4 arg5 harg5 arg6 harg6 hc0 hc1 x0 x1 x2).1, y ∈ pc.1.set :=
  View.cover_of_tiledL (kernelRun8 c i arg2 harg2 arg3 harg3 arg4 harg4 arg5 harg5 arg6 harg6 hc0 hc1 x0 x1 x2).1 S1024x256.size (by sl_kernel_rfl) y

/-- What the body leaves in the output tile: its pieces read back. -/
def out8_3 (c : Dev nD) (i : grid8.Coords)
    (arg2 : Memref sig .tc .vmem S1024x256 .bf16) (harg2 : arg2.IsWhole) (arg3 : Memref sig .tc .vmem S256x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond8_0 i) (hc1 : cond8_1 i)
    (x0 : Vec F S1024x256 .bf16) (x1 : Vec F S256x256 .f32) (x2 : Vec F S1x256 .f32) : Vec F S1024x256 .bf16 :=
  VO8_3.read (Elt F) (VO8_3.writes (Elt F) VO8_3.junk (kernelRun8 c i arg2 harg2 arg3 harg3 arg4 harg4 arg5 harg5 arg6 harg6 hc0 hc1 x0 x1 x2).1)

/-- The output tile after the body at point `t`. -/
def outAt8 (c : Dev nD) (t : Fin cfg8.N) : Vec F S1024x256 .bf16 :=
  out8_3 c (grid8.coords t) (ms8_0 t) (hs8_0 t) (ms8_1 t) (hs8_1 t) (ms8_2 t) (hs8_2 t) (ms8_3 t) (hs8_3 t) scM8 (Memref.isWhole_whole _)
    (hcond8_0 t) (hcond8_1 t) (iblk8 V c 0 t) (iblk8 V c 1 t) (iblk8 V c 2 t)

/-! ## The region's proof data -/

/-- The proof data on core `c`: the arrays as the region finds them; after the body at point `t` each input's buffer
    at its tile and the output's at `outAt8`; the invariant the scoped rest (the accumulator among it, at anything) and
    the generator register; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => outAt8 V c t
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = outAt8 V c t := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

set_option maxHeartbeats 4000000 in
/-- The body at any point: the inputs' memrefs hold their tiles, the invariant lends the accumulator at whatever it
    holds, the run applies, and the accumulator goes back into the invariant at whatever the body left. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl]
  rw [show (dat8 V c).leavesExact 0 t = owns (c : Thread nD τ) (ms8_0 t) fullShare ((dat8 V c).after 0 t) from by
      unfold Dat.leavesExact; rw [liveAt8_0 t], after8_0,
    show (dat8 V c).leavesExact 1 t = owns (c : Thread nD τ) (ms8_1 t) fullShare ((dat8 V c).after 1 t) from by
      unfold Dat.leavesExact; rw [liveAt8_1 t], after8_1,
    show (dat8 V c).leavesExact 2 t = owns (c : Thread nD τ) (ms8_2 t) fullShare ((dat8 V c).after 2 t) from by
      unfold Dat.leavesExact; rw [liveAt8_2 t], after8_2,
    show (dat8 V c).leavesExact 3 t = owns (c : Thread nD τ) (ms8_3 t) fullShare ((dat8 V c).after 3 t) from by
      unfold Dat.leavesExact; rw [liveAt8_3 t], after8_3]
  rw [show (dat8 V c).Φ t.castSucc = Pipeline.ΦA spec8 c from rfl, PhiA8_eq]
  unfold outAt8 out8_3
  iintro ⟨⟨⟨HS, Hbut⟩, Hg⟩, Ho, ⟨%d0, H0⟩, ⟨%d1, H1⟩, ⟨%d2, H2⟩, ⟨%d3, H3⟩⟩
  iapply ((kernelRun8 c (grid8.coords t) _ _ _ _ _ _ _ _ _ _ (hcond8_0 t) (hcond8_1 t) (iblk8 V c 0 t) (iblk8 V c 1 t) (iblk8 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hbut Hg]
  · isplitl [HS Hbut]
    · isplitl [HS]
      · unfold owns; iexists _; iexists _; isplitr
        swap; · iexact HS
        ipureintro; rfl
      iexact Hbut
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover8_3 c _ _ _ _ _ _ _ _ _ _ _ _ _ _ _ _)

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Seg8.lean ====
/-
  Region 8 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.KI.Region8
import proofs.«107088_j31018253811971_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg8 (hK : ∀ c, pdats 8 c = dat8 (atTc Win) c)
    (hF : ∀ c (w : Fin cfg8.W), (dat8 (atTc Win) c).arrAt w cfg8.N = atTc Wout c (Pipeline.arrRef spec8 w))
    (hrest : ∀ c, ∀ b, b ∉ Finset.univ.image (Pipeline.arrRef spec8) → atTc Wout c b = atTc Win c b) :
    Pipeline.RegionSeg (pcfgs (F := F)) adm pdats () defs₀ 𝒱₀ L lv 8 where
  win := launch8.win.to₀
  block_pos := launch8.block_pos
  stage_whole := launch8.stage_whole
  K := PEmpty
  osem k := k.elim
  ho := Pipeline.OwnSemFacts.none _
  hbody c := by rw [hK c]; exact (body_obligation8 (atTc Win) c).loose
  hwaits := Pipeline.hwaits_of_owed_zero _ _ _ _ L lv 8 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec8 c (atTc Win c)
  hentry c := by
    rw [Pipeline.ownSems0_none]
    have hsplit := Pipeline.arrays_of_unscopedBufs (p := 8) (pcfgs (F := F)) adm pdats launch8.win launch8.arr_whole c
      (by rw [hK c]; exact (dat8 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 8 c).Φ 0 = Pipeline.ΦA spec8 c from by rw [hK c]; rfl]; unfold Pipeline.ΦA
    iintro ⟨Hp, -, Hr⟩
    isplitl [Hr]; · iexact Hr
    iexact Hp
  hout c := by
    rw [Pipeline.ownSems0_none, show (pdats 8 c).Φ (Fin.last _) = Pipeline.ΦA spec8 c from by rw [hK c]; rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c pdats (by rw [hK c]; exact (dat8 (atTc Win) c).share_full fun _ => rfl)
      (atTc Win c) (atTc Wout c) ((pdats 8 c).arrAt · cfg8.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.KernelIdeal.Hand

end
-- ==== Proof.KI.Region9.lean ====
/-
  Region 9: h1 = max(Â·t4 + b1, 0) over a 4 × 4 grid (row tile p, contraction block q), Â the normalised adjacency; rounded to bf16.
  The contraction over 4096 is accumulated in four blocks of 1024 along the second grid axis, in a scratch the kernel
  keeps between grid points. At the first block of a row tile the body zeroes the scratch and adds the block's
  product; at the two middle blocks it adds the block's product to what the point before left; at the last block it
  does the same and then reads the scratch out, plus the bias row, into the output tile, which is written back only
  there. This file: each window's tile at a point, the body's run in each of the three cases (the witness of a run is
  the list of pieces its stores leave), what the scratch and the output tile hold after each point (a recursion over
  the points), the region's invariant (the scratch at what the point before left), its proof data at any entry
  contents `V`, and the body obligation.
-/
import proofs.«107088_j31018253811971_1_alg».proof.Proof.Gen.KernelIdeal.Launch
import proofs.«107088_j31018253811971_1_alg».proof.Proof.Gen.KernelIdeal.Skeleton
import proofs.«107088_j31018253811971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its tile at every point, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- Input window 1's current staging buffer holds its tile at every point, fetched there or not. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- Input window 2's current staging buffer holds its tile at every point, fetched there or not. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's two conditions -/

/-- "This is the first block of the contraction": the body's first `if`, from the grid coordinates. -/
abbrev cond9_0 (i : grid9.Coords) : Prop := (Scalar.cmpi .ne (Scalar.extui (Scalar.cmpi .eq (BitVec.ofNat 32 (i 1).val) 0#32)) 0#32) = 1#1
/-- It holds at the points ≡ 0 (mod 4). -/
theorem hcond9_0 : ∀ t : Fin cfg9.N, cond9_0 (grid9.coords t) ↔ t.val % 4 = 0 :=
  (by decide +kernel : ∀ t : Fin grid9.N, cond9_0 (grid9.coords t) ↔ t.val % 4 = 0)
/-- "This is the last block of the contraction": the body's second `if`. -/
abbrev cond9_1 (i : grid9.Coords) : Prop := k9_cond2 i = 1#1
/-- It holds at the points ≡ 3 (mod 4). -/
theorem hcond9_1 : ∀ t : Fin cfg9.N, cond9_1 (grid9.coords t) ↔ t.val % 4 = 3 :=
  (by decide +kernel : ∀ t : Fin grid9.N, cond9_1 (grid9.coords t) ↔ t.val % 4 = 3)
/-- The inputs are never idle; the output tile is idle, and not written back, except at a last block. -/
theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
theorem idleAt9_3 : ∀ t : Fin cfg9.N, ¬cond9_1 (grid9.coords t) → cfg9.idle 3 (grid9.coords t) = true := by decide +kernel
theorem noFlush9_3 : ∀ t : Fin cfg9.N, ¬cond9_1 (grid9.coords t) → (cfg9.win 3).flush t = false := by decide +kernel
theorem liveAt9_3 : ∀ t : Fin cfg9.N, cond9_1 (grid9.coords t) → cfg9.idle 3 (grid9.coords t) = false := by decide +kernel

/-! ## The staging memrefs and the scratch, as the pipeline passes them -/

abbrev VO9_3 : View sig .tc .vmem S1024x256 .bf16 := (Memref.whole cc9_stg3_0 : Memref sig .tc .vmem S1024x256 .bf16).view
abbrev ms9_0 (t : Fin cfg9.N) : Memref sig .tc .vmem S1024x1024 .bf16 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1024x256 .bf16 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1x256 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1024x256 .bf16 := win9_3.stage (cfg9.slots t 3)
abbrev hs9_3 (t : Fin cfg9.N) : (ms9_3 t).IsWhole := hstage9_3 ((cfg9.slots t 3).cast nbuf9_3)
/-- The accumulator: a whole scoped buffer of the kernel's own, passed beside the windows, and its view. -/
abbrev scM9 : Memref sig .tc .vmem S1024x256 .f32 := Memref.whole cc9_scratch0
abbrev VS9 : View sig .tc .vmem S1024x256 .f32 := scM9.view

/-- The invariant before the first point, with the accumulator split out as a memref owned at some contents. -/
theorem PhiA9_eq (c : Dev nD) :
    (Pipeline.ΦA spec9 c : sProp 𝕄)
      = iprop(iprop(iprop((∃ d, owns (c : Thread nD τ) scM9 fullShare d))
          ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9, owns_whole]; rfl

/-! ## The body's run, case by case -/

set_option maxHeartbeats 4000000 in
/-- FIRST BLOCK: the pieces the stores leave in the accumulator, with the proof that on whole memrefs — the two matrix
    tiles at `x0 x1`, the accumulator at anything — the body runs to the continuation with those pieces written. The
    bias and the output tile are not touched. -/
noncomputable def kernelRun9_A (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole)
    (hc0 : cond9_0 i) (hc1 : ¬cond9_1 i) (x0 : Vec F S1024x1024 .bf16) (x1 : Vec F S1024x256 .bf16) :
    { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc9__gemm_kernel i arg2 harg2 arg3 harg3 arg4 harg4 arg5 harg5 arg6 harg6) Kc } := by
  refine ⟨?_, fun E Kc => ?run⟩
  case run =>
    simp only [cc9__gemm_kernel_eq_skeleton]; unfold cc9__gemm_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- MIDDLE BLOCK: the same with the accumulator entered at `xs`, what the point before left. -/
noncomputable def kernelRun9_B (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole)
    (hc0 : ¬cond9_0 i) (hc1 : ¬cond9_1 i) (x0 : Vec F S1024x1024 .bf16) (x1 : Vec F S1024x256 .bf16) (xs : Vec F S1024x256 .f32) :
    { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc9__gemm_kernel i arg2 harg2 arg3 harg3 arg4 harg4 arg5 harg5 arg6 harg6) Kc } := by
  refine ⟨?_, fun E Kc => ?run⟩
  case run =>
    simp only [cc9__gemm_kernel_eq_skeleton]; unfold cc9__gemm_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- LAST BLOCK: the pieces left in the output tile (`.1`) and in the accumulator (`.2.1`); the bias row at `x2`, the
    output tile entered at anything, the accumulator at `xs`. -/
noncomputable def kernelRun9_C (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole)
    (hc0 : ¬cond9_0 i) (hc1 : cond9_1 i) (x0 : Vec F S1024x1024 .bf16) (x1 : Vec F S1024x256 .bf16) (x2 : Vec F S1x256 .f32) (xs : Vec F S1024x256 .f32) :
    Σ' (L3 : List (View.Piece (Elt F) S1024x256 .bf16)), { LS : List (View.Piece (Elt F) S1024x256 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc9__gemm_kernel i arg2 harg2 arg3 harg3 arg4 harg4 arg5 harg5 arg6 harg6) Kc } := by
  refine ⟨?_, ?_, fun E Kc => ?run⟩
  case run =>
    simp only [cc9__gemm_kernel_eq_skeleton]; unfold cc9__gemm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves -/

theorem scover9_A (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond9_0 i) (hc1 : ¬cond9_1 i) (x0 : Vec F S1024x1024 .bf16) (x1 : Vec F S1024x256 .bf16) (y : S1024x256.Idx) :
    ∃ pc ∈ (kernelRun9_A c i arg2 harg2 arg3 harg3 arg4 harg4 arg5 harg5 arg6 harg6 hc0 hc1 x0 x1).1, y ∈ pc.1.set :=
  View.cover_of_tiledL (kernelRun9_A c i arg2 harg2 arg3 harg3 arg4 harg4 arg5 harg5 arg6 harg6 hc0 hc1 x0 x1).1 S1024x256.size (by sl_kernel_rfl) y
/-- The accumulator after a first block. -/
def sout9_A (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond9_0 i) (hc1 : ¬cond9_1 i) (x0 : Vec F S1024x1024 .bf16) (x1 : Vec F S1024x256 .bf16) : Vec F S1024x256 .f32 :=
  VS9.read (Elt F) (VS9.writes (Elt F) VS9.junk (kernelRun9_A c i arg2 harg2 arg3 harg3 arg4 harg4 arg5 harg5 arg6 harg6 hc0 hc1 x0 x1).1)

theorem scover9_B (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond9_0 i) (hc1 : ¬cond9_1 i) (x0 : Vec F S1024x1024 .bf16) (x1 : Vec F S1024x256 .bf16) (xs : Vec F S1024x256 .f32) (y : S1024x256.Idx) :
    ∃ pc ∈ (kernelRun9_B c i arg2 harg2 arg3 harg3 arg4 harg4 arg5 harg5 arg6 harg6 hc0 hc1 x0 x1 xs).1, y ∈ pc.1.set :=
  View.cover_of_tiledL (kernelRun9_B c i arg2 harg2 arg3 harg3 arg4 harg4 arg5 harg5 arg6 harg6 hc0 hc1 x0 x1 xs).1 S1024x256.size (by sl_kernel_rfl) y
/-- The accumulator after a middle block. -/
def sout9_B (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond9_0 i) (hc1 : ¬cond9_1 i) (x0 : Vec F S1024x1024 .bf16) (x1 : Vec F S1024x256 .bf16) (xs : Vec F S1024x256 .f32) : Vec F S1024x256 .f32 :=
  VS9.read (Elt F) (VS9.writes (Elt F) VS9.junk (kernelRun9_B c i arg2 harg2 arg3 harg3 arg4 harg4 arg5 harg5 arg6 harg6 hc0 hc1 x0 x1 xs).1)

theorem scover9_C (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond9_0 i) (hc1 : cond9_1 i) (x0 : Vec F S1024x1024 .bf16) (x1 : Vec F S1024x256 .bf16) (x2 : Vec F S1x256 .f32) (xs : Vec F S1024x256 .f32) (y : S1024x256.Idx) :
    ∃ pc ∈ (kernelRun9_C c i arg2 harg2 arg3 harg3 arg4 harg4 arg5 harg5 arg6 harg6 hc0 hc1 x0 x1 x2 xs).2.1, y ∈ pc.1.set :=
  View.cover_of_tiledL (kernelRun9_C c i arg2 harg2 arg3 harg3 arg4 harg4 arg5 harg5 arg6 harg6 hc0 hc1 x0 x1 x2 xs).2.1 S1024x256.size (by sl_kernel_rfl) y
/-- The accumulator after a last block. -/
def sout9_C (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond9_0 i) (hc1 : cond9_1 i) (x0 : Vec F S1024x1024 .bf16) (x1 : Vec F S1024x256 .bf16) (x2 : Vec F S1x256 .f32) (xs : Vec F S1024x256 .f32) : Vec F S1024x256 .f32 :=
  VS9.read (Elt F) (VS9.writes (Elt F) VS9.junk (kernelRun9_C c i arg2 harg2 arg3 harg3 arg4 harg4 arg5 harg5 arg6 harg6 hc0 hc1 x0 x1 x2 xs).2.1)
theorem cover9_C (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond9_0 i) (hc1 : cond9_1 i) (x0 : Vec F S1024x1024 .bf16) (x1 : Vec F S1024x256 .bf16) (x2 : Vec F S1x256 .f32) (xs : Vec F S1024x256 .f32) (y : S1024x256.Idx) :
    ∃ pc ∈ (kernelRun9_C c i arg2 harg2 arg3 harg3 arg4 harg4 arg5 harg5 arg6 harg6 hc0 hc1 x0 x1 x2 xs).1, y ∈ pc.1.set :=
  View.cover_of_tiledL (kernelRun9_C c i arg2 harg2 arg3 harg3 arg4 harg4 arg5 harg5 arg6 harg6 hc0 hc1 x0 x1 x2 xs).1 S1024x256.size (by sl_kernel_rfl) y
/-- The output tile after a last block. -/
def out9_C (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond9_0 i) (hc1 : cond9_1 i) (x0 : Vec F S1024x1024 .bf16) (x1 : Vec F S1024x256 .bf16) (x2 : Vec F S1x256 .f32) (xs : Vec F S1024x256 .f32) : Vec F S1024x256 .bf16 :=
  VO9_3.read (Elt F) (VO9_3.writes (Elt F) VO9_3.junk (kernelRun9_C c i arg2 harg2 arg3 harg3 arg4 harg4 arg5 harg5 arg6 harg6 hc0 hc1 x0 x1 x2 xs).1)

/-! ## What the accumulator and the output tile hold after each point -/

/-- THE ACCUMULATION: the accumulator after the body at position `n` — after a first block what that block leaves,
    otherwise what this block leaves over what position `n - 1` left. -/
def accAt9 (c : Dev nD) : (n : ℕ) → n < cfg9.N → Vec F S1024x256 .f32
  | 0, hn => sout9_A c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) scM9 (Memref.isWhole_whole _)
      ((hcond9_0 ⟨0, hn⟩).mpr (Nat.zero_mod _)) (fun h => by have h3 := (hcond9_1 ⟨0, hn⟩).mp h; (try dsimp only at h3); omega) (iblk9 V c 0 ⟨0, hn⟩) (iblk9 V c 1 ⟨0, hn⟩)
  | n + 1, hn =>
    if h0 : (n + 1) % 4 = 0 then
      sout9_A c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9 (Memref.isWhole_whole _)
        ((hcond9_0 ⟨n + 1, hn⟩).mpr h0) (fun h => by have h3 := (hcond9_1 ⟨n + 1, hn⟩).mp h; (try dsimp only at h3); omega) (iblk9 V c 0 ⟨n + 1, hn⟩) (iblk9 V c 1 ⟨n + 1, hn⟩)
    else if h1 : (n + 1) % 4 = 3 then
      sout9_C c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9 (Memref.isWhole_whole _)
        (fun h => h0 ((hcond9_0 ⟨n + 1, hn⟩).mp h)) ((hcond9_1 ⟨n + 1, hn⟩).mpr h1) (iblk9 V c 0 ⟨n + 1, hn⟩) (iblk9 V c 1 ⟨n + 1, hn⟩) (iblk9 V c 2 ⟨n + 1, hn⟩) (accAt9 c n (Nat.lt_of_succ_lt hn))
    else
      sout9_B c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) scM9 (Memref.isWhole_whole _)
        (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (accAt9 c n (Nat.lt_of_succ_lt hn))

theorem accAt9_A (c : Dev nD) (t : Fin cfg9.N) (h0 : t.val % 4 = 0) (h1 : ¬t.val % 4 = 3) :
    accAt9 V c t.val t.isLt = sout9_A c (grid9.coords t) (ms9_0 t) (hs9_0 t) (ms9_1 t) (hs9_1 t) (ms9_2 t) (hs9_2 t) (ms9_3 t) (hs9_3 t) scM9 (Memref.isWhole_whole _)
      ((hcond9_0 t).mpr h0) (fun h => h1 ((hcond9_1 t).mp h)) (iblk9 V c 0 t) (iblk9 V c 1 t) := by
  obtain ⟨n, hn⟩ := t
  cases n with
  | zero => exact rfl
  | succ n => exact (dif_pos h0).trans rfl

theorem accAt9_B (c : Dev nD) (t : Fin cfg9.N) (h0 : ¬t.val % 4 = 0) (h1 : ¬t.val % 4 = 3) :
    accAt9 V c t.val t.isLt = sout9_B c (grid9.coords t) (ms9_0 t) (hs9_0 t) (ms9_1 t) (hs9_1 t) (ms9_2 t) (hs9_2 t) (ms9_3 t) (hs9_3 t) scM9 (Memref.isWhole_whole _)
      (fun h => h0 ((hcond9_0 t).mp h)) (fun h => h1 ((hcond9_1 t).mp h)) (iblk9 V c 0 t) (iblk9 V c 1 t)
      (accAt9 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt9_C (c : Dev nD) (t : Fin cfg9.N) (h0 : ¬t.val % 4 = 0) (h1 : t.val % 4 = 3) :
    accAt9 V c t.val t.isLt = sout9_C c (grid9.coords t) (ms9_0 t) (hs9_0 t) (ms9_1 t) (hs9_1 t) (ms9_2 t) (hs9_2 t) (ms9_3 t) (hs9_3 t) scM9 (Memref.isWhole_whole _)
      (fun h => h0 ((hcond9_0 t).mp h)) ((hcond9_1 t).mpr h1) (iblk9 V c 0 t) (iblk9 V c 1 t) (iblk9 V c 2 t)
      (accAt9 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output tile after the body at point `t`: at a last block what that case stores over what the point before left in
    the accumulator; elsewhere the body stores nothing into it and the tile is not written back: a placeholder. -/
def outAt9 (c : Dev nD) (t : Fin cfg9.N) : Vec F S1024x256 .bf16 :=
  if h1 : t.val % 4 = 3 then
    out9_C c (grid9.coords t) (ms9_0 t) (hs9_0 t) (ms9_1 t) (hs9_1 t) (ms9_2 t) (hs9_2 t) (ms9_3 t) (hs9_3 t) scM9 (Memref.isWhole_whole _)
      (fun h => by have h3 := (hcond9_0 t).mp h; omega) ((hcond9_1 t).mpr h1) (iblk9 V c 0 t) (iblk9 V c 1 t) (iblk9 V c 2 t)
      (accAt9 V c (t.val - 1) (Nat.lt_of_le_of_lt (Nat.sub_le _ _) t.isLt))
  else VO9_3.read (Elt F) VO9_3.junk

/-! ## The region's invariant and proof data -/

/-- The invariant before position `n`: before the first point the scoped rest with the accumulator at anything;
    afterwards the accumulator at what the point before left, the rest of the scoped buffers, and the generator register. -/
def PhiS9 (c : Dev nD) : (n : ℕ) → n ≤ cfg9.N → sProp 𝕄
  | 0, _ => Pipeline.ΦA spec9 c
  | n + 1, hn => iprop(iprop(owns (c : Thread nD τ) scM9 fullShare (accAt9 V c n hn)
      ∗ Pipeline.scopedRestBut (Ix := Unit) (Name := ℕ) (U := UR sig nD τ) (Lvl := ℕ) (Val := Elt F) spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl
theorem PhiS9_succ (c : Dev nD) (n : ℕ) (hn : n < cfg9.N) :
    PhiS9 V c (n + 1) hn = iprop(iprop(owns (c : Thread nD τ) scM9 fullShare (accAt9 V c n hn)
      ∗ Pipeline.scopedRestBut (Ix := Unit) (Name := ℕ) (U := UR sig nD τ) (Lvl := ℕ) (Val := Elt F) spec9 c [cc9_scratch0]) ∗ (∃ r, prngReg c r)) := rfl
theorem PhiS9_pos (c : Dev nD) (n : ℕ) (h : n ≤ cfg9.N) (hz : n ≠ 0) :
    PhiS9 V c n h = iprop(iprop(owns (c : Thread nD τ) scM9 fullShare (accAt9 V c (n - 1) (by omega))
      ∗ Pipeline.scopedRestBut (Ix := Unit) (Name := ℕ) (U := UR sig nD τ) (Lvl := ℕ) (Val := Elt F) spec9 c [cc9_scratch0]) ∗ (∃ r, prngReg c r)) := by
  cases n with
  | zero => exact absurd rfl hz
  | succ n => rfl

/-- The proof data on core `c`: the arrays as the region finds them; after the body at point `t` each input's buffer
    at its tile and the output's at `outAt9`; the invariant `PhiS9`; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => outAt9 V c t
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]
theorem PhiS9_castSucc (c : Dev nD) (t : Fin cfg9.N) :
    (dat9 V c).Φ t.castSucc = PhiS9 V c t.val (Nat.le_of_lt t.isLt) := by
  dsimp only [dat9]; simp only [Fin.coe_castSucc]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = outAt9 V c t := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 8000000 in
/-- The body at any point: the inputs' memrefs hold their tiles; the position modulo 4 says which case the point is
    in; the invariant lends the accumulator at what the point before left (at anything before the first point) and
    takes it back at this point's contents; at a last block the output tile is left at that case's contents, elsewhere
    it is handed back untouched. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  rw [show (dat9 V c).leavesExact 0 t = owns (c : Thread nD τ) (ms9_0 t) fullShare ((dat9 V c).after 0 t) from by
      unfold Dat.leavesExact; rw [liveAt9_0 t], after9_0,
    show (dat9 V c).leavesExact 1 t = owns (c : Thread nD τ) (ms9_1 t) fullShare ((dat9 V c).after 1 t) from by
      unfold Dat.leavesExact; rw [liveAt9_1 t], after9_1,
    show (dat9 V c).leavesExact 2 t = owns (c : Thread nD τ) (ms9_2 t) fullShare ((dat9 V c).after 2 t) from by
      unfold Dat.leavesExact; rw [liveAt9_2 t], after9_2]
  have hN : t.val < 16 := lt_of_lt_of_eq t.isLt (show cfg9.N = 16 from N_9)
  by_cases h0 : t.val % 4 = 0
  · -- a first block
    have h1 : ¬t.val % 4 = 3 := by omega
    rw [Dat.leavesExact_idle (dat9 V c) 3 t (idleAt9_3 t (fun h => h1 ((hcond9_1 t).mp h))) (noFlush9_3 t (fun h => h1 ((hcond9_1 t).mp h)))]
    rw [accAt9_A V c t h0 h1]
    unfold sout9_A
    by_cases hz : t.val = 0
    · rw [PhiS9_castSucc V c t, PhiS9_zero V c _ _ hz, PhiA9_eq]
      iintro ⟨⟨⟨HS, Hbut⟩, Hg⟩, Ho, ⟨%d0, H0⟩, ⟨%d1, H1⟩, ⟨%d2, H2⟩, ⟨%d3, H3⟩⟩
      iapply ((kernelRun9_A c (grid9.coords t) _ _ _ _ _ _ _ _ _ _ ((hcond9_0 t).mpr h0) (fun h => h1 ((hcond9_1 t).mp h)) (iblk9 V c 0 t) (iblk9 V c 1 t)).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover9_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
    · rw [PhiS9_castSucc V c t, PhiS9_pos V c _ _ hz]
      iintro ⟨⟨⟨HS, Hbut⟩, Hg⟩, Ho, ⟨%d0, H0⟩, ⟨%d1, H1⟩, ⟨%d2, H2⟩, ⟨%d3, H3⟩⟩
      iapply ((kernelRun9_A c (grid9.coords t) _ _ _ _ _ _ _ _ _ _ ((hcond9_0 t).mpr h0) (fun h => h1 ((hcond9_1 t).mp h)) (iblk9 V c 0 t) (iblk9 V c 1 t)).2 Set.univ _)
      isplitl [H0]; · iexact H0
      isplitl [H1]; · iexact H1
      isplitl [HS]; · iexists _; iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover9_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · -- a last block
      rw [show (dat9 V c).leavesExact 3 t = owns (c : Thread nD τ) (ms9_3 t) fullShare ((dat9 V c).after 3 t) from by
        unfold Dat.leavesExact; rw [liveAt9_3 t ((hcond9_1 t).mpr h1)], after9_3]
      rw [accAt9_C V c t h0 h1]
      unfold sout9_C outAt9
      rw [dif_pos h1]
      unfold out9_C
      rw [PhiS9_castSucc V c t, PhiS9_pos V c _ _ hz]
      iintro ⟨⟨⟨HS, Hbut⟩, Hg⟩, Ho, ⟨%d0, H0⟩, ⟨%d1, H1⟩, ⟨%d2, H2⟩, ⟨%d3, H3⟩⟩
      iapply ((kernelRun9_C c (grid9.coords t) _ _ _ _ _ _ _ _ _ _ (fun h => h0 ((hcond9_0 t).mp h)) ((hcond9_1 t).mpr h1) (iblk9 V c 0 t) (iblk9 V c 1 t) (iblk9 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hbut Hg]
      · isplitl [HS Hbut]
        · isplitl [HS]
          · unfold owns; iexists _; isplitr
            swap; · iexact HS
            ipureintro; exact View.read_writes_of_cover _ _ _ _ _ (scover9_C c _ _ _ _ _ _ _ _ _ _ _ _ _ _ _ _ _)
          iexact Hbut
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover9_C c _ _ _ _ _ _ _ _ _ _ _ _ _ _ _ _ _)
    · -- a middle block
      rw [Dat.leavesExact_idle (dat9 V c) 3 t (idleAt9_3 t (fun h => h1 ((hcond9_1 t).mp h))) (noFlush9_3 t (fun h => h1 ((hcond9_1 t).mp h)))]
      rw [accAt9_B V c t h0 h1]
      unfold sout9_B
      rw [PhiS9_castSucc V c t, PhiS9_pos V c _ _ hz]
      iintro ⟨⟨⟨HS, Hbut⟩, Hg⟩, Ho, ⟨%d0, H0⟩, ⟨%d1, H1⟩, ⟨%d2, H2⟩, ⟨%d3, H3⟩⟩
      iapply ((kernelRun9_B c (grid9.coords t) _ _ _ _ _ _ _ _ _ _ (fun h => h0 ((hcond9_0 t).mp h)) (fun h => h1 ((hcond9_1 t).mp h)) (iblk9 V c 0 t) (iblk9 V c 1 t) _).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover9_B c _ _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After the last point the invariant gives the scoped rest back: what the accumulator holds is forgotten. -/
theorem hout9 (c : Dev nD) : (dat9 V c).Φ (Fin.last cfg9.N) ⊢ Pipeline.ΦA spec9 c := by
  rw [show (dat9 V c).Φ (Fin.last cfg9.N) = PhiS9 V c (Fin.last cfg9.N).val (Nat.le_of_lt_succ (Fin.last cfg9.N).isLt) from rfl,
    PhiS9_pos V c _ _ (by rw [Fin.val_last]; have : cfg9.N = 16 := N_9; omega), PhiA9_eq]
  iintro ⟨⟨HS, Hbut⟩, Hg⟩
  isplitl [HS Hbut]
  · isplitl [HS]; · iexists _; iexact HS
    iexact Hbut
  iexact Hg

end Cert.KernelIdeal.Hand

end
-- ==== Proof.KI.Seg9.lean ====
/-
  Region 9 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.KI.Region9
import proofs.«107088_j31018253811971_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg9 (hK : ∀ c, pdats 9 c = dat9 (atTc Win) c)
    (hF : ∀ c (w : Fin cfg9.W), (dat9 (atTc Win) c).arrAt w cfg9.N = atTc Wout c (Pipeline.arrRef spec9 w))
    (hrest : ∀ c, ∀ b, b ∉ Finset.univ.image (Pipeline.arrRef spec9) → atTc Wout c b = atTc Win c b) :
    Pipeline.RegionSeg (pcfgs (F := F)) adm pdats () defs₀ 𝒱₀ L lv 9 where
  win := launch9.win.to₀
  block_pos := launch9.block_pos
  stage_whole := launch9.stage_whole
  K := PEmpty
  osem k := k.elim
  ho := Pipeline.OwnSemFacts.none _
  hbody c := by rw [hK c]; exact (body_obligation9 (atTc Win) c).loose
  hwaits := Pipeline.hwaits_of_owed_zero _ _ _ _ L lv 9 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec9 c (atTc Win c)
  hentry c := by
    rw [Pipeline.ownSems0_none]
    have hsplit := Pipeline.arrays_of_unscopedBufs (p := 9) (pcfgs (F := F)) adm pdats launch9.win launch9.arr_whole c
      (by rw [hK c]; exact (dat9 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hK c]
    have h := hin9 (atTc Win) c
    unfold Pipeline.ΦA at h
    iintro ⟨Hp, -, Hr⟩
    iapply h
    isplitl [Hr]; · iexact Hr
    iexact Hp
  hout c := by
    rw [Pipeline.ownSems0_none, hK c]
    have h := hout9 (atTc Win) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c pdats (by rw [hK c]; exact (dat9 (atTc Win) c).share_full fun _ => rfl)
      (atTc Win c) (atTc Wout c) ((pdats 9 c).arrAt · cfg9.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.KernelIdeal.Hand

end
-- ==== Proof.KI.Region10.lean ====
/-
  Region 10: t5 = h1·W2, row tiles of 1024 over a 4 × 1 grid: tile p of the result is (rows of h1 in tile p)·W2, rounded to bf16.
  The contraction is one block long, so at every grid point the body zeroes its accumulator (the scratch), adds the
  product of the point's two tiles into it, and reads it out, plus the bias row, into the output tile: both of the
  body's conditions (first block, last block) hold at every point. The scratch is therefore dead between points and
  the region's invariant keeps it at unnamed contents. This file: each window's tile at a point, the body's run
  (whose witness is the list of pieces the stores leave in the output tile and in the scratch), what the output tile
  holds after the body as a function of the three input tiles, the region's proof data at any entry contents `V`,
  and the body obligation.
-/
import proofs.«107088_j31018253811971_1_alg».proof.Proof.Gen.KernelIdeal.Launch
import proofs.«107088_j31018253811971_1_alg».proof.Proof.Gen.KernelIdeal.Skeleton
import proofs.«107088_j31018253811971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its tile at every point, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- Input window 1's current staging buffer holds its tile at every point, fetched there or not. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- Input window 2's current staging buffer holds its tile at every point, fetched there or not. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The body's two conditions -/

/-- "This is the first block of the contraction": the body's first `if`, from the grid coordinates. -/
abbrev cond10_0 (i : grid10.Coords) : Prop := (Scalar.cmpi .ne (Scalar.extui (Scalar.cmpi .eq (BitVec.ofNat 32 (i 1).val) 0#32)) 0#32) = 1#1
/-- It holds at every point: the contraction axis of the grid has one position. -/
theorem hcond10_0 : ∀ t : Fin cfg10.N, cond10_0 (grid10.coords t) :=
  (by decide +kernel : ∀ t : Fin grid10.N, cond10_0 (grid10.coords t))
/-- "This is the last block of the contraction": the body's second `if`. -/
abbrev cond10_1 (i : grid10.Coords) : Prop := k10_cond2 i = 1#1
/-- It holds at every point too. -/
theorem hcond10_1 : ∀ t : Fin cfg10.N, cond10_1 (grid10.coords t) :=
  (by decide +kernel : ∀ t : Fin grid10.N, cond10_1 (grid10.coords t))
/-- No window is idle at any point. -/
theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem liveAt10_3 : ∀ t : Fin cfg10.N, cfg10.idle 3 (grid10.coords t) = false := by decide +kernel

/-! ## The staging memrefs and the scratch, as the pipeline passes them -/

abbrev VO10_3 : View sig .tc .vmem S1024x16 .bf16 := (Memref.whole cc10_stg3_0 : Memref sig .tc .vmem S1024x16 .bf16).view
abbrev ms10_0 (t : Fin cfg10.N) : Memref sig .tc .vmem S1024x256 .bf16 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S256x16 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x16 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1024x16 .bf16 := win10_3.stage (cfg10.slots t 3)
abbrev hs10_3 (t : Fin cfg10.N) : (ms10_3 t).IsWhole := hstage10_3 ((cfg10.slots t 3).cast nbuf10_3)
/-- The accumulator: a whole scoped buffer of the kernel's own, passed beside the windows. -/
abbrev scM10 : Memref sig .tc .vmem S1024x16 .f32 := Memref.whole cc10_scratch0

/-- The region's invariant with the accumulator split out as a memref owned at some contents. -/
theorem PhiA10_eq (c : Dev nD) :
    (Pipeline.ΦA spec10 c : sProp 𝕄)
      = iprop(iprop(iprop((∃ d, owns (c : Thread nD τ) scM10 fullShare d))
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10, owns_whole]; rfl

/-! ## The body's run -/

set_option maxHeartbeats 4000000 in
/-- The pieces the body's stores leave in the output tile (`.1`) and in the accumulator (`.2.1`), last first, WITH the
    proof that on whole memrefs — the three inputs' at contents `x0 x1 x2`, the output's and the accumulator's at
    anything — the body runs to the continuation holding the inputs' as they were and those pieces written. -/
noncomputable def kernelRun10 (c : Dev nD) (i : grid10.Coords)
    (arg2 : Memref sig .tc .vmem S1024x256 .bf16) (harg2 : arg2.IsWhole) (arg3 : Memref sig .tc .vmem S256x16 .f32) (harg3 : arg3.IsWhole)
    (arg4 : Memref sig .tc .vmem S1x16 .f32) (harg4 : arg4.IsWhole) (arg5 : Memref sig .tc .vmem S1024x16 .bf16) (harg5 : arg5.IsWhole)
    (arg6 : Memref sig .tc .vmem S1024x16 .f32) (harg6 : arg6.IsWhole) (hc0 : cond10_0 i) (hc1 : cond10_1 i)
    (x0 : Vec F S1024x256 .bf16) (x1 : Vec F S256x16 .f32) (x2 : Vec F S1x16 .f32) :
    Σ' (L3 : List (View.Piece (Elt F) S1024x16 .bf16)), { LS : List (View.Piece (Elt F) S1024x16 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc10__gemm_kernel i arg2 harg2 arg3 harg3 arg4 harg4 arg5 harg5 arg6 harg6) Kc } := by
  refine ⟨?_, ?_, fun E Kc => ?run⟩
  case run =>
    simp only [cc10__gemm_kernel_eq_skeleton]; unfold cc10__gemm_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-- The output tile's pieces tile it. -/
theorem cover10_3 (c : Dev nD) (i : grid10.Coords)
    (arg2 : Memref sig .tc .vmem S1024x256 .bf16) (harg2 : arg2.IsWhole) (arg3 : Memref sig .tc .vmem S256x16 .f32) (harg3 : arg3.IsWhole)
    (arg4 : Memref sig .tc .vmem S1x16 .f32) (harg4 : arg4.IsWhole) (arg5 : Memref sig .tc .vmem S1024x16 .bf16) (harg5 : arg5.IsWhole)
    (arg6 : Memref sig .tc .vmem S1024x16 .f32) (harg6 : arg6.IsWhole) (hc0 : cond10_0 i) (hc1 : cond10_1 i)
    (x0 : Vec F S1024x256 .bf16) (x1 : Vec F S256x16 .f32) (x2 : Vec F S1x16 .f32) (y : S1024x16.Idx) :
    ∃ pc ∈ (kernelRun10 c i arg2 harg2 arg3 harg3 arg4 harg4 arg5 harg5 arg6 harg6 hc0 hc1 x0 x1 x2).1, y ∈ pc.1.set :=
  View.cover_of_tiledL (kernelRun10 c i arg2 harg2 arg3 harg3 arg4 harg4 arg5 harg5 arg6 harg6 hc0 hc1 x0 x1 x2).1 S1024x16.size (by sl_kernel_rfl) y

/-- What the body leaves in the output tile: its pieces read back. -/
def out10_3 (c : Dev nD) (i : grid10.Coords)
    (arg2 : Memref sig .tc .vmem S1024x256 .bf16) (harg2 : arg2.IsWhole) (arg3 : Memref sig .tc .vmem S256x16 .f32) (harg3 : arg3.IsWhole)
    (arg4 : Memref sig .tc .vmem S1x16 .f32) (harg4 : arg4.IsWhole) (arg5 : Memref sig .tc .vmem S1024x16 .bf16) (harg5 : arg5.IsWhole)
    (arg6 : Memref sig .tc .vmem S1024x16 .f32) (harg6 : arg6.IsWhole) (hc0 : cond10_0 i) (hc1 : cond10_1 i)
    (x0 : Vec F S1024x256 .bf16) (x1 : Vec F S256x16 .f32) (x2 : Vec F S1x16 .f32) : Vec F S1024x16 .bf16 :=
  VO10_3.read (Elt F) (VO10_3.writes (Elt F) VO10_3.junk (kernelRun10 c i arg2 harg2 arg3 harg3 arg4 harg4 arg5 harg5 arg6 harg6 hc0 hc1 x0 x1 x2).1)

/-- The output tile after the body at point `t`. -/
def outAt10 (c : Dev nD) (t : Fin cfg10.N) : Vec F S1024x16 .bf16 :=
  out10_3 c (grid10.coords t) (ms10_0 t) (hs10_0 t) (ms10_1 t) (hs10_1 t) (ms10_2 t) (hs10_2 t) (ms10_3 t) (hs10_3 t) scM10 (Memref.isWhole_whole _)
    (hcond10_0 t) (hcond10_1 t) (iblk10 V c 0 t) (iblk10 V c 1 t) (iblk10 V c 2 t)

/-! ## The region's proof data -/

/-- The proof data on core `c`: the arrays as the region finds them; after the body at point `t` each input's buffer
    at its tile and the output's at `outAt10`; the invariant the scoped rest (the accumulator among it, at anything) and
    the generator register; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => outAt10 V c t
  Φ _ := Pipeline.ΦA spec10 c
  q _ := fullShare
  owed _ := 0

theorem A_eq10 (c : Dev nD) (w : Fin cfg10.W) : (dat10 V c).A w = V c (Pipeline.arrRef spec10 w) := by
  dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = outAt10 V c t := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation, at a generic point -/

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

set_option maxHeartbeats 4000000 in
/-- The body at any point: the inputs' memrefs hold their tiles, the invariant lends the accumulator at whatever it
    holds, the run applies, and the accumulator goes back into the invariant at whatever the body left. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl]
  rw [show (dat10 V c).leavesExact 0 t = owns (c : Thread nD τ) (ms10_0 t) fullShare ((dat10 V c).after 0 t) from by
      unfold Dat.leavesExact; rw [liveAt10_0 t], after10_0,
    show (dat10 V c).leavesExact 1 t = owns (c : Thread nD τ) (ms10_1 t) fullShare ((dat10 V c).after 1 t) from by
      unfold Dat.leavesExact; rw [liveAt10_1 t], after10_1,
    show (dat10 V c).leavesExact 2 t = owns (c : Thread nD τ) (ms10_2 t) fullShare ((dat10 V c).after 2 t) from by
      unfold Dat.leavesExact; rw [liveAt10_2 t], after10_2,
    show (dat10 V c).leavesExact 3 t = owns (c : Thread nD τ) (ms10_3 t) fullShare ((dat10 V c).after 3 t) from by
      unfold Dat.leavesExact; rw [liveAt10_3 t], after10_3]
  rw [show (dat10 V c).Φ t.castSucc = Pipeline.ΦA spec10 c from rfl, PhiA10_eq]
  unfold outAt10 out10_3
  iintro ⟨⟨⟨HS, Hbut⟩, Hg⟩, Ho, ⟨%d0, H0⟩, ⟨%d1, H1⟩, ⟨%d2, H2⟩, ⟨%d3, H3⟩⟩
  iapply ((kernelRun10 c (grid10.coords t) _ _ _ _ _ _ _ _ _ _ (hcond10_0 t) (hcond10_1 t) (iblk10 V c 0 t) (iblk10 V c 1 t) (iblk10 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hbut Hg]
  · isplitl [HS Hbut]
    · isplitl [HS]
      · unfold owns; iexists _; iexists _; isplitr
        swap; · iexact HS
        ipureintro; rfl
      iexact Hbut
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover10_3 c _ _ _ _ _ _ _ _ _ _ _ _ _ _ _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.Seg10.lean ====
/-
  Region 10 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.KI.Region10
import proofs.«107088_j31018253811971_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg10 (hK : ∀ c, pdats 10 c = dat10 (atTc Win) c)
    (hF : ∀ c (w : Fin cfg10.W), (dat10 (atTc Win) c).arrAt w cfg10.N = atTc Wout c (Pipeline.arrRef spec10 w))
    (hrest : ∀ c, ∀ b, b ∉ Finset.univ.image (Pipeline.arrRef spec10) → atTc Wout c b = atTc Win c b) :
    Pipeline.RegionSeg (pcfgs (F := F)) adm pdats () defs₀ 𝒱₀ L lv 10 where
  win := launch10.win.to₀
  block_pos := launch10.block_pos
  stage_whole := launch10.stage_whole
  K := PEmpty
  osem k := k.elim
  ho := Pipeline.OwnSemFacts.none _
  hbody c := by rw [hK c]; exact (body_obligation10 (atTc Win) c).loose
  hwaits := Pipeline.hwaits_of_owed_zero _ _ _ _ L lv 10 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec10 c (atTc Win c)
  hentry c := by
    rw [Pipeline.ownSems0_none]
    have hsplit := Pipeline.arrays_of_unscopedBufs (p := 10) (pcfgs (F := F)) adm pdats launch10.win launch10.arr_whole c
      (by rw [hK c]; exact (dat10 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 10 c).Φ 0 = Pipeline.ΦA spec10 c from by rw [hK c]; rfl]; unfold Pipeline.ΦA
    iintro ⟨Hp, -, Hr⟩
    isplitl [Hr]; · iexact Hr
    iexact Hp
  hout c := by
    rw [Pipeline.ownSems0_none, show (pdats 10 c).Φ (Fin.last _) = Pipeline.ΦA spec10 c from by rw [hK c]; rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c pdats (by rw [hK c]; exact (dat10 (atTc Win) c).share_full fun _ => rfl)
      (atTc Win c) (atTc Wout c) ((pdats 10 c).arrAt · cfg10.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.KernelIdeal.Hand

end
-- ==== Proof.KI.Region11.lean ====
/-
  Region 11: the class scores Â·t5 + b2 over a 4 × 4 grid (row tile p, contraction block q), Â the normalised adjacency; kept in f32.
  The contraction over 4096 is accumulated in four blocks of 1024 along the second grid axis, in a scratch the kernel
  keeps between grid points. At the first block of a row tile the body zeroes the scratch and adds the block's
  product; at the two middle blocks it adds the block's product to what the point before left; at the last block it
  does the same and then reads the scratch out, plus the bias row, into the output tile, which is written back only
  there. This file: each window's tile at a point, the body's run in each of the three cases (the witness of a run is
  the list of pieces its stores leave), what the scratch and the output tile hold after each point (a recursion over
  the points), the region's invariant (the scratch at what the point before left), its proof data at any entry
  contents `V`, and the body obligation.
-/
import proofs.«107088_j31018253811971_1_alg».proof.Proof.Gen.KernelIdeal.Launch
import proofs.«107088_j31018253811971_1_alg».proof.Proof.Gen.KernelIdeal.Skeleton
import proofs.«107088_j31018253811971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' tiles -/

/-- Window `w`'s tile at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its tile at every point, fetched there or not. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current staging buffer holds its tile at every point, fetched there or not. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current staging buffer holds its tile at every point, fetched there or not. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The body's two conditions -/

/-- "This is the first block of the contraction": the body's first `if`, from the grid coordinates. -/
abbrev cond11_0 (i : grid11.Coords) : Prop := (Scalar.cmpi .ne (Scalar.extui (Scalar.cmpi .eq (BitVec.ofNat 32 (i 1).val) 0#32)) 0#32) = 1#1
/-- It holds at the points ≡ 0 (mod 4). -/
theorem hcond11_0 : ∀ t : Fin cfg11.N, cond11_0 (grid11.coords t) ↔ t.val % 4 = 0 :=
  (by decide +kernel : ∀ t : Fin grid11.N, cond11_0 (grid11.coords t) ↔ t.val % 4 = 0)
/-- "This is the last block of the contraction": the body's second `if`. -/
abbrev cond11_1 (i : grid11.Coords) : Prop := k11_cond2 i = 1#1
/-- It holds at the points ≡ 3 (mod 4). -/
theorem hcond11_1 : ∀ t : Fin cfg11.N, cond11_1 (grid11.coords t) ↔ t.val % 4 = 3 :=
  (by decide +kernel : ∀ t : Fin grid11.N, cond11_1 (grid11.coords t) ↔ t.val % 4 = 3)
/-- The inputs are never idle; the output tile is idle, and not written back, except at a last block. -/
theorem liveAt11_0 : ∀ t : Fin cfg11.N, cfg11.idle 0 (grid11.coords t) = false := by decide +kernel
theorem liveAt11_1 : ∀ t : Fin cfg11.N, cfg11.idle 1 (grid11.coords t) = false := by decide +kernel
theorem liveAt11_2 : ∀ t : Fin cfg11.N, cfg11.idle 2 (grid11.coords t) = false := by decide +kernel
theorem idleAt11_3 : ∀ t : Fin cfg11.N, ¬cond11_1 (grid11.coords t) → cfg11.idle 3 (grid11.coords t) = true := by decide +kernel
theorem noFlush11_3 : ∀ t : Fin cfg11.N, ¬cond11_1 (grid11.coords t) → (cfg11.win 3).flush t = false := by decide +kernel
theorem liveAt11_3 : ∀ t : Fin cfg11.N, cond11_1 (grid11.coords t) → cfg11.idle 3 (grid11.coords t) = false := by decide +kernel

/-! ## The staging memrefs and the scratch, as the pipeline passes them -/

abbrev VO11_3 : View sig .tc .vmem S1024x16 .f32 := (Memref.whole cc11_stg3_0 : Memref sig .tc .vmem S1024x16 .f32).view
abbrev ms11_0 (t : Fin cfg11.N) : Memref sig .tc .vmem S1024x1024 .bf16 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S1024x16 .bf16 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S1x16 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S1024x16 .f32 := win11_3.stage (cfg11.slots t 3)
abbrev hs11_3 (t : Fin cfg11.N) : (ms11_3 t).IsWhole := hstage11_3 ((cfg11.slots t 3).cast nbuf11_3)
/-- The accumulator: a whole scoped buffer of the kernel's own, passed beside the windows, and its view. -/
abbrev scM11 : Memref sig .tc .vmem S1024x16 .f32 := Memref.whole cc11_scratch0
abbrev VS11 : View sig .tc .vmem S1024x16 .f32 := scM11.view

/-- The invariant before the first point, with the accumulator split out as a memref owned at some contents. -/
theorem PhiA11_eq (c : Dev nD) :
    (Pipeline.ΦA spec11 c : sProp 𝕄)
      = iprop(iprop(iprop((∃ d, owns (c : Thread nD τ) scM11 fullShare d))
          ∗ Pipeline.scopedRestBut (Ix := Unit) (Name := ℕ) (U := UR sig nD τ) (Lvl := ℕ) (Val := Elt F) spec11 c [cc11_scratch0]) ∗ (∃ r, prngReg c r)) := by
  unfold Pipeline.ΦA; rw [scopedRest11_split]; simp only [scM11, owns_whole]; rfl

/-! ## The body's run, case by case -/

set_option maxHeartbeats 4000000 in
/-- FIRST BLOCK: the pieces the stores leave in the accumulator, with the proof that on whole memrefs — the two matrix
    tiles at `x0 x1`, the accumulator at anything — the body runs to the continuation with those pieces written. The
    bias and the output tile are not touched. -/
noncomputable def kernelRun11_A (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole)
    (hc0 : cond11_0 i) (hc1 : ¬cond11_1 i) (x0 : Vec F S1024x1024 .bf16) (x1 : Vec F S1024x16 .bf16) :
    { LS : List (View.Piece (Elt F) S1024x16 .f32) //
      ∀ (E : Set ℕ) (Kc : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc11__gemm_kernel i arg2 harg2 arg3 harg3 arg4 harg4 arg5 harg5 arg6 harg6) Kc } := by
  refine ⟨?_, fun E Kc => ?run⟩
  case run =>
    simp only [cc11__gemm_kernel_eq_skeleton]; unfold cc11__gemm_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- MIDDLE BLOCK: the same with the accumulator entered at `xs`, what the point before left. -/
noncomputable def kernelRun11_B (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole)
    (hc0 : ¬cond11_0 i) (hc1 : ¬cond11_1 i) (x0 : Vec F S1024x1024 .bf16) (x1 : Vec F S1024x16 .bf16) (xs : Vec F S1024x16 .f32) :
    { LS : List (View.Piece (Elt F) S1024x16 .f32) //
      ∀ (E : Set ℕ) (Kc : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1
                ∗ (∃ f, arg6.view.loc (c : Thread nD τ) ↦[arg6.view.set]{fullShare} arg6.view.writes (Elt F) f LS)) -∗ Kc ⟨⟩))
          ⊢ wp frame (wpE (defs₀ (F := F)) Variants.none c none) E (cc11__gemm_kernel i arg2 harg2 arg3 harg3 arg4 harg4 arg5 harg5 arg6 harg6) Kc } := by
  refine ⟨?_, fun E Kc => ?run⟩
  case run =>
    simp only [cc11__gemm_kernel_eq_skeleton]; unfold cc11__gemm_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- LAST BLOCK: the pieces left in the output tile (`.1`) and in the accumulator (`.2.1`); the bias row at `x2`, the
    output tile entered at anything, the accumulator at `xs`. -/
noncomputable def kernelRun11_C (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole)
    (hc0 : ¬cond11_0 i) (hc1 : cond11_1 i) (x0 : Vec F S1024x1024 .bf16) (x1 : Vec F S1024x16 .bf16) (x2 : Vec F S1x16 .f32) (xs : Vec F S1024x16 .f32) :
    Σ' (L3 : List (View.Piece (Elt F) S1024x16 .f32)), { LS : List (View.Piece (Elt F) S1024x16 .f32) //
      ∀ (E : Set ℕ) (Kc : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ Kc ⟨⟩))
          ⊢ wp frame (wpE (defs₀ (F := F)) Variants.none c none) E (cc11__gemm_kernel i arg2 harg2 arg3 harg3 arg4 harg4 arg5 harg5 arg6 harg6) Kc } := by
  refine ⟨?_, ?_, fun E Kc => ?run⟩
  case run =>
    simp only [cc11__gemm_kernel_eq_skeleton]; unfold cc11__gemm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves -/

theorem scover11_A (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : cond11_0 i) (hc1 : ¬cond11_1 i) (x0 : Vec F S1024x1024 .bf16) (x1 : Vec F S1024x16 .bf16) (y : S1024x16.Idx) :
    ∃ pc ∈ (kernelRun11_A c i arg2 harg2 arg3 harg3 arg4 harg4 arg5 harg5 arg6 harg6 hc0 hc1 x0 x1).1, y ∈ pc.1.set :=
  View.cover_of_tiledL (kernelRun11_A c i arg2 harg2 arg3 harg3 arg4 harg4 arg5 harg5 arg6 harg6 hc0 hc1 x0 x1).1 S1024x16.size (by sl_kernel_rfl) y
/-- The accumulator after a first block. -/
def sout11_A (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : cond11_0 i) (hc1 : ¬cond11_1 i) (x0 : Vec F S1024x1024 .bf16) (x1 : Vec F S1024x16 .bf16) : Vec F S1024x16 .f32 :=
  VS11.read (Elt F) (VS11.writes (Elt F) VS11.junk (kernelRun11_A c i arg2 harg2 arg3 harg3 arg4 harg4 arg5 harg5 arg6 harg6 hc0 hc1 x0 x1).1)

theorem scover11_B (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : ¬cond11_0 i) (hc1 : ¬cond11_1 i) (x0 : Vec F S1024x1024 .bf16) (x1 : Vec F S1024x16 .bf16) (xs : Vec F S1024x16 .f32) (y : S1024x16.Idx) :
    ∃ pc ∈ (kernelRun11_B c i arg2 harg2 arg3 harg3 arg4 harg4 arg5 harg5 arg6 harg6 hc0 hc1 x0 x1 xs).1, y ∈ pc.1.set :=
  View.cover_of_tiledL (kernelRun11_B c i arg2 harg2 arg3 harg3 arg4 harg4 arg5 harg5 arg6 harg6 hc0 hc1 x0 x1 xs).1 S1024x16.size (by sl_kernel_rfl) y
/-- The accumulator after a middle block. -/
def sout11_B (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : ¬cond11_0 i) (hc1 : ¬cond11_1 i) (x0 : Vec F S1024x1024 .bf16) (x1 : Vec F S1024x16 .bf16) (xs : Vec F S1024x16 .f32) : Vec F S1024x16 .f32 :=
  VS11.read (Elt F) (VS11.writes (Elt F) VS11.junk (kernelRun11_B c i arg2 harg2 arg3 harg3 arg4 harg4 arg5 harg5 arg6 harg6 hc0 hc1 x0 x1 xs).1)

theorem scover11_C (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : ¬cond11_0 i) (hc1 : cond11_1 i) (x0 : Vec F S1024x1024 .bf16) (x1 : Vec F S1024x16 .bf16) (x2 : Vec F S1x16 .f32) (xs : Vec F S1024x16 .f32) (y : S1024x16.Idx) :
    ∃ pc ∈ (kernelRun11_C c i arg2 harg2 arg3 harg3 arg4 harg4 arg5 harg5 arg6 harg6 hc0 hc1 x0 x1 x2 xs).2.1, y ∈ pc.1.set :=
  View.cover_of_tiledL (kernelRun11_C c i arg2 harg2 arg3 harg3 arg4 harg4 arg5 harg5 arg6 harg6 hc0 hc1 x0 x1 x2 xs).2.1 S1024x16.size (by sl_kernel_rfl) y
/-- The accumulator after a last block. -/
def sout11_C (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : ¬cond11_0 i) (hc1 : cond11_1 i) (x0 : Vec F S1024x1024 .bf16) (x1 : Vec F S1024x16 .bf16) (x2 : Vec F S1x16 .f32) (xs : Vec F S1024x16 .f32) : Vec F S1024x16 .f32 :=
  VS11.read (Elt F) (VS11.writes (Elt F) VS11.junk (kernelRun11_C c i arg2 harg2 arg3 harg3 arg4 harg4 arg5 harg5 arg6 harg6 hc0 hc1 x0 x1 x2 xs).2.1)
theorem cover11_C (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : ¬cond11_0 i) (hc1 : cond11_1 i) (x0 : Vec F S1024x1024 .bf16) (x1 : Vec F S1024x16 .bf16) (x2 : Vec F S1x16 .f32) (xs : Vec F S1024x16 .f32) (y : S1024x16.Idx) :
    ∃ pc ∈ (kernelRun11_C c i arg2 harg2 arg3 harg3 arg4 harg4 arg5 harg5 arg6 harg6 hc0 hc1 x0 x1 x2 xs).1, y ∈ pc.1.set :=
  View.cover_of_tiledL (kernelRun11_C c i arg2 harg2 arg3 harg3 arg4 harg4 arg5 harg5 arg6 harg6 hc0 hc1 x0 x1 x2 xs).1 S1024x16.size (by sl_kernel_rfl) y
/-- The output tile after a last block. -/
def out11_C (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : ¬cond11_0 i) (hc1 : cond11_1 i) (x0 : Vec F S1024x1024 .bf16) (x1 : Vec F S1024x16 .bf16) (x2 : Vec F S1x16 .f32) (xs : Vec F S1024x16 .f32) : Vec F S1024x16 .f32 :=
  VO11_3.read (Elt F) (VO11_3.writes (Elt F) VO11_3.junk (kernelRun11_C c i arg2 harg2 arg3 harg3 arg4 harg4 arg5 harg5 arg6 harg6 hc0 hc1 x0 x1 x2 xs).1)

/-! ## What the accumulator and the output tile hold after each point -/

/-- THE ACCUMULATION: the accumulator after the body at position `n` — after a first block what that block leaves,
    otherwise what this block leaves over what position `n - 1` left. -/
def accAt11 (c : Dev nD) : (n : ℕ) → n < cfg11.N → Vec F S1024x16 .f32
  | 0, hn => sout11_A c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) scM11 (Memref.isWhole_whole _)
      ((hcond11_0 ⟨0, hn⟩).mpr (Nat.zero_mod _)) (fun h => by have h3 := (hcond11_1 ⟨0, hn⟩).mp h; (try dsimp only at h3); omega) (iblk11 V c 0 ⟨0, hn⟩) (iblk11 V c 1 ⟨0, hn⟩)
  | n + 1, hn =>
    if h0 : (n + 1) % 4 = 0 then
      sout11_A c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11 (Memref.isWhole_whole _)
        ((hcond11_0 ⟨n + 1, hn⟩).mpr h0) (fun h => by have h3 := (hcond11_1 ⟨n + 1, hn⟩).mp h; (try dsimp only at h3); omega) (iblk11 V c 0 ⟨n + 1, hn⟩) (iblk11 V c 1 ⟨n + 1, hn⟩)
    else if h1 : (n + 1) % 4 = 3 then
      sout11_C c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11 (Memref.isWhole_whole _)
        (fun h => h0 ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (accAt11 c n (Nat.lt_of_succ_lt hn))
    else
      sout11_B c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) scM11 (Memref.isWhole_whole _)
        (fun h => h0 ((hcond11_0 ⟨n + 1, hn⟩).mp h)) (fun h => h1 ((hcond11_1 ⟨n + 1, hn⟩).mp h)) (iblk11 V c 0 ⟨n + 1, hn⟩) (iblk11 V c 1 ⟨n + 1, hn⟩) (accAt11 c n (Nat.lt_of_succ_lt hn))

theorem accAt11_A (c : Dev nD) (t : Fin cfg11.N) (h0 : t.val % 4 = 0) (h1 : ¬t.val % 4 = 3) :
    accAt11 V c t.val t.isLt = sout11_A c (grid11.coords t) (ms11_0 t) (hs11_0 t) (ms11_1 t) (hs11_1 t) (ms11_2 t) (hs11_2 t) (ms11_3 t) (hs11_3 t) scM11 (Memref.isWhole_whole _)
      ((hcond11_0 t).mpr h0) (fun h => h1 ((hcond11_1 t).mp h)) (iblk11 V c 0 t) (iblk11 V c 1 t) := by
  obtain ⟨n, hn⟩ := t
  cases n with
  | zero => exact rfl
  | succ n => exact (dif_pos h0).trans rfl

theorem accAt11_B (c : Dev nD) (t : Fin cfg11.N) (h0 : ¬t.val % 4 = 0) (h1 : ¬t.val % 4 = 3) :
    accAt11 V c t.val t.isLt = sout11_B c (grid11.coords t) (ms11_0 t) (hs11_0 t) (ms11_1 t) (hs11_1 t) (ms11_2 t) (hs11_2 t) (ms11_3 t) (hs11_3 t) scM11 (Memref.isWhole_whole _)
      (fun h => h0 ((hcond11_0 t).mp h)) (fun h => h1 ((hcond11_1 t).mp h)) (iblk11 V c 0 t) (iblk11 V c 1 t)
      (accAt11 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt11_C (c : Dev nD) (t : Fin cfg11.N) (h0 : ¬t.val % 4 = 0) (h1 : t.val % 4 = 3) :
    accAt11 V c t.val t.isLt = sout11_C c (grid11.coords t) (ms11_0 t) (hs11_0 t) (ms11_1 t) (hs11_1 t) (ms11_2 t) (hs11_2 t) (ms11_3 t) (hs11_3 t) scM11 (Memref.isWhole_whole _)
      (fun h => h0 ((hcond11_0 t).mp h)) ((hcond11_1 t).mpr h1) (iblk11 V c 0 t) (iblk11 V c 1 t) (iblk11 V c 2 t)
      (accAt11 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output tile after the body at point `t`: at a last block what that case stores over what the point before left in
    the accumulator; elsewhere the body stores nothing into it and the tile is not written back: a placeholder. -/
def outAt11 (c : Dev nD) (t : Fin cfg11.N) : Vec F S1024x16 .f32 :=
  if h1 : t.val % 4 = 3 then
    out11_C c (grid11.coords t) (ms11_0 t) (hs11_0 t) (ms11_1 t) (hs11_1 t) (ms11_2 t) (hs11_2 t) (ms11_3 t) (hs11_3 t) scM11 (Memref.isWhole_whole _)
      (fun h => by have h3 := (hcond11_0 t).mp h; omega) ((hcond11_1 t).mpr h1) (iblk11 V c 0 t) (iblk11 V c 1 t) (iblk11 V c 2 t)
      (accAt11 V c (t.val - 1) (Nat.lt_of_le_of_lt (Nat.sub_le _ _) t.isLt))
  else VO11_3.read (Elt F) VO11_3.junk

/-! ## The region's invariant and proof data -/

/-- The invariant before position `n`: before the first point the scoped rest with the accumulator at anything;
    afterwards the accumulator at what the point before left, the rest of the scoped buffers, and the generator register. -/
def PhiS11 (c : Dev nD) : (n : ℕ) → n ≤ cfg11.N → sProp 𝕄
  | 0, _ => Pipeline.ΦA spec11 c
  | n + 1, hn => iprop(iprop(owns (c : Thread nD τ) scM11 fullShare (accAt11 V c n hn)
      ∗ Pipeline.scopedRestBut (Ix := Unit) (Name := ℕ) (U := UR sig nD τ) (Lvl := ℕ) (Val := Elt F) spec11 c [cc11_scratch0]) ∗ (∃ r, prngReg c r))

theorem PhiS11_zero (c : Dev nD) (n : ℕ) (h : n ≤ cfg11.N) (hz : n = 0) : PhiS11 V c n h = Pipeline.ΦA spec11 c := by
  subst hz; rfl
theorem PhiS11_succ (c : Dev nD) (n : ℕ) (hn : n < cfg11.N) :
    PhiS11 V c (n + 1) hn = iprop(iprop(owns (c : Thread nD τ) scM11 fullShare (accAt11 V c n hn)
      ∗ Pipeline.scopedRestBut (Ix := Unit) (Name := ℕ) (U := UR sig nD τ) (Lvl := ℕ) (Val := Elt F) spec11 c [cc11_scratch0]) ∗ (∃ r, prngReg c r)) := rfl
theorem PhiS11_pos (c : Dev nD) (n : ℕ) (h : n ≤ cfg11.N) (hz : n ≠ 0) :
    PhiS11 V c n h = iprop(iprop(owns (c : Thread nD τ) scM11 fullShare (accAt11 V c (n - 1) (by omega))
      ∗ Pipeline.scopedRestBut (Ix := Unit) (Name := ℕ) (U := UR sig nD τ) (Lvl := ℕ) (Val := Elt F) spec11 c [cc11_scratch0]) ∗ (∃ r, prngReg c r)) := by
  cases n with
  | zero => exact absurd rfl hz
  | succ n => rfl

/-- The proof data on core `c`: the arrays as the region finds them; after the body at point `t` each input's buffer
    at its tile and the output's at `outAt11`; the invariant `PhiS11`; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => outAt11 V c t
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]
theorem PhiS11_castSucc (c : Dev nD) (t : Fin cfg11.N) :
    (dat11 V c).Φ t.castSucc = PhiS11 V c t.val (Nat.le_of_lt t.isLt) := by
  dsimp only [dat11]; simp only [Fin.coe_castSucc]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = outAt11 V c t := by dsimp only [dat11]
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t)

set_option maxHeartbeats 8000000 in
/-- The body at any point: the inputs' memrefs hold their tiles; the position modulo 4 says which case the point is
    in; the invariant lends the accumulator at what the point before left (at anything before the first point) and
    takes it back at this point's contents; at a last block the output tile is left at that case's contents, elsewhere
    it is handed back untouched. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).owesAt () t.succ = (dat11 V c).owesAt () t.castSucc from rfl]
  rw [show (dat11 V c).Φ t.succ = PhiS11 V c (t.val + 1) t.isLt from rfl, PhiS11_succ]
  rw [show (dat11 V c).leavesExact 0 t = owns (c : Thread nD τ) (ms11_0 t) fullShare ((dat11 V c).after 0 t) from by
      unfold Dat.leavesExact; rw [liveAt11_0 t], after11_0,
    show (dat11 V c).leavesExact 1 t = owns (c : Thread nD τ) (ms11_1 t) fullShare ((dat11 V c).after 1 t) from by
      unfold Dat.leavesExact; rw [liveAt11_1 t], after11_1,
    show (dat11 V c).leavesExact 2 t = owns (c : Thread nD τ) (ms11_2 t) fullShare ((dat11 V c).after 2 t) from by
      unfold Dat.leavesExact; rw [liveAt11_2 t], after11_2]
  have hN : t.val < 16 := lt_of_lt_of_eq t.isLt (show cfg11.N = 16 from N_11)
  by_cases h0 : t.val % 4 = 0
  · -- a first block
    have h1 : ¬t.val % 4 = 3 := by omega
    rw [Dat.leavesExact_idle (dat11 V c) 3 t (idleAt11_3 t (fun h => h1 ((hcond11_1 t).mp h))) (noFlush11_3 t (fun h => h1 ((hcond11_1 t).mp h)))]
    rw [accAt11_A V c t h0 h1]
    unfold sout11_A
    by_cases hz : t.val = 0
    · rw [PhiS11_castSucc V c t, PhiS11_zero V c _ _ hz, PhiA11_eq]
      iintro ⟨⟨⟨HS, Hbut⟩, Hg⟩, Ho, ⟨%d0, H0⟩, ⟨%d1, H1⟩, ⟨%d2, H2⟩, ⟨%d3, H3⟩⟩
      iapply ((kernelRun11_A c (grid11.coords t) _ _ _ _ _ _ _ _ _ _ ((hcond11_0 t).mpr h0) (fun h => h1 ((hcond11_1 t).mp h)) (iblk11 V c 0 t) (iblk11 V c 1 t)).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover11_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
    · rw [PhiS11_castSucc V c t, PhiS11_pos V c _ _ hz]
      iintro ⟨⟨⟨HS, Hbut⟩, Hg⟩, Ho, ⟨%d0, H0⟩, ⟨%d1, H1⟩, ⟨%d2, H2⟩, ⟨%d3, H3⟩⟩
      iapply ((kernelRun11_A c (grid11.coords t) _ _ _ _ _ _ _ _ _ _ ((hcond11_0 t).mpr h0) (fun h => h1 ((hcond11_1 t).mp h)) (iblk11 V c 0 t) (iblk11 V c 1 t)).2 Set.univ _)
      isplitl [H0]; · iexact H0
      isplitl [H1]; · iexact H1
      isplitl [HS]; · iexists _; iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover11_A c _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · -- a last block
      rw [show (dat11 V c).leavesExact 3 t = owns (c : Thread nD τ) (ms11_3 t) fullShare ((dat11 V c).after 3 t) from by
        unfold Dat.leavesExact; rw [liveAt11_3 t ((hcond11_1 t).mpr h1)], after11_3]
      rw [accAt11_C V c t h0 h1]
      unfold sout11_C outAt11
      rw [dif_pos h1]
      unfold out11_C
      rw [PhiS11_castSucc V c t, PhiS11_pos V c _ _ hz]
      iintro ⟨⟨⟨HS, Hbut⟩, Hg⟩, Ho, ⟨%d0, H0⟩, ⟨%d1, H1⟩, ⟨%d2, H2⟩, ⟨%d3, H3⟩⟩
      iapply ((kernelRun11_C c (grid11.coords t) _ _ _ _ _ _ _ _ _ _ (fun h => h0 ((hcond11_0 t).mp h)) ((hcond11_1 t).mpr h1) (iblk11 V c 0 t) (iblk11 V c 1 t) (iblk11 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hbut Hg]
      · isplitl [HS Hbut]
        · isplitl [HS]
          · unfold owns; iexists _; isplitr
            swap; · iexact HS
            ipureintro; exact View.read_writes_of_cover _ _ _ _ _ (scover11_C c _ _ _ _ _ _ _ _ _ _ _ _ _ _ _ _ _)
          iexact Hbut
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover11_C c _ _ _ _ _ _ _ _ _ _ _ _ _ _ _ _ _)
    · -- a middle block
      rw [Dat.leavesExact_idle (dat11 V c) 3 t (idleAt11_3 t (fun h => h1 ((hcond11_1 t).mp h))) (noFlush11_3 t (fun h => h1 ((hcond11_1 t).mp h)))]
      rw [accAt11_B V c t h0 h1]
      unfold sout11_B
      rw [PhiS11_castSucc V c t, PhiS11_pos V c _ _ hz]
      iintro ⟨⟨⟨HS, Hbut⟩, Hg⟩, Ho, ⟨%d0, H0⟩, ⟨%d1, H1⟩, ⟨%d2, H2⟩, ⟨%d3, H3⟩⟩
      iapply ((kernelRun11_B c (grid11.coords t) _ _ _ _ _ _ _ _ _ _ (fun h => h0 ((hcond11_0 t).mp h)) (fun h => h1 ((hcond11_1 t).mp h)) (iblk11 V c 0 t) (iblk11 V c 1 t) _).2 Set.univ _)
      isplitl [H0]; · iexact H0
      isplitl [H1]; · iexact H1
      isplitl [HS]; · iexact HS
      iintro ⟨H0, H1, ⟨%es, HS⟩⟩
      isplitl [HS Hbut Hg]
      · isplitl [HS Hbut]
        · isplitl [HS]
          · unfold owns; iexists _; isplitr
            swap; · iexact HS
            ipureintro; exact View.read_writes_of_cover _ _ _ _ _ (scover11_B c _ _ _ _ _ _ _ _ _ _ _ _ _ _ _ _)
          iexact Hbut
        iexact Hg
      isplitl [Ho]; · iexact Ho
      isplitl [H0]; · iexact H0
      isplitl [H1]; · iexact H1
      isplitl [H2]; · iexact H2
      iexists _; iexact H3

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- What the launch hands the region is the invariant before the first point. -/
theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

/-- After the last point the invariant gives the scoped rest back: what the accumulator holds is forgotten. -/
theorem hout11 (c : Dev nD) : (dat11 V c).Φ (Fin.last cfg11.N) ⊢ Pipeline.ΦA spec11 c := by
  rw [show (dat11 V c).Φ (Fin.last cfg11.N) = PhiS11 V c (Fin.last cfg11.N).val (Nat.le_of_lt_succ (Fin.last cfg11.N).isLt) from rfl,
    PhiS11_pos V c _ _ (by rw [Fin.val_last]; have : cfg11.N = 16 := N_11; omega), PhiA11_eq]
  iintro ⟨⟨HS, Hbut⟩, Hg⟩
  isplitl [HS Hbut]
  · isplitl [HS]; · iexists _; iexact HS
    iexact Hbut
  iexact Hg

end Cert.KernelIdeal.Hand

end
-- ==== Proof.KI.Seg11.lean ====
/-
  Region 11 as a segment of the program: entered with every unscoped buffer of the core at contents `Win`, left with
  them at `Wout`, where `Wout` is `Win` except that the region's arrays hold what the write-backs of its tiles leave
  (`hF`, `hrest`). The arrays are split out of the unscoped buffers on entry and put back on exit; the generator
  register goes into the region's invariant and comes back; nothing is owed; the kernel has no semaphore of its own.
-/
import proofs.«107088_j31018253811971_1_alg».proof.Proof.KI.Region11
import proofs.«107088_j31018253811971_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pdats : (p : Fin 12) → (c : Dev nD) → Dat τ (Elt F) Unit ℕ (UR sig nD τ) ℕ (cfgs p) c)
variable (Win Wout : Dev nD → Valuation τ sig (Elt F))

set_option backward.isDefEq.respectTransparency.types false in
def reg11 (hK : ∀ c, pdats 11 c = dat11 (atTc Win) c)
    (hF : ∀ c (w : Fin cfg11.W), (dat11 (atTc Win) c).arrAt w cfg11.N = atTc Wout c (Pipeline.arrRef spec11 w))
    (hrest : ∀ c, ∀ b, b ∉ Finset.univ.image (Pipeline.arrRef spec11) → atTc Wout c b = atTc Win c b) :
    Pipeline.RegionSeg (pcfgs (F := F)) adm pdats () defs₀ 𝒱₀ L lv 11 where
  win := launch11.win.to₀
  block_pos := launch11.block_pos
  stage_whole := launch11.stage_whole
  K := PEmpty
  osem k := k.elim
  ho := Pipeline.OwnSemFacts.none _
  hbody c := by rw [hK c]; exact (body_obligation11 (atTc Win) c).loose
  hwaits := Pipeline.hwaits_of_owed_zero _ _ _ _ L lv 11 fun c _ => by rw [hK c]; rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec11 c (atTc Win c)
  hentry c := by
    rw [Pipeline.ownSems0_none]
    have hsplit := Pipeline.arrays_of_unscopedBufs (p := 11) (pcfgs (F := F)) adm pdats launch11.win launch11.arr_whole c
      (by rw [hK c]; exact (dat11 (atTc Win) c).share_full fun _ => rfl) (atTc Win c) (fun w => by rw [hK c]; rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hK c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hK c]
    have h := hin11 (atTc Win) c
    unfold Pipeline.ΦA at h
    iintro ⟨Hp, -, Hr⟩
    iapply h
    isplitl [Hr]; · iexact Hr
    iexact Hp
  hout c := by
    rw [Pipeline.ownSems0_none, hK c]
    have h := hout11 (atTc Win) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c pdats (by rw [hK c]; exact (dat11 (atTc Win) c).share_full fun _ => rfl)
      (atTc Win c) (atTc Wout c) ((pdats 11 c).arrAt · cfg11.N) (fun w => by rw [hK c]; exact hF c w) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    rw [hK c]; unfold Pipeline.Dat.owesAt Pipeline.owesWithin
    icases HO with ⟨%W, -, HO⟩; iexists W; iexact HO

end Cert.KernelIdeal.Hand

end
-- ==== Proof.KI.Frame.lean ====
/-
  The frame of the whole program from its twelve regions' records: the contents of the core's unscoped buffers between
  the program's 26 items as one chain from the launch memory (a host stretch applies its operations; a region
  replaces its result array by what its write-backs leave), the proof data of every region at its entry contents,
  every region's segment record between consecutive links of the chain, and the program's conditional frame
  instantiated at them.
-/
import proofs.«107088_j31018253811971_1_alg».proof.Proof.KI.Seg0
import proofs.«107088_j31018253811971_1_alg».proof.Proof.KI.Seg1
import proofs.«107088_j31018253811971_1_alg».proof.Proof.KI.Seg2
import proofs.«107088_j31018253811971_1_alg».proof.Proof.KI.Seg3
import proofs.«107088_j31018253811971_1_alg».proof.Proof.KI.Seg4
import proofs.«107088_j31018253811971_1_alg».proof.Proof.KI.Seg5
import proofs.«107088_j31018253811971_1_alg».proof.Proof.KI.Seg6
import proofs.«107088_j31018253811971_1_alg».proof.Proof.KI.Seg7
import proofs.«107088_j31018253811971_1_alg».proof.Proof.KI.Seg8
import proofs.«107088_j31018253811971_1_alg».proof.Proof.KI.Seg9
import proofs.«107088_j31018253811971_1_alg».proof.Proof.KI.Seg10
import proofs.«107088_j31018253811971_1_alg».proof.Proof.KI.Seg11

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s unscoped buffers at launch. -/
def W0 (c : Dev nD) : Valuation τ sig (Elt F) := V0 m c
/-- After the host stretch `hostOps0`. -/
def W1 (c : Dev nD) : Valuation τ sig (Elt F) := StableHlo.after hostOps0 (W0 m c)
/-- After region 0: its result array at what the write-backs of its tiles leave, everything else as entered. -/
def W2 (c : Dev nD) : Valuation τ sig (Elt F) :=
  Function.update (W1 m c) main_v1 ((dat0 (atTc (W1 m)) c).arrAt 3 cfg0.N)
theorem W2_out (c : Dev nD) : W2 m c main_v1 = (dat0 (atTc (W1 m)) c).arrAt 3 cfg0.N := by
  unfold W2; exact Function.update_self ..
theorem W2_of_ne (c : Dev nD) (b : Ref sig .tc) (hb : b ≠ main_v1) : W2 m c b = W1 m c b := by
  unfold W2; exact Function.update_of_ne (StableHlo.devRef_ne_of_ne hb) ..
/-- After the host stretch `hostOps1`. -/
def W3 (c : Dev nD) : Valuation τ sig (Elt F) := StableHlo.after hostOps1 (W2 m c)
/-- After region 1: its result array at what the write-backs of its tiles leave, everything else as entered. -/
def W4 (c : Dev nD) : Valuation τ sig (Elt F) :=
  Function.update (W3 m c) main_v3 ((dat1 (atTc (W3 m)) c).arrAt 3 cfg1.N)
theorem W4_out (c : Dev nD) : W4 m c main_v3 = (dat1 (atTc (W3 m)) c).arrAt 3 cfg1.N := by
  unfold W4; exact Function.update_self ..
theorem W4_of_ne (c : Dev nD) (b : Ref sig .tc) (hb : b ≠ main_v3) : W4 m c b = W3 m c b := by
  unfold W4; exact Function.update_of_ne (StableHlo.devRef_ne_of_ne hb) ..
/-- After the host stretch `hostOps2`. -/
def W5 (c : Dev nD) : Valuation τ sig (Elt F) := StableHlo.after hostOps2 (W4 m c)
/-- After region 2: its result array at what the write-backs of its tiles leave, everything else as entered. -/
def W6 (c : Dev nD) : Valuation τ sig (Elt F) :=
  Function.update (W5 m c) main_v5 ((dat2 (atTc (W5 m)) c).arrAt 3 cfg2.N)
theorem W6_out (c : Dev nD) : W6 m c main_v5 = (dat2 (atTc (W5 m)) c).arrAt 3 cfg2.N := by
  unfold W6; exact Function.update_self ..
theorem W6_of_ne (c : Dev nD) (b : Ref sig .tc) (hb : b ≠ main_v5) : W6 m c b = W5 m c b := by
  unfold W6; exact Function.update_of_ne (StableHlo.devRef_ne_of_ne hb) ..
/-- After the host stretch `hostOps3`. -/
def W7 (c : Dev nD) : Valuation τ sig (Elt F) := StableHlo.after hostOps3 (W6 m c)
/-- After region 3: its result array at what the write-backs of its tiles leave, everything else as entered. -/
def W8 (c : Dev nD) : Valuation τ sig (Elt F) :=
  Function.update (W7 m c) main_v7 ((dat3 (atTc (W7 m)) c).arrAt 3 cfg3.N)
theorem W8_out (c : Dev nD) : W8 m c main_v7 = (dat3 (atTc (W7 m)) c).arrAt 3 cfg3.N := by
  unfold W8; exact Function.update_self ..
theorem W8_of_ne (c : Dev nD) (b : Ref sig .tc) (hb : b ≠ main_v7) : W8 m c b = W7 m c b := by
  unfold W8; exact Function.update_of_ne (StableHlo.devRef_ne_of_ne hb) ..
/-- After region 4: its result array at what the write-backs of its tiles leave, everything else as entered. -/
def W9 (c : Dev nD) : Valuation τ sig (Elt F) :=
  Function.update (W8 m c) main_v8 ((dat4 (atTc (W8 m)) c).arrAt 2 cfg4.N)
theorem W9_out (c : Dev nD) : W9 m c main_v8 = (dat4 (atTc (W8 m)) c).arrAt 2 cfg4.N := by
  unfold W9; exact Function.update_self ..
theorem W9_of_ne (c : Dev nD) (b : Ref sig .tc) (hb : b ≠ main_v8) : W9 m c b = W8 m c b := by
  unfold W9; exact Function.update_of_ne (StableHlo.devRef_ne_of_ne hb) ..
/-- After the host stretch `hostOps5`. -/
def W10 (c : Dev nD) : Valuation τ sig (Elt F) := StableHlo.after hostOps5 (W9 m c)
/-- After the host stretch `hostOps5_1`. -/
def W11 (c : Dev nD) : Valuation τ sig (Elt F) := StableHlo.after hostOps5_1 (W10 m c)
/-- After the host stretch `hostOps5_2`. -/
def W12 (c : Dev nD) : Valuation τ sig (Elt F) := StableHlo.after hostOps5_2 (W11 m c)
/-- After the host stretch `hostOps5_3`. -/
def W13 (c : Dev nD) : Valuation τ sig (Elt F) := StableHlo.after hostOps5_3 (W12 m c)
/-- After region 5: its result array at what the write-backs of its tiles leave, everything else as entered. -/
def W14 (c : Dev nD) : Valuation τ sig (Elt F) :=
  Function.update (W13 m c) main_v43 ((dat5 (atTc (W13 m)) c).arrAt 3 cfg5.N)
theorem W14_out (c : Dev nD) : W14 m c main_v43 = (dat5 (atTc (W13 m)) c).arrAt 3 cfg5.N := by
  unfold W14; exact Function.update_self ..
theorem W14_of_ne (c : Dev nD) (b : Ref sig .tc) (hb : b ≠ main_v43) : W14 m c b = W13 m c b := by
  unfold W14; exact Function.update_of_ne (StableHlo.devRef_ne_of_ne hb) ..
/-- After the host stretch `hostOps6`. -/
def W15 (c : Dev nD) : Valuation τ sig (Elt F) := StableHlo.after hostOps6 (W14 m c)
/-- After region 6: its result array at what the write-backs of its tiles leave, everything else as entered. -/
def W16 (c : Dev nD) : Valuation τ sig (Elt F) :=
  Function.update (W15 m c) main_v45 ((dat6 (atTc (W15 m)) c).arrAt 3 cfg6.N)
theorem W16_out (c : Dev nD) : W16 m c main_v45 = (dat6 (atTc (W15 m)) c).arrAt 3 cfg6.N := by
  unfold W16; exact Function.update_self ..
theorem W16_of_ne (c : Dev nD) (b : Ref sig .tc) (hb : b ≠ main_v45) : W16 m c b = W15 m c b := by
  unfold W16; exact Function.update_of_ne (StableHlo.devRef_ne_of_ne hb) ..
/-- After the host stretch `hostOps7`. -/
def W17 (c : Dev nD) : Valuation τ sig (Elt F) := StableHlo.after hostOps7 (W16 m c)
/-- After region 7: its result array at what the write-backs of its tiles leave, everything else as entered. -/
def W18 (c : Dev nD) : Valuation τ sig (Elt F) :=
  Function.update (W17 m c) main_v47 ((dat7 (atTc (W17 m)) c).arrAt 3 cfg7.N)
theorem W18_out (c : Dev nD) : W18 m c main_v47 = (dat7 (atTc (W17 m)) c).arrAt 3 cfg7.N := by
  unfold W18; exact Function.update_self ..
theorem W18_of_ne (c : Dev nD) (b : Ref sig .tc) (hb : b ≠ main_v47) : W18 m c b = W17 m c b := by
  unfold W18; exact Function.update_of_ne (StableHlo.devRef_ne_of_ne hb) ..
/-- After the host stretch `hostOps8`. -/
def W19 (c : Dev nD) : Valuation τ sig (Elt F) := StableHlo.after hostOps8 (W18 m c)
/-- After region 8: its result array at what the write-backs of its tiles leave, everything else as entered. -/
def W20 (c : Dev nD) : Valuation τ sig (Elt F) :=
  Function.update (W19 m c) main_v49 ((dat8 (atTc (W19 m)) c).arrAt 3 cfg8.N)
theorem W20_out (c : Dev nD) : W20 m c main_v49 = (dat8 (atTc (W19 m)) c).arrAt 3 cfg8.N := by
  unfold W20; exact Function.update_self ..
theorem W20_of_ne (c : Dev nD) (b : Ref sig .tc) (hb : b ≠ main_v49) : W20 m c b = W19 m c b := by
  unfold W20; exact Function.update_of_ne (StableHlo.devRef_ne_of_ne hb) ..
/-- After the host stretch `hostOps9`. -/
def W21 (c : Dev nD) : Valuation τ sig (Elt F) := StableHlo.after hostOps9 (W20 m c)
/-- After region 9: its result array at what the write-backs of its tiles leave, everything else as entered. -/
def W22 (c : Dev nD) : Valuation τ sig (Elt F) :=
  Function.update (W21 m c) main_v51 ((dat9 (atTc (W21 m)) c).arrAt 3 cfg9.N)
theorem W22_out (c : Dev nD) : W22 m c main_v51 = (dat9 (atTc (W21 m)) c).arrAt 3 cfg9.N := by
  unfold W22; exact Function.update_self ..
theorem W22_of_ne (c : Dev nD) (b : Ref sig .tc) (hb : b ≠ main_v51) : W22 m c b = W21 m c b := by
  unfold W22; exact Function.update_of_ne (StableHlo.devRef_ne_of_ne hb) ..
/-- After the host stretch `hostOps10`. -/
def W23 (c : Dev nD) : Valuation τ sig (Elt F) := StableHlo.after hostOps10 (W22 m c)
/-- After region 10: its result array at what the write-backs of its tiles leave, everything else as entered. -/
def W24 (c : Dev nD) : Valuation τ sig (Elt F) :=
  Function.update (W23 m c) main_v53 ((dat10 (atTc (W23 m)) c).arrAt 3 cfg10.N)
theorem W24_out (c : Dev nD) : W24 m c main_v53 = (dat10 (atTc (W23 m)) c).arrAt 3 cfg10.N := by
  unfold W24; exact Function.update_self ..
theorem W24_of_ne (c : Dev nD) (b : Ref sig .tc) (hb : b ≠ main_v53) : W24 m c b = W23 m c b := by
  unfold W24; exact Function.update_of_ne (StableHlo.devRef_ne_of_ne hb) ..
/-- After the host stretch `hostOps11`. -/
def W25 (c : Dev nD) : Valuation τ sig (Elt F) := StableHlo.after hostOps11 (W24 m c)
/-- After region 11: its result array at what the write-backs of its tiles leave, everything else as entered. -/
def W26 (c : Dev nD) : Valuation τ sig (Elt F) :=
  Function.update (W25 m c) main_v55 ((dat11 (atTc (W25 m)) c).arrAt 3 cfg11.N)
theorem W26_out (c : Dev nD) : W26 m c main_v55 = (dat11 (atTc (W25 m)) c).arrAt 3 cfg11.N := by
  unfold W26; exact Function.update_self ..
theorem W26_of_ne (c : Dev nD) (b : Ref sig .tc) (hb : b ≠ main_v55) : W26 m c b = W25 m c b := by
  unfold W26; exact Function.update_of_ne (StableHlo.devRef_ne_of_ne hb) ..

/-- What each region leaves, as the family the conditional frame is stated over: the contents of `r` after item `J - 1`. -/
def outs : Outs (F := F) := fun J r c => match J with
  | 2 => W2 m c r
  | 4 => W4 m c r
  | 6 => W6 m c r
  | 8 => W8 m c r
  | 9 => W9 m c r
  | 14 => W14 m c r
  | 16 => W16 m c r
  | 18 => W18 m c r
  | 20 => W20 m c r
  | 22 => W22 m c r
  | 24 => W24 m c r
  | 26 => W26 m c r
  | _ => W0 m c r

/-! ## The chain is the one the conditional frame is stated over -/

theorem V0_eq (c : Dev nD) : V0 m c = W0 m c := rfl
theorem V1_eq (c : Dev nD) : V1 m c = W1 m c := by
  show StableHlo.after hostOps0 (V0 m c) = StableHlo.after hostOps0 (W0 m c)
  rw [V0_eq]
theorem V2_eq (c : Dev nD) : V2 m (outs m) c = W2 m c := by
  have e : outs m 2 main_v1 c = (dat0 (atTc (W1 m)) c).arrAt 3 cfg0.N := W2_out m c
  show Function.update (V1 m c) main_v1 (outs m 2 main_v1 c)
    = Function.update (W1 m c) main_v1 ((dat0 (atTc (W1 m)) c).arrAt 3 cfg0.N)
  rw [V1_eq, e]
theorem V3_eq (c : Dev nD) : V3 m (outs m) c = W3 m c := by
  show StableHlo.after hostOps1 (V2 m (outs m) c) = StableHlo.after hostOps1 (W2 m c)
  rw [V2_eq]
theorem V4_eq (c : Dev nD) : V4 m (outs m) c = W4 m c := by
  have e : outs m 4 main_v3 c = (dat1 (atTc (W3 m)) c).arrAt 3 cfg1.N := W4_out m c
  show Function.update (V3 m (outs m) c) main_v3 (outs m 4 main_v3 c)
    = Function.update (W3 m c) main_v3 ((dat1 (atTc (W3 m)) c).arrAt 3 cfg1.N)
  rw [V3_eq, e]
theorem V5_eq (c : Dev nD) : V5 m (outs m) c = W5 m c := by
  show StableHlo.after hostOps2 (V4 m (outs m) c) = StableHlo.after hostOps2 (W4 m c)
  rw [V4_eq]
theorem V6_eq (c : Dev nD) : V6 m (outs m) c = W6 m c := by
  have e : outs m 6 main_v5 c = (dat2 (atTc (W5 m)) c).arrAt 3 cfg2.N := W6_out m c
  show Function.update (V5 m (outs m) c) main_v5 (outs m 6 main_v5 c)
    = Function.update (W5 m c) main_v5 ((dat2 (atTc (W5 m)) c).arrAt 3 cfg2.N)
  rw [V5_eq, e]
theorem V7_eq (c : Dev nD) : V7 m (outs m) c = W7 m c := by
  show StableHlo.after hostOps3 (V6 m (outs m) c) = StableHlo.after hostOps3 (W6 m c)
  rw [V6_eq]
theorem V8_eq (c : Dev nD) : V8 m (outs m) c = W8 m c := by
  have e : outs m 8 main_v7 c = (dat3 (atTc (W7 m)) c).arrAt 3 cfg3.N := W8_out m c
  show Function.update (V7 m (outs m) c) main_v7 (outs m 8 main_v7 c)
    = Function.update (W7 m c) main_v7 ((dat3 (atTc (W7 m)) c).arrAt 3 cfg3.N)
  rw [V7_eq, e]
theorem V9_eq (c : Dev nD) : V9 m (outs m) c = W9 m c := by
  have e : outs m 9 main_v8 c = (dat4 (atTc (W8 m)) c).arrAt 2 cfg4.N := W9_out m c
  show Function.update (V8 m (outs m) c) main_v8 (outs m 9 main_v8 c)
    = Function.update (W8 m c) main_v8 ((dat4 (atTc (W8 m)) c).arrAt 2 cfg4.N)
  rw [V8_eq, e]
theorem V10_eq (c : Dev nD) : V10 m (outs m) c = W10 m c := by
  show StableHlo.after hostOps5 (V9 m (outs m) c) = StableHlo.after hostOps5 (W9 m c)
  rw [V9_eq]
theorem V11_eq (c : Dev nD) : V11 m (outs m) c = W11 m c := by
  show StableHlo.after hostOps5_1 (V10 m (outs m) c) = StableHlo.after hostOps5_1 (W10 m c)
  rw [V10_eq]
theorem V12_eq (c : Dev nD) : V12 m (outs m) c = W12 m c := by
  show StableHlo.after hostOps5_2 (V11 m (outs m) c) = StableHlo.after hostOps5_2 (W11 m c)
  rw [V11_eq]
theorem V13_eq (c : Dev nD) : V13 m (outs m) c = W13 m c := by
  show StableHlo.after hostOps5_3 (V12 m (outs m) c) = StableHlo.after hostOps5_3 (W12 m c)
  rw [V12_eq]
theorem V14_eq (c : Dev nD) : V14 m (outs m) c = W14 m c := by
  have e : outs m 14 main_v43 c = (dat5 (atTc (W13 m)) c).arrAt 3 cfg5.N := W14_out m c
  show Function.update (V13 m (outs m) c) main_v43 (outs m 14 main_v43 c)
    = Function.update (W13 m c) main_v43 ((dat5 (atTc (W13 m)) c).arrAt 3 cfg5.N)
  rw [V13_eq, e]
theorem V15_eq (c : Dev nD) : V15 m (outs m) c = W15 m c := by
  show StableHlo.after hostOps6 (V14 m (outs m) c) = StableHlo.after hostOps6 (W14 m c)
  rw [V14_eq]
theorem V16_eq (c : Dev nD) : V16 m (outs m) c = W16 m c := by
  have e : outs m 16 main_v45 c = (dat6 (atTc (W15 m)) c).arrAt 3 cfg6.N := W16_out m c
  show Function.update (V15 m (outs m) c) main_v45 (outs m 16 main_v45 c)
    = Function.update (W15 m c) main_v45 ((dat6 (atTc (W15 m)) c).arrAt 3 cfg6.N)
  rw [V15_eq, e]
theorem V17_eq (c : Dev nD) : V17 m (outs m) c = W17 m c := by
  show StableHlo.after hostOps7 (V16 m (outs m) c) = StableHlo.after hostOps7 (W16 m c)
  rw [V16_eq]
theorem V18_eq (c : Dev nD) : V18 m (outs m) c = W18 m c := by
  have e : outs m 18 main_v47 c = (dat7 (atTc (W17 m)) c).arrAt 3 cfg7.N := W18_out m c
  show Function.update (V17 m (outs m) c) main_v47 (outs m 18 main_v47 c)
    = Function.update (W17 m c) main_v47 ((dat7 (atTc (W17 m)) c).arrAt 3 cfg7.N)
  rw [V17_eq, e]
theorem V19_eq (c : Dev nD) : V19 m (outs m) c = W19 m c := by
  show StableHlo.after hostOps8 (V18 m (outs m) c) = StableHlo.after hostOps8 (W18 m c)
  rw [V18_eq]
theorem V20_eq (c : Dev nD) : V20 m (outs m) c = W20 m c := by
  have e : outs m 20 main_v49 c = (dat8 (atTc (W19 m)) c).arrAt 3 cfg8.N := W20_out m c
  show Function.update (V19 m (outs m) c) main_v49 (outs m 20 main_v49 c)
    = Function.update (W19 m c) main_v49 ((dat8 (atTc (W19 m)) c).arrAt 3 cfg8.N)
  rw [V19_eq, e]
theorem V21_eq (c : Dev nD) : V21 m (outs m) c = W21 m c := by
  show StableHlo.after hostOps9 (V20 m (outs m) c) = StableHlo.after hostOps9 (W20 m c)
  rw [V20_eq]
theorem V22_eq (c : Dev nD) : V22 m (outs m) c = W22 m c := by
  have e : outs m 22 main_v51 c = (dat9 (atTc (W21 m)) c).arrAt 3 cfg9.N := W22_out m c
  show Function.update (V21 m (outs m) c) main_v51 (outs m 22 main_v51 c)
    = Function.update (W21 m c) main_v51 ((dat9 (atTc (W21 m)) c).arrAt 3 cfg9.N)
  rw [V21_eq, e]
theorem V23_eq (c : Dev nD) : V23 m (outs m) c = W23 m c := by
  show StableHlo.after hostOps10 (V22 m (outs m) c) = StableHlo.after hostOps10 (W22 m c)
  rw [V22_eq]
theorem V24_eq (c : Dev nD) : V24 m (outs m) c = W24 m c := by
  have e : outs m 24 main_v53 c = (dat10 (atTc (W23 m)) c).arrAt 3 cfg10.N := W24_out m c
  show Function.update (V23 m (outs m) c) main_v53 (outs m 24 main_v53 c)
    = Function.update (W23 m c) main_v53 ((dat10 (atTc (W23 m)) c).arrAt 3 cfg10.N)
  rw [V23_eq, e]
theorem V25_eq (c : Dev nD) : V25 m (outs m) c = W25 m c := by
  show StableHlo.after hostOps11 (V24 m (outs m) c) = StableHlo.after hostOps11 (W24 m c)
  rw [V24_eq]
theorem V26_eq (c : Dev nD) : V26 m (outs m) c = W26 m c := by
  have e : outs m 26 main_v55 c = (dat11 (atTc (W25 m)) c).arrAt 3 cfg11.N := W26_out m c
  show Function.update (V25 m (outs m) c) main_v55 (outs m 26 main_v55 c)
    = Function.update (W25 m c) main_v55 ((dat11 (atTc (W25 m)) c).arrAt 3 cfg11.N)
  rw [V25_eq, e]

/-! ## What each region leaves unchanged -/

/-- At region 0's exit each of its arrays holds what the pipeline leaves (an input array is never written back) and
    every other buffer what it held at entry. -/
theorem hF0 (c : Dev nD) (w : Fin cfg0.W) : (dat0 (atTc (W1 m)) c).arrAt w cfg0.N = atTc (W2 m) c (Pipeline.arrRef spec0 w) := by
  have hin : ∀ w : Fin cfg0.W, w ≠ 3 → (cfg0.win w).isOut = false := by decide +kernel
  have hne : ∀ w : Fin cfg0.W, w ≠ 3 → Pipeline.arrRef spec0 w ≠ main_v1 := by decide +kernel
  by_cases hw : w = 3
  · subst hw
    exact (W2_out m c).symm
  · rw [(dat0 (atTc (W1 m)) c).arrAt_in w (hin w hw) _, A_eq0]
    exact (W2_of_ne m c _ (hne w hw)).symm
theorem hrest0 (c : Dev nD) : ∀ b, b ∉ Finset.univ.image (Pipeline.arrRef spec0) → atTc (W2 m) c b = atTc (W1 m) c b :=
  fun b hb => W2_of_ne m c b (fun e => hb (Finset.mem_image.mpr ⟨3, Finset.mem_univ _, by subst e; decide +kernel⟩))
/-- At region 1's exit each of its arrays holds what the pipeline leaves (an input array is never written back) and
    every other buffer what it held at entry. -/
theorem hF1 (c : Dev nD) (w : Fin cfg1.W) : (dat1 (atTc (W3 m)) c).arrAt w cfg1.N = atTc (W4 m) c (Pipeline.arrRef spec1 w) := by
  have hin : ∀ w : Fin cfg1.W, w ≠ 3 → (cfg1.win w).isOut = false := by decide +kernel
  have hne : ∀ w : Fin cfg1.W, w ≠ 3 → Pipeline.arrRef spec1 w ≠ main_v3 := by decide +kernel
  by_cases hw : w = 3
  · subst hw
    exact (W4_out m c).symm
  · rw [(dat1 (atTc (W3 m)) c).arrAt_in w (hin w hw) _, A_eq1]
    exact (W4_of_ne m c _ (hne w hw)).symm
theorem hrest1 (c : Dev nD) : ∀ b, b ∉ Finset.univ.image (Pipeline.arrRef spec1) → atTc (W4 m) c b = atTc (W3 m) c b :=
  fun b hb => W4_of_ne m c b (fun e => hb (Finset.mem_image.mpr ⟨3, Finset.mem_univ _, by subst e; decide +kernel⟩))
/-- At region 2's exit each of its arrays holds what the pipeline leaves (an input array is never written back) and
    every other buffer what it held at entry. -/
theorem hF2 (c : Dev nD) (w : Fin cfg2.W) : (dat2 (atTc (W5 m)) c).arrAt w cfg2.N = atTc (W6 m) c (Pipeline.arrRef spec2 w) := by
  have hin : ∀ w : Fin cfg2.W, w ≠ 3 → (cfg2.win w).isOut = false := by decide +kernel
  have hne : ∀ w : Fin cfg2.W, w ≠ 3 → Pipeline.arrRef spec2 w ≠ main_v5 := by decide +kernel
  by_cases hw : w = 3
  · subst hw
    exact (W6_out m c).symm
  · rw [(dat2 (atTc (W5 m)) c).arrAt_in w (hin w hw) _, A_eq2]
    exact (W6_of_ne m c _ (hne w hw)).symm
theorem hrest2 (c : Dev nD) : ∀ b, b ∉ Finset.univ.image (Pipeline.arrRef spec2) → atTc (W6 m) c b = atTc (W5 m) c b :=
  fun b hb => W6_of_ne m c b (fun e => hb (Finset.mem_image.mpr ⟨3, Finset.mem_univ _, by subst e; decide +kernel⟩))
/-- At region 3's exit each of its arrays holds what the pipeline leaves (an input array is never written back) and
    every other buffer what it held at entry. -/
theorem hF3 (c : Dev nD) (w : Fin cfg3.W) : (dat3 (atTc (W7 m)) c).arrAt w cfg3.N = atTc (W8 m) c (Pipeline.arrRef spec3 w) := by
  have hin : ∀ w : Fin cfg3.W, w ≠ 3 → (cfg3.win w).isOut = false := by decide +kernel
  have hne : ∀ w : Fin cfg3.W, w ≠ 3 → Pipeline.arrRef spec3 w ≠ main_v7 := by decide +kernel
  by_cases hw : w = 3
  · subst hw
    exact (W8_out m c).symm
  · rw [(dat3 (atTc (W7 m)) c).arrAt_in w (hin w hw) _, A_eq3]
    exact (W8_of_ne m c _ (hne w hw)).symm
theorem hrest3 (c : Dev nD) : ∀ b, b ∉ Finset.univ.image (Pipeline.arrRef spec3) → atTc (W8 m) c b = atTc (W7 m) c b :=
  fun b hb => W8_of_ne m c b (fun e => hb (Finset.mem_image.mpr ⟨3, Finset.mem_univ _, by subst e; decide +kernel⟩))
/-- At region 4's exit each of its arrays holds what the pipeline leaves (an input array is never written back) and
    every other buffer what it held at entry. -/
theorem hF4 (c : Dev nD) (w : Fin cfg4.W) : (dat4 (atTc (W8 m)) c).arrAt w cfg4.N = atTc (W9 m) c (Pipeline.arrRef spec4 w) := by
  have hin : ∀ w : Fin cfg4.W, w ≠ 2 → (cfg4.win w).isOut = false := by decide +kernel
  have hne : ∀ w : Fin cfg4.W, w ≠ 2 → Pipeline.arrRef spec4 w ≠ main_v8 := by decide +kernel
  by_cases hw : w = 2
  · subst hw
    exact (W9_out m c).symm
  · rw [(dat4 (atTc (W8 m)) c).arrAt_in w (hin w hw) _, A_eq4]
    exact (W9_of_ne m c _ (hne w hw)).symm
theorem hrest4 (c : Dev nD) : ∀ b, b ∉ Finset.univ.image (Pipeline.arrRef spec4) → atTc (W9 m) c b = atTc (W8 m) c b :=
  fun b hb => W9_of_ne m c b (fun e => hb (Finset.mem_image.mpr ⟨2, Finset.mem_univ _, by subst e; decide +kernel⟩))
/-- At region 5's exit each of its arrays holds what the pipeline leaves (an input array is never written back) and
    every other buffer what it held at entry. -/
theorem hF5 (c : Dev nD) (w : Fin cfg5.W) : (dat5 (atTc (W13 m)) c).arrAt w cfg5.N = atTc (W14 m) c (Pipeline.arrRef spec5 w) := by
  have hin : ∀ w : Fin cfg5.W, w ≠ 3 → (cfg5.win w).isOut = false := by decide +kernel
  have hne : ∀ w : Fin cfg5.W, w ≠ 3 → Pipeline.arrRef spec5 w ≠ main_v43 := by decide +kernel
  by_cases hw : w = 3
  · subst hw
    exact (W14_out m c).symm
  · rw [(dat5 (atTc (W13 m)) c).arrAt_in w (hin w hw) _, A_eq5]
    exact (W14_of_ne m c _ (hne w hw)).symm
theorem hrest5 (c : Dev nD) : ∀ b, b ∉ Finset.univ.image (Pipeline.arrRef spec5) → atTc (W14 m) c b = atTc (W13 m) c b :=
  fun b hb => W14_of_ne m c b (fun e => hb (Finset.mem_image.mpr ⟨3, Finset.mem_univ _, by subst e; decide +kernel⟩))
/-- At region 6's exit each of its arrays holds what the pipeline leaves (an input array is never written back) and
    every other buffer what it held at entry. -/
theorem hF6 (c : Dev nD) (w : Fin cfg6.W) : (dat6 (atTc (W15 m)) c).arrAt w cfg6.N = atTc (W16 m) c (Pipeline.arrRef spec6 w) := by
  have hin : ∀ w : Fin cfg6.W, w ≠ 3 → (cfg6.win w).isOut = false := by decide +kernel
  have hne : ∀ w : Fin cfg6.W, w ≠ 3 → Pipeline.arrRef spec6 w ≠ main_v45 := by decide +kernel
  by_cases hw : w = 3
  · subst hw
    exact (W16_out m c).symm
  · rw [(dat6 (atTc (W15 m)) c).arrAt_in w (hin w hw) _, A_eq6]
    exact (W16_of_ne m c _ (hne w hw)).symm
theorem hrest6 (c : Dev nD) : ∀ b, b ∉ Finset.univ.image (Pipeline.arrRef spec6) → atTc (W16 m) c b = atTc (W15 m) c b :=
  fun b hb => W16_of_ne m c b (fun e => hb (Finset.mem_image.mpr ⟨3, Finset.mem_univ _, by subst e; decide +kernel⟩))
/-- At region 7's exit each of its arrays holds what the pipeline leaves (an input array is never written back) and
    every other buffer what it held at entry. -/
theorem hF7 (c : Dev nD) (w : Fin cfg7.W) : (dat7 (atTc (W17 m)) c).arrAt w cfg7.N = atTc (W18 m) c (Pipeline.arrRef spec7 w) := by
  have hin : ∀ w : Fin cfg7.W, w ≠ 3 → (cfg7.win w).isOut = false := by decide +kernel
  have hne : ∀ w : Fin cfg7.W, w ≠ 3 → Pipeline.arrRef spec7 w ≠ main_v47 := by decide +kernel
  by_cases hw : w = 3
  · subst hw
    exact (W18_out m c).symm
  · rw [(dat7 (atTc (W17 m)) c).arrAt_in w (hin w hw) _, A_eq7]
    exact (W18_of_ne m c _ (hne w hw)).symm
theorem hrest7 (c : Dev nD) : ∀ b, b ∉ Finset.univ.image (Pipeline.arrRef spec7) → atTc (W18 m) c b = atTc (W17 m) c b :=
  fun b hb => W18_of_ne m c b (fun e => hb (Finset.mem_image.mpr ⟨3, Finset.mem_univ _, by subst e; decide +kernel⟩))
/-- At region 8's exit each of its arrays holds what the pipeline leaves (an input array is never written back) and
    every other buffer what it held at entry. -/
theorem hF8 (c : Dev nD) (w : Fin cfg8.W) : (dat8 (atTc (W19 m)) c).arrAt w cfg8.N = atTc (W20 m) c (Pipeline.arrRef spec8 w) := by
  have hin : ∀ w : Fin cfg8.W, w ≠ 3 → (cfg8.win w).isOut = false := by decide +kernel
  have hne : ∀ w : Fin cfg8.W, w ≠ 3 → Pipeline.arrRef spec8 w ≠ main_v49 := by decide +kernel
  by_cases hw : w = 3
  · subst hw
    exact (W20_out m c).symm
  · rw [(dat8 (atTc (W19 m)) c).arrAt_in w (hin w hw) _, A_eq8]
    exact (W20_of_ne m c _ (hne w hw)).symm
theorem hrest8 (c : Dev nD) : ∀ b, b ∉ Finset.univ.image (Pipeline.arrRef spec8) → atTc (W20 m) c b = atTc (W19 m) c b :=
  fun b hb => W20_of_ne m c b (fun e => hb (Finset.mem_image.mpr ⟨3, Finset.mem_univ _, by subst e; decide +kernel⟩))
/-- At region 9's exit each of its arrays holds what the pipeline leaves (an input array is never written back) and
    every other buffer what it held at entry. -/
theorem hF9 (c : Dev nD) (w : Fin cfg9.W) : (dat9 (atTc (W21 m)) c).arrAt w cfg9.N = atTc (W22 m) c (Pipeline.arrRef spec9 w) := by
  have hin : ∀ w : Fin cfg9.W, w ≠ 3 → (cfg9.win w).isOut = false := by decide +kernel
  have hne : ∀ w : Fin cfg9.W, w ≠ 3 → Pipeline.arrRef spec9 w ≠ main_v51 := by decide +kernel
  by_cases hw : w = 3
  · subst hw
    exact (W22_out m c).symm
  · rw [(dat9 (atTc (W21 m)) c).arrAt_in w (hin w hw) _, A_eq9]
    exact (W22_of_ne m c _ (hne w hw)).symm
theorem hrest9 (c : Dev nD) : ∀ b, b ∉ Finset.univ.image (Pipeline.arrRef spec9) → atTc (W22 m) c b = atTc (W21 m) c b :=
  fun b hb => W22_of_ne m c b (fun e => hb (Finset.mem_image.mpr ⟨3, Finset.mem_univ _, by subst e; decide +kernel⟩))
/-- At region 10's exit each of its arrays holds what the pipeline leaves (an input array is never written back) and
    every other buffer what it held at entry. -/
theorem hF10 (c : Dev nD) (w : Fin cfg10.W) : (dat10 (atTc (W23 m)) c).arrAt w cfg10.N = atTc (W24 m) c (Pipeline.arrRef spec10 w) := by
  have hin : ∀ w : Fin cfg10.W, w ≠ 3 → (cfg10.win w).isOut = false := by decide +kernel
  have hne : ∀ w : Fin cfg10.W, w ≠ 3 → Pipeline.arrRef spec10 w ≠ main_v53 := by decide +kernel
  by_cases hw : w = 3
  · subst hw
    exact (W24_out m c).symm
  · rw [(dat10 (atTc (W23 m)) c).arrAt_in w (hin w hw) _, A_eq10]
    exact (W24_of_ne m c _ (hne w hw)).symm
theorem hrest10 (c : Dev nD) : ∀ b, b ∉ Finset.univ.image (Pipeline.arrRef spec10) → atTc (W24 m) c b = atTc (W23 m) c b :=
  fun b hb => W24_of_ne m c b (fun e => hb (Finset.mem_image.mpr ⟨3, Finset.mem_univ _, by subst e; decide +kernel⟩))
/-- At region 11's exit each of its arrays holds what the pipeline leaves (an input array is never written back) and
    every other buffer what it held at entry. -/
theorem hF11 (c : Dev nD) (w : Fin cfg11.W) : (dat11 (atTc (W25 m)) c).arrAt w cfg11.N = atTc (W26 m) c (Pipeline.arrRef spec11 w) := by
  have hin : ∀ w : Fin cfg11.W, w ≠ 3 → (cfg11.win w).isOut = false := by decide +kernel
  have hne : ∀ w : Fin cfg11.W, w ≠ 3 → Pipeline.arrRef spec11 w ≠ main_v55 := by decide +kernel
  by_cases hw : w = 3
  · subst hw
    exact (W26_out m c).symm
  · rw [(dat11 (atTc (W25 m)) c).arrAt_in w (hin w hw) _, A_eq11]
    exact (W26_of_ne m c _ (hne w hw)).symm
theorem hrest11 (c : Dev nD) : ∀ b, b ∉ Finset.univ.image (Pipeline.arrRef spec11) → atTc (W26 m) c b = atTc (W25 m) c b :=
  fun b hb => W26_of_ne m c b (fun e => hb (Finset.mem_image.mpr ⟨3, Finset.mem_univ _, by subst e; decide +kernel⟩))

/-! ## The proof data family -/

/-- Every region's proof data, each at its entry contents. -/
def pdats : (p : Fin 12) → (c : Dev nD) → Dat τ (Elt F) Unit ℕ (UR sig nD τ) ℕ (cfgs p) c
  | ⟨0, _⟩ => fun c => dat0 (atTc (W1 m)) c
  | ⟨1, _⟩ => fun c => dat1 (atTc (W3 m)) c
  | ⟨2, _⟩ => fun c => dat2 (atTc (W5 m)) c
  | ⟨3, _⟩ => fun c => dat3 (atTc (W7 m)) c
  | ⟨4, _⟩ => fun c => dat4 (atTc (W8 m)) c
  | ⟨5, _⟩ => fun c => dat5 (atTc (W13 m)) c
  | ⟨6, _⟩ => fun c => dat6 (atTc (W15 m)) c
  | ⟨7, _⟩ => fun c => dat7 (atTc (W17 m)) c
  | ⟨8, _⟩ => fun c => dat8 (atTc (W19 m)) c
  | ⟨9, _⟩ => fun c => dat9 (atTc (W21 m)) c
  | ⟨10, _⟩ => fun c => dat10 (atTc (W23 m)) c
  | ⟨11, _⟩ => fun c => dat11 (atTc (W25 m)) c

/-! ## The frame -/

set_option backward.isDefEq.respectTransparency.types false in
/-- Every weakly fair execution of the program from memory `m` with zero counters terminates, nothing faulting, and
    every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine frame_cond m (emb₁) () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := ?hu) (E := fun _ c => R c) (hE0 := ?hE0) (hE12 := ?hE12)
    (R0 := reg0 (pdats m) (W1 m) (W2 m) (fun _ => rfl) (hF0 m) (hrest0 m)) (hpre0 := fun c => by rw [V1_eq]; exact .rfl) (hpost0 := fun c => by rw [V2_eq]; exact .rfl)
    (R1 := reg1 (pdats m) (W3 m) (W4 m) (fun _ => rfl) (hF1 m) (hrest1 m)) (hpre1 := fun c => by rw [V3_eq]; exact .rfl) (hpost1 := fun c => by rw [V4_eq]; exact .rfl)
    (R2 := reg2 (pdats m) (W5 m) (W6 m) (fun _ => rfl) (hF2 m) (hrest2 m)) (hpre2 := fun c => by rw [V5_eq]; exact .rfl) (hpost2 := fun c => by rw [V6_eq]; exact .rfl)
    (R3 := reg3 (pdats m) (W7 m) (W8 m) (fun _ => rfl) (hF3 m) (hrest3 m)) (hpre3 := fun c => by rw [V7_eq]; exact .rfl) (hpost3 := fun c => by rw [V8_eq]; exact .rfl)
    (R4 := reg4 (pdats m) (W8 m) (W9 m) (fun _ => rfl) (hF4 m) (hrest4 m)) (hpre4 := fun c => by rw [V8_eq]; exact .rfl) (hpost4 := fun c => by rw [V9_eq]; exact .rfl)
    (R5 := reg5 (pdats m) (W13 m) (W14 m) (fun _ => rfl) (hF5 m) (hrest5 m)) (hpre5 := fun c => by rw [V13_eq]; exact .rfl) (hpost5 := fun c => by rw [V14_eq]; exact .rfl)
    (R6 := reg6 (pdats m) (W15 m) (W16 m) (fun _ => rfl) (hF6 m) (hrest6 m)) (hpre6 := fun c => by rw [V15_eq]; exact .rfl) (hpost6 := fun c => by rw [V16_eq]; exact .rfl)
    (R7 := reg7 (pdats m) (W17 m) (W18 m) (fun _ => rfl) (hF7 m) (hrest7 m)) (hpre7 := fun c => by rw [V17_eq]; exact .rfl) (hpost7 := fun c => by rw [V18_eq]; exact .rfl)
    (R8 := reg8 (pdats m) (W19 m) (W20 m) (fun _ => rfl) (hF8 m) (hrest8 m)) (hpre8 := fun c => by rw [V19_eq]; exact .rfl) (hpost8 := fun c => by rw [V20_eq]; exact .rfl)
    (R9 := reg9 (pdats m) (W21 m) (W22 m) (fun _ => rfl) (hF9 m) (hrest9 m)) (hpre9 := fun c => by rw [V21_eq]; exact .rfl) (hpost9 := fun c => by rw [V22_eq]; exact .rfl)
    (R10 := reg10 (pdats m) (W23 m) (W24 m) (fun _ => rfl) (hF10 m) (hrest10 m)) (hpre10 := fun c => by rw [V23_eq]; exact .rfl) (hpost10 := fun c => by rw [V24_eq]; exact .rfl)
    (R11 := reg11 (pdats m) (W25 m) (W26 m) (fun _ => rfl) (hF11 m) (hrest11 m)) (hpre11 := fun c => by rw [V25_eq]; exact .rfl) (hpost11 := fun c => by rw [V26_eq]; exact .rfl)
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach L lv fun c => ?_
    iintro ⟨⟨-, HO, -, Hp, -⟩, -⟩
    imodintro
    isplitl [Hp]; · iexists _; iexact Hp
    iexists ∅; iexact HO
  case hE12 =>
    intro c
    iintro ⟨-, HO⟩
    iexact HO

end Cert.KernelIdeal.Hand

end
-- ==== Proof.KI.RunCond.lean ====
/-
  The run of the idealized kernel program with its two results named: the program's conditional frame restated with
  the result arrays read off the last link of the chain of buffer contents, instantiated at the twelve regions'
  records. What the value equation then needs is only what that last link holds at the two result references.
-/
import proofs.«107088_j31018253811971_1_alg».proof.Proof.KI.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- THE RUN WITH THE RESULTS NAMED. The program's conditional frame with a stronger post: given the regions' records, every
    weakly fair execution terminates with the two result arrays at what the last link of the chain of buffer contents
    holds for them, and every argument array as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 12) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 13 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE12 : ∀ c : Dev nD, E 12 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V8 m outs c) ∗ E 4 c) ⊢ R4.pre c)
    (hpost4 : ∀ c : Dev nD, R4.post c ⊢ iprop(StableHlo.held (c : Thread nD τ) (Pipeline.ucRefs τ sig) (V9 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V13 m outs c) ∗ E 5 c) ⊢ R5.pre c)
    (hpost5 : ∀ c : Dev nD, R5.post c ⊢ iprop(StableHlo.held (c : Thread nD τ) (Pipeline.ucRefs τ sig) (V14 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V15 m outs c) ∗ E 6 c) ⊢ R6.pre c)
    (hpost6 : ∀ c : Dev nD, R6.post c ⊢ iprop(StableHlo.held (c : Thread nD τ) (Pipeline.ucRefs τ sig) (V16 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V17 m outs c) ∗ E 7 c) ⊢ R7.pre c)
    (hpost7 : ∀ c : Dev nD, R7.post c ⊢ iprop(StableHlo.held (c : Thread nD τ) (Pipeline.ucRefs τ sig) (V18 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V19 m outs c) ∗ E 8 c) ⊢ R8.pre c)
    (hpost8 : ∀ c : Dev nD, R8.post c ⊢ iprop(StableHlo.held (c : Thread nD τ) (Pipeline.ucRefs τ sig) (V20 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V21 m outs c) ∗ E 9 c) ⊢ R9.pre c)
    (hpost9 : ∀ c : Dev nD, R9.post c ⊢ iprop(StableHlo.held (c : Thread nD τ) (Pipeline.ucRefs τ sig) (V22 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V23 m outs c) ∗ E 10 c) ⊢ R10.pre c)
    (hpost10 : ∀ c : Dev nD, R10.post c ⊢ iprop(StableHlo.held (c : Thread nD τ) (Pipeline.ucRefs τ sig) (V24 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V25 m outs c) ∗ E 11 c) ⊢ R11.pre c)
    (hpost11 : ∀ c : Dev nD, R11.post c ⊢ iprop(StableHlo.held (c : Thread nD τ) (Pipeline.ucRefs τ sig) (V26 m outs c) ∗ E 12 c)) :
    θ_run defs (onTc (τ := τ) (main (F := F))) ⟨m, fun _ => 0, ρ⟩ (fun r => ∀ c : Dev nD,
      r.2.mem ((c.tc : Thread nD τ).loc main_v55) = V26 m outs c main_v55
      ∧ r.2.mem ((c.tc : Thread nD τ).loc main_v8) = V26 m outs c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11)
    (fun c Q => by
      rewrite [main_chain c, Seg.run_eq_chain,
        show (segs m outs 𝒱₀ L lv E ι pdats R0 R1 R2 R3 R4 R5 R6 R7 R8 R9 R10 R11 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5,
          StableHlo.seq hostOps5_1,
          StableHlo.seq hostOps5_2,
          StableHlo.seq hostOps5_3,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V26 m outs c))
    (hch := fun c => ⟨.rfl, hpre0 c, hpost0 c, hpre1 c, hpost1 c, hpre2 c, hpost2 c, hpre3 c, (hpost3 c).trans (hpre4 c), hpost4 c, .rfl, .rfl, .rfl, hpre5 c, hpost5 c, hpre6 c, hpost6 c, hpre7 c, hpost7 c, hpre8 c, hpost8 c, hpre9 c, hpost9 c, hpre10 c, hpost10 c, hpre11 c, (hpost11 c).trans (sep_mono .rfl (hE12 c))⟩)
    (hinit := ?_) (QY := fun c s => s.mem ((c.tc : Thread nD τ).loc main_v55) = V26 m outs c main_v55 ∧ s.mem ((c.tc : Thread nD τ).loc main_v8) = V26 m outs c main_v8 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V26 m outs c) s') $$ [Hh HSI]
    · isplitl [Hh] <;> iassumption
    icases Hr with ⟨%h, HSI⟩
    imodintro
    isplitr
    · ipureintro
      exact ⟨h (Proc.devRef .tc main_v55) (Finset.mem_filter.mpr ⟨StableHlo.devRef_mem_tcRefs main_v55, by decide⟩),
        h (Proc.devRef .tc main_v8) (Finset.mem_filter.mpr ⟨StableHlo.devRef_mem_tcRefs main_v8, by decide⟩),
        (h (Proc.devRef .tc main_arg0) (Finset.mem_filter.mpr ⟨StableHlo.devRef_mem_tcRefs main_arg0, by decide⟩)).trans (V26_main_arg0 m outs c),
        (h (Proc.devRef .tc main_arg1) (Finset.mem_filter.mpr ⟨StableHlo.devRef_mem_tcRefs main_arg1, by decide⟩)).trans (V26_main_arg1 m outs c),
        (h (Proc.devRef .tc main_arg2) (Finset.mem_filter.mpr ⟨StableHlo.devRef_mem_tcRefs main_arg2, by decide⟩)).trans (V26_main_arg2 m outs c),
        (h (Proc.devRef .tc main_arg3) (Finset.mem_filter.mpr ⟨StableHlo.devRef_mem_tcRefs main_arg3, by decide⟩)).trans (V26_main_arg3 m outs c),
        (h (Proc.devRef .tc main_arg4) (Finset.mem_filter.mpr ⟨StableHlo.devRef_mem_tcRefs main_arg4, by decide⟩)).trans (V26_main_arg4 m outs c),
        (h (Proc.devRef .tc main_arg5) (Finset.mem_filter.mpr ⟨StableHlo.devRef_mem_tcRefs main_arg5, by decide⟩)).trans (V26_main_arg5 m outs c),
        (h (Proc.devRef .tc main_arg6) (Finset.mem_filter.mpr ⟨StableHlo.devRef_mem_tcRefs main_arg6, by decide⟩)).trans (V26_main_arg6 m outs c),
        (h (Proc.devRef .tc main_arg7) (Finset.mem_filter.mpr ⟨StableHlo.devRef_mem_tcRefs main_arg7, by decide⟩)).trans (V26_main_arg7 m outs c),
        (h (Proc.devRef .tc main_arg8) (Finset.mem_filter.mpr ⟨StableHlo.devRef_mem_tcRefs main_arg8, by decide⟩)).trans (V26_main_arg8 m outs c),
        (h (Proc.devRef .tc main_arg9) (Finset.mem_filter.mpr ⟨StableHlo.devRef_mem_tcRefs main_arg9, by decide⟩)).trans (V26_main_arg9 m outs c),
        (h (Proc.devRef .tc main_arg10) (Finset.mem_filter.mpr ⟨StableHlo.devRef_mem_tcRefs main_arg10, by decide⟩)).trans (V26_main_arg10 m outs c)⟩
    · iexact HSI

set_option backward.isDefEq.respectTransparency.types false in
/-- Every weakly fair execution of the program from memory `m` with zero counters terminates with the class scores at what
    region 11 leaves, the edge logits at what region 4 leaves (no later item writes them), and every argument as launched. -/
theorem runV (ρ : Dev nD → PrngReg) :
    θ_run defs (onTc (τ := τ) (main (F := F))) ⟨m, fun _ => 0, ρ⟩ (fun r => ∀ c : Dev nD,
      r.2.mem ((c.tc : Thread nD τ).loc main_v55) = V26 m (outs m) c main_v55
      ∧ r.2.mem ((c.tc : Thread nD τ).loc main_v8) = V26 m (outs m) c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine run_cond m (emb₁) () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := ?hu) (E := fun _ c => R c) (hE0 := ?hE0) (hE12 := ?hE12)
    (R0 := reg0 (pdats m) (W1 m) (W2 m) (fun _ => rfl) (hF0 m) (hrest0 m)) (hpre0 := fun c => by rw [V1_eq]; exact .rfl) (hpost0 := fun c => by rw [V2_eq]; exact .rfl)
    (R1 := reg1 (pdats m) (W3 m) (W4 m) (fun _ => rfl) (hF1 m) (hrest1 m)) (hpre1 := fun c => by rw [V3_eq]; exact .rfl) (hpost1 := fun c => by rw [V4_eq]; exact .rfl)
    (R2 := reg2 (pdats m) (W5 m) (W6 m) (fun _ => rfl) (hF2 m) (hrest2 m)) (hpre2 := fun c => by rw [V5_eq]; exact .rfl) (hpost2 := fun c => by rw [V6_eq]; exact .rfl)
    (R3 := reg3 (pdats m) (W7 m) (W8 m) (fun _ => rfl) (hF3 m) (hrest3 m)) (hpre3 := fun c => by rw [V7_eq]; exact .rfl) (hpost3 := fun c => by rw [V8_eq]; exact .rfl)
    (R4 := reg4 (pdats m) (W8 m) (W9 m) (fun _ => rfl) (hF4 m) (hrest4 m)) (hpre4 := fun c => by rw [V8_eq]; exact .rfl) (hpost4 := fun c => by rw [V9_eq]; exact .rfl)
    (R5 := reg5 (pdats m) (W13 m) (W14 m) (fun _ => rfl) (hF5 m) (hrest5 m)) (hpre5 := fun c => by rw [V13_eq]; exact .rfl) (hpost5 := fun c => by rw [V14_eq]; exact .rfl)
    (R6 := reg6 (pdats m) (W15 m) (W16 m) (fun _ => rfl) (hF6 m) (hrest6 m)) (hpre6 := fun c => by rw [V15_eq]; exact .rfl) (hpost6 := fun c => by rw [V16_eq]; exact .rfl)
    (R7 := reg7 (pdats m) (W17 m) (W18 m) (fun _ => rfl) (hF7 m) (hrest7 m)) (hpre7 := fun c => by rw [V17_eq]; exact .rfl) (hpost7 := fun c => by rw [V18_eq]; exact .rfl)
    (R8 := reg8 (pdats m) (W19 m) (W20 m) (fun _ => rfl) (hF8 m) (hrest8 m)) (hpre8 := fun c => by rw [V19_eq]; exact .rfl) (hpost8 := fun c => by rw [V20_eq]; exact .rfl)
    (R9 := reg9 (pdats m) (W21 m) (W22 m) (fun _ => rfl) (hF9 m) (hrest9 m)) (hpre9 := fun c => by rw [V21_eq]; exact .rfl) (hpost9 := fun c => by rw [V22_eq]; exact .rfl)
    (R10 := reg10 (pdats m) (W23 m) (W24 m) (fun _ => rfl) (hF10 m) (hrest10 m)) (hpre10 := fun c => by rw [V23_eq]; exact .rfl) (hpost10 := fun c => by rw [V24_eq]; exact .rfl)
    (R11 := reg11 (pdats m) (W25 m) (W26 m) (fun _ => rfl) (hF11 m) (hrest11 m)) (hpre11 := fun c => by rw [V25_eq]; exact .rfl) (hpost11 := fun c => by rw [V26_eq]; exact .rfl)
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach L lv fun c => ?_
    iintro ⟨⟨-, HO, -, Hp, -⟩, -⟩
    imodintro
    isplitl [Hp]; · iexists _; iexact Hp
    iexists ∅; iexact HO
  case hE12 =>
    intro c
    iintro ⟨-, HO⟩
    iexact HO

/-- The same with the results at the chain's last link: the class scores are what region 11 leaves; the edge logits are
    read at the last link too (no item after region 4 writes them). -/
theorem run (ρ : Dev nD → PrngReg) :
    θ_run defs (onTc (τ := τ) (main (F := F))) ⟨m, fun _ => 0, ρ⟩ (fun r => ∀ c : Dev nD,
      r.2.mem ((c.tc : Thread nD τ).loc main_v55) = W26 m c main_v55
      ∧ r.2.mem ((c.tc : Thread nD τ).loc main_v8) = W26 m c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono ?_ (runV m ρ)
  intro r h c
  have h' := h c
  rw [V26_eq m c] at h'
  exact h'

end Cert.KernelIdeal.Hand

end
-- ==== Proof.LibWholeTile.lean ====
/-
  Whole-buffer stores read back.

  When a kernel body stores a whole buffer and later loads the whole buffer, the load reads that store's payload,
  whatever was stored before: the last whole store covers every index. The load is stated as a read of the list of
  stores so far, last first; this is the case of a list whose head is a whole store.
-/
import Idealize.ShloMosaic.Lib.Pipeline.Value

noncomputable section

namespace Cert.Lib.WholeTile

open Idealize.ShloMosaic

/-- A load of the whole buffer after a store of the whole buffer, whatever was stored before, reads that store's payload. -/
theorem readCov_cons_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- The zero offset of a rank-2 rectangle. -/
theorem hz2 : (![0, 0] : Fin 2 → Nat) = fun _ => 0 := by funext a; fin_cases a <;> rfl

end Cert.Lib.WholeTile

end
-- ==== Proof.LibPlainDot.lean ====
/-
  A plain matrix product read at an index.

  For the dimension numbers of an [M, K] by [K, N] product (contract the left operand's axis 1 with the right
  operand's axis 0, no batch axis) the contraction index has one coordinate, which ranges over `Fin K`; entry
  `(p, q)` of the product is `Σ_k lhs (p, k) · rhs (k, q)`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The left operand is read in the output's row. -/
theorem lhs_row (i : (⟨2, ![M, N]⟩ : Shape).Idx) (k : (DotDims.plain M K N).contr.Idx) :
    ((DotDims.plain M K N).lhsIdx i k 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand is read in the output's column. -/
theorem rhs_col (i : (⟨2, ![M, N]⟩ : Shape).Idx) (k : (DotDims.plain M K N).contr.Idx) :
    ((DotDims.plain M K N).rhsIdx i k 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product at `(p, q)` is the sum over `k : Fin K` of `lhs (p, k) · rhs (k, q)`. -/
theorem contr_sum (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact rhs_col _ _)
  rw [el, er]

/-- A matrix-unit product into a zero accumulator, at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact contr_sum lhs rhs p q

end Cert.PlainDot

end
-- ==== Proof.LibBlockedSum.lean ====
/-
  A sum accumulated block by block.

  A contraction over `4 · B` indices computed as four partial sums over consecutive blocks of `B` indices, each added
  to the running total starting from zero, is the whole sum: addition of extended reals is associative and
  commutative (no finiteness is needed). Stated for a summand given on the natural numbers, so that no index has to
  be cast between `Fin` types.
-/
import Mathlib.Algebra.BigOperators.Fin
import Mathlib.Algebra.BigOperators.Intervals
import Mathlib.Tactic.Ring

noncomputable section

namespace Cert.Lib.BlockedSum

open scoped BigOperators

/-- Summing over `Fin n` a summand given on the naturals is summing it over `range n`. -/
theorem sum_fin_val {M : Type*} [AddCommMonoid M] (n : ℕ) (f : ℕ → M) : ∑ k : Fin n, f k.val = ∑ k ∈ Finset.range n, f k :=
  (Finset.sum_range f).symm

/-- Four consecutive blocks of `B` indices, accumulated from zero in order, give the sum over all `4 · B` indices. -/
theorem sum_four_blocks {M : Type*} [AddCommMonoid M] (B : ℕ) (f : ℕ → M) :
    ((((0 : M) + ∑ k : Fin B, f (0 * B + k.val)) + ∑ k : Fin B, f (1 * B + k.val)) + ∑ k : Fin B, f (2 * B + k.val)) + ∑ k : Fin B, f (3 * B + k.val)
      = ∑ k : Fin (4 * B), f k.val := by
  simp only [Nat.zero_mul, Nat.zero_add]
  rw [zero_add, sum_fin_val B f, sum_fin_val B (fun k => f (1 * B + k)), sum_fin_val B (fun k => f (2 * B + k)),
    sum_fin_val B (fun k => f (3 * B + k)), sum_fin_val (4 * B) f,
    show 4 * B = B + B + B + B by ring, Finset.sum_range_add, Finset.sum_range_add, Finset.sum_range_add]
  congr 1
  · congr 1
    · congr 1
      exact Finset.sum_congr rfl fun k _ => by rw [one_mul]
    · exact Finset.sum_congr rfl fun k _ => by rw [two_mul]
  · exact Finset.sum_congr rfl fun k _ => by rw [show 3 * B = B + B + B by ring]

end Cert.Lib.BlockedSum

end
-- ==== Proof.KI.ValBase.lean ====
/-
  What the regions' value modules share: entry (r, q) of a matrix product with a bias row, and the imports.
-/
import proofs.«107088_j31018253811971_1_alg».proof.Proof.LibWholeTile
import proofs.«107088_j31018253811971_1_alg».proof.Proof.LibPlainDot
import Idealize.ShloMosaic.Lib.ValueIdx
import Idealize.ShloMosaic.Lib.ValueLayout
import Idealize.ShloMosaic.Lib.Pipeline.Value
import proofs.«107088_j31018253811971_1_alg».proof.Proof.LibBlockedSum

noncomputable section

namespace Cert.KernelIdeal.Hand

open Idealize.ShloMosaic Idealize.ShloMosaic.ValueIdx
open scoped BigOperators

/-- Entry (r, q) of a product with a bias row: the sum over k of a(r, k) · b(k, q), plus bias(0, q). -/
def gemmAt {M K N : Nat} (a : (⟨2, ![M, K]⟩ : Shape).Idx → EReal) (b : (⟨2, ![K, N]⟩ : Shape).Idx → EReal)
    (bias : (⟨2, ![1, N]⟩ : Shape).Idx → EReal) (r : Fin M) (q : Fin N) : EReal :=
  (∑ k : Fin K, a (ix2 r k) * b (ix2 k q)) + bias (ix2 (0 : Fin 1) q)

/-- The summand of a contraction over 4096 at row `r` and column `q`, as a function on the naturals (zero past the end). -/
def blkF {N : Nat} (a : (⟨2, ![4096, 4096]⟩ : Shape).Idx → EReal) (b : (⟨2, ![4096, N]⟩ : Shape).Idx → EReal) (r : Fin 4096) (q : Fin N) : ℕ → EReal :=
  fun n => if h : n < 4096 then a (ix2 r (⟨n, h⟩ : Fin 4096)) * b (ix2 (⟨n, h⟩ : Fin 4096) q) else 0

/-- Four blocks of 1024, accumulated from zero in order, give the sum over 4096 (extended reals). -/
theorem sum_four_blocks_ereal (f : ℕ → EReal) :
    (((((0 : EReal) + ∑ k : Fin 1024, f (0 * 1024 + k.val)) + ∑ k : Fin 1024, f (1 * 1024 + k.val)) + ∑ k : Fin 1024, f (2 * 1024 + k.val)) + ∑ k : Fin 1024, f (3 * 1024 + k.val))
      = ∑ k : Fin 4096, f k.val :=
  Cert.Lib.BlockedSum.sum_four_blocks 1024 f

/-- The whole contraction is the sum of the block summand. -/
theorem sum_blkF {N : Nat} (a : (⟨2, ![4096, 4096]⟩ : Shape).Idx → EReal) (b : (⟨2, ![4096, N]⟩ : Shape).Idx → EReal) (r : Fin 4096) (q : Fin N) :
    (∑ k : Fin 4096, blkF a b r q k.val) = ∑ k : Fin 4096, a (ix2 r k) * b (ix2 k q) :=
  Finset.sum_congr rfl fun k _ => by unfold blkF; exact dif_pos k.isLt

end Cert.KernelIdeal.Hand

end
-- ==== Proof.KI.Val0.lean ====
/-
  Region 0's values over the extended reals: what the body's stores leave in the output tile as the payload
  expression of the three input tiles; that expression read at an index (entry (p, q) of a tile of the result is
  the sum over k of x0(p, k) · x1(k, q) plus the bias entry (0, q): the accumulator starts from zero and a change of
  float format is the identity at this instance); and from tiles to the array: tile p of the result array is rows
  1024p … 1024p + 1023 of ONE function of the three arrays, and the four tiles fill the array.
-/
import proofs.«107088_j31018253811971_1_alg».proof.Proof.KI.Region0
import proofs.«107088_j31018253811971_1_alg».proof.Proof.KI.ValBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.WholeTile

section Generic
variable {F : FTy → Type} [FloatOps F]

/-- The output tile after the body is the read-out payload of the accumulated payload of the zeroed accumulator. -/
theorem out0_3_eq (c : Dev nD) (i : grid0.Coords)
    (arg2 : Memref sig .tc .vmem S1024x512 .f32) (harg2 : arg2.IsWhole) (arg3 : Memref sig .tc .vmem S512x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond0_0 i) (hc1 : cond0_1 i)
    (x0 : Vec F S1024x512 .f32) (x1 : Vec F S512x256 .f32) (x2 : Vec F S1x256 .f32) :
    out0_3 c i arg2 harg2 arg3 harg3 arg4 harg4 arg5 harg5 arg6 harg6 hc0 hc1 x0 x1 x2
      = k0_pay3 (k0_pay2 x0 x1 (k0_pay1 (F := F))) x2 := by
  unfold out0_3
  rw [View.read_writes_eq_canon _ _ _ (cover0_3 c i arg2 harg2 arg3 harg3 arg4 harg4 arg5 harg5 arg6 harg6 hc0 hc1 x0 x1 x2)]
  unfold kernelRun0
  dsimp only
  sl_unfold_words
  refine (View.canon_unit_zero (S := S1024x256) hz2 _ _).trans ?_
  rw [readCov_cons_whole (S := S1024x256) arg6.view hz2, View.readCov_unit_zero (S := S1024x256) arg6.view hz2]
  simp only [View.readAt_eq_ld, harg2.read_unread, harg3.read_unread, harg4.read_unread]
  rw [View.ld_unit_zero (S := S1024x512) hz2, View.ld_unit_zero (S := S512x256) hz2, View.ld_unit_zero (S := S1x256) hz2]

end Generic

/-- The zeroed accumulator at an index. -/
theorem pay0_1_apply (p : Fin 1024) (q : Fin 256) : k0_pay1 (F := Ideal) (ix2 p q) = 0 := by
  unfold k0_pay1
  try dsimp only
  simp only [shapeCast_self]
  exact Ideal.ofBits_zero_f32

/-- One block's product added to the accumulator, at an index: entry (p, q) gains the sum over k of x0(p, k) · x1(k, q). -/
theorem pay0_2_apply (x0 : Vec Ideal S1024x512 .f32) (x1 : Vec Ideal S512x256 .f32) (xs : Vec Ideal S1024x256 .f32) (p : Fin 1024) (q : Fin 256) :
    k0_pay2 (F := Ideal) x0 x1 xs (ix2 p q) = xs (ix2 p q) + ∑ k : Fin 512, x0 (ix2 p k) * x1 (ix2 k q) := by
  unfold k0_pay2
  try dsimp only
  simp only [shapeCast_self]
  exact congrArg (fun a : EReal => xs (ix2 p q) + a) (Cert.PlainDot.matmul_zero_apply (M := 1024) (K := 512) (N := 256) none _ _ p q)

/-- The read-out at an index: the accumulator's entry plus the bias row's. -/
theorem pay0_3_apply (acc : Vec Ideal S1024x256 .f32) (x2 : Vec Ideal S1x256 .f32) (p : Fin 1024) (q : Fin 256) :
    k0_pay3 (F := Ideal) acc x2 (ix2 p q) = acc (ix2 p q) + x2 (ix2 (0 : Fin 1) q) := by
  unfold k0_pay3
  try dsimp only
  simp only [shapeCast_self]
  have hb : broadcastTo S1024x256 x2 broadcasts_S1x256_S1024x256 (ix2 p q) = x2 (ix2 (0 : Fin 1) q) :=
    broadcastTo_1b_ab_apply x2 _ p q
  exact congrArg (fun a : EReal => acc (ix2 p q) + a) hb

/-! ## From tiles to the array -/

/-- The whole result array, index by index. -/
def G0 (a : S4096x512.Idx → EReal) (b : S512x256.Idx → EReal) (bias : S1x256.Idx → EReal) : S4096x256.Idx → EReal :=
  fun j => gemmAt (M := 4096) (K := 512) (N := 256) a b bias (j 0) (j 1)

variable (V : (c : Dev nD) → (b : Ref sig .tc) → Buf (Elt Ideal) ((c : Thread nD τ).loc b))

/-- The printed tile indices, decided over the grid: the left operand's row tile is the output's, every other tile
    index is 0, and the output's row tile is at most 3. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 3 :=
  (by decide +kernel : ∀ t : Fin grid0.N, _)

/-- Every row tile is some point's. -/
theorem idx_onto0 : ∀ q0 : Fin 4, ∃ t : Fin cfg0.N, win0_3.index t = ![q0.val, 0] :=
  (by decide +kernel : ∀ q0 : Fin 4, ∃ t : Fin grid0.N, win0_3.index t = ![q0.val, 0])

/-- WHAT POINT `t` WRITES BACK is tile `t` of `G0` of the three arrays as the region finds them. -/
theorem flushed0_eq (c : Dev nD) (t : Fin cfg0.N) :
    (dat0 (F := Ideal) V c).flushed 3 t = ((cfg0.win 3).blk t).view.read (Elt Ideal) (G0 (V c main_arg2) (V c main_arg3) (V c main_v0)) := by
  show (cfg0.win 3).cut (grid0.coords t) ((dat0 (F := Ideal) V c).after 3 t) = _
  rw [after0_3]
  unfold outAt0
  rw [out0_3_eq]
  obtain ⟨e00, e01, e10, e11, e20, e21, e31, e3b⟩ := idx_facts0 t
  funext y
  obtain ⟨p, q, rfl⟩ : ∃ (p : Fin 1024) (q : Fin 256), y = ix2 p q := ⟨y 0, y 1, eq_ix2 y⟩
  have hr : ((cfg0.win 3).blk t).view.emb (ix2 p q) = ix2 (⟨win0_3.index t (0 : Fin 2) * 1024 + p.val, by have := p.isLt; omega⟩ : Fin 4096) q := by
    funext a; apply Fin.ext
    match a with
    | ⟨0, _⟩ => show win0_3.index t (0 : Fin 2) * 1024 + 1 * p.val = win0_3.index t (0 : Fin 2) * 1024 + p.val; omega
    | ⟨1, _⟩ => show win0_3.index t (1 : Fin 2) * 256 + 1 * q.val = q.val; omega
  show k0_pay3 (F := Ideal) (k0_pay2 (F := Ideal) (iblk0 V c 0 t) (iblk0 V c 1 t) (k0_pay1 (F := Ideal))) (iblk0 V c 2 t) (ix2 p q)
    = G0 (V c main_arg2) (V c main_arg3) (V c main_v0) (((cfg0.win 3).blk t).view.emb (ix2 p q))
  rw [pay0_3_apply, pay0_2_apply, pay0_1_apply, zero_add, hr]
  show _ = gemmAt (M := 4096) (K := 512) (N := 256) (V c main_arg2) (V c main_arg3) (V c main_v0) _ q
  unfold gemmAt
  have hA : ∀ k : Fin 512, iblk0 V c 0 t (ix2 p k) = V c main_arg2 (ix2 (⟨win0_3.index t (0 : Fin 2) * 1024 + p.val, by have := p.isLt; omega⟩ : Fin 4096) k) := fun k => by
    show V c main_arg2 (((cfg0.win 0).blk t).view.emb (ix2 p k)) = _
    refine congrArg _ (funext fun a => Fin.ext ?_)
    match a with
    | ⟨0, _⟩ => show win0_0.index t (0 : Fin 2) * 1024 + 1 * p.val = win0_3.index t (0 : Fin 2) * 1024 + p.val; omega
    | ⟨1, _⟩ => show win0_0.index t (1 : Fin 2) * 512 + 1 * k.val = k.val; omega
  have hB : ∀ k : Fin 512, iblk0 V c 1 t (ix2 k q) = V c main_arg3 (ix2 k q) := fun k => by
    show V c main_arg3 (((cfg0.win 1).blk t).view.emb (ix2 k q)) = _
    refine congrArg _ (funext fun a => Fin.ext ?_)
    match a with
    | ⟨0, _⟩ => show win0_1.index t (0 : Fin 2) * 512 + 1 * k.val = k.val; omega
    | ⟨1, _⟩ => show win0_1.index t (1 : Fin 2) * 256 + 1 * q.val = q.val; omega
  have hC : iblk0 V c 2 t (ix2 (0 : Fin 1) q) = V c main_v0 (ix2 (0 : Fin 1) q) := by
    show V c main_v0 (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * q.val = q.val; omega
  rw [hC]
  exact congrArg (· + _) (Finset.sum_congr rfl fun k _ => by rw [hA k, hB k])

/-- An index of the result array is in point `t`'s tile iff each coordinate is in the tile's range on its axis. -/
theorem mem_blk0 (t : Fin cfg0.N) (i : S4096x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v1).slice (win0_3.rect t)).set ↔ _
  rw [View.set_slice_whole, Rect.mem_set_unit]
  exact Iff.rfl

/-- The four row tiles fill the result array: row `r` is in tile `r / 1024`. -/
theorem cover0 (i : S4096x256.Idx) : ∃ t : Fin cfg0.N, (cfg0.win 3).flush t = true ∧ i ∈ ((cfg0.win 3).blk t).view.set := by
  have hi0 : (i 0).val < 4096 := (i 0).isLt
  have hi1 : (i 1).val < 256 := (i 1).isLt
  obtain ⟨t, ht⟩ := idx_onto0 ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

/-- THE RESULT ARRAY after the region: `G0` of the three arrays as the region finds them. -/
theorem final0 (c : Dev nD) : (dat0 (F := Ideal) V c).arrAt 3 cfg0.N = G0 (V c main_arg2) (V c main_arg3) (V c main_v0) :=
  (dat0 (F := Ideal) V c).arrAt_eq_of_cover 3 (G0 (V c main_arg2) (V c main_arg3) (V c main_v0)) (fun t _ => flushed0_eq V c t) cover0

end Cert.KernelIdeal.Hand

end
-- ==== Proof.KI.Val1.lean ====
/-
  Region 1's values over the extended reals: what each case's stores leave in the accumulator and in the output tile as
  payload expressions; the read-out at a last block unrolled over the four points of its row tile (the accumulator
  zeroed, then four block products added in order); the block products read in the arrays (block b of the
  contraction is columns 1024b … 1024b + 1023 of the left operand against the same rows of the right operand); the
  four partial sums regrouped as the one sum over 4096; and from tiles to the array.
-/
import proofs.«107088_j31018253811971_1_alg».proof.Proof.KI.Region1
import proofs.«107088_j31018253811971_1_alg».proof.Proof.KI.ValBase
import proofs.«107088_j31018253811971_1_alg».proof.Proof.LibBlockedSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.WholeTile

section Generic
variable {F : FTy → Type} [FloatOps F]

/-- After a first block the accumulator holds that block's product added to zero. -/
theorem sout1_A_eq (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond1_0 i) (hc1 : ¬cond1_1 i) (x0 : Vec F S1024x1024 .f32) (x1 : Vec F S1024x256 .bf16) :
    sout1_A c i arg2 harg2 arg3 harg3 arg4 harg4 arg5 harg5 arg6 harg6 hc0 hc1 x0 x1 = k1_pay2 x0 x1 (k1_pay1 (F := F)) := by
  unfold sout1_A
  rw [View.read_writes_eq_canon _ _ _ (scover1_A c i arg2 harg2 arg3 harg3 arg4 harg4 arg5 harg5 arg6 harg6 hc0 hc1 x0 x1)]
  unfold kernelRun1_A
  dsimp only
  sl_unfold_words
  refine (View.canon_cons_unit_zero (S := S1024x256) hz2 _ _ _).trans ?_
  rw [View.readCov_unit_zero (S := S1024x256) arg6.view hz2]
  simp only [View.readAt_eq_ld, harg2.read_unread, harg3.read_unread, harg4.read_unread, harg6.read_unread, View.ld_unit_zero (S := S1024x1024) hz2, View.ld_unit_zero (S := S1024x256) hz2, View.ld_unit_zero (S := S1x256) hz2]

/-- After a middle block: this block's product added to what the point before left. -/
theorem sout1_B_eq (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond1_0 i) (hc1 : ¬cond1_1 i) (x0 : Vec F S1024x1024 .f32) (x1 : Vec F S1024x256 .bf16) (xs : Vec F S1024x256 .f32) :
    sout1_B c i arg2 harg2 arg3 harg3 arg4 harg4 arg5 harg5 arg6 harg6 hc0 hc1 x0 x1 xs = k1_pay2 x0 x1 xs := by
  unfold sout1_B
  rw [View.read_writes_eq_canon _ _ _ (scover1_B c i arg2 harg2 arg3 harg3 arg4 harg4 arg5 harg5 arg6 harg6 hc0 hc1 x0 x1 xs)]
  unfold kernelRun1_B
  dsimp only
  sl_unfold_words
  refine (View.canon_unit_zero (S := S1024x256) hz2 _ _).trans ?_
  simp only [View.readAt_eq_ld, harg2.read_unread, harg3.read_unread, harg4.read_unread, harg6.read_unread, View.ld_unit_zero (S := S1024x1024) hz2, View.ld_unit_zero (S := S1024x256) hz2, View.ld_unit_zero (S := S1x256) hz2]

/-- At a last block the output tile holds the read-out of this block's product added to what the point before left. -/
theorem out1_C_eq (c : Dev nD) (i : grid1.Coords) (arg2 : Memref sig .tc .vmem S1024x1024 .f32) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond1_0 i) (hc1 : cond1_1 i) (x0 : Vec F S1024x1024 .f32) (x1 : Vec F S1024x256 .bf16) (x2 : Vec F S1x256 .f32) (xs : Vec F S1024x256 .f32) :
    out1_C c i arg2 harg2 arg3 harg3 arg4 harg4 arg5 harg5 arg6 harg6 hc0 hc1 x0 x1 x2 xs = k1_pay3 (k1_pay2 x0 x1 xs) x2 := by
  unfold out1_C
  rw [View.read_writes_eq_canon _ _ _ (cover1_C c i arg2 harg2 arg3 harg3 arg4 harg4 arg5 harg5 arg6 harg6 hc0 hc1 x0 x1 x2 xs)]
  unfold kernelRun1_C
  dsimp only
  sl_unfold_words
  refine (View.canon_unit_zero (S := S1024x256) hz2 _ _).trans ?_
  rw [View.readCov_unit_zero (S := S1024x256) arg6.view hz2]
  simp only [View.readAt_eq_ld, harg2.read_unread, harg3.read_unread, harg4.read_unread, harg6.read_unread, View.ld_unit_zero (S := S1024x1024) hz2, View.ld_unit_zero (S := S1024x256) hz2, View.ld_unit_zero (S := S1x256) hz2]

end Generic

/-- The zeroed accumulator at an index. -/
theorem pay1_1_apply (p : Fin 1024) (q : Fin 256) : k1_pay1 (F := Ideal) (ix2 p q) = 0 := by
  unfold k1_pay1
  try dsimp only
  simp only [shapeCast_self]
  exact Ideal.ofBits_zero_f32

/-- One block's product added to the accumulator, at an index: entry (p, q) gains the sum over k of x0(p, k) · x1(k, q). -/
theorem pay1_2_apply (x0 : Vec Ideal S1024x1024 .f32) (x1 : Vec Ideal S1024x256 .bf16) (xs : Vec Ideal S1024x256 .f32) (p : Fin 1024) (q : Fin 256) :
    k1_pay2 (F := Ideal) x0 x1 xs (ix2 p q) = xs (ix2 p q) + ∑ k : Fin 1024, x0 (ix2 p k) * x1 (ix2 k q) := by
  unfold k1_pay2
  try dsimp only
  simp only [shapeCast_self]
  exact congrArg (fun a : EReal => xs (ix2 p q) + a) (Cert.PlainDot.matmul_zero_apply (M := 1024) (K := 1024) (N := 256) none _ _ p q)

/-- The read-out at an index: the accumulator's entry plus the bias row's. -/
theorem pay1_3_apply (acc : Vec Ideal S1024x256 .f32) (x2 : Vec Ideal S1x256 .f32) (p : Fin 1024) (q : Fin 256) :
    k1_pay3 (F := Ideal) acc x2 (ix2 p q) = acc (ix2 p q) + x2 (ix2 (0 : Fin 1) q) := by
  unfold k1_pay3
  try dsimp only
  simp only [shapeCast_self]
  have hb : broadcastTo S1024x256 x2 broadcasts_S1x256_S1024x256 (ix2 p q) = x2 (ix2 (0 : Fin 1) q) :=
    broadcastTo_1b_ab_apply x2 _ p q
  exact congrArg (fun a : EReal => acc (ix2 p q) + a) hb

/-! ## From tiles to the array -/

/-- The whole result array, index by index. -/
def G1 (a : S4096x4096.Idx → EReal) (b : S4096x256.Idx → EReal) (bias : S1x256.Idx → EReal) : S4096x256.Idx → EReal :=
  fun j => gemmAt (M := 4096) (K := 4096) (N := 256) a b bias (j 0) (j 1)

variable (V : (c : Dev nD) → (b : Ref sig .tc) → Buf (Elt Ideal) ((c : Thread nD τ).loc b))

/-- The printed tile indices, decided over pairs of points of one row tile: the left operand's tile is (the output's
    row tile, the point's block), the right operand's is (the point's block, 0), the bias tile is (0, 0), the output's
    column tile is 0 and its row tile at most 3. -/
theorem idx_facts1 : ∀ t s : Fin cfg1.N, s.val / 4 = t.val / 4 →
    win1_0.index s (0 : Fin 2) = win1_3.index t (0 : Fin 2) ∧ win1_0.index s (1 : Fin 2) = s.val % 4
    ∧ win1_1.index s (0 : Fin 2) = s.val % 4 ∧ win1_1.index s (1 : Fin 2) = 0
    ∧ win1_2.index s (0 : Fin 2) = 0 ∧ win1_2.index s (1 : Fin 2) = 0
    ∧ win1_3.index t (1 : Fin 2) = 0 ∧ win1_3.index t (0 : Fin 2) ≤ 3 :=
  (by decide +kernel : ∀ t s : Fin grid1.N, s.val / 4 = t.val / 4 → _)

/-- Every row tile is written back by some point. -/
theorem idx_onto1 : ∀ q0 : Fin 4, ∃ t : Fin cfg1.N, (cfg1.win 3).flush t = true ∧ win1_3.index t = ![q0.val, 0] :=
  (by decide +kernel : ∀ q0 : Fin 4, ∃ t : Fin grid1.N, win1_3.flush t = true ∧ win1_3.index t = ![q0.val, 0])

/-- The output tile at a last block, unrolled over the four points of its row tile. -/
theorem outAt1_last (c : Dev nD) (t : Fin cfg1.N) (h3 : t.val % 4 = 3) :
    outAt1 V c t = k1_pay3 (F := Ideal)
      (k1_pay2 (F := Ideal) (iblk1 V c 0 t) (iblk1 V c 1 t)
        (k1_pay2 (F := Ideal) (iblk1 V c 0 ⟨t.val - 1, by omega⟩) (iblk1 V c 1 ⟨t.val - 1, by omega⟩)
          (k1_pay2 (F := Ideal) (iblk1 V c 0 ⟨t.val - 2, by omega⟩) (iblk1 V c 1 ⟨t.val - 2, by omega⟩)
            (k1_pay2 (F := Ideal) (iblk1 V c 0 ⟨t.val - 3, by omega⟩) (iblk1 V c 1 ⟨t.val - 3, by omega⟩) (k1_pay1 (F := Ideal))))))
      (iblk1 V c 2 t) := by
  have hN : t.val < 16 := lt_of_lt_of_eq t.isLt (show cfg1.N = 16 from N_1)
  have hlt : ∀ d, t.val - d < cfg1.N := fun d => lt_of_le_of_lt (Nat.sub_le _ _) t.isLt
  unfold outAt1
  rw [dif_pos h3, out1_C_eq]
  have e2 : accAt1 V c (t.val - 1) (hlt 1) = k1_pay2 (F := Ideal) (iblk1 V c 0 ⟨t.val - 1, hlt 1⟩) (iblk1 V c 1 ⟨t.val - 1, hlt 1⟩) (accAt1 V c (t.val - 1 - 1) (by omega)) :=
    (accAt1_B V c ⟨t.val - 1, hlt 1⟩ (by show ¬(t.val - 1) % 4 = 0; omega) (by show ¬(t.val - 1) % 4 = 3; omega)).trans (sout1_B_eq ..)
  have e1 : accAt1 V c (t.val - 1 - 1) (by omega) = k1_pay2 (F := Ideal) (iblk1 V c 0 ⟨t.val - 2, hlt 2⟩) (iblk1 V c 1 ⟨t.val - 2, hlt 2⟩) (accAt1 V c (t.val - 2 - 1) (by omega)) :=
    (accAt1_B V c ⟨t.val - 2, hlt 2⟩ (by show ¬(t.val - 2) % 4 = 0; omega) (by show ¬(t.val - 2) % 4 = 3; omega)).trans (sout1_B_eq ..)
  have e0 : accAt1 V c (t.val - 2 - 1) (by omega) = k1_pay2 (F := Ideal) (iblk1 V c 0 ⟨t.val - 3, hlt 3⟩) (iblk1 V c 1 ⟨t.val - 3, hlt 3⟩) (k1_pay1 (F := Ideal)) :=
    (accAt1_A V c ⟨t.val - 3, hlt 3⟩ (by show (t.val - 3) % 4 = 0; omega) (by show ¬(t.val - 3) % 4 = 3; omega)).trans (sout1_A_eq ..)
  rw [e2, e1, e0]

/-- One block's product at point `s` of `t`'s row tile, read in the arrays: block `b = s mod 4` of the contraction at row
    `R`. (`x0 x1` are the two staged tiles at `s`, `a b'` the two arrays: variables of the literal types, tied by equations.) -/
theorem blockSum1 (c : Dev nD) (t s : Fin cfg1.N) (hs : s.val / 4 = t.val / 4) (b : ℕ) (hb : s.val % 4 = b) (p : Fin 1024) (q : Fin 256)
    (R : Fin 4096) (hR : R.val = win1_3.index t (0 : Fin 2) * 1024 + p.val)
    (x0 : Vec Ideal S1024x1024 .f32) (x1 : Vec Ideal S1024x256 .bf16) (h0 : x0 = iblk1 V c 0 s) (h1 : x1 = iblk1 V c 1 s)
    (a : S4096x4096.Idx → EReal) (b' : S4096x256.Idx → EReal) (ha : a = V c main_arg0) (hb' : b' = V c main_v1) :
    (∑ k : Fin 1024, x0 (ix2 p k) * x1 (ix2 k q)) = ∑ k : Fin 1024, blkF a b' R q (b * 1024 + k.val) := by
  subst h0 h1 ha hb'
  obtain ⟨e00, e01, e10, e11, e20, e21, e31, e3b⟩ := idx_facts1 t s hs
  refine Finset.sum_congr rfl fun k _ => ?_
  have hk : b * 1024 + k.val < 4096 := by have := k.isLt; omega
  simp only [blkF]
  rw [dif_pos hk]
  refine congrArg₂ (fun u v : EReal => u * v) ?_ ?_
  · show V c main_arg0 (((cfg1.win 0).blk s).view.emb (ix2 p k)) = _
    refine congrArg _ (funext fun a => Fin.ext ?_)
    match a with
    | ⟨0, _⟩ => show win1_0.index s (0 : Fin 2) * 1024 + 1 * p.val = R.val; omega
    | ⟨1, _⟩ => show win1_0.index s (1 : Fin 2) * 1024 + 1 * k.val = b * 1024 + k.val; omega
  · show V c main_v1 (((cfg1.win 1).blk s).view.emb (ix2 k q)) = _
    refine congrArg _ (funext fun a => Fin.ext ?_)
    match a with
    | ⟨0, _⟩ => show win1_1.index s (0 : Fin 2) * 1024 + 1 * k.val = b * 1024 + k.val; omega
    | ⟨1, _⟩ => show win1_1.index s (1 : Fin 2) * 256 + 1 * q.val = q.val; omega

/-- WHAT A LAST-BLOCK POINT `t` WRITES BACK is tile `t` of `G1` of the three arrays as the region finds them. -/
theorem flushed1_eq (c : Dev nD) (t : Fin cfg1.N) (hf : (cfg1.win 3).flush t = true) :
    (dat1 (F := Ideal) V c).flushed 3 t = ((cfg1.win 3).blk t).view.read (Elt Ideal) (G1 (V c main_arg0) (V c main_v1) (V c main_v2)) := by
  have h3 : t.val % 4 = 3 := (flush1_3 t).mp hf
  have hN : t.val < 16 := lt_of_lt_of_eq t.isLt (show cfg1.N = 16 from N_1)
  show (cfg1.win 3).cut (grid1.coords t) ((dat1 (F := Ideal) V c).after 3 t) = _
  rw [after1_3, outAt1_last V c t h3]
  obtain ⟨e00, e01, e10, e11, e20, e21, e31, e3b⟩ := idx_facts1 t t rfl
  funext y
  obtain ⟨p, q, rfl⟩ : ∃ (p : Fin 1024) (q : Fin 256), y = ix2 p q := ⟨y 0, y 1, eq_ix2 y⟩
  have hr : ((cfg1.win 3).blk t).view.emb (ix2 p q) = ix2 (⟨win1_3.index t (0 : Fin 2) * 1024 + p.val, by have := p.isLt; omega⟩ : Fin 4096) q := by
    funext a; apply Fin.ext
    match a with
    | ⟨0, _⟩ => show win1_3.index t (0 : Fin 2) * 1024 + 1 * p.val = win1_3.index t (0 : Fin 2) * 1024 + p.val; omega
    | ⟨1, _⟩ => show win1_3.index t (1 : Fin 2) * 256 + 1 * q.val = q.val; omega
  show k1_pay3 (F := Ideal) _ (iblk1 V c 2 t) (ix2 p q)
    = G1 (V c main_arg0) (V c main_v1) (V c main_v2) (((cfg1.win 3).blk t).view.emb (ix2 p q))
  rw [pay1_3_apply, pay1_2_apply, pay1_2_apply, pay1_2_apply, pay1_2_apply, pay1_1_apply, hr]
  have hRlt : win1_3.index t (0 : Fin 2) * 1024 + p.val < 4096 := by have := p.isLt; omega
  rw [blockSum1 V c t ⟨t.val - 3, by omega⟩ (by show (t.val - 3) / 4 = t.val / 4; omega) 0 (by show (t.val - 3) % 4 = 0; omega) p q (⟨win1_3.index t (0 : Fin 2) * 1024 + p.val, hRlt⟩ : Fin 4096) rfl _ _ rfl rfl _ _ rfl rfl,
    blockSum1 V c t ⟨t.val - 2, by omega⟩ (by show (t.val - 2) / 4 = t.val / 4; omega) 1 (by show (t.val - 2) % 4 = 1; omega) p q (⟨win1_3.index t (0 : Fin 2) * 1024 + p.val, hRlt⟩ : Fin 4096) rfl _ _ rfl rfl _ _ rfl rfl,
    blockSum1 V c t ⟨t.val - 1, by omega⟩ (by show (t.val - 1) / 4 = t.val / 4; omega) 2 (by show (t.val - 1) % 4 = 2; omega) p q (⟨win1_3.index t (0 : Fin 2) * 1024 + p.val, hRlt⟩ : Fin 4096) rfl _ _ rfl rfl _ _ rfl rfl,
    blockSum1 V c t t rfl 3 h3 p q (⟨win1_3.index t (0 : Fin 2) * 1024 + p.val, hRlt⟩ : Fin 4096) rfl _ _ rfl rfl _ _ rfl rfl]
  rw [sum_four_blocks_ereal (blkF (V c main_arg0) (V c main_v1) (⟨win1_3.index t (0 : Fin 2) * 1024 + p.val, hRlt⟩ : Fin 4096) q), sum_blkF]
  have hC : iblk1 V c 2 t (ix2 (0 : Fin 1) q) = V c main_v2 (ix2 (0 : Fin 1) q) := by
    show V c main_v2 (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 256 + 1 * q.val = q.val; omega
  rw [hC]
  rfl

/-- An index of the result array is in point `t`'s tile iff each coordinate is in the tile's range on its axis. -/
theorem mem_blk1 (t : Fin cfg1.N) (i : S4096x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v3).slice (win1_3.rect t)).set ↔ _
  rw [View.set_slice_whole, Rect.mem_set_unit]
  exact Iff.rfl

/-- The four row tiles, each written back at its last block, fill the result array. -/
theorem cover1 (i : S4096x256.Idx) : ∃ t : Fin cfg1.N, (cfg1.win 3).flush t = true ∧ i ∈ ((cfg1.win 3).blk t).view.set := by
  have hi0 : (i 0).val < 4096 := (i 0).isLt
  have hi1 : (i 1).val < 256 := (i 1).isLt
  obtain ⟨t, hft, ht⟩ := idx_onto1 ⟨(i 0).val / 1024, by omega⟩
  have q0 : win1_3.index t (0 : Fin 2) = (i 0).val / 1024 := congrFun ht 0
  have q1 : win1_3.index t (1 : Fin 2) = 0 := congrFun ht 1
  refine ⟨t, hft, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 256 ≤ (i 1).val ∧ (i 1).val < win1_3.index t (1 : Fin 2) * 256 + 256; omega

/-- THE RESULT ARRAY after the region: `G1` of the three arrays as the region finds them. -/
theorem final1 (c : Dev nD) : (dat1 (F := Ideal) V c).arrAt 3 cfg1.N = G1 (V c main_arg0) (V c main_v1) (V c main_v2) :=
  (dat1 (F := Ideal) V c).arrAt_eq_of_cover 3 (G1 (V c main_arg0) (V c main_v1) (V c main_v2)) (fun t hf => flushed1_eq V c t hf) cover1

end Cert.KernelIdeal.Hand

end
-- ==== Proof.KI.Val2.lean ====
/-
  Region 2's values over the extended reals: what the body's stores leave in the output tile as the payload
  expression of the three input tiles; that expression read at an index (entry (p, q) of a tile of the result is
  the sum over k of x0(p, k) · x1(k, q) plus the bias entry (0, q): the accumulator starts from zero and a change of
  float format is the identity at this instance); and from tiles to the array: tile p of the result array is rows
  1024p … 1024p + 1023 of ONE function of the three arrays, and the four tiles fill the array.
-/
import proofs.«107088_j31018253811971_1_alg».proof.Proof.KI.Region2
import proofs.«107088_j31018253811971_1_alg».proof.Proof.KI.ValBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.WholeTile

section Generic
variable {F : FTy → Type} [FloatOps F]

/-- The output tile after the body is the read-out payload of the accumulated payload of the zeroed accumulator. -/
theorem out2_3_eq (c : Dev nD) (i : grid2.Coords)
    (arg2 : Memref sig .tc .vmem S1024x256 .bf16) (harg2 : arg2.IsWhole) (arg3 : Memref sig .tc .vmem S256x64 .f32) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : cond2_0 i) (hc1 : cond2_1 i)
    (x0 : Vec F S1024x256 .bf16) (x1 : Vec F S256x64 .f32) (x2 : Vec F S1x64 .f32) :
    out2_3 c i arg2 harg2 arg3 harg3 arg4 harg4 arg5 harg5 arg6 harg6 hc0 hc1 x0 x1 x2
      = k2_pay3 (k2_pay2 x0 x1 (k2_pay1 (F := F))) x2 := by
  unfold out2_3
  rw [View.read_writes_eq_canon _ _ _ (cover2_3 c i arg2 harg2 arg3 harg3 arg4 harg4 arg5 harg5 arg6 harg6 hc0 hc1 x0 x1 x2)]
  unfold kernelRun2
  dsimp only
  sl_unfold_words
  refine (View.canon_unit_zero (S := S1024x64) hz2 _ _).trans ?_
  rw [readCov_cons_whole (S := S1024x64) arg6.view hz2, View.readCov_unit_zero (S := S1024x64) arg6.view hz2]
  simp only [View.readAt_eq_ld, harg2.read_unread, harg3.read_unread, harg4.read_unread]
  rw [View.ld_unit_zero (S := S1024x256) hz2, View.ld_unit_zero (S := S256x64) hz2, View.ld_unit_zero (S := S1x64) hz2]

end Generic

/-- The zeroed accumulator at an index. -/
theorem pay2_1_apply (p : Fin 1024) (q : Fin 64) : k2_pay1 (F := Ideal) (ix2 p q) = 0 := by
  unfold k2_pay1
  try dsimp only
  simp only [shapeCast_self]
  exact Ideal.ofBits_zero_f32

/-- One block's product added to the accumulator, at an index: entry (p, q) gains the sum over k of x0(p, k) · x1(k, q). -/
theorem pay2_2_apply (x0 : Vec Ideal S1024x256 .bf16) (x1 : Vec Ideal S256x64 .f32) (xs : Vec Ideal S1024x64 .f32) (p : Fin 1024) (q : Fin 64) :
    k2_pay2 (F := Ideal) x0 x1 xs (ix2 p q) = xs (ix2 p q) + ∑ k : Fin 256, x0 (ix2 p k) * x1 (ix2 k q) := by
  unfold k2_pay2
  try dsimp only
  simp only [shapeCast_self]
  exact congrArg (fun a : EReal => xs (ix2 p q) + a) (Cert.PlainDot.matmul_zero_apply (M := 1024) (K := 256) (N := 64) none _ _ p q)

/-- The read-out at an index: the accumulator's entry plus the bias row's. -/
theorem pay2_3_apply (acc : Vec Ideal S1024x64 .f32) (x2 : Vec Ideal S1x64 .f32) (p : Fin 1024) (q : Fin 64) :
    k2_pay3 (F := Ideal) acc x2 (ix2 p q) = acc (ix2 p q) + x2 (ix2 (0 : Fin 1) q) := by
  unfold k2_pay3
  try dsimp only
  simp only [shapeCast_self]
  have hb : broadcastTo S1024x64 x2 broadcasts_S1x64_S1024x64 (ix2 p q) = x2 (ix2 (0 : Fin 1) q) :=
    broadcastTo_1b_ab_apply x2 _ p q
  exact congrArg (fun a : EReal => acc (ix2 p q) + a) hb

/-! ## From tiles to the array -/

/-- The whole result array, index by index. -/
def G2 (a : S4096x256.Idx → EReal) (b : S256x64.Idx → EReal) (bias : S1x64.Idx → EReal) : S4096x64.Idx → EReal :=
  fun j => gemmAt (M := 4096) (K := 256) (N := 64) a b bias (j 0) (j 1)

variable (V : (c : Dev nD) → (b : Ref sig .tc) → Buf (Elt Ideal) ((c : Thread nD τ).loc b))

/-- The printed tile indices, decided over the grid: the left operand's row tile is the output's, every other tile
    index is 0, and the output's row tile is at most 3. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 3 :=
  (by decide +kernel : ∀ t : Fin grid2.N, _)

/-- Every row tile is some point's. -/
theorem idx_onto2 : ∀ q0 : Fin 4, ∃ t : Fin cfg2.N, win2_3.index t = ![q0.val, 0] :=
  (by decide +kernel : ∀ q0 : Fin 4, ∃ t : Fin grid2.N, win2_3.index t = ![q0.val, 0])

/-- WHAT POINT `t` WRITES BACK is tile `t` of `G2` of the three arrays as the region finds them. -/
theorem flushed2_eq (c : Dev nD) (t : Fin cfg2.N) :
    (dat2 (F := Ideal) V c).flushed 3 t = ((cfg2.win 3).blk t).view.read (Elt Ideal) (G2 (V c main_v3) (V c main_arg4) (V c main_v4)) := by
  show (cfg2.win 3).cut (grid2.coords t) ((dat2 (F := Ideal) V c).after 3 t) = _
  rw [after2_3]
  unfold outAt2
  rw [out2_3_eq]
  obtain ⟨e00, e01, e10, e11, e20, e21, e31, e3b⟩ := idx_facts2 t
  funext y
  obtain ⟨p, q, rfl⟩ : ∃ (p : Fin 1024) (q : Fin 64), y = ix2 p q := ⟨y 0, y 1, eq_ix2 y⟩
  have hr : ((cfg2.win 3).blk t).view.emb (ix2 p q) = ix2 (⟨win2_3.index t (0 : Fin 2) * 1024 + p.val, by have := p.isLt; omega⟩ : Fin 4096) q := by
    funext a; apply Fin.ext
    match a with
    | ⟨0, _⟩ => show win2_3.index t (0 : Fin 2) * 1024 + 1 * p.val = win2_3.index t (0 : Fin 2) * 1024 + p.val; omega
    | ⟨1, _⟩ => show win2_3.index t (1 : Fin 2) * 64 + 1 * q.val = q.val; omega
  show k2_pay3 (F := Ideal) (k2_pay2 (F := Ideal) (iblk2 V c 0 t) (iblk2 V c 1 t) (k2_pay1 (F := Ideal))) (iblk2 V c 2 t) (ix2 p q)
    = G2 (V c main_v3) (V c main_arg4) (V c main_v4) (((cfg2.win 3).blk t).view.emb (ix2 p q))
  rw [pay2_3_apply, pay2_2_apply, pay2_1_apply, zero_add, hr]
  show _ = gemmAt (M := 4096) (K := 256) (N := 64) (V c main_v3) (V c main_arg4) (V c main_v4) _ q
  unfold gemmAt
  have hA : ∀ k : Fin 256, iblk2 V c 0 t (ix2 p k) = V c main_v3 (ix2 (⟨win2_3.index t (0 : Fin 2) * 1024 + p.val, by have := p.isLt; omega⟩ : Fin 4096) k) := fun k => by
    show V c main_v3 (((cfg2.win 0).blk t).view.emb (ix2 p k)) = _
    refine congrArg _ (funext fun a => Fin.ext ?_)
    match a with
    | ⟨0, _⟩ => show win2_0.index t (0 : Fin 2) * 1024 + 1 * p.val = win2_3.index t (0 : Fin 2) * 1024 + p.val; omega
    | ⟨1, _⟩ => show win2_0.index t (1 : Fin 2) * 256 + 1 * k.val = k.val; omega
  have hB : ∀ k : Fin 256, iblk2 V c 1 t (ix2 k q) = V c main_arg4 (ix2 k q) := fun k => by
    show V c main_arg4 (((cfg2.win 1).blk t).view.emb (ix2 k q)) = _
    refine congrArg _ (funext fun a => Fin.ext ?_)
    match a with
    | ⟨0, _⟩ => show win2_1.index t (0 : Fin 2) * 256 + 1 * k.val = k.val; omega
    | ⟨1, _⟩ => show win2_1.index t (1 : Fin 2) * 64 + 1 * q.val = q.val; omega
  have hC : iblk2 V c 2 t (ix2 (0 : Fin 1) q) = V c main_v4 (ix2 (0 : Fin 1) q) := by
    show V c main_v4 (((cfg2.win 2).blk t).view.emb (ix2 (0 : Fin 1) q)) = _
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * q.val = q.val; omega
  rw [hC]
  exact congrArg (· + _) (Finset.sum_congr rfl fun k _ => by rw [hA k, hB k])

/-- An index of the result array is in point `t`'s tile iff each coordinate is in the tile's range on its axis. -/
theorem mem_blk2 (t : Fin cfg2.N) (i : S4096x64.Idx) :
    i ∈ ((cfg2.win 3).blk t).view.set ↔ ∀ a : Fin 2, win2_3.index t a * S1024x64.size a ≤ (i a).val ∧ (i a).val < win2_3.index t a * S1024x64.size a + S1024x64.size a := by
  show i ∈ ((View.whole main_v5).slice (win2_3.rect t)).set ↔ _
  rw [View.set_slice_whole, Rect.mem_set_unit]
  exact Iff.rfl

/-- The four row tiles fill the result array: row `r` is in tile `r / 1024`. -/
theorem cover2 (i : S4096x64.Idx) : ∃ t : Fin cfg2.N, (cfg2.win 3).flush t = true ∧ i ∈ ((cfg2.win 3).blk t).view.set := by
  have hi0 : (i 0).val < 4096 := (i 0).isLt
  have hi1 : (i 1).val < 64 := (i 1).isLt
  obtain ⟨t, ht⟩ := idx_onto2 ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 64 ≤ (i 1).val ∧ (i 1).val < win2_3.index t (1 : Fin 2) * 64 + 64; omega

/-- THE RESULT ARRAY after the region: `G2` of the three arrays as the region finds them. -/
theorem final2 (c : Dev nD) : (dat2 (F := Ideal) V c).arrAt 3 cfg2.N = G2 (V c main_v3) (V c main_arg4) (V c main_v4) :=
  (dat2 (F := Ideal) V c).arrAt_eq_of_cover 3 (G2 (V c main_v3) (V c main_arg4) (V c main_v4)) (fun t _ => flushed2_eq V c t) cover2

end Cert.KernelIdeal.Hand

end
-- ==== Proof.KI.Val3.lean ====
/-
  Region 3's values over the extended reals: what each case's stores leave in the accumulator and in the output tile as
  payload expressions; the read-out at a last block unrolled over the four points of its row tile (the accumulator
  zeroed, then four block products added in order); the block products read in the arrays (block b of the
  contraction is columns 1024b … 1024b + 1023 of the left operand against the same rows of the right operand); the
  four partial sums regrouped as the one sum over 4096; and from tiles to the array.
-/
import proofs.«107088_j31018253811971_1_alg».proof.Proof.KI.Region3
import proofs.«107088_j31018253811971_1_alg».proof.Proof.KI.ValBase
import proofs.«107088_j31018253811971_1_alg».proof.Proof.LibBlockedSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.WholeTile

section Generic
variable {F : FTy → Type} [FloatOps F]

/-- After a first block the accumulator holds that block's product added to zero. -/
theorem sout3_A_eq (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : cond3_0 i) (hc1 : ¬cond3_1 i) (x0 : Vec F S1024x1024 .f32) (x1 : Vec F S1024x64 .bf16) :
    sout3_A c i arg2 harg2 arg3 harg3 arg4 harg4 arg5 harg5 arg6 harg6 hc0 hc1 x0 x1 = k3_pay2 x0 x1 (k3_pay1 (F := F)) := by
  unfold sout3_A
  rw [View.read_writes_eq_canon _ _ _ (scover3_A c i arg2 harg2 arg3 harg3 arg4 harg4 arg5 harg5 arg6 harg6 hc0 hc1 x0 x1)]
  unfold kernelRun3_A
  dsimp only
  sl_unfold_words
  refine (View.canon_cons_unit_zero (S := S1024x64) hz2 _ _ _).trans ?_
  rw [View.readCov_unit_zero (S := S1024x64) arg6.view hz2]
  simp only [View.readAt_eq_ld, harg2.read_unread, harg3.read_unread, harg4.read_unread, harg6.read_unread, View.ld_unit_zero (S := S1024x1024) hz2, View.ld_unit_zero (S := S1024x64) hz2, View.ld_unit_zero (S := S1x64) hz2]

/-- After a middle block: this block's product added to what the point before left. -/
theorem sout3_B_eq (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : ¬cond3_0 i) (hc1 : ¬cond3_1 i) (x0 : Vec F S1024x1024 .f32) (x1 : Vec F S1024x64 .bf16) (xs : Vec F S1024x64 .f32) :
    sout3_B c i arg2 harg2 arg3 harg3 arg4 harg4 arg5 harg5 arg6 harg6 hc0 hc1 x0 x1 xs = k3_pay2 x0 x1 xs := by
  unfold sout3_B
  rw [View.read_writes_eq_canon _ _ _ (scover3_B c i arg2 harg2 arg3 harg3 arg4 harg4 arg5 harg5 arg6 harg6 hc0 hc1 x0 x1 xs)]
  unfold kernelRun3_B
  dsimp only
  sl_unfold_words
  refine (View.canon_unit_zero (S := S1024x64) hz2 _ _).trans ?_
  simp only [View.readAt_eq_ld, harg2.read_unread, harg3.read_unread, harg4.read_unread, harg6.read_unread, View.ld_unit_zero (S := S1024x1024) hz2, View.ld_unit_zero (S := S1024x64) hz2, View.ld_unit_zero (S := S1x64) hz2]

/-- At a last block the output tile holds the read-out of this block's product added to what the point before left. -/
theorem out3_C_eq (c : Dev nD) (i : grid3.Coords) (arg2 : Memref sig .tc .vmem S1024x1024 .f32) (harg2 : arg2.IsWhole) (arg3 : Memref sig .tc .vmem S1024x64 .bf16) (harg3 : arg3.IsWhole)
    (arg4 : Memref sig .tc .vmem S1x64 .f32) (harg4 : arg4.IsWhole) (arg5 : Memref sig .tc .vmem S1024x64 .bf16) (harg5 : arg5.IsWhole)
    (arg6 : Memref sig .tc .vmem S1024x64 .f32) (harg6 : arg6.IsWhole) (hc0 : ¬cond3_0 i) (hc1 : cond3_1 i) (x0 : Vec F S1024x1024 .f32) (x1 : Vec F S1024x64 .bf16) (x2 : Vec F S1x64 .f32) (xs : Vec F S1024x64 .f32) :
    out3_C c i arg2 harg2 arg3 harg3 arg4 harg4 arg5 harg5 arg6 harg6 hc0 hc1 x0 x1 x2 xs = k3_pay3 (k3_pay2 x0 x1 xs) x2 := by
  unfold out3_C
  rw [View.read_writes_eq_canon _ _ _ (cover3_C c i arg2 harg2 arg3 harg3 arg4 harg4 arg5 harg5 arg6 harg6 hc0 hc1 x0 x1 x2 xs)]
  unfold kernelRun3_C
  dsimp only
  sl_unfold_words
  refine (View.canon_unit_zero (S := S1024x64) hz2 _ _).trans ?_
  rw [View.readCov_unit_zero (S := S1024x64) arg6.view hz2]
  simp only [View.readAt_eq_ld, harg2.read_unread, harg3.read_unread, harg4.read_unread, harg6.read_unread, View.ld_unit_zero (S := S1024x1024) hz2, View.ld_unit_zero (S := S1024x64) hz2, View.ld_unit_zero (S := S1x64) hz2]

end Generic

/-- The zeroed accumulator at an index. -/
theorem pay3_1_apply (p : Fin 1024) (q : Fin 64) : k3_pay1 (F := Ideal) (ix2 p q) = 0 := by
  unfold k3_pay1
  try dsimp only
  simp only [shapeCast_self]
  exact Ideal.ofBits_zero_f32

/-- One block's product added to the accumulator, at an index: entry (p, q) gains the sum over k of x0(p, k) · x1(k, q). -/
theorem pay3_2_apply (x0 : Vec Ideal S1024x1024 .f32) (x1 : Vec Ideal S1024x64 .bf16) (xs : Vec Ideal S1024x64 .f32) (p : Fin 1024) (q : Fin 64) :
    k3_pay2 (F := Ideal) x0 x1 xs (ix2 p q) = xs (ix2 p q) + ∑ k : Fin 1024, x0 (ix2 p k) * x1 (ix2 k q) := by
  unfold k3_pay2
  try dsimp only
  simp only [shapeCast_self]
  exact congrArg (fun a : EReal => xs (ix2 p q) + a) (Cert.PlainDot.matmul_zero_apply (M := 1024) (K := 1024) (N := 64) none _ _ p q)

/-- The read-out at an index: the accumulator's entry plus the bias row's, then the positive part. -/
theorem pay3_3_apply (acc : Vec Ideal S1024x64 .f32) (x2 : Vec Ideal S1x64 .f32) (p : Fin 1024) (q : Fin 64) :
    k3_pay3 (F := Ideal) acc x2 (ix2 p q) = max (acc (ix2 p q) + x2 (ix2 (0 : Fin 1) q)) 0 := by
  unfold k3_pay3
  try dsimp only
  simp only [shapeCast_self]
  have hb : broadcastTo S1024x64 x2 broadcasts_S1x64_S1024x64 (ix2 p q) = x2 (ix2 (0 : Fin 1) q) :=
    broadcastTo_1b_ab_apply x2 _ p q
  exact congrArg₂ (fun a b : EReal => max a b) (congrArg (fun a : EReal => acc (ix2 p q) + a) hb) Ideal.ofBits_zero_f32

/-! ## From tiles to the array -/

/-- The whole result array, index by index. -/
def G3 (a : S4096x4096.Idx → EReal) (b : S4096x64.Idx → EReal) (bias : S1x64.Idx → EReal) : S4096x64.Idx → EReal :=
  fun j => max (gemmAt (M := 4096) (K := 4096) (N := 64) a b bias (j 0) (j 1)) 0

variable (V : (c : Dev nD) → (b : Ref sig .tc) → Buf (Elt Ideal) ((c : Thread nD τ).loc b))

/-- The printed tile indices, decided over pairs of points of one row tile: the left operand's tile is (the output's
    row tile, the point's block), the right operand's is (the point's block, 0), the bias tile is (0, 0), the output's
    column tile is 0 and its row tile at most 3. -/
theorem idx_facts3 : ∀ t s : Fin cfg3.N, s.val / 4 = t.val / 4 →
    win3_0.index s (0 : Fin 2) = win3_3.index t (0 : Fin 2) ∧ win3_0.index s (1 : Fin 2) = s.val % 4
    ∧ win3_1.index s (0 : Fin 2) = s.val % 4 ∧ win3_1.index s (1 : Fin 2) = 0
    ∧ win3_2.index s (0 : Fin 2) = 0 ∧ win3_2.index s (1 : Fin 2) = 0
    ∧ win3_3.index t (1 : Fin 2) = 0 ∧ win3_3.index t (0 : Fin 2) ≤ 3 :=
  (by decide +kernel : ∀ t s : Fin grid3.N, s.val / 4 = t.val / 4 → _)

/-- Every row tile is written back by some point. -/
theorem idx_onto3 : ∀ q0 : Fin 4, ∃ t : Fin cfg3.N, (cfg3.win 3).flush t = true ∧ win3_3.index t = ![q0.val, 0] :=
  (by decide +kernel : ∀ q0 : Fin 4, ∃ t : Fin grid3.N, win3_3.flush t = true ∧ win3_3.index t = ![q0.val, 0])

/-- The output tile at a last block, unrolled over the four points of its row tile. -/
theorem outAt3_last (c : Dev nD) (t : Fin cfg3.N) (h3 : t.val % 4 = 3) :
    outAt3 V c t = k3_pay3 (F := Ideal)
      (k3_pay2 (F := Ideal) (iblk3 V c 0 t) (iblk3 V c 1 t)
        (k3_pay2 (F := Ideal) (iblk3 V c 0 ⟨t.val - 1, by omega⟩) (iblk3 V c 1 ⟨t.val - 1, by omega⟩)
          (k3_pay2 (F := Ideal) (iblk3 V c 0 ⟨t.val - 2, by omega⟩) (iblk3 V c 1 ⟨t.val - 2, by omega⟩)
            (k3_pay2 (F := Ideal) (iblk3 V c 0 ⟨t.val - 3, by omega⟩) (iblk3 V c 1 ⟨t.val - 3, by omega⟩) (k3_pay1 (F := Ideal))))))
      (iblk3 V c 2 t) := by
  have hN : t.val < 16 := lt_of_lt_of_eq t.isLt (show cfg3.N = 16 from N_3)
  have hlt : ∀ d, t.val - d < cfg3.N := fun d => lt_of_le_of_lt (Nat.sub_le _ _) t.isLt
  unfold outAt3
  rw [dif_pos h3, out3_C_eq]
  have e2 : accAt3 V c (t.val - 1) (hlt 1) = k3_pay2 (F := Ideal) (iblk3 V c 0 ⟨t.val - 1, hlt 1⟩) (iblk3 V c 1 ⟨t.val - 1, hlt 1⟩) (accAt3 V c (t.val - 1 - 1) (by omega)) :=
    (accAt3_B V c ⟨t.val - 1, hlt 1⟩ (by show ¬(t.val - 1) % 4 = 0; omega) (by show ¬(t.val - 1) % 4 = 3; omega)).trans (sout3_B_eq ..)
  have e1 : accAt3 V c (t.val - 1 - 1) (by omega) = k3_pay2 (F := Ideal) (iblk3 V c 0 ⟨t.val - 2, hlt 2⟩) (iblk3 V c 1 ⟨t.val - 2, hlt 2⟩) (accAt3 V c (t.val - 2 - 1) (by omega)) :=
    (accAt3_B V c ⟨t.val - 2, hlt 2⟩ (by show ¬(t.val - 2) % 4 = 0; omega) (by show ¬(t.val - 2) % 4 = 3; omega)).trans (sout3_B_eq ..)
  have e0 : accAt3 V c (t.val - 2 - 1) (by omega) = k3_pay2 (F := Ideal) (iblk3 V c 0 ⟨t.val - 3, hlt 3⟩) (iblk3 V c 1 ⟨t.val - 3, hlt 3⟩) (k3_pay1 (F := Ideal)) :=
    (accAt3_A V c ⟨t.val - 3, hlt 3⟩ (by show (t.val - 3) % 4 = 0; omega) (by show ¬(t.val - 3) % 4 = 3; omega)).trans (sout3_A_eq ..)
  rw [e2, e1, e0]

/-- One block's product at point `s` of `t`'s row tile, read in the arrays: block `b = s mod 4` of the contraction at row
    `R`. (`x0 x1` are the two staged tiles at `s`, `a b'` the two arrays: variables of the literal types, tied by equations.) -/
theorem blockSum3 (c : Dev nD) (t s : Fin cfg3.N) (hs : s.val / 4 = t.val / 4) (b : ℕ) (hb : s.val % 4 = b) (p : Fin 1024) (q : Fin 64)
    (R : Fin 4096) (hR : R.val = win3_3.index t (0 : Fin 2) * 1024 + p.val)
    (x0 : Vec Ideal S1024x1024 .f32) (x1 : Vec Ideal S1024x64 .bf16) (h0 : x0 = iblk3 V c 0 s) (h1 : x1 = iblk3 V c 1 s)
    (a : S4096x4096.Idx → EReal) (b' : S4096x64.Idx → EReal) (ha : a = V c main_arg0) (hb' : b' = V c main_v5) :
    (∑ k : Fin 1024, x0 (ix2 p k) * x1 (ix2 k q)) = ∑ k : Fin 1024, blkF a b' R q (b * 1024 + k.val) := by
  subst h0 h1 ha hb'
  obtain ⟨e00, e01, e10, e11, e20, e21, e31, e3b⟩ := idx_facts3 t s hs
  refine Finset.sum_congr rfl fun k _ => ?_
  have hk : b * 1024 + k.val < 4096 := by have := k.isLt; omega
  simp only [blkF]
  rw [dif_pos hk]
  refine congrArg₂ (fun u v : EReal => u * v) ?_ ?_
  · show V c main_arg0 (((cfg3.win 0).blk s).view.emb (ix2 p k)) = _
    refine congrArg _ (funext fun a => Fin.ext ?_)
    match a with
    | ⟨0, _⟩ => show win3_0.index s (0 : Fin 2) * 1024 + 1 * p.val = R.val; omega
    | ⟨1, _⟩ => show win3_0.index s (1 : Fin 2) * 1024 + 1 * k.val = b * 1024 + k.val; omega
  · show V c main_v5 (((cfg3.win 1).blk s).view.emb (ix2 k q)) = _
    refine congrArg _ (funext fun a => Fin.ext ?_)
    match a with
    | ⟨0, _⟩ => show win3_1.index s (0 : Fin 2) * 1024 + 1 * k.val = b * 1024 + k.val; omega
    | ⟨1, _⟩ => show win3_1.index s (1 : Fin 2) * 64 + 1 * q.val = q.val; omega

/-- WHAT A LAST-BLOCK POINT `t` WRITES BACK is tile `t` of `G3` of the three arrays as the region finds them. -/
theorem flushed3_eq (c : Dev nD) (t : Fin cfg3.N) (hf : (cfg3.win 3).flush t = true) :
    (dat3 (F := Ideal) V c).flushed 3 t = ((cfg3.win 3).blk t).view.read (Elt Ideal) (G3 (V c main_arg0) (V c main_v5) (V c main_v6)) := by
  have h3 : t.val % 4 = 3 := (flush3_3 t).mp hf
  have hN : t.val < 16 := lt_of_lt_of_eq t.isLt (show cfg3.N = 16 from N_3)
  show (cfg3.win 3).cut (grid3.coords t) ((dat3 (F := Ideal) V c).after 3 t) = _
  rw [after3_3, outAt3_last V c t h3]
  obtain ⟨e00, e01, e10, e11, e20, e21, e31, e3b⟩ := idx_facts3 t t rfl
  funext y
  obtain ⟨p, q, rfl⟩ : ∃ (p : Fin 1024) (q : Fin 64), y = ix2 p q := ⟨y 0, y 1, eq_ix2 y⟩
  have hr : ((cfg3.win 3).blk t).view.emb (ix2 p q) = ix2 (⟨win3_3.index t (0 : Fin 2) * 1024 + p.val, by have := p.isLt; omega⟩ : Fin 4096) q := by
    funext a; apply Fin.ext
    match a with
    | ⟨0, _⟩ => show win3_3.index t (0 : Fin 2) * 1024 + 1 * p.val = win3_3.index t (0 : Fin 2) * 1024 + p.val; omega
    | ⟨1, _⟩ => show win3_3.index t (1 : Fin 2) * 64 + 1 * q.val = q.val; omega
  show k3_pay3 (F := Ideal) _ (iblk3 V c 2 t) (ix2 p q)
    = G3 (V c main_arg0) (V c main_v5) (V c main_v6) (((cfg3.win 3).blk t).view.emb (ix2 p q))
  rw [pay3_3_apply, pay3_2_apply, pay3_2_apply, pay3_2_apply, pay3_2_apply, pay3_1_apply, hr]
  have hRlt : win3_3.index t (0 : Fin 2) * 1024 + p.val < 4096 := by have := p.isLt; omega
  rw [blockSum3 V c t ⟨t.val - 3, by omega⟩ (by show (t.val - 3) / 4 = t.val / 4; omega) 0 (by show (t.val - 3) % 4 = 0; omega) p q (⟨win3_3.index t (0 : Fin 2) * 1024 + p.val, hRlt⟩ : Fin 4096) rfl _ _ rfl rfl _ _ rfl rfl,
    blockSum3 V c t ⟨t.val - 2, by omega⟩ (by show (t.val - 2) / 4 = t.val / 4; omega) 1 (by show (t.val - 2) % 4 = 1; omega) p q (⟨win3_3.index t (0 : Fin 2) * 1024 + p.val, hRlt⟩ : Fin 4096) rfl _ _ rfl rfl _ _ rfl rfl,
    blockSum3 V c t ⟨t.val - 1, by omega⟩ (by show (t.val - 1) / 4 = t.val / 4; omega) 2 (by show (t.val - 1) % 4 = 2; omega) p q (⟨win3_3.index t (0 : Fin 2) * 1024 + p.val, hRlt⟩ : Fin 4096) rfl _ _ rfl rfl _ _ rfl rfl,
    blockSum3 V c t t rfl 3 h3 p q (⟨win3_3.index t (0 : Fin 2) * 1024 + p.val, hRlt⟩ : Fin 4096) rfl _ _ rfl rfl _ _ rfl rfl]
  rw [sum_four_blocks_ereal (blkF (V c main_arg0) (V c main_v5) (⟨win3_3.index t (0 : Fin 2) * 1024 + p.val, hRlt⟩ : Fin 4096) q), sum_blkF]
  have hC : iblk3 V c 2 t (ix2 (0 : Fin 1) q) = V c main_v6 (ix2 (0 : Fin 1) q) := by
    show V c main_v6 (((cfg3.win 2).blk t).view.emb (ix2 (0 : Fin 1) q)) = _
    refine congrArg _ (funext fun a => Fin.ext ?_)
    match a with
    | ⟨0, _⟩ => show win3_2.index t (0 : Fin 2) * 1 + 1 * 0 = 0; omega
    | ⟨1, _⟩ => show win3_2.index t (1 : Fin 2) * 64 + 1 * q.val = q.val; omega
  rw [hC]
  rfl

/-- An index of the result array is in point `t`'s tile iff each coordinate is in the tile's range on its axis. -/
theorem mem_blk3 (t : Fin cfg3.N) (i : S4096x64.Idx) :
    i ∈ ((cfg3.win 3).blk t).view.set ↔ ∀ a : Fin 2, win3_3.index t a * S1024x64.size a ≤ (i a).val ∧ (i a).val < win3_3.index t a * S1024x64.size a + S1024x64.size a := by
  show i ∈ ((View.whole main_v7).slice (win3_3.rect t)).set ↔ _
  rw [View.set_slice_whole, Rect.mem_set_unit]
  exact Iff.rfl

/-- The four row tiles, each written back at its last block, fill the result array. -/
theorem cover3 (i : S4096x64.Idx) : ∃ t : Fin cfg3.N, (cfg3.win 3).flush t = true ∧ i ∈ ((cfg3.win 3).blk t).view.set := by
  have hi0 : (i 0).val < 4096 := (i 0).isLt
  have hi1 : (i 1).val < 64 := (i 1).isLt
  obtain ⟨t, hft, ht⟩ := idx_onto3 ⟨(i 0).val / 1024, by omega⟩
  have q0 : win3_3.index t (0 : Fin 2) = (i 0).val / 1024 := congrFun ht 0
  have q1 : win3_3.index t (1 : Fin 2) = 0 := congrFun ht 1
  refine ⟨t, hft, ?_⟩
  rw [mem_blk3]
  intro a
  match a with
  | ⟨0, _⟩ => show win3_3.index t (0 : Fin 2) * 1024 ≤ (i 0).val ∧ (i 0).val < win3_3.index t (0 : Fin 2) * 1024 + 1024; omega
  | ⟨1, _⟩ => show win3_3.index t (1 : Fin 2) * 64 ≤ (i 1).val ∧ (i 1).val < win3_3.index t (1 : Fin 2) * 64 + 64; omega

/-- THE RESULT ARRAY after the region: `G3` of the three arrays as the region finds them. -/
theorem final3 (c : Dev nD) : (dat3 (F := Ideal) V c).arrAt 3 cfg3.N = G3 (V c main_arg0) (V c main_v5) (V c main_v6) :=
  (dat3 (F := Ideal) V c).arrAt_eq_of_cover 3 (G3 (V c main_arg0) (V c main_v5) (V c main_v6)) (fun t hf => flushed3_eq V c t hf) cover3

end Cert.KernelIdeal.Hand

end
-- ==== Proof.LibTransposedDot.lean ====
/-
  A matrix product against a transposed right operand, read at an index.

  For the dimension numbers of an [M, K] by [N, K] product (contract the last axis of both operands, no batch axis)
  the contraction index has one coordinate, which ranges over `Fin K`; entry `(p, q)` of the product is
  `Σ_k lhs (p, k) · rhs (q, k)`: the Gram matrix of the rows of the two operands.
-/
import Idealize.ShloMosaic.PureOps.Ideal.Laws
import Idealize.ShloMosaic.Lib.ValueIdx

noncomputable section

open scoped BigOperators

namespace Cert.TransposedDot

open Idealize.ShloMosaic Idealize.ShloMosaic.ValueIdx

variable {M K N : Nat}

/-- The left operand is read in the output's row. -/
theorem lhs_row (i : (⟨2, ![M, N]⟩ : Shape).Idx) (k : (DotDims.transposedRhs M K N).contr.Idx) :
    ((DotDims.transposedRhs M K N).lhsIdx i k 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's row is the output's column. -/
theorem rhs_row (i : (⟨2, ![M, N]⟩ : Shape).Idx) (k : (DotDims.transposedRhs M K N).contr.Idx) :
    ((DotDims.transposedRhs M K N).rhsIdx i k 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The contraction at `(p, q)` is the sum over `k : Fin K` of `lhs (p, k) · rhs (q, k)`. -/
theorem contr_sum (lhs : (⟨2, ![M, K]⟩ : Shape).Idx → EReal) (rhs : (⟨2, ![N, K]⟩ : Shape).Idx → EReal)
    (p : Fin M) (q : Fin N) :
    ∑ k : (DotDims.transposedRhs M K N).contr.Idx,
        lhs ((DotDims.transposedRhs M K N).lhsIdx (ix2 p q) k) * rhs ((DotDims.transposedRhs M K N).rhsIdx (ix2 p q) k)
      = ∑ k : Fin K, lhs (ix2 p k) * rhs (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact ((DotDims.transposedRhs M K N).rhsIdx_val_of_single rfl _ _).trans hk)
  rw [el, er]

/-- A matrix-unit product into a zero accumulator, at `(p, q)`. -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant (F := Ideal) ⟨2, ![M, N]⟩ .f32 0x00000000#32) (ix2 p q)
      = ∑ k : Fin K, lhs (ix2 p k) * rhs (ix2 q k) := by
  rw [Ideal.matmul_constant_zero_apply]
  exact contr_sum lhs rhs p q

end Cert.TransposedDot

end
-- ==== Proof.KI.Val4.lean ====
/-
  Region 4's values over the extended reals: the output tile as the payload of the two input tiles; that payload at an
  index (entry (p, q) of tile (i, j) is the sum over k of x0(p, k) · x1(q, k): a product against a transposed right
  operand); and from tiles to the array: the sixteen tiles are the 1024 × 1024 blocks of ONE function of the array
  `mean`, its Gram matrix, and they fill the result.
-/
import proofs.«107088_j31018253811971_1_alg».proof.Proof.KI.Region4
import proofs.«107088_j31018253811971_1_alg».proof.Proof.KI.ValBase
import proofs.«107088_j31018253811971_1_alg».proof.Proof.LibTransposedDot

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.WholeTile

/-- The payload at an index. -/
theorem pay4_apply (x0 : Vec Ideal S1024x64 .bf16) (x1 : Vec Ideal S1024x64 .bf16) (p : Fin 1024) (q : Fin 1024) :
    k4_pay1 (F := Ideal) x0 x1 (ix2 p q) = ∑ k : Fin 64, x0 (ix2 p k) * x1 (ix2 q k) := by
  unfold k4_pay1
  try dsimp only
  simp only [shapeCast_self]
  exact Cert.TransposedDot.matmul_zero_apply (M := 1024) (K := 64) (N := 1024) none _ _ p q

/-- The whole result array: the Gram matrix of the rows of `a`. -/
def G4 (a : S4096x64.Idx → EReal) : S4096x4096.Idx → EReal :=
  fun j => ∑ k : Fin 64, a (ix2 (j 0 : Fin 4096) k) * a (ix2 (j 1 : Fin 4096) k)

variable (V : (c : Dev nD) → (b : Ref sig .tc) → Buf (Elt Ideal) ((c : Thread nD τ).loc b))

/-- The printed tile indices, decided over the grid. -/
theorem idx_facts4 : ∀ t : Fin cfg4.N, win4_0.index t (0 : Fin 2) = win4_2.index t (0 : Fin 2) ∧ win4_0.index t (1 : Fin 2) = 0
    ∧ win4_1.index t (0 : Fin 2) = win4_2.index t (1 : Fin 2) ∧ win4_1.index t (1 : Fin 2) = 0
    ∧ win4_2.index t (0 : Fin 2) ≤ 3 ∧ win4_2.index t (1 : Fin 2) ≤ 3 :=
  (by decide +kernel : ∀ t : Fin grid4.N, _)

/-- Every tile is some point's. -/
theorem idx_onto4 : ∀ q0 q1 : Fin 4, ∃ t : Fin cfg4.N, win4_2.index t = ![q0.val, q1.val] :=
  (by decide +kernel : ∀ q0 q1 : Fin 4, ∃ t : Fin grid4.N, win4_2.index t = ![q0.val, q1.val])

/-- WHAT POINT `t` WRITES BACK is tile `t` of the Gram matrix of `mean` as the region finds it. -/
theorem flushed4_eq (c : Dev nD) (t : Fin cfg4.N) :
    (dat4 (F := Ideal) V c).flushed 2 t = ((cfg4.win 2).blk t).view.read (Elt Ideal) (G4 (V c main_v7)) := by
  show (cfg4.win 2).cut (grid4.coords t) ((dat4 (F := Ideal) V c).after 2 t) = _
  rw [after4_2]
  unfold out4_2
  rw [View.canon_unit_zero hz2]
  simp only [View.ld_unit_zero (S := S1024x64) hz2]
  obtain ⟨e00, e01, e10, e11, e2a, e2b⟩ := idx_facts4 t
  funext y
  obtain ⟨p, q, rfl⟩ : ∃ (p : Fin 1024) (q : Fin 1024), y = ix2 p q := ⟨y 0, y 1, eq_ix2 y⟩
  have hr : ((cfg4.win 2).blk t).view.emb (ix2 p q)
      = ix2 (⟨win4_2.index t (0 : Fin 2) * 1024 + p.val, by have := p.isLt; omega⟩ : Fin 4096) (⟨win4_2.index t (1 : Fin 2) * 1024 + q.val, by have := q.isLt; omega⟩ : Fin 4096) := by
    funext a; apply Fin.ext
    match a with
    | ⟨0, _⟩ => show win4_2.index t (0 : Fin 2) * 1024 + 1 * p.val = win4_2.index t (0 : Fin 2) * 1024 + p.val; omega
    | ⟨1, _⟩ => show win4_2.index t (1 : Fin 2) * 1024 + 1 * q.val = win4_2.index t (1 : Fin 2) * 1024 + q.val; omega
  show k4_pay1 (F := Ideal) (iblk4 V c 0 t) (iblk4 V c 1 t) (ix2 p q) = G4 (V c main_v7) (((cfg4.win 2).blk t).view.emb (ix2 p q))
  rw [pay4_apply, hr]
  unfold G4
  refine Finset.sum_congr rfl fun k _ => congrArg₂ (fun u v : EReal => u * v) ?_ ?_
  · show V c main_v7 (((cfg4.win 0).blk t).view.emb (ix2 p k)) = _
    refine congrArg _ (funext fun a => Fin.ext ?_)
    match a with
    | ⟨0, _⟩ => show win4_0.index t (0 : Fin 2) * 1024 + 1 * p.val = win4_2.index t (0 : Fin 2) * 1024 + p.val; omega
    | ⟨1, _⟩ => show win4_0.index t (1 : Fin 2) * 64 + 1 * k.val = k.val; omega
  · show V c main_v7 (((cfg4.win 1).blk t).view.emb (ix2 q k)) = _
    refine congrArg _ (funext fun a => Fin.ext ?_)
    match a with
    | ⟨0, _⟩ => show win4_1.index t (0 : Fin 2) * 1024 + 1 * q.val = win4_2.index t (1 : Fin 2) * 1024 + q.val; omega
    | ⟨1, _⟩ => show win4_1.index t (1 : Fin 2) * 64 + 1 * k.val = k.val; omega

theorem mem_blk4 (t : Fin cfg4.N) (i : S4096x4096.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole main_v8).slice (win4_2.rect t)).set ↔ _
  rw [View.set_slice_whole, Rect.mem_set_unit]
  exact Iff.rfl

/-- The sixteen tiles fill the result array. -/
theorem cover4 (i : S4096x4096.Idx) : ∃ t : Fin cfg4.N, (cfg4.win 2).flush t = true ∧ i ∈ ((cfg4.win 2).blk t).view.set := by
  have hi0 : (i 0).val < 4096 := (i 0).isLt
  have hi1 : (i 1).val < 4096 := (i 1).isLt
  obtain ⟨t, ht⟩ := idx_onto4 ⟨(i 0).val / 1024, by omega⟩ ⟨(i 1).val / 1024, by omega⟩
  have q0 : win4_2.index t (0 : Fin 2) = (i 0).val / 1024 := congrFun ht 0
  have q1 : win4_2.index t (1 : Fin 2) = (i 1).val / 1024 := congrFun ht 1
  refine ⟨t, flush4_2 t, ?_⟩
  rw [mem_blk4]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 1024 ≤ (i 1).val ∧ (i 1).val < win4_2.index t (1 : Fin 2) * 1024 + 1024; omega

/-- THE RESULT ARRAY after the region: the Gram matrix of `mean` as the region finds it. -/
theorem final4 (c : Dev nD) : (dat4 (F := Ideal) V c).arrAt 2 cfg4.N = G4 (V c main_v7) :=
  (dat4 (F := Ideal) V c).arrAt_eq_of_cover 2 (G4 (V c main_v7)) (fun t _ => flushed4_eq V c t) cover4

end Cert.KernelIdeal.Hand

end
-- ==== Proof.KI.Val5.lean ====
/-
  Region 5's values over the extended reals: the output tile as the payload of the three input tiles; that payload at an
  index (entry (p, q) is a(p, q) · d(p) · d(q): the row degree read in column 0 of the 1024 × 128 tile, the column
  degree in the 1 × 1024 tile); and from tiles to the array: the sixteen tiles are the blocks of ONE function of the
  three arrays and fill the result.
-/
import proofs.«107088_j31018253811971_1_alg».proof.Proof.KI.Region5
import proofs.«107088_j31018253811971_1_alg».proof.Proof.KI.ValBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.WholeTile

/-- The payload at an index. -/
theorem pay5_apply (x0 : Vec Ideal S1024x1024 .f32) (x1 : Vec Ideal S1024x1 .f32) (x2 : Vec Ideal S1x1024 .f32) (p q : Fin 1024) :
    k5_pay1 (F := Ideal) x0 x1 x2 (ix2 p q) = x0 (ix2 p q) * x1 (ix2 p (0 : Fin 1)) * x2 (ix2 (0 : Fin 1) q) := by
  unfold k5_pay1
  try dsimp only
  simp only [shapeCast_self]
  have hc : broadcastTo S1024x1024 x1 broadcasts_S1024x1_S1024x1024 (ix2 p q) = x1 (ix2 p (0 : Fin 1)) :=
    broadcastTo_apply x1 _ (ix2 p q) (ix2 p (0 : Fin 1)) fun ax => by
      match ax with
      | ⟨0, _⟩ => rfl
      | ⟨1, _⟩ => rfl
  have hr : broadcastTo S1024x1024 x2 broadcasts_S1x1024_S1024x1024 (ix2 p q) = x2 (ix2 (0 : Fin 1) q) :=
    broadcastTo_1b_ab_apply x2 _ p q
  exact congrArg₂ (fun a b : EReal => a * b) (congrArg (fun a : EReal => x0 (ix2 p q) * a) hc) hr

/-- The whole result array: the adjacency scaled by the row's and the column's degree factor. -/
def G5 (a : S4096x4096.Idx → EReal) (dr : S4096x128.Idx → EReal) (dc : S1x4096.Idx → EReal) : S4096x4096.Idx → EReal :=
  fun j => a (ix2 (j 0 : Fin 4096) (j 1 : Fin 4096)) * dr (ix2 (j 0 : Fin 4096) (0 : Fin 128)) * dc (ix2 (0 : Fin 1) (j 1 : Fin 4096))

variable (V : (c : Dev nD) → (b : Ref sig .tc) → Buf (Elt Ideal) ((c : Thread nD τ).loc b))

/-- The printed tile indices, decided over the grid. -/
theorem idx_facts5 : ∀ t : Fin cfg5.N, win5_0.index t (0 : Fin 2) = win5_3.index t (0 : Fin 2) ∧ win5_0.index t (1 : Fin 2) = win5_3.index t (1 : Fin 2)
    ∧ win5_1.index t (0 : Fin 2) = win5_3.index t (0 : Fin 2) ∧ win5_1.index t (1 : Fin 2) = 0
    ∧ win5_2.index t (0 : Fin 2) = 0 ∧ win5_2.index t (1 : Fin 2) = win5_3.index t (1 : Fin 2)
    ∧ win5_3.index t (0 : Fin 2) ≤ 3 ∧ win5_3.index t (1 : Fin 2) ≤ 3 :=
  (by decide +kernel : ∀ t : Fin grid5.N, _)

/-- Every tile is some point's. -/
theorem idx_onto5 : ∀ q0 q1 : Fin 4, ∃ t : Fin cfg5.N, win5_3.index t = ![q0.val, q1.val] :=
  (by decide +kernel : ∀ q0 q1 : Fin 4, ∃ t : Fin grid5.N, win5_3.index t = ![q0.val, q1.val])

/-- WHAT POINT `t` WRITES BACK is tile `t` of `G5` of the three arrays as the region finds them. -/
theorem flushed5_eq (c : Dev nD) (t : Fin cfg5.N) :
    (dat5 (F := Ideal) V c).flushed 3 t = ((cfg5.win 3).blk t).view.read (Elt Ideal) (G5 (V c main_v36) (V c main_v41) (V c main_v42)) := by
  show (cfg5.win 3).cut (grid5.coords t) ((dat5 (F := Ideal) V c).after 3 t) = _
  rw [after5_3]
  unfold out5_3
  rw [View.canon_unit_zero hz2]
  simp only [View.ld_unit_zero (S := S1024x1024) hz2, View.ld_unit_zero (S := S1x1024) hz2]
  obtain ⟨e00, e01, e10, e11, e20, e21, e3a, e3b⟩ := idx_facts5 t
  funext y
  obtain ⟨p, q, rfl⟩ : ∃ (p : Fin 1024) (q : Fin 1024), y = ix2 p q := ⟨y 0, y 1, eq_ix2 y⟩
  have hr : ((cfg5.win 3).blk t).view.emb (ix2 p q)
      = ix2 (⟨win5_3.index t (0 : Fin 2) * 1024 + p.val, by have := p.isLt; omega⟩ : Fin 4096) (⟨win5_3.index t (1 : Fin 2) * 1024 + q.val, by have := q.isLt; omega⟩ : Fin 4096) := by
    funext a; apply Fin.ext
    match a with
    | ⟨0, _⟩ => show win5_3.index t (0 : Fin 2) * 1024 + 1 * p.val = win5_3.index t (0 : Fin 2) * 1024 + p.val; omega
    | ⟨1, _⟩ => show win5_3.index t (1 : Fin 2) * 1024 + 1 * q.val = win5_3.index t (1 : Fin 2) * 1024 + q.val; omega
  show k5_pay1 (F := Ideal) (iblk5 V c 0 t) (View.ld (iblk5 V c 1 t) r5_1) (iblk5 V c 2 t) (ix2 p q)
    = G5 (V c main_v36) (V c main_v41) (V c main_v42) (((cfg5.win 3).blk t).view.emb (ix2 p q))
  rw [pay5_apply, hr]
  have h0 : (iblk5 V c 0 t (ix2 p q) : EReal) = V c main_v36 (ix2 (⟨win5_3.index t (0 : Fin 2) * 1024 + p.val, by have := p.isLt; omega⟩ : Fin 4096) (⟨win5_3.index t (1 : Fin 2) * 1024 + q.val, by have := q.isLt; omega⟩ : Fin 4096)) := by
    show V c main_v36 (((cfg5.win 0).blk t).view.emb (ix2 p q)) = _
    refine congrArg _ (funext fun a => Fin.ext ?_)
    match a with
    | ⟨0, _⟩ => show win5_0.index t (0 : Fin 2) * 1024 + 1 * p.val = win5_3.index t (0 : Fin 2) * 1024 + p.val; omega
    | ⟨1, _⟩ => show win5_0.index t (1 : Fin 2) * 1024 + 1 * q.val = win5_3.index t (1 : Fin 2) * 1024 + q.val; omega
  have h1 : (View.ld (iblk5 V c 1 t) r5_1 (ix2 p (0 : Fin 1)) : EReal) = V c main_v41 (ix2 (⟨win5_3.index t (0 : Fin 2) * 1024 + p.val, by have := p.isLt; omega⟩ : Fin 4096) (0 : Fin 128)) := by
    show V c main_v41 (((cfg5.win 1).blk t).view.emb (r5_1.emb (ix2 p (0 : Fin 1)))) = _
    refine congrArg _ (funext fun a => Fin.ext ?_)
    match a with
    | ⟨0, _⟩ => show win5_1.index t (0 : Fin 2) * 1024 + 1 * (0 + 1 * p.val) = win5_3.index t (0 : Fin 2) * 1024 + p.val; omega
    | ⟨1, _⟩ => show win5_1.index t (1 : Fin 2) * 128 + 1 * (0 + 1 * 0) = 0; omega
  have h2 : (iblk5 V c 2 t (ix2 (0 : Fin 1) q) : EReal) = V c main_v42 (ix2 (0 : Fin 1) (⟨win5_3.index t (1 : Fin 2) * 1024 + q.val, by have := q.isLt; omega⟩ : Fin 4096)) := by
    show V c main_v42 (((cfg5.win 2).blk t).view.emb (ix2 (0 : Fin 1) q)) = _
    refine congrArg _ (funext fun a => Fin.ext ?_)
    match a with
    | ⟨0, _⟩ => show win5_2.index t (0 : Fin 2) * 1 + 1 * 0 = 0; omega
    | ⟨1, _⟩ => show win5_2.index t (1 : Fin 2) * 1024 + 1 * q.val = win5_3.index t (1 : Fin 2) * 1024 + q.val; omega
  exact congrArg₂ (fun a b : EReal => a * b) (congrArg₂ (fun a b : EReal => a * b) h0 h1) h2

theorem mem_blk5 (t : Fin cfg5.N) (i : S4096x4096.Idx) :
    i ∈ ((cfg5.win 3).blk t).view.set ↔ ∀ a : Fin 2, win5_3.index t a * S1024x1024.size a ≤ (i a).val ∧ (i a).val < win5_3.index t a * S1024x1024.size a + S1024x1024.size a := by
  show i ∈ ((View.whole main_v43).slice (win5_3.rect t)).set ↔ _
  rw [View.set_slice_whole, Rect.mem_set_unit]
  exact Iff.rfl

/-- The sixteen tiles fill the result array. -/
theorem cover5 (i : S4096x4096.Idx) : ∃ t : Fin cfg5.N, (cfg5.win 3).flush t = true ∧ i ∈ ((cfg5.win 3).blk t).view.set := by
  have hi0 : (i 0).val < 4096 := (i 0).isLt
  have hi1 : (i 1).val < 4096 := (i 1).isLt
  obtain ⟨t, ht⟩ := idx_onto5 ⟨(i 0).val / 1024, by omega⟩ ⟨(i 1).val / 1024, by omega⟩
  have q0 : win5_3.index t (0 : Fin 2) = (i 0).val / 1024 := congrFun ht 0
  have q1 : win5_3.index t (1 : Fin 2) = (i 1).val / 1024 := congrFun ht 1
  refine ⟨t, flush5_3 t, ?_⟩
  rw [mem_blk5]
  intro a
  match a with
  | ⟨0, _⟩ => show win5_3.index t (0 : Fin 2) * 1024 ≤ (i 0).val ∧ (i 0).val < win5_3.index t (0 : Fin 2) * 1024 + 1024; omega
  | ⟨1, _⟩ => show win5_3.index t (1 : Fin 2) * 1024 ≤ (i 1).val ∧ (i 1).val < win5_3.index t (1 : Fin 2) * 1024 + 1024; omega

/-- THE RESULT ARRAY after the region. -/
theorem final5 (c : Dev nD) : (dat5 (F := Ideal) V c).arrAt 3 cfg5.N = G5 (V c main_v36) (V c main_v41) (V c main_v42) :=
  (dat5 (F := Ideal) V c).arrAt_eq_of_cover 3 (G5 (V c main_v36) (V c main_v41) (V c main_v42)) (fun t _ => flushed5_eq V c t) cover5

end Cert.KernelIdeal.Hand

end
-- ==== Proof.KI.Val6.lean ====
/-
  Region 6's values over the extended reals: what the body's stores leave in the output tile as the payload
  expression of the three input tiles; that expression read at an index (entry (p, q) of a tile of the result is
  the sum over k of x0(p, k) · x1(k, q) plus the bias entry (0, q): the accumulator starts from zero and a change of
  float format is the identity at this instance); and from tiles to the array: tile p of the result array is rows
  1024p … 1024p + 1023 of ONE function of the three arrays, and the four tiles fill the array.
-/
import proofs.«107088_j31018253811971_1_alg».proof.Proof.KI.Region6
import proofs.«107088_j31018253811971_1_alg».proof.Proof.KI.ValBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.WholeTile

section Generic
variable {F : FTy → Type} [FloatOps F]

/-- The output tile after the body is the read-out payload of the accumulated payload of the zeroed accumulator. -/
theorem out6_3_eq (c : Dev nD) (i : grid6.Coords)
    (arg2 : Memref sig .tc .vmem S1024x512 .f32) (harg2 : arg2.IsWhole) (arg3 : Memref sig .tc .vmem S512x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond6_0 i) (hc1 : cond6_1 i)
    (x0 : Vec F S1024x512 .f32) (x1 : Vec F S512x256 .f32) (x2 : Vec F S1x256 .f32) :
    out6_3 c i arg2 harg2 arg3 harg3 arg4 harg4 arg5 harg5 arg6 harg6 hc0 hc1 x0 x1 x2
      = k6_pay3 (k6_pay2 x0 x1 (k6_pay1 (F := F))) x2 := by
  unfold out6_3
  rw [View.read_writes_eq_canon _ _ _ (cover6_3 c i arg2 harg2 arg3 harg3 arg4 harg4 arg5 harg5 arg6 harg6 hc0 hc1 x0 x1 x2)]
  unfold kernelRun6
  dsimp only
  sl_unfold_words
  refine (View.canon_unit_zero (S := S1024x256) hz2 _ _).trans ?_
  rw [readCov_cons_whole (S := S1024x256) arg6.view hz2, View.readCov_unit_zero (S := S1024x256) arg6.view hz2]
  simp only [View.readAt_eq_ld, harg2.read_unread, harg3.read_unread, harg4.read_unread]
  rw [View.ld_unit_zero (S := S1024x512) hz2, View.ld_unit_zero (S := S512x256) hz2, View.ld_unit_zero (S := S1x256) hz2]

end Generic

/-- The zeroed accumulator at an index. -/
theorem pay6_1_apply (p : Fin 1024) (q : Fin 256) : k6_pay1 (F := Ideal) (ix2 p q) = 0 := by
  unfold k6_pay1
  try dsimp only
  simp only [shapeCast_self]
  exact Ideal.ofBits_zero_f32

/-- One block's product added to the accumulator, at an index: entry (p, q) gains the sum over k of x0(p, k) · x1(k, q). -/
theorem pay6_2_apply (x0 : Vec Ideal S1024x512 .f32) (x1 : Vec Ideal S512x256 .f32) (xs : Vec Ideal S1024x256 .f32) (p : Fin 1024) (q : Fin 256) :
    k6_pay2 (F := Ideal) x0 x1 xs (ix2 p q) = xs (ix2 p q) + ∑ k : Fin 512, x0 (ix2 p k) * x1 (ix2 k q) := by
  unfold k6_pay2
  try dsimp only
  simp only [shapeCast_self]
  exact congrArg (fun a : EReal => xs (ix2 p q) + a) (Cert.PlainDot.matmul_zero_apply (M := 1024) (K := 512) (N := 256) none _ _ p q)

/-- The read-out at an index: the accumulator's entry plus the bias row's. -/
theorem pay6_3_apply (acc : Vec Ideal S1024x256 .f32) (x2 : Vec Ideal S1x256 .f32) (p : Fin 1024) (q : Fin 256) :
    k6_pay3 (F := Ideal) acc x2 (ix2 p q) = acc (ix2 p q) + x2 (ix2 (0 : Fin 1) q) := by
  unfold k6_pay3
  try dsimp only
  simp only [shapeCast_self]
  have hb : broadcastTo S1024x256 x2 broadcasts_S1x256_S1024x256 (ix2 p q) = x2 (ix2 (0 : Fin 1) q) :=
    broadcastTo_1b_ab_apply x2 _ p q
  exact congrArg (fun a : EReal => acc (ix2 p q) + a) hb

/-! ## From tiles to the array -/

/-- The whole result array, index by index. -/
def G6 (a : S4096x512.Idx → EReal) (b : S512x256.Idx → EReal) (bias : S1x256.Idx → EReal) : S4096x256.Idx → EReal :=
  fun j => gemmAt (M := 4096) (K := 512) (N := 256) a b bias (j 0) (j 1)

variable (V : (c : Dev nD) → (b : Ref sig .tc) → Buf (Elt Ideal) ((c : Thread nD τ).loc b))

/-- The printed tile indices, decided over the grid: the left operand's row tile is the output's, every other tile
    index is 0, and the output's row tile is at most 3. -/
theorem idx_facts6 : ∀ t : Fin cfg6.N, win6_0.index t (0 : Fin 2) = win6_3.index t (0 : Fin 2)
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (1 : Fin 2) = 0 ∧ win6_3.index t (0 : Fin 2) ≤ 3 :=
  (by decide +kernel : ∀ t : Fin grid6.N, _)

/-- Every row tile is some point's. -/
theorem idx_onto6 : ∀ q0 : Fin 4, ∃ t : Fin cfg6.N, win6_3.index t = ![q0.val, 0] :=
  (by decide +kernel : ∀ q0 : Fin 4, ∃ t : Fin grid6.N, win6_3.index t = ![q0.val, 0])

/-- WHAT POINT `t` WRITES BACK is tile `t` of `G6` of the three arrays as the region finds them. -/
theorem flushed6_eq (c : Dev nD) (t : Fin cfg6.N) :
    (dat6 (F := Ideal) V c).flushed 3 t = ((cfg6.win 3).blk t).view.read (Elt Ideal) (G6 (V c main_arg2) (V c main_arg5) (V c main_v44)) := by
  show (cfg6.win 3).cut (grid6.coords t) ((dat6 (F := Ideal) V c).after 3 t) = _
  rw [after6_3]
  unfold outAt6
  rw [out6_3_eq]
  obtain ⟨e00, e01, e10, e11, e20, e21, e31, e3b⟩ := idx_facts6 t
  funext y
  obtain ⟨p, q, rfl⟩ : ∃ (p : Fin 1024) (q : Fin 256), y = ix2 p q := ⟨y 0, y 1, eq_ix2 y⟩
  have hr : ((cfg6.win 3).blk t).view.emb (ix2 p q) = ix2 (⟨win6_3.index t (0 : Fin 2) * 1024 + p.val, by have := p.isLt; omega⟩ : Fin 4096) q := by
    funext a; apply Fin.ext
    match a with
    | ⟨0, _⟩ => show win6_3.index t (0 : Fin 2) * 1024 + 1 * p.val = win6_3.index t (0 : Fin 2) * 1024 + p.val; omega
    | ⟨1, _⟩ => show win6_3.index t (1 : Fin 2) * 256 + 1 * q.val = q.val; omega
  show k6_pay3 (F := Ideal) (k6_pay2 (F := Ideal) (iblk6 V c 0 t) (iblk6 V c 1 t) (k6_pay1 (F := Ideal))) (iblk6 V c 2 t) (ix2 p q)
    = G6 (V c main_arg2) (V c main_arg5) (V c main_v44) (((cfg6.win 3).blk t).view.emb (ix2 p q))
  rw [pay6_3_apply, pay6_2_apply, pay6_1_apply, zero_add, hr]
  show _ = gemmAt (M := 4096) (K := 512) (N := 256) (V c main_arg2) (V c main_arg5) (V c main_v44) _ q
  unfold gemmAt
  have hA : ∀ k : Fin 512, iblk6 V c 0 t (ix2 p k) = V c main_arg2 (ix2 (⟨win6_3.index t (0 : Fin 2) * 1024 + p.val, by have := p.isLt; omega⟩ : Fin 4096) k) := fun k => by
    show V c main_arg2 (((cfg6.win 0).blk t).view.emb (ix2 p k)) = _
    refine congrArg _ (funext fun a => Fin.ext ?_)
    match a with
    | ⟨0, _⟩ => show win6_0.index t (0 : Fin 2) * 1024 + 1 * p.val = win6_3.index t (0 : Fin 2) * 1024 + p.val; omega
    | ⟨1, _⟩ => show win6_0.index t (1 : Fin 2) * 512 + 1 * k.val = k.val; omega
  have hB : ∀ k : Fin 512, iblk6 V c 1 t (ix2 k q) = V c main_arg5 (ix2 k q) := fun k => by
    show V c main_arg5 (((cfg6.win 1).blk t).view.emb (ix2 k q)) = _
    refine congrArg _ (funext fun a => Fin.ext ?_)
    match a with
    | ⟨0, _⟩ => show win6_1.index t (0 : Fin 2) * 512 + 1 * k.val = k.val; omega
    | ⟨1, _⟩ => show win6_1.index t (1 : Fin 2) * 256 + 1 * q.val = q.val; omega
  have hC : iblk6 V c 2 t (ix2 (0 : Fin 1) q) = V c main_v44 (ix2 (0 : Fin 1) q) := by
    show V c main_v44 (((cfg6.win 2).blk t).view.emb (ix2 (0 : Fin 1) q)) = _
    refine congrArg _ (funext fun a => Fin.ext ?_)
    match a with
    | ⟨0, _⟩ => show win6_2.index t (0 : Fin 2) * 1 + 1 * 0 = 0; omega
    | ⟨1, _⟩ => show win6_2.index t (1 : Fin 2) * 256 + 1 * q.val = q.val; omega
  rw [hC]
  exact congrArg (· + _) (Finset.sum_congr rfl fun k _ => by rw [hA k, hB k])

/-- An index of the result array is in point `t`'s tile iff each coordinate is in the tile's range on its axis. -/
theorem mem_blk6 (t : Fin cfg6.N) (i : S4096x256.Idx) :
    i ∈ ((cfg6.win 3).blk t).view.set ↔ ∀ a : Fin 2, win6_3.index t a * S1024x256.size a ≤ (i a).val ∧ (i a).val < win6_3.index t a * S1024x256.size a + S1024x256.size a := by
  show i ∈ ((View.whole main_v45).slice (win6_3.rect t)).set ↔ _
  rw [View.set_slice_whole, Rect.mem_set_unit]
  exact Iff.rfl

/-- The four row tiles fill the result array: row `r` is in tile `r / 1024`. -/
theorem cover6 (i : S4096x256.Idx) : ∃ t : Fin cfg6.N, (cfg6.win 3).flush t = true ∧ i ∈ ((cfg6.win 3).blk t).view.set := by
  have hi0 : (i 0).val < 4096 := (i 0).isLt
  have hi1 : (i 1).val < 256 := (i 1).isLt
  obtain ⟨t, ht⟩ := idx_onto6 ⟨(i 0).val / 1024, by omega⟩
  have q0 : win6_3.index t (0 : Fin 2) = (i 0).val / 1024 := congrFun ht 0
  have q1 : win6_3.index t (1 : Fin 2) = 0 := congrFun ht 1
  refine ⟨t, flush6_3 t, ?_⟩
  rw [mem_blk6]
  intro a
  match a with
  | ⟨0, _⟩ => show win6_3.index t (0 : Fin 2) * 1024 ≤ (i 0).val ∧ (i 0).val < win6_3.index t (0 : Fin 2) * 1024 + 1024; omega
  | ⟨1, _⟩ => show win6_3.index t (1 : Fin 2) * 256 ≤ (i 1).val ∧ (i 1).val < win6_3.index t (1 : Fin 2) * 256 + 256; omega

/-- THE RESULT ARRAY after the region: `G6` of the three arrays as the region finds them. -/
theorem final6 (c : Dev nD) : (dat6 (F := Ideal) V c).arrAt 3 cfg6.N = G6 (V c main_arg2) (V c main_arg5) (V c main_v44) :=
  (dat6 (F := Ideal) V c).arrAt_eq_of_cover 3 (G6 (V c main_arg2) (V c main_arg5) (V c main_v44)) (fun t _ => flushed6_eq V c t) cover6

end Cert.KernelIdeal.Hand

end
-- ==== Proof.KI.Val7.lean ====
/-
  Region 7's values over the extended reals: what each case's stores leave in the accumulator and in the output tile as
  payload expressions; the read-out at a last block unrolled over the four points of its row tile (the accumulator
  zeroed, then four block products added in order); the block products read in the arrays (block b of the
  contraction is columns 1024b … 1024b + 1023 of the left operand against the same rows of the right operand); the
  four partial sums regrouped as the one sum over 4096; and from tiles to the array.
-/
import proofs.«107088_j31018253811971_1_alg».proof.Proof.KI.Region7
import proofs.«107088_j31018253811971_1_alg».proof.Proof.KI.ValBase
import proofs.«107088_j31018253811971_1_alg».proof.Proof.LibBlockedSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.WholeTile

section Generic
variable {F : FTy → Type} [FloatOps F]

/-- After a first block the accumulator holds that block's product added to zero. -/
theorem sout7_A_eq (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond7_0 i) (hc1 : ¬cond7_1 i) (x0 : Vec F S1024x1024 .bf16) (x1 : Vec F S1024x256 .bf16) :
    sout7_A c i arg2 harg2 arg3 harg3 arg4 harg4 arg5 harg5 arg6 harg6 hc0 hc1 x0 x1 = k7_pay2 x0 x1 (k7_pay1 (F := F)) := by
  unfold sout7_A
  rw [View.read_writes_eq_canon _ _ _ (scover7_A c i arg2 harg2 arg3 harg3 arg4 harg4 arg5 harg5 arg6 harg6 hc0 hc1 x0 x1)]
  unfold kernelRun7_A
  dsimp only
  sl_unfold_words
  refine (View.canon_cons_unit_zero (S := S1024x256) hz2 _ _ _).trans ?_
  rw [View.readCov_unit_zero (S := S1024x256) arg6.view hz2]
  simp only [View.readAt_eq_ld, harg2.read_unread, harg3.read_unread, harg4.read_unread, harg6.read_unread, View.ld_unit_zero (S := S1024x1024) hz2, View.ld_unit_zero (S := S1024x256) hz2, View.ld_unit_zero (S := S1x256) hz2]

/-- After a middle block: this block's product added to what the point before left. -/
theorem sout7_B_eq (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond7_0 i) (hc1 : ¬cond7_1 i) (x0 : Vec F S1024x1024 .bf16) (x1 : Vec F S1024x256 .bf16) (xs : Vec F S1024x256 .f32) :
    sout7_B c i arg2 harg2 arg3 harg3 arg4 harg4 arg5 harg5 arg6 harg6 hc0 hc1 x0 x1 xs = k7_pay2 x0 x1 xs := by
  unfold sout7_B
  rw [View.read_writes_eq_canon _ _ _ (scover7_B c i arg2 harg2 arg3 harg3 arg4 harg4 arg5 harg5 arg6 harg6 hc0 hc1 x0 x1 xs)]
  unfold kernelRun7_B
  dsimp only
  sl_unfold_words
  refine (View.canon_unit_zero (S := S1024x256) hz2 _ _).trans ?_
  simp only [View.readAt_eq_ld, harg2.read_unread, harg3.read_unread, harg4.read_unread, harg6.read_unread, View.ld_unit_zero (S := S1024x1024) hz2, View.ld_unit_zero (S := S1024x256) hz2, View.ld_unit_zero (S := S1x256) hz2]

/-- At a last block the output tile holds the read-out of this block's product added to what the point before left. -/
theorem out7_C_eq (c : Dev nD) (i : grid7.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond7_0 i) (hc1 : cond7_1 i) (x0 : Vec F S1024x1024 .bf16) (x1 : Vec F S1024x256 .bf16) (x2 : Vec F S1x256 .f32) (xs : Vec F S1024x256 .f32) :
    out7_C c i arg2 harg2 arg3 harg3 arg4 harg4 arg5 harg5 arg6 harg6 hc0 hc1 x0 x1 x2 xs = k7_pay3 (k7_pay2 x0 x1 xs) x2 := by
  unfold out7_C
  rw [View.read_writes_eq_canon _ _ _ (cover7_C c i arg2 harg2 arg3 harg3 arg4 harg4 arg5 harg5 arg6 harg6 hc0 hc1 x0 x1 x2 xs)]
  unfold kernelRun7_C
  dsimp only
  sl_unfold_words
  refine (View.canon_unit_zero (S := S1024x256) hz2 _ _).trans ?_
  rw [View.readCov_unit_zero (S := S1024x256) arg6.view hz2]
  simp only [View.readAt_eq_ld, harg2.read_unread, harg3.read_unread, harg4.read_unread, harg6.read_unread, View.ld_unit_zero (S := S1024x1024) hz2, View.ld_unit_zero (S := S1024x256) hz2, View.ld_unit_zero (S := S1x256) hz2]

end Generic

/-- The zeroed accumulator at an index. -/
theorem pay7_1_apply (p : Fin 1024) (q : Fin 256) : k7_pay1 (F := Ideal) (ix2 p q) = 0 := by
  unfold k7_pay1
  try dsimp only
  simp only [shapeCast_self]
  exact Ideal.ofBits_zero_f32

/-- One block's product added to the accumulator, at an index: entry (p, q) gains the sum over k of x0(p, k) · x1(k, q). -/
theorem pay7_2_apply (x0 : Vec Ideal S1024x1024 .bf16) (x1 : Vec Ideal S1024x256 .bf16) (xs : Vec Ideal S1024x256 .f32) (p : Fin 1024) (q : Fin 256) :
    k7_pay2 (F := Ideal) x0 x1 xs (ix2 p q) = xs (ix2 p q) + ∑ k : Fin 1024, x0 (ix2 p k) * x1 (ix2 k q) := by
  unfold k7_pay2
  try dsimp only
  simp only [shapeCast_self]
  exact congrArg (fun a : EReal => xs (ix2 p q) + a) (Cert.PlainDot.matmul_zero_apply (M := 1024) (K := 1024) (N := 256) none _ _ p q)

/-- The read-out at an index: the accumulator's entry plus the bias row's, then the positive part. -/
theorem pay7_3_apply (acc : Vec Ideal S1024x256 .f32) (x2 : Vec Ideal S1x256 .f32) (p : Fin 1024) (q : Fin 256) :
    k7_pay3 (F := Ideal) acc x2 (ix2 p q) = max (acc (ix2 p q) + x2 (ix2 (0 : Fin 1) q)) 0 := by
  unfold k7_pay3
  try dsimp only
  simp only [shapeCast_self]
  have hb : broadcastTo S1024x256 x2 broadcasts_S1x256_S1024x256 (ix2 p q) = x2 (ix2 (0 : Fin 1) q) :=
    broadcastTo_1b_ab_apply x2 _ p q
  exact congrArg₂ (fun a b : EReal => max a b) (congrArg (fun a : EReal => acc (ix2 p q) + a) hb) Ideal.ofBits_zero_f32

/-! ## From tiles to the array -/

/-- The whole result array, index by index. -/
def G7 (a : S4096x4096.Idx → EReal) (b : S4096x256.Idx → EReal) (bias : S1x256.Idx → EReal) : S4096x256.Idx → EReal :=
  fun j => max (gemmAt (M := 4096) (K := 4096) (N := 256) a b bias (j 0) (j 1)) 0

variable (V : (c : Dev nD) → (b : Ref sig .tc) → Buf (Elt Ideal) ((c : Thread nD τ).loc b))

/-- The printed tile indices, decided over pairs of points of one row tile: the left operand's tile is (the output's
    row tile, the point's block), the right operand's is (the point's block, 0), the bias tile is (0, 0), the output's
    column tile is 0 and its row tile at most 3. -/
theorem idx_facts7 : ∀ t s : Fin cfg7.N, s.val / 4 = t.val / 4 →
    win7_0.index s (0 : Fin 2) = win7_3.index t (0 : Fin 2) ∧ win7_0.index s (1 : Fin 2) = s.val % 4
    ∧ win7_1.index s (0 : Fin 2) = s.val % 4 ∧ win7_1.index s (1 : Fin 2) = 0
    ∧ win7_2.index s (0 : Fin 2) = 0 ∧ win7_2.index s (1 : Fin 2) = 0
    ∧ win7_3.index t (1 : Fin 2) = 0 ∧ win7_3.index t (0 : Fin 2) ≤ 3 :=
  (by decide +kernel : ∀ t s : Fin grid7.N, s.val / 4 = t.val / 4 → _)

/-- Every row tile is written back by some point. -/
theorem idx_onto7 : ∀ q0 : Fin 4, ∃ t : Fin cfg7.N, (cfg7.win 3).flush t = true ∧ win7_3.index t = ![q0.val, 0] :=
  (by decide +kernel : ∀ q0 : Fin 4, ∃ t : Fin grid7.N, win7_3.flush t = true ∧ win7_3.index t = ![q0.val, 0])

/-- The output tile at a last block, unrolled over the four points of its row tile. -/
theorem outAt7_last (c : Dev nD) (t : Fin cfg7.N) (h3 : t.val % 4 = 3) :
    outAt7 V c t = k7_pay3 (F := Ideal)
      (k7_pay2 (F := Ideal) (iblk7 V c 0 t) (iblk7 V c 1 t)
        (k7_pay2 (F := Ideal) (iblk7 V c 0 ⟨t.val - 1, by omega⟩) (iblk7 V c 1 ⟨t.val - 1, by omega⟩)
          (k7_pay2 (F := Ideal) (iblk7 V c 0 ⟨t.val - 2, by omega⟩) (iblk7 V c 1 ⟨t.val - 2, by omega⟩)
            (k7_pay2 (F := Ideal) (iblk7 V c 0 ⟨t.val - 3, by omega⟩) (iblk7 V c 1 ⟨t.val - 3, by omega⟩) (k7_pay1 (F := Ideal))))))
      (iblk7 V c 2 t) := by
  have hN : t.val < 16 := lt_of_lt_of_eq t.isLt (show cfg7.N = 16 from N_7)
  have hlt : ∀ d, t.val - d < cfg7.N := fun d => lt_of_le_of_lt (Nat.sub_le _ _) t.isLt
  unfold outAt7
  rw [dif_pos h3, out7_C_eq]
  have e2 : accAt7 V c (t.val - 1) (hlt 1) = k7_pay2 (F := Ideal) (iblk7 V c 0 ⟨t.val - 1, hlt 1⟩) (iblk7 V c 1 ⟨t.val - 1, hlt 1⟩) (accAt7 V c (t.val - 1 - 1) (by omega)) :=
    (accAt7_B V c ⟨t.val - 1, hlt 1⟩ (by show ¬(t.val - 1) % 4 = 0; omega) (by show ¬(t.val - 1) % 4 = 3; omega)).trans (sout7_B_eq ..)
  have e1 : accAt7 V c (t.val - 1 - 1) (by omega) = k7_pay2 (F := Ideal) (iblk7 V c 0 ⟨t.val - 2, hlt 2⟩) (iblk7 V c 1 ⟨t.val - 2, hlt 2⟩) (accAt7 V c (t.val - 2 - 1) (by omega)) :=
    (accAt7_B V c ⟨t.val - 2, hlt 2⟩ (by show ¬(t.val - 2) % 4 = 0; omega) (by show ¬(t.val - 2) % 4 = 3; omega)).trans (sout7_B_eq ..)
  have e0 : accAt7 V c (t.val - 2 - 1) (by omega) = k7_pay2 (F := Ideal) (iblk7 V c 0 ⟨t.val - 3, hlt 3⟩) (iblk7 V c 1 ⟨t.val - 3, hlt 3⟩) (k7_pay1 (F := Ideal)) :=
    (accAt7_A V c ⟨t.val - 3, hlt 3⟩ (by show (t.val - 3) % 4 = 0; omega) (by show ¬(t.val - 3) % 4 = 3; omega)).trans (sout7_A_eq ..)
  rw [e2, e1, e0]

/-- One block's product at point `s` of `t`'s row tile, read in the arrays: block `b = s mod 4` of the contraction at row
    `R`. (`x0 x1` are the two staged tiles at `s`, `a b'` the two arrays: variables of the literal types, tied by equations.) -/
theorem blockSum7 (c : Dev nD) (t s : Fin cfg7.N) (hs : s.val / 4 = t.val / 4) (b : ℕ) (hb : s.val % 4 = b) (p : Fin 1024) (q : Fin 256)
    (R : Fin 4096) (hR : R.val = win7_3.index t (0 : Fin 2) * 1024 + p.val)
    (x0 : Vec Ideal S1024x1024 .bf16) (x1 : Vec Ideal S1024x256 .bf16) (h0 : x0 = iblk7 V c 0 s) (h1 : x1 = iblk7 V c 1 s)
    (a : S4096x4096.Idx → EReal) (b' : S4096x256.Idx → EReal) (ha : a = V c main_v43) (hb' : b' = V c main_v45) :
    (∑ k : Fin 1024, x0 (ix2 p k) * x1 (ix2 k q)) = ∑ k : Fin 1024, blkF a b' R q (b * 1024 + k.val) := by
  subst h0 h1 ha hb'
  obtain ⟨e00, e01, e10, e11, e20, e21, e31, e3b⟩ := idx_facts7 t s hs
  refine Finset.sum_congr rfl fun k _ => ?_
  have hk : b * 1024 + k.val < 4096 := by have := k.isLt; omega
  simp only [blkF]
  rw [dif_pos hk]
  refine congrArg₂ (fun u v : EReal => u * v) ?_ ?_
  · show V c main_v43 (((cfg7.win 0).blk s).view.emb (ix2 p k)) = _
    refine congrArg _ (funext fun a => Fin.ext ?_)
    match a with
    | ⟨0, _⟩ => show win7_0.index s (0 : Fin 2) * 1024 + 1 * p.val = R.val; omega
    | ⟨1, _⟩ => show win7_0.index s (1 : Fin 2) * 1024 + 1 * k.val = b * 1024 + k.val; omega
  · show V c main_v45 (((cfg7.win 1).blk s).view.emb (ix2 k q)) = _
    refine congrArg _ (funext fun a => Fin.ext ?_)
    match a with
    | ⟨0, _⟩ => show win7_1.index s (0 : Fin 2) * 1024 + 1 * k.val = b * 1024 + k.val; omega
    | ⟨1, _⟩ => show win7_1.index s (1 : Fin 2) * 256 + 1 * q.val = q.val; omega

/-- WHAT A LAST-BLOCK POINT `t` WRITES BACK is tile `t` of `G7` of the three arrays as the region finds them. -/
theorem flushed7_eq (c : Dev nD) (t : Fin cfg7.N) (hf : (cfg7.win 3).flush t = true) :
    (dat7 (F := Ideal) V c).flushed 3 t = ((cfg7.win 3).blk t).view.read (Elt Ideal) (G7 (V c main_v43) (V c main_v45) (V c main_v46)) := by
  have h3 : t.val % 4 = 3 := (flush7_3 t).mp hf
  have hN : t.val < 16 := lt_of_lt_of_eq t.isLt (show cfg7.N = 16 from N_7)
  show (cfg7.win 3).cut (grid7.coords t) ((dat7 (F := Ideal) V c).after 3 t) = _
  rw [after7_3, outAt7_last V c t h3]
  obtain ⟨e00, e01, e10, e11, e20, e21, e31, e3b⟩ := idx_facts7 t t rfl
  funext y
  obtain ⟨p, q, rfl⟩ : ∃ (p : Fin 1024) (q : Fin 256), y = ix2 p q := ⟨y 0, y 1, eq_ix2 y⟩
  have hr : ((cfg7.win 3).blk t).view.emb (ix2 p q) = ix2 (⟨win7_3.index t (0 : Fin 2) * 1024 + p.val, by have := p.isLt; omega⟩ : Fin 4096) q := by
    funext a; apply Fin.ext
    match a with
    | ⟨0, _⟩ => show win7_3.index t (0 : Fin 2) * 1024 + 1 * p.val = win7_3.index t (0 : Fin 2) * 1024 + p.val; omega
    | ⟨1, _⟩ => show win7_3.index t (1 : Fin 2) * 256 + 1 * q.val = q.val; omega
  show k7_pay3 (F := Ideal) _ (iblk7 V c 2 t) (ix2 p q)
    = G7 (V c main_v43) (V c main_v45) (V c main_v46) (((cfg7.win 3).blk t).view.emb (ix2 p q))
  rw [pay7_3_apply, pay7_2_apply, pay7_2_apply, pay7_2_apply, pay7_2_apply, pay7_1_apply, hr]
  have hRlt : win7_3.index t (0 : Fin 2) * 1024 + p.val < 4096 := by have := p.isLt; omega
  rw [blockSum7 V c t ⟨t.val - 3, by omega⟩ (by show (t.val - 3) / 4 = t.val / 4; omega) 0 (by show (t.val - 3) % 4 = 0; omega) p q (⟨win7_3.index t (0 : Fin 2) * 1024 + p.val, hRlt⟩ : Fin 4096) rfl _ _ rfl rfl _ _ rfl rfl,
    blockSum7 V c t ⟨t.val - 2, by omega⟩ (by show (t.val - 2) / 4 = t.val / 4; omega) 1 (by show (t.val - 2) % 4 = 1; omega) p q (⟨win7_3.index t (0 : Fin 2) * 1024 + p.val, hRlt⟩ : Fin 4096) rfl _ _ rfl rfl _ _ rfl rfl,
    blockSum7 V c t ⟨t.val - 1, by omega⟩ (by show (t.val - 1) / 4 = t.val / 4; omega) 2 (by show (t.val - 1) % 4 = 2; omega) p q (⟨win7_3.index t (0 : Fin 2) * 1024 + p.val, hRlt⟩ : Fin 4096) rfl _ _ rfl rfl _ _ rfl rfl,
    blockSum7 V c t t rfl 3 h3 p q (⟨win7_3.index t (0 : Fin 2) * 1024 + p.val, hRlt⟩ : Fin 4096) rfl _ _ rfl rfl _ _ rfl rfl]
  rw [sum_four_blocks_ereal (blkF (V c main_v43) (V c main_v45) (⟨win7_3.index t (0 : Fin 2) * 1024 + p.val, hRlt⟩ : Fin 4096) q), sum_blkF]
  have hC : iblk7 V c 2 t (ix2 (0 : Fin 1) q) = V c main_v46 (ix2 (0 : Fin 1) q) := by
    show V c main_v46 (((cfg7.win 2).blk t).view.emb (ix2 (0 : Fin 1) q)) = _
    refine congrArg _ (funext fun a => Fin.ext ?_)
    match a with
    | ⟨0, _⟩ => show win7_2.index t (0 : Fin 2) * 1 + 1 * 0 = 0; omega
    | ⟨1, _⟩ => show win7_2.index t (1 : Fin 2) * 256 + 1 * q.val = q.val; omega
  rw [hC]
  rfl

/-- An index of the result array is in point `t`'s tile iff each coordinate is in the tile's range on its axis. -/
theorem mem_blk7 (t : Fin cfg7.N) (i : S4096x256.Idx) :
    i ∈ ((cfg7.win 3).blk t).view.set ↔ ∀ a : Fin 2, win7_3.index t a * S1024x256.size a ≤ (i a).val ∧ (i a).val < win7_3.index t a * S1024x256.size a + S1024x256.size a := by
  show i ∈ ((View.whole main_v47).slice (win7_3.rect t)).set ↔ _
  rw [View.set_slice_whole, Rect.mem_set_unit]
  exact Iff.rfl

/-- The four row tiles, each written back at its last block, fill the result array. -/
theorem cover7 (i : S4096x256.Idx) : ∃ t : Fin cfg7.N, (cfg7.win 3).flush t = true ∧ i ∈ ((cfg7.win 3).blk t).view.set := by
  have hi0 : (i 0).val < 4096 := (i 0).isLt
  have hi1 : (i 1).val < 256 := (i 1).isLt
  obtain ⟨t, hft, ht⟩ := idx_onto7 ⟨(i 0).val / 1024, by omega⟩
  have q0 : win7_3.index t (0 : Fin 2) = (i 0).val / 1024 := congrFun ht 0
  have q1 : win7_3.index t (1 : Fin 2) = 0 := congrFun ht 1
  refine ⟨t, hft, ?_⟩
  rw [mem_blk7]
  intro a
  match a with
  | ⟨0, _⟩ => show win7_3.index t (0 : Fin 2) * 1024 ≤ (i 0).val ∧ (i 0).val < win7_3.index t (0 : Fin 2) * 1024 + 1024; omega
  | ⟨1, _⟩ => show win7_3.index t (1 : Fin 2) * 256 ≤ (i 1).val ∧ (i 1).val < win7_3.index t (1 : Fin 2) * 256 + 256; omega

/-- THE RESULT ARRAY after the region: `G7` of the three arrays as the region finds them. -/
theorem final7 (c : Dev nD) : (dat7 (F := Ideal) V c).arrAt 3 cfg7.N = G7 (V c main_v43) (V c main_v45) (V c main_v46) :=
  (dat7 (F := Ideal) V c).arrAt_eq_of_cover 3 (G7 (V c main_v43) (V c main_v45) (V c main_v46)) (fun t hf => flushed7_eq V c t hf) cover7

end Cert.KernelIdeal.Hand

end
-- ==== Proof.KI.Val8.lean ====
/-
  Region 8's values over the extended reals: what the body's stores leave in the output tile as the payload
  expression of the three input tiles; that expression read at an index (entry (p, q) of a tile of the result is
  the sum over k of x0(p, k) · x1(k, q) plus the bias entry (0, q): the accumulator starts from zero and a change of
  float format is the identity at this instance); and from tiles to the array: tile p of the result array is rows
  1024p … 1024p + 1023 of ONE function of the three arrays, and the four tiles fill the array.
-/
import proofs.«107088_j31018253811971_1_alg».proof.Proof.KI.Region8
import proofs.«107088_j31018253811971_1_alg».proof.Proof.KI.ValBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.WholeTile

section Generic
variable {F : FTy → Type} [FloatOps F]

/-- The output tile after the body is the read-out payload of the accumulated payload of the zeroed accumulator. -/
theorem out8_3_eq (c : Dev nD) (i : grid8.Coords)
    (arg2 : Memref sig .tc .vmem S1024x256 .bf16) (harg2 : arg2.IsWhole) (arg3 : Memref sig .tc .vmem S256x256 .f32) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond8_0 i) (hc1 : cond8_1 i)
    (x0 : Vec F S1024x256 .bf16) (x1 : Vec F S256x256 .f32) (x2 : Vec F S1x256 .f32) :
    out8_3 c i arg2 harg2 arg3 harg3 arg4 harg4 arg5 harg5 arg6 harg6 hc0 hc1 x0 x1 x2
      = k8_pay3 (k8_pay2 x0 x1 (k8_pay1 (F := F))) x2 := by
  unfold out8_3
  rw [View.read_writes_eq_canon _ _ _ (cover8_3 c i arg2 harg2 arg3 harg3 arg4 harg4 arg5 harg5 arg6 harg6 hc0 hc1 x0 x1 x2)]
  unfold kernelRun8
  dsimp only
  sl_unfold_words
  refine (View.canon_unit_zero (S := S1024x256) hz2 _ _).trans ?_
  rw [readCov_cons_whole (S := S1024x256) arg6.view hz2, View.readCov_unit_zero (S := S1024x256) arg6.view hz2]
  simp only [View.readAt_eq_ld, harg2.read_unread, harg3.read_unread, harg4.read_unread]
  rw [View.ld_unit_zero (S := S1024x256) hz2, View.ld_unit_zero (S := S256x256) hz2, View.ld_unit_zero (S := S1x256) hz2]

end Generic

/-- The zeroed accumulator at an index. -/
theorem pay8_1_apply (p : Fin 1024) (q : Fin 256) : k8_pay1 (F := Ideal) (ix2 p q) = 0 := by
  unfold k8_pay1
  try dsimp only
  simp only [shapeCast_self]
  exact Ideal.ofBits_zero_f32

/-- One block's product added to the accumulator, at an index: entry (p, q) gains the sum over k of x0(p, k) · x1(k, q). -/
theorem pay8_2_apply (x0 : Vec Ideal S1024x256 .bf16) (x1 : Vec Ideal S256x256 .f32) (xs : Vec Ideal S1024x256 .f32) (p : Fin 1024) (q : Fin 256) :
    k8_pay2 (F := Ideal) x0 x1 xs (ix2 p q) = xs (ix2 p q) + ∑ k : Fin 256, x0 (ix2 p k) * x1 (ix2 k q) := by
  unfold k8_pay2
  try dsimp only
  simp only [shapeCast_self]
  exact congrArg (fun a : EReal => xs (ix2 p q) + a) (Cert.PlainDot.matmul_zero_apply (M := 1024) (K := 256) (N := 256) none _ _ p q)

/-- The read-out at an index: the accumulator's entry plus the bias row's. -/
theorem pay8_3_apply (acc : Vec Ideal S1024x256 .f32) (x2 : Vec Ideal S1x256 .f32) (p : Fin 1024) (q : Fin 256) :
    k8_pay3 (F := Ideal) acc x2 (ix2 p q) = acc (ix2 p q) + x2 (ix2 (0 : Fin 1) q) := by
  unfold k8_pay3
  try dsimp only
  simp only [shapeCast_self]
  have hb : broadcastTo S1024x256 x2 broadcasts_S1x256_S1024x256 (ix2 p q) = x2 (ix2 (0 : Fin 1) q) :=
    broadcastTo_1b_ab_apply x2 _ p q
  exact congrArg (fun a : EReal => acc (ix2 p q) + a) hb

/-! ## From tiles to the array -/

/-- The whole result array, index by index. -/
def G8 (a : S4096x256.Idx → EReal) (b : S256x256.Idx → EReal) (bias : S1x256.Idx → EReal) : S4096x256.Idx → EReal :=
  fun j => gemmAt (M := 4096) (K := 256) (N := 256) a b bias (j 0) (j 1)

variable (V : (c : Dev nD) → (b : Ref sig .tc) → Buf (Elt Ideal) ((c : Thread nD τ).loc b))

/-- The printed tile indices, decided over the grid: the left operand's row tile is the output's, every other tile
    index is 0, and the output's row tile is at most 3. -/
theorem idx_facts8 : ∀ t : Fin cfg8.N, win8_0.index t (0 : Fin 2) = win8_3.index t (0 : Fin 2)
    ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (1 : Fin 2) = 0 ∧ win8_3.index t (0 : Fin 2) ≤ 3 :=
  (by decide +kernel : ∀ t : Fin grid8.N, _)

/-- Every row tile is some point's. -/
theorem idx_onto8 : ∀ q0 : Fin 4, ∃ t : Fin cfg8.N, win8_3.index t = ![q0.val, 0] :=
  (by decide +kernel : ∀ q0 : Fin 4, ∃ t : Fin grid8.N, win8_3.index t = ![q0.val, 0])

/-- WHAT POINT `t` WRITES BACK is tile `t` of `G8` of the three arrays as the region finds them. -/
theorem flushed8_eq (c : Dev nD) (t : Fin cfg8.N) :
    (dat8 (F := Ideal) V c).flushed 3 t = ((cfg8.win 3).blk t).view.read (Elt Ideal) (G8 (V c main_v47) (V c main_arg7) (V c main_v48)) := by
  show (cfg8.win 3).cut (grid8.coords t) ((dat8 (F := Ideal) V c).after 3 t) = _
  rw [after8_3]
  unfold outAt8
  rw [out8_3_eq]
  obtain ⟨e00, e01, e10, e11, e20, e21, e31, e3b⟩ := idx_facts8 t
  funext y
  obtain ⟨p, q, rfl⟩ : ∃ (p : Fin 1024) (q : Fin 256), y = ix2 p q := ⟨y 0, y 1, eq_ix2 y⟩
  have hr : ((cfg8.win 3).blk t).view.emb (ix2 p q) = ix2 (⟨win8_3.index t (0 : Fin 2) * 1024 + p.val, by have := p.isLt; omega⟩ : Fin 4096) q := by
    funext a; apply Fin.ext
    match a with
    | ⟨0, _⟩ => show win8_3.index t (0 : Fin 2) * 1024 + 1 * p.val = win8_3.index t (0 : Fin 2) * 1024 + p.val; omega
    | ⟨1, _⟩ => show win8_3.index t (1 : Fin 2) * 256 + 1 * q.val = q.val; omega
  show k8_pay3 (F := Ideal) (k8_pay2 (F := Ideal) (iblk8 V c 0 t) (iblk8 V c 1 t) (k8_pay1 (F := Ideal))) (iblk8 V c 2 t) (ix2 p q)
    = G8 (V c main_v47) (V c main_arg7) (V c main_v48) (((cfg8.win 3).blk t).view.emb (ix2 p q))
  rw [pay8_3_apply, pay8_2_apply, pay8_1_apply, zero_add, hr]
  show _ = gemmAt (M := 4096) (K := 256) (N := 256) (V c main_v47) (V c main_arg7) (V c main_v48) _ q
  unfold gemmAt
  have hA : ∀ k : Fin 256, iblk8 V c 0 t (ix2 p k) = V c main_v47 (ix2 (⟨win8_3.index t (0 : Fin 2) * 1024 + p.val, by have := p.isLt; omega⟩ : Fin 4096) k) := fun k => by
    show V c main_v47 (((cfg8.win 0).blk t).view.emb (ix2 p k)) = _
    refine congrArg _ (funext fun a => Fin.ext ?_)
    match a with
    | ⟨0, _⟩ => show win8_0.index t (0 : Fin 2) * 1024 + 1 * p.val = win8_3.index t (0 : Fin 2) * 1024 + p.val; omega
    | ⟨1, _⟩ => show win8_0.index t (1 : Fin 2) * 256 + 1 * k.val = k.val; omega
  have hB : ∀ k : Fin 256, iblk8 V c 1 t (ix2 k q) = V c main_arg7 (ix2 k q) := fun k => by
    show V c main_arg7 (((cfg8.win 1).blk t).view.emb (ix2 k q)) = _
    refine congrArg _ (funext fun a => Fin.ext ?_)
    match a with
    | ⟨0, _⟩ => show win8_1.index t (0 : Fin 2) * 256 + 1 * k.val = k.val; omega
    | ⟨1, _⟩ => show win8_1.index t (1 : Fin 2) * 256 + 1 * q.val = q.val; omega
  have hC : iblk8 V c 2 t (ix2 (0 : Fin 1) q) = V c main_v48 (ix2 (0 : Fin 1) q) := by
    show V c main_v48 (((cfg8.win 2).blk t).view.emb (ix2 (0 : Fin 1) q)) = _
    refine congrArg _ (funext fun a => Fin.ext ?_)
    match a with
    | ⟨0, _⟩ => show win8_2.index t (0 : Fin 2) * 1 + 1 * 0 = 0; omega
    | ⟨1, _⟩ => show win8_2.index t (1 : Fin 2) * 256 + 1 * q.val = q.val; omega
  rw [hC]
  exact congrArg (· + _) (Finset.sum_congr rfl fun k _ => by rw [hA k, hB k])

/-- An index of the result array is in point `t`'s tile iff each coordinate is in the tile's range on its axis. -/
theorem mem_blk8 (t : Fin cfg8.N) (i : S4096x256.Idx) :
    i ∈ ((cfg8.win 3).blk t).view.set ↔ ∀ a : Fin 2, win8_3.index t a * S1024x256.size a ≤ (i a).val ∧ (i a).val < win8_3.index t a * S1024x256.size a + S1024x256.size a := by
  show i ∈ ((View.whole main_v49).slice (win8_3.rect t)).set ↔ _
  rw [View.set_slice_whole, Rect.mem_set_unit]
  exact Iff.rfl

/-- The four row tiles fill the result array: row `r` is in tile `r / 1024`. -/
theorem cover8 (i : S4096x256.Idx) : ∃ t : Fin cfg8.N, (cfg8.win 3).flush t = true ∧ i ∈ ((cfg8.win 3).blk t).view.set := by
  have hi0 : (i 0).val < 4096 := (i 0).isLt
  have hi1 : (i 1).val < 256 := (i 1).isLt
  obtain ⟨t, ht⟩ := idx_onto8 ⟨(i 0).val / 1024, by omega⟩
  have q0 : win8_3.index t (0 : Fin 2) = (i 0).val / 1024 := congrFun ht 0
  have q1 : win8_3.index t (1 : Fin 2) = 0 := congrFun ht 1
  refine ⟨t, flush8_3 t, ?_⟩
  rw [mem_blk8]
  intro a
  match a with
  | ⟨0, _⟩ => show win8_3.index t (0 : Fin 2) * 1024 ≤ (i 0).val ∧ (i 0).val < win8_3.index t (0 : Fin 2) * 1024 + 1024; omega
  | ⟨1, _⟩ => show win8_3.index t (1 : Fin 2) * 256 ≤ (i 1).val ∧ (i 1).val < win8_3.index t (1 : Fin 2) * 256 + 256; omega

/-- THE RESULT ARRAY after the region: `G8` of the three arrays as the region finds them. -/
theorem final8 (c : Dev nD) : (dat8 (F := Ideal) V c).arrAt 3 cfg8.N = G8 (V c main_v47) (V c main_arg7) (V c main_v48) :=
  (dat8 (F := Ideal) V c).arrAt_eq_of_cover 3 (G8 (V c main_v47) (V c main_arg7) (V c main_v48)) (fun t _ => flushed8_eq V c t) cover8

end Cert.KernelIdeal.Hand

end
-- ==== Proof.KI.Val9.lean ====
/-
  Region 9's values over the extended reals: what each case's stores leave in the accumulator and in the output tile as
  payload expressions; the read-out at a last block unrolled over the four points of its row tile (the accumulator
  zeroed, then four block products added in order); the block products read in the arrays (block b of the
  contraction is columns 1024b … 1024b + 1023 of the left operand against the same rows of the right operand); the
  four partial sums regrouped as the one sum over 4096; and from tiles to the array.
-/
import proofs.«107088_j31018253811971_1_alg».proof.Proof.KI.Region9
import proofs.«107088_j31018253811971_1_alg».proof.Proof.KI.ValBase
import proofs.«107088_j31018253811971_1_alg».proof.Proof.LibBlockedSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.WholeTile

section Generic
variable {F : FTy → Type} [FloatOps F]

/-- After a first block the accumulator holds that block's product added to zero. -/
theorem sout9_A_eq (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : cond9_0 i) (hc1 : ¬cond9_1 i) (x0 : Vec F S1024x1024 .bf16) (x1 : Vec F S1024x256 .bf16) :
    sout9_A c i arg2 harg2 arg3 harg3 arg4 harg4 arg5 harg5 arg6 harg6 hc0 hc1 x0 x1 = k9_pay2 x0 x1 (k9_pay1 (F := F)) := by
  unfold sout9_A
  rw [View.read_writes_eq_canon _ _ _ (scover9_A c i arg2 harg2 arg3 harg3 arg4 harg4 arg5 harg5 arg6 harg6 hc0 hc1 x0 x1)]
  unfold kernelRun9_A
  dsimp only
  sl_unfold_words
  refine (View.canon_cons_unit_zero (S := S1024x256) hz2 _ _ _).trans ?_
  rw [View.readCov_unit_zero (S := S1024x256) arg6.view hz2]
  simp only [View.readAt_eq_ld, harg2.read_unread, harg3.read_unread, harg4.read_unread, harg6.read_unread, View.ld_unit_zero (S := S1024x1024) hz2, View.ld_unit_zero (S := S1024x256) hz2, View.ld_unit_zero (S := S1x256) hz2]

/-- After a middle block: this block's product added to what the point before left. -/
theorem sout9_B_eq (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond9_0 i) (hc1 : ¬cond9_1 i) (x0 : Vec F S1024x1024 .bf16) (x1 : Vec F S1024x256 .bf16) (xs : Vec F S1024x256 .f32) :
    sout9_B c i arg2 harg2 arg3 harg3 arg4 harg4 arg5 harg5 arg6 harg6 hc0 hc1 x0 x1 xs = k9_pay2 x0 x1 xs := by
  unfold sout9_B
  rw [View.read_writes_eq_canon _ _ _ (scover9_B c i arg2 harg2 arg3 harg3 arg4 harg4 arg5 harg5 arg6 harg6 hc0 hc1 x0 x1 xs)]
  unfold kernelRun9_B
  dsimp only
  sl_unfold_words
  refine (View.canon_unit_zero (S := S1024x256) hz2 _ _).trans ?_
  simp only [View.readAt_eq_ld, harg2.read_unread, harg3.read_unread, harg4.read_unread, harg6.read_unread, View.ld_unit_zero (S := S1024x1024) hz2, View.ld_unit_zero (S := S1024x256) hz2, View.ld_unit_zero (S := S1x256) hz2]

/-- At a last block the output tile holds the read-out of this block's product added to what the point before left. -/
theorem out9_C_eq (c : Dev nD) (i : grid9.Coords) (arg2 : Memref sig .tc .vmem S1024x1024 .bf16) (harg2 : arg2.IsWhole) (arg3 : Memref sig .tc .vmem S1024x256 .bf16) (harg3 : arg3.IsWhole)
    (arg4 : Memref sig .tc .vmem S1x256 .f32) (harg4 : arg4.IsWhole) (arg5 : Memref sig .tc .vmem S1024x256 .bf16) (harg5 : arg5.IsWhole)
    (arg6 : Memref sig .tc .vmem S1024x256 .f32) (harg6 : arg6.IsWhole) (hc0 : ¬cond9_0 i) (hc1 : cond9_1 i) (x0 : Vec F S1024x1024 .bf16) (x1 : Vec F S1024x256 .bf16) (x2 : Vec F S1x256 .f32) (xs : Vec F S1024x256 .f32) :
    out9_C c i arg2 harg2 arg3 harg3 arg4 harg4 arg5 harg5 arg6 harg6 hc0 hc1 x0 x1 x2 xs = k9_pay3 (k9_pay2 x0 x1 xs) x2 := by
  unfold out9_C
  rw [View.read_writes_eq_canon _ _ _ (cover9_C c i arg2 harg2 arg3 harg3 arg4 harg4 arg5 harg5 arg6 harg6 hc0 hc1 x0 x1 x2 xs)]
  unfold kernelRun9_C
  dsimp only
  sl_unfold_words
  refine (View.canon_unit_zero (S := S1024x256) hz2 _ _).trans ?_
  rw [View.readCov_unit_zero (S := S1024x256) arg6.view hz2]
  simp only [View.readAt_eq_ld, harg2.read_unread, harg3.read_unread, harg4.read_unread, harg6.read_unread, View.ld_unit_zero (S := S1024x1024) hz2, View.ld_unit_zero (S := S1024x256) hz2, View.ld_unit_zero (S := S1x256) hz2]

end Generic

/-- The zeroed accumulator at an index. -/
theorem pay9_1_apply (p : Fin 1024) (q : Fin 256) : k9_pay1 (F := Ideal) (ix2 p q) = 0 := by
  unfold k9_pay1
  try dsimp only
  simp only [shapeCast_self]
  exact Ideal.ofBits_zero_f32

/-- One block's product added to the accumulator, at an index: entry (p, q) gains the sum over k of x0(p, k) · x1(k, q). -/
theorem pay9_2_apply (x0 : Vec Ideal S1024x1024 .bf16) (x1 : Vec Ideal S1024x256 .bf16) (xs : Vec Ideal S1024x256 .f32) (p : Fin 1024) (q : Fin 256) :
    k9_pay2 (F := Ideal) x0 x1 xs (ix2 p q) = xs (ix2 p q) + ∑ k : Fin 1024, x0 (ix2 p k) * x1 (ix2 k q) := by
  unfold k9_pay2
  try dsimp only
  simp only [shapeCast_self]
  exact congrArg (fun a : EReal => xs (ix2 p q) + a) (Cert.PlainDot.matmul_zero_apply (M := 1024) (K := 1024) (N := 256) none _ _ p q)

/-- The read-out at an index: the accumulator's entry plus the bias row's, then the positive part. -/
theorem pay9_3_apply (acc : Vec Ideal S1024x256 .f32) (x2 : Vec Ideal S1x256 .f32) (p : Fin 1024) (q : Fin 256) :
    k9_pay3 (F := Ideal) acc x2 (ix2 p q) = max (acc (ix2 p q) + x2 (ix2 (0 : Fin 1) q)) 0 := by
  unfold k9_pay3
  try dsimp only
  simp only [shapeCast_self]
  have hb : broadcastTo S1024x256 x2 broadcasts_S1x256_S1024x256 (ix2 p q) = x2 (ix2 (0 : Fin 1) q) :=
    broadcastTo_1b_ab_apply x2 _ p q
  exact congrArg₂ (fun a b : EReal => max a b) (congrArg (fun a : EReal => acc (ix2 p q) + a) hb) Ideal.ofBits_zero_f32

/-! ## From tiles to the array -/

/-- The whole result array, index by index. -/
def G9 (a : S4096x4096.Idx → EReal) (b : S4096x256.Idx → EReal) (bias : S1x256.Idx → EReal) : S4096x256.Idx → EReal :=
  fun j => max (gemmAt (M := 4096) (K := 4096) (N := 256) a b bias (j 0) (j 1)) 0

variable (V : (c : Dev nD) → (b : Ref sig .tc) → Buf (Elt Ideal) ((c : Thread nD τ).loc b))

/-- The printed tile indices, decided over pairs of points of one row tile: the left operand's tile is (the output's
    row tile, the point's block), the right operand's is (the point's block, 0), the bias tile is (0, 0), the output's
    column tile is 0 and its row tile at most 3. -/
theorem idx_facts9 : ∀ t s : Fin cfg9.N, s.val / 4 = t.val / 4 →
    win9_0.index s (0 : Fin 2) = win9_3.index t (0 : Fin 2) ∧ win9_0.index s (1 : Fin 2) = s.val % 4
    ∧ win9_1.index s (0 : Fin 2) = s.val % 4 ∧ win9_1.index s (1 : Fin 2) = 0
    ∧ win9_2.index s (0 : Fin 2) = 0 ∧ win9_2.index s (1 : Fin 2) = 0
    ∧ win9_3.index t (1 : Fin 2) = 0 ∧ win9_3.index t (0 : Fin 2) ≤ 3 :=
  (by decide +kernel : ∀ t s : Fin grid9.N, s.val / 4 = t.val / 4 → _)

/-- Every row tile is written back by some point. -/
theorem idx_onto9 : ∀ q0 : Fin 4, ∃ t : Fin cfg9.N, (cfg9.win 3).flush t = true ∧ win9_3.index t = ![q0.val, 0] :=
  (by decide +kernel : ∀ q0 : Fin 4, ∃ t : Fin grid9.N, win9_3.flush t = true ∧ win9_3.index t = ![q0.val, 0])

/-- The output tile at a last block, unrolled over the four points of its row tile. -/
theorem outAt9_last (c : Dev nD) (t : Fin cfg9.N) (h3 : t.val % 4 = 3) :
    outAt9 V c t = k9_pay3 (F := Ideal)
      (k9_pay2 (F := Ideal) (iblk9 V c 0 t) (iblk9 V c 1 t)
        (k9_pay2 (F := Ideal) (iblk9 V c 0 ⟨t.val - 1, by omega⟩) (iblk9 V c 1 ⟨t.val - 1, by omega⟩)
          (k9_pay2 (F := Ideal) (iblk9 V c 0 ⟨t.val - 2, by omega⟩) (iblk9 V c 1 ⟨t.val - 2, by omega⟩)
            (k9_pay2 (F := Ideal) (iblk9 V c 0 ⟨t.val - 3, by omega⟩) (iblk9 V c 1 ⟨t.val - 3, by omega⟩) (k9_pay1 (F := Ideal))))))
      (iblk9 V c 2 t) := by
  have hN : t.val < 16 := lt_of_lt_of_eq t.isLt (show cfg9.N = 16 from N_9)
  have hlt : ∀ d, t.val - d < cfg9.N := fun d => lt_of_le_of_lt (Nat.sub_le _ _) t.isLt
  unfold outAt9
  rw [dif_pos h3, out9_C_eq]
  have e2 : accAt9 V c (t.val - 1) (hlt 1) = k9_pay2 (F := Ideal) (iblk9 V c 0 ⟨t.val - 1, hlt 1⟩) (iblk9 V c 1 ⟨t.val - 1, hlt 1⟩) (accAt9 V c (t.val - 1 - 1) (by omega)) :=
    (accAt9_B V c ⟨t.val - 1, hlt 1⟩ (by show ¬(t.val - 1) % 4 = 0; omega) (by show ¬(t.val - 1) % 4 = 3; omega)).trans (sout9_B_eq ..)
  have e1 : accAt9 V c (t.val - 1 - 1) (by omega) = k9_pay2 (F := Ideal) (iblk9 V c 0 ⟨t.val - 2, hlt 2⟩) (iblk9 V c 1 ⟨t.val - 2, hlt 2⟩) (accAt9 V c (t.val - 2 - 1) (by omega)) :=
    (accAt9_B V c ⟨t.val - 2, hlt 2⟩ (by show ¬(t.val - 2) % 4 = 0; omega) (by show ¬(t.val - 2) % 4 = 3; omega)).trans (sout9_B_eq ..)
  have e0 : accAt9 V c (t.val - 2 - 1) (by omega) = k9_pay2 (F := Ideal) (iblk9 V c 0 ⟨t.val - 3, hlt 3⟩) (iblk9 V c 1 ⟨t.val - 3, hlt 3⟩) (k9_pay1 (F := Ideal)) :=
    (accAt9_A V c ⟨t.val - 3, hlt 3⟩ (by show (t.val - 3) % 4 = 0; omega) (by show ¬(t.val - 3) % 4 = 3; omega)).trans (sout9_A_eq ..)
  rw [e2, e1, e0]

/-- One block's product at point `s` of `t`'s row tile, read in the arrays: block `b = s mod 4` of the contraction at row
    `R`. (`x0 x1` are the two staged tiles at `s`, `a b'` the two arrays: variables of the literal types, tied by equations.) -/
theorem blockSum9 (c : Dev nD) (t s : Fin cfg9.N) (hs : s.val / 4 = t.val / 4) (b : ℕ) (hb : s.val % 4 = b) (p : Fin 1024) (q : Fin 256)
    (R : Fin 4096) (hR : R.val = win9_3.index t (0 : Fin 2) * 1024 + p.val)
    (x0 : Vec Ideal S1024x1024 .bf16) (x1 : Vec Ideal S1024x256 .bf16) (h0 : x0 = iblk9 V c 0 s) (h1 : x1 = iblk9 V c 1 s)
    (a : S4096x4096.Idx → EReal) (b' : S4096x256.Idx → EReal) (ha : a = V c main_v43) (hb' : b' = V c main_v49) :
    (∑ k : Fin 1024, x0 (ix2 p k) * x1 (ix2 k q)) = ∑ k : Fin 1024, blkF a b' R q (b * 1024 + k.val) := by
  subst h0 h1 ha hb'
  obtain ⟨e00, e01, e10, e11, e20, e21, e31, e3b⟩ := idx_facts9 t s hs
  refine Finset.sum_congr rfl fun k _ => ?_
  have hk : b * 1024 + k.val < 4096 := by have := k.isLt; omega
  simp only [blkF]
  rw [dif_pos hk]
  refine congrArg₂ (fun u v : EReal => u * v) ?_ ?_
  · show V c main_v43 (((cfg9.win 0).blk s).view.emb (ix2 p k)) = _
    refine congrArg _ (funext fun a => Fin.ext ?_)
    match a with
    | ⟨0, _⟩ => show win9_0.index s (0 : Fin 2) * 1024 + 1 * p.val = R.val; omega
    | ⟨1, _⟩ => show win9_0.index s (1 : Fin 2) * 1024 + 1 * k.val = b * 1024 + k.val; omega
  · show V c main_v49 (((cfg9.win 1).blk s).view.emb (ix2 k q)) = _
    refine congrArg _ (funext fun a => Fin.ext ?_)
    match a with
    | ⟨0, _⟩ => show win9_1.index s (0 : Fin 2) * 1024 + 1 * k.val = b * 1024 + k.val; omega
    | ⟨1, _⟩ => show win9_1.index s (1 : Fin 2) * 256 + 1 * q.val = q.val; omega

/-- WHAT A LAST-BLOCK POINT `t` WRITES BACK is tile `t` of `G9` of the three arrays as the region finds them. -/
theorem flushed9_eq (c : Dev nD) (t : Fin cfg9.N) (hf : (cfg9.win 3).flush t = true) :
    (dat9 (F := Ideal) V c).flushed 3 t = ((cfg9.win 3).blk t).view.read (Elt Ideal) (G9 (V c main_v43) (V c main_v49) (V c main_v50)) := by
  have h3 : t.val % 4 = 3 := (flush9_3 t).mp hf
  have hN : t.val < 16 := lt_of_lt_of_eq t.isLt (show cfg9.N = 16 from N_9)
  show (cfg9.win 3).cut (grid9.coords t) ((dat9 (F := Ideal) V c).after 3 t) = _
  rw [after9_3, outAt9_last V c t h3]
  obtain ⟨e00, e01, e10, e11, e20, e21, e31, e3b⟩ := idx_facts9 t t rfl
  funext y
  obtain ⟨p, q, rfl⟩ : ∃ (p : Fin 1024) (q : Fin 256), y = ix2 p q := ⟨y 0, y 1, eq_ix2 y⟩
  have hr : ((cfg9.win 3).blk t).view.emb (ix2 p q) = ix2 (⟨win9_3.index t (0 : Fin 2) * 1024 + p.val, by have := p.isLt; omega⟩ : Fin 4096) q := by
    funext a; apply Fin.ext
    match a with
    | ⟨0, _⟩ => show win9_3.index t (0 : Fin 2) * 1024 + 1 * p.val = win9_3.index t (0 : Fin 2) * 1024 + p.val; omega
    | ⟨1, _⟩ => show win9_3.index t (1 : Fin 2) * 256 + 1 * q.val = q.val; omega
  show k9_pay3 (F := Ideal) _ (iblk9 V c 2 t) (ix2 p q)
    = G9 (V c main_v43) (V c main_v49) (V c main_v50) (((cfg9.win 3).blk t).view.emb (ix2 p q))
  rw [pay9_3_apply, pay9_2_apply, pay9_2_apply, pay9_2_apply, pay9_2_apply, pay9_1_apply, hr]
  have hRlt : win9_3.index t (0 : Fin 2) * 1024 + p.val < 4096 := by have := p.isLt; omega
  rw [blockSum9 V c t ⟨t.val - 3, by omega⟩ (by show (t.val - 3) / 4 = t.val / 4; omega) 0 (by show (t.val - 3) % 4 = 0; omega) p q (⟨win9_3.index t (0 : Fin 2) * 1024 + p.val, hRlt⟩ : Fin 4096) rfl _ _ rfl rfl _ _ rfl rfl,
    blockSum9 V c t ⟨t.val - 2, by omega⟩ (by show (t.val - 2) / 4 = t.val / 4; omega) 1 (by show (t.val - 2) % 4 = 1; omega) p q (⟨win9_3.index t (0 : Fin 2) * 1024 + p.val, hRlt⟩ : Fin 4096) rfl _ _ rfl rfl _ _ rfl rfl,
    blockSum9 V c t ⟨t.val - 1, by omega⟩ (by show (t.val - 1) / 4 = t.val / 4; omega) 2 (by show (t.val - 1) % 4 = 2; omega) p q (⟨win9_3.index t (0 : Fin 2) * 1024 + p.val, hRlt⟩ : Fin 4096) rfl _ _ rfl rfl _ _ rfl rfl,
    blockSum9 V c t t rfl 3 h3 p q (⟨win9_3.index t (0 : Fin 2) * 1024 + p.val, hRlt⟩ : Fin 4096) rfl _ _ rfl rfl _ _ rfl rfl]
  rw [sum_four_blocks_ereal (blkF (V c main_v43) (V c main_v49) (⟨win9_3.index t (0 : Fin 2) * 1024 + p.val, hRlt⟩ : Fin 4096) q), sum_blkF]
  have hC : iblk9 V c 2 t (ix2 (0 : Fin 1) q) = V c main_v50 (ix2 (0 : Fin 1) q) := by
    show V c main_v50 (((cfg9.win 2).blk t).view.emb (ix2 (0 : Fin 1) q)) = _
    refine congrArg _ (funext fun a => Fin.ext ?_)
    match a with
    | ⟨0, _⟩ => show win9_2.index t (0 : Fin 2) * 1 + 1 * 0 = 0; omega
    | ⟨1, _⟩ => show win9_2.index t (1 : Fin 2) * 256 + 1 * q.val = q.val; omega
  rw [hC]
  rfl

/-- An index of the result array is in point `t`'s tile iff each coordinate is in the tile's range on its axis. -/
theorem mem_blk9 (t : Fin cfg9.N) (i : S4096x256.Idx) :
    i ∈ ((cfg9.win 3).blk t).view.set ↔ ∀ a : Fin 2, win9_3.index t a * S1024x256.size a ≤ (i a).val ∧ (i a).val < win9_3.index t a * S1024x256.size a + S1024x256.size a := by
  show i ∈ ((View.whole main_v51).slice (win9_3.rect t)).set ↔ _
  rw [View.set_slice_whole, Rect.mem_set_unit]
  exact Iff.rfl

/-- The four row tiles, each written back at its last block, fill the result array. -/
theorem cover9 (i : S4096x256.Idx) : ∃ t : Fin cfg9.N, (cfg9.win 3).flush t = true ∧ i ∈ ((cfg9.win 3).blk t).view.set := by
  have hi0 : (i 0).val < 4096 := (i 0).isLt
  have hi1 : (i 1).val < 256 := (i 1).isLt
  obtain ⟨t, hft, ht⟩ := idx_onto9 ⟨(i 0).val / 1024, by omega⟩
  have q0 : win9_3.index t (0 : Fin 2) = (i 0).val / 1024 := congrFun ht 0
  have q1 : win9_3.index t (1 : Fin 2) = 0 := congrFun ht 1
  refine ⟨t, hft, ?_⟩
  rw [mem_blk9]
  intro a
  match a with
  | ⟨0, _⟩ => show win9_3.index t (0 : Fin 2) * 1024 ≤ (i 0).val ∧ (i 0).val < win9_3.index t (0 : Fin 2) * 1024 + 1024; omega
  | ⟨1, _⟩ => show win9_3.index t (1 : Fin 2) * 256 ≤ (i 1).val ∧ (i 1).val < win9_3.index t (1 : Fin 2) * 256 + 256; omega

/-- THE RESULT ARRAY after the region: `G9` of the three arrays as the region finds them. -/
theorem final9 (c : Dev nD) : (dat9 (F := Ideal) V c).arrAt 3 cfg9.N = G9 (V c main_v43) (V c main_v49) (V c main_v50) :=
  (dat9 (F := Ideal) V c).arrAt_eq_of_cover 3 (G9 (V c main_v43) (V c main_v49) (V c main_v50)) (fun t hf => flushed9_eq V c t hf) cover9

end Cert.KernelIdeal.Hand

end
-- ==== Proof.KI.Val10.lean ====
/-
  Region 10's values over the extended reals: what the body's stores leave in the output tile as the payload
  expression of the three input tiles; that expression read at an index (entry (p, q) of a tile of the result is
  the sum over k of x0(p, k) · x1(k, q) plus the bias entry (0, q): the accumulator starts from zero and a change of
  float format is the identity at this instance); and from tiles to the array: tile p of the result array is rows
  1024p … 1024p + 1023 of ONE function of the three arrays, and the four tiles fill the array.
-/
import proofs.«107088_j31018253811971_1_alg».proof.Proof.KI.Region10
import proofs.«107088_j31018253811971_1_alg».proof.Proof.KI.ValBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.WholeTile

section Generic
variable {F : FTy → Type} [FloatOps F]

/-- The output tile after the body is the read-out payload of the accumulated payload of the zeroed accumulator. -/
theorem out10_3_eq (c : Dev nD) (i : grid10.Coords)
    (arg2 : Memref sig .tc .vmem S1024x256 .bf16) (harg2 : arg2.IsWhole) (arg3 : Memref sig .tc .vmem S256x16 .f32) (harg3 : arg3.IsWhole)
    (arg4 : Memref sig .tc .vmem S1x16 .f32) (harg4 : arg4.IsWhole) (arg5 : Memref sig .tc .vmem S1024x16 .bf16) (harg5 : arg5.IsWhole)
    (arg6 : Memref sig .tc .vmem S1024x16 .f32) (harg6 : arg6.IsWhole) (hc0 : cond10_0 i) (hc1 : cond10_1 i)
    (x0 : Vec F S1024x256 .bf16) (x1 : Vec F S256x16 .f32) (x2 : Vec F S1x16 .f32) :
    out10_3 c i arg2 harg2 arg3 harg3 arg4 harg4 arg5 harg5 arg6 harg6 hc0 hc1 x0 x1 x2
      = k10_pay3 (k10_pay2 x0 x1 (k10_pay1 (F := F))) x2 := by
  unfold out10_3
  rw [View.read_writes_eq_canon _ _ _ (cover10_3 c i arg2 harg2 arg3 harg3 arg4 harg4 arg5 harg5 arg6 harg6 hc0 hc1 x0 x1 x2)]
  unfold kernelRun10
  dsimp only
  sl_unfold_words
  refine (View.canon_unit_zero (S := S1024x16) hz2 _ _).trans ?_
  rw [readCov_cons_whole (S := S1024x16) arg6.view hz2, View.readCov_unit_zero (S := S1024x16) arg6.view hz2]
  simp only [View.readAt_eq_ld, harg2.read_unread, harg3.read_unread, harg4.read_unread]
  rw [View.ld_unit_zero (S := S1024x256) hz2, View.ld_unit_zero (S := S256x16) hz2, View.ld_unit_zero (S := S1x16) hz2]

end Generic

/-- The zeroed accumulator at an index. -/
theorem pay10_1_apply (p : Fin 1024) (q : Fin 16) : k10_pay1 (F := Ideal) (ix2 p q) = 0 := by
  unfold k10_pay1
  try dsimp only
  simp only [shapeCast_self]
  exact Ideal.ofBits_zero_f32

/-- One block's product added to the accumulator, at an index: entry (p, q) gains the sum over k of x0(p, k) · x1(k, q). -/
theorem pay10_2_apply (x0 : Vec Ideal S1024x256 .bf16) (x1 : Vec Ideal S256x16 .f32) (xs : Vec Ideal S1024x16 .f32) (p : Fin 1024) (q : Fin 16) :
    k10_pay2 (F := Ideal) x0 x1 xs (ix2 p q) = xs (ix2 p q) + ∑ k : Fin 256, x0 (ix2 p k) * x1 (ix2 k q) := by
  unfold k10_pay2
  try dsimp only
  simp only [shapeCast_self]
  exact congrArg (fun a : EReal => xs (ix2 p q) + a) (Cert.PlainDot.matmul_zero_apply (M := 1024) (K := 256) (N := 16) none _ _ p q)

/-- The read-out at an index: the accumulator's entry plus the bias row's. -/
theorem pay10_3_apply (acc : Vec Ideal S1024x16 .f32) (x2 : Vec Ideal S1x16 .f32) (p : Fin 1024) (q : Fin 16) :
    k10_pay3 (F := Ideal) acc x2 (ix2 p q) = acc (ix2 p q) + x2 (ix2 (0 : Fin 1) q) := by
  unfold k10_pay3
  try dsimp only
  simp only [shapeCast_self]
  have hb : broadcastTo S1024x16 x2 broadcasts_S1x16_S1024x16 (ix2 p q) = x2 (ix2 (0 : Fin 1) q) :=
    broadcastTo_1b_ab_apply x2 _ p q
  exact congrArg (fun a : EReal => acc (ix2 p q) + a) hb

/-! ## From tiles to the array -/

/-- The whole result array, index by index. -/
def G10 (a : S4096x256.Idx → EReal) (b : S256x16.Idx → EReal) (bias : S1x16.Idx → EReal) : S4096x16.Idx → EReal :=
  fun j => gemmAt (M := 4096) (K := 256) (N := 16) a b bias (j 0) (j 1)

variable (V : (c : Dev nD) → (b : Ref sig .tc) → Buf (Elt Ideal) ((c : Thread nD τ).loc b))

/-- The printed tile indices, decided over the grid: the left operand's row tile is the output's, every other tile
    index is 0, and the output's row tile is at most 3. -/
theorem idx_facts10 : ∀ t : Fin cfg10.N, win10_0.index t (0 : Fin 2) = win10_3.index t (0 : Fin 2)
    ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (1 : Fin 2) = 0 ∧ win10_3.index t (0 : Fin 2) ≤ 3 :=
  (by decide +kernel : ∀ t : Fin grid10.N, _)

/-- Every row tile is some point's. -/
theorem idx_onto10 : ∀ q0 : Fin 4, ∃ t : Fin cfg10.N, win10_3.index t = ![q0.val, 0] :=
  (by decide +kernel : ∀ q0 : Fin 4, ∃ t : Fin grid10.N, win10_3.index t = ![q0.val, 0])

/-- WHAT POINT `t` WRITES BACK is tile `t` of `G10` of the three arrays as the region finds them. -/
theorem flushed10_eq (c : Dev nD) (t : Fin cfg10.N) :
    (dat10 (F := Ideal) V c).flushed 3 t = ((cfg10.win 3).blk t).view.read (Elt Ideal) (G10 (V c main_v51) (V c main_arg9) (V c main_v52)) := by
  show (cfg10.win 3).cut (grid10.coords t) ((dat10 (F := Ideal) V c).after 3 t) = _
  rw [after10_3]
  unfold outAt10
  rw [out10_3_eq]
  obtain ⟨e00, e01, e10, e11, e20, e21, e31, e3b⟩ := idx_facts10 t
  funext y
  obtain ⟨p, q, rfl⟩ : ∃ (p : Fin 1024) (q : Fin 16), y = ix2 p q := ⟨y 0, y 1, eq_ix2 y⟩
  have hr : ((cfg10.win 3).blk t).view.emb (ix2 p q) = ix2 (⟨win10_3.index t (0 : Fin 2) * 1024 + p.val, by have := p.isLt; omega⟩ : Fin 4096) q := by
    funext a; apply Fin.ext
    match a with
    | ⟨0, _⟩ => show win10_3.index t (0 : Fin 2) * 1024 + 1 * p.val = win10_3.index t (0 : Fin 2) * 1024 + p.val; omega
    | ⟨1, _⟩ => show win10_3.index t (1 : Fin 2) * 16 + 1 * q.val = q.val; omega
  show k10_pay3 (F := Ideal) (k10_pay2 (F := Ideal) (iblk10 V c 0 t) (iblk10 V c 1 t) (k10_pay1 (F := Ideal))) (iblk10 V c 2 t) (ix2 p q)
    = G10 (V c main_v51) (V c main_arg9) (V c main_v52) (((cfg10.win 3).blk t).view.emb (ix2 p q))
  rw [pay10_3_apply, pay10_2_apply, pay10_1_apply, zero_add, hr]
  show _ = gemmAt (M := 4096) (K := 256) (N := 16) (V c main_v51) (V c main_arg9) (V c main_v52) _ q
  unfold gemmAt
  have hA : ∀ k : Fin 256, iblk10 V c 0 t (ix2 p k) = V c main_v51 (ix2 (⟨win10_3.index t (0 : Fin 2) * 1024 + p.val, by have := p.isLt; omega⟩ : Fin 4096) k) := fun k => by
    show V c main_v51 (((cfg10.win 0).blk t).view.emb (ix2 p k)) = _
    refine congrArg _ (funext fun a => Fin.ext ?_)
    match a with
    | ⟨0, _⟩ => show win10_0.index t (0 : Fin 2) * 1024 + 1 * p.val = win10_3.index t (0 : Fin 2) * 1024 + p.val; omega
    | ⟨1, _⟩ => show win10_0.index t (1 : Fin 2) * 256 + 1 * k.val = k.val; omega
  have hB : ∀ k : Fin 256, iblk10 V c 1 t (ix2 k q) = V c main_arg9 (ix2 k q) := fun k => by
    show V c main_arg9 (((cfg10.win 1).blk t).view.emb (ix2 k q)) = _
    refine congrArg _ (funext fun a => Fin.ext ?_)
    match a with
    | ⟨0, _⟩ => show win10_1.index t (0 : Fin 2) * 256 + 1 * k.val = k.val; omega
    | ⟨1, _⟩ => show win10_1.index t (1 : Fin 2) * 16 + 1 * q.val = q.val; omega
  have hC : iblk10 V c 2 t (ix2 (0 : Fin 1) q) = V c main_v52 (ix2 (0 : Fin 1) q) := by
    show V c main_v52 (((cfg10.win 2).blk t).view.emb (ix2 (0 : Fin 1) q)) = _
    refine congrArg _ (funext fun a => Fin.ext ?_)
    match a with
    | ⟨0, _⟩ => show win10_2.index t (0 : Fin 2) * 1 + 1 * 0 = 0; omega
    | ⟨1, _⟩ => show win10_2.index t (1 : Fin 2) * 16 + 1 * q.val = q.val; omega
  rw [hC]
  exact congrArg (· + _) (Finset.sum_congr rfl fun k _ => by rw [hA k, hB k])

/-- An index of the result array is in point `t`'s tile iff each coordinate is in the tile's range on its axis. -/
theorem mem_blk10 (t : Fin cfg10.N) (i : S4096x16.Idx) :
    i ∈ ((cfg10.win 3).blk t).view.set ↔ ∀ a : Fin 2, win10_3.index t a * S1024x16.size a ≤ (i a).val ∧ (i a).val < win10_3.index t a * S1024x16.size a + S1024x16.size a := by
  show i ∈ ((View.whole main_v53).slice (win10_3.rect t)).set ↔ _
  rw [View.set_slice_whole, Rect.mem_set_unit]
  exact Iff.rfl

/-- The four row tiles fill the result array: row `r` is in tile `r / 1024`. -/
theorem cover10 (i : S4096x16.Idx) : ∃ t : Fin cfg10.N, (cfg10.win 3).flush t = true ∧ i ∈ ((cfg10.win 3).blk t).view.set := by
  have hi0 : (i 0).val < 4096 := (i 0).isLt
  have hi1 : (i 1).val < 16 := (i 1).isLt
  obtain ⟨t, ht⟩ := idx_onto10 ⟨(i 0).val / 1024, by omega⟩
  have q0 : win10_3.index t (0 : Fin 2) = (i 0).val / 1024 := congrFun ht 0
  have q1 : win10_3.index t (1 : Fin 2) = 0 := congrFun ht 1
  refine ⟨t, flush10_3 t, ?_⟩
  rw [mem_blk10]
  intro a
  match a with
  | ⟨0, _⟩ => show win10_3.index t (0 : Fin 2) * 1024 ≤ (i 0).val ∧ (i 0).val < win10_3.index t (0 : Fin 2) * 1024 + 1024; omega
  | ⟨1, _⟩ => show win10_3.index t (1 : Fin 2) * 16 ≤ (i 1).val ∧ (i 1).val < win10_3.index t (1 : Fin 2) * 16 + 16; omega

/-- THE RESULT ARRAY after the region: `G10` of the three arrays as the region finds them. -/
theorem final10 (c : Dev nD) : (dat10 (F := Ideal) V c).arrAt 3 cfg10.N = G10 (V c main_v51) (V c main_arg9) (V c main_v52) :=
  (dat10 (F := Ideal) V c).arrAt_eq_of_cover 3 (G10 (V c main_v51) (V c main_arg9) (V c main_v52)) (fun t _ => flushed10_eq V c t) cover10

end Cert.KernelIdeal.Hand

end
-- ==== Proof.KI.Val11.lean ====
/-
  Region 11's values over the extended reals: what each case's stores leave in the accumulator and in the output tile as
  payload expressions; the read-out at a last block unrolled over the four points of its row tile (the accumulator
  zeroed, then four block products added in order); the block products read in the arrays (block b of the
  contraction is columns 1024b … 1024b + 1023 of the left operand against the same rows of the right operand); the
  four partial sums regrouped as the one sum over 4096; and from tiles to the array.
-/
import proofs.«107088_j31018253811971_1_alg».proof.Proof.KI.Region11
import proofs.«107088_j31018253811971_1_alg».proof.Proof.KI.ValBase
import proofs.«107088_j31018253811971_1_alg».proof.Proof.LibBlockedSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.WholeTile

section Generic
variable {F : FTy → Type} [FloatOps F]

/-- After a first block the accumulator holds that block's product added to zero. -/
theorem sout11_A_eq (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : cond11_0 i) (hc1 : ¬cond11_1 i) (x0 : Vec F S1024x1024 .bf16) (x1 : Vec F S1024x16 .bf16) :
    sout11_A c i arg2 harg2 arg3 harg3 arg4 harg4 arg5 harg5 arg6 harg6 hc0 hc1 x0 x1 = k11_pay2 x0 x1 (k11_pay1 (F := F)) := by
  unfold sout11_A
  rw [View.read_writes_eq_canon _ _ _ (scover11_A c i arg2 harg2 arg3 harg3 arg4 harg4 arg5 harg5 arg6 harg6 hc0 hc1 x0 x1)]
  unfold kernelRun11_A
  dsimp only
  sl_unfold_words
  refine (View.canon_cons_unit_zero (S := S1024x16) hz2 _ _ _).trans ?_
  rw [View.readCov_unit_zero (S := S1024x16) arg6.view hz2]
  simp only [View.readAt_eq_ld, harg2.read_unread, harg3.read_unread, harg4.read_unread, harg6.read_unread, View.ld_unit_zero (S := S1024x1024) hz2, View.ld_unit_zero (S := S1024x16) hz2, View.ld_unit_zero (S := S1x16) hz2]

/-- After a middle block: this block's product added to what the point before left. -/
theorem sout11_B_eq (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : ¬cond11_0 i) (hc1 : ¬cond11_1 i) (x0 : Vec F S1024x1024 .bf16) (x1 : Vec F S1024x16 .bf16) (xs : Vec F S1024x16 .f32) :
    sout11_B c i arg2 harg2 arg3 harg3 arg4 harg4 arg5 harg5 arg6 harg6 hc0 hc1 x0 x1 xs = k11_pay2 x0 x1 xs := by
  unfold sout11_B
  rw [View.read_writes_eq_canon _ _ _ (scover11_B c i arg2 harg2 arg3 harg3 arg4 harg4 arg5 harg5 arg6 harg6 hc0 hc1 x0 x1 xs)]
  unfold kernelRun11_B
  dsimp only
  sl_unfold_words
  refine (View.canon_unit_zero (S := S1024x16) hz2 _ _).trans ?_
  simp only [View.readAt_eq_ld, harg2.read_unread, harg3.read_unread, harg4.read_unread, harg6.read_unread, View.ld_unit_zero (S := S1024x1024) hz2, View.ld_unit_zero (S := S1024x16) hz2, View.ld_unit_zero (S := S1x16) hz2]

/-- At a last block the output tile holds the read-out of this block's product added to what the point before left. -/
theorem out11_C_eq (c : Dev nD) (i : grid11.Coords) (arg2 : Memref sig .tc .vmem S1024x1024 .bf16) (harg2 : arg2.IsWhole) (arg3 : Memref sig .tc .vmem S1024x16 .bf16) (harg3 : arg3.IsWhole)
    (arg4 : Memref sig .tc .vmem S1x16 .f32) (harg4 : arg4.IsWhole) (arg5 : Memref sig .tc .vmem S1024x16 .f32) (harg5 : arg5.IsWhole)
    (arg6 : Memref sig .tc .vmem S1024x16 .f32) (harg6 : arg6.IsWhole) (hc0 : ¬cond11_0 i) (hc1 : cond11_1 i) (x0 : Vec F S1024x1024 .bf16) (x1 : Vec F S1024x16 .bf16) (x2 : Vec F S1x16 .f32) (xs : Vec F S1024x16 .f32) :
    out11_C c i arg2 harg2 arg3 harg3 arg4 harg4 arg5 harg5 arg6 harg6 hc0 hc1 x0 x1 x2 xs = k11_pay3 (k11_pay2 x0 x1 xs) x2 := by
  unfold out11_C
  rw [View.read_writes_eq_canon _ _ _ (cover11_C c i arg2 harg2 arg3 harg3 arg4 harg4 arg5 harg5 arg6 harg6 hc0 hc1 x0 x1 x2 xs)]
  unfold kernelRun11_C
  dsimp only
  sl_unfold_words
  refine (View.canon_unit_zero (S := S1024x16) hz2 _ _).trans ?_
  rw [View.readCov_unit_zero (S := S1024x16) arg6.view hz2]
  simp only [View.readAt_eq_ld, harg2.read_unread, harg3.read_unread, harg4.read_unread, harg6.read_unread, View.ld_unit_zero (S := S1024x1024) hz2, View.ld_unit_zero (S := S1024x16) hz2, View.ld_unit_zero (S := S1x16) hz2]

end Generic

/-- The zeroed accumulator at an index. -/
theorem pay11_1_apply (p : Fin 1024) (q : Fin 16) : k11_pay1 (F := Ideal) (ix2 p q) = 0 := by
  unfold k11_pay1
  try dsimp only
  simp only [shapeCast_self]
  exact Ideal.ofBits_zero_f32

/-- One block's product added to the accumulator, at an index: entry (p, q) gains the sum over k of x0(p, k) · x1(k, q). -/
theorem pay11_2_apply (x0 : Vec Ideal S1024x1024 .bf16) (x1 : Vec Ideal S1024x16 .bf16) (xs : Vec Ideal S1024x16 .f32) (p : Fin 1024) (q : Fin 16) :
    k11_pay2 (F := Ideal) x0 x1 xs (ix2 p q) = xs (ix2 p q) + ∑ k : Fin 1024, x0 (ix2 p k) * x1 (ix2 k q) := by
  unfold k11_pay2
  try dsimp only
  simp only [shapeCast_self]
  exact congrArg (fun a : EReal => xs (ix2 p q) + a) (Cert.PlainDot.matmul_zero_apply (M := 1024) (K := 1024) (N := 16) none _ _ p q)

/-- The read-out at an index: the accumulator's entry plus the bias row's. -/
theorem pay11_3_apply (acc : Vec Ideal S1024x16 .f32) (x2 : Vec Ideal S1x16 .f32) (p : Fin 1024) (q : Fin 16) :
    k11_pay3 (F := Ideal) acc x2 (ix2 p q) = acc (ix2 p q) + x2 (ix2 (0 : Fin 1) q) := by
  unfold k11_pay3
  try dsimp only
  simp only [shapeCast_self]
  have hb : broadcastTo S1024x16 x2 broadcasts_S1x16_S1024x16 (ix2 p q) = x2 (ix2 (0 : Fin 1) q) :=
    broadcastTo_1b_ab_apply x2 _ p q
  exact congrArg (fun a : EReal => acc (ix2 p q) + a) hb

/-! ## From tiles to the array -/

/-- The whole result array, index by index. -/
def G11 (a : S4096x4096.Idx → EReal) (b : S4096x16.Idx → EReal) (bias : S1x16.Idx → EReal) : S4096x16.Idx → EReal :=
  fun j => gemmAt (M := 4096) (K := 4096) (N := 16) a b bias (j 0) (j 1)

variable (V : (c : Dev nD) → (b : Ref sig .tc) → Buf (Elt Ideal) ((c : Thread nD τ).loc b))

/-- The printed tile indices, decided over pairs of points of one row tile: the left operand's tile is (the output's
    row tile, the point's block), the right operand's is (the point's block, 0), the bias tile is (0, 0), the output's
    column tile is 0 and its row tile at most 3. -/
theorem idx_facts11 : ∀ t s : Fin cfg11.N, s.val / 4 = t.val / 4 →
    win11_0.index s (0 : Fin 2) = win11_3.index t (0 : Fin 2) ∧ win11_0.index s (1 : Fin 2) = s.val % 4
    ∧ win11_1.index s (0 : Fin 2) = s.val % 4 ∧ win11_1.index s (1 : Fin 2) = 0
    ∧ win11_2.index s (0 : Fin 2) = 0 ∧ win11_2.index s (1 : Fin 2) = 0
    ∧ win11_3.index t (1 : Fin 2) = 0 ∧ win11_3.index t (0 : Fin 2) ≤ 3 :=
  (by decide +kernel : ∀ t s : Fin grid11.N, s.val / 4 = t.val / 4 → _)

/-- Every row tile is written back by some point. -/
theorem idx_onto11 : ∀ q0 : Fin 4, ∃ t : Fin cfg11.N, (cfg11.win 3).flush t = true ∧ win11_3.index t = ![q0.val, 0] :=
  (by decide +kernel : ∀ q0 : Fin 4, ∃ t : Fin grid11.N, win11_3.flush t = true ∧ win11_3.index t = ![q0.val, 0])

/-- The output tile at a last block, unrolled over the four points of its row tile. -/
theorem outAt11_last (c : Dev nD) (t : Fin cfg11.N) (h3 : t.val % 4 = 3) :
    outAt11 V c t = k11_pay3 (F := Ideal)
      (k11_pay2 (F := Ideal) (iblk11 V c 0 t) (iblk11 V c 1 t)
        (k11_pay2 (F := Ideal) (iblk11 V c 0 ⟨t.val - 1, by omega⟩) (iblk11 V c 1 ⟨t.val - 1, by omega⟩)
          (k11_pay2 (F := Ideal) (iblk11 V c 0 ⟨t.val - 2, by omega⟩) (iblk11 V c 1 ⟨t.val - 2, by omega⟩)
            (k11_pay2 (F := Ideal) (iblk11 V c 0 ⟨t.val - 3, by omega⟩) (iblk11 V c 1 ⟨t.val - 3, by omega⟩) (k11_pay1 (F := Ideal))))))
      (iblk11 V c 2 t) := by
  have hN : t.val < 16 := lt_of_lt_of_eq t.isLt (show cfg11.N = 16 from N_11)
  have hlt : ∀ d, t.val - d < cfg11.N := fun d => lt_of_le_of_lt (Nat.sub_le _ _) t.isLt
  unfold outAt11
  rw [dif_pos h3, out11_C_eq]
  have e2 : accAt11 V c (t.val - 1) (hlt 1) = k11_pay2 (F := Ideal) (iblk11 V c 0 ⟨t.val - 1, hlt 1⟩) (iblk11 V c 1 ⟨t.val - 1, hlt 1⟩) (accAt11 V c (t.val - 1 - 1) (by omega)) :=
    (accAt11_B V c ⟨t.val - 1, hlt 1⟩ (by show ¬(t.val - 1) % 4 = 0; omega) (by show ¬(t.val - 1) % 4 = 3; omega)).trans (sout11_B_eq ..)
  have e1 : accAt11 V c (t.val - 1 - 1) (by omega) = k11_pay2 (F := Ideal) (iblk11 V c 0 ⟨t.val - 2, hlt 2⟩) (iblk11 V c 1 ⟨t.val - 2, hlt 2⟩) (accAt11 V c (t.val - 2 - 1) (by omega)) :=
    (accAt11_B V c ⟨t.val - 2, hlt 2⟩ (by show ¬(t.val - 2) % 4 = 0; omega) (by show ¬(t.val - 2) % 4 = 3; omega)).trans (sout11_B_eq ..)
  have e0 : accAt11 V c (t.val - 2 - 1) (by omega) = k11_pay2 (F := Ideal) (iblk11 V c 0 ⟨t.val - 3, hlt 3⟩) (iblk11 V c 1 ⟨t.val - 3, hlt 3⟩) (k11_pay1 (F := Ideal)) :=
    (accAt11_A V c ⟨t.val - 3, hlt 3⟩ (by show (t.val - 3) % 4 = 0; omega) (by show ¬(t.val - 3) % 4 = 3; omega)).trans (sout11_A_eq ..)
  rw [e2, e1, e0]

/-- One block's product at point `s` of `t`'s row tile, read in the arrays: block `b = s mod 4` of the contraction at row
    `R`. (`x0 x1` are the two staged tiles at `s`, `a b'` the two arrays: variables of the literal types, tied by equations.) -/
theorem blockSum11 (c : Dev nD) (t s : Fin cfg11.N) (hs : s.val / 4 = t.val / 4) (b : ℕ) (hb : s.val % 4 = b) (p : Fin 1024) (q : Fin 16)
    (R : Fin 4096) (hR : R.val = win11_3.index t (0 : Fin 2) * 1024 + p.val)
    (x0 : Vec Ideal S1024x1024 .bf16) (x1 : Vec Ideal S1024x16 .bf16) (h0 : x0 = iblk11 V c 0 s) (h1 : x1 = iblk11 V c 1 s)
    (a : S4096x4096.Idx → EReal) (b' : S4096x16.Idx → EReal) (ha : a = V c main_v43) (hb' : b' = V c main_v53) :
    (∑ k : Fin 1024, x0 (ix2 p k) * x1 (ix2 k q)) = ∑ k : Fin 1024, blkF a b' R q (b * 1024 + k.val) := by
  subst h0 h1 ha hb'
  obtain ⟨e00, e01, e10, e11, e20, e21, e31, e3b⟩ := idx_facts11 t s hs
  refine Finset.sum_congr rfl fun k _ => ?_
  have hk : b * 1024 + k.val < 4096 := by have := k.isLt; omega
  simp only [blkF]
  rw [dif_pos hk]
  refine congrArg₂ (fun u v : EReal => u * v) ?_ ?_
  · show V c main_v43 (((cfg11.win 0).blk s).view.emb (ix2 p k)) = _
    refine congrArg _ (funext fun a => Fin.ext ?_)
    match a with
    | ⟨0, _⟩ => show win11_0.index s (0 : Fin 2) * 1024 + 1 * p.val = R.val; omega
    | ⟨1, _⟩ => show win11_0.index s (1 : Fin 2) * 1024 + 1 * k.val = b * 1024 + k.val; omega
  · show V c main_v53 (((cfg11.win 1).blk s).view.emb (ix2 k q)) = _
    refine congrArg _ (funext fun a => Fin.ext ?_)
    match a with
    | ⟨0, _⟩ => show win11_1.index s (0 : Fin 2) * 1024 + 1 * k.val = b * 1024 + k.val; omega
    | ⟨1, _⟩ => show win11_1.index s (1 : Fin 2) * 16 + 1 * q.val = q.val; omega

/-- WHAT A LAST-BLOCK POINT `t` WRITES BACK is tile `t` of `G11` of the three arrays as the region finds them. -/
theorem flushed11_eq (c : Dev nD) (t : Fin cfg11.N) (hf : (cfg11.win 3).flush t = true) :
    (dat11 (F := Ideal) V c).flushed 3 t = ((cfg11.win 3).blk t).view.read (Elt Ideal) (G11 (V c main_v43) (V c main_v53) (V c main_v54)) := by
  have h3 : t.val % 4 = 3 := (flush11_3 t).mp hf
  have hN : t.val < 16 := lt_of_lt_of_eq t.isLt (show cfg11.N = 16 from N_11)
  show (cfg11.win 3).cut (grid11.coords t) ((dat11 (F := Ideal) V c).after 3 t) = _
  rw [after11_3, outAt11_last V c t h3]
  obtain ⟨e00, e01, e10, e11, e20, e21, e31, e3b⟩ := idx_facts11 t t rfl
  funext y
  obtain ⟨p, q, rfl⟩ : ∃ (p : Fin 1024) (q : Fin 16), y = ix2 p q := ⟨y 0, y 1, eq_ix2 y⟩
  have hr : ((cfg11.win 3).blk t).view.emb (ix2 p q) = ix2 (⟨win11_3.index t (0 : Fin 2) * 1024 + p.val, by have := p.isLt; omega⟩ : Fin 4096) q := by
    funext a; apply Fin.ext
    match a with
    | ⟨0, _⟩ => show win11_3.index t (0 : Fin 2) * 1024 + 1 * p.val = win11_3.index t (0 : Fin 2) * 1024 + p.val; omega
    | ⟨1, _⟩ => show win11_3.index t (1 : Fin 2) * 16 + 1 * q.val = q.val; omega
  show k11_pay3 (F := Ideal) _ (iblk11 V c 2 t) (ix2 p q)
    = G11 (V c main_v43) (V c main_v53) (V c main_v54) (((cfg11.win 3).blk t).view.emb (ix2 p q))
  rw [pay11_3_apply, pay11_2_apply, pay11_2_apply, pay11_2_apply, pay11_2_apply, pay11_1_apply, hr]
  have hRlt : win11_3.index t (0 : Fin 2) * 1024 + p.val < 4096 := by have := p.isLt; omega
  rw [blockSum11 V c t ⟨t.val - 3, by omega⟩ (by show (t.val - 3) / 4 = t.val / 4; omega) 0 (by show (t.val - 3) % 4 = 0; omega) p q (⟨win11_3.index t (0 : Fin 2) * 1024 + p.val, hRlt⟩ : Fin 4096) rfl _ _ rfl rfl _ _ rfl rfl,
    blockSum11 V c t ⟨t.val - 2, by omega⟩ (by show (t.val - 2) / 4 = t.val / 4; omega) 1 (by show (t.val - 2) % 4 = 1; omega) p q (⟨win11_3.index t (0 : Fin 2) * 1024 + p.val, hRlt⟩ : Fin 4096) rfl _ _ rfl rfl _ _ rfl rfl,
    blockSum11 V c t ⟨t.val - 1, by omega⟩ (by show (t.val - 1) / 4 = t.val / 4; omega) 2 (by show (t.val - 1) % 4 = 2; omega) p q (⟨win11_3.index t (0 : Fin 2) * 1024 + p.val, hRlt⟩ : Fin 4096) rfl _ _ rfl rfl _ _ rfl rfl,
    blockSum11 V c t t rfl 3 h3 p q (⟨win11_3.index t (0 : Fin 2) * 1024 + p.val, hRlt⟩ : Fin 4096) rfl _ _ rfl rfl _ _ rfl rfl]
  rw [sum_four_blocks_ereal (blkF (V c main_v43) (V c main_v53) (⟨win11_3.index t (0 : Fin 2) * 1024 + p.val, hRlt⟩ : Fin 4096) q), sum_blkF]
  have hC : iblk11 V c 2 t (ix2 (0 : Fin 1) q) = V c main_v54 (ix2 (0 : Fin 1) q) := by
    show V c main_v54 (((cfg11.win 2).blk t).view.emb (ix2 (0 : Fin 1) q)) = _
    refine congrArg _ (funext fun a => Fin.ext ?_)
    match a with
    | ⟨0, _⟩ => show win11_2.index t (0 : Fin 2) * 1 + 1 * 0 = 0; omega
    | ⟨1, _⟩ => show win11_2.index t (1 : Fin 2) * 16 + 1 * q.val = q.val; omega
  rw [hC]
  rfl

/-- An index of the result array is in point `t`'s tile iff each coordinate is in the tile's range on its axis. -/
theorem mem_blk11 (t : Fin cfg11.N) (i : S4096x16.Idx) :
    i ∈ ((cfg11.win 3).blk t).view.set ↔ ∀ a : Fin 2, win11_3.index t a * S1024x16.size a ≤ (i a).val ∧ (i a).val < win11_3.index t a * S1024x16.size a + S1024x16.size a := by
  show i ∈ ((View.whole main_v55).slice (win11_3.rect t)).set ↔ _
  rw [View.set_slice_whole, Rect.mem_set_unit]
  exact Iff.rfl

/-- The four row tiles, each written back at its last block, fill the result array. -/
theorem cover11 (i : S4096x16.Idx) : ∃ t : Fin cfg11.N, (cfg11.win 3).flush t = true ∧ i ∈ ((cfg11.win 3).blk t).view.set := by
  have hi0 : (i 0).val < 4096 := (i 0).isLt
  have hi1 : (i 1).val < 16 := (i 1).isLt
  obtain ⟨t, hft, ht⟩ := idx_onto11 ⟨(i 0).val / 1024, by omega⟩
  have q0 : win11_3.index t (0 : Fin 2) = (i 0).val / 1024 := congrFun ht 0
  have q1 : win11_3.index t (1 : Fin 2) = 0 := congrFun ht 1
  refine ⟨t, hft, ?_⟩
  rw [mem_blk11]
  intro a
  match a with
  | ⟨0, _⟩ => show win11_3.index t (0 : Fin 2) * 1024 ≤ (i 0).val ∧ (i 0).val < win11_3.index t (0 : Fin 2) * 1024 + 1024; omega
  | ⟨1, _⟩ => show win11_3.index t (1 : Fin 2) * 16 ≤ (i 1).val ∧ (i 1).val < win11_3.index t (1 : Fin 2) * 16 + 16; omega

/-- THE RESULT ARRAY after the region: `G11` of the three arrays as the region finds them. -/
theorem final11 (c : Dev nD) : (dat11 (F := Ideal) V c).arrAt 3 cfg11.N = G11 (V c main_v43) (V c main_v53) (V c main_v54) :=
  (dat11 (F := Ideal) V c).arrAt_eq_of_cover 3 (G11 (V c main_v43) (V c main_v53) (V c main_v54)) (fun t hf => flushed11_eq V c t hf) cover11

end Cert.KernelIdeal.Hand

end
-- ==== Proof.KI.Carry.lean ====
/-
  The chain of buffer contents, read: every item leaves alone the references it does not write, so an array read by a
  later region is what its producer left; the launch contents of the arguments; and what the small host stretches
  leave (a row of zeros for a product without bias, a bias vector re-laid as a 1 × n row).
-/
import proofs.«107088_j31018253811971_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each item keeps -/

theorem W1_keep (c : Dev nD) (r : Ref sig .tc) (h : r ∉ hostOps0_W) : W1 m c r = W0 m c r := by
  unfold W1; exact StableHlo.after_of_writes_sub hostOps0 _ hostOps0_writes h
theorem W2_keep (c : Dev nD) (r : Ref sig .tc) (h : r ∉ ([main_v1] : List (Ref sig .tc))) : W2 m c r = W1 m c r :=
  W2_of_ne m c r (List.ne_of_not_mem_cons h)
theorem W3_keep (c : Dev nD) (r : Ref sig .tc) (h : r ∉ hostOps1_W) : W3 m c r = W2 m c r := by
  unfold W3; exact StableHlo.after_of_writes_sub hostOps1 _ hostOps1_writes h
theorem W4_keep (c : Dev nD) (r : Ref sig .tc) (h : r ∉ ([main_v3] : List (Ref sig .tc))) : W4 m c r = W3 m c r :=
  W4_of_ne m c r (List.ne_of_not_mem_cons h)
theorem W5_keep (c : Dev nD) (r : Ref sig .tc) (h : r ∉ hostOps2_W) : W5 m c r = W4 m c r := by
  unfold W5; exact StableHlo.after_of_writes_sub hostOps2 _ hostOps2_writes h
theorem W6_keep (c : Dev nD) (r : Ref sig .tc) (h : r ∉ ([main_v5] : List (Ref sig .tc))) : W6 m c r = W5 m c r :=
  W6_of_ne m c r (List.ne_of_not_mem_cons h)
theorem W7_keep (c : Dev nD) (r : Ref sig .tc) (h : r ∉ hostOps3_W) : W7 m c r = W6 m c r := by
  unfold W7; exact StableHlo.after_of_writes_sub hostOps3 _ hostOps3_writes h
theorem W8_keep (c : Dev nD) (r : Ref sig .tc) (h : r ∉ ([main_v7] : List (Ref sig .tc))) : W8 m c r = W7 m c r :=
  W8_of_ne m c r (List.ne_of_not_mem_cons h)
theorem W9_keep (c : Dev nD) (r : Ref sig .tc) (h : r ∉ ([main_v8] : List (Ref sig .tc))) : W9 m c r = W8 m c r :=
  W9_of_ne m c r (List.ne_of_not_mem_cons h)
theorem W10_keep (c : Dev nD) (r : Ref sig .tc) (h : r ∉ hostOps5_W) : W10 m c r = W9 m c r := by
  unfold W10; exact StableHlo.after_of_writes_sub hostOps5 _ hostOps5_writes h
theorem W11_keep (c : Dev nD) (r : Ref sig .tc) (h : r ∉ hostOps5_1_W) : W11 m c r = W10 m c r := by
  unfold W11; exact StableHlo.after_of_writes_sub hostOps5_1 _ hostOps5_1_writes h
theorem W12_keep (c : Dev nD) (r : Ref sig .tc) (h : r ∉ hostOps5_2_W) : W12 m c r = W11 m c r := by
  unfold W12; exact StableHlo.after_of_writes_sub hostOps5_2 _ hostOps5_2_writes h
theorem W13_keep (c : Dev nD) (r : Ref sig .tc) (h : r ∉ hostOps5_3_W) : W13 m c r = W12 m c r := by
  unfold W13; exact StableHlo.after_of_writes_sub hostOps5_3 _ hostOps5_3_writes h
theorem W14_keep (c : Dev nD) (r : Ref sig .tc) (h : r ∉ ([main_v43] : List (Ref sig .tc))) : W14 m c r = W13 m c r :=
  W14_of_ne m c r (List.ne_of_not_mem_cons h)
theorem W15_keep (c : Dev nD) (r : Ref sig .tc) (h : r ∉ hostOps6_W) : W15 m c r = W14 m c r := by
  unfold W15; exact StableHlo.after_of_writes_sub hostOps6 _ hostOps6_writes h
theorem W16_keep (c : Dev nD) (r : Ref sig .tc) (h : r ∉ ([main_v45] : List (Ref sig .tc))) : W16 m c r = W15 m c r :=
  W16_of_ne m c r (List.ne_of_not_mem_cons h)
theorem W17_keep (c : Dev nD) (r : Ref sig .tc) (h : r ∉ hostOps7_W) : W17 m c r = W16 m c r := by
  unfold W17; exact StableHlo.after_of_writes_sub hostOps7 _ hostOps7_writes h
theorem W18_keep (c : Dev nD) (r : Ref sig .tc) (h : r ∉ ([main_v47] : List (Ref sig .tc))) : W18 m c r = W17 m c r :=
  W18_of_ne m c r (List.ne_of_not_mem_cons h)
theorem W19_keep (c : Dev nD) (r : Ref sig .tc) (h : r ∉ hostOps8_W) : W19 m c r = W18 m c r := by
  unfold W19; exact StableHlo.after_of_writes_sub hostOps8 _ hostOps8_writes h
theorem W20_keep (c : Dev nD) (r : Ref sig .tc) (h : r ∉ ([main_v49] : List (Ref sig .tc))) : W20 m c r = W19 m c r :=
  W20_of_ne m c r (List.ne_of_not_mem_cons h)
theorem W21_keep (c : Dev nD) (r : Ref sig .tc) (h : r ∉ hostOps9_W) : W21 m c r = W20 m c r := by
  unfold W21; exact StableHlo.after_of_writes_sub hostOps9 _ hostOps9_writes h
theorem W22_keep (c : Dev nD) (r : Ref sig .tc) (h : r ∉ ([main_v51] : List (Ref sig .tc))) : W22 m c r = W21 m c r :=
  W22_of_ne m c r (List.ne_of_not_mem_cons h)
theorem W23_keep (c : Dev nD) (r : Ref sig .tc) (h : r ∉ hostOps10_W) : W23 m c r = W22 m c r := by
  unfold W23; exact StableHlo.after_of_writes_sub hostOps10 _ hostOps10_writes h
theorem W24_keep (c : Dev nD) (r : Ref sig .tc) (h : r ∉ ([main_v53] : List (Ref sig .tc))) : W24 m c r = W23 m c r :=
  W24_of_ne m c r (List.ne_of_not_mem_cons h)
theorem W25_keep (c : Dev nD) (r : Ref sig .tc) (h : r ∉ hostOps11_W) : W25 m c r = W24 m c r := by
  unfold W25; exact StableHlo.after_of_writes_sub hostOps11 _ hostOps11_writes h
theorem W26_keep (c : Dev nD) (r : Ref sig .tc) (h : r ∉ ([main_v55] : List (Ref sig .tc))) : W26 m c r = W25 m c r :=
  W26_of_ne m c r (List.ne_of_not_mem_cons h)

end Cert.KernelIdeal.Hand

end
-- ==== Proof.KI.Chain.lean ====
/-
  The kernel program's values along its chain of buffer contents, over the extended reals: each region's result array
  as that region's function of the arrays its operands were left at by their producers (a host stretch or an earlier
  region; every item in between keeps them); the bias rows of the products without bias are zero; a bias vector is
  re-laid as a row; the edge logits reach the end untouched.
-/
import proofs.«107088_j31018253811971_1_alg».proof.Proof.KI.Val0
import proofs.«107088_j31018253811971_1_alg».proof.Proof.KI.Val1
import proofs.«107088_j31018253811971_1_alg».proof.Proof.KI.Val2
import proofs.«107088_j31018253811971_1_alg».proof.Proof.KI.Val3
import proofs.«107088_j31018253811971_1_alg».proof.Proof.KI.Val4
import proofs.«107088_j31018253811971_1_alg».proof.Proof.KI.Val5
import proofs.«107088_j31018253811971_1_alg».proof.Proof.KI.Val6
import proofs.«107088_j31018253811971_1_alg».proof.Proof.KI.Val7
import proofs.«107088_j31018253811971_1_alg».proof.Proof.KI.Val8
import proofs.«107088_j31018253811971_1_alg».proof.Proof.KI.Val9
import proofs.«107088_j31018253811971_1_alg».proof.Proof.KI.Val10
import proofs.«107088_j31018253811971_1_alg».proof.Proof.KI.Val11
import proofs.«107088_j31018253811971_1_alg».proof.Proof.KI.Carry
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## The regions' results -/

/-- Region 0's result array, from the arrays its operands were left at by their producers. -/
theorem st0 (c : Dev nD) : W2 m c main_v1 = G0 (W0 m c main_arg2) (W0 m c main_arg3) (W1 m c main_v0) := by
  refine (W2_out m c).trans ((final0 (atTc (W1 m)) c).trans ?_)
  show G0 (W1 m c main_arg2) (W1 m c main_arg3) (W1 m c main_v0) = _
  rw [show W1 m c main_arg2 = W0 m c main_arg2 from (W1_keep m c main_arg2 (by decide)),
    show W1 m c main_arg3 = W0 m c main_arg3 from (W1_keep m c main_arg3 (by decide))]
/-- Region 1's result array, from the arrays its operands were left at by their producers. -/
theorem st1 (c : Dev nD) : W4 m c main_v3 = G1 (W0 m c main_arg0) (W2 m c main_v1) (W3 m c main_v2) := by
  refine (W4_out m c).trans ((final1 (atTc (W3 m)) c).trans ?_)
  show G1 (W3 m c main_arg0) (W3 m c main_v1) (W3 m c main_v2) = _
  rw [show W3 m c main_arg0 = W0 m c main_arg0 from (W3_keep m c main_arg0 (by decide)).trans <| (W2_keep m c main_arg0 (by decide)).trans <| (W1_keep m c main_arg0 (by decide)),
    show W3 m c main_v1 = W2 m c main_v1 from (W3_keep m c main_v1 (by decide))]
/-- Region 2's result array, from the arrays its operands were left at by their producers. -/
theorem st2 (c : Dev nD) : W6 m c main_v5 = G2 (W4 m c main_v3) (W0 m c main_arg4) (W5 m c main_v4) := by
  refine (W6_out m c).trans ((final2 (atTc (W5 m)) c).trans ?_)
  show G2 (W5 m c main_v3) (W5 m c main_arg4) (W5 m c main_v4) = _
  rw [show W5 m c main_v3 = W4 m c main_v3 from (W5_keep m c main_v3 (by decide)),
    show W5 m c main_arg4 = W0 m c main_arg4 from (W5_keep m c main_arg4 (by decide)).trans <| (W4_keep m c main_arg4 (by decide)).trans <| (W3_keep m c main_arg4 (by decide)).trans <| (W2_keep m c main_arg4 (by decide)).trans <| (W1_keep m c main_arg4 (by decide))]
/-- Region 3's result array, from the arrays its operands were left at by their producers. -/
theorem st3 (c : Dev nD) : W8 m c main_v7 = G3 (W0 m c main_arg0) (W6 m c main_v5) (W7 m c main_v6) := by
  refine (W8_out m c).trans ((final3 (atTc (W7 m)) c).trans ?_)
  show G3 (W7 m c main_arg0) (W7 m c main_v5) (W7 m c main_v6) = _
  rw [show W7 m c main_arg0 = W0 m c main_arg0 from (W7_keep m c main_arg0 (by decide)).trans <| (W6_keep m c main_arg0 (by decide)).trans <| (W5_keep m c main_arg0 (by decide)).trans <| (W4_keep m c main_arg0 (by decide)).trans <| (W3_keep m c main_arg0 (by decide)).trans <| (W2_keep m c main_arg0 (by decide)).trans <| (W1_keep m c main_arg0 (by decide)),
    show W7 m c main_v5 = W6 m c main_v5 from (W7_keep m c main_v5 (by decide))]
/-- Region 4's result array, from the arrays its operands were left at by their producers. -/
theorem st4 (c : Dev nD) : W9 m c main_v8 = G4 (W8 m c main_v7) := by
  refine (W9_out m c).trans ((final4 (atTc (W8 m)) c).trans ?_)
  show G4 (W8 m c main_v7) = _
  rfl
/-- Region 5's result array, from the arrays its operands were left at by their producers. -/
theorem st5 (c : Dev nD) : W14 m c main_v43 = G5 (W13 m c main_v36) (W13 m c main_v41) (W13 m c main_v42) := by
  refine (W14_out m c).trans ((final5 (atTc (W13 m)) c).trans ?_)
  show G5 (W13 m c main_v36) (W13 m c main_v41) (W13 m c main_v42) = _
  rfl
/-- Region 6's result array, from the arrays its operands were left at by their producers. -/
theorem st6 (c : Dev nD) : W16 m c main_v45 = G6 (W0 m c main_arg2) (W0 m c main_arg5) (W15 m c main_v44) := by
  refine (W16_out m c).trans ((final6 (atTc (W15 m)) c).trans ?_)
  show G6 (W15 m c main_arg2) (W15 m c main_arg5) (W15 m c main_v44) = _
  rw [show W15 m c main_arg2 = W0 m c main_arg2 from (W15_keep m c main_arg2 (by decide)).trans <| (W14_keep m c main_arg2 (by decide)).trans <| (W13_keep m c main_arg2 (by decide)).trans <| (W12_keep m c main_arg2 (by decide)).trans <| (W11_keep m c main_arg2 (by decide)).trans <| (W10_keep m c main_arg2 (by decide)).trans <| (W9_keep m c main_arg2 (by decide)).trans <| (W8_keep m c main_arg2 (by decide)).trans <| (W7_keep m c main_arg2 (by decide)).trans <| (W6_keep m c main_arg2 (by decide)).trans <| (W5_keep m c main_arg2 (by decide)).trans <| (W4_keep m c main_arg2 (by decide)).trans <| (W3_keep m c main_arg2 (by decide)).trans <| (W2_keep m c main_arg2 (by decide)).trans <| (W1_keep m c main_arg2 (by decide)),
    show W15 m c main_arg5 = W0 m c main_arg5 from (W15_keep m c main_arg5 (by decide)).trans <| (W14_keep m c main_arg5 (by decide)).trans <| (W13_keep m c main_arg5 (by decide)).trans <| (W12_keep m c main_arg5 (by decide)).trans <| (W11_keep m c main_arg5 (by decide)).trans <| (W10_keep m c main_arg5 (by decide)).trans <| (W9_keep m c main_arg5 (by decide)).trans <| (W8_keep m c main_arg5 (by decide)).trans <| (W7_keep m c main_arg5 (by decide)).trans <| (W6_keep m c main_arg5 (by decide)).trans <| (W5_keep m c main_arg5 (by decide)).trans <| (W4_keep m c main_arg5 (by decide)).trans <| (W3_keep m c main_arg5 (by decide)).trans <| (W2_keep m c main_arg5 (by decide)).trans <| (W1_keep m c main_arg5 (by decide))]
/-- Region 7's result array, from the arrays its operands were left at by their producers. -/
theorem st7 (c : Dev nD) : W18 m c main_v47 = G7 (W14 m c main_v43) (W16 m c main_v45) (W17 m c main_v46) := by
  refine (W18_out m c).trans ((final7 (atTc (W17 m)) c).trans ?_)
  show G7 (W17 m c main_v43) (W17 m c main_v45) (W17 m c main_v46) = _
  rw [show W17 m c main_v43 = W14 m c main_v43 from (W17_keep m c main_v43 (by decide)).trans <| (W16_keep m c main_v43 (by decide)).trans <| (W15_keep m c main_v43 (by decide)),
    show W17 m c main_v45 = W16 m c main_v45 from (W17_keep m c main_v45 (by decide))]
/-- Region 8's result array, from the arrays its operands were left at by their producers. -/
theorem st8 (c : Dev nD) : W20 m c main_v49 = G8 (W18 m c main_v47) (W0 m c main_arg7) (W19 m c main_v48) := by
  refine (W20_out m c).trans ((final8 (atTc (W19 m)) c).trans ?_)
  show G8 (W19 m c main_v47) (W19 m c main_arg7) (W19 m c main_v48) = _
  rw [show W19 m c main_v47 = W18 m c main_v47 from (W19_keep m c main_v47 (by decide)),
    show W19 m c main_arg7 = W0 m c main_arg7 from (W19_keep m c main_arg7 (by decide)).trans <| (W18_keep m c main_arg7 (by decide)).trans <| (W17_keep m c main_arg7 (by decide)).trans <| (W16_keep m c main_arg7 (by decide)).trans <| (W15_keep m c main_arg7 (by decide)).trans <| (W14_keep m c main_arg7 (by decide)).trans <| (W13_keep m c main_arg7 (by decide)).trans <| (W12_keep m c main_arg7 (by decide)).trans <| (W11_keep m c main_arg7 (by decide)).trans <| (W10_keep m c main_arg7 (by decide)).trans <| (W9_keep m c main_arg7 (by decide)).trans <| (W8_keep m c main_arg7 (by decide)).trans <| (W7_keep m c main_arg7 (by decide)).trans <| (W6_keep m c main_arg7 (by decide)).trans <| (W5_keep m c main_arg7 (by decide)).trans <| (W4_keep m c main_arg7 (by decide)).trans <| (W3_keep m c main_arg7 (by decide)).trans <| (W2_keep m c main_arg7 (by decide)).trans <| (W1_keep m c main_arg7 (by decide))]
/-- Region 9's result array, from the arrays its operands were left at by their producers. -/
theorem st9 (c : Dev nD) : W22 m c main_v51 = G9 (W14 m c main_v43) (W20 m c main_v49) (W21 m c main_v50) := by
  refine (W22_out m c).trans ((final9 (atTc (W21 m)) c).trans ?_)
  show G9 (W21 m c main_v43) (W21 m c main_v49) (W21 m c main_v50) = _
  rw [show W21 m c main_v43 = W14 m c main_v43 from (W21_keep m c main_v43 (by decide)).trans <| (W20_keep m c main_v43 (by decide)).trans <| (W19_keep m c main_v43 (by decide)).trans <| (W18_keep m c main_v43 (by decide)).trans <| (W17_keep m c main_v43 (by decide)).trans <| (W16_keep m c main_v43 (by decide)).trans <| (W15_keep m c main_v43 (by decide)),
    show W21 m c main_v49 = W20 m c main_v49 from (W21_keep m c main_v49 (by decide))]
/-- Region 10's result array, from the arrays its operands were left at by their producers. -/
theorem st10 (c : Dev nD) : W24 m c main_v53 = G10 (W22 m c main_v51) (W0 m c main_arg9) (W23 m c main_v52) := by
  refine (W24_out m c).trans ((final10 (atTc (W23 m)) c).trans ?_)
  show G10 (W23 m c main_v51) (W23 m c main_arg9) (W23 m c main_v52) = _
  rw [show W23 m c main_v51 = W22 m c main_v51 from (W23_keep m c main_v51 (by decide)),
    show W23 m c main_arg9 = W0 m c main_arg9 from (W23_keep m c main_arg9 (by decide)).trans <| (W22_keep m c main_arg9 (by decide)).trans <| (W21_keep m c main_arg9 (by decide)).trans <| (W20_keep m c main_arg9 (by decide)).trans <| (W19_keep m c main_arg9 (by decide)).trans <| (W18_keep m c main_arg9 (by decide)).trans <| (W17_keep m c main_arg9 (by decide)).trans <| (W16_keep m c main_arg9 (by decide)).trans <| (W15_keep m c main_arg9 (by decide)).trans <| (W14_keep m c main_arg9 (by decide)).trans <| (W13_keep m c main_arg9 (by decide)).trans <| (W12_keep m c main_arg9 (by decide)).trans <| (W11_keep m c main_arg9 (by decide)).trans <| (W10_keep m c main_arg9 (by decide)).trans <| (W9_keep m c main_arg9 (by decide)).trans <| (W8_keep m c main_arg9 (by decide)).trans <| (W7_keep m c main_arg9 (by decide)).trans <| (W6_keep m c main_arg9 (by decide)).trans <| (W5_keep m c main_arg9 (by decide)).trans <| (W4_keep m c main_arg9 (by decide)).trans <| (W3_keep m c main_arg9 (by decide)).trans <| (W2_keep m c main_arg9 (by decide)).trans <| (W1_keep m c main_arg9 (by decide))]
/-- Region 11's result array, from the arrays its operands were left at by their producers. -/
theorem st11 (c : Dev nD) : W26 m c main_v55 = G11 (W14 m c main_v43) (W24 m c main_v53) (W25 m c main_v54) := by
  refine (W26_out m c).trans ((final11 (atTc (W25 m)) c).trans ?_)
  show G11 (W25 m c main_v43) (W25 m c main_v53) (W25 m c main_v54) = _
  rw [show W25 m c main_v43 = W14 m c main_v43 from (W25_keep m c main_v43 (by decide)).trans <| (W24_keep m c main_v43 (by decide)).trans <| (W23_keep m c main_v43 (by decide)).trans <| (W22_keep m c main_v43 (by decide)).trans <| (W21_keep m c main_v43 (by decide)).trans <| (W20_keep m c main_v43 (by decide)).trans <| (W19_keep m c main_v43 (by decide)).trans <| (W18_keep m c main_v43 (by decide)).trans <| (W17_keep m c main_v43 (by decide)).trans <| (W16_keep m c main_v43 (by decide)).trans <| (W15_keep m c main_v43 (by decide)),
    show W25 m c main_v53 = W24 m c main_v53 from (W25_keep m c main_v53 (by decide))]

/-- No item after region 4 writes the edge logits. -/
theorem logits_end (c : Dev nD) : W26 m c main_v8 = W9 m c main_v8 :=
  (W26_keep m c main_v8 (by decide)).trans <| (W25_keep m c main_v8 (by decide)).trans <| (W24_keep m c main_v8 (by decide)).trans <| (W23_keep m c main_v8 (by decide)).trans <| (W22_keep m c main_v8 (by decide)).trans <| (W21_keep m c main_v8 (by decide)).trans <| (W20_keep m c main_v8 (by decide)).trans <| (W19_keep m c main_v8 (by decide)).trans <| (W18_keep m c main_v8 (by decide)).trans <| (W17_keep m c main_v8 (by decide)).trans <| (W16_keep m c main_v8 (by decide)).trans <| (W15_keep m c main_v8 (by decide)).trans <| (W14_keep m c main_v8 (by decide)).trans <| (W13_keep m c main_v8 (by decide)).trans <| (W12_keep m c main_v8 (by decide)).trans <| (W11_keep m c main_v8 (by decide)).trans <| (W10_keep m c main_v8 (by decide))

/-! ## The small host stretches -/

/-- The bias row of a product without bias is zero. -/
theorem zero_main_v0 (c : Dev nD) (j : S1x256.Idx) : (W1 m c main_v0 j : EReal) = (0 : EReal) := by
  have e : (W1 m c main_v0 : S1x256.Idx → EReal) = broadcastInDim S1x256 ![] bcast_S_S1x256 (constant (F := Ideal) S_ FTy.f32 0#32) := by
    unfold W1; after_results; all_goals rfl
  exact (congrFun e j).trans Ideal.ofBits_zero_f32
/-- The bias row of a product without bias is zero. -/
theorem zero_main_v2 (c : Dev nD) (j : S1x256.Idx) : (W3 m c main_v2 j : EReal) = (0 : EReal) := by
  have e : (W3 m c main_v2 : S1x256.Idx → EReal) = broadcastInDim S1x256 ![] bcast_S_S1x256 (constant (F := Ideal) S_ FTy.f32 0#32) := by
    unfold W3; after_results; all_goals rfl
  exact (congrFun e j).trans Ideal.ofBits_zero_f32
/-- The bias row of a product without bias is zero. -/
theorem zero_main_v4 (c : Dev nD) (j : S1x64.Idx) : (W5 m c main_v4 j : EReal) = (0 : EReal) := by
  have e : (W5 m c main_v4 : S1x64.Idx → EReal) = broadcastInDim S1x64 ![] bcast_S_S1x64 (constant (F := Ideal) S_ FTy.f32 0#32) := by
    unfold W5; after_results; all_goals rfl
  exact (congrFun e j).trans Ideal.ofBits_zero_f32
/-- The bias row of a product without bias is zero. -/
theorem zero_main_v6 (c : Dev nD) (j : S1x64.Idx) : (W7 m c main_v6 j : EReal) = (0 : EReal) := by
  have e : (W7 m c main_v6 : S1x64.Idx → EReal) = broadcastInDim S1x64 ![] bcast_S_S1x64 (constant (F := Ideal) S_ FTy.f32 0#32) := by
    unfold W7; after_results; all_goals rfl
  exact (congrFun e j).trans Ideal.ofBits_zero_f32
/-- The bias row of a product without bias is zero. -/
theorem zero_main_v44 (c : Dev nD) (j : S1x256.Idx) : (W15 m c main_v44 j : EReal) = (0 : EReal) := by
  have e : (W15 m c main_v44 : S1x256.Idx → EReal) = broadcastInDim S1x256 ![] bcast_S_S1x256 (constant (F := Ideal) S_ FTy.f32 0#32) := by
    unfold W15; after_results; all_goals rfl
  exact (congrFun e j).trans Ideal.ofBits_zero_f32
/-- The bias row of a product without bias is zero. -/
theorem zero_main_v48 (c : Dev nD) (j : S1x256.Idx) : (W19 m c main_v48 j : EReal) = (0 : EReal) := by
  have e : (W19 m c main_v48 : S1x256.Idx → EReal) = broadcastInDim S1x256 ![] bcast_S_S1x256 (constant (F := Ideal) S_ FTy.f32 0#32) := by
    unfold W19; after_results; all_goals rfl
  exact (congrFun e j).trans Ideal.ofBits_zero_f32
/-- The bias row of a product without bias is zero. -/
theorem zero_main_v52 (c : Dev nD) (j : S1x16.Idx) : (W23 m c main_v52 j : EReal) = (0 : EReal) := by
  have e : (W23 m c main_v52 : S1x16.Idx → EReal) = broadcastInDim S1x16 ![] bcast_S_S1x16 (constant (F := Ideal) S_ FTy.f32 0#32) := by
    unfold W23; after_results; all_goals rfl
  exact (congrFun e j).trans Ideal.ofBits_zero_f32

/-- The bias vector re-laid as a 1 × 256 row. -/
theorem row_main_v46 (c : Dev nD) (q : Fin 256) : (W17 m c main_v46 (ix2 (0 : Fin 1) q) : EReal) = (W0 m c main_arg6 (ix1 q) : EReal) := by
  have e : (W17 m c main_v46 : S1x256.Idx → EReal) = shapeCast S1x256 (W16 m c main_arg6 : S256.Idx → EReal) shapeCasts_S256_S1x256 := by
    unfold W17; after_results; rfl
  have hc : W16 m c main_arg6 = W0 m c main_arg6 := (W16_keep m c main_arg6 (by decide)).trans <| (W15_keep m c main_arg6 (by decide)).trans <| (W14_keep m c main_arg6 (by decide)).trans <| (W13_keep m c main_arg6 (by decide)).trans <| (W12_keep m c main_arg6 (by decide)).trans <| (W11_keep m c main_arg6 (by decide)).trans <| (W10_keep m c main_arg6 (by decide)).trans <| (W9_keep m c main_arg6 (by decide)).trans <| (W8_keep m c main_arg6 (by decide)).trans <| (W7_keep m c main_arg6 (by decide)).trans <| (W6_keep m c main_arg6 (by decide)).trans <| (W5_keep m c main_arg6 (by decide)).trans <| (W4_keep m c main_arg6 (by decide)).trans <| (W3_keep m c main_arg6 (by decide)).trans <| (W2_keep m c main_arg6 (by decide)).trans <| (W1_keep m c main_arg6 (by decide))
  exact (congrFun e _).trans ((shapeCast_a_1a_apply _ _ (0 : Fin 1) q).trans (congrFun hc (ix1 q)))
/-- The bias vector re-laid as a 1 × 256 row. -/
theorem row_main_v50 (c : Dev nD) (q : Fin 256) : (W21 m c main_v50 (ix2 (0 : Fin 1) q) : EReal) = (W0 m c main_arg8 (ix1 q) : EReal) := by
  have e : (W21 m c main_v50 : S1x256.Idx → EReal) = shapeCast S1x256 (W20 m c main_arg8 : S256.Idx → EReal) shapeCasts_S256_S1x256 := by
    unfold W21; after_results; rfl
  have hc : W20 m c main_arg8 = W0 m c main_arg8 := (W20_keep m c main_arg8 (by decide)).trans <| (W19_keep m c main_arg8 (by decide)).trans <| (W18_keep m c main_arg8 (by decide)).trans <| (W17_keep m c main_arg8 (by decide)).trans <| (W16_keep m c main_arg8 (by decide)).trans <| (W15_keep m c main_arg8 (by decide)).trans <| (W14_keep m c main_arg8 (by decide)).trans <| (W13_keep m c main_arg8 (by decide)).trans <| (W12_keep m c main_arg8 (by decide)).trans <| (W11_keep m c main_arg8 (by decide)).trans <| (W10_keep m c main_arg8 (by decide)).trans <| (W9_keep m c main_arg8 (by decide)).trans <| (W8_keep m c main_arg8 (by decide)).trans <| (W7_keep m c main_arg8 (by decide)).trans <| (W6_keep m c main_arg8 (by decide)).trans <| (W5_keep m c main_arg8 (by decide)).trans <| (W4_keep m c main_arg8 (by decide)).trans <| (W3_keep m c main_arg8 (by decide)).trans <| (W2_keep m c main_arg8 (by decide)).trans <| (W1_keep m c main_arg8 (by decide))
  exact (congrFun e _).trans ((shapeCast_a_1a_apply _ _ (0 : Fin 1) q).trans (congrFun hc (ix1 q)))
/-- The bias vector re-laid as a 1 × 16 row. -/
theorem row_main_v54 (c : Dev nD) (q : Fin 16) : (W25 m c main_v54 (ix2 (0 : Fin 1) q) : EReal) = (W0 m c main_arg10 (ix1 q) : EReal) := by
  have e : (W25 m c main_v54 : S1x16.Idx → EReal) = shapeCast S1x16 (W24 m c main_arg10 : S16.Idx → EReal) shapeCasts_S16_S1x16 := by
    unfold W25; after_results; rfl
  have hc : W24 m c main_arg10 = W0 m c main_arg10 := (W24_keep m c main_arg10 (by decide)).trans <| (W23_keep m c main_arg10 (by decide)).trans <| (W22_keep m c main_arg10 (by decide)).trans <| (W21_keep m c main_arg10 (by decide)).trans <| (W20_keep m c main_arg10 (by decide)).trans <| (W19_keep m c main_arg10 (by decide)).trans <| (W18_keep m c main_arg10 (by decide)).trans <| (W17_keep m c main_arg10 (by decide)).trans <| (W16_keep m c main_arg10 (by decide)).trans <| (W15_keep m c main_arg10 (by decide)).trans <| (W14_keep m c main_arg10 (by decide)).trans <| (W13_keep m c main_arg10 (by decide)).trans <| (W12_keep m c main_arg10 (by decide)).trans <| (W11_keep m c main_arg10 (by decide)).trans <| (W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide))
  exact (congrFun e _).trans ((shapeCast_a_1a_apply _ _ (0 : Fin 1) q).trans (congrFun hc (ix1 q)))

end Cert.KernelIdeal.Hand

end
-- ==== Proof.RefStages.lean ====
/-
  The reference's stage operations read at an index, over the extended reals: a host matrix product of plain
  dimension numbers is the sum over k of a(p, k) · b(k, q); the maximum with a broadcast zero is the positive part.
-/
import proofs.«107088_j31018253811971_1_alg».proof.Proof.LibPlainDot
import Idealize.ShloMosaic.Lib.ValueIdx
import Idealize.ShloMosaic.Lib.ValueLayout
import Idealize.ShloMosaic.PureOps.Ideal.Laws

noncomputable section

open scoped BigOperators

namespace Cert.RefStages

open Idealize.ShloMosaic Idealize.ShloMosaic.ValueIdx

/-- A host product of plain dimension numbers at `(p, q)`. -/
theorem hostDot_apply {M K N : Nat} (d : DotDims ⟨2, ![M, K]⟩ ⟨2, ![K, N]⟩ ⟨2, ![M, N]⟩) (hd : d = DotDims.plain M K N) {φ₁ φ₂ : FTy}
    (a : FVec Ideal ⟨2, ![M, K]⟩ φ₁) (b : FVec Ideal ⟨2, ![K, N]⟩ φ₂) (p : Fin M) (q : Fin N) :
    Host.dotGeneral (F := Ideal) d none a b (ix2 p q) = ∑ k : Fin K, a (ix2 p k) * b (ix2 k q) := by
  subst hd
  simp only [Host.dotGeneral]
  rw [Ideal.dotGeneral_apply]
  exact Cert.PlainDot.contr_sum a b p q

end Cert.RefStages

end
-- ==== Proof.Bridge1.lean ====
/-
  The edge logits: the kernel's chain of five regions computes, over the extended reals, the reference's term. Each
  region's function, with the zero bias row the kernel adds, is the reference's host product (followed by the
  positive part in region 3; region 4's Gram matrix is the product with the transpose); the arguments agree.
-/
import proofs.«107088_j31018253811971_1_alg».proof.Proof.KI.Chain
import proofs.«107088_j31018253811971_1_alg».proof.Proof.RefRun
import proofs.«107088_j31018253811971_1_alg».proof.Proof.RefStages

set_option maxRecDepth 16384

noncomputable section

namespace Cert.ReferenceIdeal.Bridge

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- Region 0's function with a zero bias row is the reference's product. -/
theorem G0_ref (a : FVec Ideal ⟨2, ![4096, 512]⟩ .f32) (b : FVec Ideal ⟨2, ![512, 256]⟩ .f32) (z : (⟨2, ![1, 256]⟩ : Shape).Idx → EReal)
    (hz : ∀ j, z j = 0) :
    Cert.KernelIdeal.Hand.G0 a b z = Host.dotGeneral (F := Ideal) dot_S4096x512_S512x256_S4096x256_1_0_0_1_n_n none a b := by
  funext j
  obtain ⟨p, q, rfl⟩ : ∃ (p : Fin 4096) (q : Fin 256), j = ix2 p q := ⟨j 0, j 1, eq_ix2 j⟩
  show Cert.KernelIdeal.Hand.gemmAt a b z p q = _
  rw [Cert.RefStages.hostDot_apply dot_S4096x512_S512x256_S4096x256_1_0_0_1_n_n rfl]
  unfold Cert.KernelIdeal.Hand.gemmAt
  rw [hz, add_zero]

/-- Region 1's function with a zero bias row is the reference's product. -/
theorem G1_ref (a : FVec Ideal ⟨2, ![4096, 4096]⟩ .f32) (b : FVec Ideal ⟨2, ![4096, 256]⟩ .f32) (z : (⟨2, ![1, 256]⟩ : Shape).Idx → EReal)
    (hz : ∀ j, z j = 0) :
    Cert.KernelIdeal.Hand.G1 a b z = Host.dotGeneral (F := Ideal) dot_S4096x4096_S4096x256_S4096x256_1_0_0_1_n_n none a b := by
  funext j
  obtain ⟨p, q, rfl⟩ : ∃ (p : Fin 4096) (q : Fin 256), j = ix2 p q := ⟨j 0, j 1, eq_ix2 j⟩
  show Cert.KernelIdeal.Hand.gemmAt a b z p q = _
  rw [Cert.RefStages.hostDot_apply dot_S4096x4096_S4096x256_S4096x256_1_0_0_1_n_n rfl]
  unfold Cert.KernelIdeal.Hand.gemmAt
  rw [hz, add_zero]

/-- Region 2's function with a zero bias row is the reference's product. -/
theorem G2_ref (a : FVec Ideal ⟨2, ![4096, 256]⟩ .f32) (b : FVec Ideal ⟨2, ![256, 64]⟩ .f32) (z : (⟨2, ![1, 64]⟩ : Shape).Idx → EReal)
    (hz : ∀ j, z j = 0) :
    Cert.KernelIdeal.Hand.G2 a b z = Host.dotGeneral (F := Ideal) dot_S4096x256_S256x64_S4096x64_1_0_0_1_n_n none a b := by
  funext j
  obtain ⟨p, q, rfl⟩ : ∃ (p : Fin 4096) (q : Fin 64), j = ix2 p q := ⟨j 0, j 1, eq_ix2 j⟩
  show Cert.KernelIdeal.Hand.gemmAt a b z p q = _
  rw [Cert.RefStages.hostDot_apply dot_S4096x256_S256x64_S4096x64_1_0_0_1_n_n rfl]
  unfold Cert.KernelIdeal.Hand.gemmAt
  rw [hz, add_zero]

/-- Region 3's function with a zero bias row is the reference's product followed by the positive part. -/
theorem G3_ref (a : FVec Ideal ⟨2, ![4096, 4096]⟩ .f32) (b : FVec Ideal ⟨2, ![4096, 64]⟩ .f32) (z : (⟨2, ![1, 64]⟩ : Shape).Idx → EReal)
    (hz : ∀ j, z j = 0) :
    Cert.KernelIdeal.Hand.G3 a b z = maximumf (Host.dotGeneral (F := Ideal) dot_S4096x4096_S4096x64_S4096x64_1_0_0_1_n_n none a b) (broadcastInDim S4096x64 ![] bcast_S_S4096x64 (constant (F := Ideal) S_ .f32 0x00000000#32)) := by
  funext j
  obtain ⟨p, q, rfl⟩ : ∃ (p : Fin 4096) (q : Fin 64), j = ix2 p q := ⟨j 0, j 1, eq_ix2 j⟩
  show max (Cert.KernelIdeal.Hand.gemmAt a b z p q) 0 = max (Host.dotGeneral (F := Ideal) dot_S4096x4096_S4096x64_S4096x64_1_0_0_1_n_n none a b (ix2 p q)) (Ideal.ofBits .f32 0x00000000#32)
  rw [Cert.RefStages.hostDot_apply dot_S4096x4096_S4096x64_S4096x64_1_0_0_1_n_n rfl, Ideal.ofBits_zero_f32]
  unfold Cert.KernelIdeal.Hand.gemmAt
  rw [hz, add_zero]

/-- Region 4's Gram matrix is the reference's product of the array with its transpose. -/
theorem G4_ref (x : FVec Ideal ⟨2, ![4096, 64]⟩ .f32) :
    Cert.KernelIdeal.Hand.G4 x = Host.dotGeneral (F := Ideal) dot_S4096x64_S64x4096_S4096x4096_1_0_0_1_n_n none x (transpose S64x4096 [1, 0] x transposes_S4096x64_S64x4096_1_0) := by
  funext j
  obtain ⟨p, q, rfl⟩ : ∃ (p : Fin 4096) (q : Fin 4096), j = ix2 p q := ⟨j 0, j 1, eq_ix2 j⟩
  rw [Cert.RefStages.hostDot_apply dot_S4096x64_S64x4096_S4096x4096_1_0_0_1_n_n rfl]
  show (∑ k : Fin 64, x (ix2 p k) * x (ix2 q k)) = _
  exact Finset.sum_congr rfl fun k _ => by rw [transpose_ix2_apply]

/-- THE EDGE LOGITS: the reference's term at arguments that agree with the kernel's is what the kernel's chain ends with. -/
theorem logits_bridge (m : (ℓ : Loc Cert.KernelIdeal.nD Cert.KernelIdeal.τ Cert.KernelIdeal.sig) → Buf (Elt Ideal) ℓ)
    (m' : (ℓ : Loc nD τ sig) → Buf (Elt Ideal) ℓ) (c : Dev nD)
    (h0 : m' ((c.tc : Thread nD τ).loc main_arg0) = m ((c.tc : Thread Cert.KernelIdeal.nD Cert.KernelIdeal.τ).loc Cert.KernelIdeal.main_arg0))
    (h2 : m' ((c.tc : Thread nD τ).loc main_arg2) = m ((c.tc : Thread Cert.KernelIdeal.nD Cert.KernelIdeal.τ).loc Cert.KernelIdeal.main_arg2))
    (h3 : m' ((c.tc : Thread nD τ).loc main_arg3) = m ((c.tc : Thread Cert.KernelIdeal.nD Cert.KernelIdeal.τ).loc Cert.KernelIdeal.main_arg3))
    (h4 : m' ((c.tc : Thread nD τ).loc main_arg4) = m ((c.tc : Thread Cert.KernelIdeal.nD Cert.KernelIdeal.τ).loc Cert.KernelIdeal.main_arg4)) :
    Host.dotGeneral (F := Ideal) (φ₁ := .f32) (φ₂ := .f32) dot_S4096x64_S64x4096_S4096x4096_1_0_0_1_n_n none (maximumf (Host.dotGeneral (F := Ideal) (φ₁ := .f32) (φ₂ := .f32) dot_S4096x4096_S4096x64_S4096x64_1_0_0_1_n_n none (m' ((c.tc : Thread nD τ).loc main_arg0)) (Host.dotGeneral (F := Ideal) (φ₁ := .f32) (φ₂ := .f32) dot_S4096x256_S256x64_S4096x64_1_0_0_1_n_n none (Host.dotGeneral (F := Ideal) (φ₁ := .f32) (φ₂ := .f32) dot_S4096x4096_S4096x256_S4096x256_1_0_0_1_n_n none (m' ((c.tc : Thread nD τ).loc main_arg0)) (Host.dotGeneral (F := Ideal) (φ₁ := .f32) (φ₂ := .f32) dot_S4096x512_S512x256_S4096x256_1_0_0_1_n_n none (m' ((c.tc : Thread nD τ).loc main_arg2)) (m' ((c.tc : Thread nD τ).loc main_arg3)))) (m' ((c.tc : Thread nD τ).loc main_arg4)))) (broadcastInDim S4096x64 ![] bcast_S_S4096x64 (constant S_ .f32 0x00000000#32))) (transpose S64x4096 [1, 0] (maximumf (Host.dotGeneral (F := Ideal) (φ₁ := .f32) (φ₂ := .f32) dot_S4096x4096_S4096x64_S4096x64_1_0_0_1_n_n none (m' ((c.tc : Thread nD τ).loc main_arg0)) (Host.dotGeneral (F := Ideal) (φ₁ := .f32) (φ₂ := .f32) dot_S4096x256_S256x64_S4096x64_1_0_0_1_n_n none (Host.dotGeneral (F := Ideal) (φ₁ := .f32) (φ₂ := .f32) dot_S4096x4096_S4096x256_S4096x256_1_0_0_1_n_n none (m' ((c.tc : Thread nD τ).loc main_arg0)) (Host.dotGeneral (F := Ideal) (φ₁ := .f32) (φ₂ := .f32) dot_S4096x512_S512x256_S4096x256_1_0_0_1_n_n none (m' ((c.tc : Thread nD τ).loc main_arg2)) (m' ((c.tc : Thread nD τ).loc main_arg3)))) (m' ((c.tc : Thread nD τ).loc main_arg4)))) (broadcastInDim S4096x64 ![] bcast_S_S4096x64 (constant S_ .f32 0x00000000#32))) transposes_S4096x64_S64x4096_1_0)
      = (Cert.KernelIdeal.Hand.W26 (F := Ideal) m c Cert.KernelIdeal.main_v8 : FVec Ideal S4096x4096 .f32) := by
  rw [Cert.KernelIdeal.Hand.logits_end, Cert.KernelIdeal.Hand.st4, Cert.KernelIdeal.Hand.st3, Cert.KernelIdeal.Hand.st2, Cert.KernelIdeal.Hand.st1, Cert.KernelIdeal.Hand.st0]
  rw [G0_ref _ _ _ (Cert.KernelIdeal.Hand.zero_main_v0 m c), G1_ref _ _ _ (Cert.KernelIdeal.Hand.zero_main_v2 m c), G2_ref _ _ _ (Cert.KernelIdeal.Hand.zero_main_v4 m c),
    G3_ref _ _ _ (Cert.KernelIdeal.Hand.zero_main_v6 m c), G4_ref, h0, h2, h3, h4]
  rfl

end Cert.ReferenceIdeal.Bridge

end
-- ==== Proof.KI.Glue.lean ====
/-
  The host operations between region 4 and region 5, as functions: the blend `0.8 · (l / max l) + 0.2 · a` of the edge
  logits with the original adjacency; the rebuilt adjacency as a function of the ROUNDED blend (strict upper triangle,
  symmetrised, unit diagonal); its degree vector (row sums to the power -1/2); and the degree vector laid out as the
  4096 × 128 column block and as the 1 × 4096 row that region 5 reads. Each definition is the printed operations of
  the program composed; the kernel's chain of buffer contents holds them.
-/
import proofs.«107088_j31018253811971_1_alg».proof.Proof.KI.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The blend of the max-normalised edge logits with the original adjacency. -/
def blend (l a : FVec F S4096x4096 .f32) : FVec F S4096x4096 .f32 :=
  (addf (mulf ((broadcastInDim S4096x4096 ![] bcast_S_S4096x4096) (constant S_ .f32 0x3F4CCCCD#32)) (Host.divf l ((broadcastInDim S4096x4096 ![] bcast_S_S4096x4096) (((fun x v => Host.reduce FloatOps.maximumf x v reducesTo_S4096x4096_S_d0_1 h_S_)) l (constant S_ .f32 0xFF800000#32))))) (mulf ((broadcastInDim S4096x4096 ![] bcast_S_S4096x4096) (constant S_ .f32 0x3E4CCCCD#32)) a))

/-- The rebuilt adjacency from the rounded blend. -/
def adjNew (s : FVec F S4096x4096 .f32) : FVec F S4096x4096 .f32 :=
  (((fun x i u => Host.scatter scatter_S4096x4096_S4096x2_S4096_n_01_01_1 (fun _ b => b) x i u)) (addf (select (((cmpi .sge)) (addi ((iotaInDim S4096x4096 32 0)) (((broadcastInDim S4096x4096 ![] bcast_S_S4096x4096)) ((constantI S_ 32 0#32)))) ((iotaInDim S4096x4096 32 1))) (((broadcastInDim S4096x4096 ![] bcast_S_S4096x4096)) ((constant S_ .f32 0x00000000#32))) s) (((transpose S4096x4096 [1, 0] · transposes_S4096x4096_S4096x4096_1_0)) (select (((cmpi .sge)) (addi ((iotaInDim S4096x4096 32 0)) (((broadcastInDim S4096x4096 ![] bcast_S_S4096x4096)) ((constantI S_ 32 0#32)))) ((iotaInDim S4096x4096 32 1))) (((broadcastInDim S4096x4096 ![] bcast_S_S4096x4096)) ((constant S_ .f32 0x00000000#32))) s))) (((fun a b => concatenate S4096x2 1 [⟨S4096x1, a⟩, ⟨S4096x1, b⟩] concatenates_S4096x1_S4096x1_S4096x2_d1)) ((broadcastInDim S4096x1 ![0] bcast_S4096_S4096x1_0) (select ((cmpi .slt) (iotaInDim S4096 32 0) ((broadcastInDim S4096 ![] bcast_S_S4096) (constantI S_ 32 0#32))) (addi (iotaInDim S4096 32 0) ((broadcastInDim S4096 ![] bcast_S_S4096) (constantI S_ 32 4096#32))) (iotaInDim S4096 32 0))) ((broadcastInDim S4096x1 ![0] bcast_S4096_S4096x1_0) (select ((cmpi .slt) (iotaInDim S4096 32 0) ((broadcastInDim S4096 ![] bcast_S_S4096) (constantI S_ 32 0#32))) (addi (iotaInDim S4096 32 0) ((broadcastInDim S4096 ![] bcast_S_S4096) (constantI S_ 32 4096#32))) (iotaInDim S4096 32 0)))) ((broadcastInDim S4096 ![] bcast_S_S4096) (constant S_ .f32 0x3F800000#32)))

/-- The degree vector of an adjacency: its row sums to the power -1/2. -/
def dnVec (an : FVec F S4096x4096 .f32) : FVec F S4096 .f32 :=
  (Host.powf (((fun x v => Host.reduceAdd x v reducesTo_S4096x4096_S4096_d1 h_S_)) an (constant S_ .f32 0x00000000#32)) ((broadcastInDim S4096 ![] bcast_S_S4096) (constant S_ .f32 0xBF000000#32)))

/-- The degree vector as a 4096 × 128 block (every column the vector). -/
def dnRows (d : FVec F S4096 .f32) : FVec F S4096x128 .f32 :=
  ((broadcastInDim S4096x128 ![0, 1] bcast_S4096x1_S4096x128_0_1) ((broadcastInDim S4096x1 ![0] bcast_S4096_S4096x1_0) d))

/-- The degree vector as a 1 × 4096 row. -/
def dnRow (d : FVec F S4096 .f32) : FVec F S1x4096 .f32 :=
  (shapeCast S1x4096 d shapeCasts_S4096_S1x4096)

variable (m : (ℓ : Loc nD τ sig) → Buf (Elt F) ℓ)

theorem glue_v16 (c : Dev nD) : W10 m c main_v16 = blend (W9 m c main_v8) (W9 m c main_arg1) := by
  unfold W10; after_results; rfl

theorem glue_v17 (c : Dev nD) : W11 m c main_v17 = Host.roundeven (W10 m c main_v16) := by
  unfold W11; after_results; rfl

set_option maxHeartbeats 8000000 in
theorem glue_v36 (c : Dev nD) : W13 m c main_v36 = adjNew (W11 m c main_v17) := by
  unfold W13 W12; after_results; (try after_results); all_goals rfl

set_option maxHeartbeats 8000000 in
theorem glue_v41 (c : Dev nD) : W13 m c main_v41 = dnRows (dnVec (adjNew (W11 m c main_v17))) := by
  unfold W13 W12; after_results; (try after_results); all_goals rfl

set_option maxHeartbeats 8000000 in
theorem glue_v42 (c : Dev nD) : W13 m c main_v42 = dnRow (dnVec (adjNew (W11 m c main_v17))) := by
  unfold W13 W12; after_results; (try after_results); all_goals rfl

end Cert.KernelIdeal.Hand

end
-- ==== Proof.LibBlendBounds.lean ====
/-
  Two facts about the host operations over the extended reals used to bound a max-normalised blend.

  An entry of an array is at most the array's maximum reduction (over any axes, from any initial value): the
  reduction is a fold of `max` over a set that contains the entry's index. And a 32-bit float pattern with sign bit 0
  whose exponent field is not all ones denotes a nonnegative real number.
-/
import Idealize.ShloMosaic.PureOps.Ideal
import Idealize.ShloMosaic.PureOps.Reduce

noncomputable section

namespace Cert.Lib.BlendBounds

open Idealize.ShloMosaic

/-- An entry is at most the maximum reduction at the index it reduces to. -/
theorem le_reduce_max {s t u : Shape} {axes : List (Fin s.rank)} (x : s.Idx → EReal) (init : u.Idx → EReal)
    (h : s.ReducesTo axes t) (hu : 0 < u.numel) (i : s.Idx) :
    x i ≤ Host.reduce (max : EReal → EReal → EReal) x init h hu (h.drop i) := by
  rw [Host.reduce_eq_fold]
  exact (Finset.le_fold_max (x i)).mpr (Or.inr ⟨i, Finset.mem_filter.mpr ⟨Finset.mem_univ _, rfl⟩, le_rfl⟩)

/-- The same for a combining function that is `max` under another name. -/
theorem le_reduce_of_eq_max {s t u : Shape} {axes : List (Fin s.rank)} (f : EReal → EReal → EReal) (hf : f = max)
    (x : s.Idx → EReal) (init : u.Idx → EReal) (h : s.ReducesTo axes t) (hu : 0 < u.numel) (i : s.Idx) :
    x i ≤ Host.reduce f x init h hu (h.drop i) := by
  subst hf
  exact le_reduce_max x init h hu i

/-- A finite, sign-0 single-precision pattern is a nonnegative real. -/
theorem ofBits_f32_nonneg_real (b : BitVec 32) (hneg : (b.extractLsb' (8 + 23) 1 == 1#1) = false)
    (hex : ¬(b.extractLsb' 23 8).toNat = 2 ^ 8 - 1) :
    ∃ r : ℝ, 0 ≤ r ∧ Ideal.ofBits .f32 b = (r : EReal) := by
  show ∃ r : ℝ, 0 ≤ r ∧ Ideal.ieee 8 23 b = (r : EReal)
  unfold Ideal.ieee
  simp only [hneg, hex, if_false, Bool.false_eq_true]
  split_ifs
  · exact ⟨_, by positivity, rfl⟩
  · exact ⟨_, by positivity, rfl⟩

end Cert.Lib.BlendBounds

end
-- ==== Proof.KI.Round.lean ====
/-
  The rounding step of the adjacency rebuild. The blend `0.8 · (l / max l) + 0.2 · a` of nonnegative logits `l` with a
  real-valued adjacency `a` is never +∞ (the logit is at most the maximum, so the quotient is not +∞; the
  coefficients are nonnegative reals), hence rounding it directly and rounding it "straight through",
  `p + (round p − p)`, agree at every entry.
-/
import proofs.«107088_j31018253811971_1_alg».proof.Proof.KI.Glue
import proofs.«107088_j31018253811971_1_alg».proof.Proof.LibRoundThrough
import proofs.«107088_j31018253811971_1_alg».proof.Proof.LibBlendBounds
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- A scalar broadcast to every entry. -/
theorem bcast_scalar (x : S_.Idx → EReal) (j : S4096x4096.Idx) :
    broadcastInDim S4096x4096 ![] bcast_S_S4096x4096 x j = x (fun a => a.elim0) :=
  broadcastInDim_apply ![] bcast_S_S4096x4096 x j (fun a => a.elim0) (fun a => a.elim0)

/-- The maximum of all the logits, as the one-entry array the program computes. -/
def maxAll (l : FVec Ideal S4096x4096 .f32) : FVec Ideal S_ .f32 :=
  Host.reduce (FloatOps.maximumf (F := Ideal) (φ := .f32)) l (constant (F := Ideal) S_ .f32 0xFF800000#32) reducesTo_S4096x4096_S_d0_1 h_S_

/-- Every logit is at most the maximum. -/
theorem le_maxAll (l : FVec Ideal S4096x4096 .f32) (j : S4096x4096.Idx) : l j ≤ maxAll l (fun a => a.elim0) := by
  have h := Cert.Lib.BlendBounds.le_reduce_of_eq_max (FloatOps.maximumf (F := Ideal) (φ := .f32)) rfl l
    (constant (F := Ideal) S_ .f32 0xFF800000#32) reducesTo_S4096x4096_S_d0_1 h_S_ j
  have hk' : reducesTo_S4096x4096_S_d0_1.drop j = (fun a => a.elim0) := funext fun a => Fin.elim0 a
  rw [hk'] at h
  unfold maxAll
  exact h

/-- The blend, with the maximum named. -/
theorem blend_unfold (l a : FVec Ideal S4096x4096 .f32) :
    blend (F := Ideal) l a
      = addf (mulf (broadcastInDim S4096x4096 ![] bcast_S_S4096x4096 (constant (F := Ideal) S_ .f32 0x3F4CCCCD#32))
            (Host.divf l (broadcastInDim S4096x4096 ![] bcast_S_S4096x4096 (maxAll l))))
          (mulf (broadcastInDim S4096x4096 ![] bcast_S_S4096x4096 (constant (F := Ideal) S_ .f32 0x3E4CCCCD#32)) a) := rfl

/-- The host quotient at an entry. -/
theorem hostDivf_apply {s : Shape} {φ : FTy} (x y : FVec Ideal s φ) (i : s.Idx) : Host.divf x y i = Ideal.div (x i) (y i) := rfl

/-- The blend at an entry. -/
theorem blend_apply (l a : FVec Ideal S4096x4096 .f32) (j : S4096x4096.Idx) :
    blend (F := Ideal) l a j
      = Ideal.ofBits .f32 0x3F4CCCCD#32 * Ideal.div (l j) (maxAll l (fun a => a.elim0)) + Ideal.ofBits .f32 0x3E4CCCCD#32 * a j := by
  rw [blend_unfold, addf_apply, mulf_apply, mulf_apply, bcast_scalar, bcast_scalar, hostDivf_apply, bcast_scalar,
    constant_apply, constant_apply]

/-- An entry of the blend is not +∞. -/
theorem blend_ne_top (l a : FVec Ideal S4096x4096 .f32) (hl : ∀ j, (0 : EReal) ≤ l j) (ha : ∀ j, ∃ y : ℝ, a j = (y : EReal))
    (j : S4096x4096.Idx) : blend (F := Ideal) l a j ≠ ⊤ := by
  obtain ⟨r1, hr1, e1⟩ := Cert.Lib.BlendBounds.ofBits_f32_nonneg_real 0x3F4CCCCD#32 (by decide) (by decide)
  obtain ⟨r2, hr2, e2⟩ := Cert.Lib.BlendBounds.ofBits_f32_nonneg_real 0x3E4CCCCD#32 (by decide) (by decide)
  obtain ⟨y, hy⟩ := ha j
  rw [blend_apply, e1, e2, hy]
  exact Cert.Proof.RoundThrough.mix_ne_top hr1 (hl j) (le_maxAll l j)

/-- The host rounding at an entry. -/
theorem roundeven_apply {s : Shape} (x : FVec Ideal s .f32) (i : s.Idx) :
    Host.roundeven x i = Ideal.liftRound Ideal.roundHalfEven (x i) := by
  unfold Host.roundeven
  exact Ideal.hostUnary_roundeven_def (x i)

/-- Rounding the blend and rounding it straight through agree. -/
theorem round_blend (l a : FVec Ideal S4096x4096 .f32) (hl : ∀ j, (0 : EReal) ≤ l j) (ha : ∀ j, ∃ y : ℝ, a j = (y : EReal)) :
    Host.roundeven (blend (F := Ideal) l a) = addf (blend (F := Ideal) l a) (subf (Host.roundeven (blend (F := Ideal) l a)) (blend (F := Ideal) l a)) := by
  funext j
  generalize hp : blend (F := Ideal) l a = p
  have hj : p j ≠ ⊤ := by rw [← hp]; exact blend_ne_top l a hl ha j
  rw [addf_apply, subf_apply, roundeven_apply]
  exact (Cert.Proof.RoundThrough.add_round_sub_self _ hj).symm

end Cert.KernelIdeal.Hand

end
-- ==== Proof.RefStaged.lean ====
/-
  The reference's two results as a composition of named stages: the edge logits; their blend with the original
  adjacency; the straight-through rounding; the rebuilt adjacency; its degree vector; the normalised adjacency; and
  the three graph-convolution layers. Each stage is the reference's printed operations composed; the composed terms
  the reference's run states are these stages composed.
-/
import proofs.«107088_j31018253811971_1_alg».proof.Proof.RefRun

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

def rLogits (a0 : FVec F S4096x4096 .f32) (x : FVec F S4096x512 .f32) (wb : FVec F S512x256 .f32) (wm : FVec F S256x64 .f32) : FVec F S4096x4096 .f32 :=
  (((fun l r => Host.dotGeneral dot_S4096x64_S64x4096_S4096x4096_1_0_0_1_n_n none l r)) (maximumf (((fun l r => Host.dotGeneral dot_S4096x4096_S4096x64_S4096x64_1_0_0_1_n_n none l r)) a0 (((fun l r => Host.dotGeneral dot_S4096x256_S256x64_S4096x64_1_0_0_1_n_n none l r)) (((fun l r => Host.dotGeneral dot_S4096x4096_S4096x256_S4096x256_1_0_0_1_n_n none l r)) a0 (((fun l r => Host.dotGeneral dot_S4096x512_S512x256_S4096x256_1_0_0_1_n_n none l r)) x wb)) wm)) ((broadcastInDim S4096x64 ![] bcast_S_S4096x64) (constant S_ .f32 0x00000000#32))) (((transpose S64x4096 [1, 0] · transposes_S4096x64_S64x4096_1_0)) (maximumf (((fun l r => Host.dotGeneral dot_S4096x4096_S4096x64_S4096x64_1_0_0_1_n_n none l r)) a0 (((fun l r => Host.dotGeneral dot_S4096x256_S256x64_S4096x64_1_0_0_1_n_n none l r)) (((fun l r => Host.dotGeneral dot_S4096x4096_S4096x256_S4096x256_1_0_0_1_n_n none l r)) a0 (((fun l r => Host.dotGeneral dot_S4096x512_S512x256_S4096x256_1_0_0_1_n_n none l r)) x wb)) wm)) ((broadcastInDim S4096x64 ![] bcast_S_S4096x64) (constant S_ .f32 0x00000000#32)))))

def rBlend (l a : FVec F S4096x4096 .f32) : FVec F S4096x4096 .f32 :=
  (addf (mulf ((broadcastInDim S4096x4096 ![] bcast_S_S4096x4096) (constant S_ .f32 0x3F4CCCCD#32)) (Host.divf l ((broadcastInDim S4096x4096 ![] bcast_S_S4096x4096) (((fun x v => Host.reduce FloatOps.maximumf x v reducesTo_S4096x4096_S_d0_1 h_S_)) l (constant S_ .f32 0xFF800000#32))))) (mulf ((broadcastInDim S4096x4096 ![] bcast_S_S4096x4096) (constant S_ .f32 0x3E4CCCCD#32)) a))

def rRound (p : FVec F S4096x4096 .f32) : FVec F S4096x4096 .f32 :=
  (addf p (subf (Host.roundeven p) p))

def rAdj (s : FVec F S4096x4096 .f32) : FVec F S4096x4096 .f32 :=
  (((fun x i u => Host.scatter scatter_S4096x4096_S4096x2_S4096_n_01_01_1 (fun _ b => b) x i u)) (addf (select ((cmpi .sge) (addi (iotaInDim S4096x4096 32 0) ((broadcastInDim S4096x4096 ![] bcast_S_S4096x4096) (constantI S_ 32 0#32))) (iotaInDim S4096x4096 32 1)) ((broadcastInDim S4096x4096 ![] bcast_S_S4096x4096) (constant S_ .f32 0x00000000#32)) s) (((transpose S4096x4096 [1, 0] · transposes_S4096x4096_S4096x4096_1_0)) (select ((cmpi .sge) (addi (iotaInDim S4096x4096 32 0) ((broadcastInDim S4096x4096 ![] bcast_S_S4096x4096) (constantI S_ 32 0#32))) (iotaInDim S4096x4096 32 1)) ((broadcastInDim S4096x4096 ![] bcast_S_S4096x4096) (constant S_ .f32 0x00000000#32)) s))) (((fun a b => concatenate S4096x2 1 [⟨S4096x1, a⟩, ⟨S4096x1, b⟩] concatenates_S4096x1_S4096x1_S4096x2_d1)) ((broadcastInDim S4096x1 ![0] bcast_S4096_S4096x1_0) (select ((cmpi .slt) (iotaInDim S4096 32 0) ((broadcastInDim S4096 ![] bcast_S_S4096) (constantI S_ 32 0#32))) (addi (iotaInDim S4096 32 0) ((broadcastInDim S4096 ![] bcast_S_S4096) (constantI S_ 32 4096#32))) (iotaInDim S4096 32 0))) ((broadcastInDim S4096x1 ![0] bcast_S4096_S4096x1_0) (select ((cmpi .slt) (iotaInDim S4096 32 0) ((broadcastInDim S4096 ![] bcast_S_S4096) (constantI S_ 32 0#32))) (addi (iotaInDim S4096 32 0) ((broadcastInDim S4096 ![] bcast_S_S4096) (constantI S_ 32 4096#32))) (iotaInDim S4096 32 0)))) ((broadcastInDim S4096 ![] bcast_S_S4096) (constant S_ .f32 0x3F800000#32)))

def rDn (an : FVec F S4096x4096 .f32) : FVec F S4096 .f32 :=
  (Host.powf (((fun x v => Host.reduceAdd x v reducesTo_S4096x4096_S4096_d1 h_S_)) an (constant S_ .f32 0x00000000#32)) ((broadcastInDim S4096 ![] bcast_S_S4096) (constant S_ .f32 0xBF000000#32)))

def rNormed (an : FVec F S4096x4096 .f32) (d : FVec F S4096 .f32) : FVec F S4096x4096 .f32 :=
  (mulf (mulf an ((broadcastInDim S4096x4096 ![0, 1] bcast_S4096x1_S4096x4096_0_1) ((broadcastInDim S4096x1 ![0] bcast_S4096_S4096x1_0) d))) ((broadcastInDim S4096x4096 ![0, 1] bcast_S1x4096_S4096x4096_0_1) ((broadcastInDim S1x4096 ![1] bcast_S4096_S1x4096_1) d)))

def rT3 (x : FVec F S4096x512 .f32) (w : FVec F S512x256 .f32) : FVec F S4096x256 .f32 :=
  (((fun l r => Host.dotGeneral dot_S4096x512_S512x256_S4096x256_1_0_0_1_n_n none l r)) x w)

def rH0 (nrm : FVec F S4096x4096 .f32) (t : FVec F S4096x256 .f32) (bv : FVec F S256 .f32) : FVec F S4096x256 .f32 :=
  (maximumf (addf (((fun l r => Host.dotGeneral dot_S4096x4096_S4096x256_S4096x256_1_0_0_1_n_n none l r)) nrm t) ((broadcastInDim S4096x256 ![0, 1] bcast_S1x256_S4096x256_0_1) ((broadcastInDim S1x256 ![1] bcast_S256_S1x256_1) bv))) ((broadcastInDim S4096x256 ![] bcast_S_S4096x256) (constant S_ .f32 0x00000000#32)))

def rT4 (h : FVec F S4096x256 .f32) (w : FVec F S256x256 .f32) : FVec F S4096x256 .f32 :=
  (((fun l r => Host.dotGeneral dot_S4096x256_S256x256_S4096x256_1_0_0_1_n_n none l r)) h w)

def rH1 (nrm : FVec F S4096x4096 .f32) (t : FVec F S4096x256 .f32) (bv : FVec F S256 .f32) : FVec F S4096x256 .f32 :=
  (maximumf (addf (((fun l r => Host.dotGeneral dot_S4096x4096_S4096x256_S4096x256_1_0_0_1_n_n none l r)) nrm t) ((broadcastInDim S4096x256 ![0, 1] bcast_S1x256_S4096x256_0_1) ((broadcastInDim S1x256 ![1] bcast_S256_S1x256_1) bv))) ((broadcastInDim S4096x256 ![] bcast_S_S4096x256) (constant S_ .f32 0x00000000#32)))

def rT5 (h : FVec F S4096x256 .f32) (w : FVec F S256x16 .f32) : FVec F S4096x16 .f32 :=
  (((fun l r => Host.dotGeneral dot_S4096x256_S256x16_S4096x16_1_0_0_1_n_n none l r)) h w)

def rOut (nrm : FVec F S4096x4096 .f32) (t : FVec F S4096x16 .f32) (bv : FVec F S16 .f32) : FVec F S4096x16 .f32 :=
  (addf (((fun l r => Host.dotGeneral dot_S4096x4096_S4096x16_S4096x16_1_0_0_1_n_n none l r)) nrm t) ((broadcastInDim S4096x16 ![0, 1] bcast_S1x16_S4096x16_0_1) ((broadcastInDim S1x16 ![1] bcast_S16_S1x16_1) bv)))

variable (m : (ℓ : Loc nD τ sig) → Buf (Elt F) ℓ) (c : Dev nD)

/-- The stages at the arguments. -/
def sLogits : FVec F S4096x4096 .f32 := rLogits (m ((c.tc : Thread nD τ).loc main_arg0)) (m ((c.tc : Thread nD τ).loc main_arg2)) (m ((c.tc : Thread nD τ).loc main_arg3)) (m ((c.tc : Thread nD τ).loc main_arg4))
def sAdj : FVec F S4096x4096 .f32 := rAdj (rRound (rBlend (sLogits m c) (m ((c.tc : Thread nD τ).loc main_arg1))))
def sNormed : FVec F S4096x4096 .f32 := rNormed (sAdj m c) (rDn (sAdj m c))
def sH0 : FVec F S4096x256 .f32 := rH0 (sNormed m c) (rT3 (m ((c.tc : Thread nD τ).loc main_arg2)) (m ((c.tc : Thread nD τ).loc main_arg5))) (m ((c.tc : Thread nD τ).loc main_arg6))
def sH1 : FVec F S4096x256 .f32 := rH1 (sNormed m c) (rT4 (sH0 m c) (m ((c.tc : Thread nD τ).loc main_arg7))) (m ((c.tc : Thread nD τ).loc main_arg8))
def sOut : FVec F S4096x16 .f32 := rOut (sNormed m c) (rT5 (sH1 m c) (m ((c.tc : Thread nD τ).loc main_arg9))) (m ((c.tc : Thread nD τ).loc main_arg10))

set_option maxHeartbeats 40000000 in
/-- The class scores the reference's run states are the stages composed. -/
theorem res_eq : Cert.ReferenceIdeal.ValueP.res_main_v62 m c = sOut m c := rfl

end Cert.ReferenceIdeal.Staged

end
-- ==== Proof.PreReal.lean ====
/-
  What the precondition says of the original adjacency: the precondition is the conjunction, over the eleven argument
  arrays, of "every entry has absolute value below +∞"; the second conjunct gives that every entry of the second
  argument is a real number.
-/
import proofs.«107088_j31018253811971_1_alg».proof.Pre_finite_inputs
import Idealize.ShloMosaic.Lib.ReduceAll
import Idealize.ShloMosaic.PureOps.Ideal.Laws

set_option maxRecDepth 16384

noncomputable section

namespace Cert.Pre_finite_inputs.Hand

open Cert.Pre_finite_inputs Idealize.ShloMosaic

variable [Cert.Pre_finite_inputs.Facts]

theorem inf_bits : Ideal.ofBits .f32 0x7F800000#32 = (⊤ : EReal) := by simp [Ideal.ofBits, Ideal.ieee]

set_option maxHeartbeats 4000000 in
/-- Every entry of the second argument is a real number. -/
theorem arg1_real (a0 : FVec Ideal S4096x4096 .f32) (a1 : FVec Ideal S4096x4096 .f32) (a2 : FVec Ideal S4096x512 .f32) (a3 : FVec Ideal S512x256 .f32)
    (a4 : FVec Ideal S256x64 .f32) (a5 : FVec Ideal S512x256 .f32) (a6 : FVec Ideal S256 .f32) (a7 : FVec Ideal S256x256 .f32) (a8 : FVec Ideal S256 .f32)
    (a9 : FVec Ideal S256x16 .f32) (a10 : FVec Ideal S16 .f32)
    (h : fn (F := Ideal) a0 a1 a2 a3 a4 a5 a6 a7 a8 a9 a10 = fun _ => 1#1) (j : S4096x4096.Idx) : ∃ y : ℝ, a1 j = (y : EReal) := by
  have h0 := congrFun h (fun a => a.elim0)
  unfold fn fn_part1 fn_part2 fn_part3 at h0
  dsimp only at h0
  have p1 := (IntOp.andi_eq_one.1 h0).1
  have p2 := (IntOp.andi_eq_one.1 p1).1
  have p3 := (IntOp.andi_eq_one.1 p2).1
  have p4 := (IntOp.andi_eq_one.1 p3).1
  have p5 := (IntOp.andi_eq_one.1 p4).1
  have p6 := (IntOp.andi_eq_one.1 p5).1
  have p7 := (IntOp.andi_eq_one.1 p6).1
  have p8 := (IntOp.andi_eq_one.1 p7).1
  have p9 := (IntOp.andi_eq_one.1 p8).1
  have h7 := (IntOp.andi_eq_one.1 p9).2
  have hj := Host.reduce_andi_eq_one _ _ _ _ _ h7 j (funext fun a => a.elim0)
  have hlt : max (a1 j) (-(a1 j)) < (⊤ : EReal) := by
    have hj' : Ideal.cmp .olt (max (a1 j) (-(a1 j))) (Ideal.ofBits .f32 0x7F800000#32) = 1#1 := hj
    rw [inf_bits] at hj'
    have hb : decide (max (a1 j) (-(a1 j)) < (⊤ : EReal)) = true := by
      by_contra hne
      rw [Bool.not_eq_true] at hne
      have h0' : Ideal.cmp .olt (max (a1 j) (-(a1 j))) (⊤ : EReal) = 0#1 := by
        show BitVec.ofBool (decide (max (a1 j) (-(a1 j)) < (⊤ : EReal))) = 0#1
        rw [hne]; rfl
      rw [h0'] at hj'
      exact absurd hj' (by decide)
    exact of_decide_eq_true hb
  have h1 : a1 j ≠ ⊤ := fun e => by rw [e] at hlt; simp at hlt
  have h2 : a1 j ≠ ⊥ := fun e => by rw [e] at hlt; simp at hlt
  exact ⟨(a1 j).toReal, (EReal.coe_toReal h1 h2).symm⟩

end Cert.Pre_finite_inputs.Hand

end
-- ==== Proof.Bridge2.lean ====
/-
  The class scores: the kernel's chain of regions and host stretches computes, over the extended reals, the reference's
  term. The reference is read as its named stages; the kernel's blend, adjacency rebuild and degree vector are the
  reference's (the same operations); the kernel rounds the blend directly where the reference rounds it straight
  through, which agree because no entry of the blend is +∞ (the logits are nonnegative — a Gram matrix of positive
  parts — and at most their maximum; the original adjacency is real by the precondition); region 5's product with the
  degree column and row is the reference's two broadcast multiplications; each product region with its zero bias row is
  the reference's product, each biased region (with the positive part where the layer has one) the reference's layer.
-/
import proofs.«107088_j31018253811971_1_alg».proof.Proof.Bridge1
import proofs.«107088_j31018253811971_1_alg».proof.Proof.KI.Round
import proofs.«107088_j31018253811971_1_alg».proof.Proof.RefStaged
import proofs.«107088_j31018253811971_1_alg».proof.Proof.PreReal
import proofs.«107088_j31018253811971_1_alg».proof.Proof.Gen.Pre_finite_inputs

set_option maxRecDepth 16384

noncomputable section

namespace Cert.ReferenceIdeal.Bridge

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Staged
open scoped BigOperators

/-! ## Broadcasts of a vector at an index -/

/-- A vector broadcast down the rows: entry (p, q) is the vector's entry q. -/
theorem bc_row {M n : Nat} (d : (⟨1, ![n]⟩ : Shape).Idx → EReal) (h1 : (⟨1, ![n]⟩ : Shape).BroadcastsInDim ⟨2, ![1, n]⟩ ![1])
    (h2 : (⟨2, ![1, n]⟩ : Shape).BroadcastsInDim ⟨2, ![M, n]⟩ ![0, 1]) (hn : n ≠ 1) (p : Fin M) (q : Fin n) :
    broadcastInDim ⟨2, ![M, n]⟩ ![0, 1] h2 (broadcastInDim ⟨2, ![1, n]⟩ ![1] h1 d) (ix2 p q) = d (ix1 q) := by
  rw [broadcastInDim_apply ![0, 1] h2 _ (ix2 p q) (ix2 (0 : Fin 1) q) (fun a => by
      match a with
      | ⟨0, _⟩ => rfl
      | ⟨1, _⟩ => show q.val = if n = 1 then 0 else q.val; rw [if_neg hn]),
    broadcastInDim_apply ![1] h1 d (ix2 (0 : Fin 1) q) (ix1 q) (fun a => by
      match a with
      | ⟨0, _⟩ => show q.val = if n = 1 then 0 else q.val; rw [if_neg hn])]

/-- A vector broadcast along the columns: entry (p, q) is the vector's entry p. -/
theorem bc_col {M n : Nat} (d : (⟨1, ![M]⟩ : Shape).Idx → EReal) (h1 : (⟨1, ![M]⟩ : Shape).BroadcastsInDim ⟨2, ![M, 1]⟩ ![0])
    (h2 : (⟨2, ![M, 1]⟩ : Shape).BroadcastsInDim ⟨2, ![M, n]⟩ ![0, 1]) (hM : M ≠ 1) (p : Fin M) (q : Fin n) :
    broadcastInDim ⟨2, ![M, n]⟩ ![0, 1] h2 (broadcastInDim ⟨2, ![M, 1]⟩ ![0] h1 d) (ix2 p q) = d (ix1 p) := by
  rw [broadcastInDim_apply ![0, 1] h2 _ (ix2 p q) (ix2 p (0 : Fin 1)) (fun a => by
      match a with
      | ⟨0, _⟩ => show p.val = if M = 1 then 0 else p.val; rw [if_neg hM]
      | ⟨1, _⟩ => rfl),
    broadcastInDim_apply ![0] h1 d (ix2 p (0 : Fin 1)) (ix1 p) (fun a => by
      match a with
      | ⟨0, _⟩ => show p.val = if M = 1 then 0 else p.val; rw [if_neg hM])]

/-! ## The stages -/

/-- Region 6's function with a zero bias row is the reference's product stage. -/
theorem G6_st (a : FVec Ideal ⟨2, ![4096, 512]⟩ .f32) (b : FVec Ideal ⟨2, ![512, 256]⟩ .f32) (z : (⟨2, ![1, 256]⟩ : Shape).Idx → EReal)
    (hz : ∀ j, z j = 0) : Cert.KernelIdeal.Hand.G6 a b z = rT3 a b := by
  funext j
  obtain ⟨p, q, rfl⟩ : ∃ (p : Fin 4096) (q : Fin 256), j = ix2 p q := ⟨j 0, j 1, eq_ix2 j⟩
  show Cert.KernelIdeal.Hand.gemmAt a b z p q = Host.dotGeneral (F := Ideal) (φ₁ := .f32) (φ₂ := .f32) dot_S4096x512_S512x256_S4096x256_1_0_0_1_n_n none a b (ix2 p q)
  rw [Cert.RefStages.hostDot_apply dot_S4096x512_S512x256_S4096x256_1_0_0_1_n_n rfl]
  unfold Cert.KernelIdeal.Hand.gemmAt
  rw [hz, add_zero]

/-- Region 8's function with a zero bias row is the reference's product stage. -/
theorem G8_st (a : FVec Ideal ⟨2, ![4096, 256]⟩ .f32) (b : FVec Ideal ⟨2, ![256, 256]⟩ .f32) (z : (⟨2, ![1, 256]⟩ : Shape).Idx → EReal)
    (hz : ∀ j, z j = 0) : Cert.KernelIdeal.Hand.G8 a b z = rT4 a b := by
  funext j
  obtain ⟨p, q, rfl⟩ : ∃ (p : Fin 4096) (q : Fin 256), j = ix2 p q := ⟨j 0, j 1, eq_ix2 j⟩
  show Cert.KernelIdeal.Hand.gemmAt a b z p q = Host.dotGeneral (F := Ideal) (φ₁ := .f32) (φ₂ := .f32) dot_S4096x256_S256x256_S4096x256_1_0_0_1_n_n none a b (ix2 p q)
  rw [Cert.RefStages.hostDot_apply dot_S4096x256_S256x256_S4096x256_1_0_0_1_n_n rfl]
  unfold Cert.KernelIdeal.Hand.gemmAt
  rw [hz, add_zero]

/-- Region 10's function with a zero bias row is the reference's product stage. -/
theorem G10_st (a : FVec Ideal ⟨2, ![4096, 256]⟩ .f32) (b : FVec Ideal ⟨2, ![256, 16]⟩ .f32) (z : (⟨2, ![1, 16]⟩ : Shape).Idx → EReal)
    (hz : ∀ j, z j = 0) : Cert.KernelIdeal.Hand.G10 a b z = rT5 a b := by
  funext j
  obtain ⟨p, q, rfl⟩ : ∃ (p : Fin 4096) (q : Fin 16), j = ix2 p q := ⟨j 0, j 1, eq_ix2 j⟩
  show Cert.KernelIdeal.Hand.gemmAt a b z p q = Host.dotGeneral (F := Ideal) (φ₁ := .f32) (φ₂ := .f32) dot_S4096x256_S256x16_S4096x16_1_0_0_1_n_n none a b (ix2 p q)
  rw [Cert.RefStages.hostDot_apply dot_S4096x256_S256x16_S4096x16_1_0_0_1_n_n rfl]
  unfold Cert.KernelIdeal.Hand.gemmAt
  rw [hz, add_zero]

/-- Region 7's function with a bias row that is the vector `bv` re-laid is the reference's layer stage. -/
theorem G7_st (a : FVec Ideal ⟨2, ![4096, 4096]⟩ .f32) (b : FVec Ideal ⟨2, ![4096, 256]⟩ .f32) (z : (⟨2, ![1, 256]⟩ : Shape).Idx → EReal)
    (bv : FVec Ideal ⟨1, ![256]⟩ .f32) (hrow : ∀ q : Fin 256, z (ix2 (0 : Fin 1) q) = bv (ix1 q)) : Cert.KernelIdeal.Hand.G7 a b z = rH0 a b bv := by
  funext j
  obtain ⟨p, q, rfl⟩ : ∃ (p : Fin 4096) (q : Fin 256), j = ix2 p q := ⟨j 0, j 1, eq_ix2 j⟩
  show max (Cert.KernelIdeal.Hand.gemmAt a b z p q) 0
    = max (Host.dotGeneral (F := Ideal) (φ₁ := .f32) (φ₂ := .f32) dot_S4096x4096_S4096x256_S4096x256_1_0_0_1_n_n none a b (ix2 p q)
      + broadcastInDim S4096x256 ![0, 1] bcast_S1x256_S4096x256_0_1 (broadcastInDim S1x256 ![1] bcast_S256_S1x256_1 bv) (ix2 p q)) (Ideal.ofBits .f32 0x00000000#32)
  rw [Cert.RefStages.hostDot_apply dot_S4096x4096_S4096x256_S4096x256_1_0_0_1_n_n rfl, bc_row bv _ _ (by decide), Ideal.ofBits_zero_f32]
  unfold Cert.KernelIdeal.Hand.gemmAt
  rw [hrow]

/-- Region 9's function with a bias row that is the vector `bv` re-laid is the reference's layer stage. -/
theorem G9_st (a : FVec Ideal ⟨2, ![4096, 4096]⟩ .f32) (b : FVec Ideal ⟨2, ![4096, 256]⟩ .f32) (z : (⟨2, ![1, 256]⟩ : Shape).Idx → EReal)
    (bv : FVec Ideal ⟨1, ![256]⟩ .f32) (hrow : ∀ q : Fin 256, z (ix2 (0 : Fin 1) q) = bv (ix1 q)) : Cert.KernelIdeal.Hand.G9 a b z = rH1 a b bv := by
  funext j
  obtain ⟨p, q, rfl⟩ : ∃ (p : Fin 4096) (q : Fin 256), j = ix2 p q := ⟨j 0, j 1, eq_ix2 j⟩
  show max (Cert.KernelIdeal.Hand.gemmAt a b z p q) 0
    = max (Host.dotGeneral (F := Ideal) (φ₁ := .f32) (φ₂ := .f32) dot_S4096x4096_S4096x256_S4096x256_1_0_0_1_n_n none a b (ix2 p q)
      + broadcastInDim S4096x256 ![0, 1] bcast_S1x256_S4096x256_0_1 (broadcastInDim S1x256 ![1] bcast_S256_S1x256_1 bv) (ix2 p q)) (Ideal.ofBits .f32 0x00000000#32)
  rw [Cert.RefStages.hostDot_apply dot_S4096x4096_S4096x256_S4096x256_1_0_0_1_n_n rfl, bc_row bv _ _ (by decide), Ideal.ofBits_zero_f32]
  unfold Cert.KernelIdeal.Hand.gemmAt
  rw [hrow]

/-- Region 11's function with a bias row that is the vector `bv` re-laid is the reference's layer stage. -/
theorem G11_st (a : FVec Ideal ⟨2, ![4096, 4096]⟩ .f32) (b : FVec Ideal ⟨2, ![4096, 16]⟩ .f32) (z : (⟨2, ![1, 16]⟩ : Shape).Idx → EReal)
    (bv : FVec Ideal ⟨1, ![16]⟩ .f32) (hrow : ∀ q : Fin 16, z (ix2 (0 : Fin 1) q) = bv (ix1 q)) : Cert.KernelIdeal.Hand.G11 a b z = rOut a b bv := by
  funext j
  obtain ⟨p, q, rfl⟩ : ∃ (p : Fin 4096) (q : Fin 16), j = ix2 p q := ⟨j 0, j 1, eq_ix2 j⟩
  show Cert.KernelIdeal.Hand.gemmAt a b z p q
    = Host.dotGeneral (F := Ideal) (φ₁ := .f32) (φ₂ := .f32) dot_S4096x4096_S4096x16_S4096x16_1_0_0_1_n_n none a b (ix2 p q)
      + broadcastInDim S4096x16 ![0, 1] bcast_S1x16_S4096x16_0_1 (broadcastInDim S1x16 ![1] bcast_S16_S1x16_1 bv) (ix2 p q)
  rw [Cert.RefStages.hostDot_apply dot_S4096x4096_S4096x16_S4096x16_1_0_0_1_n_n rfl, bc_row bv _ _ (by decide)]
  unfold Cert.KernelIdeal.Hand.gemmAt
  rw [hrow]

/-- Region 5's product with the degree column and row is the reference's normalisation. -/
theorem G5_st (an : FVec Ideal ⟨2, ![4096, 4096]⟩ .f32) (d : FVec Ideal ⟨1, ![4096]⟩ .f32) :
    Cert.KernelIdeal.Hand.G5 an (Cert.KernelIdeal.Hand.dnRows (F := Ideal) d) (Cert.KernelIdeal.Hand.dnRow (F := Ideal) d) = rNormed an d := by
  funext j
  obtain ⟨p, q, rfl⟩ : ∃ (p : Fin 4096) (q : Fin 4096), j = ix2 p q := ⟨j 0, j 1, eq_ix2 j⟩
  show an (ix2 p q)
      * broadcastInDim Cert.KernelIdeal.S4096x128 ![0, 1] _ (broadcastInDim Cert.KernelIdeal.S4096x1 ![0] _ d) (ix2 p (0 : Fin 128))
      * shapeCast Cert.KernelIdeal.S1x4096 d _ (ix2 (0 : Fin 1) q)
    = an (ix2 p q)
      * broadcastInDim S4096x4096 ![0, 1] bcast_S4096x1_S4096x4096_0_1 (broadcastInDim S4096x1 ![0] bcast_S4096_S4096x1_0 d) (ix2 p q)
      * broadcastInDim S4096x4096 ![0, 1] bcast_S1x4096_S4096x4096_0_1 (broadcastInDim S1x4096 ![1] bcast_S4096_S1x4096_1 d) (ix2 p q)
  rw [bc_col d _ _ (by decide), bc_col d _ _ (by decide), bc_row d _ _ (by decide), shapeCast_a_1a_apply]

/-- The kernel's blend, adjacency rebuild and degree vector are the reference's: the same operations. -/
theorem blend_st (l a : FVec Ideal ⟨2, ![4096, 4096]⟩ .f32) : Cert.KernelIdeal.Hand.blend (F := Ideal) l a = rBlend l a := rfl
theorem adj_st (s : FVec Ideal ⟨2, ![4096, 4096]⟩ .f32) : Cert.KernelIdeal.Hand.adjNew (F := Ideal) s = rAdj s := rfl
theorem dn_st (an : FVec Ideal ⟨2, ![4096, 4096]⟩ .f32) : Cert.KernelIdeal.Hand.dnVec (F := Ideal) an = rDn an := rfl

variable (m : (ℓ : Loc Cert.KernelIdeal.nD Cert.KernelIdeal.τ Cert.KernelIdeal.sig) → Buf (Elt Ideal) ℓ) (c : Dev nD)

/-- The kernel's edge logits are the reference's logits stage at the kernel's arguments. -/
theorem logits_st : Cert.KernelIdeal.Hand.W9 (F := Ideal) m c Cert.KernelIdeal.main_v8 = rLogits (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  rw [Cert.KernelIdeal.Hand.st4, Cert.KernelIdeal.Hand.st3, Cert.KernelIdeal.Hand.st2, Cert.KernelIdeal.Hand.st1, Cert.KernelIdeal.Hand.st0]
  rw [G0_ref _ _ _ (Cert.KernelIdeal.Hand.zero_main_v0 m c), G1_ref _ _ _ (Cert.KernelIdeal.Hand.zero_main_v2 m c), G2_ref _ _ _ (Cert.KernelIdeal.Hand.zero_main_v4 m c),
    G3_ref _ _ _ (Cert.KernelIdeal.Hand.zero_main_v6 m c), G4_ref]
  rfl

/-- The edge logits are nonnegative: a Gram matrix of positive parts. -/
theorem logits_nonneg (j : (⟨2, ![4096, 4096]⟩ : Shape).Idx) : (0 : EReal) ≤ Cert.KernelIdeal.Hand.W9 (F := Ideal) m c Cert.KernelIdeal.main_v8 j := by
  rw [Cert.KernelIdeal.Hand.st4, Cert.KernelIdeal.Hand.st3]
  show (0 : EReal) ≤ ∑ k : Fin 64, _ * _
  refine Finset.sum_nonneg fun k _ => mul_nonneg (le_max_right _ _) (le_max_right _ _)

set_option maxHeartbeats 40000000 in
/-- THE CLASS SCORES: the reference's term at arguments that agree with the kernel's is what the kernel's chain ends with,
    when the kernel's arguments satisfy the precondition. -/
theorem scores_bridge (m' : (ℓ : Loc nD τ sig) → Buf (Elt Ideal) ℓ)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) = (fun _ => 1#1))
    (h0 : m' ((c.tc : Thread nD τ).loc main_arg0) = m ((c.tc : Thread Cert.KernelIdeal.nD Cert.KernelIdeal.τ).loc Cert.KernelIdeal.main_arg0))
    (h1 : m' ((c.tc : Thread nD τ).loc main_arg1) = m ((c.tc : Thread Cert.KernelIdeal.nD Cert.KernelIdeal.τ).loc Cert.KernelIdeal.main_arg1))
    (h2 : m' ((c.tc : Thread nD τ).loc main_arg2) = m ((c.tc : Thread Cert.KernelIdeal.nD Cert.KernelIdeal.τ).loc Cert.KernelIdeal.main_arg2))
    (h3 : m' ((c.tc : Thread nD τ).loc main_arg3) = m ((c.tc : Thread Cert.KernelIdeal.nD Cert.KernelIdeal.τ).loc Cert.KernelIdeal.main_arg3))
    (h4 : m' ((c.tc : Thread nD τ).loc main_arg4) = m ((c.tc : Thread Cert.KernelIdeal.nD Cert.KernelIdeal.τ).loc Cert.KernelIdeal.main_arg4))
    (h5 : m' ((c.tc : Thread nD τ).loc main_arg5) = m ((c.tc : Thread Cert.KernelIdeal.nD Cert.KernelIdeal.τ).loc Cert.KernelIdeal.main_arg5))
    (h6 : m' ((c.tc : Thread nD τ).loc main_arg6) = m ((c.tc : Thread Cert.KernelIdeal.nD Cert.KernelIdeal.τ).loc Cert.KernelIdeal.main_arg6))
    (h7 : m' ((c.tc : Thread nD τ).loc main_arg7) = m ((c.tc : Thread Cert.KernelIdeal.nD Cert.KernelIdeal.τ).loc Cert.KernelIdeal.main_arg7))
    (h8 : m' ((c.tc : Thread nD τ).loc main_arg8) = m ((c.tc : Thread Cert.KernelIdeal.nD Cert.KernelIdeal.τ).loc Cert.KernelIdeal.main_arg8))
    (h9 : m' ((c.tc : Thread nD τ).loc main_arg9) = m ((c.tc : Thread Cert.KernelIdeal.nD Cert.KernelIdeal.τ).loc Cert.KernelIdeal.main_arg9))
    (h10 : m' ((c.tc : Thread nD τ).loc main_arg10) = m ((c.tc : Thread Cert.KernelIdeal.nD Cert.KernelIdeal.τ).loc Cert.KernelIdeal.main_arg10)) :
    Cert.ReferenceIdeal.ValueP.res_main_v62 (F := Ideal) m' c = (Cert.KernelIdeal.Hand.W26 (F := Ideal) m c Cert.KernelIdeal.main_v55 : FVec Ideal S4096x16 .f32) := by
  have ha : ∀ j, ∃ y : ℝ, (m ((c.tc : Thread Cert.KernelIdeal.nD Cert.KernelIdeal.τ).loc Cert.KernelIdeal.main_arg1)) j = (y : EReal) := fun j =>
    Cert.Pre_finite_inputs.Hand.arg1_real _ _ _ _ _ _ _ _ _ _ _ hpre j
  have harg1 : Cert.KernelIdeal.Hand.W9 (F := Ideal) m c Cert.KernelIdeal.main_arg1 = (m ((c.tc : Thread Cert.KernelIdeal.nD Cert.KernelIdeal.τ).loc Cert.KernelIdeal.main_arg1)) := (Cert.KernelIdeal.Hand.W9_keep m c Cert.KernelIdeal.main_arg1 (by decide)).trans <| (Cert.KernelIdeal.Hand.W8_keep m c Cert.KernelIdeal.main_arg1 (by decide)).trans <| (Cert.KernelIdeal.Hand.W7_keep m c Cert.KernelIdeal.main_arg1 (by decide)).trans <| (Cert.KernelIdeal.Hand.W6_keep m c Cert.KernelIdeal.main_arg1 (by decide)).trans <| (Cert.KernelIdeal.Hand.W5_keep m c Cert.KernelIdeal.main_arg1 (by decide)).trans <| (Cert.KernelIdeal.Hand.W4_keep m c Cert.KernelIdeal.main_arg1 (by decide)).trans <| (Cert.KernelIdeal.Hand.W3_keep m c Cert.KernelIdeal.main_arg1 (by decide)).trans <| (Cert.KernelIdeal.Hand.W2_keep m c Cert.KernelIdeal.main_arg1 (by decide)).trans <| (Cert.KernelIdeal.Hand.W1_keep m c Cert.KernelIdeal.main_arg1 (by decide))
  rw [Staged.res_eq]
  unfold sOut sH1 sH0 sNormed sAdj sLogits
  rw [h0, h1, h2, h3, h4, h5, h6, h7, h8, h9, h10]
  rw [Cert.KernelIdeal.Hand.st11, Cert.KernelIdeal.Hand.st10, Cert.KernelIdeal.Hand.st9, Cert.KernelIdeal.Hand.st8, Cert.KernelIdeal.Hand.st7, Cert.KernelIdeal.Hand.st6, Cert.KernelIdeal.Hand.st5,
    Cert.KernelIdeal.Hand.glue_v36, Cert.KernelIdeal.Hand.glue_v41, Cert.KernelIdeal.Hand.glue_v42, Cert.KernelIdeal.Hand.glue_v17, Cert.KernelIdeal.Hand.glue_v16, harg1]
  rw [Cert.KernelIdeal.Hand.round_blend _ _ (logits_nonneg m c) ha, logits_st]
  rw [G5_st, blend_st, adj_st, dn_st,
    G6_st _ _ _ (Cert.KernelIdeal.Hand.zero_main_v44 m c), G7_st _ _ _ (Cert.KernelIdeal.Hand.W0 m c Cert.KernelIdeal.main_arg6) (Cert.KernelIdeal.Hand.row_main_v46 m c),
    G8_st _ _ _ (Cert.KernelIdeal.Hand.zero_main_v48 m c), G9_st _ _ _ (Cert.KernelIdeal.Hand.W0 m c Cert.KernelIdeal.main_arg8) (Cert.KernelIdeal.Hand.row_main_v50 m c),
    G10_st _ _ _ (Cert.KernelIdeal.Hand.zero_main_v52 m c), G11_st _ _ _ (Cert.KernelIdeal.Hand.W0 m c Cert.KernelIdeal.main_arg10) (Cert.KernelIdeal.Hand.row_main_v54 m c)]
  rfl

end Cert.ReferenceIdeal.Bridge

end
-- ==== Proof.lean ====
/-
  Kernel: a variational graph auto-encoder followed by a three-layer graph convolution network, every product
  tiled (row tiles of 1024, contractions over 4096 accumulated in four blocks of 1024 in a scratch that is zeroed at
  the first block and read out, plus bias and optional relu, at the last). Reference: the same composition with whole
  products.

  The two programs compute, at the extended reals:
    t1 = X·Wb, hidden = A·t1, t2 = hidden·Wm, mean = max(A·t2, 0), logits = mean·meanᵀ,
    p = 0.8·(logits / max logits) + 0.2·A₀, s = triu(round p, 1), A' = s + sᵀ with unit diagonal,
    d = (row sums of A')^(-1/2), Â = A'·d_i·d_j, h₀ = max(Â·(X·W0) + b0, 0), h₁ = max(Â·(h₀·W1) + b1, 0),
    out = Â·(h₁·W2) + b2,
  and return (out, logits). They differ in the tiling of the sums (associativity and commutativity of + on the
  extended reals), in zero biases the kernel adds (x + 0 = x), and in the rounding: the reference computes
  p + (round p − p), which is round p wherever p ≠ +∞ (Proof/LibRoundThrough.lean); p is never +∞ because
  0 ≤ logits ≤ max logits and A₀ is finite by the precondition.

  The frames and the idealization's ledger (empty). The two kernel programs' frames (Proof/K/, the
  word-level program; Proof/KI/, the idealized one, the same text in the other namespace) go region by region: per
  region the tiles each grid point stages, the body's run in each of its cases, what the accumulator holds from one
  point to the next, and the region's record between two links of one chain of buffer contents from the launch
  memory; region 4's two input windows stage one array, held at two half shares. The reference's frame is its run
  with the results dropped.
  The value equation: the idealized kernel's run names its two results as what the last link of that chain holds
  (Proof/KI/RunCond.lean); region by region the result array is ONE function of the operand arrays (Proof/KI/Val*.lean:
  the stores' pieces read back as the payload, the payload at an index, the tiles placed in the arrays, four
  contraction blocks regrouped as one sum); along the chain these compose (Proof/KI/Chain.lean, Glue.lean); each is the
  reference's stage (Proof/Bridge1.lean, Bridge2.lean over Proof/RefStaged.lean), the one difference being the
  rounding, direct in the kernel and straight-through in the reference, which agree because no blended entry is +∞
  (Proof/KI/Round.lean, from Proof/LibRoundThrough.lean, LibBlendBounds.lean and the precondition, Proof/PreReal.lean).
-/
import proofs.«107088_j31018253811971_1_alg».proof.Defs
import proofs.«107088_j31018253811971_1_alg».proof.Proof.Gen.Kernel
import proofs.«107088_j31018253811971_1_alg».proof.Proof.Gen.Kernel.Skeleton
import proofs.«107088_j31018253811971_1_alg».proof.Proof.Gen.Kernel.Launch
import proofs.«107088_j31018253811971_1_alg».proof.Proof.Gen.Kernel.Regions
import proofs.«107088_j31018253811971_1_alg».proof.Proof.Gen.Kernel.Points
import proofs.«107088_j31018253811971_1_alg».proof.Proof.Gen.KernelIdeal
import proofs.«107088_j31018253811971_1_alg».proof.Proof.Gen.KernelIdeal.Skeleton
import proofs.«107088_j31018253811971_1_alg».proof.Proof.Gen.KernelIdeal.Launch
import proofs.«107088_j31018253811971_1_alg».proof.Proof.Gen.KernelIdeal.Regions
import proofs.«107088_j31018253811971_1_alg».proof.Proof.Gen.KernelIdeal.Points
import proofs.«107088_j31018253811971_1_alg».proof.Proof.Gen.ReferenceIdeal
import proofs.«107088_j31018253811971_1_alg».proof.Proof.RefRun
import proofs.«107088_j31018253811971_1_alg».proof.Proof.Gen.Pre_finite_inputs
import Idealize.ShloMosaic.Adequacy
import Idealize.ShloMosaic.Init

import proofs.«107088_j31018253811971_1_alg».proof.Proof.LibRoundThrough
import proofs.«107088_j31018253811971_1_alg».proof.Proof.K.Frame
import proofs.«107088_j31018253811971_1_alg».proof.Proof.KI.Frame
import proofs.«107088_j31018253811971_1_alg».proof.Proof.KI.RunCond
import proofs.«107088_j31018253811971_1_alg».proof.Proof.Bridge1
import proofs.«107088_j31018253811971_1_alg».proof.Proof.Bridge2

noncomputable section

namespace Cert.Proof

open Idealize.ShloMosaic Idealize.ShloMosaic.TcCoe Idealize.SL.Sem Cert.Kernel

/-- The word-level kernel program runs and leaves its arguments unchanged. -/
theorem frame_kernel : Cert.frame_Kernel := fun m ρ _ => Cert.Kernel.Hand.frame (F := Bits) m ρ

/-- The idealized kernel program runs and leaves its arguments unchanged. -/
theorem frame_kernel_ideal : Cert.frame_KernelIdeal := fun m ρ _ => Cert.KernelIdeal.Hand.frame (F := Ideal) m ρ

/-- The reference has no kernel: its frame is its run with the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- The idealization rewrote nothing. -/
theorem preserves : Cert.preserves_Kernel_KernelIdeal := trivial

/-- Both idealized programs run; the kernel's two result arrays are what the last link of its chain of buffer contents
    holds (the class scores: what region 11 leaves; the edge logits: what region 4 leaves), the reference's are its
    composed terms. What is left is that these are equal, index by index, when the arguments agree. -/
theorem algebraic : Cert.algebraic_KernelIdeal_ReferenceIdeal := by
  intro m ρ m' ρ' hpre hagree
  refine ⟨fun c => Cert.KernelIdeal.Hand.W26 (F := Ideal) m c Cert.KernelIdeal.main_v55,
    fun c => Cert.KernelIdeal.Hand.W26 (F := Ideal) m c Cert.KernelIdeal.main_v8,
    Cert.KernelIdeal.Hand.run (F := Ideal) m ρ, ?_⟩
  refine (θ_run Cert.ReferenceIdeal.defs _ _).mono ?_ (Cert.ReferenceIdeal.ValueP.run (F := Ideal) m' ρ')
  intro r h c
  refine ⟨(h c).1.trans ?_, (h c).2.1.trans ?_, (h c).2.2⟩
  · exact Cert.ReferenceIdeal.Bridge.scores_bridge m c m' (hpre c) (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2
  · exact Cert.ReferenceIdeal.Bridge.logits_bridge m m' c (hagree c).1 (hagree c).2.2.1 (hagree c).2.2.2.1 (hagree c).2.2.2.2.1

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
